-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v167)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v167) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v277) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S800000 : Shape := ⟨1, ![800000]⟩
abbrev S2x800000 : Shape := ⟨2, ![2, 800000]⟩
abbrev S2x100000x64 : Shape := ⟨3, ![2, 100000, 64]⟩
abbrev S2x128x64 : Shape := ⟨3, ![2, 128, 64]⟩
abbrev S2x64 : Shape := ⟨2, ![2, 64]⟩
abbrev S2x64x1 : Shape := ⟨3, ![2, 64, 1]⟩
abbrev S2x1 : Shape := ⟨2, ![2, 1]⟩
abbrev S2x64x64 : Shape := ⟨3, ![2, 64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S2x800000 : S_.BroadcastsInDim S2x800000 (![] : Fin 0 → Fin S2x800000.rank)
  reducesTo_S2x800000_S_d0_1 : S2x800000.ReducesTo [0, 1] S_
  bcast_S_S2x100000x64 : S_.BroadcastsInDim S2x100000x64 (![] : Fin 0 → Fin S2x100000x64.rank)
  reducesTo_S2x100000x64_S_d0_1_2 : S2x100000x64.ReducesTo [0, 1, 2] S_
  bcast_S_S2x128x64 : S_.BroadcastsInDim S2x128x64 (![] : Fin 0 → Fin S2x128x64.rank)
  reducesTo_S2x128x64_S_d0_1_2 : S2x128x64.ReducesTo [0, 1, 2] S_
  bcast_S_S2x64 : S_.BroadcastsInDim S2x64 (![] : Fin 0 → Fin S2x64.rank)
  reducesTo_S2x64_S_d0_1 : S2x64.ReducesTo [0, 1] S_
  bcast_S_S2x64x1 : S_.BroadcastsInDim S2x64x1 (![] : Fin 0 → Fin S2x64x1.rank)
  reducesTo_S2x64x1_S_d0_1_2 : S2x64x1.ReducesTo [0, 1, 2] S_
  bcast_S_S2x1 : S_.BroadcastsInDim S2x1 (![] : Fin 0 → Fin S2x1.rank)
  reducesTo_S2x1_S_d0_1 : S2x1.ReducesTo [0, 1] S_
  bcast_S_S2x64x64 : S_.BroadcastsInDim S2x64x64 (![] : Fin 0 → Fin S2x64x64.rank)
  reducesTo_S2x64x64_S_d0_1_2 : S2x64x64.ReducesTo [0, 1, 2] S_

variable [Facts]

def fn_part3 {F : FTy → Type} [FloatOps F] (main_arg13 : FVec F S2x64 .f32) (main_v48 : IVec S_ 1) (main_v49 : FVec F S2x64x64 .f32) (main_v50 : FVec F S2x64x64 .f32) : IVec S_ 1 :=
  let main_v51 : IVec S2x64x64 1 := cmpf .olt main_v49 main_v50
  let main_c_19 : IVec S_ 1 := constantI S_ 1 1#1
  let main_v52 : IVec S_ 1 := (fun x v => Host.reduce IntOp.andi x v reducesTo_S2x64x64_S_d0_1_2 h_S_) main_v51 main_c_19
  let main_v53 : IVec S_ 1 := andi main_v48 main_v52
  let main_v54 : FVec F S2x64 .f32 := Host.absf main_arg13
  let main_cst_20 : FVec F S_ .f32 := constant S_ .f32 0x7F800000#32
  let main_v55 : FVec F S2x64 .f32 := broadcastInDim S2x64 ![] bcast_S_S2x64 main_cst_20
  let main_v56 : IVec S2x64 1 := cmpf .olt main_v54 main_v55
  let main_c_21 : IVec S_ 1 := constantI S_ 1 1#1
  let main_v57 : IVec S_ 1 := (fun x v => Host.reduce IntOp.andi x v reducesTo_S2x64_S_d0_1 h_S_) main_v56 main_c_21
  let main_v58 : IVec S_ 1 := andi main_v53 main_v57
  main_v58

def fn_part2 {F : FTy → Type} [FloatOps F] (main_arg9 : FVec F S2x1 .f32) (main_arg10 : FVec F S2x64x64 .f32) (main_arg11 : FVec F S2x64 .f32) (main_arg12 : FVec F S2x64x64 .f32) (main_arg13 : FVec F S2x64 .f32) (main_v33 : IVec S_ 1) : IVec S_ 1 :=
  let main_v34 : FVec F S2x1 .f32 := Host.absf main_arg9
  let main_cst_12 : FVec F S_ .f32 := constant S_ .f32 0x7F800000#32
  let main_v35 : FVec F S2x1 .f32 := broadcastInDim S2x1 ![] bcast_S_S2x1 main_cst_12
  let main_v36 : IVec S2x1 1 := cmpf .olt main_v34 main_v35
  let main_c_13 : IVec S_ 1 := constantI S_ 1 1#1
  let main_v37 : IVec S_ 1 := (fun x v => Host.reduce IntOp.andi x v reducesTo_S2x1_S_d0_1 h_S_) main_v36 main_c_13
  let main_v38 : IVec S_ 1 := andi main_v33 main_v37
  let main_v39 : FVec F S2x64x64 .f32 := Host.absf main_arg10
  let main_cst_14 : FVec F S_ .f32 := constant S_ .f32 0x7F800000#32
  let main_v40 : FVec F S2x64x64 .f32 := broadcastInDim S2x64x64 ![] bcast_S_S2x64x64 main_cst_14
  let main_v41 : IVec S2x64x64 1 := cmpf .olt main_v39 main_v40
  let main_c_15 : IVec S_ 1 := constantI S_ 1 1#1
  let main_v42 : IVec S_ 1 := (fun x v => Host.reduce IntOp.andi x v reducesTo_S2x64x64_S_d0_1_2 h_S_) main_v41 main_c_15
  let main_v43 : IVec S_ 1 := andi main_v38 main_v42
  let main_v44 : FVec F S2x64 .f32 := Host.absf main_arg11
  let main_cst_16 : FVec F S_ .f32 := constant S_ .f32 0x7F800000#32
  let main_v45 : FVec F S2x64 .f32 := broadcastInDim S2x64 ![] bcast_S_S2x64 main_cst_16
  let main_v46 : IVec S2x64 1 := cmpf .olt main_v44 main_v45
  let main_c_17 : IVec S_ 1 := constantI S_ 1 1#1
  let main_v47 : IVec S_ 1 := (fun x v => Host.reduce IntOp.andi x v reducesTo_S2x64_S_d0_1 h_S_) main_v46 main_c_17
  let main_v48 : IVec S_ 1 := andi main_v43 main_v47
  let main_v49 : FVec F S2x64x64 .f32 := Host.absf main_arg12
  let main_cst_18 : FVec F S_ .f32 := constant S_ .f32 0x7F800000#32
  let main_v50 : FVec F S2x64x64 .f32 := broadcastInDim S2x64x64 ![] bcast_S_S2x64x64 main_cst_18
  fn_part3 (F := F) main_arg13 main_v48 main_v49 main_v50

def fn_part1 {F : FTy → Type} [FloatOps F] (main_arg6 : FVec F S2x128x64 .f32) (main_arg7 : FVec F S2x64 .f32) (main_arg8 : FVec F S2x64x1 .f32) (main_arg9 : FVec F S2x1 .f32) (main_arg10 : FVec F S2x64x64 .f32) (main_arg11 : FVec F S2x64 .f32) (main_arg12 : FVec F S2x64x64 .f32) (main_arg13 : FVec F S2x64 .f32) (main_v13 : IVec S_ 1) (main_v16 : IVec S2x100000x64 1) : IVec S_ 1 :=
  let main_c_5 : IVec S_ 1 := constantI S_ 1 1#1
  let main_v17 : IVec S_ 1 := (fun x v => Host.reduce IntOp.andi x v reducesTo_S2x100000x64_S_d0_1_2 h_S_) main_v16 main_c_5
  let main_v18 : IVec S_ 1 := andi main_v13 main_v17
  let main_v19 : FVec F S2x128x64 .f32 := Host.absf main_arg6
  let main_cst_6 : FVec F S_ .f32 := constant S_ .f32 0x7F800000#32
  let main_v20 : FVec F S2x128x64 .f32 := broadcastInDim S2x128x64 ![] bcast_S_S2x128x64 main_cst_6
  let main_v21 : IVec S2x128x64 1 := cmpf .olt main_v19 main_v20
  let main_c_7 : IVec S_ 1 := constantI S_ 1 1#1
  let main_v22 : IVec S_ 1 := (fun x v => Host.reduce IntOp.andi x v reducesTo_S2x128x64_S_d0_1_2 h_S_) main_v21 main_c_7
  let main_v23 : IVec S_ 1 := andi main_v18 main_v22
  let main_v24 : FVec F S2x64 .f32 := Host.absf main_arg7
  let main_cst_8 : FVec F S_ .f32 := constant S_ .f32 0x7F800000#32
  let main_v25 : FVec F S2x64 .f32 := broadcastInDim S2x64 ![] bcast_S_S2x64 main_cst_8
  let main_v26 : IVec S2x64 1 := cmpf .olt main_v24 main_v25
  let main_c_9 : IVec S_ 1 := constantI S_ 1 1#1
  let main_v27 : IVec S_ 1 := (fun x v => Host.reduce IntOp.andi x v reducesTo_S2x64_S_d0_1 h_S_) main_v26 main_c_9
  let main_v28 : IVec S_ 1 := andi main_v23 main_v27
  let main_v29 : FVec F S2x64x1 .f32 := Host.absf main_arg8
  let main_cst_10 : FVec F S_ .f32 := constant S_ .f32 0x7F800000#32
  let main_v30 : FVec F S2x64x1 .f32 := broadcastInDim S2x64x1 ![] bcast_S_S2x64x1 main_cst_10
  let main_v31 : IVec S2x64x1 1 := cmpf .olt main_v29 main_v30
  let main_c_11 : IVec S_ 1 := constantI S_ 1 1#1
  let main_v32 : IVec S_ 1 := (fun x v => Host.reduce IntOp.andi x v reducesTo_S2x64x1_S_d0_1_2 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x64 .f32) (main_arg1 : IVec S800000 32) (main_arg2 : IVec S800000 32) (main_arg3 : FVec F S800000 .f32) (main_arg4 : FVec F S2x800000 .f32) (main_arg5 : FVec F S2x100000x64 .f32) (main_arg6 : FVec F S2x128x64 .f32) (main_arg7 : FVec F S2x64 .f32) (main_arg8 : FVec F S2x64x1 .f32) (main_arg9 : FVec F S2x1 .f32) (main_arg10 : FVec F S2x64x64 .f32) (main_arg11 : FVec F S2x64 .f32) (main_arg12 : FVec F S2x64x64 .f32) (main_arg13 : FVec F S2x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S2x800000 .f32 := Host.absf main_arg4
  let main_cst_2 : FVec F S_ .f32 := constant S_ .f32 0x7F800000#32
  let main_v10 : FVec F S2x800000 .f32 := broadcastInDim S2x800000 ![] bcast_S_S2x800000 main_cst_2
  let main_v11 : IVec S2x800000 1 := cmpf .olt main_v9 main_v10
  let main_c_3 : IVec S_ 1 := constantI S_ 1 1#1
  let main_v12 : IVec S_ 1 := (fun x v => Host.reduce IntOp.andi x v reducesTo_S2x800000_S_d0_1 h_S_) main_v11 main_c_3
  let main_v13 : IVec S_ 1 := andi main_v8 main_v12
  let main_v14 : FVec F S2x100000x64 .f32 := Host.absf main_arg5
  let main_cst_4 : FVec F S_ .f32 := constant S_ .f32 0x7F800000#32
  let main_v15 : FVec F S2x100000x64 .f32 := broadcastInDim S2x100000x64 ![] bcast_S_S2x100000x64 main_cst_4
  let main_v16 : IVec S2x100000x64 1 := cmpf .olt main_v14 main_v15
  fn_part1 (F := F) main_arg6 main_arg7 main_arg8 main_arg9 main_arg10 main_arg11 main_arg12 main_arg13 main_v13 main_v16
-- ==== Kernel.lean ====
abbrev S100000x64 : Shape := ⟨2, ![100000, 64]⟩
abbrev S800000 : Shape := ⟨1, ![800000]⟩
abbrev S2x800000 : Shape := ⟨2, ![2, 800000]⟩
abbrev S2x100000x64 : Shape := ⟨3, ![2, 100000, 64]⟩
abbrev S2x128x64 : Shape := ⟨3, ![2, 128, 64]⟩
abbrev S2x64 : Shape := ⟨2, ![2, 64]⟩
abbrev S2x64x1 : Shape := ⟨3, ![2, 64, 1]⟩
abbrev S2x1 : Shape := ⟨2, ![2, 1]⟩
abbrev S2x64x64 : Shape := ⟨3, ![2, 64, 64]⟩
abbrev S1x100000x64 : Shape := ⟨3, ![1, 100000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S10000x64 : Shape := ⟨2, ![10000, 64]⟩
abbrev S100000x192 : Shape := ⟨2, ![100000, 192]⟩
abbrev S_ : Shape := ⟨0, ![]⟩
abbrev S800000x1 : Shape := ⟨2, ![800000, 1]⟩
abbrev S800000x192 : Shape := ⟨2, ![800000, 192]⟩
abbrev S800000x64 : Shape := ⟨2, ![800000, 64]⟩
abbrev S1x800000 : Shape := ⟨2, ![1, 800000]⟩
abbrev S1x64x1 : Shape := ⟨3, ![1, 64, 1]⟩
abbrev S64x1 : Shape := ⟨2, ![64, 1]⟩
abbrev S1x1 : Shape := ⟨2, ![1, 1]⟩
abbrev S1 : Shape := ⟨1, ![1]⟩
abbrev S8000x64 : Shape := ⟨2, ![8000, 64]⟩
abbrev S8000x1 : Shape := ⟨2, ![8000, 1]⟩
abbrev S100000 : Shape := ⟨1, ![100000]⟩
abbrev S3x100000x64 : Shape := ⟨3, ![3, 100000, 64]⟩

abbrev nBuf : Space → Nat
  | .hbm => 208
  | .vmem => 46
  | .smem => 0
  | _ => 0

abbrev hbmTy0_0 (i : Nat) : BufTy := match i % 128 with
  | 0 => ⟨S100000x64, .f32⟩
  | 1 => ⟨S800000, .i32⟩
  | 2 => ⟨S800000, .i32⟩
  | 3 => ⟨S800000, .f32⟩
  | 4 => ⟨S2x800000, .f32⟩
  | 5 => ⟨S2x100000x64, .f32⟩
  | 6 => ⟨S2x128x64, .f32⟩
  | 7 => ⟨S2x64, .f32⟩
  | 8 => ⟨S2x64x1, .f32⟩
  | 9 => ⟨S2x1, .f32⟩
  | 10 => ⟨S2x64x64, .f32⟩
  | 11 => ⟨S2x64, .f32⟩
  | 12 => ⟨S2x64x64, .f32⟩
  | 13 => ⟨S2x64, .f32⟩
  | 14 => ⟨S1x100000x64, .f32⟩
  | 15 => ⟨S100000x64, .f32⟩
  | 16 => ⟨S1x64x64, .f32⟩
  | 17 => ⟨S64x64, .f32⟩
  | 18 => ⟨S1x64, .f32⟩
  | 19 => ⟨S64, .f32⟩
  | 20 => ⟨S1x64x64, .f32⟩
  | 21 => ⟨S64x64, .f32⟩
  | 22 => ⟨S1x64, .f32⟩
  | 23 => ⟨S64, .f32⟩
  | 24 => ⟨S100000x64, .f32⟩
  | 25 => ⟨S100000x192, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x192, .f32⟩
  | 35 => ⟨S800000x64, .f32⟩
  | 36 => ⟨S800000x64, .f32⟩
  | 37 => ⟨S800000x64, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x64, .f32⟩
  | 47 => ⟨S1x64x64, .f32⟩
  | 48 => ⟨S64x64, .f32⟩
  | 49 => ⟨S1x64x64, .f32⟩
  | 50 => ⟨S64x64, .f32⟩
  | 51 => ⟨S1x800000, .f32⟩
  | 52 => ⟨S800000, .f32⟩
  | 53 => ⟨S800000x1, .f32⟩
  | 54 => ⟨S1x64, .f32⟩
  | 55 => ⟨S64, .f32⟩
  | 56 => ⟨S1x64x1, .f32⟩
  | 57 => ⟨S64x1, .f32⟩
  | 58 => ⟨S1x1, .f32⟩
  | 59 => ⟨S1, .f32⟩
  | 60 => ⟨S800000x1, .f32⟩
  | 61 => ⟨S800000, .f32⟩
  | 62 => ⟨S_, .f32⟩
  | 63 => ⟨S100000, .f32⟩
  | 64 => ⟨S800000x1, .i32⟩
  | 65 => ⟨S100000, .f32⟩
  | 66 => ⟨S_, .f32⟩
  | 67 => ⟨S100000, .f32⟩
  | 68 => ⟨S100000, .i1⟩
  | 69 => ⟨S_, .f32⟩
  | 70 => ⟨S100000, .f32⟩
  | 71 => ⟨S100000, .f32⟩
  | 72 => ⟨S_, .f32⟩
  | 73 => ⟨S_, .f32⟩
  | 74 => ⟨S100000, .f32⟩
  | 75 => ⟨S100000, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000, .f32⟩
  | 85 => ⟨S800000, .f32⟩
  | 86 => ⟨S800000x1, .f32⟩
  | 87 => ⟨S800000x64, .f32⟩
  | 88 => ⟨S800000x64, .f32⟩
  | 89 => ⟨S800000x1, .f32⟩
  | 90 => ⟨S800000x64, .f32⟩
  | 91 => ⟨S800000x64, .f32⟩
  | 92 => ⟨S800000x1, .f32⟩
  | 93 => ⟨S800000x64, .f32⟩
  | 94 => ⟨S800000x64, .f32⟩
  | 95 => ⟨S800000x192, .f32⟩
  | 96 => ⟨S_, .f32⟩
  | 97 => ⟨S100000x192, .f32⟩
  | 98 => ⟨S800000x1, .i32⟩
  | 99 => ⟨S100000x192, .f32⟩
  | 100 => ⟨S100000x64, .f32⟩
  | 101 => ⟨S100000x64, .f32⟩
  | 102 => ⟨S100000x64, .f32⟩
  | 103 => ⟨S100000x64, .f32⟩
  | 104 => ⟨S100000x64, .f32⟩
  | 105 => ⟨S100000x64, .f32⟩
  | 106 => ⟨S100000x64, .f32⟩
  | 107 => ⟨S100000x64, .f32⟩
  | 108 => ⟨S100000x64, .f32⟩
  | 109 => ⟨S1x100000x64, .f32⟩
  | 110 => ⟨S100000x64, .f32⟩
  | 111 => ⟨S1x64x64, .f32⟩
  | 112 => ⟨S64x64, .f32⟩
  | 113 => ⟨S1x64, .f32⟩
  | 114 => ⟨S64, .f32⟩
  | 115 => ⟨S1x64x64, .f32⟩
  | 116 => ⟨S64x64, .f32⟩
  | 117 => ⟨S1x64, .f32⟩
  | 118 => ⟨S64, .f32⟩
  | 119 => ⟨S100000x64, .f32⟩
  | 120 => ⟨S100000x192, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S100000x64, .f32⟩

abbrev hbmTy0_1 (i : Nat) : BufTy := match i % 128 with
  | 0 => ⟨S800000x1, .i32⟩
  | 1 => ⟨S800000x192, .f32⟩
  | 2 => ⟨S800000x64, .f32⟩
  | 3 => ⟨S800000x64, .f32⟩
  | 4 => ⟨S800000x64, .f32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S800000x64, .f32⟩
  | 14 => ⟨S1x64x64, .f32⟩
  | 15 => ⟨S64x64, .f32⟩
  | 16 => ⟨S1x64x64, .f32⟩
  | 17 => ⟨S64x64, .f32⟩
  | 18 => ⟨S1x800000, .f32⟩
  | 19 => ⟨S800000, .f32⟩
  | 20 => ⟨S800000x1, .f32⟩
  | 21 => ⟨S1x64, .f32⟩
  | 22 => ⟨S64, .f32⟩
  | 23 => ⟨S1x64x1, .f32⟩
  | 24 => ⟨S64x1, .f32⟩
  | 25 => ⟨S1x1, .f32⟩
  | 26 => ⟨S1, .f32⟩
  | 27 => ⟨S800000x1, .f32⟩
  | 28 => ⟨S800000, .f32⟩
  | 29 => ⟨S_, .f32⟩
  | 30 => ⟨S100000, .f32⟩
  | 31 => ⟨S800000x1, .i32⟩
  | 32 => ⟨S100000, .f32⟩
  | 33 => ⟨S_, .f32⟩
  | 34 => ⟨S100000, .f32⟩
  | 35 => ⟨S100000, .i1⟩
  | 36 => ⟨S_, .f32⟩
  | 37 => ⟨S100000, .f32⟩
  | 38 => ⟨S100000, .f32⟩
  | 39 => ⟨S_, .f32⟩
  | 40 => ⟨S_, .f32⟩
  | 41 => ⟨S100000, .f32⟩
  | 42 => ⟨S100000, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000, .f32⟩
  | 52 => ⟨S800000, .f32⟩
  | 53 => ⟨S800000x1, .f32⟩
  | 54 => ⟨S800000x64, .f32⟩
  | 55 => ⟨S800000x64, .f32⟩
  | 56 => ⟨S800000x1, .f32⟩
  | 57 => ⟨S800000x64, .f32⟩
  | 58 => ⟨S800000x64, .f32⟩
  | 59 => ⟨S800000x1, .f32⟩
  | 60 => ⟨S800000x64, .f32⟩
  | 61 => ⟨S800000x64, .f32⟩
  | 62 => ⟨S800000x192, .f32⟩
  | 63 => ⟨S_, .f32⟩
  | 64 => ⟨S100000x192, .f32⟩
  | 65 => ⟨S800000x1, .i32⟩
  | 66 => ⟨S100000x192, .f32⟩
  | 67 => ⟨S100000x64, .f32⟩
  | 68 => ⟨S100000x64, .f32⟩
  | 69 => ⟨S100000x64, .f32⟩
  | 70 => ⟨S100000x64, .f32⟩
  | 71 => ⟨S100000x64, .f32⟩
  | 72 => ⟨S100000x64, .f32⟩
  | 73 => ⟨S100000x64, .f32⟩
  | 74 => ⟨S100000x64, .f32⟩
  | 75 => ⟨S100000x64, .f32⟩
  | 76 => ⟨S1x100000x64, .f32⟩
  | 77 => ⟨S1x100000x64, .f32⟩
  | 78 => ⟨S1x100000x64, .f32⟩
  | 79 => ⟨S3x100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S10000x64, .f32⟩
  | .local _ .vmem, ⟨9, _⟩ => ⟨S10000x64, .f32⟩
  | .local _ .vmem, ⟨10, _⟩ => ⟨S8000x64, .f32⟩
  | .local _ .vmem, ⟨11, _⟩ => ⟨S8000x64, .f32⟩
  | .local _ .vmem, ⟨12, _⟩ => ⟨S8000x64, .f32⟩
  | .local _ .vmem, ⟨13, _⟩ => ⟨S8000x64, .f32⟩
  | .local _ .vmem, ⟨14, _⟩ => ⟨S8000x1, .f32⟩
  | .local _ .vmem, ⟨15, _⟩ => ⟨S8000x1, .f32⟩
  | .local _ .vmem, ⟨16, _⟩ => ⟨S64x64, .f32⟩
  | .local _ .vmem, ⟨17, _⟩ => ⟨S64x64, .f32⟩
  | .local _ .vmem, ⟨18, _⟩ => ⟨S64, .f32⟩
  | .local _ .vmem, ⟨19, _⟩ => ⟨S64x1, .f32⟩
  | .local _ .vmem, ⟨20, _⟩ => ⟨S1, .f32⟩
  | .local _ .vmem, ⟨21, _⟩ => ⟨S8000x1, .f32⟩
  | .local _ .vmem, ⟨22, _⟩ => ⟨S8000x1, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S64x64, .f32⟩
  | .local _ .vmem, ⟨28, _⟩ => ⟨S64, .f32⟩
  | .local _ .vmem, ⟨29, _⟩ => ⟨S64x64, .f32⟩
  | .local _ .vmem, ⟨30, _⟩ => ⟨S64, .f32⟩
  | .local _ .vmem, ⟨31, _⟩ => ⟨S10000x64, .f32⟩
  | .local _ .vmem, ⟨32, _⟩ => ⟨S10000x64, .f32⟩
  | .local _ .vmem, ⟨33, _⟩ => ⟨S8000x64, .f32⟩
  | .local _ .vmem, ⟨34, _⟩ => ⟨S8000x64, .f32⟩
  | .local _ .vmem, ⟨35, _⟩ => ⟨S8000x64, .f32⟩
  | .local _ .vmem, ⟨36, _⟩ => ⟨S8000x64, .f32⟩
  | .local _ .vmem, ⟨37, _⟩ => ⟨S8000x1, .f32⟩
  | .local _ .vmem, ⟨38, _⟩ => ⟨S8000x1, .f32⟩
  | .local _ .vmem, ⟨39, _⟩ => ⟨S64x64, .f32⟩
  | .local _ .vmem, ⟨40, _⟩ => ⟨S64x64, .f32⟩
  | .local _ .vmem, ⟨41, _⟩ => ⟨S64, .f32⟩
  | .local _ .vmem, ⟨42, _⟩ => ⟨S64x1, .f32⟩
  | .local _ .vmem, ⟨43, _⟩ => ⟨S1, .f32⟩
  | .local _ .vmem, ⟨44, _⟩ => ⟨S8000x1, .f32⟩
  | .local _ .vmem, ⟨45, _⟩ => ⟨S8000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_1 : Ref sig .tc := ⟨.hbm, 38, rfl⟩
abbrev main_v22 : Ref sig .tc := ⟨.hbm, 39, rfl⟩
abbrev main_v23 : Ref sig .tc := ⟨.hbm, 40, rfl⟩
abbrev main_c_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_3 : Ref sig .tc := ⟨.hbm, 66, rfl⟩
abbrev main_v47 : Ref sig .tc := ⟨.hbm, 67, rfl⟩
abbrev main_v48 : Ref sig .tc := ⟨.hbm, 68, rfl⟩
abbrev main_cst_4 : Ref sig .tc := ⟨.hbm, 69, rfl⟩
abbrev main_v49 : Ref sig .tc := ⟨.hbm, 70, rfl⟩
abbrev main_v50 : Ref sig .tc := ⟨.hbm, 71, rfl⟩
abbrev main_cst_5 : Ref sig .tc := ⟨.hbm, 72, rfl⟩
abbrev main_call0_v0 : Ref sig .tc := ⟨.hbm, 73, rfl⟩
abbrev main_call0_v1 : Ref sig .tc := ⟨.hbm, 74, rfl⟩
abbrev main_v51 : Ref sig .tc := ⟨.hbm, 75, rfl⟩
abbrev main_c_6 : Ref sig .tc := ⟨.hbm, 76, rfl⟩
abbrev main_v52 : Ref sig .tc := ⟨.hbm, 77, rfl⟩
abbrev main_v53 : Ref sig .tc := ⟨.hbm, 78, rfl⟩
abbrev main_c_7 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_8 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_c_9 : Ref sig .tc := ⟨.hbm, 121, rfl⟩
abbrev main_v94 : Ref sig .tc := ⟨.hbm, 122, rfl⟩
abbrev main_v95 : Ref sig .tc := ⟨.hbm, 123, rfl⟩
abbrev main_c_10 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_c_11 : Ref sig .tc := ⟨.hbm, 133, rfl⟩
abbrev main_v104 : Ref sig .tc := ⟨.hbm, 134, rfl⟩
abbrev main_v105 : Ref sig .tc := ⟨.hbm, 135, rfl⟩
abbrev main_c_12 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_cst_13 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_cst_14 : Ref sig .tc := ⟨.hbm, 161, rfl⟩
abbrev main_v129 : Ref sig .tc := ⟨.hbm, 162, rfl⟩
abbrev main_v130 : Ref sig .tc := ⟨.hbm, 163, rfl⟩
abbrev main_cst_15 : Ref sig .tc := ⟨.hbm, 164, rfl⟩
abbrev main_v131 : Ref sig .tc := ⟨.hbm, 165, rfl⟩
abbrev main_v132 : Ref sig .tc := ⟨.hbm, 166, rfl⟩
abbrev main_cst_16 : Ref sig .tc := ⟨.hbm, 167, rfl⟩
abbrev main_call1_v0 : Ref sig .tc := ⟨.hbm, 168, rfl⟩
abbrev main_call1_v1 : Ref sig .tc := ⟨.hbm, 169, rfl⟩
abbrev main_v133 : Ref sig .tc := ⟨.hbm, 170, rfl⟩
abbrev main_c_17 : Ref sig .tc := ⟨.hbm, 171, rfl⟩
abbrev main_v134 : Ref sig .tc := ⟨.hbm, 172, rfl⟩
abbrev main_v135 : Ref sig .tc := ⟨.hbm, 173, rfl⟩
abbrev main_c_18 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_cst_19 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg8_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg7_0 : Ref sig .tc := ⟨.vmem, 43, rfl⟩
abbrev cc3_stg8_0 : Ref sig .tc := ⟨.vmem, 44, rfl⟩
abbrev cc3_stg8_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem8_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem7_0 : DmaSem sig := 43
abbrev cc3_sem8_0 : DmaSem sig := 44
abbrev cc3_sem8_1 : DmaSem sig := 45

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S8000x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S8000x1 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  slices_S2x100000x64_S1x100000x64_0_0_0 : S2x100000x64.Slices ![0, 0, 0] S1x100000x64
  shapeCasts_S1x100000x64_S100000x64 : S1x100000x64.ShapeCasts S100000x64
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S10000x64 : S1x64.Broadcasts S10000x64
  shapeCasts_S10000x64_S10000x64 : S10000x64.ShapeCasts S10000x64
  concatenates_S100000x64_S100000x64_S100000x64_S100000x192_d1 : Shape.Concatenates [S100000x64, S100000x64, S100000x64] S100000x192 1
  bcast_S_S800000 : S_.BroadcastsInDim S800000 (![] : Fin 0 → Fin S800000.rank)
  bcast_S800000_S800000x1_0 : S800000.BroadcastsInDim S800000x1 (![0] : Fin 1 → Fin S800000x1.rank)
  slices_S800000x192_S800000x64_0_0 : S800000x192.Slices ![0, 0] S800000x64
  slices_S800000x192_S800000x64_0_64 : S800000x192.Slices ![0, 64] S800000x64
  slices_S800000x192_S800000x64_0_128 : S800000x192.Slices ![0, 128] S800000x64
  slices_S2x128x64_S1x64x64_0_0_0 : S2x128x64.Slices ![0, 0, 0] S1x64x64
  slices_S2x128x64_S1x64x64_0_64_0 : S2x128x64.Slices ![0, 64, 0] S1x64x64
  slices_S2x800000_S1x800000_0_0 : S2x800000.Slices ![0, 0] S1x800000
  shapeCasts_S1x800000_S800000 : S1x800000.ShapeCasts S800000
  shapeCasts_S800000_S800000x1 : S800000.ShapeCasts S800000x1
  slices_S2x64x1_S1x64x1_0_0_0 : S2x64x1.Slices ![0, 0, 0] S1x64x1
  shapeCasts_S1x64x1_S64x1 : S1x64x1.ShapeCasts S64x1
  slices_S2x1_S1x1_0_0 : S2x1.Slices ![0, 0] S1x1
  shapeCasts_S1x1_S1 : S1x1.ShapeCasts S1
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  broadcasts_S1x64_S8000x64 : S1x64.Broadcasts S8000x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1_S1_0 : ∀ a, (![0] : Fin 1 → Nat) a + S1.size a ≤ S1.size a
  h_S1 : 0 < S1.numel
  shapeCasts_S1_S1 : S1.ShapeCasts S1
  shapeCasts_S1_S1x1 : S1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  shapeCasts_S800000x1_S800000 : S800000x1.ShapeCasts S800000
  bcast_S_S100000 : S_.BroadcastsInDim S100000 (![] : Fin 0 → Fin S100000.rank)
  bcast_S800000x1_S800000x64_0_1 : S800000x1.BroadcastsInDim S800000x64 (![0, 1] : Fin 2 → Fin S800000x64.rank)
  concatenates_S800000x64_S800000x64_S800000x64_S800000x192_d1 : Shape.Concatenates [S800000x64, S800000x64, S800000x64] S800000x192 1
  bcast_S_S100000x192 : S_.BroadcastsInDim S100000x192 (![] : Fin 0 → Fin S100000x192.rank)
  slices_S100000x192_S100000x64_0_0 : S100000x192.Slices ![0, 0] S100000x64
  slices_S100000x192_S100000x64_0_64 : S100000x192.Slices ![0, 64] S100000x64
  slices_S100000x192_S100000x64_0_128 : S100000x192.Slices ![0, 128] S100000x64
  slices_S2x100000x64_S1x100000x64_1_0_0 : S2x100000x64.Slices ![1, 0, 0] S1x100000x64
  slices_S2x64x64_S1x64x64_1_0_0 : S2x64x64.Slices ![1, 0, 0] S1x64x64
  slices_S2x64_S1x64_1_0 : S2x64.Slices ![1, 0] S1x64
  slices_S2x128x64_S1x64x64_1_0_0 : S2x128x64.Slices ![1, 0, 0] S1x64x64
  slices_S2x128x64_S1x64x64_1_64_0 : S2x128x64.Slices ![1, 64, 0] S1x64x64
  slices_S2x800000_S1x800000_1_0 : S2x800000.Slices ![1, 0] S1x800000
  slices_S2x64x1_S1x64x1_1_0_0 : S2x64x1.Slices ![1, 0, 0] S1x64x1
  slices_S2x1_S1x1_1_0 : S2x1.Slices ![1, 0] S1x1
  bcast_S100000x64_S1x100000x64_1_2 : S100000x64.BroadcastsInDim S1x100000x64 (![1, 2] : Fin 2 → Fin S1x100000x64.rank)
  concatenates_S1x100000x64_S1x100000x64_S1x100000x64_S3x100000x64_d0 : Shape.Concatenates [S1x100000x64, S1x100000x64, S1x100000x64] S3x100000x64 0
  dot_S10000x64_S64x64_S10000x64_1_0_0_1_n_n_wf : DotDims.WF S10000x64 S64x64 S10000x64 [1] [0] [0] [1] [] []
  gather_S100000x192_S800000x1_S800000x192_1_0_n_n_0_1_1192_wf : GatherDims.WF S100000x192 S800000x1 S800000x192 [1] [0] [] [0] [] 1 ![1, 192]
  gather_S100000x64_S800000x1_S800000x64_1_0_n_n_0_1_164_wf : GatherDims.WF S100000x64 S800000x1 S800000x64 [1] [0] [] [0] [] 1 ![1, 64]
  dot_S8000x64_S64x64_S8000x64_1_0_0_1_n_n_wf : DotDims.WF S8000x64 S64x64 S8000x64 [1] [0] [0] [1] [] []
  dot_S8000x64_S64x1_S8000x1_1_0_0_1_n_n_wf : DotDims.WF S8000x64 S64x1 S8000x1 [1] [0] [0] [1] [] []
  scatter_S100000_S800000x1_S800000_n_0_0_1_wf : ScatterDims.WF S100000 S800000x1 S800000 [] [0] [0] 1
  gather_S100000_S800000x1_S800000_n_0_n_n_0_1_1_wf : GatherDims.WF S100000 S800000x1 S800000 [] [0] [] [0] [] 1 ![1]
  scatter_S100000x192_S800000x1_S800000x192_1_0_0_1_wf : ScatterDims.WF S100000x192 S800000x1 S800000x192 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S800000x64.size a
  hwx1_0 : ∀ i : grid1.Coords, EltTy.bits .f32 = 32 ∨ (Rect.block (s := S800000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S800000x64.size a
  hwx1_1 : ∀ i : grid1.Coords, EltTy.bits .f32 = 32 ∨ (Rect.block (s := S800000x64) S8000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x1.size a ≤ S800000x1.size a
  hwx1_2 : ∀ i : grid1.Coords, EltTy.bits .f32 = 32 ∨ (Rect.block (s := S800000x1) S8000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x1.size a ≤ S64x1.size a
  hwx1_6 : ∀ i : grid1.Coords, EltTy.bits .f32 = 32 ∨ (Rect.block (s := S64x1) S64x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1.size a ≤ S1.size a
  hwx1_7 : ∀ i : grid1.Coords, EltTy.bits .f32 = 32 ∨ (Rect.block (s := S1) S1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S8000x1.size a ≤ S800000x1.size a
  hwx1_8 : ∀ i : grid1.Coords, EltTy.bits .f32 = 32 ∨ (Rect.block (s := S800000x1) S8000x1.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x64.size a ≤ S100000x64.size a
  hwx2_6 : ∀ i : grid2.Coords, EltTy.bits .f32 = 32 ∨ (Rect.block (s := S100000x64) S10000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x64.size a ≤ S800000x64.size a
  hwx3_0 : ∀ i : grid3.Coords, EltTy.bits .f32 = 32 ∨ (Rect.block (s := S800000x64) S8000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x64.size a ≤ S800000x64.size a
  hwx3_1 : ∀ i : grid3.Coords, EltTy.bits .f32 = 32 ∨ (Rect.block (s := S800000x64) S8000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x1.size a ≤ S800000x1.size a
  hwx3_2 : ∀ i : grid3.Coords, EltTy.bits .f32 = 32 ∨ (Rect.block (s := S800000x1) S8000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64.size a ≤ S64.size a
  hwx3_5 : ∀ i : grid3.Coords, EltTy.bits .f32 = 32 ∨ (Rect.block (s := S64) S64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64x1.size a ≤ S64x1.size a
  hwx3_6 : ∀ i : grid3.Coords, EltTy.bits .f32 = 32 ∨ (Rect.block (s := S64x1) S64x1.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1.size a ≤ S1.size a
  hwx3_7 : ∀ i : grid3.Coords, EltTy.bits .f32 = 32 ∨ (Rect.block (s := S1) S1.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S8000x1.size a ≤ S800000x1.size a
  hwx3_8 : ∀ i : grid3.Coords, EltTy.bits .f32 = 32 ∨ (Rect.block (s := S800000x1) S8000x1.size (cc3_transform_8 i) (hinb3_8 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x192_S800000x1_S800000x192_1_0_n_n_0_1_1192 : GatherDims S100000x192 S800000x1 S800000x192 where
  offsetDims := [1]
  collapsedSliceDims := [0]
  operandBatchingDims := []
  startIndicesBatchingDims := []
  startIndexMap := [0]
  indexVectorDim := 1
  sliceSizes := ![1, 192]
  wf := gather_S100000x192_S800000x1_S800000x192_1_0_n_n_0_1_1192_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S8000x64_S64x1_S8000x1_1_0_0_1_n_n : DotDims S8000x64 S64x1 S8000x1 where
  lhsContracting := [1]
  rhsContracting := [0]
  lhsNonContracting := [0]
  rhsNonContracting := [1]
  lhsBatch := []
  rhsBatch := []
  wf := dot_S8000x64_S64x1_S8000x1_1_0_0_1_n_n_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def scatter_S100000x192_S800000x1_S800000x192_1_0_0_1 : ScatterDims S100000x192 S800000x1 S800000x192 where
  updateWindowDims := [1]
  insertedWindowDims := [0]
  scatterDimsToOperandDims := [0]
  indexVectorDim := 1
  wf := scatter_S100000x192_S800000x1_S800000x192_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v28) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S8000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v30) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S64x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v41) S1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v42) S8000x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v78) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v83) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v85) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v87) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v89) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v91) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v92) S10000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v110) S8000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v102) S8000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v117) S8000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v112) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v114) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v119) S64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v121) S64x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v123) S1.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v124) S8000x1.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S100000x64 : Shape := ⟨2, ![100000, 64]⟩
abbrev S800000 : Shape := ⟨1, ![800000]⟩
abbrev S2x800000 : Shape := ⟨2, ![2, 800000]⟩
abbrev S2x100000x64 : Shape := ⟨3, ![2, 100000, 64]⟩
abbrev S2x128x64 : Shape := ⟨3, ![2, 128, 64]⟩
abbrev S2x64 : Shape := ⟨2, ![2, 64]⟩
abbrev S2x64x1 : Shape := ⟨3, ![2, 64, 1]⟩
abbrev S2x1 : Shape := ⟨2, ![2, 1]⟩
abbrev S2x64x64 : Shape := ⟨3, ![2, 64, 64]⟩
abbrev S800000x1 : Shape := ⟨2, ![800000, 1]⟩
abbrev S_ : Shape := ⟨0, ![]⟩
abbrev S800000x64 : Shape := ⟨2, ![800000, 64]⟩
abbrev S800000x128 : Shape := ⟨2, ![800000, 128]⟩
abbrev S1x128x64 : Shape := ⟨3, ![1, 128, 64]⟩
abbrev S128x64 : Shape := ⟨2, ![128, 64]⟩
abbrev S1x64 : Shape := ⟨2, ![1, 64]⟩
abbrev S64 : Shape := ⟨1, ![64]⟩
abbrev S1x64x1 : Shape := ⟨3, ![1, 64, 1]⟩
abbrev S64x1 : Shape := ⟨2, ![64, 1]⟩
abbrev S1x1 : Shape := ⟨2, ![1, 1]⟩
abbrev S1 : Shape := ⟨1, ![1]⟩
abbrev S1x800000 : Shape := ⟨2, ![1, 800000]⟩
abbrev S100000 : Shape := ⟨1, ![100000]⟩
abbrev S1x64x64 : Shape := ⟨3, ![1, 64, 64]⟩
abbrev S64x64 : Shape := ⟨2, ![64, 64]⟩
abbrev S1x100000x64 : Shape := ⟨3, ![1, 100000, 64]⟩
abbrev S3x100000x64 : Shape := ⟨3, ![3, 100000, 64]⟩

abbrev nBuf : Space → Nat
  | .hbm => 350
  | .vmem => 0
  | .smem => 0
  | _ => 0

abbrev hbmTy0_0 (i : Nat) : BufTy := match i % 128 with
  | 0 => ⟨S100000x64, .f32⟩
  | 1 => ⟨S800000, .i32⟩
  | 2 => ⟨S800000, .i32⟩
  | 3 => ⟨S800000, .f32⟩
  | 4 => ⟨S2x800000, .f32⟩
  | 5 => ⟨S2x100000x64, .f32⟩
  | 6 => ⟨S2x128x64, .f32⟩
  | 7 => ⟨S2x64, .f32⟩
  | 8 => ⟨S2x64x1, .f32⟩
  | 9 => ⟨S2x1, .f32⟩
  | 10 => ⟨S2x64x64, .f32⟩
  | 11 => ⟨S2x64, .f32⟩
  | 12 => ⟨S2x64x64, .f32⟩
  | 13 => ⟨S2x64, .f32⟩
  | 14 => ⟨S800000x1, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x64, .f32⟩
  | 24 => ⟨S800000x64, .f32⟩
  | 25 => ⟨S800000x64, .f32⟩
  | 26 => ⟨S_, .f32⟩
  | 27 => ⟨S100000x64, .f32⟩
  | 28 => ⟨S800000x1, .i32⟩
  | 29 => ⟨S100000x64, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x64, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x64, .f32⟩
  | 48 => ⟨S800000x128, .f32⟩
  | 49 => ⟨S1x128x64, .f32⟩
  | 50 => ⟨S128x64, .f32⟩
  | 51 => ⟨S800000x64, .f32⟩
  | 52 => ⟨S1x64, .f32⟩
  | 53 => ⟨S64, .f32⟩
  | 54 => ⟨S1x64, .f32⟩
  | 55 => ⟨S800000x64, .f32⟩
  | 56 => ⟨S800000x64, .f32⟩
  | 57 => ⟨S_, .f32⟩
  | 58 => ⟨S800000x64, .f32⟩
  | 59 => ⟨S800000x64, .f32⟩
  | 60 => ⟨S1x64x1, .f32⟩
  | 61 => ⟨S64x1, .f32⟩
  | 62 => ⟨S800000x1, .f32⟩
  | 63 => ⟨S1x1, .f32⟩
  | 64 => ⟨S1, .f32⟩
  | 65 => ⟨S1x1, .f32⟩
  | 66 => ⟨S800000x1, .f32⟩
  | 67 => ⟨S800000x1, .f32⟩
  | 68 => ⟨S1x800000, .f32⟩
  | 69 => ⟨S800000, .f32⟩
  | 70 => ⟨S800000x1, .f32⟩
  | 71 => ⟨S800000x1, .f32⟩
  | 72 => ⟨S_, .f32⟩
  | 73 => ⟨S800000x1, .f32⟩
  | 74 => ⟨S800000x1, .f32⟩
  | 75 => ⟨S800000x1, .f32⟩
  | 76 => ⟨S800000x1, .f32⟩
  | 77 => ⟨S_, .f32⟩
  | 78 => ⟨S800000x1, .f32⟩
  | 79 => ⟨S800000x1, .f32⟩
  | 80 => ⟨S_, .f32⟩
  | 81 => ⟨S800000x1, .f32⟩
  | 82 => ⟨S800000x1, .f32⟩
  | 83 => ⟨S800000, .f32⟩
  | 84 => ⟨S_, .f32⟩
  | 85 => ⟨S100000, .f32⟩
  | 86 => ⟨S800000x1, .i32⟩
  | 87 => ⟨S100000, .f32⟩
  | 88 => ⟨S_, .f32⟩
  | 89 => ⟨S100000, .f32⟩
  | 90 => ⟨S100000, .i1⟩
  | 91 => ⟨S_, .f32⟩
  | 92 => ⟨S100000, .f32⟩
  | 93 => ⟨S100000, .f32⟩
  | 94 => ⟨S_, .f32⟩
  | 95 => ⟨S_, .f32⟩
  | 96 => ⟨S100000, .f32⟩
  | 97 => ⟨S100000, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000, .f32⟩
  | 107 => ⟨S800000, .f32⟩
  | 108 => ⟨S800000x1, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000x64, .f32⟩
  | 118 => ⟨S800000x64, .f32⟩
  | 119 => ⟨S800000x64, .f32⟩
  | 120 => ⟨S_, .f32⟩
  | 121 => ⟨S100000x64, .f32⟩
  | 122 => ⟨S800000x1, .i32⟩
  | 123 => ⟨S100000x64, .f32⟩
  | 124 => ⟨S1x64x64, .f32⟩
  | 125 => ⟨S64x64, .f32⟩
  | 126 => ⟨S100000x64, .f32⟩
  | 127 => ⟨S1x64, .f32⟩
  | _ => ⟨S100000x64, .f32⟩

abbrev hbmTy0_1 (i : Nat) : BufTy := match i % 128 with
  | 0 => ⟨S64, .f32⟩
  | 1 => ⟨S1x64, .f32⟩
  | 2 => ⟨S100000x64, .f32⟩
  | 3 => ⟨S100000x64, .f32⟩
  | 4 => ⟨S_, .f32⟩
  | 5 => ⟨S100000x64, .f32⟩
  | 6 => ⟨S100000x64, .f32⟩
  | 7 => ⟨S1x64x64, .f32⟩
  | 8 => ⟨S64x64, .f32⟩
  | 9 => ⟨S100000x64, .f32⟩
  | 10 => ⟨S1x64, .f32⟩
  | 11 => ⟨S64, .f32⟩
  | 12 => ⟨S1x64, .f32⟩
  | 13 => ⟨S100000x64, .f32⟩
  | 14 => ⟨S100000x64, .f32⟩
  | 15 => ⟨S1x100000x64, .f32⟩
  | 16 => ⟨S100000x64, .f32⟩
  | 17 => ⟨S100000x64, .f32⟩
  | 18 => ⟨S_, .f32⟩
  | 19 => ⟨S100000x64, .f32⟩
  | 20 => ⟨S100000x64, .f32⟩
  | 21 => ⟨S100000x64, .f32⟩
  | 22 => ⟨S100000x64, .f32⟩
  | 23 => ⟨S_, .f32⟩
  | 24 => ⟨S100000x64, .f32⟩
  | 25 => ⟨S100000x64, .f32⟩
  | 26 => ⟨S_, .f32⟩
  | 27 => ⟨S100000x64, .f32⟩
  | 28 => ⟨S100000x64, .f32⟩
  | 29 => ⟨S100000x64, .f32⟩
  | 30 => ⟨S800000x1, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x64, .f32⟩
  | 40 => ⟨S800000x64, .f32⟩
  | 41 => ⟨S800000x64, .f32⟩
  | 42 => ⟨S_, .f32⟩
  | 43 => ⟨S100000x64, .f32⟩
  | 44 => ⟨S800000x1, .i32⟩
  | 45 => ⟨S100000x64, .f32⟩
  | 46 => ⟨S100000x64, .f32⟩
  | 47 => ⟨S100000x64, .f32⟩
  | 48 => ⟨S100000x64, .f32⟩
  | 49 => ⟨S100000x64, .f32⟩
  | 50 => ⟨S100000x64, .f32⟩
  | 51 => ⟨S100000x64, .f32⟩
  | 52 => ⟨S800000x1, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x64, .f32⟩
  | 62 => ⟨S800000x64, .f32⟩
  | 63 => ⟨S800000x64, .f32⟩
  | 64 => ⟨S_, .f32⟩
  | 65 => ⟨S100000x64, .f32⟩
  | 66 => ⟨S800000x1, .i32⟩
  | 67 => ⟨S100000x64, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000x64, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x64, .f32⟩
  | 86 => ⟨S800000x128, .f32⟩
  | 87 => ⟨S1x128x64, .f32⟩
  | 88 => ⟨S128x64, .f32⟩
  | 89 => ⟨S800000x64, .f32⟩
  | 90 => ⟨S1x64, .f32⟩
  | 91 => ⟨S64, .f32⟩
  | 92 => ⟨S1x64, .f32⟩
  | 93 => ⟨S800000x64, .f32⟩
  | 94 => ⟨S800000x64, .f32⟩
  | 95 => ⟨S_, .f32⟩
  | 96 => ⟨S800000x64, .f32⟩
  | 97 => ⟨S800000x64, .f32⟩
  | 98 => ⟨S1x64x1, .f32⟩
  | 99 => ⟨S64x1, .f32⟩
  | 100 => ⟨S800000x1, .f32⟩
  | 101 => ⟨S1x1, .f32⟩
  | 102 => ⟨S1, .f32⟩
  | 103 => ⟨S1x1, .f32⟩
  | 104 => ⟨S800000x1, .f32⟩
  | 105 => ⟨S800000x1, .f32⟩
  | 106 => ⟨S1x800000, .f32⟩
  | 107 => ⟨S800000, .f32⟩
  | 108 => ⟨S800000x1, .f32⟩
  | 109 => ⟨S800000x1, .f32⟩
  | 110 => ⟨S_, .f32⟩
  | 111 => ⟨S800000x1, .f32⟩
  | 112 => ⟨S800000x1, .f32⟩
  | 113 => ⟨S800000x1, .f32⟩
  | 114 => ⟨S800000x1, .f32⟩
  | 115 => ⟨S_, .f32⟩
  | 116 => ⟨S800000x1, .f32⟩
  | 117 => ⟨S800000x1, .f32⟩
  | 118 => ⟨S_, .f32⟩
  | 119 => ⟨S800000x1, .f32⟩
  | 120 => ⟨S800000x1, .f32⟩
  | 121 => ⟨S800000, .f32⟩
  | 122 => ⟨S_, .f32⟩
  | 123 => ⟨S100000, .f32⟩
  | 124 => ⟨S800000x1, .i32⟩
  | 125 => ⟨S100000, .f32⟩
  | 126 => ⟨S_, .f32⟩
  | 127 => ⟨S100000, .f32⟩
  | _ => ⟨S100000x64, .f32⟩

abbrev hbmTy0_2 (i : Nat) : BufTy := match i % 128 with
  | 0 => ⟨S100000, .i1⟩
  | 1 => ⟨S_, .f32⟩
  | 2 => ⟨S100000, .f32⟩
  | 3 => ⟨S100000, .f32⟩
  | 4 => ⟨S_, .f32⟩
  | 5 => ⟨S_, .f32⟩
  | 6 => ⟨S100000, .f32⟩
  | 7 => ⟨S100000, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000, .f32⟩
  | 17 => ⟨S800000, .f32⟩
  | 18 => ⟨S800000x1, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x64, .f32⟩
  | 28 => ⟨S800000x64, .f32⟩
  | 29 => ⟨S800000x64, .f32⟩
  | 30 => ⟨S_, .f32⟩
  | 31 => ⟨S100000x64, .f32⟩
  | 32 => ⟨S800000x1, .i32⟩
  | 33 => ⟨S100000x64, .f32⟩
  | 34 => ⟨S1x64x64, .f32⟩
  | 35 => ⟨S64x64, .f32⟩
  | 36 => ⟨S100000x64, .f32⟩
  | 37 => ⟨S1x64, .f32⟩
  | 38 => ⟨S64, .f32⟩
  | 39 => ⟨S1x64, .f32⟩
  | 40 => ⟨S100000x64, .f32⟩
  | 41 => ⟨S100000x64, .f32⟩
  | 42 => ⟨S_, .f32⟩
  | 43 => ⟨S100000x64, .f32⟩
  | 44 => ⟨S100000x64, .f32⟩
  | 45 => ⟨S1x64x64, .f32⟩
  | 46 => ⟨S64x64, .f32⟩
  | 47 => ⟨S100000x64, .f32⟩
  | 48 => ⟨S1x64, .f32⟩
  | 49 => ⟨S64, .f32⟩
  | 50 => ⟨S1x64, .f32⟩
  | 51 => ⟨S100000x64, .f32⟩
  | 52 => ⟨S100000x64, .f32⟩
  | 53 => ⟨S1x100000x64, .f32⟩
  | 54 => ⟨S100000x64, .f32⟩
  | 55 => ⟨S100000x64, .f32⟩
  | 56 => ⟨S_, .f32⟩
  | 57 => ⟨S100000x64, .f32⟩
  | 58 => ⟨S100000x64, .f32⟩
  | 59 => ⟨S100000x64, .f32⟩
  | 60 => ⟨S100000x64, .f32⟩
  | 61 => ⟨S_, .f32⟩
  | 62 => ⟨S100000x64, .f32⟩
  | 63 => ⟨S100000x64, .f32⟩
  | 64 => ⟨S_, .f32⟩
  | 65 => ⟨S100000x64, .f32⟩
  | 66 => ⟨S100000x64, .f32⟩
  | 67 => ⟨S100000x64, .f32⟩
  | 68 => ⟨S800000x1, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x64, .f32⟩
  | 78 => ⟨S800000x64, .f32⟩
  | 79 => ⟨S800000x64, .f32⟩
  | 80 => ⟨S_, .f32⟩
  | 81 => ⟨S100000x64, .f32⟩
  | 82 => ⟨S800000x1, .i32⟩
  | 83 => ⟨S100000x64, .f32⟩
  | 84 => ⟨S100000x64, .f32⟩
  | 85 => ⟨S100000x64, .f32⟩
  | 86 => ⟨S100000x64, .f32⟩
  | 87 => ⟨S100000x64, .f32⟩
  | 88 => ⟨S100000x64, .f32⟩
  | 89 => ⟨S100000x64, .f32⟩
  | 90 => ⟨S1x100000x64, .f32⟩
  | 91 => ⟨S1x100000x64, .f32⟩
  | 92 => ⟨S1x100000x64, .f32⟩
  | 93 => ⟨S3x100000x64, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_1 : Ref sig .tc := ⟨.hbm, 30, rfl⟩
abbrev main_v13 : Ref sig .tc := ⟨.hbm, 31, rfl⟩
abbrev main_v14 : Ref sig .tc := ⟨.hbm, 32, rfl⟩
abbrev main_c_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_3 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_6 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_7 : Ref sig .tc := ⟨.hbm, 77, rfl⟩
abbrev main_v54 : Ref sig .tc := ⟨.hbm, 78, rfl⟩
abbrev main_v55 : Ref sig .tc := ⟨.hbm, 79, rfl⟩
abbrev main_cst_8 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_9 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_10 : Ref sig .tc := ⟨.hbm, 88, rfl⟩
abbrev main_v62 : Ref sig .tc := ⟨.hbm, 89, rfl⟩
abbrev main_v63 : Ref sig .tc := ⟨.hbm, 90, rfl⟩
abbrev main_cst_11 : Ref sig .tc := ⟨.hbm, 91, rfl⟩
abbrev main_v64 : Ref sig .tc := ⟨.hbm, 92, rfl⟩
abbrev main_v65 : Ref sig .tc := ⟨.hbm, 93, rfl⟩
abbrev main_cst_12 : Ref sig .tc := ⟨.hbm, 94, rfl⟩
abbrev main_call0_v0 : Ref sig .tc := ⟨.hbm, 95, rfl⟩
abbrev main_call0_v1 : Ref sig .tc := ⟨.hbm, 96, rfl⟩
abbrev main_v66 : Ref sig .tc := ⟨.hbm, 97, rfl⟩
abbrev main_c_13 : Ref sig .tc := ⟨.hbm, 98, rfl⟩
abbrev main_v67 : Ref sig .tc := ⟨.hbm, 99, rfl⟩
abbrev main_v68 : Ref sig .tc := ⟨.hbm, 100, rfl⟩
abbrev main_c_14 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_15 : Ref sig .tc := ⟨.hbm, 109, rfl⟩
abbrev main_v76 : Ref sig .tc := ⟨.hbm, 110, rfl⟩
abbrev main_v77 : Ref sig .tc := ⟨.hbm, 111, rfl⟩
abbrev main_c_16 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_17 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_18 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_cst_19 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_cst_20 : Ref sig .tc := ⟨.hbm, 151, rfl⟩
abbrev main_v113 : Ref sig .tc := ⟨.hbm, 152, rfl⟩
abbrev main_v114 : Ref sig .tc := ⟨.hbm, 153, rfl⟩
abbrev main_cst_21 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_c_22 : Ref sig .tc := ⟨.hbm, 159, rfl⟩
abbrev main_v119 : Ref sig .tc := ⟨.hbm, 160, rfl⟩
abbrev main_v120 : Ref sig .tc := ⟨.hbm, 161, rfl⟩
abbrev main_c_23 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_cst_24 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_c_25 : Ref sig .tc := ⟨.hbm, 181, rfl⟩
abbrev main_v138 : Ref sig .tc := ⟨.hbm, 182, rfl⟩
abbrev main_v139 : Ref sig .tc := ⟨.hbm, 183, rfl⟩
abbrev main_c_26 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_cst_27 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_c_28 : Ref sig .tc := ⟨.hbm, 196, rfl⟩
abbrev main_v150 : Ref sig .tc := ⟨.hbm, 197, rfl⟩
abbrev main_v151 : Ref sig .tc := ⟨.hbm, 198, rfl⟩
abbrev main_c_29 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_c_30 : Ref sig .tc := ⟨.hbm, 205, rfl⟩
abbrev main_v157 : Ref sig .tc := ⟨.hbm, 206, rfl⟩
abbrev main_v158 : Ref sig .tc := ⟨.hbm, 207, rfl⟩
abbrev main_c_31 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_cst_32 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_cst_33 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_cst_34 : Ref sig .tc := ⟨.hbm, 243, rfl⟩
abbrev main_v191 : Ref sig .tc := ⟨.hbm, 244, rfl⟩
abbrev main_v192 : Ref sig .tc := ⟨.hbm, 245, rfl⟩
abbrev main_cst_35 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_cst_36 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_cst_37 : Ref sig .tc := ⟨.hbm, 254, rfl⟩
abbrev main_v199 : Ref sig .tc := ⟨.hbm, 255, rfl⟩
abbrev main_v200 : Ref sig .tc := ⟨.hbm, 256, rfl⟩
abbrev main_cst_38 : Ref sig .tc := ⟨.hbm, 257, rfl⟩
abbrev main_v201 : Ref sig .tc := ⟨.hbm, 258, rfl⟩
abbrev main_v202 : Ref sig .tc := ⟨.hbm, 259, rfl⟩
abbrev main_cst_39 : Ref sig .tc := ⟨.hbm, 260, rfl⟩
abbrev main_call1_v0 : Ref sig .tc := ⟨.hbm, 261, rfl⟩
abbrev main_call1_v1 : Ref sig .tc := ⟨.hbm, 262, rfl⟩
abbrev main_v203 : Ref sig .tc := ⟨.hbm, 263, rfl⟩
abbrev main_c_40 : Ref sig .tc := ⟨.hbm, 264, rfl⟩
abbrev main_v204 : Ref sig .tc := ⟨.hbm, 265, rfl⟩
abbrev main_v205 : Ref sig .tc := ⟨.hbm, 266, rfl⟩
abbrev main_c_41 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩
abbrev main_v209 : Ref sig .tc := ⟨.hbm, 271, rfl⟩
abbrev main_v210 : Ref sig .tc := ⟨.hbm, 272, rfl⟩
abbrev main_v211 : Ref sig .tc := ⟨.hbm, 273, rfl⟩
abbrev main_v212 : Ref sig .tc := ⟨.hbm, 274, rfl⟩
abbrev main_c_42 : Ref sig .tc := ⟨.hbm, 275, rfl⟩
abbrev main_v213 : Ref sig .tc := ⟨.hbm, 276, rfl⟩
abbrev main_v214 : Ref sig .tc := ⟨.hbm, 277, rfl⟩
abbrev main_c_43 : Ref sig .tc := ⟨.hbm, 278, rfl⟩
abbrev main_v215 : Ref sig .tc := ⟨.hbm, 279, rfl⟩
abbrev main_v216 : Ref sig .tc := ⟨.hbm, 280, rfl⟩
abbrev main_v217 : Ref sig .tc := ⟨.hbm, 281, rfl⟩
abbrev main_v218 : Ref sig .tc := ⟨.hbm, 282, rfl⟩
abbrev main_v219 : Ref sig .tc := ⟨.hbm, 283, rfl⟩
abbrev main_v220 : Ref sig .tc := ⟨.hbm, 284, rfl⟩
abbrev main_v221 : Ref sig .tc := ⟨.hbm, 285, rfl⟩
abbrev main_cst_44 : Ref sig .tc := ⟨.hbm, 286, rfl⟩
abbrev main_v222 : Ref sig .tc := ⟨.hbm, 287, rfl⟩
abbrev main_v223 : Ref sig .tc := ⟨.hbm, 288, rfl⟩
abbrev main_v224 : Ref sig .tc := ⟨.hbm, 289, rfl⟩
abbrev main_v225 : Ref sig .tc := ⟨.hbm, 290, rfl⟩
abbrev main_v226 : Ref sig .tc := ⟨.hbm, 291, rfl⟩
abbrev main_v227 : Ref sig .tc := ⟨.hbm, 292, rfl⟩
abbrev main_v228 : Ref sig .tc := ⟨.hbm, 293, rfl⟩
abbrev main_v229 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_cst_45 : Ref sig .tc := ⟨.hbm, 298, rfl⟩
abbrev main_v233 : Ref sig .tc := ⟨.hbm, 299, rfl⟩
abbrev main_v234 : Ref sig .tc := ⟨.hbm, 300, rfl⟩
abbrev main_v235 : Ref sig .tc := ⟨.hbm, 301, rfl⟩
abbrev main_v236 : Ref sig .tc := ⟨.hbm, 302, rfl⟩
abbrev main_v237 : Ref sig .tc := ⟨.hbm, 303, rfl⟩
abbrev main_v238 : Ref sig .tc := ⟨.hbm, 304, rfl⟩
abbrev main_v239 : Ref sig .tc := ⟨.hbm, 305, rfl⟩
abbrev main_v240 : Ref sig .tc := ⟨.hbm, 306, rfl⟩
abbrev main_v241 : Ref sig .tc := ⟨.hbm, 307, rfl⟩
abbrev main_v242 : Ref sig .tc := ⟨.hbm, 308, rfl⟩
abbrev main_v243 : Ref sig .tc := ⟨.hbm, 309, rfl⟩
abbrev main_v244 : Ref sig .tc := ⟨.hbm, 310, rfl⟩
abbrev main_v245 : Ref sig .tc := ⟨.hbm, 311, rfl⟩
abbrev main_cst_46 : Ref sig .tc := ⟨.hbm, 312, rfl⟩
abbrev main_v246 : Ref sig .tc := ⟨.hbm, 313, rfl⟩
abbrev main_v247 : Ref sig .tc := ⟨.hbm, 314, rfl⟩
abbrev main_v248 : Ref sig .tc := ⟨.hbm, 315, rfl⟩
abbrev main_v249 : Ref sig .tc := ⟨.hbm, 316, rfl⟩
abbrev main_cst_47 : Ref sig .tc := ⟨.hbm, 317, rfl⟩
abbrev main_v250 : Ref sig .tc := ⟨.hbm, 318, rfl⟩
abbrev main_v251 : Ref sig .tc := ⟨.hbm, 319, rfl⟩
abbrev main_cst_48 : Ref sig .tc := ⟨.hbm, 320, rfl⟩
abbrev main_v252 : Ref sig .tc := ⟨.hbm, 321, rfl⟩
abbrev main_v253 : Ref sig .tc := ⟨.hbm, 322, rfl⟩
abbrev main_v254 : Ref sig .tc := ⟨.hbm, 323, rfl⟩
abbrev main_v255 : Ref sig .tc := ⟨.hbm, 324, rfl⟩
abbrev main_c_49 : Ref sig .tc := ⟨.hbm, 325, rfl⟩
abbrev main_v256 : Ref sig .tc := ⟨.hbm, 326, rfl⟩
abbrev main_v257 : Ref sig .tc := ⟨.hbm, 327, rfl⟩
abbrev main_c_50 : Ref sig .tc := ⟨.hbm, 328, rfl⟩
abbrev main_v258 : Ref sig .tc := ⟨.hbm, 329, rfl⟩
abbrev main_v259 : Ref sig .tc := ⟨.hbm, 330, rfl⟩
abbrev main_v260 : Ref sig .tc := ⟨.hbm, 331, rfl⟩
abbrev main_v261 : Ref sig .tc := ⟨.hbm, 332, rfl⟩
abbrev main_v262 : Ref sig .tc := ⟨.hbm, 333, rfl⟩
abbrev main_v263 : Ref sig .tc := ⟨.hbm, 334, rfl⟩
abbrev main_v264 : Ref sig .tc := ⟨.hbm, 335, rfl⟩
abbrev main_cst_51 : Ref sig .tc := ⟨.hbm, 336, rfl⟩
abbrev main_v265 : Ref sig .tc := ⟨.hbm, 337, rfl⟩
abbrev main_v266 : Ref sig .tc := ⟨.hbm, 338, rfl⟩
abbrev main_v267 : Ref sig .tc := ⟨.hbm, 339, rfl⟩
abbrev main_v268 : Ref sig .tc := ⟨.hbm, 340, rfl⟩
abbrev main_v269 : Ref sig .tc := ⟨.hbm, 341, rfl⟩
abbrev main_v270 : Ref sig .tc := ⟨.hbm, 342, rfl⟩
abbrev main_v271 : Ref sig .tc := ⟨.hbm, 343, rfl⟩
abbrev main_v272 : Ref sig .tc := ⟨.hbm, 344, rfl⟩
abbrev main_v273 : Ref sig .tc := ⟨.hbm, 345, rfl⟩
abbrev main_v274 : Ref sig .tc := ⟨.hbm, 346, rfl⟩
abbrev main_v275 : Ref sig .tc := ⟨.hbm, 347, rfl⟩
abbrev main_v276 : Ref sig .tc := ⟨.hbm, 348, rfl⟩
abbrev main_v277 : Ref sig .tc := ⟨.hbm, 349, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S100000x64 : S_.BroadcastsInDim S100000x64 (![] : Fin 0 → Fin S100000x64.rank)
  concatenates_S800000x64_S800000x64_S800000x128_d1 : Shape.Concatenates [S800000x64, S800000x64] S800000x128 1
  slices_S2x128x64_S1x128x64_0_0_0 : S2x128x64.Slices ![0, 0, 0] S1x128x64
  shapeCasts_S1x128x64_S128x64 : S1x128x64.ShapeCasts S128x64
  slices_S2x64_S1x64_0_0 : S2x64.Slices ![0, 0] S1x64
  shapeCasts_S1x64_S64 : S1x64.ShapeCasts S64
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  slices_S2x64x1_S1x64x1_0_0_0 : S2x64x1.Slices ![0, 0, 0] S1x64x1
  shapeCasts_S1x64x1_S64x1 : S1x64x1.ShapeCasts S64x1
  slices_S2x1_S1x1_0_0 : S2x1.Slices ![0, 0] S1x1
  shapeCasts_S1x1_S1 : S1x1.ShapeCasts S1
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  slices_S2x800000_S1x800000_0_0 : S2x800000.Slices ![0, 0] S1x800000
  shapeCasts_S1x800000_S800000 : S1x800000.ShapeCasts S800000
  bcast_S_S800000x1 : S_.BroadcastsInDim S800000x1 (![] : Fin 0 → Fin S800000x1.rank)
  shapeCasts_S800000x1_S800000 : S800000x1.ShapeCasts S800000
  bcast_S_S100000 : S_.BroadcastsInDim S100000 (![] : Fin 0 → Fin S100000.rank)
  slices_S2x64x64_S1x64x64_0_0_0 : S2x64x64.Slices ![0, 0, 0] S1x64x64
  shapeCasts_S1x64x64_S64x64 : S1x64x64.ShapeCasts S64x64
  bcast_S1x64_S100000x64_0_1 : S1x64.BroadcastsInDim S100000x64 (![0, 1] : Fin 2 → Fin S100000x64.rank)
  slices_S2x100000x64_S1x100000x64_0_0_0 : S2x100000x64.Slices ![0, 0, 0] S1x100000x64
  shapeCasts_S1x100000x64_S100000x64 : S1x100000x64.ShapeCasts S100000x64
  slices_S2x128x64_S1x128x64_1_0_0 : S2x128x64.Slices ![1, 0, 0] S1x128x64
  slices_S2x64_S1x64_1_0 : S2x64.Slices ![1, 0] S1x64
  slices_S2x64x1_S1x64x1_1_0_0 : S2x64x1.Slices ![1, 0, 0] S1x64x1
  slices_S2x1_S1x1_1_0 : S2x1.Slices ![1, 0] S1x1
  slices_S2x800000_S1x800000_1_0 : S2x800000.Slices ![1, 0] S1x800000
  slices_S2x64x64_S1x64x64_1_0_0 : S2x64x64.Slices ![1, 0, 0] S1x64x64
  slices_S2x100000x64_S1x100000x64_1_0_0 : S2x100000x64.Slices ![1, 0, 0] S1x100000x64
  bcast_S100000x64_S1x100000x64_1_2 : S100000x64.BroadcastsInDim S1x100000x64 (![1, 2] : Fin 2 → Fin S1x100000x64.rank)
  concatenates_S1x100000x64_S1x100000x64_S1x100000x64_S3x100000x64_d0 : Shape.Concatenates [S1x100000x64, S1x100000x64, S1x100000x64] S3x100000x64 0
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S800000x128_S128x64_S800000x64_1_0_0_1_n_n_wf : DotDims.WF S800000x128 S128x64 S800000x64 [1] [0] [0] [1] [] []
  dot_S800000x64_S64x1_S800000x1_1_0_0_1_n_n_wf : DotDims.WF S800000x64 S64x1 S800000x1 [1] [0] [0] [1] [] []
  scatter_S100000_S800000x1_S800000_n_0_0_1_wf : ScatterDims.WF S100000 S800000x1 S800000 [] [0] [0] 1
  gather_S100000_S800000x1_S800000_n_0_n_n_0_1_1_wf : GatherDims.WF S100000 S800000x1 S800000 [] [0] [] [0] [] 1 ![1]
  dot_S100000x64_S64x64_S100000x64_1_0_0_1_n_n_wf : DotDims.WF S100000x64 S64x64 S100000x64 [1] [0] [0] [1] [] []

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def dot_S800000x64_S64x1_S800000x1_1_0_0_1_n_n : DotDims S800000x64 S64x1 S800000x1 where
  lhsContracting := [1]
  rhsContracting := [0]
  lhsNonContracting := [0]
  rhsNonContracting := [1]
  lhsBatch := []
  rhsBatch := []
  wf := dot_S800000x64_S64x1_S800000x1_1_0_0_1_n_n_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KBlocks.lean ====
/-
  The four regions' blocks and stored values, as plain definitions.

  `iblkK V c w t`: window `w` of region K at grid point `t`, read off the window's array as the region finds it
  (`V`: the buffer contents when the region is entered).
  `outK_W x…`: what region K's body leaves in its one output window's buffer, as a function of the input windows'
  blocks: the body loads every input block whole, computes one value (the payload) and stores it over the whole
  output block, so the buffer afterwards is that one piece.
  Regions 0 and 2 are the node perceptron (windows: features, noise, first weights, first bias, second weights,
  second bias; output 6), regions 1 and 3 the edge perceptron (windows: head rows, tail rows, noise, the two halves
  of the first weights, first bias, second weights, second bias; output 8).
-/
import proofs.«170728_j33028298506953_2_alg».proof.Proof.Gen.Kernel.Launch
import proofs.«170728_j33028298506953_2_alg».proof.Proof.Gen.Kernel.Skeleton
import proofs.«170728_j33028298506953_2_alg».proof.Proof.Gen.Kernel.Points
import Idealize.ShloMosaic.Lib.Pipeline.FrameBody

noncomputable section

namespace Cert.Kernel.Hand

open Idealize.ShloMosaic Idealize.ShloMosaic.TcCoe Idealize.SL.Sem
open Cert.Kernel Cert.Kernel.Gen

variable {F : FTy → Type} [FloatOps F]
variable (V : (c : Dev nD) → (b : Ref sig .tc) → Buf (Elt F) ((c : Thread nD τ).loc b))

/-! ## The whole-block rectangles the bodies load and store through -/

abbrev rN : Rect S10000x64 := Rect.unit (s := S10000x64) ![0, 0] S10000x64.size inb_S10000x64_S10000x64_0_0
abbrev rE : Rect S8000x64 := Rect.unit (s := S8000x64) ![0, 0] S8000x64.size inb_S8000x64_S8000x64_0_0
abbrev rE1 : Rect S8000x1 := Rect.unit (s := S8000x1) ![0, 0] S8000x1.size inb_S8000x1_S8000x1_0_0
abbrev rW : Rect S64x64 := Rect.unit (s := S64x64) ![0, 0] S64x64.size inb_S64x64_S64x64_0_0
abbrev rB : Rect S64 := Rect.unit (s := S64) ![0] S64.size inb_S64_S64_0
abbrev rW1 : Rect S64x1 := Rect.unit (s := S64x1) ![0, 0] S64x1.size inb_S64x1_S64x1_0_0
abbrev rB1 : Rect S1 := Rect.unit (s := S1) ![0] S1.size inb_S1_S1_0

/-! ## Region 0: the node perceptron of layer 1 -/

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_6 (x0 x1 : Vec F S10000x64 .f32) (x2 : Vec F S64x64 .f32) (x3 : Vec F S64 .f32) (x4 : Vec F S64x64 .f32)
    (x5 : Vec F S64 .f32) : Vec F S10000x64 .f32 :=
  View.canon [⟨rN, k0_pay1 (View.ld x0 rN) (View.ld x2 rW) (View.ld x3 rB) (View.ld x4 rW) (View.ld x5 rB) (View.ld x1 rN)⟩]

/-! ## Region 1: the edge perceptron of layer 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_8 (x0 x1 : Vec F S8000x64 .f32) (x2 : Vec F S8000x1 .f32) (x3 x4 : Vec F S64x64 .f32) (x5 : Vec F S64 .f32)
    (x6 : Vec F S64x1 .f32) (x7 : Vec F S1 .f32) : Vec F S8000x1 .f32 :=
  View.canon [⟨rE1, k1_pay1 (View.ld x0 rE) (View.ld x1 rE) (View.ld x3 rW) (View.ld x4 rW) (View.ld x5 rB) (View.ld x6 rW1)
    (View.ld x7 rB1) (View.ld x2 rE1)⟩]

/-! ## Region 2: the node perceptron of layer 2 -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_6 (x0 x1 : Vec F S10000x64 .f32) (x2 : Vec F S64x64 .f32) (x3 : Vec F S64 .f32) (x4 : Vec F S64x64 .f32)
    (x5 : Vec F S64 .f32) : Vec F S10000x64 .f32 :=
  View.canon [⟨rN, k2_pay1 (View.ld x0 rN) (View.ld x2 rW) (View.ld x3 rB) (View.ld x4 rW) (View.ld x5 rB) (View.ld x1 rN)⟩]

/-! ## Region 3: the edge perceptron of layer 2 -/

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3_8 (x0 x1 : Vec F S8000x64 .f32) (x2 : Vec F S8000x1 .f32) (x3 x4 : Vec F S64x64 .f32) (x5 : Vec F S64 .f32)
    (x6 : Vec F S64x1 .f32) (x7 : Vec F S1 .f32) : Vec F S8000x1 .f32 :=
  View.canon [⟨rE1, k3_pay1 (View.ld x0 rE) (View.ld x1 rE) (View.ld x3 rW) (View.ld x4 rW) (View.ld x5 rB) (View.ld x6 rW1)
    (View.ld x7 rB1) (View.ld x2 rE1)⟩]

end Cert.Kernel.Hand

end
-- ==== Proof.KDat.lean ====
/-
  The proof data of the four regions: for each, the window arrays as the region finds them and what each window's
  staging buffer holds after the body at every grid point — an input window's buffer its block, the output window's
  the value the body stores, a function of the input blocks at that point.
-/
import proofs.«170728_j33028298506953_2_alg».proof.Proof.KBlocks
import Idealize.ShloMosaic.Lib.Pipeline.FrameBody
import Idealize.ShloMosaic.Lib.Pipeline.Frame

noncomputable section

namespace Cert.Kernel.Hand

open Idealize.ShloMosaic Idealize.ShloMosaic.TcCoe
open Idealize.SL Idealize.SL.RA Idealize.SL.BI Idealize.SL.Sem
open Idealize.ShloMosaic.Pipeline (Dat)
open Cert.Kernel Cert.Kernel.Gen

variable {F : FTy → Type} [FloatOps F]
variable (V : (c : Dev nD) → (b : Ref sig .tc) → Buf (Elt F) ((c : Thread nD τ).loc b))

/-! ## Region 0: the node perceptron of layer 1 -/

/-- The proof data of region 0 on core `c`: the arrays as the region finds them; after the body at point `t` each
    input window's buffer still holds its block, and the output window's holds the stored value of the six input
    blocks; the invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by
  dsimp only [dat0]

/-! ## Region 1: the edge perceptron of layer 1 -/

/-- The proof data of region 1 on core `c`: the arrays as the region finds them; after the body at point `t` each
    input window's buffer still holds its block, and the output window's holds the stored value of the eight input
    blocks; the invariant is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t)
        (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t
    = out1_8 (iblk1 V c 0 t) (iblk1 V c 1 t) (iblk1 V c 2 t) (iblk1 V c 3 t) (iblk1 V c 4 t) (iblk1 V c 5 t)
        (iblk1 V c 6 t) (iblk1 V c 7 t) := by
  dsimp only [dat1]

/-! ## Region 2: the node perceptron of layer 2 -/

/-- The proof data of region 2 on core `c`: the arrays as the region finds them; after the body at point `t` each
    input window's buffer still holds its block, and the output window's holds the stored value of the six input
    blocks; the invariant is the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by
  dsimp only [dat2]

/-! ## Region 3: the edge perceptron of layer 2 -/

/-- The proof data of region 3 on core `c`: the arrays as the region finds them; after the body at point `t` each
    input window's buffer still holds its block, and the output window's holds the stored value of the eight input
    blocks; the invariant is the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 3 t) (iblk3 V c 4 t) (iblk3 V c 5 t)
        (iblk3 V c 6 t) (iblk3 V c 7 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t
    = out3_8 (iblk3 V c 0 t) (iblk3 V c 1 t) (iblk3 V c 2 t) (iblk3 V c 3 t) (iblk3 V c 4 t) (iblk3 V c 5 t)
        (iblk3 V c 6 t) (iblk3 V c 7 t) := by
  dsimp only [dat3]

end Cert.Kernel.Hand

end
-- ==== Proof.KRun.lean ====
/-
  The kernel program's run as @main's thirteen items: host stretches and the four regions.

  Between two items a core holds every unscoped buffer at known contents: the launch memory, then each host
  stretch's operations applied, then — after a region — the region's output array replaced by what its pipeline
  leaves, the fold of the write-backs of all grid points. Those four output arrays are named here (`o2`, `o4`,
  `o8`, `o10`: each the final array of the proof data entered at the contents before its region), and the run
  is: every weakly fair execution terminates, and every unscoped buffer ends at the last contents of that fold. Two
  readings of it follow: the argument arrays end as launched (no item writes one), and the result buffer ends at the
  fold's term for it.
  Each region is a segment whose body obligation is taken as a hypothesis here (it is proved per region elsewhere).
-/
import proofs.«170728_j33028298506953_2_alg».proof.Proof.Gen.Kernel.Regions
import proofs.«170728_j33028298506953_2_alg».proof.Proof.KDat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The four output arrays, each from the contents before its region -/

/-- The contents region 0 is entered at, read at the TensorCore's references. -/
abbrev entry0 : (c : Dev nD) → (b : Ref sig .tc) → Buf (Elt F) ((c : Thread nD τ).loc b) := fun c b => V1 m c b
/-- What region 0 leaves in its output array. -/
def o2 (c : Dev nD) : Buf (Elt F) ((c : Thread nD τ).loc main_v10) := (dat0 (entry0 m) c).arrAt 6 cfg0.N
/-- The regions' outputs known after region 0 (elsewhere the launch contents: never read). -/
def outsA : Outs (F := F) := fun _ r c => if h : r = main_v10 then h ▸ o2 m c else V0 m c r

abbrev entry1 : (c : Dev nD) → (b : Ref sig .tc) → Buf (Elt F) ((c : Thread nD τ).loc b) := fun c b => V3 m (outsA m) c b
/-- What region 1 leaves in its output array. -/
def o4 (c : Dev nD) : Buf (Elt F) ((c : Thread nD τ).loc main_v42) := (dat1 (entry1 m) c).arrAt 8 cfg1.N
def outsB : Outs (F := F) := fun _ r c =>
  if h : r = main_v10 then h ▸ o2 m c else if h : r = main_v42 then h ▸ o4 m c else V0 m c r

abbrev entry2 : (c : Dev nD) → (b : Ref sig .tc) → Buf (Elt F) ((c : Thread nD τ).loc b) := fun c b => V7 m (outsB m) c b
/-- What region 2 leaves in its output array. -/
def o8 (c : Dev nD) : Buf (Elt F) ((c : Thread nD τ).loc main_v92) := (dat2 (entry2 m) c).arrAt 6 cfg2.N
def outsC : Outs (F := F) := fun _ r c =>
  if h : r = main_v10 then h ▸ o2 m c else if h : r = main_v42 then h ▸ o4 m c
  else if h : r = main_v92 then h ▸ o8 m c else V0 m c r

abbrev entry3 : (c : Dev nD) → (b : Ref sig .tc) → Buf (Elt F) ((c : Thread nD τ).loc b) := fun c b => V9 m (outsC m) c b
/-- What region 3 leaves in its output array. -/
def o10 (c : Dev nD) : Buf (Elt F) ((c : Thread nD τ).loc main_v124) := (dat3 (entry3 m) c).arrAt 8 cfg3.N
/-- All four regions' outputs. -/
def outs : Outs (F := F) := fun _ r c =>
  if h : r = main_v10 then h ▸ o2 m c else if h : r = main_v42 then h ▸ o4 m c
  else if h : r = main_v92 then h ▸ o8 m c else if h : r = main_v124 then h ▸ o10 m c else V0 m c r

theorem outsA_main_v10 (j : ℕ) (c : Dev nD) : outsA m j main_v10 c = o2 m c := by unfold outsA; rw [dif_pos rfl]
theorem outsB_main_v10 (j : ℕ) (c : Dev nD) : outsB m j main_v10 c = o2 m c := by unfold outsB; rw [dif_pos rfl]
theorem outsB_main_v42 (j : ℕ) (c : Dev nD) : outsB m j main_v42 c = o4 m c := by
  unfold outsB; rw [dif_neg (by decide), dif_pos rfl]
theorem outsC_main_v10 (j : ℕ) (c : Dev nD) : outsC m j main_v10 c = o2 m c := by unfold outsC; rw [dif_pos rfl]
theorem outsC_main_v42 (j : ℕ) (c : Dev nD) : outsC m j main_v42 c = o4 m c := by
  unfold outsC; rw [dif_neg (by decide), dif_pos rfl]
theorem outsC_main_v92 (j : ℕ) (c : Dev nD) : outsC m j main_v92 c = o8 m c := by
  unfold outsC; rw [dif_neg (by decide), dif_neg (by decide), dif_pos rfl]
theorem outs_main_v10 (j : ℕ) (c : Dev nD) : outs m j main_v10 c = o2 m c := by unfold outs; rw [dif_pos rfl]
theorem outs_main_v42 (j : ℕ) (c : Dev nD) : outs m j main_v42 c = o4 m c := by
  unfold outs; rw [dif_neg (by decide), dif_pos rfl]
theorem outs_main_v92 (j : ℕ) (c : Dev nD) : outs m j main_v92 c = o8 m c := by
  unfold outs; rw [dif_neg (by decide), dif_neg (by decide), dif_pos rfl]
theorem outs_main_v124 (j : ℕ) (c : Dev nD) : outs m j main_v124 c = o10 m c := by
  unfold outs; rw [dif_neg (by decide), dif_neg (by decide), dif_neg (by decide), dif_pos rfl]

/-- The contents before region 1 read only region 0's output. -/
theorem V3_outs (c : Dev nD) : V3 m (outs m) c = V3 m (outsA m) c := by
  unfold V3 V2; rw [outs_main_v10, outsA_main_v10]
/-- The contents before region 2 read only the outputs of regions 0 and 1. -/
theorem V7_outs (c : Dev nD) : V7 m (outs m) c = V7 m (outsB m) c := by
  unfold V7 V6 V5 V4 V3 V2; rw [outs_main_v10, outs_main_v42, outsB_main_v10, outsB_main_v42]
/-- The contents before region 3 read only the outputs of regions 0, 1 and 2. -/
theorem V9_outs (c : Dev nD) : V9 m (outs m) c = V9 m (outsC m) c := by
  unfold V9 V8 V7 V6 V5 V4 V3 V2
  rw [outs_main_v10, outs_main_v42, outs_main_v92, outsC_main_v10, outsC_main_v42, outsC_main_v92]

/-! ## The proof data family and what rides beside the buffers -/

/-- Every pipeline's proof data, each at its region's entry contents. -/
def pdats : (p : Fin 4) → (c : Dev nD) → Dat τ (Elt F) Unit ℕ (UR sig nD τ) ℕ (cfgs p) c
  | ⟨0, _⟩ => fun c => dat0 (entry0 m) c
  | ⟨1, _⟩ => fun c => dat1 (entry1 m) c
  | ⟨2, _⟩ => fun c => dat2 (entry2 m) c
  | ⟨3, _⟩ => fun c => dat3 (entry3 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and the core
    owing nothing. -/
abbrev R (c : Dev nD) : sProp 𝕄 := iprop((∃ r, prngReg c r) ∗ ∃ W, owes (c : Thread nD τ) (0 : CellTallies nD τ sig Unit) W)

/-- Region 0's body obligation, at any entry contents. -/
abbrev Ob0 : Prop := ∀ (V : (c : Dev nD) → (b : Ref sig .tc) → Buf (Elt F) ((c : Thread nD τ).loc b)) (c : Dev nD),
  Pipeline.BodyObligation (dat0 (F := F) V c) (defs₀ (F := F)) Variants.none () Set.univ
/-- Region 1's body obligation, at any entry contents. -/
abbrev Ob1 : Prop := ∀ (V : (c : Dev nD) → (b : Ref sig .tc) → Buf (Elt F) ((c : Thread nD τ).loc b)) (c : Dev nD),
  Pipeline.BodyObligation (dat1 (F := F) V c) (defs₀ (F := F)) Variants.none () Set.univ
/-- Region 2's body obligation, at any entry contents. -/
abbrev Ob2 : Prop := ∀ (V : (c : Dev nD) → (b : Ref sig .tc) → Buf (Elt F) ((c : Thread nD τ).loc b)) (c : Dev nD),
  Pipeline.BodyObligation (dat2 (F := F) V c) (defs₀ (F := F)) Variants.none () Set.univ
/-- Region 3's body obligation, at any entry contents. -/
abbrev Ob3 : Prop := ∀ (V : (c : Dev nD) → (b : Ref sig .tc) → Buf (Elt F) ((c : Thread nD τ).loc b)) (c : Dev nD),
  Pipeline.BodyObligation (dat3 (F := F) V c) (defs₀ (F := F)) Variants.none () Set.univ

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Region 0 -/

/-- The contents region 0 is entered at and left at, read at the TensorCore's references. -/
abbrev vin0 (c : Dev nD) : (b : Ref sig .tc) → Buf (Elt F) ((c : Thread nD τ).loc b) := fun b => V1 m c b
abbrev vout0 (c : Dev nD) : (b : Ref sig .tc) → Buf (Elt F) ((c : Thread nD τ).loc b) := fun b => V2 m (outs m) c b

/-- The proof data's arrays are the buffers' contents when region 0 is entered. -/
theorem hA0 (c : Dev nD) (w : Fin cfg0.W) : (dat0 (entry0 m) c).A w = vin0 m c (Pipeline.arrRef spec0 w) := by
  rw [A_eq0]

/-- When region 0 is left, each of its arrays holds what the pipeline leaves: an input window's array what it held
    (nothing is written back to it), the output window's the write-backs of all the grid points. -/
theorem hF0 (c : Dev nD) (w : Fin cfg0.W) :
    (dat0 (entry0 m) c).arrAt w cfg0.N = vout0 m c (Pipeline.arrRef spec0 w) := by
  by_cases hw : w = 6
  · subst hw
    show _ = Function.update (V1 m c) (main_v10 : Ref sig .tc) (outs m 2 main_v10 c) (main_v10 : Ref sig .tc)
    rw [Function.update_self, outs_main_v10]; rfl
  · have hin : (cfg0.win w).isOut = false :=
      (by decide : ∀ w : Fin cfg0.W, w ≠ 6 → (cfg0.win w).isOut = false) w hw
    have hne : Pipeline.arrRef spec0 w ∉ ([main_v10] : List (Ref sig .tc)) :=
      (by decide : ∀ w : Fin cfg0.W, w ≠ 6 → Pipeline.arrRef spec0 w ∉ ([main_v10] : List (Ref sig .tc))) w hw
    exact ((dat0 (entry0 m) c).arrAt_in w hin cfg0.N).trans ((hA0 m c w).trans (V2_of m (outs m) c _ hne).symm)

/-- Every buffer that is none of region 0's arrays holds what it held at entry. -/
theorem hrest0 (c : Dev nD) : ∀ b : Ref sig .tc, b ∉ Finset.univ.image (Pipeline.arrRef spec0) → vout0 m c b = vin0 m c b :=
  fun b hb => V2_of m (outs m) c b fun hmem => hb (by
    rw [List.mem_singleton] at hmem; subst hmem
    exact Finset.mem_image.mpr ⟨⟨6, by decide⟩, Finset.mem_univ _, rfl⟩)

set_option backward.isDefEq.respectTransparency.types false in
/-- Region 0 as a segment of @main: entered with every unscoped buffer at the contents before it, left with them at
    the contents after it; its window arrays are split out of the unscoped buffers on entry and put back, at what the
    pipeline leaves, on exit; the generator register goes into the pipeline's invariant and comes back; nothing is
    owed and the kernel has no semaphore of its own. -/
def reg0 (hb : ∀ (V : (c : Dev nD) → (b : Ref sig .tc) → Buf (Elt F) ((c : Thread nD τ).loc b)) (c : Dev nD),
      Pipeline.BodyObligation (dat0 (F := F) V c) (defs₀ (F := F)) Variants.none () Set.univ) :
    RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb (entry0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (vin0 m c) (hA0 m c)
    rw [Pipeline.unscopedBufs_held c (V1 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (vin0 m c) (vout0 m c) ((pdats m 0 c).arrAt · cfg0.N) (hF0 m c) (hrest0 m c)
    rw [Pipeline.unscopedBufs_held c (V2 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- The contents region 1 is entered at and left at, read at the TensorCore's references. -/
abbrev vin1 (c : Dev nD) : (b : Ref sig .tc) → Buf (Elt F) ((c : Thread nD τ).loc b) := fun b => V3 m (outs m) c b
abbrev vout1 (c : Dev nD) : (b : Ref sig .tc) → Buf (Elt F) ((c : Thread nD τ).loc b) := fun b => V4 m (outs m) c b

/-- The proof data's arrays are the buffers' contents when region 1 is entered. -/
theorem hA1 (c : Dev nD) (w : Fin cfg1.W) : (dat1 (entry1 m) c).A w = vin1 m c (Pipeline.arrRef spec1 w) := by
  rw [A_eq1]
  exact (congrFun (V3_outs m c) _).symm

/-- When region 1 is left, each of its arrays holds what the pipeline leaves: an input window's array what it held
    (nothing is written back to it), the output window's the write-backs of all the grid points. -/
theorem hF1 (c : Dev nD) (w : Fin cfg1.W) :
    (dat1 (entry1 m) c).arrAt w cfg1.N = vout1 m c (Pipeline.arrRef spec1 w) := by
  by_cases hw : w = 8
  · subst hw
    show _ = Function.update (V3 m (outs m) c) (main_v42 : Ref sig .tc) (outs m 4 main_v42 c) (main_v42 : Ref sig .tc)
    rw [Function.update_self, outs_main_v42]; rfl
  · have hin : (cfg1.win w).isOut = false :=
      (by decide : ∀ w : Fin cfg1.W, w ≠ 8 → (cfg1.win w).isOut = false) w hw
    have hne : Pipeline.arrRef spec1 w ∉ ([main_v42] : List (Ref sig .tc)) :=
      (by decide : ∀ w : Fin cfg1.W, w ≠ 8 → Pipeline.arrRef spec1 w ∉ ([main_v42] : List (Ref sig .tc))) w hw
    exact ((dat1 (entry1 m) c).arrAt_in w hin cfg1.N).trans ((hA1 m c w).trans (V4_of m (outs m) c _ hne).symm)

/-- Every buffer that is none of region 1's arrays holds what it held at entry. -/
theorem hrest1 (c : Dev nD) : ∀ b : Ref sig .tc, b ∉ Finset.univ.image (Pipeline.arrRef spec1) → vout1 m c b = vin1 m c b :=
  fun b hb => V4_of m (outs m) c b fun hmem => hb (by
    rw [List.mem_singleton] at hmem; subst hmem
    exact Finset.mem_image.mpr ⟨⟨8, by decide⟩, Finset.mem_univ _, rfl⟩)

set_option backward.isDefEq.respectTransparency.types false in
/-- Region 1 as a segment of @main: entered with every unscoped buffer at the contents before it, left with them at
    the contents after it; its window arrays are split out of the unscoped buffers on entry and put back, at what the
    pipeline leaves, on exit; the generator register goes into the pipeline's invariant and comes back; nothing is
    owed and the kernel has no semaphore of its own. -/
def reg1 (hb : ∀ (V : (c : Dev nD) → (b : Ref sig .tc) → Buf (Elt F) ((c : Thread nD τ).loc b)) (c : Dev nD),
      Pipeline.BodyObligation (dat1 (F := F) V c) (defs₀ (F := F)) Variants.none () Set.univ) :
    RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (hb (entry1 m) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (vin1 m c) (hA1 m c)
    rw [Pipeline.unscopedBufs_held c (V3 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (vin1 m c) (vout1 m c) ((pdats m 1 c).arrAt · cfg1.N) (hF1 m c) (hrest1 m c)
    rw [Pipeline.unscopedBufs_held c (V4 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- The contents region 2 is entered at and left at, read at the TensorCore's references. -/
abbrev vin2 (c : Dev nD) : (b : Ref sig .tc) → Buf (Elt F) ((c : Thread nD τ).loc b) := fun b => V7 m (outs m) c b
abbrev vout2 (c : Dev nD) : (b : Ref sig .tc) → Buf (Elt F) ((c : Thread nD τ).loc b) := fun b => V8 m (outs m) c b

/-- The proof data's arrays are the buffers' contents when region 2 is entered. -/
theorem hA2 (c : Dev nD) (w : Fin cfg2.W) : (dat2 (entry2 m) c).A w = vin2 m c (Pipeline.arrRef spec2 w) := by
  rw [A_eq2]
  exact (congrFun (V7_outs m c) _).symm

/-- When region 2 is left, each of its arrays holds what the pipeline leaves: an input window's array what it held
    (nothing is written back to it), the output window's the write-backs of all the grid points. -/
theorem hF2 (c : Dev nD) (w : Fin cfg2.W) :
    (dat2 (entry2 m) c).arrAt w cfg2.N = vout2 m c (Pipeline.arrRef spec2 w) := by
  by_cases hw : w = 6
  · subst hw
    show _ = Function.update (V7 m (outs m) c) (main_v92 : Ref sig .tc) (outs m 8 main_v92 c) (main_v92 : Ref sig .tc)
    rw [Function.update_self, outs_main_v92]; rfl
  · have hin : (cfg2.win w).isOut = false :=
      (by decide : ∀ w : Fin cfg2.W, w ≠ 6 → (cfg2.win w).isOut = false) w hw
    have hne : Pipeline.arrRef spec2 w ∉ ([main_v92] : List (Ref sig .tc)) :=
      (by decide : ∀ w : Fin cfg2.W, w ≠ 6 → Pipeline.arrRef spec2 w ∉ ([main_v92] : List (Ref sig .tc))) w hw
    exact ((dat2 (entry2 m) c).arrAt_in w hin cfg2.N).trans ((hA2 m c w).trans (V8_of m (outs m) c _ hne).symm)

/-- Every buffer that is none of region 2's arrays holds what it held at entry. -/
theorem hrest2 (c : Dev nD) : ∀ b : Ref sig .tc, b ∉ Finset.univ.image (Pipeline.arrRef spec2) → vout2 m c b = vin2 m c b :=
  fun b hb => V8_of m (outs m) c b fun hmem => hb (by
    rw [List.mem_singleton] at hmem; subst hmem
    exact Finset.mem_image.mpr ⟨⟨6, by decide⟩, Finset.mem_univ _, rfl⟩)

set_option backward.isDefEq.respectTransparency.types false in
/-- Region 2 as a segment of @main: entered with every unscoped buffer at the contents before it, left with them at
    the contents after it; its window arrays are split out of the unscoped buffers on entry and put back, at what the
    pipeline leaves, on exit; the generator register goes into the pipeline's invariant and comes back; nothing is
    owed and the kernel has no semaphore of its own. -/
def reg2 (hb : ∀ (V : (c : Dev nD) → (b : Ref sig .tc) → Buf (Elt F) ((c : Thread nD τ).loc b)) (c : Dev nD),
      Pipeline.BodyObligation (dat2 (F := F) V c) (defs₀ (F := F)) Variants.none () Set.univ) :
    RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (hb (entry2 m) c).loose
  hwaits := Pipeline.hwaits_of_owed_zero _ _ _ _ L lv 2 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec2 c (vin2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (vin2 m c) (hA2 m c)
    rw [Pipeline.unscopedBufs_held c (V7 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (vin2 m c) (vout2 m c) ((pdats m 2 c).arrAt · cfg2.N) (hF2 m c) (hrest2 m c)
    rw [Pipeline.unscopedBufs_held c (V8 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 -/

/-- The contents region 3 is entered at and left at, read at the TensorCore's references. -/
abbrev vin3 (c : Dev nD) : (b : Ref sig .tc) → Buf (Elt F) ((c : Thread nD τ).loc b) := fun b => V9 m (outs m) c b
abbrev vout3 (c : Dev nD) : (b : Ref sig .tc) → Buf (Elt F) ((c : Thread nD τ).loc b) := fun b => V10 m (outs m) c b

/-- The proof data's arrays are the buffers' contents when region 3 is entered. -/
theorem hA3 (c : Dev nD) (w : Fin cfg3.W) : (dat3 (entry3 m) c).A w = vin3 m c (Pipeline.arrRef spec3 w) := by
  rw [A_eq3]
  exact (congrFun (V9_outs m c) _).symm

/-- When region 3 is left, each of its arrays holds what the pipeline leaves: an input window's array what it held
    (nothing is written back to it), the output window's the write-backs of all the grid points. -/
theorem hF3 (c : Dev nD) (w : Fin cfg3.W) :
    (dat3 (entry3 m) c).arrAt w cfg3.N = vout3 m c (Pipeline.arrRef spec3 w) := by
  by_cases hw : w = 8
  · subst hw
    show _ = Function.update (V9 m (outs m) c) (main_v124 : Ref sig .tc) (outs m 10 main_v124 c) (main_v124 : Ref sig .tc)
    rw [Function.update_self, outs_main_v124]; rfl
  · have hin : (cfg3.win w).isOut = false :=
      (by decide : ∀ w : Fin cfg3.W, w ≠ 8 → (cfg3.win w).isOut = false) w hw
    have hne : Pipeline.arrRef spec3 w ∉ ([main_v124] : List (Ref sig .tc)) :=
      (by decide : ∀ w : Fin cfg3.W, w ≠ 8 → Pipeline.arrRef spec3 w ∉ ([main_v124] : List (Ref sig .tc))) w hw
    exact ((dat3 (entry3 m) c).arrAt_in w hin cfg3.N).trans ((hA3 m c w).trans (V10_of m (outs m) c _ hne).symm)

/-- Every buffer that is none of region 3's arrays holds what it held at entry. -/
theorem hrest3 (c : Dev nD) : ∀ b : Ref sig .tc, b ∉ Finset.univ.image (Pipeline.arrRef spec3) → vout3 m c b = vin3 m c b :=
  fun b hb => V10_of m (outs m) c b fun hmem => hb (by
    rw [List.mem_singleton] at hmem; subst hmem
    exact Finset.mem_image.mpr ⟨⟨8, by decide⟩, Finset.mem_univ _, rfl⟩)

set_option backward.isDefEq.respectTransparency.types false in
/-- Region 3 as a segment of @main: entered with every unscoped buffer at the contents before it, left with them at
    the contents after it; its window arrays are split out of the unscoped buffers on entry and put back, at what the
    pipeline leaves, on exit; the generator register goes into the pipeline's invariant and comes back; nothing is
    owed and the kernel has no semaphore of its own. -/
def reg3 (hb : ∀ (V : (c : Dev nD) → (b : Ref sig .tc) → Buf (Elt F) ((c : Thread nD τ).loc b)) (c : Dev nD),
      Pipeline.BodyObligation (dat3 (F := F) V c) (defs₀ (F := F)) Variants.none () Set.univ) :
    RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (hb (entry3 m) c).loose
  hwaits := Pipeline.hwaits_of_owed_zero _ _ _ _ L lv 3 fun _ _ => rfl
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec3 c (vin3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (vin3 m c) (hA3 m c)
    rw [Pipeline.unscopedBufs_held c (V9 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (vin3 m c) (vout3 m c) ((pdats m 3 c).arrAt · cfg3.N) (hF3 m c) (hrest3 m c)
    rw [Pipeline.unscopedBufs_held c (V10 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of @main from memory `m` with zero counters terminates, and in every final memory each
    unscoped buffer holds the last contents of the fold through @main's items. -/
theorem run_all
    (hb0 : ∀ (V : (c : Dev nD) → (b : Ref sig .tc) → Buf (Elt F) ((c : Thread nD τ).loc b)) (c : Dev nD),
      Pipeline.BodyObligation (dat0 (F := F) V c) (defs₀ (F := F)) Variants.none () Set.univ)
    (hb1 : ∀ (V : (c : Dev nD) → (b : Ref sig .tc) → Buf (Elt F) ((c : Thread nD τ).loc b)) (c : Dev nD),
      Pipeline.BodyObligation (dat1 (F := F) V c) (defs₀ (F := F)) Variants.none () Set.univ)
    (hb2 : ∀ (V : (c : Dev nD) → (b : Ref sig .tc) → Buf (Elt F) ((c : Thread nD τ).loc b)) (c : Dev nD),
      Pipeline.BodyObligation (dat2 (F := F) V c) (defs₀ (F := F)) Variants.none () Set.univ)
    (hb3 : ∀ (V : (c : Dev nD) → (b : Ref sig .tc) → Buf (Elt F) ((c : Thread nD τ).loc b)) (c : Dev nD),
      Pipeline.BodyObligation (dat3 (F := F) V c) (defs₀ (F := F)) Variants.none () Set.univ) :
    θ_run defs (onTc (τ := τ) (main (F := F))) ⟨m, fun _ => 0, ρ⟩ (fun r => ∀ c : Dev nD,
      ∀ b ∈ Pipeline.ucRefs τ sig, r.2.mem ((c : Thread nD τ).1, b) = V13 m (outs m) c b) := by
  refine Pipeline.θ_run_regions_kit_dev (pcfgs (F := F)) adm (pdats m) () cellOf_inj emb₁ defs₀ 𝒱₀ L lv m ρ main
    (segs m (outs m) 𝒱₀ L lv (fun _ c => R c) () (pdats m) (reg0 m hb0) (reg1 m hb1) (reg2 m hb2) (reg3 m hb3))
    (fun c Q => by
      rewrite [main_chain c, Seg.run_eq_chain,
        show (segs m (outs m) 𝒱₀ L lv (fun _ c => R c) () (pdats m) (reg0 m hb0) (reg1 m hb1) (reg2 m hb2) (reg3 m hb3) c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          Prog.lift (.customCall (Pipeline.entry 3) ()),
          StableHlo.seq hostOps4,
          StableHlo.seq hostOps4_1,
          StableHlo.seq hostOps4_2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V13 m (outs m) c))
    (hch := fun c => ⟨.rfl, .rfl, .rfl, .rfl, .rfl, .rfl, .rfl, .rfl, .rfl, .rfl, .rfl, .rfl, .rfl,
      sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V13 m (outs m) c b)
    (hfin := fun c s' => by
      iintro ⟨Hh, HSI⟩
      unfold StableHlo.held
      imodintro
      iapply (pointsTo_read_all (Pipeline.ucRefs τ sig) (fun b => (((c : Thread nD τ)).1, b)) (V13 m (outs m) c) s')
      isplitl [Hh] <;> iassumption)
    (hQ := fun s h c => h c)

/-- The frame: every weakly fair execution terminates, nothing faults, and the fourteen argument arrays end as
    launched — no host operation and no region writes one, so the fold at an argument's buffer is the launch memory. -/
theorem frame (hb0 : Ob0 (F := F)) (hb1 : Ob1 (F := F)) (hb2 : Ob2 (F := F)) (hb3 : Ob3 (F := F)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (V13_main_arg0 m (outs m) c),
     (h c _ (mem_uc main_arg1 (by decide))).trans (V13_main_arg1 m (outs m) c),
     (h c _ (mem_uc main_arg2 (by decide))).trans (V13_main_arg2 m (outs m) c),
     (h c _ (mem_uc main_arg3 (by decide))).trans (V13_main_arg3 m (outs m) c),
     (h c _ (mem_uc main_arg4 (by decide))).trans (V13_main_arg4 m (outs m) c),
     (h c _ (mem_uc main_arg5 (by decide))).trans (V13_main_arg5 m (outs m) c),
     (h c _ (mem_uc main_arg6 (by decide))).trans (V13_main_arg6 m (outs m) c),
     (h c _ (mem_uc main_arg7 (by decide))).trans (V13_main_arg7 m (outs m) c),
     (h c _ (mem_uc main_arg8 (by decide))).trans (V13_main_arg8 m (outs m) c),
     (h c _ (mem_uc main_arg9 (by decide))).trans (V13_main_arg9 m (outs m) c),
     (h c _ (mem_uc main_arg10 (by decide))).trans (V13_main_arg10 m (outs m) c),
     (h c _ (mem_uc main_arg11 (by decide))).trans (V13_main_arg11 m (outs m) c),
     (h c _ (mem_uc main_arg12 (by decide))).trans (V13_main_arg12 m (outs m) c),
     (h c _ (mem_uc main_arg13 (by decide))).trans (V13_main_arg13 m (outs m) c)⟩)
    (run_all m ρ hb0 hb1 hb2 hb3)

end Cert.Kernel.Hand

end
-- ==== Proof.KBody0.lean ====
/-
  Region 0 of the program: what its body is owed and what it gives back.

  The region runs one kernel body at every point of its grid. At a point the pipeline hands the body one staging
  buffer per window. Each input window's buffer holds that window's block at the point — the rows of the window's
  array that the point's index selects — whether the pipeline copied it in at this point or, the index not having
  moved, left it from an earlier one. The body reads every input block whole, reads (and ignores) what the output
  buffer happens to hold, computes one value from the input blocks and writes it over the whole output block. So
  after the body the input buffers hold what they held and the output buffer holds that one value, a function of
  the input blocks alone.
-/
import proofs.«170728_j33028298506953_2_alg».proof.Proof.KBlocks
import proofs.«170728_j33028298506953_2_alg».proof.Proof.KDat
import proofs.«170728_j33028298506953_2_alg».proof.Proof.Gen.Kernel.Launch
import proofs.«170728_j33028298506953_2_alg».proof.Proof.Gen.Kernel.Skeleton
import proofs.«170728_j33028298506953_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with ten thousand rows is decided by a recursion as deep as the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## Each input buffer holds its window's block -/

/-- Input window 0: for any proof data that reads its arrays off `V` and whose body leaves this window's block
    in place, the window's current staging buffer holds the block of the point, copied in there or kept from an
    earlier point at which the block index was the same. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: for any proof data that reads its arrays off `V` and whose body leaves this window's block
    in place, the window's current staging buffer holds the block of the point, copied in there or kept from an
    earlier point at which the block index was the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2: for any proof data that reads its arrays off `V` and whose body leaves this window's block
    in place, the window's current staging buffer holds the block of the point, copied in there or kept from an
    earlier point at which the block index was the same. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3: for any proof data that reads its arrays off `V` and whose body leaves this window's block
    in place, the window's current staging buffer holds the block of the point, copied in there or kept from an
    earlier point at which the block index was the same. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4: for any proof data that reads its arrays off `V` and whose body leaves this window's block
    in place, the window's current staging buffer holds the block of the point, copied in there or kept from an
    earlier point at which the block index was the same. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5: for any proof data that reads its arrays off `V` and whose body leaves this window's block
    in place, the window's current staging buffer holds the block of the point, copied in there or kept from an
    earlier point at which the block index was the same. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The one store covers the output block -/

/-- The body's single store is through the rectangle that is the whole output block, so every index of the block
    lies in it. -/
theorem cover0_6 (p0 : Vec F S10000x64 .f32) (y : S10000x64.Idx) :
    ∃ pc ∈ ([⟨rN, p0⟩] : List (View.Piece (Elt F) S10000x64 .f32)), y ∈ pc.1.set :=
  View.cover_of_tiled [⟨rN, p0⟩] S10000x64.size (by rfl) y

/-! ## The body's triple -/

set_option maxHeartbeats 4000000 in
/-- The body run on whole staging buffers: the input buffers read `x0`, …, the output buffer holds anything. It ends
    with the input buffers as they were and the output buffer reading the stored value, the function `out0_6` of the
    input contents: the one store covers the block, so nothing of the earlier contents is left. -/
theorem sound_kernel0 (c : Dev nD) (E : Set ℕ) (i : grid0.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S10000x64 .f32) (harg7 : arg7.IsWhole)
    (x0 : Vec F S10000x64 .f32) (x1 : Vec F S10000x64 .f32) (x2 : Vec F S64x64 .f32) (x3 : Vec F S64 .f32) (x4 : Vec F S64x64 .f32) (x5 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__emb_mlp_kernel i arg1 harg1 arg2 harg2 arg3 harg3 arg4 harg4 arg5 harg5 arg6 harg6 arg7 harg7) K := by
  simp only [cc0__emb_mlp_kernel_eq_skeleton]; unfold cc0__emb_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The input buffers under the region's proof data -/

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation at a generic point -/

/-- What the body is called with at point `t`: the invariant, nothing owed, and every window's current staging buffer
    at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns: the same, every buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: the input buffers hold their blocks, so the body's triple applies; the invariant and the
    statement that nothing is owed pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The obligation the launch theorem asks of the body, at every point of the grid. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBody1.lean ====
/-
  Region 1 of the program: what its body is owed and what it gives back.

  The region runs one kernel body at every point of its grid. At a point the pipeline hands the body one staging
  buffer per window. Each input window's buffer holds that window's block at the point — the rows of the window's
  array that the point's index selects — whether the pipeline copied it in at this point or, the index not having
  moved, left it from an earlier one. The body reads every input block whole, reads (and ignores) what the output
  buffer happens to hold, computes one value from the input blocks and writes it over the whole output block. So
  after the body the input buffers hold what they held and the output buffer holds that one value, a function of
  the input blocks alone.
-/
import proofs.«170728_j33028298506953_2_alg».proof.Proof.KBlocks
import proofs.«170728_j33028298506953_2_alg».proof.Proof.KDat
import proofs.«170728_j33028298506953_2_alg».proof.Proof.Gen.Kernel.Launch
import proofs.«170728_j33028298506953_2_alg».proof.Proof.Gen.Kernel.Skeleton
import proofs.«170728_j33028298506953_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with ten thousand rows is decided by a recursion as deep as the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## Each input buffer holds its window's block -/

/-- Input window 0: for any proof data that reads its arrays off `V` and whose body leaves this window's block
    in place, the window's current staging buffer holds the block of the point, copied in there or kept from an
    earlier point at which the block index was the same. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1: for any proof data that reads its arrays off `V` and whose body leaves this window's block
    in place, the window's current staging buffer holds the block of the point, copied in there or kept from an
    earlier point at which the block index was the same. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2: for any proof data that reads its arrays off `V` and whose body leaves this window's block
    in place, the window's current staging buffer holds the block of the point, copied in there or kept from an
    earlier point at which the block index was the same. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3: for any proof data that reads its arrays off `V` and whose body leaves this window's block
    in place, the window's current staging buffer holds the block of the point, copied in there or kept from an
    earlier point at which the block index was the same. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4: for any proof data that reads its arrays off `V` and whose body leaves this window's block
    in place, the window's current staging buffer holds the block of the point, copied in there or kept from an
    earlier point at which the block index was the same. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5: for any proof data that reads its arrays off `V` and whose body leaves this window's block
    in place, the window's current staging buffer holds the block of the point, copied in there or kept from an
    earlier point at which the block index was the same. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6: for any proof data that reads its arrays off `V` and whose body leaves this window's block
    in place, the window's current staging buffer holds the block of the point, copied in there or kept from an
    earlier point at which the block index was the same. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7: for any proof data that reads its arrays off `V` and whose body leaves this window's block
    in place, the window's current staging buffer holds the block of the point, copied in there or kept from an
    earlier point at which the block index was the same. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The one store covers the output block -/

/-- The body's single store is through the rectangle that is the whole output block, so every index of the block
    lies in it. -/
theorem cover1_8 (p0 : Vec F S8000x1 .f32) (y : S8000x1.Idx) :
    ∃ pc ∈ ([⟨rE1, p0⟩] : List (View.Piece (Elt F) S8000x1 .f32)), y ∈ pc.1.set :=
  View.cover_of_tiled [⟨rE1, p0⟩] S8000x1.size (by rfl) y

/-! ## The body's triple -/

set_option maxHeartbeats 4000000 in
/-- The body run on whole staging buffers: the input buffers read `x0`, …, the output buffer holds anything. It ends
    with the input buffers as they were and the output buffer reading the stored value, the function `out1_8` of the
    input contents: the one store covers the block, so nothing of the earlier contents is left. -/
theorem sound_kernel1 (c : Dev nD) (E : Set ℕ) (i : grid1.Coords) (arg1 : Memref sig .tc .vmem S8000x64 .f32) (harg1 : arg1.IsWhole) (arg2 : Memref sig .tc .vmem S8000x64 .f32) (harg2 : arg2.IsWhole) (arg3 : Memref sig .tc .vmem S8000x1 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x1 .f32) (harg7 : arg7.IsWhole) (arg8 : Memref sig .tc .vmem S1 .f32) (harg8 : arg8.IsWhole) (arg9 : Memref sig .tc .vmem S8000x1 .f32) (harg9 : arg9.IsWhole)
    (x0 : Vec F S8000x64 .f32) (x1 : Vec F S8000x64 .f32) (x2 : Vec F S8000x1 .f32) (x3 : Vec F S64x64 .f32) (x4 : Vec F S64x64 .f32) (x5 : Vec F S64 .f32) (x6 : Vec F S64x1 .f32) (x7 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out1_8 x0 x1 x2 x3 x4 x5 x6 x7)) -∗ K ⟨⟩))
      ⊢ wp frame (wpE (defs₀ (F := F)) Variants.none c none) E (cc1__edge_mlp_kernel i arg1 harg1 arg2 harg2 arg3 harg3 arg4 harg4 arg5 harg5 arg6 harg6 arg7 harg7 arg8 harg8 arg9 harg9) K := by
  simp only [cc1__edge_mlp_kernel_eq_skeleton]; unfold cc1__edge_mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover1_8 _)

/-! ## The input buffers under the region's proof data -/

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation at a generic point -/

/-- What the body is called with at point `t`: the invariant, nothing owed, and every window's current staging buffer
    at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns: the same, every buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

set_option maxHeartbeats 1000000 in
/-- The body at any point: the input buffers hold their blocks, so the body's triple applies; the invariant and the
    statement that nothing is owed pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The obligation the launch theorem asks of the body, at every point of the grid. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KBody2.lean ====
/-
  Region 2 of the program: what its body is owed and what it gives back.

  The region runs one kernel body at every point of its grid. At a point the pipeline hands the body one staging
  buffer per window. Each input window's buffer holds that window's block at the point — the rows of the window's
  array that the point's index selects — whether the pipeline copied it in at this point or, the index not having
  moved, left it from an earlier one. The body reads every input block whole, reads (and ignores) what the output
  buffer happens to hold, computes one value from the input blocks and writes it over the whole output block. So
  after the body the input buffers hold what they held and the output buffer holds that one value, a function of
  the input blocks alone.
-/
import proofs.«170728_j33028298506953_2_alg».proof.Proof.KBlocks
import proofs.«170728_j33028298506953_2_alg».proof.Proof.KDat
import proofs.«170728_j33028298506953_2_alg».proof.Proof.Gen.Kernel.Launch
import proofs.«170728_j33028298506953_2_alg».proof.Proof.Gen.Kernel.Skeleton
import proofs.«170728_j33028298506953_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with ten thousand rows is decided by a recursion as deep as the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## Each input buffer holds its window's block -/

/-- Input window 0: for any proof data that reads its arrays off `V` and whose body leaves this window's block
    in place, the window's current staging buffer holds the block of the point, copied in there or kept from an
    earlier point at which the block index was the same. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1: for any proof data that reads its arrays off `V` and whose body leaves this window's block
    in place, the window's current staging buffer holds the block of the point, copied in there or kept from an
    earlier point at which the block index was the same. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2: for any proof data that reads its arrays off `V` and whose body leaves this window's block
    in place, the window's current staging buffer holds the block of the point, copied in there or kept from an
    earlier point at which the block index was the same. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3: for any proof data that reads its arrays off `V` and whose body leaves this window's block
    in place, the window's current staging buffer holds the block of the point, copied in there or kept from an
    earlier point at which the block index was the same. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4: for any proof data that reads its arrays off `V` and whose body leaves this window's block
    in place, the window's current staging buffer holds the block of the point, copied in there or kept from an
    earlier point at which the block index was the same. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5: for any proof data that reads its arrays off `V` and whose body leaves this window's block
    in place, the window's current staging buffer holds the block of the point, copied in there or kept from an
    earlier point at which the block index was the same. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The one store covers the output block -/

/-- The body's single store is through the rectangle that is the whole output block, so every index of the block
    lies in it. -/
theorem cover2_6 (p0 : Vec F S10000x64 .f32) (y : S10000x64.Idx) :
    ∃ pc ∈ ([⟨rN, p0⟩] : List (View.Piece (Elt F) S10000x64 .f32)), y ∈ pc.1.set :=
  View.cover_of_tiled [⟨rN, p0⟩] S10000x64.size (by rfl) y

/-! ## The body's triple -/

set_option maxHeartbeats 4000000 in
/-- The body run on whole staging buffers: the input buffers read `x0`, …, the output buffer holds anything. It ends
    with the input buffers as they were and the output buffer reading the stored value, the function `out2_6` of the
    input contents: the one store covers the block, so nothing of the earlier contents is left. -/
theorem sound_kernel2 (c : Dev nD) (E : Set ℕ) (i : grid2.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S10000x64 .f32) (harg7 : arg7.IsWhole)
    (x0 : Vec F S10000x64 .f32) (x1 : Vec F S10000x64 .f32) (x2 : Vec F S64x64 .f32) (x3 : Vec F S64 .f32) (x4 : Vec F S64x64 .f32) (x5 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__emb_mlp_kernel i arg1 harg1 arg2 harg2 arg3 harg3 arg4 harg4 arg5 harg5 arg6 harg6 arg7 harg7) K := by
  simp only [cc2__emb_mlp_kernel_eq_skeleton]; unfold cc2__emb_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The input buffers under the region's proof data -/

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation at a generic point -/

/-- What the body is called with at point `t`: the invariant, nothing owed, and every window's current staging buffer
    at what the pipeline left in it, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns: the same, every buffer at what the proof data says the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

set_option maxHeartbeats 1000000 in
/-- The body at any point: the input buffers hold their blocks, so the body's triple applies; the invariant and the
    statement that nothing is owed pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The obligation the launch theorem asks of the body, at every point of the grid. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KBody3.lean ====
/-
  Region 3 of the program: what its body is owed and what it gives back.

  The region runs one kernel body at every point of its grid. At a point the pipeline hands the body one staging
  buffer per window. Each input window's buffer holds that window's block at the point — the rows of the window's
  array that the point's index selects — whether the pipeline copied it in at this point or, the index not having
  moved, left it from an earlier one. The body reads every input block whole, reads (and ignores) what the output
  buffer happens to hold, computes one value from the input blocks and writes it over the whole output block. So
  after the body the input buffers hold what they held and the output buffer holds that one value, a function of
  the input blocks alone.
-/
import proofs.«170728_j33028298506953_2_alg».proof.Proof.KBlocks
import proofs.«170728_j33028298506953_2_alg».proof.Proof.KDat
import proofs.«170728_j33028298506953_2_alg».proof.Proof.Gen.Kernel.Launch
import proofs.«170728_j33028298506953_2_alg».proof.Proof.Gen.Kernel.Skeleton
import proofs.«170728_j33028298506953_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with ten thousand rows is decided by a recursion as deep as the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## Each input buffer holds its window's block -/

/-- Input window 0: for any proof data that reads its arrays off `V` and whose body leaves this window's block
    in place, the window's current staging buffer holds the block of the point, copied in there or kept from an
    earlier point at which the block index was the same. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1: for any proof data that reads its arrays off `V` and whose body leaves this window's block
    in place, the window's current staging buffer holds the block of the point, copied in there or kept from an
    earlier point at which the block index was the same. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2: for any proof data that reads its arrays off `V` and whose body leaves this window's block
    in place, the window's current staging buffer holds the block of the point, copied in there or kept from an
    earlier point at which the block index was the same. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3: for any proof data that reads its arrays off `V` and whose body leaves this window's block
    in place, the window's current staging buffer holds the block of the point, copied in there or kept from an
    earlier point at which the block index was the same. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4: for any proof data that reads its arrays off `V` and whose body leaves this window's block
    in place, the window's current staging buffer holds the block of the point, copied in there or kept from an
    earlier point at which the block index was the same. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5: for any proof data that reads its arrays off `V` and whose body leaves this window's block
    in place, the window's current staging buffer holds the block of the point, copied in there or kept from an
    earlier point at which the block index was the same. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6: for any proof data that reads its arrays off `V` and whose body leaves this window's block
    in place, the window's current staging buffer holds the block of the point, copied in there or kept from an
    earlier point at which the block index was the same. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7: for any proof data that reads its arrays off `V` and whose body leaves this window's block
    in place, the window's current staging buffer holds the block of the point, copied in there or kept from an
    earlier point at which the block index was the same. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-! ## The one store covers the output block -/

/-- The body's single store is through the rectangle that is the whole output block, so every index of the block
    lies in it. -/
theorem cover3_8 (p0 : Vec F S8000x1 .f32) (y : S8000x1.Idx) :
    ∃ pc ∈ ([⟨rE1, p0⟩] : List (View.Piece (Elt F) S8000x1 .f32)), y ∈ pc.1.set :=
  View.cover_of_tiled [⟨rE1, p0⟩] S8000x1.size (by rfl) y

/-! ## The body's triple -/

set_option maxHeartbeats 4000000 in
/-- The body run on whole staging buffers: the input buffers read `x0`, …, the output buffer holds anything. It ends
    with the input buffers as they were and the output buffer reading the stored value, the function `out3_8` of the
    input contents: the one store covers the block, so nothing of the earlier contents is left. -/
theorem sound_kernel3 (c : Dev nD) (E : Set ℕ) (i : grid3.Coords) (arg1 : Memref sig .tc .vmem S8000x64 .f32) (harg1 : arg1.IsWhole) (arg2 : Memref sig .tc .vmem S8000x64 .f32) (harg2 : arg2.IsWhole) (arg3 : Memref sig .tc .vmem S8000x1 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x1 .f32) (harg7 : arg7.IsWhole) (arg8 : Memref sig .tc .vmem S1 .f32) (harg8 : arg8.IsWhole) (arg9 : Memref sig .tc .vmem S8000x1 .f32) (harg9 : arg9.IsWhole)
    (x0 : Vec F S8000x64 .f32) (x1 : Vec F S8000x64 .f32) (x2 : Vec F S8000x1 .f32) (x3 : Vec F S64x64 .f32) (x4 : Vec F S64x64 .f32) (x5 : Vec F S64 .f32) (x6 : Vec F S64x1 .f32) (x7 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out3_8 x0 x1 x2 x3 x4 x5 x6 x7)) -∗ K ⟨⟩))
      ⊢ wp frame (wpE (defs₀ (F := F)) Variants.none c none) E (cc3__edge_mlp_kernel i arg1 harg1 arg2 harg2 arg3 harg3 arg4 harg4 arg5 harg5 arg6 harg6 arg7 harg7 arg8 harg8 arg9 harg9) K := by
  simp only [cc3__edge_mlp_kernel_eq_skeleton]; unfold cc3__edge_mlp_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover3_8 _)

/-! ## The input buffers under the region's proof data -/

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d

/-! ## The body obligation at a generic point -/

/-- What the body is called with at point `t`: the invariant, nothing owed, and every window's current staging buffer
    at what the pipeline left in it, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

/-- and what it returns: the same, every buffer at what the proof data says the body leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t))

set_option maxHeartbeats 1000000 in
/-- The body at any point: the input buffers hold their blocks, so the body's triple applies; the invariant and the
    statement that nothing is owed pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel3 c Set.univ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The obligation the launch theorem asks of the body, at every point of the grid. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KClaims.lean ====
/-
  The kernel program as printed, assembled: its frame.

  The run of @main's thirteen items leaves every unscoped buffer at the last contents of the fold through the items;
  read at an argument that is the launch memory. The four regions' body obligations are the per-region theorems.
-/
import proofs.«170728_j33028298506953_2_alg».proof.Proof.KRun
import proofs.«170728_j33028298506953_2_alg».proof.Proof.KBody0
import proofs.«170728_j33028298506953_2_alg».proof.Proof.KBody1
import proofs.«170728_j33028298506953_2_alg».proof.Proof.KBody2
import proofs.«170728_j33028298506953_2_alg».proof.Proof.KBody3

noncomputable section

namespace Cert.Kernel.Hand

open Idealize.ShloMosaic Idealize.ShloMosaic.TcCoe Idealize.SL.Sem
open Cert.Kernel Cert.Kernel.Gen

variable {F : FTy → Type} [FloatOps F]
variable (m : (ℓ : Loc nD τ sig) → Buf (Elt F) ℓ) (ρ : Dev nD → PrngReg)

/-- The frame of the kernel program: it runs to the end, nothing faults, the fourteen argument arrays end as launched. -/
theorem frame_main :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame m ρ (fun V c => body_obligation0 V c) (fun V c => body_obligation1 V c) (fun V c => body_obligation2 V c)
    (fun V c => body_obligation3 V c)

end Cert.Kernel.Hand

end
-- ==== Proof.KIBlocks.lean ====
/-
  The four regions' blocks and stored values, as plain definitions.

  `iblkK V c w t`: window `w` of region K at grid point `t`, read off the window's array as the region finds it
  (`V`: the buffer contents when the region is entered).
  `outK_W x…`: what region K's body leaves in its one output window's buffer, as a function of the input windows'
  blocks: the body loads every input block whole, computes one value (the payload) and stores it over the whole
  output block, so the buffer afterwards is that one piece.
  Regions 0 and 2 are the node perceptron (windows: features, noise, first weights, first bias, second weights,
  second bias; output 6), regions 1 and 3 the edge perceptron (windows: head rows, tail rows, noise, the two halves
  of the first weights, first bias, second weights, second bias; output 8).
-/
import proofs.«170728_j33028298506953_2_alg».proof.Proof.Gen.KernelIdeal.Launch
import proofs.«170728_j33028298506953_2_alg».proof.Proof.Gen.KernelIdeal.Skeleton
import proofs.«170728_j33028298506953_2_alg».proof.Proof.Gen.KernelIdeal.Points
import Idealize.ShloMosaic.Lib.Pipeline.FrameBody

noncomputable section

namespace Cert.KernelIdeal.Hand

open Idealize.ShloMosaic Idealize.ShloMosaic.TcCoe Idealize.SL.Sem
open Cert.KernelIdeal Cert.KernelIdeal.Gen

variable {F : FTy → Type} [FloatOps F]
variable (V : (c : Dev nD) → (b : Ref sig .tc) → Buf (Elt F) ((c : Thread nD τ).loc b))

/-! ## The whole-block rectangles the bodies load and store through -/

abbrev rN : Rect S10000x64 := Rect.unit (s := S10000x64) ![0, 0] S10000x64.size inb_S10000x64_S10000x64_0_0
abbrev rE : Rect S8000x64 := Rect.unit (s := S8000x64) ![0, 0] S8000x64.size inb_S8000x64_S8000x64_0_0
abbrev rE1 : Rect S8000x1 := Rect.unit (s := S8000x1) ![0, 0] S8000x1.size inb_S8000x1_S8000x1_0_0
abbrev rW : Rect S64x64 := Rect.unit (s := S64x64) ![0, 0] S64x64.size inb_S64x64_S64x64_0_0
abbrev rB : Rect S64 := Rect.unit (s := S64) ![0] S64.size inb_S64_S64_0
abbrev rW1 : Rect S64x1 := Rect.unit (s := S64x1) ![0, 0] S64x1.size inb_S64x1_S64x1_0_0
abbrev rB1 : Rect S1 := Rect.unit (s := S1) ![0] S1.size inb_S1_S1_0

/-! ## Region 0: the node perceptron of layer 1 -/

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_6 (x0 x1 : Vec F S10000x64 .f32) (x2 : Vec F S64x64 .f32) (x3 : Vec F S64 .f32) (x4 : Vec F S64x64 .f32)
    (x5 : Vec F S64 .f32) : Vec F S10000x64 .f32 :=
  View.canon [⟨rN, k0_pay1 (View.ld x0 rN) (View.ld x2 rW) (View.ld x3 rB) (View.ld x4 rW) (View.ld x5 rB) (View.ld x1 rN)⟩]

/-! ## Region 1: the edge perceptron of layer 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_8 (x0 x1 : Vec F S8000x64 .f32) (x2 : Vec F S8000x1 .f32) (x3 x4 : Vec F S64x64 .f32) (x5 : Vec F S64 .f32)
    (x6 : Vec F S64x1 .f32) (x7 : Vec F S1 .f32) : Vec F S8000x1 .f32 :=
  View.canon [⟨rE1, k1_pay1 (View.ld x0 rE) (View.ld x1 rE) (View.ld x3 rW) (View.ld x4 rW) (View.ld x5 rB) (View.ld x6 rW1)
    (View.ld x7 rB1) (View.ld x2 rE1)⟩]

/-! ## Region 2: the node perceptron of layer 2 -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_6 (x0 x1 : Vec F S10000x64 .f32) (x2 : Vec F S64x64 .f32) (x3 : Vec F S64 .f32) (x4 : Vec F S64x64 .f32)
    (x5 : Vec F S64 .f32) : Vec F S10000x64 .f32 :=
  View.canon [⟨rN, k2_pay1 (View.ld x0 rN) (View.ld x2 rW) (View.ld x3 rB) (View.ld x4 rW) (View.ld x5 rB) (View.ld x1 rN)⟩]

/-! ## Region 3: the edge perceptron of layer 2 -/

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3_8 (x0 x1 : Vec F S8000x64 .f32) (x2 : Vec F S8000x1 .f32) (x3 x4 : Vec F S64x64 .f32) (x5 : Vec F S64 .f32)
    (x6 : Vec F S64x1 .f32) (x7 : Vec F S1 .f32) : Vec F S8000x1 .f32 :=
  View.canon [⟨rE1, k3_pay1 (View.ld x0 rE) (View.ld x1 rE) (View.ld x3 rW) (View.ld x4 rW) (View.ld x5 rB) (View.ld x6 rW1)
    (View.ld x7 rB1) (View.ld x2 rE1)⟩]

end Cert.KernelIdeal.Hand

end
-- ==== Proof.KIDat.lean ====
/-
  The proof data of the four regions: for each, the window arrays as the region finds them and what each window's
  staging buffer holds after the body at every grid point — an input window's buffer its block, the output window's
  the value the body stores, a function of the input blocks at that point.
-/
import proofs.«170728_j33028298506953_2_alg».proof.Proof.KIBlocks
import Idealize.ShloMosaic.Lib.Pipeline.FrameBody
import Idealize.ShloMosaic.Lib.Pipeline.Frame

noncomputable section

namespace Cert.KernelIdeal.Hand

open Idealize.ShloMosaic Idealize.ShloMosaic.TcCoe
open Idealize.SL Idealize.SL.RA Idealize.SL.BI Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

/-! ## Region 0: the node perceptron of layer 1 -/

/-- The proof data of region 0 on core `c`: the arrays as the region finds them; after the body at point `t` each
    input window's buffer still holds its block, and the output window's holds the stored value of the six input
    blocks; the invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by
  dsimp only [dat0]

/-! ## Region 1: the edge perceptron of layer 1 -/

/-- The proof data of region 1 on core `c`: the arrays as the region finds them; after the body at point `t` each
    input window's buffer still holds its block, and the output window's holds the stored value of the eight input
    blocks; the invariant is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t)
        (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t
    = out1_8 (iblk1 V c 0 t) (iblk1 V c 1 t) (iblk1 V c 2 t) (iblk1 V c 3 t) (iblk1 V c 4 t) (iblk1 V c 5 t)
        (iblk1 V c 6 t) (iblk1 V c 7 t) := by
  dsimp only [dat1]

/-! ## Region 2: the node perceptron of layer 2 -/

/-- The proof data of region 2 on core `c`: the arrays as the region finds them; after the body at point `t` each
    input window's buffer still holds its block, and the output window's holds the stored value of the six input
    blocks; the invariant is the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by
  dsimp only [dat2]

/-! ## Region 3: the edge perceptron of layer 2 -/

/-- The proof data of region 3 on core `c`: the arrays as the region finds them; after the body at point `t` each
    input window's buffer still holds its block, and the output window's holds the stored value of the eight input
    blocks; the invariant is the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 3 t) (iblk3 V c 4 t) (iblk3 V c 5 t)
        (iblk3 V c 6 t) (iblk3 V c 7 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t
    = out3_8 (iblk3 V c 0 t) (iblk3 V c 1 t) (iblk3 V c 2 t) (iblk3 V c 3 t) (iblk3 V c 4 t) (iblk3 V c 5 t)
        (iblk3 V c 6 t) (iblk3 V c 7 t) := by
  dsimp only [dat3]

end Cert.KernelIdeal.Hand

end
-- ==== Proof.KIRun.lean ====
/-
  The kernel program's run as @main's thirteen items: host stretches and the four regions.

  Between two items a core holds every unscoped buffer at known contents: the launch memory, then each host
  stretch's operations applied, then — after a region — the region's output array replaced by what its pipeline
  leaves, the fold of the write-backs of all grid points. Those four output arrays are named here (`o2`, `o4`,
  `o8`, `o10`: each the final array of the proof data entered at the contents before its region), and the run
  is: every weakly fair execution terminates, and every unscoped buffer ends at the last contents of that fold. Two
  readings of it follow: the argument arrays end as launched (no item writes one), and the result buffer ends at the
  fold's term for it.
  Each region is a segment whose body obligation is taken as a hypothesis here (it is proved per region elsewhere).
-/
import proofs.«170728_j33028298506953_2_alg».proof.Proof.Gen.KernelIdeal.Regions
import proofs.«170728_j33028298506953_2_alg».proof.Proof.KIDat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The four output arrays, each from the contents before its region -/

/-- The contents region 0 is entered at, read at the TensorCore's references. -/
abbrev entry0 : (c : Dev nD) → (b : Ref sig .tc) → Buf (Elt F) ((c : Thread nD τ).loc b) := fun c b => V1 m c b
/-- What region 0 leaves in its output array. -/
def o2 (c : Dev nD) : Buf (Elt F) ((c : Thread nD τ).loc main_v10) := (dat0 (entry0 m) c).arrAt 6 cfg0.N
/-- The regions' outputs known after region 0 (elsewhere the launch contents: never read). -/
def outsA : Outs (F := F) := fun _ r c => if h : r = main_v10 then h ▸ o2 m c else V0 m c r

abbrev entry1 : (c : Dev nD) → (b : Ref sig .tc) → Buf (Elt F) ((c : Thread nD τ).loc b) := fun c b => V3 m (outsA m) c b
/-- What region 1 leaves in its output array. -/
def o4 (c : Dev nD) : Buf (Elt F) ((c : Thread nD τ).loc main_v42) := (dat1 (entry1 m) c).arrAt 8 cfg1.N
def outsB : Outs (F := F) := fun _ r c =>
  if h : r = main_v10 then h ▸ o2 m c else if h : r = main_v42 then h ▸ o4 m c else V0 m c r

abbrev entry2 : (c : Dev nD) → (b : Ref sig .tc) → Buf (Elt F) ((c : Thread nD τ).loc b) := fun c b => V7 m (outsB m) c b
/-- What region 2 leaves in its output array. -/
def o8 (c : Dev nD) : Buf (Elt F) ((c : Thread nD τ).loc main_v92) := (dat2 (entry2 m) c).arrAt 6 cfg2.N
def outsC : Outs (F := F) := fun _ r c =>
  if h : r = main_v10 then h ▸ o2 m c else if h : r = main_v42 then h ▸ o4 m c
  else if h : r = main_v92 then h ▸ o8 m c else V0 m c r

abbrev entry3 : (c : Dev nD) → (b : Ref sig .tc) → Buf (Elt F) ((c : Thread nD τ).loc b) := fun c b => V9 m (outsC m) c b
/-- What region 3 leaves in its output array. -/
def o10 (c : Dev nD) : Buf (Elt F) ((c : Thread nD τ).loc main_v124) := (dat3 (entry3 m) c).arrAt 8 cfg3.N
/-- All four regions' outputs. -/
def outs : Outs (F := F) := fun _ r c =>
  if h : r = main_v10 then h ▸ o2 m c else if h : r = main_v42 then h ▸ o4 m c
  else if h : r = main_v92 then h ▸ o8 m c else if h : r = main_v124 then h ▸ o10 m c else V0 m c r

theorem outsA_main_v10 (j : ℕ) (c : Dev nD) : outsA m j main_v10 c = o2 m c := by unfold outsA; rw [dif_pos rfl]
theorem outsB_main_v10 (j : ℕ) (c : Dev nD) : outsB m j main_v10 c = o2 m c := by unfold outsB; rw [dif_pos rfl]
theorem outsB_main_v42 (j : ℕ) (c : Dev nD) : outsB m j main_v42 c = o4 m c := by
  unfold outsB; rw [dif_neg (by decide), dif_pos rfl]
theorem outsC_main_v10 (j : ℕ) (c : Dev nD) : outsC m j main_v10 c = o2 m c := by unfold outsC; rw [dif_pos rfl]
theorem outsC_main_v42 (j : ℕ) (c : Dev nD) : outsC m j main_v42 c = o4 m c := by
  unfold outsC; rw [dif_neg (by decide), dif_pos rfl]
theorem outsC_main_v92 (j : ℕ) (c : Dev nD) : outsC m j main_v92 c = o8 m c := by
  unfold outsC; rw [dif_neg (by decide), dif_neg (by decide), dif_pos rfl]
theorem outs_main_v10 (j : ℕ) (c : Dev nD) : outs m j main_v10 c = o2 m c := by unfold outs; rw [dif_pos rfl]
theorem outs_main_v42 (j : ℕ) (c : Dev nD) : outs m j main_v42 c = o4 m c := by
  unfold outs; rw [dif_neg (by decide), dif_pos rfl]
theorem outs_main_v92 (j : ℕ) (c : Dev nD) : outs m j main_v92 c = o8 m c := by
  unfold outs; rw [dif_neg (by decide), dif_neg (by decide), dif_pos rfl]
theorem outs_main_v124 (j : ℕ) (c : Dev nD) : outs m j main_v124 c = o10 m c := by
  unfold outs; rw [dif_neg (by decide), dif_neg (by decide), dif_neg (by decide), dif_pos rfl]

/-- The contents before region 1 read only region 0's output. -/
theorem V3_outs (c : Dev nD) : V3 m (outs m) c = V3 m (outsA m) c := by
  unfold V3 V2; rw [outs_main_v10, outsA_main_v10]
/-- The contents before region 2 read only the outputs of regions 0 and 1. -/
theorem V7_outs (c : Dev nD) : V7 m (outs m) c = V7 m (outsB m) c := by
  unfold V7 V6 V5 V4 V3 V2; rw [outs_main_v10, outs_main_v42, outsB_main_v10, outsB_main_v42]
/-- The contents before region 3 read only the outputs of regions 0, 1 and 2. -/
theorem V9_outs (c : Dev nD) : V9 m (outs m) c = V9 m (outsC m) c := by
  unfold V9 V8 V7 V6 V5 V4 V3 V2
  rw [outs_main_v10, outs_main_v42, outs_main_v92, outsC_main_v10, outsC_main_v42, outsC_main_v92]

/-! ## The proof data family and what rides beside the buffers -/

/-- Every pipeline's proof data, each at its region's entry contents. -/
def pdats : (p : Fin 4) → (c : Dev nD) → Dat τ (Elt F) Unit ℕ (UR sig nD τ) ℕ (cfgs p) c
  | ⟨0, _⟩ => fun c => dat0 (entry0 m) c
  | ⟨1, _⟩ => fun c => dat1 (entry1 m) c
  | ⟨2, _⟩ => fun c => dat2 (entry2 m) c
  | ⟨3, _⟩ => fun c => dat3 (entry3 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and the core
    owing nothing. -/
abbrev R (c : Dev nD) : sProp 𝕄 := iprop((∃ r, prngReg c r) ∗ ∃ W, owes (c : Thread nD τ) (0 : CellTallies nD τ sig Unit) W)

/-- Region 0's body obligation, at any entry contents. -/
abbrev Ob0 : Prop := ∀ (V : (c : Dev nD) → (b : Ref sig .tc) → Buf (Elt F) ((c : Thread nD τ).loc b)) (c : Dev nD),
  Pipeline.BodyObligation (dat0 (F := F) V c) (defs₀ (F := F)) Variants.none () Set.univ
/-- Region 1's body obligation, at any entry contents. -/
abbrev Ob1 : Prop := ∀ (V : (c : Dev nD) → (b : Ref sig .tc) → Buf (Elt F) ((c : Thread nD τ).loc b)) (c : Dev nD),
  Pipeline.BodyObligation (dat1 (F := F) V c) (defs₀ (F := F)) Variants.none () Set.univ
/-- Region 2's body obligation, at any entry contents. -/
abbrev Ob2 : Prop := ∀ (V : (c : Dev nD) → (b : Ref sig .tc) → Buf (Elt F) ((c : Thread nD τ).loc b)) (c : Dev nD),
  Pipeline.BodyObligation (dat2 (F := F) V c) (defs₀ (F := F)) Variants.none () Set.univ
/-- Region 3's body obligation, at any entry contents. -/
abbrev Ob3 : Prop := ∀ (V : (c : Dev nD) → (b : Ref sig .tc) → Buf (Elt F) ((c : Thread nD τ).loc b)) (c : Dev nD),
  Pipeline.BodyObligation (dat3 (F := F) V c) (defs₀ (F := F)) Variants.none () Set.univ

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Region 0 -/

/-- The contents region 0 is entered at and left at, read at the TensorCore's references. -/
abbrev vin0 (c : Dev nD) : (b : Ref sig .tc) → Buf (Elt F) ((c : Thread nD τ).loc b) := fun b => V1 m c b
abbrev vout0 (c : Dev nD) : (b : Ref sig .tc) → Buf (Elt F) ((c : Thread nD τ).loc b) := fun b => V2 m (outs m) c b

/-- The proof data's arrays are the buffers' contents when region 0 is entered. -/
theorem hA0 (c : Dev nD) (w : Fin cfg0.W) : (dat0 (entry0 m) c).A w = vin0 m c (Pipeline.arrRef spec0 w) := by
  rw [A_eq0]

/-- When region 0 is left, each of its arrays holds what the pipeline leaves: an input window's array what it held
    (nothing is written back to it), the output window's the write-backs of all the grid points. -/
theorem hF0 (c : Dev nD) (w : Fin cfg0.W) :
    (dat0 (entry0 m) c).arrAt w cfg0.N = vout0 m c (Pipeline.arrRef spec0 w) := by
  by_cases hw : w = 6
  · subst hw
    show _ = Function.update (V1 m c) (main_v10 : Ref sig .tc) (outs m 2 main_v10 c) (main_v10 : Ref sig .tc)
    rw [Function.update_self, outs_main_v10]; rfl
  · have hin : (cfg0.win w).isOut = false :=
      (by decide : ∀ w : Fin cfg0.W, w ≠ 6 → (cfg0.win w).isOut = false) w hw
    have hne : Pipeline.arrRef spec0 w ∉ ([main_v10] : List (Ref sig .tc)) :=
      (by decide : ∀ w : Fin cfg0.W, w ≠ 6 → Pipeline.arrRef spec0 w ∉ ([main_v10] : List (Ref sig .tc))) w hw
    exact ((dat0 (entry0 m) c).arrAt_in w hin cfg0.N).trans ((hA0 m c w).trans (V2_of m (outs m) c _ hne).symm)

/-- Every buffer that is none of region 0's arrays holds what it held at entry. -/
theorem hrest0 (c : Dev nD) : ∀ b : Ref sig .tc, b ∉ Finset.univ.image (Pipeline.arrRef spec0) → vout0 m c b = vin0 m c b :=
  fun b hb => V2_of m (outs m) c b fun hmem => hb (by
    rw [List.mem_singleton] at hmem; subst hmem
    exact Finset.mem_image.mpr ⟨⟨6, by decide⟩, Finset.mem_univ _, rfl⟩)

set_option backward.isDefEq.respectTransparency.types false in
/-- Region 0 as a segment of @main: entered with every unscoped buffer at the contents before it, left with them at
    the contents after it; its window arrays are split out of the unscoped buffers on entry and put back, at what the
    pipeline leaves, on exit; the generator register goes into the pipeline's invariant and comes back; nothing is
    owed and the kernel has no semaphore of its own. -/
def reg0 (hb : ∀ (V : (c : Dev nD) → (b : Ref sig .tc) → Buf (Elt F) ((c : Thread nD τ).loc b)) (c : Dev nD),
      Pipeline.BodyObligation (dat0 (F := F) V c) (defs₀ (F := F)) Variants.none () Set.univ) :
    RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb (entry0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (vin0 m c) (hA0 m c)
    rw [Pipeline.unscopedBufs_held c (V1 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (vin0 m c) (vout0 m c) ((pdats m 0 c).arrAt · cfg0.N) (hF0 m c) (hrest0 m c)
    rw [Pipeline.unscopedBufs_held c (V2 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- The contents region 1 is entered at and left at, read at the TensorCore's references. -/
abbrev vin1 (c : Dev nD) : (b : Ref sig .tc) → Buf (Elt F) ((c : Thread nD τ).loc b) := fun b => V3 m (outs m) c b
abbrev vout1 (c : Dev nD) : (b : Ref sig .tc) → Buf (Elt F) ((c : Thread nD τ).loc b) := fun b => V4 m (outs m) c b

/-- The proof data's arrays are the buffers' contents when region 1 is entered. -/
theorem hA1 (c : Dev nD) (w : Fin cfg1.W) : (dat1 (entry1 m) c).A w = vin1 m c (Pipeline.arrRef spec1 w) := by
  rw [A_eq1]
  exact (congrFun (V3_outs m c) _).symm

/-- When region 1 is left, each of its arrays holds what the pipeline leaves: an input window's array what it held
    (nothing is written back to it), the output window's the write-backs of all the grid points. -/
theorem hF1 (c : Dev nD) (w : Fin cfg1.W) :
    (dat1 (entry1 m) c).arrAt w cfg1.N = vout1 m c (Pipeline.arrRef spec1 w) := by
  by_cases hw : w = 8
  · subst hw
    show _ = Function.update (V3 m (outs m) c) (main_v42 : Ref sig .tc) (outs m 4 main_v42 c) (main_v42 : Ref sig .tc)
    rw [Function.update_self, outs_main_v42]; rfl
  · have hin : (cfg1.win w).isOut = false :=
      (by decide : ∀ w : Fin cfg1.W, w ≠ 8 → (cfg1.win w).isOut = false) w hw
    have hne : Pipeline.arrRef spec1 w ∉ ([main_v42] : List (Ref sig .tc)) :=
      (by decide : ∀ w : Fin cfg1.W, w ≠ 8 → Pipeline.arrRef spec1 w ∉ ([main_v42] : List (Ref sig .tc))) w hw
    exact ((dat1 (entry1 m) c).arrAt_in w hin cfg1.N).trans ((hA1 m c w).trans (V4_of m (outs m) c _ hne).symm)

/-- Every buffer that is none of region 1's arrays holds what it held at entry. -/
theorem hrest1 (c : Dev nD) : ∀ b : Ref sig .tc, b ∉ Finset.univ.image (Pipeline.arrRef spec1) → vout1 m c b = vin1 m c b :=
  fun b hb => V4_of m (outs m) c b fun hmem => hb (by
    rw [List.mem_singleton] at hmem; subst hmem
    exact Finset.mem_image.mpr ⟨⟨8, by decide⟩, Finset.mem_univ _, rfl⟩)

set_option backward.isDefEq.respectTransparency.types false in
/-- Region 1 as a segment of @main: entered with every unscoped buffer at the contents before it, left with them at
    the contents after it; its window arrays are split out of the unscoped buffers on entry and put back, at what the
    pipeline leaves, on exit; the generator register goes into the pipeline's invariant and comes back; nothing is
    owed and the kernel has no semaphore of its own. -/
def reg1 (hb : ∀ (V : (c : Dev nD) → (b : Ref sig .tc) → Buf (Elt F) ((c : Thread nD τ).loc b)) (c : Dev nD),
      Pipeline.BodyObligation (dat1 (F := F) V c) (defs₀ (F := F)) Variants.none () Set.univ) :
    RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (hb (entry1 m) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (vin1 m c) (hA1 m c)
    rw [Pipeline.unscopedBufs_held c (V3 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (vin1 m c) (vout1 m c) ((pdats m 1 c).arrAt · cfg1.N) (hF1 m c) (hrest1 m c)
    rw [Pipeline.unscopedBufs_held c (V4 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- The contents region 2 is entered at and left at, read at the TensorCore's references. -/
abbrev vin2 (c : Dev nD) : (b : Ref sig .tc) → Buf (Elt F) ((c : Thread nD τ).loc b) := fun b => V7 m (outs m) c b
abbrev vout2 (c : Dev nD) : (b : Ref sig .tc) → Buf (Elt F) ((c : Thread nD τ).loc b) := fun b => V8 m (outs m) c b

/-- The proof data's arrays are the buffers' contents when region 2 is entered. -/
theorem hA2 (c : Dev nD) (w : Fin cfg2.W) : (dat2 (entry2 m) c).A w = vin2 m c (Pipeline.arrRef spec2 w) := by
  rw [A_eq2]
  exact (congrFun (V7_outs m c) _).symm

/-- When region 2 is left, each of its arrays holds what the pipeline leaves: an input window's array what it held
    (nothing is written back to it), the output window's the write-backs of all the grid points. -/
theorem hF2 (c : Dev nD) (w : Fin cfg2.W) :
    (dat2 (entry2 m) c).arrAt w cfg2.N = vout2 m c (Pipeline.arrRef spec2 w) := by
  by_cases hw : w = 6
  · subst hw
    show _ = Function.update (V7 m (outs m) c) (main_v92 : Ref sig .tc) (outs m 8 main_v92 c) (main_v92 : Ref sig .tc)
    rw [Function.update_self, outs_main_v92]; rfl
  · have hin : (cfg2.win w).isOut = false :=
      (by decide : ∀ w : Fin cfg2.W, w ≠ 6 → (cfg2.win w).isOut = false) w hw
    have hne : Pipeline.arrRef spec2 w ∉ ([main_v92] : List (Ref sig .tc)) :=
      (by decide : ∀ w : Fin cfg2.W, w ≠ 6 → Pipeline.arrRef spec2 w ∉ ([main_v92] : List (Ref sig .tc))) w hw
    exact ((dat2 (entry2 m) c).arrAt_in w hin cfg2.N).trans ((hA2 m c w).trans (V8_of m (outs m) c _ hne).symm)

/-- Every buffer that is none of region 2's arrays holds what it held at entry. -/
theorem hrest2 (c : Dev nD) : ∀ b : Ref sig .tc, b ∉ Finset.univ.image (Pipeline.arrRef spec2) → vout2 m c b = vin2 m c b :=
  fun b hb => V8_of m (outs m) c b fun hmem => hb (by
    rw [List.mem_singleton] at hmem; subst hmem
    exact Finset.mem_image.mpr ⟨⟨6, by decide⟩, Finset.mem_univ _, rfl⟩)

set_option backward.isDefEq.respectTransparency.types false in
/-- Region 2 as a segment of @main: entered with every unscoped buffer at the contents before it, left with them at
    the contents after it; its window arrays are split out of the unscoped buffers on entry and put back, at what the
    pipeline leaves, on exit; the generator register goes into the pipeline's invariant and comes back; nothing is
    owed and the kernel has no semaphore of its own. -/
def reg2 (hb : ∀ (V : (c : Dev nD) → (b : Ref sig .tc) → Buf (Elt F) ((c : Thread nD τ).loc b)) (c : Dev nD),
      Pipeline.BodyObligation (dat2 (F := F) V c) (defs₀ (F := F)) Variants.none () Set.univ) :
    RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (hb (entry2 m) c).loose
  hwaits := Pipeline.hwaits_of_owed_zero _ _ _ _ L lv 2 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec2 c (vin2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (vin2 m c) (hA2 m c)
    rw [Pipeline.unscopedBufs_held c (V7 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (vin2 m c) (vout2 m c) ((pdats m 2 c).arrAt · cfg2.N) (hF2 m c) (hrest2 m c)
    rw [Pipeline.unscopedBufs_held c (V8 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 -/

/-- The contents region 3 is entered at and left at, read at the TensorCore's references. -/
abbrev vin3 (c : Dev nD) : (b : Ref sig .tc) → Buf (Elt F) ((c : Thread nD τ).loc b) := fun b => V9 m (outs m) c b
abbrev vout3 (c : Dev nD) : (b : Ref sig .tc) → Buf (Elt F) ((c : Thread nD τ).loc b) := fun b => V10 m (outs m) c b

/-- The proof data's arrays are the buffers' contents when region 3 is entered. -/
theorem hA3 (c : Dev nD) (w : Fin cfg3.W) : (dat3 (entry3 m) c).A w = vin3 m c (Pipeline.arrRef spec3 w) := by
  rw [A_eq3]
  exact (congrFun (V9_outs m c) _).symm

/-- When region 3 is left, each of its arrays holds what the pipeline leaves: an input window's array what it held
    (nothing is written back to it), the output window's the write-backs of all the grid points. -/
theorem hF3 (c : Dev nD) (w : Fin cfg3.W) :
    (dat3 (entry3 m) c).arrAt w cfg3.N = vout3 m c (Pipeline.arrRef spec3 w) := by
  by_cases hw : w = 8
  · subst hw
    show _ = Function.update (V9 m (outs m) c) (main_v124 : Ref sig .tc) (outs m 10 main_v124 c) (main_v124 : Ref sig .tc)
    rw [Function.update_self, outs_main_v124]; rfl
  · have hin : (cfg3.win w).isOut = false :=
      (by decide : ∀ w : Fin cfg3.W, w ≠ 8 → (cfg3.win w).isOut = false) w hw
    have hne : Pipeline.arrRef spec3 w ∉ ([main_v124] : List (Ref sig .tc)) :=
      (by decide : ∀ w : Fin cfg3.W, w ≠ 8 → Pipeline.arrRef spec3 w ∉ ([main_v124] : List (Ref sig .tc))) w hw
    exact ((dat3 (entry3 m) c).arrAt_in w hin cfg3.N).trans ((hA3 m c w).trans (V10_of m (outs m) c _ hne).symm)

/-- Every buffer that is none of region 3's arrays holds what it held at entry. -/
theorem hrest3 (c : Dev nD) : ∀ b : Ref sig .tc, b ∉ Finset.univ.image (Pipeline.arrRef spec3) → vout3 m c b = vin3 m c b :=
  fun b hb => V10_of m (outs m) c b fun hmem => hb (by
    rw [List.mem_singleton] at hmem; subst hmem
    exact Finset.mem_image.mpr ⟨⟨8, by decide⟩, Finset.mem_univ _, rfl⟩)

set_option backward.isDefEq.respectTransparency.types false in
/-- Region 3 as a segment of @main: entered with every unscoped buffer at the contents before it, left with them at
    the contents after it; its window arrays are split out of the unscoped buffers on entry and put back, at what the
    pipeline leaves, on exit; the generator register goes into the pipeline's invariant and comes back; nothing is
    owed and the kernel has no semaphore of its own. -/
def reg3 (hb : ∀ (V : (c : Dev nD) → (b : Ref sig .tc) → Buf (Elt F) ((c : Thread nD τ).loc b)) (c : Dev nD),
      Pipeline.BodyObligation (dat3 (F := F) V c) (defs₀ (F := F)) Variants.none () Set.univ) :
    RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (hb (entry3 m) c).loose
  hwaits := Pipeline.hwaits_of_owed_zero _ _ _ _ L lv 3 fun _ _ => rfl
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec3 c (vin3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (vin3 m c) (hA3 m c)
    rw [Pipeline.unscopedBufs_held c (V9 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (vin3 m c) (vout3 m c) ((pdats m 3 c).arrAt · cfg3.N) (hF3 m c) (hrest3 m c)
    rw [Pipeline.unscopedBufs_held c (V10 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of @main from memory `m` with zero counters terminates, and in every final memory each
    unscoped buffer holds the last contents of the fold through @main's items. -/
theorem run_all
    (hb0 : ∀ (V : (c : Dev nD) → (b : Ref sig .tc) → Buf (Elt F) ((c : Thread nD τ).loc b)) (c : Dev nD),
      Pipeline.BodyObligation (dat0 (F := F) V c) (defs₀ (F := F)) Variants.none () Set.univ)
    (hb1 : ∀ (V : (c : Dev nD) → (b : Ref sig .tc) → Buf (Elt F) ((c : Thread nD τ).loc b)) (c : Dev nD),
      Pipeline.BodyObligation (dat1 (F := F) V c) (defs₀ (F := F)) Variants.none () Set.univ)
    (hb2 : ∀ (V : (c : Dev nD) → (b : Ref sig .tc) → Buf (Elt F) ((c : Thread nD τ).loc b)) (c : Dev nD),
      Pipeline.BodyObligation (dat2 (F := F) V c) (defs₀ (F := F)) Variants.none () Set.univ)
    (hb3 : ∀ (V : (c : Dev nD) → (b : Ref sig .tc) → Buf (Elt F) ((c : Thread nD τ).loc b)) (c : Dev nD),
      Pipeline.BodyObligation (dat3 (F := F) V c) (defs₀ (F := F)) Variants.none () Set.univ) :
    θ_run defs (onTc (τ := τ) (main (F := F))) ⟨m, fun _ => 0, ρ⟩ (fun r => ∀ c : Dev nD,
      ∀ b ∈ Pipeline.ucRefs τ sig, r.2.mem ((c : Thread nD τ).1, b) = V13 m (outs m) c b) := by
  refine Pipeline.θ_run_regions_kit_dev (pcfgs (F := F)) adm (pdats m) () cellOf_inj emb₁ defs₀ 𝒱₀ L lv m ρ main
    (segs m (outs m) 𝒱₀ L lv (fun _ c => R c) () (pdats m) (reg0 m hb0) (reg1 m hb1) (reg2 m hb2) (reg3 m hb3))
    (fun c Q => by
      rewrite [main_chain c, Seg.run_eq_chain,
        show (segs m (outs m) 𝒱₀ L lv (fun _ c => R c) () (pdats m) (reg0 m hb0) (reg1 m hb1) (reg2 m hb2) (reg3 m hb3) c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          Prog.lift (.customCall (Pipeline.entry 3) ()),
          StableHlo.seq hostOps4,
          StableHlo.seq hostOps4_1,
          StableHlo.seq hostOps4_2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V13 m (outs m) c))
    (hch := fun c => ⟨.rfl, .rfl, .rfl, .rfl, .rfl, .rfl, .rfl, .rfl, .rfl, .rfl, .rfl, .rfl, .rfl,
      sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V13 m (outs m) c b)
    (hfin := fun c s' => by
      iintro ⟨Hh, HSI⟩
      unfold StableHlo.held
      imodintro
      iapply (pointsTo_read_all (Pipeline.ucRefs τ sig) (fun b => (((c : Thread nD τ)).1, b)) (V13 m (outs m) c) s')
      isplitl [Hh] <;> iassumption)
    (hQ := fun s h c => h c)

/-- The frame: every weakly fair execution terminates, nothing faults, and the fourteen argument arrays end as
    launched — no host operation and no region writes one, so the fold at an argument's buffer is the launch memory. -/
theorem frame (hb0 : Ob0 (F := F)) (hb1 : Ob1 (F := F)) (hb2 : Ob2 (F := F)) (hb3 : Ob3 (F := F)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (V13_main_arg0 m (outs m) c),
     (h c _ (mem_uc main_arg1 (by decide))).trans (V13_main_arg1 m (outs m) c),
     (h c _ (mem_uc main_arg2 (by decide))).trans (V13_main_arg2 m (outs m) c),
     (h c _ (mem_uc main_arg3 (by decide))).trans (V13_main_arg3 m (outs m) c),
     (h c _ (mem_uc main_arg4 (by decide))).trans (V13_main_arg4 m (outs m) c),
     (h c _ (mem_uc main_arg5 (by decide))).trans (V13_main_arg5 m (outs m) c),
     (h c _ (mem_uc main_arg6 (by decide))).trans (V13_main_arg6 m (outs m) c),
     (h c _ (mem_uc main_arg7 (by decide))).trans (V13_main_arg7 m (outs m) c),
     (h c _ (mem_uc main_arg8 (by decide))).trans (V13_main_arg8 m (outs m) c),
     (h c _ (mem_uc main_arg9 (by decide))).trans (V13_main_arg9 m (outs m) c),
     (h c _ (mem_uc main_arg10 (by decide))).trans (V13_main_arg10 m (outs m) c),
     (h c _ (mem_uc main_arg11 (by decide))).trans (V13_main_arg11 m (outs m) c),
     (h c _ (mem_uc main_arg12 (by decide))).trans (V13_main_arg12 m (outs m) c),
     (h c _ (mem_uc main_arg13 (by decide))).trans (V13_main_arg13 m (outs m) c)⟩)
    (run_all m ρ hb0 hb1 hb2 hb3)

end Cert.KernelIdeal.Hand

end
-- ==== Proof.KIBody0.lean ====
/-
  Region 0 of the program: what its body is owed and what it gives back.

  The region runs one kernel body at every point of its grid. At a point the pipeline hands the body one staging
  buffer per window. Each input window's buffer holds that window's block at the point — the rows of the window's
  array that the point's index selects — whether the pipeline copied it in at this point or, the index not having
  moved, left it from an earlier one. The body reads every input block whole, reads (and ignores) what the output
  buffer happens to hold, computes one value from the input blocks and writes it over the whole output block. So
  after the body the input buffers hold what they held and the output buffer holds that one value, a function of
  the input blocks alone.
-/
import proofs.«170728_j33028298506953_2_alg».proof.Proof.KIBlocks
import proofs.«170728_j33028298506953_2_alg».proof.Proof.KIDat
import proofs.«170728_j33028298506953_2_alg».proof.Proof.Gen.KernelIdeal.Launch
import proofs.«170728_j33028298506953_2_alg».proof.Proof.Gen.KernelIdeal.Skeleton
import proofs.«170728_j33028298506953_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with ten thousand rows is decided by a recursion as deep as the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## Each input buffer holds its window's block -/

/-- Input window 0: for any proof data that reads its arrays off `V` and whose body leaves this window's block
    in place, the window's current staging buffer holds the block of the point, copied in there or kept from an
    earlier point at which the block index was the same. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: for any proof data that reads its arrays off `V` and whose body leaves this window's block
    in place, the window's current staging buffer holds the block of the point, copied in there or kept from an
    earlier point at which the block index was the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2: for any proof data that reads its arrays off `V` and whose body leaves this window's block
    in place, the window's current staging buffer holds the block of the point, copied in there or kept from an
    earlier point at which the block index was the same. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3: for any proof data that reads its arrays off `V` and whose body leaves this window's block
    in place, the window's current staging buffer holds the block of the point, copied in there or kept from an
    earlier point at which the block index was the same. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4: for any proof data that reads its arrays off `V` and whose body leaves this window's block
    in place, the window's current staging buffer holds the block of the point, copied in there or kept from an
    earlier point at which the block index was the same. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5: for any proof data that reads its arrays off `V` and whose body leaves this window's block
    in place, the window's current staging buffer holds the block of the point, copied in there or kept from an
    earlier point at which the block index was the same. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The one store covers the output block -/

/-- The body's single store is through the rectangle that is the whole output block, so every index of the block
    lies in it. -/
theorem cover0_6 (p0 : Vec F S10000x64 .f32) (y : S10000x64.Idx) :
    ∃ pc ∈ ([⟨rN, p0⟩] : List (View.Piece (Elt F) S10000x64 .f32)), y ∈ pc.1.set :=
  View.cover_of_tiled [⟨rN, p0⟩] S10000x64.size (by rfl) y

/-! ## The body's triple -/

set_option maxHeartbeats 4000000 in
/-- The body run on whole staging buffers: the input buffers read `x0`, …, the output buffer holds anything. It ends
    with the input buffers as they were and the output buffer reading the stored value, the function `out0_6` of the
    input contents: the one store covers the block, so nothing of the earlier contents is left. -/
theorem sound_kernel0 (c : Dev nD) (E : Set ℕ) (i : grid0.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S10000x64 .f32) (harg7 : arg7.IsWhole)
    (x0 : Vec F S10000x64 .f32) (x1 : Vec F S10000x64 .f32) (x2 : Vec F S64x64 .f32) (x3 : Vec F S64 .f32) (x4 : Vec F S64x64 .f32) (x5 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__emb_mlp_kernel i arg1 harg1 arg2 harg2 arg3 harg3 arg4 harg4 arg5 harg5 arg6 harg6 arg7 harg7) K := by
  simp only [cc0__emb_mlp_kernel_eq_skeleton]; unfold cc0__emb_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The input buffers under the region's proof data -/

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation at a generic point -/

/-- What the body is called with at point `t`: the invariant, nothing owed, and every window's current staging buffer
    at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns: the same, every buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: the input buffers hold their blocks, so the body's triple applies; the invariant and the
    statement that nothing is owed pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The obligation the launch theorem asks of the body, at every point of the grid. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIBody1.lean ====
/-
  Region 1 of the program: what its body is owed and what it gives back.

  The region runs one kernel body at every point of its grid. At a point the pipeline hands the body one staging
  buffer per window. Each input window's buffer holds that window's block at the point — the rows of the window's
  array that the point's index selects — whether the pipeline copied it in at this point or, the index not having
  moved, left it from an earlier one. The body reads every input block whole, reads (and ignores) what the output
  buffer happens to hold, computes one value from the input blocks and writes it over the whole output block. So
  after the body the input buffers hold what they held and the output buffer holds that one value, a function of
  the input blocks alone.
-/
import proofs.«170728_j33028298506953_2_alg».proof.Proof.KIBlocks
import proofs.«170728_j33028298506953_2_alg».proof.Proof.KIDat
import proofs.«170728_j33028298506953_2_alg».proof.Proof.Gen.KernelIdeal.Launch
import proofs.«170728_j33028298506953_2_alg».proof.Proof.Gen.KernelIdeal.Skeleton
import proofs.«170728_j33028298506953_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with ten thousand rows is decided by a recursion as deep as the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## Each input buffer holds its window's block -/

/-- Input window 0: for any proof data that reads its arrays off `V` and whose body leaves this window's block
    in place, the window's current staging buffer holds the block of the point, copied in there or kept from an
    earlier point at which the block index was the same. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1: for any proof data that reads its arrays off `V` and whose body leaves this window's block
    in place, the window's current staging buffer holds the block of the point, copied in there or kept from an
    earlier point at which the block index was the same. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2: for any proof data that reads its arrays off `V` and whose body leaves this window's block
    in place, the window's current staging buffer holds the block of the point, copied in there or kept from an
    earlier point at which the block index was the same. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3: for any proof data that reads its arrays off `V` and whose body leaves this window's block
    in place, the window's current staging buffer holds the block of the point, copied in there or kept from an
    earlier point at which the block index was the same. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4: for any proof data that reads its arrays off `V` and whose body leaves this window's block
    in place, the window's current staging buffer holds the block of the point, copied in there or kept from an
    earlier point at which the block index was the same. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5: for any proof data that reads its arrays off `V` and whose body leaves this window's block
    in place, the window's current staging buffer holds the block of the point, copied in there or kept from an
    earlier point at which the block index was the same. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6: for any proof data that reads its arrays off `V` and whose body leaves this window's block
    in place, the window's current staging buffer holds the block of the point, copied in there or kept from an
    earlier point at which the block index was the same. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7: for any proof data that reads its arrays off `V` and whose body leaves this window's block
    in place, the window's current staging buffer holds the block of the point, copied in there or kept from an
    earlier point at which the block index was the same. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The one store covers the output block -/

/-- The body's single store is through the rectangle that is the whole output block, so every index of the block
    lies in it. -/
theorem cover1_8 (p0 : Vec F S8000x1 .f32) (y : S8000x1.Idx) :
    ∃ pc ∈ ([⟨rE1, p0⟩] : List (View.Piece (Elt F) S8000x1 .f32)), y ∈ pc.1.set :=
  View.cover_of_tiled [⟨rE1, p0⟩] S8000x1.size (by rfl) y

/-! ## The body's triple -/

set_option maxHeartbeats 4000000 in
/-- The body run on whole staging buffers: the input buffers read `x0`, …, the output buffer holds anything. It ends
    with the input buffers as they were and the output buffer reading the stored value, the function `out1_8` of the
    input contents: the one store covers the block, so nothing of the earlier contents is left. -/
theorem sound_kernel1 (c : Dev nD) (E : Set ℕ) (i : grid1.Coords) (arg1 : Memref sig .tc .vmem S8000x64 .f32) (harg1 : arg1.IsWhole) (arg2 : Memref sig .tc .vmem S8000x64 .f32) (harg2 : arg2.IsWhole) (arg3 : Memref sig .tc .vmem S8000x1 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x1 .f32) (harg7 : arg7.IsWhole) (arg8 : Memref sig .tc .vmem S1 .f32) (harg8 : arg8.IsWhole) (arg9 : Memref sig .tc .vmem S8000x1 .f32) (harg9 : arg9.IsWhole)
    (x0 : Vec F S8000x64 .f32) (x1 : Vec F S8000x64 .f32) (x2 : Vec F S8000x1 .f32) (x3 : Vec F S64x64 .f32) (x4 : Vec F S64x64 .f32) (x5 : Vec F S64 .f32) (x6 : Vec F S64x1 .f32) (x7 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out1_8 x0 x1 x2 x3 x4 x5 x6 x7)) -∗ K ⟨⟩))
      ⊢ wp frame (wpE (defs₀ (F := F)) Variants.none c none) E (cc1__edge_mlp_kernel i arg1 harg1 arg2 harg2 arg3 harg3 arg4 harg4 arg5 harg5 arg6 harg6 arg7 harg7 arg8 harg8 arg9 harg9) K := by
  simp only [cc1__edge_mlp_kernel_eq_skeleton]; unfold cc1__edge_mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover1_8 _)

/-! ## The input buffers under the region's proof data -/

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation at a generic point -/

/-- What the body is called with at point `t`: the invariant, nothing owed, and every window's current staging buffer
    at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns: the same, every buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

set_option maxHeartbeats 1000000 in
/-- The body at any point: the input buffers hold their blocks, so the body's triple applies; the invariant and the
    statement that nothing is owed pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The obligation the launch theorem asks of the body, at every point of the grid. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIBody2.lean ====
/-
  Region 2 of the program: what its body is owed and what it gives back.

  The region runs one kernel body at every point of its grid. At a point the pipeline hands the body one staging
  buffer per window. Each input window's buffer holds that window's block at the point — the rows of the window's
  array that the point's index selects — whether the pipeline copied it in at this point or, the index not having
  moved, left it from an earlier one. The body reads every input block whole, reads (and ignores) what the output
  buffer happens to hold, computes one value from the input blocks and writes it over the whole output block. So
  after the body the input buffers hold what they held and the output buffer holds that one value, a function of
  the input blocks alone.
-/
import proofs.«170728_j33028298506953_2_alg».proof.Proof.KIBlocks
import proofs.«170728_j33028298506953_2_alg».proof.Proof.KIDat
import proofs.«170728_j33028298506953_2_alg».proof.Proof.Gen.KernelIdeal.Launch
import proofs.«170728_j33028298506953_2_alg».proof.Proof.Gen.KernelIdeal.Skeleton
import proofs.«170728_j33028298506953_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with ten thousand rows is decided by a recursion as deep as the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## Each input buffer holds its window's block -/

/-- Input window 0: for any proof data that reads its arrays off `V` and whose body leaves this window's block
    in place, the window's current staging buffer holds the block of the point, copied in there or kept from an
    earlier point at which the block index was the same. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1: for any proof data that reads its arrays off `V` and whose body leaves this window's block
    in place, the window's current staging buffer holds the block of the point, copied in there or kept from an
    earlier point at which the block index was the same. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2: for any proof data that reads its arrays off `V` and whose body leaves this window's block
    in place, the window's current staging buffer holds the block of the point, copied in there or kept from an
    earlier point at which the block index was the same. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3: for any proof data that reads its arrays off `V` and whose body leaves this window's block
    in place, the window's current staging buffer holds the block of the point, copied in there or kept from an
    earlier point at which the block index was the same. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4: for any proof data that reads its arrays off `V` and whose body leaves this window's block
    in place, the window's current staging buffer holds the block of the point, copied in there or kept from an
    earlier point at which the block index was the same. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5: for any proof data that reads its arrays off `V` and whose body leaves this window's block
    in place, the window's current staging buffer holds the block of the point, copied in there or kept from an
    earlier point at which the block index was the same. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The one store covers the output block -/

/-- The body's single store is through the rectangle that is the whole output block, so every index of the block
    lies in it. -/
theorem cover2_6 (p0 : Vec F S10000x64 .f32) (y : S10000x64.Idx) :
    ∃ pc ∈ ([⟨rN, p0⟩] : List (View.Piece (Elt F) S10000x64 .f32)), y ∈ pc.1.set :=
  View.cover_of_tiled [⟨rN, p0⟩] S10000x64.size (by rfl) y

/-! ## The body's triple -/

set_option maxHeartbeats 4000000 in
/-- The body run on whole staging buffers: the input buffers read `x0`, …, the output buffer holds anything. It ends
    with the input buffers as they were and the output buffer reading the stored value, the function `out2_6` of the
    input contents: the one store covers the block, so nothing of the earlier contents is left. -/
theorem sound_kernel2 (c : Dev nD) (E : Set ℕ) (i : grid2.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S10000x64 .f32) (harg7 : arg7.IsWhole)
    (x0 : Vec F S10000x64 .f32) (x1 : Vec F S10000x64 .f32) (x2 : Vec F S64x64 .f32) (x3 : Vec F S64 .f32) (x4 : Vec F S64x64 .f32) (x5 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__emb_mlp_kernel i arg1 harg1 arg2 harg2 arg3 harg3 arg4 harg4 arg5 harg5 arg6 harg6 arg7 harg7) K := by
  simp only [cc2__emb_mlp_kernel_eq_skeleton]; unfold cc2__emb_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The input buffers under the region's proof data -/

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation at a generic point -/

/-- What the body is called with at point `t`: the invariant, nothing owed, and every window's current staging buffer
    at what the pipeline left in it, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns: the same, every buffer at what the proof data says the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

set_option maxHeartbeats 1000000 in
/-- The body at any point: the input buffers hold their blocks, so the body's triple applies; the invariant and the
    statement that nothing is owed pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The obligation the launch theorem asks of the body, at every point of the grid. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIBody3.lean ====
/-
  Region 3 of the program: what its body is owed and what it gives back.

  The region runs one kernel body at every point of its grid. At a point the pipeline hands the body one staging
  buffer per window. Each input window's buffer holds that window's block at the point — the rows of the window's
  array that the point's index selects — whether the pipeline copied it in at this point or, the index not having
  moved, left it from an earlier one. The body reads every input block whole, reads (and ignores) what the output
  buffer happens to hold, computes one value from the input blocks and writes it over the whole output block. So
  after the body the input buffers hold what they held and the output buffer holds that one value, a function of
  the input blocks alone.
-/
import proofs.«170728_j33028298506953_2_alg».proof.Proof.KIBlocks
import proofs.«170728_j33028298506953_2_alg».proof.Proof.KIDat
import proofs.«170728_j33028298506953_2_alg».proof.Proof.Gen.KernelIdeal.Launch
import proofs.«170728_j33028298506953_2_alg».proof.Proof.Gen.KernelIdeal.Skeleton
import proofs.«170728_j33028298506953_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with ten thousand rows is decided by a recursion as deep as the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## Each input buffer holds its window's block -/

/-- Input window 0: for any proof data that reads its arrays off `V` and whose body leaves this window's block
    in place, the window's current staging buffer holds the block of the point, copied in there or kept from an
    earlier point at which the block index was the same. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1: for any proof data that reads its arrays off `V` and whose body leaves this window's block
    in place, the window's current staging buffer holds the block of the point, copied in there or kept from an
    earlier point at which the block index was the same. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2: for any proof data that reads its arrays off `V` and whose body leaves this window's block
    in place, the window's current staging buffer holds the block of the point, copied in there or kept from an
    earlier point at which the block index was the same. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3: for any proof data that reads its arrays off `V` and whose body leaves this window's block
    in place, the window's current staging buffer holds the block of the point, copied in there or kept from an
    earlier point at which the block index was the same. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4: for any proof data that reads its arrays off `V` and whose body leaves this window's block
    in place, the window's current staging buffer holds the block of the point, copied in there or kept from an
    earlier point at which the block index was the same. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5: for any proof data that reads its arrays off `V` and whose body leaves this window's block
    in place, the window's current staging buffer holds the block of the point, copied in there or kept from an
    earlier point at which the block index was the same. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6: for any proof data that reads its arrays off `V` and whose body leaves this window's block
    in place, the window's current staging buffer holds the block of the point, copied in there or kept from an
    earlier point at which the block index was the same. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7: for any proof data that reads its arrays off `V` and whose body leaves this window's block
    in place, the window's current staging buffer holds the block of the point, copied in there or kept from an
    earlier point at which the block index was the same. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-! ## The one store covers the output block -/

/-- The body's single store is through the rectangle that is the whole output block, so every index of the block
    lies in it. -/
theorem cover3_8 (p0 : Vec F S8000x1 .f32) (y : S8000x1.Idx) :
    ∃ pc ∈ ([⟨rE1, p0⟩] : List (View.Piece (Elt F) S8000x1 .f32)), y ∈ pc.1.set :=
  View.cover_of_tiled [⟨rE1, p0⟩] S8000x1.size (by rfl) y

/-! ## The body's triple -/

set_option maxHeartbeats 4000000 in
/-- The body run on whole staging buffers: the input buffers read `x0`, …, the output buffer holds anything. It ends
    with the input buffers as they were and the output buffer reading the stored value, the function `out3_8` of the
    input contents: the one store covers the block, so nothing of the earlier contents is left. -/
theorem sound_kernel3 (c : Dev nD) (E : Set ℕ) (i : grid3.Coords) (arg1 : Memref sig .tc .vmem S8000x64 .f32) (harg1 : arg1.IsWhole) (arg2 : Memref sig .tc .vmem S8000x64 .f32) (harg2 : arg2.IsWhole) (arg3 : Memref sig .tc .vmem S8000x1 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x1 .f32) (harg7 : arg7.IsWhole) (arg8 : Memref sig .tc .vmem S1 .f32) (harg8 : arg8.IsWhole) (arg9 : Memref sig .tc .vmem S8000x1 .f32) (harg9 : arg9.IsWhole)
    (x0 : Vec F S8000x64 .f32) (x1 : Vec F S8000x64 .f32) (x2 : Vec F S8000x1 .f32) (x3 : Vec F S64x64 .f32) (x4 : Vec F S64x64 .f32) (x5 : Vec F S64 .f32) (x6 : Vec F S64x1 .f32) (x7 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out3_8 x0 x1 x2 x3 x4 x5 x6 x7)) -∗ K ⟨⟩))
      ⊢ wp frame (wpE (defs₀ (F := F)) Variants.none c none) E (cc3__edge_mlp_kernel i arg1 harg1 arg2 harg2 arg3 harg3 arg4 harg4 arg5 harg5 arg6 harg6 arg7 harg7 arg8 harg8 arg9 harg9) K := by
  simp only [cc3__edge_mlp_kernel_eq_skeleton]; unfold cc3__edge_mlp_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover3_8 _)

/-! ## The input buffers under the region's proof data -/

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d

/-! ## The body obligation at a generic point -/

/-- What the body is called with at point `t`: the invariant, nothing owed, and every window's current staging buffer
    at what the pipeline left in it, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

/-- and what it returns: the same, every buffer at what the proof data says the body leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t))

set_option maxHeartbeats 1000000 in
/-- The body at any point: the input buffers hold their blocks, so the body's triple applies; the invariant and the
    statement that nothing is owed pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel3 c Set.univ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The obligation the launch theorem asks of the body, at every point of the grid. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KIClaims.lean ====
/-
  The kernel program at the ideal instance, assembled: its frame, and its run with the result buffer named.

  The run of @main's thirteen items leaves every unscoped buffer at the last contents of the fold through the items;
  read at the result buffer that is the fold's term for the stacked sums, and read at an argument it is the launch
  memory. The four regions' body obligations are the per-region theorems.
-/
import proofs.«170728_j33028298506953_2_alg».proof.Proof.KIRun
import proofs.«170728_j33028298506953_2_alg».proof.Proof.KIBody0
import proofs.«170728_j33028298506953_2_alg».proof.Proof.KIBody1
import proofs.«170728_j33028298506953_2_alg».proof.Proof.KIBody2
import proofs.«170728_j33028298506953_2_alg».proof.Proof.KIBody3

noncomputable section

namespace Cert.KernelIdeal.Hand

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- The frame of the kernel program: it runs to the end, nothing faults, the fourteen argument arrays end as launched. -/
theorem frame_main :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame m ρ (fun V c => body_obligation0 V c) (fun V c => body_obligation1 V c) (fun V c => body_obligation2 V c)
    (fun V c => body_obligation3 V c)

/-- The run with the result named: the result buffer ends at the fold's term for it, the arguments as launched. -/
theorem run_value :
    θ_run defs (onTc (τ := τ) (main (F := F))) ⟨m, fun _ => 0, ρ⟩ (fun r => ∀ c : Dev nD,
      r.2.mem ((c.tc : Thread nD τ).loc main_v167) = V13 m (outs m) c main_v167
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨h c _ (mem_uc main_v167 (by decide)),
     (h c _ (mem_uc main_arg0 (by decide))).trans (V13_main_arg0 m (outs m) c),
     (h c _ (mem_uc main_arg1 (by decide))).trans (V13_main_arg1 m (outs m) c),
     (h c _ (mem_uc main_arg2 (by decide))).trans (V13_main_arg2 m (outs m) c),
     (h c _ (mem_uc main_arg3 (by decide))).trans (V13_main_arg3 m (outs m) c),
     (h c _ (mem_uc main_arg4 (by decide))).trans (V13_main_arg4 m (outs m) c),
     (h c _ (mem_uc main_arg5 (by decide))).trans (V13_main_arg5 m (outs m) c),
     (h c _ (mem_uc main_arg6 (by decide))).trans (V13_main_arg6 m (outs m) c),
     (h c _ (mem_uc main_arg7 (by decide))).trans (V13_main_arg7 m (outs m) c),
     (h c _ (mem_uc main_arg8 (by decide))).trans (V13_main_arg8 m (outs m) c),
     (h c _ (mem_uc main_arg9 (by decide))).trans (V13_main_arg9 m (outs m) c),
     (h c _ (mem_uc main_arg10 (by decide))).trans (V13_main_arg10 m (outs m) c),
     (h c _ (mem_uc main_arg11 (by decide))).trans (V13_main_arg11 m (outs m) c),
     (h c _ (mem_uc main_arg12 (by decide))).trans (V13_main_arg12 m (outs m) c),
     (h c _ (mem_uc main_arg13 (by decide))).trans (V13_main_arg13 m (outs m) c)⟩)
    (run_all m ρ (fun V c => body_obligation0 V c) (fun V c => body_obligation1 V c) (fun V c => body_obligation2 V c)
      (fun V c => body_obligation3 V c))

end Cert.KernelIdeal.Hand

end
-- ==== Proof.Spec.lean ====
/-
  The two dense maps the kernel's regions compute, written index by index over the extended reals.

  `gated`: one row of node features `e` passes through a two-layer perceptron (64 → 64 → 64, a rectifier
  between the layers); the logistic function of the per-entry noise `g` plus that output is a gate in (0, 1),
  and the result is the gate times the entry itself.

  `edgeGate`: the head and tail feature rows of one edge, `eh` and `et`, enter the first layer through two
  separate weight blocks `w1a`, `w1b` (the upper and lower half of a 128 × 64 matrix: the product of the
  concatenated row with the whole matrix is the sum of the two half products); a rectifier, a second layer
  64 → 1, and the logistic function of the edge's noise plus that output give the edge's weight.

  Both are stated for any number `n` of rows: a block of rows of an array is the same function of the
  block's rows. The float literals (zero of the rectifier, the divisor one) stay as their words: the same
  words stand in both programs and are never evaluated.
-/
import Idealize.ShloMosaic.PureOps.Ideal
import Idealize.ShloMosaic.Lib.ValueIdx

noncomputable section

namespace Cert.Spec

open Idealize.ShloMosaic Idealize.ShloMosaic.ValueIdx

/-- The rectifier's zero and the divisor one, as the words both programs print. -/
abbrev zeroW : EReal := Ideal.ofBits .f32 0x00000000#32
abbrev oneW : EReal := Ideal.ofBits .f32 0x3F800000#32

/-- First layer of the node perceptron at row `r`, hidden unit `k`, after the rectifier. -/
def hiddenNode {n : Nat} (e : FVec Ideal ⟨2, ![n, 64]⟩ .f32) (w1 : FVec Ideal ⟨2, ![64, 64]⟩ .f32)
    (b1 : FVec Ideal ⟨1, ![64]⟩ .f32) (r : Fin n) (k : Fin 64) : EReal :=
  max ((∑ j : Fin 64, e (ix2 r j) * w1 (ix2 j k)) + b1 (ix1 k)) zeroW

/-- The gated node features: `logistic ((g + (hidden · w2 + b2)) / 1) * e`, entry by entry. -/
def gated {n : Nat} (e g : FVec Ideal ⟨2, ![n, 64]⟩ .f32) (w1 : FVec Ideal ⟨2, ![64, 64]⟩ .f32)
    (b1 : FVec Ideal ⟨1, ![64]⟩ .f32) (w2 : FVec Ideal ⟨2, ![64, 64]⟩ .f32) (b2 : FVec Ideal ⟨1, ![64]⟩ .f32) :
    FVec Ideal ⟨2, ![n, 64]⟩ .f32 := fun i =>
  Ideal.logistic (Ideal.div
      (g (ix2 (i 0) (i 1)) + ((∑ k : Fin 64, hiddenNode e w1 b1 (i 0) k * w2 (ix2 k (i 1))) + b2 (ix1 (i 1)))) oneW)
    * e (ix2 (i 0) (i 1))

/-- First layer of the edge perceptron at edge `r`, hidden unit `k`, after the rectifier: the head row
    through `w1a` plus the tail row through `w1b`, plus the bias. -/
def hiddenEdge {n : Nat} (eh et : FVec Ideal ⟨2, ![n, 64]⟩ .f32) (w1a w1b : FVec Ideal ⟨2, ![64, 64]⟩ .f32)
    (b1 : FVec Ideal ⟨1, ![64]⟩ .f32) (r : Fin n) (k : Fin 64) : EReal :=
  max (((∑ j : Fin 64, eh (ix2 r j) * w1a (ix2 j k)) + (∑ j : Fin 64, et (ix2 r j) * w1b (ix2 j k))) + b1 (ix1 k)) zeroW

/-- The edge weights: `logistic ((g + (hidden · w2 + b2)) / 1)`, one per edge. -/
def edgeGate {n : Nat} (eh et : FVec Ideal ⟨2, ![n, 64]⟩ .f32) (g : FVec Ideal ⟨2, ![n, 1]⟩ .f32)
    (w1a w1b : FVec Ideal ⟨2, ![64, 64]⟩ .f32) (b1 : FVec Ideal ⟨1, ![64]⟩ .f32)
    (w2 : FVec Ideal ⟨2, ![64, 1]⟩ .f32) (b2 : FVec Ideal ⟨1, ![1]⟩ .f32) :
    FVec Ideal ⟨2, ![n, 1]⟩ .f32 := fun i =>
  Ideal.logistic (Ideal.div
      (g (ix2 (i 0) (i 1)) + ((∑ k : Fin 64, hiddenEdge eh et w1a w1b b1 (i 0) k * w2 (ix2 k (i 1))) + b2 (ix1 (i 1)))) oneW)

end Cert.Spec

end
-- ==== Proof.LibNodeRows.lean ====
/-
  The node perceptron's arithmetic, read entry by entry.

  The body of the node kernel computes one value from six loaded blocks: the features pass through two dense
  layers (each a product accumulated from zero plus a bias repeated down the rows, a rectifier between them),
  the noise is added, the sum is divided by one, the logistic function is taken and the result is multiplied
  by the features. Over the extended reals a change of float format is the identity, so that value, at row
  `p` and column `q`, is the specification's `gated` of the six blocks at `(p, q)`. Both layers' kernels are
  the same term up to one identity reshape.

  Second, `gated` at a row depends only on that row of the features and the noise: a block of rows of two
  large arrays gives the large arrays' `gated` at the corresponding row.
-/
import proofs.«170728_j33028298506953_2_alg».proof.Proof.Gen.KernelIdeal.Skeleton
import proofs.«170728_j33028298506953_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HandValue

open Idealize.ShloMosaic Idealize.ShloMosaic.ValueIdx Idealize.SL.Sem
open Cert.KernelIdeal Cert.KernelIdeal.Gen

/-- The logistic function of a vector, read at an index. -/
theorem logistic_apply {s : Shape} {φ : FTy} (a : FVec Ideal s φ) (i : s.Idx) : logistic a i = Ideal.logistic (a i) := rfl

theorem mm_node_l0 (i : S10000x64.Idx) (c : dot_S10000x64_S64x64_S10000x64_1_0_0_1_n_n.contr.Idx) : (dot_S10000x64_S64x64_S10000x64_1_0_0_1_n_n.lhsIdx i c 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl
theorem mm_node_l1 (i : S10000x64.Idx) (c : dot_S10000x64_S64x64_S10000x64_1_0_0_1_n_n.contr.Idx) : (dot_S10000x64_S64x64_S10000x64_1_0_0_1_n_n.lhsIdx i c 1).val = (c ⟨0, by decide⟩).val :=
  dot_S10000x64_S64x64_S10000x64_1_0_0_1_n_n.lhsIdx_val_of_single rfl i c
theorem mm_node_r0 (i : S10000x64.Idx) (c : dot_S10000x64_S64x64_S10000x64_1_0_0_1_n_n.contr.Idx) : (dot_S10000x64_S64x64_S10000x64_1_0_0_1_n_n.rhsIdx i c 0).val = (c ⟨0, by decide⟩).val :=
  dot_S10000x64_S64x64_S10000x64_1_0_0_1_n_n.rhsIdx_val_of_single rfl i c
theorem mm_node_r1 (i : S10000x64.Idx) (c : dot_S10000x64_S64x64_S10000x64_1_0_0_1_n_n.contr.Idx) : (dot_S10000x64_S64x64_S10000x64_1_0_0_1_n_n.rhsIdx i c 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- A block of rows times a square matrix, accumulated from zero, read at row `p`, column `q`: the sum over the 64 contracted positions. -/
theorem mm_node (l : FVec Ideal S10000x64 .bf16) (r : FVec Ideal S64x64 .bf16) (p : Fin 10000) (q : Fin 64) :
    matmul dot_S10000x64_S64x64_S10000x64_1_0_0_1_n_n none l r (constant S10000x64 .f32 0x00000000#32) (ix2 p q)
      = ∑ k : Fin 64, l (ix2 p k) * r (ix2 k q) := by
  show FloatOps.matmul dot_S10000x64_S64x64_S10000x64_1_0_0_1_n_n none l r (constant S10000x64 .f32 0x00000000#32) (ix2 p q) = _
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k :=
    funext fun a => Fin.ext (by
      match a with
      | ⟨0, _⟩ => exact mm_node_l0 _ _
      | ⟨1, _⟩ => exact (mm_node_l1 _ _).trans hk)
  have er : dot_S10000x64_S64x64_S10000x64_1_0_0_1_n_n.rhsIdx (ix2 p q) ((contrEquiv1 dot_S10000x64_S64x64_S10000x64_1_0_0_1_n_n 64 rfl rfl).symm k) = ix2 k q :=
    funext fun a => Fin.ext (by
      match a with
      | ⟨0, _⟩ => exact (mm_node_r0 _ _).trans hk
      | ⟨1, _⟩ => exact mm_node_r1 _ _)
  rw [el, er]

/-- A bias vector laid out as one row and repeated down the rows reads, at any row, its entry at the column. -/
theorem bias_node (b : FVec Ideal S64 .f32) (p : Fin 10000) (q : Fin 64) :
    broadcastTo S10000x64 (shapeCast S1x64 b shapeCasts_S64_S1x64) broadcasts_S1x64_S10000x64 (ix2 p q) = b (ix1 q) :=
  (broadcastTo_1b_ab_apply _ _ p q).trans (shapeCast_a_1a_apply b _ 0 q)

/-- The first layer's node kernel body at `(p, q)` is `gated` of its blocks there. -/
theorem pay0_apply (x0 x1 : Vec Ideal S10000x64 .f32) (x2 : Vec Ideal S64x64 .f32) (x3 : Vec Ideal S64 .f32)
    (x4 : Vec Ideal S64x64 .f32) (x5 : Vec Ideal S64 .f32) (p : Fin 10000) (q : Fin 64) :
    Gen.k0_pay1 (F := Ideal) x0 x2 x3 x4 x5 x1 (ix2 p q) = Cert.Spec.gated (n := 10000) x0 x1 x2 x3 x4 x5 (ix2 p q) := by
  unfold Gen.k0_pay1
  simp only [mulf_apply, logistic_apply, divf_apply, addf_apply, shapeCast_self, broadcast_apply, mm_node, bias_node,
    maximumf_apply, truncf_apply]
  rfl

/-- The second layer's node kernel body likewise. -/
theorem pay2_apply (x0 x1 : Vec Ideal S10000x64 .f32) (x2 : Vec Ideal S64x64 .f32) (x3 : Vec Ideal S64 .f32)
    (x4 : Vec Ideal S64x64 .f32) (x5 : Vec Ideal S64 .f32) (p : Fin 10000) (q : Fin 64) :
    Gen.k2_pay1 (F := Ideal) x0 x2 x3 x4 x5 x1 (ix2 p q) = Cert.Spec.gated (n := 10000) x0 x1 x2 x3 x4 x5 (ix2 p q) := by
  unfold Gen.k2_pay1
  simp only [mulf_apply, logistic_apply, divf_apply, addf_apply, shapeCast_self, broadcast_apply, mm_node, bias_node,
    maximumf_apply, truncf_apply]
  rfl

/-- As whole blocks. -/
theorem pay0_eq (x0 x1 : Vec Ideal S10000x64 .f32) (x2 : Vec Ideal S64x64 .f32) (x3 : Vec Ideal S64 .f32)
    (x4 : Vec Ideal S64x64 .f32) (x5 : Vec Ideal S64 .f32) :
    Gen.k0_pay1 (F := Ideal) x0 x2 x3 x4 x5 x1 = Cert.Spec.gated (n := 10000) x0 x1 x2 x3 x4 x5 := by
  funext i
  obtain ⟨p, q, rfl⟩ : ∃ (p : Fin 10000) (q : Fin 64), i = ix2 p q := ⟨i 0, i 1, eq_ix2 i⟩
  exact pay0_apply x0 x1 x2 x3 x4 x5 p q

theorem pay2_eq (x0 x1 : Vec Ideal S10000x64 .f32) (x2 : Vec Ideal S64x64 .f32) (x3 : Vec Ideal S64 .f32)
    (x4 : Vec Ideal S64x64 .f32) (x5 : Vec Ideal S64 .f32) :
    Gen.k2_pay1 (F := Ideal) x0 x2 x3 x4 x5 x1 = Cert.Spec.gated (n := 10000) x0 x1 x2 x3 x4 x5 := by
  funext i
  obtain ⟨p, q, rfl⟩ : ∃ (p : Fin 10000) (q : Fin 64), i = ix2 p q := ⟨i 0, i 1, eq_ix2 i⟩
  exact pay2_apply x0 x1 x2 x3 x4 x5 p q

/-- `gated` at row `r` of a block is `gated` at row `R` of the large arrays when the block's row `r` of the
    features and of the noise is the large arrays' row `R`, the weights and biases being the same. -/
theorem gated_rows (A0 A1 : FVec Ideal ⟨2, ![100000, 64]⟩ .f32) (B0 B1 : FVec Ideal ⟨2, ![10000, 64]⟩ .f32)
    (w1 w1' : FVec Ideal ⟨2, ![64, 64]⟩ .f32) (b1 b1' : FVec Ideal ⟨1, ![64]⟩ .f32)
    (w2 w2' : FVec Ideal ⟨2, ![64, 64]⟩ .f32) (b2 b2' : FVec Ideal ⟨1, ![64]⟩ .f32)
    (hw1 : w1' = w1) (hb1 : b1' = b1) (hw2 : w2' = w2) (hb2 : b2' = b2)
    (r : Fin 10000) (R : Fin 100000) (q : Fin 64)
    (h0 : ∀ j : Fin 64, B0 (ix2 r j) = A0 (ix2 R j)) (h1 : ∀ j : Fin 64, B1 (ix2 r j) = A1 (ix2 R j)) :
    Cert.Spec.gated (n := 10000) B0 B1 w1' b1' w2' b2' (ix2 r q)
      = Cert.Spec.gated (n := 100000) A0 A1 w1 b1 w2 b2 (ix2 R q) := by
  subst hw1 hb1 hw2 hb2
  unfold Cert.Spec.gated Cert.Spec.hiddenNode
  show Ideal.logistic (Ideal.div (B1 (ix2 r q) + ((∑ k : Fin 64, max ((∑ j : Fin 64, B0 (ix2 r j) * w1' (ix2 j k)) + b1' (ix1 k)) Cert.Spec.zeroW * w2' (ix2 k q)) + b2' (ix1 q))) Cert.Spec.oneW) * B0 (ix2 r q)
    = Ideal.logistic (Ideal.div (A1 (ix2 R q) + ((∑ k : Fin 64, max ((∑ j : Fin 64, A0 (ix2 R j) * w1' (ix2 j k)) + b1' (ix1 k)) Cert.Spec.zeroW * w2' (ix2 k q)) + b2' (ix1 q))) Cert.Spec.oneW) * A0 (ix2 R q)
  simp only [h0, h1]

end Cert.KernelIdeal.HandValue

end
-- ==== Proof.KIValue0.lean ====
/-
  Region 0 (the node perceptron of layer 1): the array the region leaves.

  The body's stored value is `gated` of its six loaded blocks; the block of the features and of the noise at grid
  point `t` is rows `10000 t … 10000 t + 9999` of their arrays, the weight and bias windows are their whole arrays at
  every point; `gated` at a row reads only that row, so what point `t` writes back is block `t` of `gated` of the whole
  arrays. The ten blocks cover the output array, hence the array ends holding `gated` of the whole arrays.
-/
import proofs.«170728_j33028298506953_2_alg».proof.Proof.KIBlocks
import proofs.«170728_j33028298506953_2_alg».proof.Proof.LibNodeRows
import Idealize.ShloMosaic.Lib.Pipeline.Value

noncomputable section

namespace Cert.KernelIdeal.HandValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-- The zero offsets of a whole-block rectangle, rank two and rank one. -/
theorem zeros2_0 : (![0, 0] : Fin 2 → Nat) = fun _ => 0 := funext fun a => by fin_cases a <;> rfl
theorem zeros1_0 : (![0] : Fin 1 → Nat) = fun _ => 0 := funext fun a => by fin_cases a <;> rfl

/-- The body's stored value is `gated` of the six loaded blocks. -/
theorem out0_6_eq (x0 x1 : Vec Ideal S10000x64 .f32) (x2 : Vec Ideal S64x64 .f32) (x3 : Vec Ideal S64 .f32)
    (x4 : Vec Ideal S64x64 .f32) (x5 : Vec Ideal S64 .f32) :
    out0_6 (F := Ideal) x0 x1 x2 x3 x4 x5 = Cert.Spec.gated (n := 10000) x0 x1 x2 x3 x4 x5 := by
  unfold out0_6
  rw [View.canon_unit_zero zeros2_0]
  simp only [View.ld_unit_zero (S := S10000x64) zeros2_0, View.ld_unit_zero (S := S64x64) zeros2_0,
    View.ld_unit_zero (S := S64) zeros1_0]
  exact pay0_eq x0 x1 x2 x3 x4 x5

/-- The windows' block indices, decided over the grid: the features, the noise and the output move one block of
    rows per point; the weights and biases stay at block zero. -/
theorem idx_0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- What the region's output array ends holding. -/
abbrev G0 (c : Dev nD) : FVec Ideal ⟨2, ![100000, 64]⟩ .f32 :=
  Cert.Spec.gated (n := 100000) (V c main_arg0) (V c main_v1) (V c main_v3) (V c main_v5) (V c main_v7) (V c main_v9)

/-- What point `t` writes back is block `t` of `gated` of the whole arrays: rows `10000 t …` of the features and the
    noise, the weights and biases whole. -/
theorem flushed0 (c : Dev nD) (dat : Dat τ (Elt Ideal) Unit ℕ (UR sig nD τ) ℕ cfg0 c)
    (h6 : ∀ t, dat.after 6 t = out0_6 (iblk0 V c 0 t) (iblk0 V c 1 t) (iblk0 V c 2 t) (iblk0 V c 3 t) (iblk0 V c 4 t) (iblk0 V c 5 t))
    (t : Fin cfg0.N) :
    dat.flushed 6 t = ((cfg0.win 6).blk t).view.read (Elt Ideal) (G0 V c) := by
  show (cfg0.win 6).cut (grid0.coords t) (dat.after 6 t) = _
  have e := out0_6_eq (iblk0 V c 0 t) (iblk0 V c 1 t) (iblk0 V c 2 t) (iblk0 V c 3 t) (iblk0 V c 4 t) (iblk0 V c 5 t)
  rw [h6, e]
  obtain ⟨e00, e01, e10, e11, e20, e21, e30, e40, e41, e50, e60, e61⟩ := idx_0 t
  funext j
  have hj0 : (j 0).val < 10000 := (j 0).isLt
  have hj1 : (j 1).val < 64 := (j 1).isLt
  have ht : t.val < 10 := t.isLt
  have hR : win0_6.index t (0 : Fin 2) * 10000 + 1 * (j 0).val < 100000 := by omega
  have hq : win0_6.index t (1 : Fin 2) * 64 + 1 * (j 1).val < 64 := by omega
  have hqe : (⟨win0_6.index t (1 : Fin 2) * 64 + 1 * (j 1).val, hq⟩ : Fin 64) = ⟨(j 1).val, hj1⟩ := Fin.ext (by show _ * 64 + 1 * (j 1).val = (j 1).val; omega)
  show Cert.Spec.gated (n := 10000) (iblk0 V c 0 t) (iblk0 V c 1 t) (iblk0 V c 2 t) (iblk0 V c 3 t) (iblk0 V c 4 t) (iblk0 V c 5 t)
      (ix2 (⟨(j 0).val, hj0⟩ : Fin 10000) (⟨(j 1).val, hj1⟩ : Fin 64))
    = Cert.Spec.gated (n := 100000) (V c main_arg0) (V c main_v1) (V c main_v3) (V c main_v5) (V c main_v7) (V c main_v9)
      (ix2 (⟨win0_6.index t (0 : Fin 2) * 10000 + 1 * (j 0).val, hR⟩ : Fin 100000) (⟨win0_6.index t (1 : Fin 2) * 64 + 1 * (j 1).val, hq⟩ : Fin 64))
  rw [hqe]
  refine gated_rows (V c main_arg0) (V c main_v1) (iblk0 V c 0 t) (iblk0 V c 1 t) (V c main_v3) (iblk0 V c 2 t) (V c main_v5) (iblk0 V c 3 t)
    (V c main_v7) (iblk0 V c 4 t) (V c main_v9) (iblk0 V c 5 t) ?_ ?_ ?_ ?_ _ _ _ ?_ ?_
  · -- the first weights' window is the whole array at every point
    funext y
    show V c main_v3 (((cfg0.win 2).blk t).view.emb y) = V c main_v3 y
    refine congrArg _ (funext fun a => Fin.ext ?_)
    match a with
    | ⟨0, _⟩ => show win0_2.index t (0 : Fin 2) * 64 + 1 * (y 0).val = (y 0).val; omega
    | ⟨1, _⟩ => show win0_2.index t (1 : Fin 2) * 64 + 1 * (y 1).val = (y 1).val; omega
  · -- the first bias likewise
    funext y
    show V c main_v5 (((cfg0.win 3).blk t).view.emb y) = V c main_v5 y
    refine congrArg _ (funext fun a => Fin.ext ?_)
    match a with
    | ⟨0, _⟩ => show win0_3.index t (0 : Fin 1) * 64 + 1 * (y 0).val = (y 0).val; omega
  · -- the second weights
    funext y
    show V c main_v7 (((cfg0.win 4).blk t).view.emb y) = V c main_v7 y
    refine congrArg _ (funext fun a => Fin.ext ?_)
    match a with
    | ⟨0, _⟩ => show win0_4.index t (0 : Fin 2) * 64 + 1 * (y 0).val = (y 0).val; omega
    | ⟨1, _⟩ => show win0_4.index t (1 : Fin 2) * 64 + 1 * (y 1).val = (y 1).val; omega
  · -- the second bias
    funext y
    show V c main_v9 (((cfg0.win 5).blk t).view.emb y) = V c main_v9 y
    refine congrArg _ (funext fun a => Fin.ext ?_)
    match a with
    | ⟨0, _⟩ => show win0_5.index t (0 : Fin 1) * 64 + 1 * (y 0).val = (y 0).val; omega
  · -- the features' block row is the array's row
    intro j'
    show V c main_arg0 (((cfg0.win 0).blk t).view.emb (ix2 (⟨(j 0).val, hj0⟩ : Fin 10000) j')) = V c main_arg0 _
    refine congrArg _ (funext fun a => Fin.ext ?_)
    match a with
    | ⟨0, _⟩ => show win0_0.index t (0 : Fin 2) * 10000 + 1 * (j 0).val = win0_6.index t (0 : Fin 2) * 10000 + 1 * (j 0).val; omega
    | ⟨1, _⟩ => show win0_0.index t (1 : Fin 2) * 64 + 1 * j'.val = j'.val; omega
  · -- the noise's block row is the array's row
    intro j'
    show V c main_v1 (((cfg0.win 1).blk t).view.emb (ix2 (⟨(j 0).val, hj0⟩ : Fin 10000) j')) = V c main_v1 _
    refine congrArg _ (funext fun a => Fin.ext ?_)
    match a with
    | ⟨0, _⟩ => show win0_1.index t (0 : Fin 2) * 10000 + 1 * (j 0).val = win0_6.index t (0 : Fin 2) * 10000 + 1 * (j 0).val; omega
    | ⟨1, _⟩ => show win0_1.index t (1 : Fin 2) * 64 + 1 * j'.val = j'.val; omega

/-- An index of the array is in point `t`'s block iff each coordinate is in the block's range on its axis. -/
theorem mem_blk0 (t : Fin cfg0.N) (i : S100000x64.Idx) :
    i ∈ ((cfg0.win 6).blk t).view.set ↔ ∀ a : Fin 2, win0_6.index t a * S10000x64.size a ≤ (i a).val
      ∧ (i a).val < win0_6.index t a * S10000x64.size a + S10000x64.size a := by
  show i ∈ ((View.whole main_v10).slice (win0_6.rect t)).set ↔ _
  rw [View.set_slice_whole, Rect.mem_set_unit]
  exact Iff.rfl

/-- The ten blocks of rows cover the array: row `r` lies in the block of point `r / 10000`. -/
theorem cover0 (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have ht : (i 0).val / 10000 < 10 := by omega
  obtain ⟨T, hT⟩ : ∃ T : Fin cfg0.N, T.val = (i 0).val / 10000 := ⟨⟨(i 0).val / 10000, ht⟩, rfl⟩
  obtain ⟨-, -, -, -, -, -, -, -, -, -, e60, e61⟩ := idx_0 T
  refine ⟨T, flush0_6 T, ?_⟩
  rw [mem_blk0]
  intro a
  match a with
  | ⟨0, _⟩ =>
    show win0_6.index T (0 : Fin 2) * 10000 ≤ (i 0).val ∧ (i 0).val < win0_6.index T (0 : Fin 2) * 10000 + 10000
    omega
  | ⟨1, _⟩ =>
    show win0_6.index T (1 : Fin 2) * 64 ≤ (i 1).val ∧ (i 1).val < win0_6.index T (1 : Fin 2) * 64 + 64
    omega

/-- THE ARRAY after the region: `gated` of the six input arrays as the region finds them. -/
theorem arr0 (c : Dev nD) (dat : Dat τ (Elt Ideal) Unit ℕ (UR sig nD τ) ℕ cfg0 c)
    (hA : ∀ w, dat.A w = V c (Pipeline.arrRef spec0 w))
    (h6 : ∀ t, dat.after 6 t = out0_6 (iblk0 V c 0 t) (iblk0 V c 1 t) (iblk0 V c 2 t) (iblk0 V c 3 t) (iblk0 V c 4 t) (iblk0 V c 5 t)) :
    dat.arrAt 6 cfg0.N = Cert.Spec.gated (n := 100000) (V c main_arg0) (V c main_v1) (V c main_v3) (V c main_v5) (V c main_v7) (V c main_v9) :=
  dat.arrAt_eq_of_cover 6 (G0 V c) (fun t _ => flushed0 V c dat h6 t) cover0

end Cert.KernelIdeal.HandValue

end
-- ==== Proof.LibEdgeRows.lean ====
/-
  The edge perceptron's arithmetic, read entry by entry.

  The body of the edge kernel computes one value from eight loaded blocks: the head rows and the tail rows enter
  the first layer through their own square weight blocks (two products accumulated from zero, added), a bias
  repeated down the rows, a rectifier, a second layer into one column (a product with a 64 × 1 matrix plus a
  one-entry bias), the noise added, a division by one and the logistic function. Over the extended reals a change
  of float format is the identity, so that value at edge `p` is the specification's `edgeGate` of the eight
  blocks at `p`. Both layers' kernels are the same term.

  Second, `edgeGate` at an edge depends only on that edge's rows: a block of edges of the large arrays gives the
  large arrays' `edgeGate` at the corresponding edge.
-/
import proofs.«170728_j33028298506953_2_alg».proof.Proof.Gen.KernelIdeal.Skeleton
import proofs.«170728_j33028298506953_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HandValue

open Idealize.ShloMosaic Idealize.ShloMosaic.ValueIdx Idealize.SL.Sem
open Cert.KernelIdeal Cert.KernelIdeal.Gen

/-- The logistic function of a vector, read at an index. -/
theorem logistic_apply_e {s : Shape} {φ : FTy} (a : FVec Ideal s φ) (i : s.Idx) : logistic a i = Ideal.logistic (a i) := rfl

theorem mm_edge_l0 (i : S8000x64.Idx) (c : dot_S8000x64_S64x64_S8000x64_1_0_0_1_n_n.contr.Idx) : (dot_S8000x64_S64x64_S8000x64_1_0_0_1_n_n.lhsIdx i c 0).val = (i 0).val := by
  unfold DotDims.lhsIdx
  rw [dif_neg (show ¬(0 : Fin S8000x64.rank) ∈ dot_S8000x64_S64x64_S8000x64_1_0_0_1_n_n.lhsBatch by decide),
    dif_pos (show (0 : Fin S8000x64.rank) ∈ dot_S8000x64_S64x64_S8000x64_1_0_0_1_n_n.lhsNonContracting by decide)]
  rfl
theorem mm_edge_l1 (i : S8000x64.Idx) (c : dot_S8000x64_S64x64_S8000x64_1_0_0_1_n_n.contr.Idx) : (dot_S8000x64_S64x64_S8000x64_1_0_0_1_n_n.lhsIdx i c 1).val = (c ⟨0, by decide⟩).val :=
  dot_S8000x64_S64x64_S8000x64_1_0_0_1_n_n.lhsIdx_val_of_single rfl i c
theorem mm_edge_r0 (i : S8000x64.Idx) (c : dot_S8000x64_S64x64_S8000x64_1_0_0_1_n_n.contr.Idx) : (dot_S8000x64_S64x64_S8000x64_1_0_0_1_n_n.rhsIdx i c 0).val = (c ⟨0, by decide⟩).val :=
  dot_S8000x64_S64x64_S8000x64_1_0_0_1_n_n.rhsIdx_val_of_single rfl i c
theorem mm_edge_r1 (i : S8000x64.Idx) (c : dot_S8000x64_S64x64_S8000x64_1_0_0_1_n_n.contr.Idx) : (dot_S8000x64_S64x64_S8000x64_1_0_0_1_n_n.rhsIdx i c 1).val = (i 1).val := by
  unfold DotDims.rhsIdx
  rw [dif_neg (show ¬(1 : Fin S64x64.rank) ∈ dot_S8000x64_S64x64_S8000x64_1_0_0_1_n_n.rhsBatch by decide),
    dif_pos (show (1 : Fin S64x64.rank) ∈ dot_S8000x64_S64x64_S8000x64_1_0_0_1_n_n.rhsNonContracting by decide)]
  rfl

/-- A block of edge rows times a square matrix, accumulated from zero, read at row `p`, column `q`: the sum over the 64 contracted positions. -/
theorem mm_edge (l : FVec Ideal S8000x64 .bf16) (r : FVec Ideal S64x64 .bf16) (p : Fin 8000) (q : Fin 64) :
    matmul dot_S8000x64_S64x64_S8000x64_1_0_0_1_n_n none l r (constant S8000x64 .f32 0x00000000#32) (ix2 p q)
      = ∑ k : Fin 64, l (ix2 p k) * r (ix2 k q) := by
  show FloatOps.matmul dot_S8000x64_S64x64_S8000x64_1_0_0_1_n_n none l r (constant S8000x64 .f32 0x00000000#32) (ix2 p q) = _
  rw [Ideal.matmul_constant_zero_apply, ← Equiv.sum_comp (contrEquiv1 dot_S8000x64_S64x64_S8000x64_1_0_0_1_n_n 64 rfl rfl).symm]
  refine Finset.sum_congr rfl fun k _ => ?_
  have hk := contrEquiv1_symm_val dot_S8000x64_S64x64_S8000x64_1_0_0_1_n_n 64 rfl rfl k
  have el : dot_S8000x64_S64x64_S8000x64_1_0_0_1_n_n.lhsIdx (ix2 p q) ((contrEquiv1 dot_S8000x64_S64x64_S8000x64_1_0_0_1_n_n 64 rfl rfl).symm k) = ix2 p k :=
    funext fun a => Fin.ext (by
      match a with
      | ⟨0, _⟩ => exact mm_edge_l0 _ _
      | ⟨1, _⟩ => exact (mm_edge_l1 _ _).trans hk)
  have er : dot_S8000x64_S64x64_S8000x64_1_0_0_1_n_n.rhsIdx (ix2 p q) ((contrEquiv1 dot_S8000x64_S64x64_S8000x64_1_0_0_1_n_n 64 rfl rfl).symm k) = ix2 k q :=
    funext fun a => Fin.ext (by
      match a with
      | ⟨0, _⟩ => exact (mm_edge_r0 _ _).trans hk
      | ⟨1, _⟩ => exact mm_edge_r1 _ _)
  rw [el, er]

theorem mm_edge1_l0 (i : S8000x1.Idx) (c : dot_S8000x64_S64x1_S8000x1_1_0_0_1_n_n.contr.Idx) : (dot_S8000x64_S64x1_S8000x1_1_0_0_1_n_n.lhsIdx i c 0).val = (i 0).val := by
  unfold DotDims.lhsIdx
  rw [dif_neg (show ¬(0 : Fin S8000x64.rank) ∈ dot_S8000x64_S64x1_S8000x1_1_0_0_1_n_n.lhsBatch by decide),
    dif_pos (show (0 : Fin S8000x64.rank) ∈ dot_S8000x64_S64x1_S8000x1_1_0_0_1_n_n.lhsNonContracting by decide)]
  rfl
theorem mm_edge1_l1 (i : S8000x1.Idx) (c : dot_S8000x64_S64x1_S8000x1_1_0_0_1_n_n.contr.Idx) : (dot_S8000x64_S64x1_S8000x1_1_0_0_1_n_n.lhsIdx i c 1).val = (c ⟨0, by decide⟩).val :=
  dot_S8000x64_S64x1_S8000x1_1_0_0_1_n_n.lhsIdx_val_of_single rfl i c
theorem mm_edge1_r0 (i : S8000x1.Idx) (c : dot_S8000x64_S64x1_S8000x1_1_0_0_1_n_n.contr.Idx) : (dot_S8000x64_S64x1_S8000x1_1_0_0_1_n_n.rhsIdx i c 0).val = (c ⟨0, by decide⟩).val :=
  dot_S8000x64_S64x1_S8000x1_1_0_0_1_n_n.rhsIdx_val_of_single rfl i c
theorem mm_edge1_r1 (i : S8000x1.Idx) (c : dot_S8000x64_S64x1_S8000x1_1_0_0_1_n_n.contr.Idx) : (dot_S8000x64_S64x1_S8000x1_1_0_0_1_n_n.rhsIdx i c 1).val = (i 1).val := by
  unfold DotDims.rhsIdx
  rw [dif_neg (show ¬(1 : Fin S64x1.rank) ∈ dot_S8000x64_S64x1_S8000x1_1_0_0_1_n_n.rhsBatch by decide),
    dif_pos (show (1 : Fin S64x1.rank) ∈ dot_S8000x64_S64x1_S8000x1_1_0_0_1_n_n.rhsNonContracting by decide)]
  rfl

/-- A block of hidden rows times a one-column matrix, accumulated from zero, read at row `p`: the sum over the 64 contracted positions. -/
theorem mm_edge1 (l : FVec Ideal S8000x64 .bf16) (r : FVec Ideal S64x1 .bf16) (p : Fin 8000) (q : Fin 1) :
    matmul dot_S8000x64_S64x1_S8000x1_1_0_0_1_n_n none l r (constant S8000x1 .f32 0x00000000#32) (ix2 p q)
      = ∑ k : Fin 64, l (ix2 p k) * r (ix2 k q) := by
  show FloatOps.matmul dot_S8000x64_S64x1_S8000x1_1_0_0_1_n_n none l r (constant S8000x1 .f32 0x00000000#32) (ix2 p q) = _
  rw [Ideal.matmul_constant_zero_apply, ← Equiv.sum_comp (contrEquiv1 dot_S8000x64_S64x1_S8000x1_1_0_0_1_n_n 64 rfl rfl).symm]
  refine Finset.sum_congr rfl fun k _ => ?_
  have hk := contrEquiv1_symm_val dot_S8000x64_S64x1_S8000x1_1_0_0_1_n_n 64 rfl rfl k
  have el : dot_S8000x64_S64x1_S8000x1_1_0_0_1_n_n.lhsIdx (ix2 p q) ((contrEquiv1 dot_S8000x64_S64x1_S8000x1_1_0_0_1_n_n 64 rfl rfl).symm k) = ix2 p k :=
    funext fun a => Fin.ext (by
      match a with
      | ⟨0, _⟩ => exact mm_edge1_l0 _ _
      | ⟨1, _⟩ => exact (mm_edge1_l1 _ _).trans hk)
  have er : dot_S8000x64_S64x1_S8000x1_1_0_0_1_n_n.rhsIdx (ix2 p q) ((contrEquiv1 dot_S8000x64_S64x1_S8000x1_1_0_0_1_n_n 64 rfl rfl).symm k) = ix2 k q :=
    funext fun a => Fin.ext (by
      match a with
      | ⟨0, _⟩ => exact (mm_edge1_r0 _ _).trans hk
      | ⟨1, _⟩ => exact mm_edge1_r1 _ _)
  rw [el, er]

/-- A bias vector laid out as one row and repeated down the rows reads, at any row, its entry at the column. -/
theorem bias_edge (b : FVec Ideal S64 .f32) (p : Fin 8000) (q : Fin 64) :
    broadcastTo S8000x64 (shapeCast S1x64 b shapeCasts_S64_S1x64) broadcasts_S1x64_S8000x64 (ix2 p q) = b (ix1 q) :=
  (broadcastTo_1b_ab_apply _ _ p q).trans (shapeCast_a_1a_apply b _ 0 q)

/-- A one-entry bias laid out as a 1 × 1 array and repeated down the rows reads that entry. -/
theorem bias_edge1 (b : FVec Ideal S1 .f32) (p : Fin 8000) (q : Fin 1) :
    broadcastTo S8000x1 (shapeCast S1x1 b shapeCasts_S1_S1x1) broadcasts_S1x1_S8000x1 (ix2 p q) = b (ix1 q) :=
  (broadcastTo_1b_ab_apply _ _ p q).trans (shapeCast_a_1a_apply b _ 0 q)

/-- The first layer's edge kernel body at edge `p` is `edgeGate` of its blocks there. -/
theorem pay1_apply (x0 x1 : Vec Ideal S8000x64 .f32) (x2 : Vec Ideal S8000x1 .f32) (x3 x4 : Vec Ideal S64x64 .f32)
    (x5 : Vec Ideal S64 .f32) (x6 : Vec Ideal S64x1 .f32) (x7 : Vec Ideal S1 .f32) (p : Fin 8000) (q : Fin 1) :
    Gen.k1_pay1 (F := Ideal) x0 x1 x3 x4 x5 x6 x7 x2 (ix2 p q)
      = Cert.Spec.edgeGate (n := 8000) x0 x1 x2 x3 x4 x5 x6 x7 (ix2 p q) := by
  unfold Gen.k1_pay1
  simp only [logistic_apply_e, divf_apply, addf_apply, shapeCast_self, broadcast_apply, mm_edge, mm_edge1, bias_edge,
    bias_edge1, maximumf_apply, truncf_apply]
  rfl

/-- The second layer's edge kernel body likewise. -/
theorem pay3_apply (x0 x1 : Vec Ideal S8000x64 .f32) (x2 : Vec Ideal S8000x1 .f32) (x3 x4 : Vec Ideal S64x64 .f32)
    (x5 : Vec Ideal S64 .f32) (x6 : Vec Ideal S64x1 .f32) (x7 : Vec Ideal S1 .f32) (p : Fin 8000) (q : Fin 1) :
    Gen.k3_pay1 (F := Ideal) x0 x1 x3 x4 x5 x6 x7 x2 (ix2 p q)
      = Cert.Spec.edgeGate (n := 8000) x0 x1 x2 x3 x4 x5 x6 x7 (ix2 p q) := by
  unfold Gen.k3_pay1
  simp only [logistic_apply_e, divf_apply, addf_apply, shapeCast_self, broadcast_apply, mm_edge, mm_edge1, bias_edge,
    bias_edge1, maximumf_apply, truncf_apply]
  rfl

/-- As whole blocks. -/
theorem pay1_eq (x0 x1 : Vec Ideal S8000x64 .f32) (x2 : Vec Ideal S8000x1 .f32) (x3 x4 : Vec Ideal S64x64 .f32)
    (x5 : Vec Ideal S64 .f32) (x6 : Vec Ideal S64x1 .f32) (x7 : Vec Ideal S1 .f32) :
    Gen.k1_pay1 (F := Ideal) x0 x1 x3 x4 x5 x6 x7 x2 = Cert.Spec.edgeGate (n := 8000) x0 x1 x2 x3 x4 x5 x6 x7 := by
  funext i
  obtain ⟨p, q, rfl⟩ : ∃ (p : Fin 8000) (q : Fin 1), i = ix2 p q := ⟨i 0, i 1, eq_ix2 i⟩
  exact pay1_apply x0 x1 x2 x3 x4 x5 x6 x7 p q

theorem pay3_eq (x0 x1 : Vec Ideal S8000x64 .f32) (x2 : Vec Ideal S8000x1 .f32) (x3 x4 : Vec Ideal S64x64 .f32)
    (x5 : Vec Ideal S64 .f32) (x6 : Vec Ideal S64x1 .f32) (x7 : Vec Ideal S1 .f32) :
    Gen.k3_pay1 (F := Ideal) x0 x1 x3 x4 x5 x6 x7 x2 = Cert.Spec.edgeGate (n := 8000) x0 x1 x2 x3 x4 x5 x6 x7 := by
  funext i
  obtain ⟨p, q, rfl⟩ : ∃ (p : Fin 8000) (q : Fin 1), i = ix2 p q := ⟨i 0, i 1, eq_ix2 i⟩
  exact pay3_apply x0 x1 x2 x3 x4 x5 x6 x7 p q

/-- `edgeGate` at edge `r` of a block is `edgeGate` at edge `R` of the large arrays when the block's row `r` of the
    head rows, the tail rows and the noise is the large arrays' row `R`, the weights and biases being the same. -/
theorem edge_rows (A0 A1 : FVec Ideal ⟨2, ![800000, 64]⟩ .f32) (A2 : FVec Ideal ⟨2, ![800000, 1]⟩ .f32)
    (B0 B1 : FVec Ideal ⟨2, ![8000, 64]⟩ .f32) (B2 : FVec Ideal ⟨2, ![8000, 1]⟩ .f32)
    (w1a w1a' w1b w1b' : FVec Ideal ⟨2, ![64, 64]⟩ .f32) (b1 b1' : FVec Ideal ⟨1, ![64]⟩ .f32)
    (w2 w2' : FVec Ideal ⟨2, ![64, 1]⟩ .f32) (b2 b2' : FVec Ideal ⟨1, ![1]⟩ .f32)
    (hw1a : w1a' = w1a) (hw1b : w1b' = w1b) (hb1 : b1' = b1) (hw2 : w2' = w2) (hb2 : b2' = b2)
    (r : Fin 8000) (R : Fin 800000) (q : Fin 1)
    (h0 : ∀ j : Fin 64, B0 (ix2 r j) = A0 (ix2 R j)) (h1 : ∀ j : Fin 64, B1 (ix2 r j) = A1 (ix2 R j))
    (h2 : B2 (ix2 r q) = A2 (ix2 R q)) :
    Cert.Spec.edgeGate (n := 8000) B0 B1 B2 w1a' w1b' b1' w2' b2' (ix2 r q)
      = Cert.Spec.edgeGate (n := 800000) A0 A1 A2 w1a w1b b1 w2 b2 (ix2 R q) := by
  subst hw1a hw1b hb1 hw2 hb2
  unfold Cert.Spec.edgeGate Cert.Spec.hiddenEdge
  show Ideal.logistic (Ideal.div (B2 (ix2 r q) + ((∑ k : Fin 64, max (((∑ j : Fin 64, B0 (ix2 r j) * w1a' (ix2 j k)) + (∑ j : Fin 64, B1 (ix2 r j) * w1b' (ix2 j k))) + b1' (ix1 k)) Cert.Spec.zeroW * w2' (ix2 k q)) + b2' (ix1 q))) Cert.Spec.oneW)
    = Ideal.logistic (Ideal.div (A2 (ix2 R q) + ((∑ k : Fin 64, max (((∑ j : Fin 64, A0 (ix2 R j) * w1a' (ix2 j k)) + (∑ j : Fin 64, A1 (ix2 R j) * w1b' (ix2 j k))) + b1' (ix1 k)) Cert.Spec.zeroW * w2' (ix2 k q)) + b2' (ix1 q))) Cert.Spec.oneW)
  simp only [h0, h1, h2]

end Cert.KernelIdeal.HandValue

end
-- ==== Proof.KIValue1.lean ====
/-
  Region 1 (the edge perceptron of layer 1): the array the region leaves.

  The body's stored value is `edgeGate` of its eight loaded blocks; the block of the head rows, of the tail rows and
  of the noise at grid point `t` is edges `8000 t … 8000 t + 7999` of their arrays, the weight and bias windows are
  their whole arrays at every point; `edgeGate` at an edge reads only that edge's rows, so what point `t` writes back
  is block `t` of `edgeGate` of the whole arrays. The hundred blocks cover the output array, hence the array ends
  holding `edgeGate` of the whole arrays.
-/
import proofs.«170728_j33028298506953_2_alg».proof.Proof.KIBlocks
import proofs.«170728_j33028298506953_2_alg».proof.Proof.LibEdgeRows
import Idealize.ShloMosaic.Lib.Pipeline.Value

noncomputable section

namespace Cert.KernelIdeal.HandValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-- The zero offsets of a whole-block rectangle, rank two and rank one. -/
theorem zeros2_1 : (![0, 0] : Fin 2 → Nat) = fun _ => 0 := funext fun a => by fin_cases a <;> rfl
theorem zeros1_1 : (![0] : Fin 1 → Nat) = fun _ => 0 := funext fun a => by fin_cases a <;> rfl

/-- The body's stored value is `edgeGate` of the eight loaded blocks. -/
theorem out1_8_eq (x0 x1 : Vec Ideal S8000x64 .f32) (x2 : Vec Ideal S8000x1 .f32) (x3 x4 : Vec Ideal S64x64 .f32)
    (x5 : Vec Ideal S64 .f32) (x6 : Vec Ideal S64x1 .f32) (x7 : Vec Ideal S1 .f32) :
    out1_8 (F := Ideal) x0 x1 x2 x3 x4 x5 x6 x7 = Cert.Spec.edgeGate (n := 8000) x0 x1 x2 x3 x4 x5 x6 x7 := by
  unfold out1_8
  rw [View.canon_unit_zero zeros2_1]
  simp only [View.ld_unit_zero (S := S8000x64) zeros2_1, View.ld_unit_zero (S := S8000x1) zeros2_1,
    View.ld_unit_zero (S := S64x64) zeros2_1, View.ld_unit_zero (S := S64x1) zeros2_1,
    View.ld_unit_zero (S := S64) zeros1_1, View.ld_unit_zero (S := S1) zeros1_1]
  exact pay1_eq x0 x1 x2 x3 x4 x5 x6 x7

/-- The windows' block indices, decided over the grid: the head rows, the tail rows, the noise and the output move
    one block of edges per point; the weights and biases stay at block zero. -/
theorem idx_1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = 0 ∧ win1_6.index t (1 : Fin 2) = 0
    ∧ win1_7.index t (0 : Fin 1) = 0
    ∧ win1_8.index t (0 : Fin 2) = t.val ∧ win1_8.index t (1 : Fin 2) = 0 :=
  (by decide +kernel : ∀ t : Fin grid1.N, _)

/-- What the region's output array ends holding. -/
abbrev G1 (c : Dev nD) : FVec Ideal ⟨2, ![800000, 1]⟩ .f32 :=
  Cert.Spec.edgeGate (n := 800000) (V c main_v28) (V c main_v20) (V c main_v35) (V c main_v30) (V c main_v32) (V c main_v37) (V c main_v39) (V c main_v41)

/-- What point `t` writes back is block `t` of `edgeGate` of the whole arrays: edges `8000 t …` of the head rows, the
    tail rows and the noise, the weights and biases whole. -/
theorem flushed1 (c : Dev nD) (dat : Dat τ (Elt Ideal) Unit ℕ (UR sig nD τ) ℕ cfg1 c)
    (h8 : ∀ t, dat.after 8 t = out1_8 (iblk1 V c 0 t) (iblk1 V c 1 t) (iblk1 V c 2 t) (iblk1 V c 3 t) (iblk1 V c 4 t) (iblk1 V c 5 t) (iblk1 V c 6 t) (iblk1 V c 7 t))
    (t : Fin cfg1.N) :
    dat.flushed 8 t = ((cfg1.win 8).blk t).view.read (Elt Ideal) (G1 V c) := by
  show (cfg1.win 8).cut (grid1.coords t) (dat.after 8 t) = _
  have e := out1_8_eq (iblk1 V c 0 t) (iblk1 V c 1 t) (iblk1 V c 2 t) (iblk1 V c 3 t) (iblk1 V c 4 t) (iblk1 V c 5 t) (iblk1 V c 6 t) (iblk1 V c 7 t)
  rw [h8, e]
  obtain ⟨e00, e01, e10, e11, e20, e21, e30, e31, e40, e41, e50, e60, e61, e70, e80, e81⟩ := idx_1 t
  funext j
  have hj0 : (j 0).val < 8000 := (j 0).isLt
  have hj1 : (j 1).val < 1 := (j 1).isLt
  have ht : t.val < 100 := t.isLt
  have hR : win1_8.index t (0 : Fin 2) * 8000 + 1 * (j 0).val < 800000 := by omega
  have hq : win1_8.index t (1 : Fin 2) * 1 + 1 * (j 1).val < 1 := by omega
  have hqe : (⟨win1_8.index t (1 : Fin 2) * 1 + 1 * (j 1).val, hq⟩ : Fin 1) = ⟨(j 1).val, hj1⟩ := Fin.ext (by show _ * 1 + 1 * (j 1).val = (j 1).val; omega)
  show Cert.Spec.edgeGate (n := 8000) (iblk1 V c 0 t) (iblk1 V c 1 t) (iblk1 V c 2 t) (iblk1 V c 3 t) (iblk1 V c 4 t) (iblk1 V c 5 t) (iblk1 V c 6 t) (iblk1 V c 7 t)
      (ix2 (⟨(j 0).val, hj0⟩ : Fin 8000) (⟨(j 1).val, hj1⟩ : Fin 1))
    = Cert.Spec.edgeGate (n := 800000) (V c main_v28) (V c main_v20) (V c main_v35) (V c main_v30) (V c main_v32) (V c main_v37) (V c main_v39) (V c main_v41)
      (ix2 (⟨win1_8.index t (0 : Fin 2) * 8000 + 1 * (j 0).val, hR⟩ : Fin 800000) (⟨win1_8.index t (1 : Fin 2) * 1 + 1 * (j 1).val, hq⟩ : Fin 1))
  rw [hqe]
  refine edge_rows (V c main_v28) (V c main_v20) (V c main_v35) (iblk1 V c 0 t) (iblk1 V c 1 t) (iblk1 V c 2 t) (V c main_v30) (iblk1 V c 3 t) (V c main_v32) (iblk1 V c 4 t)
    (V c main_v37) (iblk1 V c 5 t) (V c main_v39) (iblk1 V c 6 t) (V c main_v41) (iblk1 V c 7 t) ?_ ?_ ?_ ?_ ?_ _ _ _ ?_ ?_ ?_
  · -- the head rows' first weights: the whole array at every point
    funext y
    show V c main_v30 (((cfg1.win 3).blk t).view.emb y) = V c main_v30 y
    refine congrArg _ (funext fun a => Fin.ext ?_)
    match a with
    | ⟨0, _⟩ => show win1_3.index t (0 : Fin 2) * 64 + 1 * (y 0).val = (y 0).val; omega
    | ⟨1, _⟩ => show win1_3.index t (1 : Fin 2) * 64 + 1 * (y 1).val = (y 1).val; omega
  · -- the tail rows' first weights
    funext y
    show V c main_v32 (((cfg1.win 4).blk t).view.emb y) = V c main_v32 y
    refine congrArg _ (funext fun a => Fin.ext ?_)
    match a with
    | ⟨0, _⟩ => show win1_4.index t (0 : Fin 2) * 64 + 1 * (y 0).val = (y 0).val; omega
    | ⟨1, _⟩ => show win1_4.index t (1 : Fin 2) * 64 + 1 * (y 1).val = (y 1).val; omega
  · -- the first bias
    funext y
    show V c main_v37 (((cfg1.win 5).blk t).view.emb y) = V c main_v37 y
    refine congrArg _ (funext fun a => Fin.ext ?_)
    match a with
    | ⟨0, _⟩ => show win1_5.index t (0 : Fin 1) * 64 + 1 * (y 0).val = (y 0).val; omega
  · -- the second weights
    funext y
    show V c main_v39 (((cfg1.win 6).blk t).view.emb y) = V c main_v39 y
    refine congrArg _ (funext fun a => Fin.ext ?_)
    match a with
    | ⟨0, _⟩ => show win1_6.index t (0 : Fin 2) * 64 + 1 * (y 0).val = (y 0).val; omega
    | ⟨1, _⟩ => show win1_6.index t (1 : Fin 2) * 1 + 1 * (y 1).val = (y 1).val; omega
  · -- the second bias
    funext y
    show V c main_v41 (((cfg1.win 7).blk t).view.emb y) = V c main_v41 y
    refine congrArg _ (funext fun a => Fin.ext ?_)
    match a with
    | ⟨0, _⟩ => show win1_7.index t (0 : Fin 1) * 1 + 1 * (y 0).val = (y 0).val; omega
  · -- the head rows' block row is the array's row
    intro j'
    show V c main_v28 (((cfg1.win 0).blk t).view.emb (ix2 (⟨(j 0).val, hj0⟩ : Fin 8000) j')) = V c main_v28 _
    refine congrArg _ (funext fun a => Fin.ext ?_)
    match a with
    | ⟨0, _⟩ => show win1_0.index t (0 : Fin 2) * 8000 + 1 * (j 0).val = win1_8.index t (0 : Fin 2) * 8000 + 1 * (j 0).val; omega
    | ⟨1, _⟩ => show win1_0.index t (1 : Fin 2) * 64 + 1 * j'.val = j'.val; omega
  · -- the tail rows' block row is the array's row
    intro j'
    show V c main_v20 (((cfg1.win 1).blk t).view.emb (ix2 (⟨(j 0).val, hj0⟩ : Fin 8000) j')) = V c main_v20 _
    refine congrArg _ (funext fun a => Fin.ext ?_)
    match a with
    | ⟨0, _⟩ => show win1_1.index t (0 : Fin 2) * 8000 + 1 * (j 0).val = win1_8.index t (0 : Fin 2) * 8000 + 1 * (j 0).val; omega
    | ⟨1, _⟩ => show win1_1.index t (1 : Fin 2) * 64 + 1 * j'.val = j'.val; omega
  · -- the noise's block entry is the array's entry
    show V c main_v35 (((cfg1.win 2).blk t).view.emb (ix2 (⟨(j 0).val, hj0⟩ : Fin 8000) (⟨(j 1).val, hj1⟩ : Fin 1))) = V c main_v35 _
    refine congrArg _ (funext fun a => Fin.ext ?_)
    match a with
    | ⟨0, _⟩ => show win1_2.index t (0 : Fin 2) * 8000 + 1 * (j 0).val = win1_8.index t (0 : Fin 2) * 8000 + 1 * (j 0).val; omega
    | ⟨1, _⟩ => show win1_2.index t (1 : Fin 2) * 1 + 1 * (j 1).val = (j 1).val; omega

/-- An index of the array is in point `t`'s block iff each coordinate is in the block's range on its axis. -/
theorem mem_blk1 (t : Fin cfg1.N) (i : S800000x1.Idx) :
    i ∈ ((cfg1.win 8).blk t).view.set ↔ ∀ a : Fin 2, win1_8.index t a * S8000x1.size a ≤ (i a).val
      ∧ (i a).val < win1_8.index t a * S8000x1.size a + S8000x1.size a := by
  show i ∈ ((View.whole main_v42).slice (win1_8.rect t)).set ↔ _
  rw [View.set_slice_whole, Rect.mem_set_unit]
  exact Iff.rfl

/-- The hundred blocks of edges cover the array: edge `r` lies in the block of point `r / 8000`. -/
theorem cover1 (i : S800000x1.Idx) :
    ∃ t : Fin cfg1.N, (cfg1.win 8).flush t = true ∧ i ∈ ((cfg1.win 8).blk t).view.set := by
  have hi0 : (i 0).val < 800000 := (i 0).isLt
  have hi1 : (i 1).val < 1 := (i 1).isLt
  have ht : (i 0).val / 8000 < 100 := by omega
  obtain ⟨T, hT⟩ : ∃ T : Fin cfg1.N, T.val = (i 0).val / 8000 := ⟨⟨(i 0).val / 8000, ht⟩, rfl⟩
  obtain ⟨-, -, -, -, -, -, -, -, -, -, -, -, -, -, e80, e81⟩ := idx_1 T
  refine ⟨T, flush1_8 T, ?_⟩
  rw [mem_blk1]
  intro a
  match a with
  | ⟨0, _⟩ =>
    show win1_8.index T (0 : Fin 2) * 8000 ≤ (i 0).val ∧ (i 0).val < win1_8.index T (0 : Fin 2) * 8000 + 8000
    omega
  | ⟨1, _⟩ =>
    show win1_8.index T (1 : Fin 2) * 1 ≤ (i 1).val ∧ (i 1).val < win1_8.index T (1 : Fin 2) * 1 + 1
    omega

/-- THE ARRAY after the region: `edgeGate` of the eight input arrays as the region finds them. -/
theorem arr1 (c : Dev nD) (dat : Dat τ (Elt Ideal) Unit ℕ (UR sig nD τ) ℕ cfg1 c)
    (hA : ∀ w, dat.A w = V c (Pipeline.arrRef spec1 w))
    (h8 : ∀ t, dat.after 8 t = out1_8 (iblk1 V c 0 t) (iblk1 V c 1 t) (iblk1 V c 2 t) (iblk1 V c 3 t) (iblk1 V c 4 t) (iblk1 V c 5 t) (iblk1 V c 6 t) (iblk1 V c 7 t)) :
    dat.arrAt 8 cfg1.N = Cert.Spec.edgeGate (n := 800000) (V c main_v28) (V c main_v20) (V c main_v35) (V c main_v30) (V c main_v32) (V c main_v37) (V c main_v39) (V c main_v41) :=
  dat.arrAt_eq_of_cover 8 (G1 V c) (fun t _ => flushed1 V c dat h8 t) cover1

end Cert.KernelIdeal.HandValue

end
-- ==== Proof.KIValue2.lean ====
/-
  Region 2 (the node perceptron of layer 2): the array the region leaves.

  The body's stored value is `gated` of its six loaded blocks; the block of the features and of the noise at grid
  point `t` is rows `10000 t … 10000 t + 9999` of their arrays, the weight and bias windows are their whole arrays at
  every point; `gated` at a row reads only that row, so what point `t` writes back is block `t` of `gated` of the whole
  arrays. The ten blocks cover the output array, hence the array ends holding `gated` of the whole arrays.
-/
import proofs.«170728_j33028298506953_2_alg».proof.Proof.KIBlocks
import proofs.«170728_j33028298506953_2_alg».proof.Proof.LibNodeRows
import Idealize.ShloMosaic.Lib.Pipeline.Value

noncomputable section

namespace Cert.KernelIdeal.HandValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-- The zero offsets of a whole-block rectangle, rank two and rank one. -/
theorem zeros2_2 : (![0, 0] : Fin 2 → Nat) = fun _ => 0 := funext fun a => by fin_cases a <;> rfl
theorem zeros1_2 : (![0] : Fin 1 → Nat) = fun _ => 0 := funext fun a => by fin_cases a <;> rfl

/-- The body's stored value is `gated` of the six loaded blocks. -/
theorem out2_6_eq (x0 x1 : Vec Ideal S10000x64 .f32) (x2 : Vec Ideal S64x64 .f32) (x3 : Vec Ideal S64 .f32)
    (x4 : Vec Ideal S64x64 .f32) (x5 : Vec Ideal S64 .f32) :
    out2_6 (F := Ideal) x0 x1 x2 x3 x4 x5 = Cert.Spec.gated (n := 10000) x0 x1 x2 x3 x4 x5 := by
  unfold out2_6
  rw [View.canon_unit_zero zeros2_2]
  simp only [View.ld_unit_zero (S := S10000x64) zeros2_2, View.ld_unit_zero (S := S64x64) zeros2_2,
    View.ld_unit_zero (S := S64) zeros1_2]
  exact pay2_eq x0 x1 x2 x3 x4 x5

/-- The windows' block indices, decided over the grid: the features, the noise and the output move one block of
    rows per point; the weights and biases stay at block zero. -/
theorem idx_2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- What the region's output array ends holding. -/
abbrev G2 (c : Dev nD) : FVec Ideal ⟨2, ![100000, 64]⟩ .f32 :=
  Cert.Spec.gated (n := 100000) (V c main_v78) (V c main_v83) (V c main_v85) (V c main_v87) (V c main_v89) (V c main_v91)

/-- What point `t` writes back is block `t` of `gated` of the whole arrays: rows `10000 t …` of the features and the
    noise, the weights and biases whole. -/
theorem flushed2 (c : Dev nD) (dat : Dat τ (Elt Ideal) Unit ℕ (UR sig nD τ) ℕ cfg2 c)
    (h6 : ∀ t, dat.after 6 t = out2_6 (iblk2 V c 0 t) (iblk2 V c 1 t) (iblk2 V c 2 t) (iblk2 V c 3 t) (iblk2 V c 4 t) (iblk2 V c 5 t))
    (t : Fin cfg2.N) :
    dat.flushed 6 t = ((cfg2.win 6).blk t).view.read (Elt Ideal) (G2 V c) := by
  show (cfg2.win 6).cut (grid2.coords t) (dat.after 6 t) = _
  have e := out2_6_eq (iblk2 V c 0 t) (iblk2 V c 1 t) (iblk2 V c 2 t) (iblk2 V c 3 t) (iblk2 V c 4 t) (iblk2 V c 5 t)
  rw [h6, e]
  obtain ⟨e00, e01, e10, e11, e20, e21, e30, e40, e41, e50, e60, e61⟩ := idx_2 t
  funext j
  have hj0 : (j 0).val < 10000 := (j 0).isLt
  have hj1 : (j 1).val < 64 := (j 1).isLt
  have ht : t.val < 10 := t.isLt
  have hR : win2_6.index t (0 : Fin 2) * 10000 + 1 * (j 0).val < 100000 := by omega
  have hq : win2_6.index t (1 : Fin 2) * 64 + 1 * (j 1).val < 64 := by omega
  have hqe : (⟨win2_6.index t (1 : Fin 2) * 64 + 1 * (j 1).val, hq⟩ : Fin 64) = ⟨(j 1).val, hj1⟩ := Fin.ext (by show _ * 64 + 1 * (j 1).val = (j 1).val; omega)
  show Cert.Spec.gated (n := 10000) (iblk2 V c 0 t) (iblk2 V c 1 t) (iblk2 V c 2 t) (iblk2 V c 3 t) (iblk2 V c 4 t) (iblk2 V c 5 t)
      (ix2 (⟨(j 0).val, hj0⟩ : Fin 10000) (⟨(j 1).val, hj1⟩ : Fin 64))
    = Cert.Spec.gated (n := 100000) (V c main_v78) (V c main_v83) (V c main_v85) (V c main_v87) (V c main_v89) (V c main_v91)
      (ix2 (⟨win2_6.index t (0 : Fin 2) * 10000 + 1 * (j 0).val, hR⟩ : Fin 100000) (⟨win2_6.index t (1 : Fin 2) * 64 + 1 * (j 1).val, hq⟩ : Fin 64))
  rw [hqe]
  refine gated_rows (V c main_v78) (V c main_v83) (iblk2 V c 0 t) (iblk2 V c 1 t) (V c main_v85) (iblk2 V c 2 t) (V c main_v87) (iblk2 V c 3 t)
    (V c main_v89) (iblk2 V c 4 t) (V c main_v91) (iblk2 V c 5 t) ?_ ?_ ?_ ?_ _ _ _ ?_ ?_
  · -- the first weights' window is the whole array at every point
    funext y
    show V c main_v85 (((cfg2.win 2).blk t).view.emb y) = V c main_v85 y
    refine congrArg _ (funext fun a => Fin.ext ?_)
    match a with
    | ⟨0, _⟩ => show win2_2.index t (0 : Fin 2) * 64 + 1 * (y 0).val = (y 0).val; omega
    | ⟨1, _⟩ => show win2_2.index t (1 : Fin 2) * 64 + 1 * (y 1).val = (y 1).val; omega
  · -- the first bias likewise
    funext y
    show V c main_v87 (((cfg2.win 3).blk t).view.emb y) = V c main_v87 y
    refine congrArg _ (funext fun a => Fin.ext ?_)
    match a with
    | ⟨0, _⟩ => show win2_3.index t (0 : Fin 1) * 64 + 1 * (y 0).val = (y 0).val; omega
  · -- the second weights
    funext y
    show V c main_v89 (((cfg2.win 4).blk t).view.emb y) = V c main_v89 y
    refine congrArg _ (funext fun a => Fin.ext ?_)
    match a with
    | ⟨0, _⟩ => show win2_4.index t (0 : Fin 2) * 64 + 1 * (y 0).val = (y 0).val; omega
    | ⟨1, _⟩ => show win2_4.index t (1 : Fin 2) * 64 + 1 * (y 1).val = (y 1).val; omega
  · -- the second bias
    funext y
    show V c main_v91 (((cfg2.win 5).blk t).view.emb y) = V c main_v91 y
    refine congrArg _ (funext fun a => Fin.ext ?_)
    match a with
    | ⟨0, _⟩ => show win2_5.index t (0 : Fin 1) * 64 + 1 * (y 0).val = (y 0).val; omega
  · -- the features' block row is the array's row
    intro j'
    show V c main_v78 (((cfg2.win 0).blk t).view.emb (ix2 (⟨(j 0).val, hj0⟩ : Fin 10000) j')) = V c main_v78 _
    refine congrArg _ (funext fun a => Fin.ext ?_)
    match a with
    | ⟨0, _⟩ => show win2_0.index t (0 : Fin 2) * 10000 + 1 * (j 0).val = win2_6.index t (0 : Fin 2) * 10000 + 1 * (j 0).val; omega
    | ⟨1, _⟩ => show win2_0.index t (1 : Fin 2) * 64 + 1 * j'.val = j'.val; omega
  · -- the noise's block row is the array's row
    intro j'
    show V c main_v83 (((cfg2.win 1).blk t).view.emb (ix2 (⟨(j 0).val, hj0⟩ : Fin 10000) j')) = V c main_v83 _
    refine congrArg _ (funext fun a => Fin.ext ?_)
    match a with
    | ⟨0, _⟩ => show win2_1.index t (0 : Fin 2) * 10000 + 1 * (j 0).val = win2_6.index t (0 : Fin 2) * 10000 + 1 * (j 0).val; omega
    | ⟨1, _⟩ => show win2_1.index t (1 : Fin 2) * 64 + 1 * j'.val = j'.val; omega

/-- An index of the array is in point `t`'s block iff each coordinate is in the block's range on its axis. -/
theorem mem_blk2 (t : Fin cfg2.N) (i : S100000x64.Idx) :
    i ∈ ((cfg2.win 6).blk t).view.set ↔ ∀ a : Fin 2, win2_6.index t a * S10000x64.size a ≤ (i a).val
      ∧ (i a).val < win2_6.index t a * S10000x64.size a + S10000x64.size a := by
  show i ∈ ((View.whole main_v92).slice (win2_6.rect t)).set ↔ _
  rw [View.set_slice_whole, Rect.mem_set_unit]
  exact Iff.rfl

/-- The ten blocks of rows cover the array: row `r` lies in the block of point `r / 10000`. -/
theorem cover2 (i : S100000x64.Idx) :
    ∃ t : Fin cfg2.N, (cfg2.win 6).flush t = true ∧ i ∈ ((cfg2.win 6).blk t).view.set := by
  have hi0 : (i 0).val < 100000 := (i 0).isLt
  have hi1 : (i 1).val < 64 := (i 1).isLt
  have ht : (i 0).val / 10000 < 10 := by omega
  obtain ⟨T, hT⟩ : ∃ T : Fin cfg2.N, T.val = (i 0).val / 10000 := ⟨⟨(i 0).val / 10000, ht⟩, rfl⟩
  obtain ⟨-, -, -, -, -, -, -, -, -, -, e60, e61⟩ := idx_2 T
  refine ⟨T, flush2_6 T, ?_⟩
  rw [mem_blk2]
  intro a
  match a with
  | ⟨0, _⟩ =>
    show win2_6.index T (0 : Fin 2) * 10000 ≤ (i 0).val ∧ (i 0).val < win2_6.index T (0 : Fin 2) * 10000 + 10000
    omega
  | ⟨1, _⟩ =>
    show win2_6.index T (1 : Fin 2) * 64 ≤ (i 1).val ∧ (i 1).val < win2_6.index T (1 : Fin 2) * 64 + 64
    omega

/-- THE ARRAY after the region: `gated` of the six input arrays as the region finds them. -/
theorem arr2 (c : Dev nD) (dat : Dat τ (Elt Ideal) Unit ℕ (UR sig nD τ) ℕ cfg2 c)
    (hA : ∀ w, dat.A w = V c (Pipeline.arrRef spec2 w))
    (h6 : ∀ t, dat.after 6 t = out2_6 (iblk2 V c 0 t) (iblk2 V c 1 t) (iblk2 V c 2 t) (iblk2 V c 3 t) (iblk2 V c 4 t) (iblk2 V c 5 t)) :
    dat.arrAt 6 cfg2.N = Cert.Spec.gated (n := 100000) (V c main_v78) (V c main_v83) (V c main_v85) (V c main_v87) (V c main_v89) (V c main_v91) :=
  dat.arrAt_eq_of_cover 6 (G2 V c) (fun t _ => flushed2 V c dat h6 t) cover2

end Cert.KernelIdeal.HandValue

end
-- ==== Proof.KIValue3.lean ====
/-
  Region 3 (the edge perceptron of layer 2): the array the region leaves.

  The body's stored value is `edgeGate` of its eight loaded blocks; the block of the head rows, of the tail rows and
  of the noise at grid point `t` is edges `8000 t … 8000 t + 7999` of their arrays, the weight and bias windows are
  their whole arrays at every point; `edgeGate` at an edge reads only that edge's rows, so what point `t` writes back
  is block `t` of `edgeGate` of the whole arrays. The hundred blocks cover the output array, hence the array ends
  holding `edgeGate` of the whole arrays.
-/
import proofs.«170728_j33028298506953_2_alg».proof.Proof.KIBlocks
import proofs.«170728_j33028298506953_2_alg».proof.Proof.LibEdgeRows
import Idealize.ShloMosaic.Lib.Pipeline.Value

noncomputable section

namespace Cert.KernelIdeal.HandValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-- The zero offsets of a whole-block rectangle, rank two and rank one. -/
theorem zeros2_3 : (![0, 0] : Fin 2 → Nat) = fun _ => 0 := funext fun a => by fin_cases a <;> rfl
theorem zeros1_3 : (![0] : Fin 1 → Nat) = fun _ => 0 := funext fun a => by fin_cases a <;> rfl

/-- The body's stored value is `edgeGate` of the eight loaded blocks. -/
theorem out3_8_eq (x0 x1 : Vec Ideal S8000x64 .f32) (x2 : Vec Ideal S8000x1 .f32) (x3 x4 : Vec Ideal S64x64 .f32)
    (x5 : Vec Ideal S64 .f32) (x6 : Vec Ideal S64x1 .f32) (x7 : Vec Ideal S1 .f32) :
    out3_8 (F := Ideal) x0 x1 x2 x3 x4 x5 x6 x7 = Cert.Spec.edgeGate (n := 8000) x0 x1 x2 x3 x4 x5 x6 x7 := by
  unfold out3_8
  rw [View.canon_unit_zero zeros2_3]
  simp only [View.ld_unit_zero (S := S8000x64) zeros2_3, View.ld_unit_zero (S := S8000x1) zeros2_3,
    View.ld_unit_zero (S := S64x64) zeros2_3, View.ld_unit_zero (S := S64x1) zeros2_3,
    View.ld_unit_zero (S := S64) zeros1_3, View.ld_unit_zero (S := S1) zeros1_3]
  exact pay3_eq x0 x1 x2 x3 x4 x5 x6 x7

/-- The windows' block indices, decided over the grid: the head rows, the tail rows, the noise and the output move
    one block of edges per point; the weights and biases stay at block zero. -/
theorem idx_3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 1) = 0
    ∧ win3_6.index t (0 : Fin 2) = 0 ∧ win3_6.index t (1 : Fin 2) = 0
    ∧ win3_7.index t (0 : Fin 1) = 0
    ∧ win3_8.index t (0 : Fin 2) = t.val ∧ win3_8.index t (1 : Fin 2) = 0 :=
  (by decide +kernel : ∀ t : Fin grid3.N, _)

/-- What the region's output array ends holding. -/
abbrev G3 (c : Dev nD) : FVec Ideal ⟨2, ![800000, 1]⟩ .f32 :=
  Cert.Spec.edgeGate (n := 800000) (V c main_v110) (V c main_v102) (V c main_v117) (V c main_v112) (V c main_v114) (V c main_v119) (V c main_v121) (V c main_v123)

/-- What point `t` writes back is block `t` of `edgeGate` of the whole arrays: edges `8000 t …` of the head rows, the
    tail rows and the noise, the weights and biases whole. -/
theorem flushed3 (c : Dev nD) (dat : Dat τ (Elt Ideal) Unit ℕ (UR sig nD τ) ℕ cfg3 c)
    (h8 : ∀ t, dat.after 8 t = out3_8 (iblk3 V c 0 t) (iblk3 V c 1 t) (iblk3 V c 2 t) (iblk3 V c 3 t) (iblk3 V c 4 t) (iblk3 V c 5 t) (iblk3 V c 6 t) (iblk3 V c 7 t))
    (t : Fin cfg3.N) :
    dat.flushed 8 t = ((cfg3.win 8).blk t).view.read (Elt Ideal) (G3 V c) := by
  show (cfg3.win 8).cut (grid3.coords t) (dat.after 8 t) = _
  have e := out3_8_eq (iblk3 V c 0 t) (iblk3 V c 1 t) (iblk3 V c 2 t) (iblk3 V c 3 t) (iblk3 V c 4 t) (iblk3 V c 5 t) (iblk3 V c 6 t) (iblk3 V c 7 t)
  rw [h8, e]
  obtain ⟨e00, e01, e10, e11, e20, e21, e30, e31, e40, e41, e50, e60, e61, e70, e80, e81⟩ := idx_3 t
  funext j
  have hj0 : (j 0).val < 8000 := (j 0).isLt
  have hj1 : (j 1).val < 1 := (j 1).isLt
  have ht : t.val < 100 := t.isLt
  have hR : win3_8.index t (0 : Fin 2) * 8000 + 1 * (j 0).val < 800000 := by omega
  have hq : win3_8.index t (1 : Fin 2) * 1 + 1 * (j 1).val < 1 := by omega
  have hqe : (⟨win3_8.index t (1 : Fin 2) * 1 + 1 * (j 1).val, hq⟩ : Fin 1) = ⟨(j 1).val, hj1⟩ := Fin.ext (by show _ * 1 + 1 * (j 1).val = (j 1).val; omega)
  show Cert.Spec.edgeGate (n := 8000) (iblk3 V c 0 t) (iblk3 V c 1 t) (iblk3 V c 2 t) (iblk3 V c 3 t) (iblk3 V c 4 t) (iblk3 V c 5 t) (iblk3 V c 6 t) (iblk3 V c 7 t)
      (ix2 (⟨(j 0).val, hj0⟩ : Fin 8000) (⟨(j 1).val, hj1⟩ : Fin 1))
    = Cert.Spec.edgeGate (n := 800000) (V c main_v110) (V c main_v102) (V c main_v117) (V c main_v112) (V c main_v114) (V c main_v119) (V c main_v121) (V c main_v123)
      (ix2 (⟨win3_8.index t (0 : Fin 2) * 8000 + 1 * (j 0).val, hR⟩ : Fin 800000) (⟨win3_8.index t (1 : Fin 2) * 1 + 1 * (j 1).val, hq⟩ : Fin 1))
  rw [hqe]
  refine edge_rows (V c main_v110) (V c main_v102) (V c main_v117) (iblk3 V c 0 t) (iblk3 V c 1 t) (iblk3 V c 2 t) (V c main_v112) (iblk3 V c 3 t) (V c main_v114) (iblk3 V c 4 t)
    (V c main_v119) (iblk3 V c 5 t) (V c main_v121) (iblk3 V c 6 t) (V c main_v123) (iblk3 V c 7 t) ?_ ?_ ?_ ?_ ?_ _ _ _ ?_ ?_ ?_
  · -- the head rows' first weights: the whole array at every point
    funext y
    show V c main_v112 (((cfg3.win 3).blk t).view.emb y) = V c main_v112 y
    refine congrArg _ (funext fun a => Fin.ext ?_)
    match a with
    | ⟨0, _⟩ => show win3_3.index t (0 : Fin 2) * 64 + 1 * (y 0).val = (y 0).val; omega
    | ⟨1, _⟩ => show win3_3.index t (1 : Fin 2) * 64 + 1 * (y 1).val = (y 1).val; omega
  · -- the tail rows' first weights
    funext y
    show V c main_v114 (((cfg3.win 4).blk t).view.emb y) = V c main_v114 y
    refine congrArg _ (funext fun a => Fin.ext ?_)
    match a with
    | ⟨0, _⟩ => show win3_4.index t (0 : Fin 2) * 64 + 1 * (y 0).val = (y 0).val; omega
    | ⟨1, _⟩ => show win3_4.index t (1 : Fin 2) * 64 + 1 * (y 1).val = (y 1).val; omega
  · -- the first bias
    funext y
    show V c main_v119 (((cfg3.win 5).blk t).view.emb y) = V c main_v119 y
    refine congrArg _ (funext fun a => Fin.ext ?_)
    match a with
    | ⟨0, _⟩ => show win3_5.index t (0 : Fin 1) * 64 + 1 * (y 0).val = (y 0).val; omega
  · -- the second weights
    funext y
    show V c main_v121 (((cfg3.win 6).blk t).view.emb y) = V c main_v121 y
    refine congrArg _ (funext fun a => Fin.ext ?_)
    match a with
    | ⟨0, _⟩ => show win3_6.index t (0 : Fin 2) * 64 + 1 * (y 0).val = (y 0).val; omega
    | ⟨1, _⟩ => show win3_6.index t (1 : Fin 2) * 1 + 1 * (y 1).val = (y 1).val; omega
  · -- the second bias
    funext y
    show V c main_v123 (((cfg3.win 7).blk t).view.emb y) = V c main_v123 y
    refine congrArg _ (funext fun a => Fin.ext ?_)
    match a with
    | ⟨0, _⟩ => show win3_7.index t (0 : Fin 1) * 1 + 1 * (y 0).val = (y 0).val; omega
  · -- the head rows' block row is the array's row
    intro j'
    show V c main_v110 (((cfg3.win 0).blk t).view.emb (ix2 (⟨(j 0).val, hj0⟩ : Fin 8000) j')) = V c main_v110 _
    refine congrArg _ (funext fun a => Fin.ext ?_)
    match a with
    | ⟨0, _⟩ => show win3_0.index t (0 : Fin 2) * 8000 + 1 * (j 0).val = win3_8.index t (0 : Fin 2) * 8000 + 1 * (j 0).val; omega
    | ⟨1, _⟩ => show win3_0.index t (1 : Fin 2) * 64 + 1 * j'.val = j'.val; omega
  · -- the tail rows' block row is the array's row
    intro j'
    show V c main_v102 (((cfg3.win 1).blk t).view.emb (ix2 (⟨(j 0).val, hj0⟩ : Fin 8000) j')) = V c main_v102 _
    refine congrArg _ (funext fun a => Fin.ext ?_)
    match a with
    | ⟨0, _⟩ => show win3_1.index t (0 : Fin 2) * 8000 + 1 * (j 0).val = win3_8.index t (0 : Fin 2) * 8000 + 1 * (j 0).val; omega
    | ⟨1, _⟩ => show win3_1.index t (1 : Fin 2) * 64 + 1 * j'.val = j'.val; omega
  · -- the noise's block entry is the array's entry
    show V c main_v117 (((cfg3.win 2).blk t).view.emb (ix2 (⟨(j 0).val, hj0⟩ : Fin 8000) (⟨(j 1).val, hj1⟩ : Fin 1))) = V c main_v117 _
    refine congrArg _ (funext fun a => Fin.ext ?_)
    match a with
    | ⟨0, _⟩ => show win3_2.index t (0 : Fin 2) * 8000 + 1 * (j 0).val = win3_8.index t (0 : Fin 2) * 8000 + 1 * (j 0).val; omega
    | ⟨1, _⟩ => show win3_2.index t (1 : Fin 2) * 1 + 1 * (j 1).val = (j 1).val; omega

/-- An index of the array is in point `t`'s block iff each coordinate is in the block's range on its axis. -/
theorem mem_blk3 (t : Fin cfg3.N) (i : S800000x1.Idx) :
    i ∈ ((cfg3.win 8).blk t).view.set ↔ ∀ a : Fin 2, win3_8.index t a * S8000x1.size a ≤ (i a).val
      ∧ (i a).val < win3_8.index t a * S8000x1.size a + S8000x1.size a := by
  show i ∈ ((View.whole main_v124).slice (win3_8.rect t)).set ↔ _
  rw [View.set_slice_whole, Rect.mem_set_unit]
  exact Iff.rfl

/-- The hundred blocks of edges cover the array: edge `r` lies in the block of point `r / 8000`. -/
theorem cover3 (i : S800000x1.Idx) :
    ∃ t : Fin cfg3.N, (cfg3.win 8).flush t = true ∧ i ∈ ((cfg3.win 8).blk t).view.set := by
  have hi0 : (i 0).val < 800000 := (i 0).isLt
  have hi1 : (i 1).val < 1 := (i 1).isLt
  have ht : (i 0).val / 8000 < 100 := by omega
  obtain ⟨T, hT⟩ : ∃ T : Fin cfg3.N, T.val = (i 0).val / 8000 := ⟨⟨(i 0).val / 8000, ht⟩, rfl⟩
  obtain ⟨-, -, -, -, -, -, -, -, -, -, -, -, -, -, e80, e81⟩ := idx_3 T
  refine ⟨T, flush3_8 T, ?_⟩
  rw [mem_blk3]
  intro a
  match a with
  | ⟨0, _⟩ =>
    show win3_8.index T (0 : Fin 2) * 8000 ≤ (i 0).val ∧ (i 0).val < win3_8.index T (0 : Fin 2) * 8000 + 8000
    omega
  | ⟨1, _⟩ =>
    show win3_8.index T (1 : Fin 2) * 1 ≤ (i 1).val ∧ (i 1).val < win3_8.index T (1 : Fin 2) * 1 + 1
    omega

/-- THE ARRAY after the region: `edgeGate` of the eight input arrays as the region finds them. -/
theorem arr3 (c : Dev nD) (dat : Dat τ (Elt Ideal) Unit ℕ (UR sig nD τ) ℕ cfg3 c)
    (hA : ∀ w, dat.A w = V c (Pipeline.arrRef spec3 w))
    (h8 : ∀ t, dat.after 8 t = out3_8 (iblk3 V c 0 t) (iblk3 V c 1 t) (iblk3 V c 2 t) (iblk3 V c 3 t) (iblk3 V c 4 t) (iblk3 V c 5 t) (iblk3 V c 6 t) (iblk3 V c 7 t)) :
    dat.arrAt 8 cfg3.N = Cert.Spec.edgeGate (n := 800000) (V c main_v110) (V c main_v102) (V c main_v117) (V c main_v112) (V c main_v114) (V c main_v119) (V c main_v121) (V c main_v123) :=
  dat.arrAt_eq_of_cover 8 (G3 V c) (fun t _ => flushed3 V c dat h8 t) cover3

end Cert.KernelIdeal.HandValue

end
-- ==== Proof.KIOuts.lean ====
/-
  The four regions' outputs are the specification's functions of their operand arrays.

  Each output array was named as the final array of its region's proof data; the value theorem of the region says
  that array is the gated node features (regions 0 and 2) or the edge weights (regions 1 and 3) of the arrays the
  region was entered with. Read at the fold's contents before each region — which depend only on the outputs of the
  regions before it — these are the four facts the comparison with the reference program starts from.
-/
import proofs.«170728_j33028298506953_2_alg».proof.Proof.KIRun
import proofs.«170728_j33028298506953_2_alg».proof.Proof.KIValue0
import proofs.«170728_j33028298506953_2_alg».proof.Proof.KIValue1
import proofs.«170728_j33028298506953_2_alg».proof.Proof.KIValue2
import proofs.«170728_j33028298506953_2_alg».proof.Proof.KIValue3

noncomputable section

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ)

/-- Region 0 leaves the gated features of layer 1. -/
theorem out2 (c : Dev nD) :
    outs m 2 main_v10 c = Cert.Spec.gated (n := 100000) (V1 m c main_arg0) (V1 m c main_v1) (V1 m c main_v3) (V1 m c main_v5)
      (V1 m c main_v7) (V1 m c main_v9) :=
  (outs_main_v10 m 2 c).trans
    (Cert.KernelIdeal.HandValue.arr0 (entry0 m) c (dat0 (entry0 m) c) (A_eq0 (entry0 m) c) (after0_6 (entry0 m) c))

/-- Region 1 leaves the edge weights of layer 1. -/
theorem out4 (c : Dev nD) :
    outs m 4 main_v42 c = Cert.Spec.edgeGate (n := 800000) (V3 m (outs m) c main_v28) (V3 m (outs m) c main_v20)
      (V3 m (outs m) c main_v35) (V3 m (outs m) c main_v30) (V3 m (outs m) c main_v32) (V3 m (outs m) c main_v37)
      (V3 m (outs m) c main_v39) (V3 m (outs m) c main_v41) := by
  rw [outs_main_v42, V3_outs]
  exact Cert.KernelIdeal.HandValue.arr1 (entry1 m) c (dat1 (entry1 m) c) (A_eq1 (entry1 m) c) (after1_8 (entry1 m) c)

/-- Region 2 leaves the gated features of layer 2. -/
theorem out8 (c : Dev nD) :
    outs m 8 main_v92 c = Cert.Spec.gated (n := 100000) (V7 m (outs m) c main_v78) (V7 m (outs m) c main_v83)
      (V7 m (outs m) c main_v85) (V7 m (outs m) c main_v87) (V7 m (outs m) c main_v89) (V7 m (outs m) c main_v91) := by
  rw [outs_main_v92, V7_outs]
  exact Cert.KernelIdeal.HandValue.arr2 (entry2 m) c (dat2 (entry2 m) c) (A_eq2 (entry2 m) c) (after2_6 (entry2 m) c)

/-- Region 3 leaves the edge weights of layer 2. -/
theorem out10 (c : Dev nD) :
    outs m 10 main_v124 c = Cert.Spec.edgeGate (n := 800000) (V9 m (outs m) c main_v110) (V9 m (outs m) c main_v102)
      (V9 m (outs m) c main_v117) (V9 m (outs m) c main_v112) (V9 m (outs m) c main_v114) (V9 m (outs m) c main_v119)
      (V9 m (outs m) c main_v121) (V9 m (outs m) c main_v123) := by
  rw [outs_main_v124, V9_outs]
  exact Cert.KernelIdeal.HandValue.arr3 (entry3 m) c (dat3 (entry3 m) c) (A_eq3 (entry3 m) c) (after3_8 (entry3 m) c)

end Cert.KernelIdeal.Hand

end
-- ==== Proof.RefRunHandOps.lean ====
/- The reference program as lists of host operations, one list per printed function.

  The program is a straight line of 336 array operations, printed as 6 functions run one after the other. Each list
  below holds one function's operations in order (an outlined helper's operations stand where it is called), so that
  running the list is running that function.
-/
import proofs.«170728_j33028298506953_2_alg».proof.Proof.Gen.ReferenceIdeal
import Idealize.ShloMosaic.Lib.StableHlo.Run

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 1 to 60 of the program. -/
def ops0 : List (HloOp τ sig (Elt F)) :=
  [ unary main_arg3 main_v0 (broadcastInDim S800000x1 ![0] bcast_S800000_S800000x1_0 : (⟨S800000, .f32⟩ : BufTy).Contents (Elt F) → (⟨S800000x1, .f32⟩ : BufTy).Contents (Elt F)),
    nullary main_c (constantI S_ 32 0#32),
    unary main_c main_v1 (broadcastInDim S800000 ![] bcast_S_S800000 : (⟨S_, .i32⟩ : BufTy).Contents (Elt F) → (⟨S800000, .i32⟩ : BufTy).Contents (Elt F)),
    binary main_arg2 main_v1 main_v2 (cmpi .slt : (⟨S800000, .i32⟩ : BufTy).Contents (Elt F) → (⟨S800000, .i32⟩ : BufTy).Contents (Elt F) → (⟨S800000, .i1⟩ : BufTy).Contents (Elt F)),
    nullary main_c_0 (constantI S_ 32 100000#32),
    unary main_c_0 main_v3 (broadcastInDim S800000 ![] bcast_S_S800000 : (⟨S_, .i32⟩ : BufTy).Contents (Elt F) → (⟨S800000, .i32⟩ : BufTy).Contents (Elt F)),
    binary main_arg2 main_v3 main_v4 (addi : (⟨S800000, .i32⟩ : BufTy).Contents (Elt F) → (⟨S800000, .i32⟩ : BufTy).Contents (Elt F) → (⟨S800000, .i32⟩ : BufTy).Contents (Elt F)),
    ternary main_v2 main_v4 main_arg2 main_v5 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v5 main_v6 (broadcastInDim S800000x1 ![0] bcast_S800000_S800000x1_0 : (⟨S800000, .i32⟩ : BufTy).Contents (Elt F) → (⟨S800000x1, .i32⟩ : BufTy).Contents (Elt F)),
    binary main_arg0 main_v6 main_v7 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    unary main_v0 main_v8 (broadcastInDim S800000x64 ![0, 1] bcast_S800000x1_S800000x64_0_1 : (⟨S800000x1, .f32⟩ : BufTy).Contents (Elt F) → (⟨S800000x64, .f32⟩ : BufTy).Contents (Elt F)),
    binary main_v8 main_v7 main_v9 (mulf : (⟨S800000x64, .f32⟩ : BufTy).Contents (Elt F) → (⟨S800000x64, .f32⟩ : BufTy).Contents (Elt F) → (⟨S800000x64, .f32⟩ : BufTy).Contents (Elt F)),
    nullary main_cst (constant S_ .f32 0x00000000#32),
    unary main_cst main_v10 (broadcastInDim S100000x64 ![] bcast_S_S100000x64 : (⟨S_, .f32⟩ : BufTy).Contents (Elt F) → (⟨S100000x64, .f32⟩ : BufTy).Contents (Elt F)),
    unary main_arg1 main_v11 (broadcastInDim S800000x1 ![0] bcast_S800000_S800000x1_0 : (⟨S800000, .i32⟩ : BufTy).Contents (Elt F) → (⟨S800000x1, .i32⟩ : BufTy).Contents (Elt F)),
    ternary main_v10 main_v11 main_v9 main_v12 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    nullary main_c_1 (constantI S_ 32 0#32),
    unary main_c_1 main_v13 (broadcastInDim S800000 ![] bcast_S_S800000 : (⟨S_, .i32⟩ : BufTy).Contents (Elt F) → (⟨S800000, .i32⟩ : BufTy).Contents (Elt F)),
    binary main_arg1 main_v13 main_v14 (cmpi .slt : (⟨S800000, .i32⟩ : BufTy).Contents (Elt F) → (⟨S800000, .i32⟩ : BufTy).Contents (Elt F) → (⟨S800000, .i1⟩ : BufTy).Contents (Elt F)),
    nullary main_c_2 (constantI S_ 32 100000#32),
    unary main_c_2 main_v15 (broadcastInDim S800000 ![] bcast_S_S800000 : (⟨S_, .i32⟩ : BufTy).Contents (Elt F) → (⟨S800000, .i32⟩ : BufTy).Contents (Elt F)),
    binary main_arg1 main_v15 main_v16 (addi : (⟨S800000, .i32⟩ : BufTy).Contents (Elt F) → (⟨S800000, .i32⟩ : BufTy).Contents (Elt F) → (⟨S800000, .i32⟩ : BufTy).Contents (Elt F)),
    ternary main_v14 main_v16 main_arg1 main_v17 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v17 main_v18 (broadcastInDim S800000x1 ![0] bcast_S800000_S800000x1_0 : (⟨S800000, .i32⟩ : BufTy).Contents (Elt F) → (⟨S800000x1, .i32⟩ : BufTy).Contents (Elt F)),
    binary main_arg0 main_v18 main_v19 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    nullary main_c_3 (constantI S_ 32 0#32),
    unary main_c_3 main_v20 (broadcastInDim S800000 ![] bcast_S_S800000 : (⟨S_, .i32⟩ : BufTy).Contents (Elt F) → (⟨S800000, .i32⟩ : BufTy).Contents (Elt F)),
    binary main_arg2 main_v20 main_v21 (cmpi .slt : (⟨S800000, .i32⟩ : BufTy).Contents (Elt F) → (⟨S800000, .i32⟩ : BufTy).Contents (Elt F) → (⟨S800000, .i1⟩ : BufTy).Contents (Elt F)),
    nullary main_c_4 (constantI S_ 32 100000#32),
    unary main_c_4 main_v22 (broadcastInDim S800000 ![] bcast_S_S800000 : (⟨S_, .i32⟩ : BufTy).Contents (Elt F) → (⟨S800000, .i32⟩ : BufTy).Contents (Elt F)),
    binary main_arg2 main_v22 main_v23 (addi : (⟨S800000, .i32⟩ : BufTy).Contents (Elt F) → (⟨S800000, .i32⟩ : BufTy).Contents (Elt F) → (⟨S800000, .i32⟩ : BufTy).Contents (Elt F)),
    ternary main_v21 main_v23 main_arg2 main_v24 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v24 main_v25 (broadcastInDim S800000x1 ![0] bcast_S800000_S800000x1_0 : (⟨S800000, .i32⟩ : BufTy).Contents (Elt F) → (⟨S800000x1, .i32⟩ : BufTy).Contents (Elt F)),
    binary main_arg0 main_v25 main_v26 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    binary main_v19 main_v26 main_v27 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    unary main_arg6 main_v28 ((extractStridedSlice S1x128x64 ![0, 0, 0] · slices_S2x128x64_S1x128x64_0_0_0) : (⟨S2x128x64, .f32⟩ : BufTy).Contents (Elt F) → (⟨S1x128x64, .f32⟩ : BufTy).Contents (Elt F)),
    reshape main_v28 main_v29 rfl shapeCasts_S1x128x64_S128x64,
    binary main_v27 main_v29 main_v30 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    unary main_arg7 main_v31 ((extractStridedSlice S1x64 ![0, 0] · slices_S2x64_S1x64_0_0) : (⟨S2x64, .f32⟩ : BufTy).Contents (Elt F) → (⟨S1x64, .f32⟩ : BufTy).Contents (Elt F)),
    reshape main_v31 main_v32 rfl shapeCasts_S1x64_S64,
    unary main_v32 main_v33 (broadcastInDim S1x64 ![1] bcast_S64_S1x64_1 : (⟨S64, .f32⟩ : BufTy).Contents (Elt F) → (⟨S1x64, .f32⟩ : BufTy).Contents (Elt F)),
    unary main_v33 main_v34 (broadcastInDim S800000x64 ![0, 1] bcast_S1x64_S800000x64_0_1 : (⟨S1x64, .f32⟩ : BufTy).Contents (Elt F) → (⟨S800000x64, .f32⟩ : BufTy).Contents (Elt F)),
    binary main_v30 main_v34 main_v35 (addf : (⟨S800000x64, .f32⟩ : BufTy).Contents (Elt F) → (⟨S800000x64, .f32⟩ : BufTy).Contents (Elt F) → (⟨S800000x64, .f32⟩ : BufTy).Contents (Elt F)),
    nullary main_cst_5 (constant S_ .f32 0x00000000#32),
    unary main_cst_5 main_v36 (broadcastInDim S800000x64 ![] bcast_S_S800000x64 : (⟨S_, .f32⟩ : BufTy).Contents (Elt F) → (⟨S800000x64, .f32⟩ : BufTy).Contents (Elt F)),
    binary main_v35 main_v36 main_v37 (maximumf : (⟨S800000x64, .f32⟩ : BufTy).Contents (Elt F) → (⟨S800000x64, .f32⟩ : BufTy).Contents (Elt F) → (⟨S800000x64, .f32⟩ : BufTy).Contents (Elt F)),
    unary main_arg8 main_v38 ((extractStridedSlice S1x64x1 ![0, 0, 0] · slices_S2x64x1_S1x64x1_0_0_0) : (⟨S2x64x1, .f32⟩ : BufTy).Contents (Elt F) → (⟨S1x64x1, .f32⟩ : BufTy).Contents (Elt F)),
    reshape main_v38 main_v39 rfl shapeCasts_S1x64x1_S64x1,
    binary main_v37 main_v39 main_v40 ((fun l r => Host.dotGeneral dot_S800000x64_S64x1_S800000x1_1_0_0_1_n_n none l r) : (⟨S800000x64, .f32⟩ : BufTy).Contents (Elt F) → (⟨S64x1, .f32⟩ : BufTy).Contents (Elt F) → (⟨S800000x1, .f32⟩ : BufTy).Contents (Elt F)),
    unary main_arg9 main_v41 ((extractStridedSlice S1x1 ![0, 0] · slices_S2x1_S1x1_0_0) : (⟨S2x1, .f32⟩ : BufTy).Contents (Elt F) → (⟨S1x1, .f32⟩ : BufTy).Contents (Elt F)),
    reshape main_v41 main_v42 rfl shapeCasts_S1x1_S1,
    unary main_v42 main_v43 (broadcastInDim S1x1 ![1] bcast_S1_S1x1_1 : (⟨S1, .f32⟩ : BufTy).Contents (Elt F) → (⟨S1x1, .f32⟩ : BufTy).Contents (Elt F)),
    unary main_v43 main_v44 (broadcastInDim S800000x1 ![0, 1] bcast_S1x1_S800000x1_0_1 : (⟨S1x1, .f32⟩ : BufTy).Contents (Elt F) → (⟨S800000x1, .f32⟩ : BufTy).Contents (Elt F)),
    binary main_v40 main_v44 main_v45 (addf : (⟨S800000x1, .f32⟩ : BufTy).Contents (Elt F) → (⟨S800000x1, .f32⟩ : BufTy).Contents (Elt F) → (⟨S800000x1, .f32⟩ : BufTy).Contents (Elt F)),
    unary main_arg4 main_v46 ((extractStridedSlice S1x800000 ![0, 0] · slices_S2x800000_S1x800000_0_0) : (⟨S2x800000, .f32⟩ : BufTy).Contents (Elt F) → (⟨S1x800000, .f32⟩ : BufTy).Contents (Elt F)),
    reshape main_v46 main_v47 rfl shapeCasts_S1x800000_S800000,
    unary main_v47 main_v48 (broadcastInDim S800000x1 ![0] bcast_S800000_S800000x1_0 : (⟨S800000, .f32⟩ : BufTy).Contents (Elt F) → (⟨S800000x1, .f32⟩ : BufTy).Contents (Elt F)),
    binary main_v48 main_v45 main_v49 (addf : (⟨S800000x1, .f32⟩ : BufTy).Contents (Elt F) → (⟨S800000x1, .f32⟩ : BufTy).Contents (Elt F) → (⟨S800000x1, .f32⟩ : BufTy).Contents (Elt F)),
    nullary main_cst_6 (constant S_ .f32 0x3F800000#32),
    unary main_cst_6 main_v50 (broadcastInDim S800000x1 ![] bcast_S_S800000x1 : (⟨S_, .f32⟩ : BufTy).Contents (Elt F) → (⟨S800000x1, .f32⟩ : BufTy).Contents (Elt F)) ]

set_option maxHeartbeats 4000000 in
/-- Operations 61 to 122 of the program. -/
def ops1 : List (HloOp τ sig (Elt F)) :=
  [ binary main_v49 main_v50 main_v51 (Host.divf : (⟨S800000x1, .f32⟩ : BufTy).Contents (Elt F) → (⟨S800000x1, .f32⟩ : BufTy).Contents (Elt F) → (⟨S800000x1, .f32⟩ : BufTy).Contents (Elt F)),
    unary main_v51 main_v52 (Host.negf : (⟨S800000x1, .f32⟩ : BufTy).Contents (Elt F) → (⟨S800000x1, .f32⟩ : BufTy).Contents (Elt F)),
    unary main_v52 main_v53 (Host.exp : (⟨S800000x1, .f32⟩ : BufTy).Contents (Elt F) → (⟨S800000x1, .f32⟩ : BufTy).Contents (Elt F)),
    nullary main_cst_7 (constant S_ .f32 0x3F800000#32),
    unary main_cst_7 main_v54 (broadcastInDim S800000x1 ![] bcast_S_S800000x1 : (⟨S_, .f32⟩ : BufTy).Contents (Elt F) → (⟨S800000x1, .f32⟩ : BufTy).Contents (Elt F)),
    binary main_v54 main_v53 main_v55 (addf : (⟨S800000x1, .f32⟩ : BufTy).Contents (Elt F) → (⟨S800000x1, .f32⟩ : BufTy).Contents (Elt F) → (⟨S800000x1, .f32⟩ : BufTy).Contents (Elt F)),
    nullary main_cst_8 (constant S_ .f32 0x3F800000#32),
    unary main_cst_8 main_v56 (broadcastInDim S800000x1 ![] bcast_S_S800000x1 : (⟨S_, .f32⟩ : BufTy).Contents (Elt F) → (⟨S800000x1, .f32⟩ : BufTy).Contents (Elt F)),
    binary main_v56 main_v55 main_v57 (Host.divf : (⟨S800000x1, .f32⟩ : BufTy).Contents (Elt F) → (⟨S800000x1, .f32⟩ : BufTy).Contents (Elt F) → (⟨S800000x1, .f32⟩ : BufTy).Contents (Elt F)),
    reshape main_v57 main_v58 rfl shapeCasts_S800000x1_S800000,
    nullary main_cst_9 (constant S_ .f32 0x00000000#32),
    unary main_cst_9 main_v59 (broadcastInDim S100000 ![] bcast_S_S100000 : (⟨S_, .f32⟩ : BufTy).Contents (Elt F) → (⟨S100000, .f32⟩ : BufTy).Contents (Elt F)),
    unary main_arg1 main_v60 (broadcastInDim S800000x1 ![0] bcast_S800000_S800000x1_0 : (⟨S800000, .i32⟩ : BufTy).Contents (Elt F) → (⟨S800000x1, .i32⟩ : BufTy).Contents (Elt F)),
    ternary main_v59 main_v60 main_v58 main_v61 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_cst_10 (constant S_ .f32 0x00000000#32),
    unary main_cst_10 main_v62 (broadcastInDim S100000 ![] bcast_S_S100000 : (⟨S_, .f32⟩ : BufTy).Contents (Elt F) → (⟨S100000, .f32⟩ : BufTy).Contents (Elt F)),
    binary main_v61 main_v62 main_v63 (cmpf .ogt : (⟨S100000, .f32⟩ : BufTy).Contents (Elt F) → (⟨S100000, .f32⟩ : BufTy).Contents (Elt F) → (⟨S100000, .i1⟩ : BufTy).Contents (Elt F)),
    nullary main_cst_11 (constant S_ .f32 0x3F800000#32),
    unary main_cst_11 main_v64 (broadcastInDim S100000 ![] bcast_S_S100000 : (⟨S_, .f32⟩ : BufTy).Contents (Elt F) → (⟨S100000, .f32⟩ : BufTy).Contents (Elt F)),
    binary main_v64 main_v61 main_v65 (Host.divf : (⟨S100000, .f32⟩ : BufTy).Contents (Elt F) → (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v63) (TRef.of (T := ⟨S100000, .f32⟩) main_v65) (TRef.of (T := ⟨S100000, .f32⟩) main_call0_v1) (TRef.of (T := ⟨S100000, .f32⟩) main_v66) select,
    nullary main_c_13 (constantI S_ 32 0#32),
    unary main_c_13 main_v67 (broadcastInDim S800000 ![] bcast_S_S800000 : (⟨S_, .i32⟩ : BufTy).Contents (Elt F) → (⟨S800000, .i32⟩ : BufTy).Contents (Elt F)),
    binary main_arg1 main_v67 main_v68 (cmpi .slt : (⟨S800000, .i32⟩ : BufTy).Contents (Elt F) → (⟨S800000, .i32⟩ : BufTy).Contents (Elt F) → (⟨S800000, .i1⟩ : BufTy).Contents (Elt F)),
    nullary main_c_14 (constantI S_ 32 100000#32),
    unary main_c_14 main_v69 (broadcastInDim S800000 ![] bcast_S_S800000 : (⟨S_, .i32⟩ : BufTy).Contents (Elt F) → (⟨S800000, .i32⟩ : BufTy).Contents (Elt F)),
    binary main_arg1 main_v69 main_v70 (addi : (⟨S800000, .i32⟩ : BufTy).Contents (Elt F) → (⟨S800000, .i32⟩ : BufTy).Contents (Elt F) → (⟨S800000, .i32⟩ : BufTy).Contents (Elt F)),
    ternary main_v68 main_v70 main_arg1 main_v71 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v71 main_v72 (broadcastInDim S800000x1 ![0] bcast_S800000_S800000x1_0 : (⟨S800000, .i32⟩ : BufTy).Contents (Elt F) → (⟨S800000x1, .i32⟩ : BufTy).Contents (Elt F)),
    binary main_v66 main_v72 main_v73 ((fun x i => Host.gather gather_S100000_S800000x1_S800000_n_0_n_n_0_1_1 x i) : (⟨S100000, .f32⟩ : BufTy).Contents (Elt F) → (⟨S800000x1, .i32⟩ : BufTy).Contents (Elt F) → (⟨S800000, .f32⟩ : BufTy).Contents (Elt F)),
    binary main_v73 main_v58 main_v74 (mulf : (⟨S800000, .f32⟩ : BufTy).Contents (Elt F) → (⟨S800000, .f32⟩ : BufTy).Contents (Elt F) → (⟨S800000, .f32⟩ : BufTy).Contents (Elt F)),
    unary main_v74 main_v75 (broadcastInDim S800000x1 ![0] bcast_S800000_S800000x1_0 : (⟨S800000, .f32⟩ : BufTy).Contents (Elt F) → (⟨S800000x1, .f32⟩ : BufTy).Contents (Elt F)),
    nullary main_c_15 (constantI S_ 32 0#32),
    unary main_c_15 main_v76 (broadcastInDim S800000 ![] bcast_S_S800000 : (⟨S_, .i32⟩ : BufTy).Contents (Elt F) → (⟨S800000, .i32⟩ : BufTy).Contents (Elt F)),
    binary main_arg2 main_v76 main_v77 (cmpi .slt : (⟨S800000, .i32⟩ : BufTy).Contents (Elt F) → (⟨S800000, .i32⟩ : BufTy).Contents (Elt F) → (⟨S800000, .i1⟩ : BufTy).Contents (Elt F)),
    nullary main_c_16 (constantI S_ 32 100000#32),
    unary main_c_16 main_v78 (broadcastInDim S800000 ![] bcast_S_S800000 : (⟨S_, .i32⟩ : BufTy).Contents (Elt F) → (⟨S800000, .i32⟩ : BufTy).Contents (Elt F)),
    binary main_arg2 main_v78 main_v79 (addi : (⟨S800000, .i32⟩ : BufTy).Contents (Elt F) → (⟨S800000, .i32⟩ : BufTy).Contents (Elt F) → (⟨S800000, .i32⟩ : BufTy).Contents (Elt F)),
    ternary main_v77 main_v79 main_arg2 main_v80 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v80 main_v81 (broadcastInDim S800000x1 ![0] bcast_S800000_S800000x1_0 : (⟨S800000, .i32⟩ : BufTy).Contents (Elt F) → (⟨S800000x1, .i32⟩ : BufTy).Contents (Elt F)),
    binary main_arg0 main_v81 main_v82 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    unary main_v75 main_v83 (broadcastInDim S800000x64 ![0, 1] bcast_S800000x1_S800000x64_0_1 : (⟨S800000x1, .f32⟩ : BufTy).Contents (Elt F) → (⟨S800000x64, .f32⟩ : BufTy).Contents (Elt F)),
    binary main_v83 main_v82 main_v84 (mulf : (⟨S800000x64, .f32⟩ : BufTy).Contents (Elt F) → (⟨S800000x64, .f32⟩ : BufTy).Contents (Elt F) → (⟨S800000x64, .f32⟩ : BufTy).Contents (Elt F)),
    nullary main_cst_17 (constant S_ .f32 0x00000000#32),
    unary main_cst_17 main_v85 (broadcastInDim S100000x64 ![] bcast_S_S100000x64 : (⟨S_, .f32⟩ : BufTy).Contents (Elt F) → (⟨S100000x64, .f32⟩ : BufTy).Contents (Elt F)),
    unary main_arg1 main_v86 (broadcastInDim S800000x1 ![0] bcast_S800000_S800000x1_0 : (⟨S800000, .i32⟩ : BufTy).Contents (Elt F) → (⟨S800000x1, .i32⟩ : BufTy).Contents (Elt F)),
    ternary main_v85 main_v86 main_v84 main_v87 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    unary main_arg10 main_v88 ((extractStridedSlice S1x64x64 ![0, 0, 0] · slices_S2x64x64_S1x64x64_0_0_0) : (⟨S2x64x64, .f32⟩ : BufTy).Contents (Elt F) → (⟨S1x64x64, .f32⟩ : BufTy).Contents (Elt F)),
    reshape main_v88 main_v89 rfl shapeCasts_S1x64x64_S64x64,
    binary main_arg0 main_v89 main_v90 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg11 main_v91 ((extractStridedSlice S1x64 ![0, 0] · slices_S2x64_S1x64_0_0) : (⟨S2x64, .f32⟩ : BufTy).Contents (Elt F) → (⟨S1x64, .f32⟩ : BufTy).Contents (Elt F)),
    reshape main_v91 main_v92 rfl shapeCasts_S1x64_S64,
    unary main_v92 main_v93 (broadcastInDim S1x64 ![1] bcast_S64_S1x64_1 : (⟨S64, .f32⟩ : BufTy).Contents (Elt F) → (⟨S1x64, .f32⟩ : BufTy).Contents (Elt F)),
    unary main_v93 main_v94 (broadcastInDim S100000x64 ![0, 1] bcast_S1x64_S100000x64_0_1 : (⟨S1x64, .f32⟩ : BufTy).Contents (Elt F) → (⟨S100000x64, .f32⟩ : BufTy).Contents (Elt F)),
    binary main_v90 main_v94 main_v95 (addf : (⟨S100000x64, .f32⟩ : BufTy).Contents (Elt F) → (⟨S100000x64, .f32⟩ : BufTy).Contents (Elt F) → (⟨S100000x64, .f32⟩ : BufTy).Contents (Elt F)),
    nullary main_cst_18 (constant S_ .f32 0x00000000#32),
    unary main_cst_18 main_v96 (broadcastInDim S100000x64 ![] bcast_S_S100000x64 : (⟨S_, .f32⟩ : BufTy).Contents (Elt F) → (⟨S100000x64, .f32⟩ : BufTy).Contents (Elt F)),
    binary main_v95 main_v96 main_v97 (maximumf : (⟨S100000x64, .f32⟩ : BufTy).Contents (Elt F) → (⟨S100000x64, .f32⟩ : BufTy).Contents (Elt F) → (⟨S100000x64, .f32⟩ : BufTy).Contents (Elt F)),
    unary main_arg12 main_v98 ((extractStridedSlice S1x64x64 ![0, 0, 0] · slices_S2x64x64_S1x64x64_0_0_0) : (⟨S2x64x64, .f32⟩ : BufTy).Contents (Elt F) → (⟨S1x64x64, .f32⟩ : BufTy).Contents (Elt F)) ]

set_option maxHeartbeats 4000000 in
/-- Operations 123 to 182 of the program. -/
def ops2 : List (HloOp τ sig (Elt F)) :=
  [ reshape main_v98 main_v99 rfl shapeCasts_S1x64x64_S64x64,
    binary main_v97 main_v99 main_v100 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg13 main_v101 ((extractStridedSlice S1x64 ![0, 0] · slices_S2x64_S1x64_0_0) : (⟨S2x64, .f32⟩ : BufTy).Contents (Elt F) → (⟨S1x64, .f32⟩ : BufTy).Contents (Elt F)),
    reshape main_v101 main_v102 rfl shapeCasts_S1x64_S64,
    unary main_v102 main_v103 (broadcastInDim S1x64 ![1] bcast_S64_S1x64_1 : (⟨S64, .f32⟩ : BufTy).Contents (Elt F) → (⟨S1x64, .f32⟩ : BufTy).Contents (Elt F)),
    unary main_v103 main_v104 (broadcastInDim S100000x64 ![0, 1] bcast_S1x64_S100000x64_0_1 : (⟨S1x64, .f32⟩ : BufTy).Contents (Elt F) → (⟨S100000x64, .f32⟩ : BufTy).Contents (Elt F)),
    binary main_v100 main_v104 main_v105 (addf : (⟨S100000x64, .f32⟩ : BufTy).Contents (Elt F) → (⟨S100000x64, .f32⟩ : BufTy).Contents (Elt F) → (⟨S100000x64, .f32⟩ : BufTy).Contents (Elt F)),
    unary main_arg5 main_v106 ((extractStridedSlice S1x100000x64 ![0, 0, 0] · slices_S2x100000x64_S1x100000x64_0_0_0) : (⟨S2x100000x64, .f32⟩ : BufTy).Contents (Elt F) → (⟨S1x100000x64, .f32⟩ : BufTy).Contents (Elt F)),
    reshape main_v106 main_v107 rfl shapeCasts_S1x100000x64_S100000x64,
    binary main_v107 main_v105 main_v108 (addf : (⟨S100000x64, .f32⟩ : BufTy).Contents (Elt F) → (⟨S100000x64, .f32⟩ : BufTy).Contents (Elt F) → (⟨S100000x64, .f32⟩ : BufTy).Contents (Elt F)),
    nullary main_cst_19 (constant S_ .f32 0x3F800000#32),
    unary main_cst_19 main_v109 (broadcastInDim S100000x64 ![] bcast_S_S100000x64 : (⟨S_, .f32⟩ : BufTy).Contents (Elt F) → (⟨S100000x64, .f32⟩ : BufTy).Contents (Elt F)),
    binary main_v108 main_v109 main_v110 (Host.divf : (⟨S100000x64, .f32⟩ : BufTy).Contents (Elt F) → (⟨S100000x64, .f32⟩ : BufTy).Contents (Elt F) → (⟨S100000x64, .f32⟩ : BufTy).Contents (Elt F)),
    unary main_v110 main_v111 (Host.negf : (⟨S100000x64, .f32⟩ : BufTy).Contents (Elt F) → (⟨S100000x64, .f32⟩ : BufTy).Contents (Elt F)),
    unary main_v111 main_v112 (Host.exp : (⟨S100000x64, .f32⟩ : BufTy).Contents (Elt F) → (⟨S100000x64, .f32⟩ : BufTy).Contents (Elt F)),
    nullary main_cst_20 (constant S_ .f32 0x3F800000#32),
    unary main_cst_20 main_v113 (broadcastInDim S100000x64 ![] bcast_S_S100000x64 : (⟨S_, .f32⟩ : BufTy).Contents (Elt F) → (⟨S100000x64, .f32⟩ : BufTy).Contents (Elt F)),
    binary main_v113 main_v112 main_v114 (addf : (⟨S100000x64, .f32⟩ : BufTy).Contents (Elt F) → (⟨S100000x64, .f32⟩ : BufTy).Contents (Elt F) → (⟨S100000x64, .f32⟩ : BufTy).Contents (Elt F)),
    nullary main_cst_21 (constant S_ .f32 0x3F800000#32),
    unary main_cst_21 main_v115 (broadcastInDim S100000x64 ![] bcast_S_S100000x64 : (⟨S_, .f32⟩ : BufTy).Contents (Elt F) → (⟨S100000x64, .f32⟩ : BufTy).Contents (Elt F)),
    binary main_v115 main_v114 main_v116 (Host.divf : (⟨S100000x64, .f32⟩ : BufTy).Contents (Elt F) → (⟨S100000x64, .f32⟩ : BufTy).Contents (Elt F) → (⟨S100000x64, .f32⟩ : BufTy).Contents (Elt F)),
    binary main_v116 main_arg0 main_v117 (mulf : (⟨S100000x64, .f32⟩ : BufTy).Contents (Elt F) → (⟨S100000x64, .f32⟩ : BufTy).Contents (Elt F) → (⟨S100000x64, .f32⟩ : BufTy).Contents (Elt F)),
    unary main_arg3 main_v118 (broadcastInDim S800000x1 ![0] bcast_S800000_S800000x1_0 : (⟨S800000, .f32⟩ : BufTy).Contents (Elt F) → (⟨S800000x1, .f32⟩ : BufTy).Contents (Elt F)),
    nullary main_c_22 (constantI S_ 32 0#32),
    unary main_c_22 main_v119 (broadcastInDim S800000 ![] bcast_S_S800000 : (⟨S_, .i32⟩ : BufTy).Contents (Elt F) → (⟨S800000, .i32⟩ : BufTy).Contents (Elt F)),
    binary main_arg2 main_v119 main_v120 (cmpi .slt : (⟨S800000, .i32⟩ : BufTy).Contents (Elt F) → (⟨S800000, .i32⟩ : BufTy).Contents (Elt F) → (⟨S800000, .i1⟩ : BufTy).Contents (Elt F)),
    nullary main_c_23 (constantI S_ 32 100000#32),
    unary main_c_23 main_v121 (broadcastInDim S800000 ![] bcast_S_S800000 : (⟨S_, .i32⟩ : BufTy).Contents (Elt F) → (⟨S800000, .i32⟩ : BufTy).Contents (Elt F)),
    binary main_arg2 main_v121 main_v122 (addi : (⟨S800000, .i32⟩ : BufTy).Contents (Elt F) → (⟨S800000, .i32⟩ : BufTy).Contents (Elt F) → (⟨S800000, .i32⟩ : BufTy).Contents (Elt F)),
    ternary main_v120 main_v122 main_arg2 main_v123 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v123 main_v124 (broadcastInDim S800000x1 ![0] bcast_S800000_S800000x1_0 : (⟨S800000, .i32⟩ : BufTy).Contents (Elt F) → (⟨S800000x1, .i32⟩ : BufTy).Contents (Elt F)),
    binary main_v117 main_v124 main_v125 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    unary main_v118 main_v126 (broadcastInDim S800000x64 ![0, 1] bcast_S800000x1_S800000x64_0_1 : (⟨S800000x1, .f32⟩ : BufTy).Contents (Elt F) → (⟨S800000x64, .f32⟩ : BufTy).Contents (Elt F)),
    binary main_v126 main_v125 main_v127 (mulf : (⟨S800000x64, .f32⟩ : BufTy).Contents (Elt F) → (⟨S800000x64, .f32⟩ : BufTy).Contents (Elt F) → (⟨S800000x64, .f32⟩ : BufTy).Contents (Elt F)),
    nullary main_cst_24 (constant S_ .f32 0x00000000#32),
    unary main_cst_24 main_v128 (broadcastInDim S100000x64 ![] bcast_S_S100000x64 : (⟨S_, .f32⟩ : BufTy).Contents (Elt F) → (⟨S100000x64, .f32⟩ : BufTy).Contents (Elt F)),
    unary main_arg1 main_v129 (broadcastInDim S800000x1 ![0] bcast_S800000_S800000x1_0 : (⟨S800000, .i32⟩ : BufTy).Contents (Elt F) → (⟨S800000x1, .i32⟩ : BufTy).Contents (Elt F)),
    ternary main_v128 main_v129 main_v127 main_v130 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    binary main_v12 main_arg0 main_v131 (addf : (⟨S100000x64, .f32⟩ : BufTy).Contents (Elt F) → (⟨S100000x64, .f32⟩ : BufTy).Contents (Elt F) → (⟨S100000x64, .f32⟩ : BufTy).Contents (Elt F)),
    binary main_v87 main_arg0 main_v132 (addf : (⟨S100000x64, .f32⟩ : BufTy).Contents (Elt F) → (⟨S100000x64, .f32⟩ : BufTy).Contents (Elt F) → (⟨S100000x64, .f32⟩ : BufTy).Contents (Elt F)),
    binary main_v130 main_arg0 main_v133 (addf : (⟨S100000x64, .f32⟩ : BufTy).Contents (Elt F) → (⟨S100000x64, .f32⟩ : BufTy).Contents (Elt F) → (⟨S100000x64, .f32⟩ : BufTy).Contents (Elt F)),
    binary main_arg0 main_v131 main_v134 (addf : (⟨S100000x64, .f32⟩ : BufTy).Contents (Elt F) → (⟨S100000x64, .f32⟩ : BufTy).Contents (Elt F) → (⟨S100000x64, .f32⟩ : BufTy).Contents (Elt F)),
    binary main_arg0 main_v132 main_v135 (addf : (⟨S100000x64, .f32⟩ : BufTy).Contents (Elt F) → (⟨S100000x64, .f32⟩ : BufTy).Contents (Elt F) → (⟨S100000x64, .f32⟩ : BufTy).Contents (Elt F)),
    binary main_arg0 main_v133 main_v136 (addf : (⟨S100000x64, .f32⟩ : BufTy).Contents (Elt F) → (⟨S100000x64, .f32⟩ : BufTy).Contents (Elt F) → (⟨S100000x64, .f32⟩ : BufTy).Contents (Elt F)),
    unary main_arg3 main_v137 (broadcastInDim S800000x1 ![0] bcast_S800000_S800000x1_0 : (⟨S800000, .f32⟩ : BufTy).Contents (Elt F) → (⟨S800000x1, .f32⟩ : BufTy).Contents (Elt F)),
    nullary main_c_25 (constantI S_ 32 0#32),
    unary main_c_25 main_v138 (broadcastInDim S800000 ![] bcast_S_S800000 : (⟨S_, .i32⟩ : BufTy).Contents (Elt F) → (⟨S800000, .i32⟩ : BufTy).Contents (Elt F)),
    binary main_arg2 main_v138 main_v139 (cmpi .slt : (⟨S800000, .i32⟩ : BufTy).Contents (Elt F) → (⟨S800000, .i32⟩ : BufTy).Contents (Elt F) → (⟨S800000, .i1⟩ : BufTy).Contents (Elt F)),
    nullary main_c_26 (constantI S_ 32 100000#32),
    unary main_c_26 main_v140 (broadcastInDim S800000 ![] bcast_S_S800000 : (⟨S_, .i32⟩ : BufTy).Contents (Elt F) → (⟨S800000, .i32⟩ : BufTy).Contents (Elt F)),
    binary main_arg2 main_v140 main_v141 (addi : (⟨S800000, .i32⟩ : BufTy).Contents (Elt F) → (⟨S800000, .i32⟩ : BufTy).Contents (Elt F) → (⟨S800000, .i32⟩ : BufTy).Contents (Elt F)),
    ternary main_v139 main_v141 main_arg2 main_v142 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v142 main_v143 (broadcastInDim S800000x1 ![0] bcast_S800000_S800000x1_0 : (⟨S800000, .i32⟩ : BufTy).Contents (Elt F) → (⟨S800000x1, .i32⟩ : BufTy).Contents (Elt F)),
    binary main_v131 main_v143 main_v144 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    unary main_v137 main_v145 (broadcastInDim S800000x64 ![0, 1] bcast_S800000x1_S800000x64_0_1 : (⟨S800000x1, .f32⟩ : BufTy).Contents (Elt F) → (⟨S800000x64, .f32⟩ : BufTy).Contents (Elt F)),
    binary main_v145 main_v144 main_v146 (mulf : (⟨S800000x64, .f32⟩ : BufTy).Contents (Elt F) → (⟨S800000x64, .f32⟩ : BufTy).Contents (Elt F) → (⟨S800000x64, .f32⟩ : BufTy).Contents (Elt F)),
    nullary main_cst_27 (constant S_ .f32 0x00000000#32),
    unary main_cst_27 main_v147 (broadcastInDim S100000x64 ![] bcast_S_S100000x64 : (⟨S_, .f32⟩ : BufTy).Contents (Elt F) → (⟨S100000x64, .f32⟩ : BufTy).Contents (Elt F)),
    unary main_arg1 main_v148 (broadcastInDim S800000x1 ![0] bcast_S800000_S800000x1_0 : (⟨S800000, .i32⟩ : BufTy).Contents (Elt F) → (⟨S800000x1, .i32⟩ : BufTy).Contents (Elt F)),
    ternary main_v147 main_v148 main_v146 main_v149 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)) ]

set_option maxHeartbeats 4000000 in
/-- Operations 183 to 242 of the program. -/
def ops3 : List (HloOp τ sig (Elt F)) :=
  [ nullary main_c_28 (constantI S_ 32 0#32),
    unary main_c_28 main_v150 (broadcastInDim S800000 ![] bcast_S_S800000 : (⟨S_, .i32⟩ : BufTy).Contents (Elt F) → (⟨S800000, .i32⟩ : BufTy).Contents (Elt F)),
    binary main_arg1 main_v150 main_v151 (cmpi .slt : (⟨S800000, .i32⟩ : BufTy).Contents (Elt F) → (⟨S800000, .i32⟩ : BufTy).Contents (Elt F) → (⟨S800000, .i1⟩ : BufTy).Contents (Elt F)),
    nullary main_c_29 (constantI S_ 32 100000#32),
    unary main_c_29 main_v152 (broadcastInDim S800000 ![] bcast_S_S800000 : (⟨S_, .i32⟩ : BufTy).Contents (Elt F) → (⟨S800000, .i32⟩ : BufTy).Contents (Elt F)),
    binary main_arg1 main_v152 main_v153 (addi : (⟨S800000, .i32⟩ : BufTy).Contents (Elt F) → (⟨S800000, .i32⟩ : BufTy).Contents (Elt F) → (⟨S800000, .i32⟩ : BufTy).Contents (Elt F)),
    ternary main_v151 main_v153 main_arg1 main_v154 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v154 main_v155 (broadcastInDim S800000x1 ![0] bcast_S800000_S800000x1_0 : (⟨S800000, .i32⟩ : BufTy).Contents (Elt F) → (⟨S800000x1, .i32⟩ : BufTy).Contents (Elt F)),
    binary main_v132 main_v155 main_v156 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    nullary main_c_30 (constantI S_ 32 0#32),
    unary main_c_30 main_v157 (broadcastInDim S800000 ![] bcast_S_S800000 : (⟨S_, .i32⟩ : BufTy).Contents (Elt F) → (⟨S800000, .i32⟩ : BufTy).Contents (Elt F)),
    binary main_arg2 main_v157 main_v158 (cmpi .slt : (⟨S800000, .i32⟩ : BufTy).Contents (Elt F) → (⟨S800000, .i32⟩ : BufTy).Contents (Elt F) → (⟨S800000, .i1⟩ : BufTy).Contents (Elt F)),
    nullary main_c_31 (constantI S_ 32 100000#32),
    unary main_c_31 main_v159 (broadcastInDim S800000 ![] bcast_S_S800000 : (⟨S_, .i32⟩ : BufTy).Contents (Elt F) → (⟨S800000, .i32⟩ : BufTy).Contents (Elt F)),
    binary main_arg2 main_v159 main_v160 (addi : (⟨S800000, .i32⟩ : BufTy).Contents (Elt F) → (⟨S800000, .i32⟩ : BufTy).Contents (Elt F) → (⟨S800000, .i32⟩ : BufTy).Contents (Elt F)),
    ternary main_v158 main_v160 main_arg2 main_v161 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v161 main_v162 (broadcastInDim S800000x1 ![0] bcast_S800000_S800000x1_0 : (⟨S800000, .i32⟩ : BufTy).Contents (Elt F) → (⟨S800000x1, .i32⟩ : BufTy).Contents (Elt F)),
    binary main_v132 main_v162 main_v163 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    binary main_v156 main_v163 main_v164 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    unary main_arg6 main_v165 ((extractStridedSlice S1x128x64 ![1, 0, 0] · slices_S2x128x64_S1x128x64_1_0_0) : (⟨S2x128x64, .f32⟩ : BufTy).Contents (Elt F) → (⟨S1x128x64, .f32⟩ : BufTy).Contents (Elt F)),
    reshape main_v165 main_v166 rfl shapeCasts_S1x128x64_S128x64,
    binary main_v164 main_v166 main_v167 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    unary main_arg7 main_v168 ((extractStridedSlice S1x64 ![1, 0] · slices_S2x64_S1x64_1_0) : (⟨S2x64, .f32⟩ : BufTy).Contents (Elt F) → (⟨S1x64, .f32⟩ : BufTy).Contents (Elt F)),
    reshape main_v168 main_v169 rfl shapeCasts_S1x64_S64,
    unary main_v169 main_v170 (broadcastInDim S1x64 ![1] bcast_S64_S1x64_1 : (⟨S64, .f32⟩ : BufTy).Contents (Elt F) → (⟨S1x64, .f32⟩ : BufTy).Contents (Elt F)),
    unary main_v170 main_v171 (broadcastInDim S800000x64 ![0, 1] bcast_S1x64_S800000x64_0_1 : (⟨S1x64, .f32⟩ : BufTy).Contents (Elt F) → (⟨S800000x64, .f32⟩ : BufTy).Contents (Elt F)),
    binary main_v167 main_v171 main_v172 (addf : (⟨S800000x64, .f32⟩ : BufTy).Contents (Elt F) → (⟨S800000x64, .f32⟩ : BufTy).Contents (Elt F) → (⟨S800000x64, .f32⟩ : BufTy).Contents (Elt F)),
    nullary main_cst_32 (constant S_ .f32 0x00000000#32),
    unary main_cst_32 main_v173 (broadcastInDim S800000x64 ![] bcast_S_S800000x64 : (⟨S_, .f32⟩ : BufTy).Contents (Elt F) → (⟨S800000x64, .f32⟩ : BufTy).Contents (Elt F)),
    binary main_v172 main_v173 main_v174 (maximumf : (⟨S800000x64, .f32⟩ : BufTy).Contents (Elt F) → (⟨S800000x64, .f32⟩ : BufTy).Contents (Elt F) → (⟨S800000x64, .f32⟩ : BufTy).Contents (Elt F)),
    unary main_arg8 main_v175 ((extractStridedSlice S1x64x1 ![1, 0, 0] · slices_S2x64x1_S1x64x1_1_0_0) : (⟨S2x64x1, .f32⟩ : BufTy).Contents (Elt F) → (⟨S1x64x1, .f32⟩ : BufTy).Contents (Elt F)),
    reshape main_v175 main_v176 rfl shapeCasts_S1x64x1_S64x1,
    binary main_v174 main_v176 main_v177 ((fun l r => Host.dotGeneral dot_S800000x64_S64x1_S800000x1_1_0_0_1_n_n none l r) : (⟨S800000x64, .f32⟩ : BufTy).Contents (Elt F) → (⟨S64x1, .f32⟩ : BufTy).Contents (Elt F) → (⟨S800000x1, .f32⟩ : BufTy).Contents (Elt F)),
    unary main_arg9 main_v178 ((extractStridedSlice S1x1 ![1, 0] · slices_S2x1_S1x1_1_0) : (⟨S2x1, .f32⟩ : BufTy).Contents (Elt F) → (⟨S1x1, .f32⟩ : BufTy).Contents (Elt F)),
    reshape main_v178 main_v179 rfl shapeCasts_S1x1_S1,
    unary main_v179 main_v180 (broadcastInDim S1x1 ![1] bcast_S1_S1x1_1 : (⟨S1, .f32⟩ : BufTy).Contents (Elt F) → (⟨S1x1, .f32⟩ : BufTy).Contents (Elt F)),
    unary main_v180 main_v181 (broadcastInDim S800000x1 ![0, 1] bcast_S1x1_S800000x1_0_1 : (⟨S1x1, .f32⟩ : BufTy).Contents (Elt F) → (⟨S800000x1, .f32⟩ : BufTy).Contents (Elt F)),
    binary main_v177 main_v181 main_v182 (addf : (⟨S800000x1, .f32⟩ : BufTy).Contents (Elt F) → (⟨S800000x1, .f32⟩ : BufTy).Contents (Elt F) → (⟨S800000x1, .f32⟩ : BufTy).Contents (Elt F)),
    unary main_arg4 main_v183 ((extractStridedSlice S1x800000 ![1, 0] · slices_S2x800000_S1x800000_1_0) : (⟨S2x800000, .f32⟩ : BufTy).Contents (Elt F) → (⟨S1x800000, .f32⟩ : BufTy).Contents (Elt F)),
    reshape main_v183 main_v184 rfl shapeCasts_S1x800000_S800000,
    unary main_v184 main_v185 (broadcastInDim S800000x1 ![0] bcast_S800000_S800000x1_0 : (⟨S800000, .f32⟩ : BufTy).Contents (Elt F) → (⟨S800000x1, .f32⟩ : BufTy).Contents (Elt F)),
    binary main_v185 main_v182 main_v186 (addf : (⟨S800000x1, .f32⟩ : BufTy).Contents (Elt F) → (⟨S800000x1, .f32⟩ : BufTy).Contents (Elt F) → (⟨S800000x1, .f32⟩ : BufTy).Contents (Elt F)),
    nullary main_cst_33 (constant S_ .f32 0x3F800000#32),
    unary main_cst_33 main_v187 (broadcastInDim S800000x1 ![] bcast_S_S800000x1 : (⟨S_, .f32⟩ : BufTy).Contents (Elt F) → (⟨S800000x1, .f32⟩ : BufTy).Contents (Elt F)),
    binary main_v186 main_v187 main_v188 (Host.divf : (⟨S800000x1, .f32⟩ : BufTy).Contents (Elt F) → (⟨S800000x1, .f32⟩ : BufTy).Contents (Elt F) → (⟨S800000x1, .f32⟩ : BufTy).Contents (Elt F)),
    unary main_v188 main_v189 (Host.negf : (⟨S800000x1, .f32⟩ : BufTy).Contents (Elt F) → (⟨S800000x1, .f32⟩ : BufTy).Contents (Elt F)),
    unary main_v189 main_v190 (Host.exp : (⟨S800000x1, .f32⟩ : BufTy).Contents (Elt F) → (⟨S800000x1, .f32⟩ : BufTy).Contents (Elt F)),
    nullary main_cst_34 (constant S_ .f32 0x3F800000#32),
    unary main_cst_34 main_v191 (broadcastInDim S800000x1 ![] bcast_S_S800000x1 : (⟨S_, .f32⟩ : BufTy).Contents (Elt F) → (⟨S800000x1, .f32⟩ : BufTy).Contents (Elt F)),
    binary main_v191 main_v190 main_v192 (addf : (⟨S800000x1, .f32⟩ : BufTy).Contents (Elt F) → (⟨S800000x1, .f32⟩ : BufTy).Contents (Elt F) → (⟨S800000x1, .f32⟩ : BufTy).Contents (Elt F)),
    nullary main_cst_35 (constant S_ .f32 0x3F800000#32),
    unary main_cst_35 main_v193 (broadcastInDim S800000x1 ![] bcast_S_S800000x1 : (⟨S_, .f32⟩ : BufTy).Contents (Elt F) → (⟨S800000x1, .f32⟩ : BufTy).Contents (Elt F)),
    binary main_v193 main_v192 main_v194 (Host.divf : (⟨S800000x1, .f32⟩ : BufTy).Contents (Elt F) → (⟨S800000x1, .f32⟩ : BufTy).Contents (Elt F) → (⟨S800000x1, .f32⟩ : BufTy).Contents (Elt F)),
    reshape main_v194 main_v195 rfl shapeCasts_S800000x1_S800000,
    nullary main_cst_36 (constant S_ .f32 0x00000000#32),
    unary main_cst_36 main_v196 (broadcastInDim S100000 ![] bcast_S_S100000 : (⟨S_, .f32⟩ : BufTy).Contents (Elt F) → (⟨S100000, .f32⟩ : BufTy).Contents (Elt F)),
    unary main_arg1 main_v197 (broadcastInDim S800000x1 ![0] bcast_S800000_S800000x1_0 : (⟨S800000, .i32⟩ : BufTy).Contents (Elt F) → (⟨S800000x1, .i32⟩ : BufTy).Contents (Elt F)),
    ternary main_v196 main_v197 main_v195 main_v198 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_cst_37 (constant S_ .f32 0x00000000#32),
    unary main_cst_37 main_v199 (broadcastInDim S100000 ![] bcast_S_S100000 : (⟨S_, .f32⟩ : BufTy).Contents (Elt F) → (⟨S100000, .f32⟩ : BufTy).Contents (Elt F)) ]

set_option maxHeartbeats 4000000 in
/-- Operations 243 to 304 of the program. -/
def ops4 : List (HloOp τ sig (Elt F)) :=
  [ binary main_v198 main_v199 main_v200 (cmpf .ogt : (⟨S100000, .f32⟩ : BufTy).Contents (Elt F) → (⟨S100000, .f32⟩ : BufTy).Contents (Elt F) → (⟨S100000, .i1⟩ : BufTy).Contents (Elt F)),
    nullary main_cst_38 (constant S_ .f32 0x3F800000#32),
    unary main_cst_38 main_v201 (broadcastInDim S100000 ![] bcast_S_S100000 : (⟨S_, .f32⟩ : BufTy).Contents (Elt F) → (⟨S100000, .f32⟩ : BufTy).Contents (Elt F)),
    binary main_v201 main_v198 main_v202 (Host.divf : (⟨S100000, .f32⟩ : BufTy).Contents (Elt F) → (⟨S100000, .f32⟩ : BufTy).Contents (Elt F) → (⟨S100000, .f32⟩ : BufTy).Contents (Elt F)),
    nullary main_cst_39 (constant S_ .f32 0x00000000#32),
    TRef.unary (TRef.of (T := ⟨S_, .f32⟩) main_cst_39) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.ternary (TRef.of (T := ⟨S100000, .i1⟩) main_v200) (TRef.of (T := ⟨S100000, .f32⟩) main_v202) (TRef.of (T := ⟨S100000, .f32⟩) main_call1_v1) (TRef.of (T := ⟨S100000, .f32⟩) main_v203) select,
    nullary main_c_40 (constantI S_ 32 0#32),
    unary main_c_40 main_v204 (broadcastInDim S800000 ![] bcast_S_S800000 : (⟨S_, .i32⟩ : BufTy).Contents (Elt F) → (⟨S800000, .i32⟩ : BufTy).Contents (Elt F)),
    binary main_arg1 main_v204 main_v205 (cmpi .slt : (⟨S800000, .i32⟩ : BufTy).Contents (Elt F) → (⟨S800000, .i32⟩ : BufTy).Contents (Elt F) → (⟨S800000, .i1⟩ : BufTy).Contents (Elt F)),
    nullary main_c_41 (constantI S_ 32 100000#32),
    unary main_c_41 main_v206 (broadcastInDim S800000 ![] bcast_S_S800000 : (⟨S_, .i32⟩ : BufTy).Contents (Elt F) → (⟨S800000, .i32⟩ : BufTy).Contents (Elt F)),
    binary main_arg1 main_v206 main_v207 (addi : (⟨S800000, .i32⟩ : BufTy).Contents (Elt F) → (⟨S800000, .i32⟩ : BufTy).Contents (Elt F) → (⟨S800000, .i32⟩ : BufTy).Contents (Elt F)),
    ternary main_v205 main_v207 main_arg1 main_v208 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v208 main_v209 (broadcastInDim S800000x1 ![0] bcast_S800000_S800000x1_0 : (⟨S800000, .i32⟩ : BufTy).Contents (Elt F) → (⟨S800000x1, .i32⟩ : BufTy).Contents (Elt F)),
    binary main_v203 main_v209 main_v210 ((fun x i => Host.gather gather_S100000_S800000x1_S800000_n_0_n_n_0_1_1 x i) : (⟨S100000, .f32⟩ : BufTy).Contents (Elt F) → (⟨S800000x1, .i32⟩ : BufTy).Contents (Elt F) → (⟨S800000, .f32⟩ : BufTy).Contents (Elt F)),
    binary main_v210 main_v195 main_v211 (mulf : (⟨S800000, .f32⟩ : BufTy).Contents (Elt F) → (⟨S800000, .f32⟩ : BufTy).Contents (Elt F) → (⟨S800000, .f32⟩ : BufTy).Contents (Elt F)),
    unary main_v211 main_v212 (broadcastInDim S800000x1 ![0] bcast_S800000_S800000x1_0 : (⟨S800000, .f32⟩ : BufTy).Contents (Elt F) → (⟨S800000x1, .f32⟩ : BufTy).Contents (Elt F)),
    nullary main_c_42 (constantI S_ 32 0#32),
    unary main_c_42 main_v213 (broadcastInDim S800000 ![] bcast_S_S800000 : (⟨S_, .i32⟩ : BufTy).Contents (Elt F) → (⟨S800000, .i32⟩ : BufTy).Contents (Elt F)),
    binary main_arg2 main_v213 main_v214 (cmpi .slt : (⟨S800000, .i32⟩ : BufTy).Contents (Elt F) → (⟨S800000, .i32⟩ : BufTy).Contents (Elt F) → (⟨S800000, .i1⟩ : BufTy).Contents (Elt F)),
    nullary main_c_43 (constantI S_ 32 100000#32),
    unary main_c_43 main_v215 (broadcastInDim S800000 ![] bcast_S_S800000 : (⟨S_, .i32⟩ : BufTy).Contents (Elt F) → (⟨S800000, .i32⟩ : BufTy).Contents (Elt F)),
    binary main_arg2 main_v215 main_v216 (addi : (⟨S800000, .i32⟩ : BufTy).Contents (Elt F) → (⟨S800000, .i32⟩ : BufTy).Contents (Elt F) → (⟨S800000, .i32⟩ : BufTy).Contents (Elt F)),
    ternary main_v214 main_v216 main_arg2 main_v217 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v217 main_v218 (broadcastInDim S800000x1 ![0] bcast_S800000_S800000x1_0 : (⟨S800000, .i32⟩ : BufTy).Contents (Elt F) → (⟨S800000x1, .i32⟩ : BufTy).Contents (Elt F)),
    binary main_v132 main_v218 main_v219 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    unary main_v212 main_v220 (broadcastInDim S800000x64 ![0, 1] bcast_S800000x1_S800000x64_0_1 : (⟨S800000x1, .f32⟩ : BufTy).Contents (Elt F) → (⟨S800000x64, .f32⟩ : BufTy).Contents (Elt F)),
    binary main_v220 main_v219 main_v221 (mulf : (⟨S800000x64, .f32⟩ : BufTy).Contents (Elt F) → (⟨S800000x64, .f32⟩ : BufTy).Contents (Elt F) → (⟨S800000x64, .f32⟩ : BufTy).Contents (Elt F)),
    nullary main_cst_44 (constant S_ .f32 0x00000000#32),
    unary main_cst_44 main_v222 (broadcastInDim S100000x64 ![] bcast_S_S100000x64 : (⟨S_, .f32⟩ : BufTy).Contents (Elt F) → (⟨S100000x64, .f32⟩ : BufTy).Contents (Elt F)),
    unary main_arg1 main_v223 (broadcastInDim S800000x1 ![0] bcast_S800000_S800000x1_0 : (⟨S800000, .i32⟩ : BufTy).Contents (Elt F) → (⟨S800000x1, .i32⟩ : BufTy).Contents (Elt F)),
    ternary main_v222 main_v223 main_v221 main_v224 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    unary main_arg10 main_v225 ((extractStridedSlice S1x64x64 ![1, 0, 0] · slices_S2x64x64_S1x64x64_1_0_0) : (⟨S2x64x64, .f32⟩ : BufTy).Contents (Elt F) → (⟨S1x64x64, .f32⟩ : BufTy).Contents (Elt F)),
    reshape main_v225 main_v226 rfl shapeCasts_S1x64x64_S64x64,
    binary main_v133 main_v226 main_v227 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg11 main_v228 ((extractStridedSlice S1x64 ![1, 0] · slices_S2x64_S1x64_1_0) : (⟨S2x64, .f32⟩ : BufTy).Contents (Elt F) → (⟨S1x64, .f32⟩ : BufTy).Contents (Elt F)),
    reshape main_v228 main_v229 rfl shapeCasts_S1x64_S64,
    unary main_v229 main_v230 (broadcastInDim S1x64 ![1] bcast_S64_S1x64_1 : (⟨S64, .f32⟩ : BufTy).Contents (Elt F) → (⟨S1x64, .f32⟩ : BufTy).Contents (Elt F)),
    unary main_v230 main_v231 (broadcastInDim S100000x64 ![0, 1] bcast_S1x64_S100000x64_0_1 : (⟨S1x64, .f32⟩ : BufTy).Contents (Elt F) → (⟨S100000x64, .f32⟩ : BufTy).Contents (Elt F)),
    binary main_v227 main_v231 main_v232 (addf : (⟨S100000x64, .f32⟩ : BufTy).Contents (Elt F) → (⟨S100000x64, .f32⟩ : BufTy).Contents (Elt F) → (⟨S100000x64, .f32⟩ : BufTy).Contents (Elt F)),
    nullary main_cst_45 (constant S_ .f32 0x00000000#32),
    unary main_cst_45 main_v233 (broadcastInDim S100000x64 ![] bcast_S_S100000x64 : (⟨S_, .f32⟩ : BufTy).Contents (Elt F) → (⟨S100000x64, .f32⟩ : BufTy).Contents (Elt F)),
    binary main_v232 main_v233 main_v234 (maximumf : (⟨S100000x64, .f32⟩ : BufTy).Contents (Elt F) → (⟨S100000x64, .f32⟩ : BufTy).Contents (Elt F) → (⟨S100000x64, .f32⟩ : BufTy).Contents (Elt F)),
    unary main_arg12 main_v235 ((extractStridedSlice S1x64x64 ![1, 0, 0] · slices_S2x64x64_S1x64x64_1_0_0) : (⟨S2x64x64, .f32⟩ : BufTy).Contents (Elt F) → (⟨S1x64x64, .f32⟩ : BufTy).Contents (Elt F)),
    reshape main_v235 main_v236 rfl shapeCasts_S1x64x64_S64x64,
    binary main_v234 main_v236 main_v237 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg13 main_v238 ((extractStridedSlice S1x64 ![1, 0] · slices_S2x64_S1x64_1_0) : (⟨S2x64, .f32⟩ : BufTy).Contents (Elt F) → (⟨S1x64, .f32⟩ : BufTy).Contents (Elt F)),
    reshape main_v238 main_v239 rfl shapeCasts_S1x64_S64,
    unary main_v239 main_v240 (broadcastInDim S1x64 ![1] bcast_S64_S1x64_1 : (⟨S64, .f32⟩ : BufTy).Contents (Elt F) → (⟨S1x64, .f32⟩ : BufTy).Contents (Elt F)),
    unary main_v240 main_v241 (broadcastInDim S100000x64 ![0, 1] bcast_S1x64_S100000x64_0_1 : (⟨S1x64, .f32⟩ : BufTy).Contents (Elt F) → (⟨S100000x64, .f32⟩ : BufTy).Contents (Elt F)),
    binary main_v237 main_v241 main_v242 (addf : (⟨S100000x64, .f32⟩ : BufTy).Contents (Elt F) → (⟨S100000x64, .f32⟩ : BufTy).Contents (Elt F) → (⟨S100000x64, .f32⟩ : BufTy).Contents (Elt F)),
    unary main_arg5 main_v243 ((extractStridedSlice S1x100000x64 ![1, 0, 0] · slices_S2x100000x64_S1x100000x64_1_0_0) : (⟨S2x100000x64, .f32⟩ : BufTy).Contents (Elt F) → (⟨S1x100000x64, .f32⟩ : BufTy).Contents (Elt F)),
    reshape main_v243 main_v244 rfl shapeCasts_S1x100000x64_S100000x64,
    binary main_v244 main_v242 main_v245 (addf : (⟨S100000x64, .f32⟩ : BufTy).Contents (Elt F) → (⟨S100000x64, .f32⟩ : BufTy).Contents (Elt F) → (⟨S100000x64, .f32⟩ : BufTy).Contents (Elt F)),
    nullary main_cst_46 (constant S_ .f32 0x3F800000#32),
    unary main_cst_46 main_v246 (broadcastInDim S100000x64 ![] bcast_S_S100000x64 : (⟨S_, .f32⟩ : BufTy).Contents (Elt F) → (⟨S100000x64, .f32⟩ : BufTy).Contents (Elt F)),
    binary main_v245 main_v246 main_v247 (Host.divf : (⟨S100000x64, .f32⟩ : BufTy).Contents (Elt F) → (⟨S100000x64, .f32⟩ : BufTy).Contents (Elt F) → (⟨S100000x64, .f32⟩ : BufTy).Contents (Elt F)),
    unary main_v247 main_v248 (Host.negf : (⟨S100000x64, .f32⟩ : BufTy).Contents (Elt F) → (⟨S100000x64, .f32⟩ : BufTy).Contents (Elt F)),
    unary main_v248 main_v249 (Host.exp : (⟨S100000x64, .f32⟩ : BufTy).Contents (Elt F) → (⟨S100000x64, .f32⟩ : BufTy).Contents (Elt F)),
    nullary main_cst_47 (constant S_ .f32 0x3F800000#32) ]

set_option maxHeartbeats 4000000 in
/-- Operations 305 to 336 of the program. -/
def ops5 : List (HloOp τ sig (Elt F)) :=
  [ unary main_cst_47 main_v250 (broadcastInDim S100000x64 ![] bcast_S_S100000x64 : (⟨S_, .f32⟩ : BufTy).Contents (Elt F) → (⟨S100000x64, .f32⟩ : BufTy).Contents (Elt F)),
    binary main_v250 main_v249 main_v251 (addf : (⟨S100000x64, .f32⟩ : BufTy).Contents (Elt F) → (⟨S100000x64, .f32⟩ : BufTy).Contents (Elt F) → (⟨S100000x64, .f32⟩ : BufTy).Contents (Elt F)),
    nullary main_cst_48 (constant S_ .f32 0x3F800000#32),
    unary main_cst_48 main_v252 (broadcastInDim S100000x64 ![] bcast_S_S100000x64 : (⟨S_, .f32⟩ : BufTy).Contents (Elt F) → (⟨S100000x64, .f32⟩ : BufTy).Contents (Elt F)),
    binary main_v252 main_v251 main_v253 (Host.divf : (⟨S100000x64, .f32⟩ : BufTy).Contents (Elt F) → (⟨S100000x64, .f32⟩ : BufTy).Contents (Elt F) → (⟨S100000x64, .f32⟩ : BufTy).Contents (Elt F)),
    binary main_v253 main_v133 main_v254 (mulf : (⟨S100000x64, .f32⟩ : BufTy).Contents (Elt F) → (⟨S100000x64, .f32⟩ : BufTy).Contents (Elt F) → (⟨S100000x64, .f32⟩ : BufTy).Contents (Elt F)),
    unary main_arg3 main_v255 (broadcastInDim S800000x1 ![0] bcast_S800000_S800000x1_0 : (⟨S800000, .f32⟩ : BufTy).Contents (Elt F) → (⟨S800000x1, .f32⟩ : BufTy).Contents (Elt F)),
    nullary main_c_49 (constantI S_ 32 0#32),
    unary main_c_49 main_v256 (broadcastInDim S800000 ![] bcast_S_S800000 : (⟨S_, .i32⟩ : BufTy).Contents (Elt F) → (⟨S800000, .i32⟩ : BufTy).Contents (Elt F)),
    binary main_arg2 main_v256 main_v257 (cmpi .slt : (⟨S800000, .i32⟩ : BufTy).Contents (Elt F) → (⟨S800000, .i32⟩ : BufTy).Contents (Elt F) → (⟨S800000, .i1⟩ : BufTy).Contents (Elt F)),
    nullary main_c_50 (constantI S_ 32 100000#32),
    unary main_c_50 main_v258 (broadcastInDim S800000 ![] bcast_S_S800000 : (⟨S_, .i32⟩ : BufTy).Contents (Elt F) → (⟨S800000, .i32⟩ : BufTy).Contents (Elt F)),
    binary main_arg2 main_v258 main_v259 (addi : (⟨S800000, .i32⟩ : BufTy).Contents (Elt F) → (⟨S800000, .i32⟩ : BufTy).Contents (Elt F) → (⟨S800000, .i32⟩ : BufTy).Contents (Elt F)),
    ternary main_v257 main_v259 main_arg2 main_v260 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v260 main_v261 (broadcastInDim S800000x1 ![0] bcast_S800000_S800000x1_0 : (⟨S800000, .i32⟩ : BufTy).Contents (Elt F) → (⟨S800000x1, .i32⟩ : BufTy).Contents (Elt F)),
    binary main_v254 main_v261 main_v262 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    unary main_v255 main_v263 (broadcastInDim S800000x64 ![0, 1] bcast_S800000x1_S800000x64_0_1 : (⟨S800000x1, .f32⟩ : BufTy).Contents (Elt F) → (⟨S800000x64, .f32⟩ : BufTy).Contents (Elt F)),
    binary main_v263 main_v262 main_v264 (mulf : (⟨S800000x64, .f32⟩ : BufTy).Contents (Elt F) → (⟨S800000x64, .f32⟩ : BufTy).Contents (Elt F) → (⟨S800000x64, .f32⟩ : BufTy).Contents (Elt F)),
    nullary main_cst_51 (constant S_ .f32 0x00000000#32),
    unary main_cst_51 main_v265 (broadcastInDim S100000x64 ![] bcast_S_S100000x64 : (⟨S_, .f32⟩ : BufTy).Contents (Elt F) → (⟨S100000x64, .f32⟩ : BufTy).Contents (Elt F)),
    unary main_arg1 main_v266 (broadcastInDim S800000x1 ![0] bcast_S800000_S800000x1_0 : (⟨S800000, .i32⟩ : BufTy).Contents (Elt F) → (⟨S800000x1, .i32⟩ : BufTy).Contents (Elt F)),
    ternary main_v265 main_v266 main_v264 main_v267 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    binary main_v149 main_v131 main_v268 (addf : (⟨S100000x64, .f32⟩ : BufTy).Contents (Elt F) → (⟨S100000x64, .f32⟩ : BufTy).Contents (Elt F) → (⟨S100000x64, .f32⟩ : BufTy).Contents (Elt F)),
    binary main_v224 main_v132 main_v269 (addf : (⟨S100000x64, .f32⟩ : BufTy).Contents (Elt F) → (⟨S100000x64, .f32⟩ : BufTy).Contents (Elt F) → (⟨S100000x64, .f32⟩ : BufTy).Contents (Elt F)),
    binary main_v267 main_v133 main_v270 (addf : (⟨S100000x64, .f32⟩ : BufTy).Contents (Elt F) → (⟨S100000x64, .f32⟩ : BufTy).Contents (Elt F) → (⟨S100000x64, .f32⟩ : BufTy).Contents (Elt F)),
    binary main_v134 main_v268 main_v271 (addf : (⟨S100000x64, .f32⟩ : BufTy).Contents (Elt F) → (⟨S100000x64, .f32⟩ : BufTy).Contents (Elt F) → (⟨S100000x64, .f32⟩ : BufTy).Contents (Elt F)),
    binary main_v135 main_v269 main_v272 (addf : (⟨S100000x64, .f32⟩ : BufTy).Contents (Elt F) → (⟨S100000x64, .f32⟩ : BufTy).Contents (Elt F) → (⟨S100000x64, .f32⟩ : BufTy).Contents (Elt F)),
    binary main_v136 main_v270 main_v273 (addf : (⟨S100000x64, .f32⟩ : BufTy).Contents (Elt F) → (⟨S100000x64, .f32⟩ : BufTy).Contents (Elt F) → (⟨S100000x64, .f32⟩ : BufTy).Contents (Elt F)),
    unary main_v271 main_v274 (broadcastInDim S1x100000x64 ![1, 2] bcast_S100000x64_S1x100000x64_1_2 : (⟨S100000x64, .f32⟩ : BufTy).Contents (Elt F) → (⟨S1x100000x64, .f32⟩ : BufTy).Contents (Elt F)),
    unary main_v272 main_v275 (broadcastInDim S1x100000x64 ![1, 2] bcast_S100000x64_S1x100000x64_1_2 : (⟨S100000x64, .f32⟩ : BufTy).Contents (Elt F) → (⟨S1x100000x64, .f32⟩ : BufTy).Contents (Elt F)),
    unary main_v273 main_v276 (broadcastInDim S1x100000x64 ![1, 2] bcast_S100000x64_S1x100000x64_1_2 : (⟨S100000x64, .f32⟩ : BufTy).Contents (Elt F) → (⟨S1x100000x64, .f32⟩ : BufTy).Contents (Elt F)),
    nary ![main_v274, main_v275, main_v276] main_v277 (fun u => concatenate S3x100000x64 0 [⟨S1x100000x64, u 0⟩, ⟨S1x100000x64, u 1⟩, ⟨S1x100000x64, u 2⟩] concatenates_S1x100000x64_S1x100000x64_S1x100000x64_S3x100000x64_d0) ]

set_option maxHeartbeats 4000000 in
/-- Printed function 0 runs its list. -/
theorem part0_eq (c : Dev nD) : main_part0 (F := F) c = seq ops0 := rfl

set_option maxHeartbeats 4000000 in
/-- Printed function 1 runs its list. -/
theorem part1_eq (c : Dev nD) : main_part1 (F := F) c = seq ops1 := rfl

set_option maxHeartbeats 4000000 in
/-- Printed function 2 runs its list. -/
theorem part2_eq (c : Dev nD) : main_part2 (F := F) c = seq ops2 := rfl

set_option maxHeartbeats 4000000 in
/-- Printed function 3 runs its list. -/
theorem part3_eq (c : Dev nD) : main_part3 (F := F) c = seq ops3 := rfl

set_option maxHeartbeats 4000000 in
/-- Printed function 4 runs its list. -/
theorem part4_eq (c : Dev nD) : main_part4 (F := F) c = seq ops4 := rfl

set_option maxHeartbeats 4000000 in
/-- Printed function 5 runs its list. -/
theorem part5_eq (c : Dev nD) : main_part5 (F := F) c = seq ops5 := rfl

/-- Every operation of list 0 touches only arrays of the device. -/
theorem ops0_sub : (ops0 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., binary_bufs_sub .., nullary_bufs_sub .., unary_bufs_sub ..⟩
/-- No operation of list 0 leaves a result undetermined. -/
theorem ops0_fresh : (ops0 : List (HloOp τ sig (Elt F))).Forall fun op => op.fresh = ∅ := by
  unfold ops0; simp only [List.Forall]; repeat' constructor

/-- Every operation of list 1 touches only arrays of the device. -/
theorem ops1_sub : (ops1 : List (HloOp τ sig (Elt F))).Forall fun op => op.bufs ⊆ tcRefs τ sig :=
  ⟨binary_bufs_sub .., unary_bufs_sub .., unary_bufs_sub .., nullary_bufs_sub .., unary_bufs_sub .., binary_bufs_sub .., nullary_bufs_sub .., unary_bufs_sub .., binary_bufs_sub .., reshape_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub ..⟩
/-- No operation of list 1 leaves a result undetermined. -/
theorem ops1_fresh : (ops1 : List (HloOp τ sig (Elt F))).Forall fun op => op.fresh = ∅ := by
  unfold ops1; simp only [List.Forall]; repeat' constructor

/-- Every operation of list 2 touches only arrays of the device. -/
theorem ops2_sub : (ops2 : List (HloOp τ sig (Elt F))).Forall fun op => op.bufs ⊆ tcRefs τ sig :=
  ⟨reshape_bufs_sub .., binary_bufs_sub .., unary_bufs_sub .., reshape_bufs_sub .., unary_bufs_sub .., unary_bufs_sub .., binary_bufs_sub .., unary_bufs_sub .., reshape_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., binary_bufs_sub .., binary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
/-- No operation of list 2 leaves a result undetermined. -/
theorem ops2_fresh : (ops2 : List (HloOp τ sig (Elt F))).Forall fun op => op.fresh = ∅ := by
  unfold ops2; simp only [List.Forall]; repeat' constructor

/-- Every operation of list 3 touches only arrays of the device. -/
theorem ops3_sub : (ops3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., reshape_bufs_sub .., nullary_bufs_sub .., unary_bufs_sub .., unary_bufs_sub .., ternary_bufs_sub .., nullary_bufs_sub .., unary_bufs_sub ..⟩
/-- No operation of list 3 leaves a result undetermined. -/
theorem ops3_fresh : (ops3 : List (HloOp τ sig (Elt F))).Forall fun op => op.fresh = ∅ := by
  unfold ops3; simp only [List.Forall]; repeat' constructor

/-- Every operation of list 4 touches only arrays of the device. -/
theorem ops4_sub : (ops4 : List (HloOp τ sig (Elt F))).Forall fun op => op.bufs ⊆ tcRefs τ sig :=
  ⟨binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., nullary_bufs_sub .., unary_bufs_sub .., binary_bufs_sub .., unary_bufs_sub .., unary_bufs_sub .., nullary_bufs_sub ..⟩
/-- No operation of list 4 leaves a result undetermined. -/
theorem ops4_fresh : (ops4 : List (HloOp τ sig (Elt F))).Forall fun op => op.fresh = ∅ := by
  unfold ops4; simp only [List.Forall]; repeat' constructor

/-- Every operation of list 5 touches only arrays of the device. -/
theorem ops5_sub : (ops5 : List (HloOp τ sig (Elt F))).Forall fun op => op.bufs ⊆ tcRefs τ sig :=
  ⟨unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., binary_bufs_sub .., binary_bufs_sub .., binary_bufs_sub .., binary_bufs_sub .., binary_bufs_sub .., unary_bufs_sub .., unary_bufs_sub .., unary_bufs_sub .., nary_bufs_sub ..⟩
/-- No operation of list 5 leaves a result undetermined. -/
theorem ops5_fresh : (ops5 : List (HloOp τ sig (Elt F))).Forall fun op => op.fresh = ∅ := by
  unfold ops5; simp only [List.Forall]; repeat' constructor

end Cert.ReferenceIdeal.RunHand

end
-- ==== Proof.RefRunHandBase.lean ====
/-
  Following a straight line of array operations one operation at a time: the general step.

  A valuation gives every array of the device its contents. An operation of the program writes exactly one array:
  running it changes the valuation at that array, to the operation's function of its operands' contents, and nowhere
  else. Two consequences carry the whole read-back.
  (1) Whatever was known about another array stays known (`keep`); in particular, since no operation writes an
  argument array, the arguments keep the contents they were launched with (`args_step`).
  (2) If each operand is known to hold some value, the written array holds the operation's function of those values
  (`new_nullary`, `new_unary`, `new_binary`, `new_ternary`). The program's stages are defined exactly so: the stage
  of an operation's result is the operation's function applied to the stages of its operands. So when every operand
  holds its stage, the result holds its stage, by the definition of the stage.
  Chaining (1) and (2) through the program's operations in order: at the end the last array holds the last stage and
  the arguments hold what they held at launch.
-/
import proofs.«170728_j33028298506953_2_alg».proof.Proof.Gen.ReferenceIdeal
import Idealize.ShloMosaic.Lib.StableHlo.Run

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

/-! ## What an operation leaves alone -/

/-- An operation that writes the single array `y` leaves every other array as it was. -/
theorem keep {op : HloOp τ sig (Elt F)} {V : Valuation τ sig (Elt F)} (y : Ref sig .tc)
    (hw : op.writes = {Proc.devRef (τ := τ) .tc y}) {r : Ref sig .tc} (h : r ≠ y) :
    op.result V (Proc.devRef .tc r) = V (Proc.devRef .tc r) :=
  op.result_of_not_mem V (by rw [hw, Finset.mem_singleton]; exact devRef_ne_of_ne h)

/-- The program's fourteen argument arrays. -/
abbrev argRefs : List (Ref sig .tc) :=
  [main_arg0, main_arg1, main_arg2, main_arg3, main_arg4, main_arg5, main_arg6, main_arg7, main_arg8, main_arg9, main_arg10, main_arg11, main_arg12, main_arg13]

/-- The argument arrays hold the contents `x0`, …, `x13`. -/
def Args (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_arg7) = x7 ∧ V (Proc.devRef .tc main_arg8) = x8 ∧ V (Proc.devRef .tc main_arg9) = x9 ∧ V (Proc.devRef .tc main_arg10) = x10 ∧ V (Proc.devRef .tc main_arg11) = x11 ∧ V (Proc.devRef .tc main_arg12) = x12 ∧ V (Proc.devRef .tc main_arg13) = x13

/-- An operation that writes a single array which is not an argument leaves the arguments' contents. -/
theorem args_step {op : HloOp τ sig (Elt F)} {V : Valuation τ sig (Elt F)} {x0 : (⟨S100000x64, .f32⟩ : BufTy).Contents (Elt F)} {x1 : (⟨S800000, .i32⟩ : BufTy).Contents (Elt F)} {x2 : (⟨S800000, .i32⟩ : BufTy).Contents (Elt F)} {x3 : (⟨S800000, .f32⟩ : BufTy).Contents (Elt F)} {x4 : (⟨S2x800000, .f32⟩ : BufTy).Contents (Elt F)} {x5 : (⟨S2x100000x64, .f32⟩ : BufTy).Contents (Elt F)} {x6 : (⟨S2x128x64, .f32⟩ : BufTy).Contents (Elt F)} {x7 : (⟨S2x64, .f32⟩ : BufTy).Contents (Elt F)} {x8 : (⟨S2x64x1, .f32⟩ : BufTy).Contents (Elt F)} {x9 : (⟨S2x1, .f32⟩ : BufTy).Contents (Elt F)} {x10 : (⟨S2x64x64, .f32⟩ : BufTy).Contents (Elt F)} {x11 : (⟨S2x64, .f32⟩ : BufTy).Contents (Elt F)} {x12 : (⟨S2x64x64, .f32⟩ : BufTy).Contents (Elt F)} {x13 : (⟨S2x64, .f32⟩ : BufTy).Contents (Elt F)} (y : Ref sig .tc)
    (hw : op.writes = {Proc.devRef (τ := τ) .tc y}) (hy : y ∉ (argRefs : List (Ref sig .tc)))
    (h : Args x0 x1 x2 x3 x4 x5 x6 x7 x8 x9 x10 x11 x12 x13 V) : Args x0 x1 x2 x3 x4 x5 x6 x7 x8 x9 x10 x11 x12 x13 (op.result V) := by
  unfold Args at h ⊢
  obtain ⟨a0, a1, a2, a3, a4, a5, a6, a7, a8, a9, a10, a11, a12, a13⟩ := h
  exact ⟨(keep y hw (ne_of_mem_of_not_mem (by decide) hy)).trans a0,
    (keep y hw (ne_of_mem_of_not_mem (by decide) hy)).trans a1,
    (keep y hw (ne_of_mem_of_not_mem (by decide) hy)).trans a2,
    (keep y hw (ne_of_mem_of_not_mem (by decide) hy)).trans a3,
    (keep y hw (ne_of_mem_of_not_mem (by decide) hy)).trans a4,
    (keep y hw (ne_of_mem_of_not_mem (by decide) hy)).trans a5,
    (keep y hw (ne_of_mem_of_not_mem (by decide) hy)).trans a6,
    (keep y hw (ne_of_mem_of_not_mem (by decide) hy)).trans a7,
    (keep y hw (ne_of_mem_of_not_mem (by decide) hy)).trans a8,
    (keep y hw (ne_of_mem_of_not_mem (by decide) hy)).trans a9,
    (keep y hw (ne_of_mem_of_not_mem (by decide) hy)).trans a10,
    (keep y hw (ne_of_mem_of_not_mem (by decide) hy)).trans a11,
    (keep y hw (ne_of_mem_of_not_mem (by decide) hy)).trans a12,
    (keep y hw (ne_of_mem_of_not_mem (by decide) hy)).trans a13⟩

/-! ## What an operation writes

The written array holds the operation's function of the operands' contents; when those are known values, it holds the
function of those values, and hence any `w` equal to that. -/

section New

variable {V : Valuation τ sig (Elt F)}

theorem new_nullary {y : Ref sig .tc} {v w : y.ty.Contents (Elt F)} {hy} (hv : v = w) :
    (nullary (τ := τ) y v hy).result V (Proc.devRef .tc y) = w :=
  (nullary_result y v hy V).trans hv

theorem new_unary {x y : Ref sig .tc} {f : x.ty.Contents (Elt F) → y.ty.Contents (Elt F)} {hx hy}
    {vx : x.ty.Contents (Elt F)} {w : y.ty.Contents (Elt F)}
    (h : V (Proc.devRef .tc x) = vx) (hv : f vx = w) :
    (unary (τ := τ) x y f hx hy).result V (Proc.devRef .tc y) = w := by
  rw [unary_result, h]; exact hv

theorem new_binary {a b y : Ref sig .tc} {f : a.ty.Contents (Elt F) → b.ty.Contents (Elt F) → y.ty.Contents (Elt F)} {ha hb hy}
    {va : a.ty.Contents (Elt F)} {vb : b.ty.Contents (Elt F)} {w : y.ty.Contents (Elt F)}
    (h₁ : V (Proc.devRef .tc a) = va) (h₂ : V (Proc.devRef .tc b) = vb) (hv : f va vb = w) :
    (binary (τ := τ) a b y f ha hb hy).result V (Proc.devRef .tc y) = w := by
  rw [binary_result, h₁, h₂]; exact hv

theorem new_ternary {c a b y : Ref sig .tc}
    {f : c.ty.Contents (Elt F) → a.ty.Contents (Elt F) → b.ty.Contents (Elt F) → y.ty.Contents (Elt F)} {hc ha hb hy}
    {vc : c.ty.Contents (Elt F)} {va : a.ty.Contents (Elt F)} {vb : b.ty.Contents (Elt F)} {w : y.ty.Contents (Elt F)}
    (h₀ : V (Proc.devRef .tc c) = vc) (h₁ : V (Proc.devRef .tc a) = va) (h₂ : V (Proc.devRef .tc b) = vb) (hv : f vc va vb = w) :
    (ternary (τ := τ) c a b y f hc ha hb hy).result V (Proc.devRef .tc y) = w := by
  rw [ternary_result, h₀, h₁, h₂]; exact hv

end New

end Cert.ReferenceIdeal.RunHand

end
-- ==== Proof.RefRunHandLive.lean ====
/- For each array the program writes: the statement that it holds its stage. For each position in the program: the
  statement that every earlier result a later operation still reads holds its stage.

  At_<array> x0 … V: under the valuation V the array holds the stage the program computes for it from argument
  contents x0, …. LiveK x0 … V: before operation K+1 (counting from 1) this holds of every array written so far that
  operation K+1 or a later one reads (after the last operation: of the result array).
-/
import proofs.«170728_j33028298506953_2_alg».proof.Proof.RefRead

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

/-! ## Each written array at its stage -/

abbrev At_v0 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v0) = ReadP.val_main_v0 (F := F) x3
abbrev At_c (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_c) = ReadP.val_main_c (F := F)
abbrev At_v1 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v1) = ReadP.val_main_v1 (F := F)
abbrev At_v2 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v2) = ReadP.val_main_v2 (F := F) x2
abbrev At_c_0 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_c_0) = ReadP.val_main_c_0 (F := F)
abbrev At_v3 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v3) = ReadP.val_main_v3 (F := F)
abbrev At_v4 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v4) = ReadP.val_main_v4 (F := F) x2
abbrev At_v5 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v5) = ReadP.val_main_v5 (F := F) x2
abbrev At_v6 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v6) = ReadP.val_main_v6 (F := F) x2
abbrev At_v7 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v7) = ReadP.val_main_v7 (F := F) x0 x2
abbrev At_v8 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v8) = ReadP.val_main_v8 (F := F) x3
abbrev At_v9 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v9) = ReadP.val_main_v9 (F := F) x0 x2 x3
abbrev At_cst (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_cst) = ReadP.val_main_cst (F := F)
abbrev At_v10 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v10) = ReadP.val_main_v10 (F := F)
abbrev At_v11 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v11) = ReadP.val_main_v11 (F := F) x1
abbrev At_v12 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v12) = ReadP.val_main_v12 (F := F) x0 x1 x2 x3
abbrev At_c_1 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_c_1) = ReadP.val_main_c_1 (F := F)
abbrev At_v13 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v13) = ReadP.val_main_v13 (F := F)
abbrev At_v14 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v14) = ReadP.val_main_v14 (F := F) x1
abbrev At_c_2 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_c_2) = ReadP.val_main_c_2 (F := F)
abbrev At_v15 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v15) = ReadP.val_main_v15 (F := F)
abbrev At_v16 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v16) = ReadP.val_main_v16 (F := F) x1
abbrev At_v17 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v17) = ReadP.val_main_v17 (F := F) x1
abbrev At_v18 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v18) = ReadP.val_main_v18 (F := F) x1
abbrev At_v19 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v19) = ReadP.val_main_v19 (F := F) x0 x1
abbrev At_c_3 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_c_3) = ReadP.val_main_c_3 (F := F)
abbrev At_v20 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v20) = ReadP.val_main_v20 (F := F)
abbrev At_v21 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v21) = ReadP.val_main_v21 (F := F) x2
abbrev At_c_4 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_c_4) = ReadP.val_main_c_4 (F := F)
abbrev At_v22 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v22) = ReadP.val_main_v22 (F := F)
abbrev At_v23 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v23) = ReadP.val_main_v23 (F := F) x2
abbrev At_v24 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v24) = ReadP.val_main_v24 (F := F) x2
abbrev At_v25 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v25) = ReadP.val_main_v25 (F := F) x2
abbrev At_v26 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v26) = ReadP.val_main_v26 (F := F) x0 x2
abbrev At_v27 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v27) = ReadP.val_main_v27 (F := F) x0 x1 x2
abbrev At_v28 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v28) = ReadP.val_main_v28 (F := F) x6
abbrev At_v29 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v29) = ReadP.val_main_v29 (F := F) x6
abbrev At_v30 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v30) = ReadP.val_main_v30 (F := F) x0 x1 x2 x6
abbrev At_v31 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v31) = ReadP.val_main_v31 (F := F) x7
abbrev At_v32 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v32) = ReadP.val_main_v32 (F := F) x7
abbrev At_v33 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v33) = ReadP.val_main_v33 (F := F) x7
abbrev At_v34 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v34) = ReadP.val_main_v34 (F := F) x7
abbrev At_v35 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v35) = ReadP.val_main_v35 (F := F) x0 x1 x2 x6 x7
abbrev At_cst_5 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_cst_5) = ReadP.val_main_cst_5 (F := F)
abbrev At_v36 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v36) = ReadP.val_main_v36 (F := F)
abbrev At_v37 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v37) = ReadP.val_main_v37 (F := F) x0 x1 x2 x6 x7
abbrev At_v38 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v38) = ReadP.val_main_v38 (F := F) x8
abbrev At_v39 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v39) = ReadP.val_main_v39 (F := F) x8
abbrev At_v40 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v40) = ReadP.val_main_v40 (F := F) x0 x1 x2 x6 x7 x8
abbrev At_v41 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v41) = ReadP.val_main_v41 (F := F) x9
abbrev At_v42 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v42) = ReadP.val_main_v42 (F := F) x9
abbrev At_v43 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v43) = ReadP.val_main_v43 (F := F) x9
abbrev At_v44 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v44) = ReadP.val_main_v44 (F := F) x9
abbrev At_v45 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v45) = ReadP.val_main_v45 (F := F) x0 x1 x2 x6 x7 x8 x9
abbrev At_v46 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v46) = ReadP.val_main_v46 (F := F) x4
abbrev At_v47 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v47) = ReadP.val_main_v47 (F := F) x4
abbrev At_v48 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v48) = ReadP.val_main_v48 (F := F) x4
abbrev At_v49 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v49) = ReadP.val_main_v49 (F := F) x0 x1 x2 x4 x6 x7 x8 x9
abbrev At_cst_6 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_cst_6) = ReadP.val_main_cst_6 (F := F)
abbrev At_v50 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v50) = ReadP.val_main_v50 (F := F)
abbrev At_v51 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v51) = ReadP.val_main_v51 (F := F) x0 x1 x2 x4 x6 x7 x8 x9
abbrev At_v52 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v52) = ReadP.val_main_v52 (F := F) x0 x1 x2 x4 x6 x7 x8 x9
abbrev At_v53 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v53) = ReadP.val_main_v53 (F := F) x0 x1 x2 x4 x6 x7 x8 x9
abbrev At_cst_7 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_cst_7) = ReadP.val_main_cst_7 (F := F)
abbrev At_v54 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v54) = ReadP.val_main_v54 (F := F)
abbrev At_v55 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v55) = ReadP.val_main_v55 (F := F) x0 x1 x2 x4 x6 x7 x8 x9
abbrev At_cst_8 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_cst_8) = ReadP.val_main_cst_8 (F := F)
abbrev At_v56 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v56) = ReadP.val_main_v56 (F := F)
abbrev At_v57 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v57) = ReadP.val_main_v57 (F := F) x0 x1 x2 x4 x6 x7 x8 x9
abbrev At_v58 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v58) = ReadP.val_main_v58 (F := F) x0 x1 x2 x4 x6 x7 x8 x9
abbrev At_cst_9 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_cst_9) = ReadP.val_main_cst_9 (F := F)
abbrev At_v59 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v59) = ReadP.val_main_v59 (F := F)
abbrev At_v60 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v60) = ReadP.val_main_v60 (F := F) x1
abbrev At_v61 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v61) = ReadP.val_main_v61 (F := F) x0 x1 x2 x4 x6 x7 x8 x9
abbrev At_cst_10 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_cst_10) = ReadP.val_main_cst_10 (F := F)
abbrev At_v62 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v62) = ReadP.val_main_v62 (F := F)
abbrev At_v63 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v63) = ReadP.val_main_v63 (F := F) x0 x1 x2 x4 x6 x7 x8 x9
abbrev At_cst_11 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_cst_11) = ReadP.val_main_cst_11 (F := F)
abbrev At_v64 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v64) = ReadP.val_main_v64 (F := F)
abbrev At_v65 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v65) = ReadP.val_main_v65 (F := F) x0 x1 x2 x4 x6 x7 x8 x9
abbrev At_cst_12 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_cst_12) = ReadP.val_main_cst_12 (F := F)
abbrev At_call0_v0 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_call0_v0) = ReadP.val_main_call0_v0 (F := F)
abbrev At_call0_v1 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_call0_v1) = ReadP.val_main_call0_v1 (F := F)
abbrev At_v66 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v66) = ReadP.val_main_v66 (F := F) x0 x1 x2 x4 x6 x7 x8 x9
abbrev At_c_13 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_c_13) = ReadP.val_main_c_13 (F := F)
abbrev At_v67 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v67) = ReadP.val_main_v67 (F := F)
abbrev At_v68 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v68) = ReadP.val_main_v68 (F := F) x1
abbrev At_c_14 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_c_14) = ReadP.val_main_c_14 (F := F)
abbrev At_v69 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v69) = ReadP.val_main_v69 (F := F)
abbrev At_v70 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v70) = ReadP.val_main_v70 (F := F) x1
abbrev At_v71 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v71) = ReadP.val_main_v71 (F := F) x1
abbrev At_v72 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v72) = ReadP.val_main_v72 (F := F) x1
abbrev At_v73 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v73) = ReadP.val_main_v73 (F := F) x0 x1 x2 x4 x6 x7 x8 x9
abbrev At_v74 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v74) = ReadP.val_main_v74 (F := F) x0 x1 x2 x4 x6 x7 x8 x9
abbrev At_v75 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v75) = ReadP.val_main_v75 (F := F) x0 x1 x2 x4 x6 x7 x8 x9
abbrev At_c_15 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_c_15) = ReadP.val_main_c_15 (F := F)
abbrev At_v76 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v76) = ReadP.val_main_v76 (F := F)
abbrev At_v77 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v77) = ReadP.val_main_v77 (F := F) x2
abbrev At_c_16 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_c_16) = ReadP.val_main_c_16 (F := F)
abbrev At_v78 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v78) = ReadP.val_main_v78 (F := F)
abbrev At_v79 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v79) = ReadP.val_main_v79 (F := F) x2
abbrev At_v80 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v80) = ReadP.val_main_v80 (F := F) x2
abbrev At_v81 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v81) = ReadP.val_main_v81 (F := F) x2
abbrev At_v82 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v82) = ReadP.val_main_v82 (F := F) x0 x2
abbrev At_v83 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v83) = ReadP.val_main_v83 (F := F) x0 x1 x2 x4 x6 x7 x8 x9
abbrev At_v84 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v84) = ReadP.val_main_v84 (F := F) x0 x1 x2 x4 x6 x7 x8 x9
abbrev At_cst_17 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_cst_17) = ReadP.val_main_cst_17 (F := F)
abbrev At_v85 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v85) = ReadP.val_main_v85 (F := F)
abbrev At_v86 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v86) = ReadP.val_main_v86 (F := F) x1
abbrev At_v87 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v87) = ReadP.val_main_v87 (F := F) x0 x1 x2 x4 x6 x7 x8 x9
abbrev At_v88 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v88) = ReadP.val_main_v88 (F := F) x10
abbrev At_v89 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v89) = ReadP.val_main_v89 (F := F) x10
abbrev At_v90 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v90) = ReadP.val_main_v90 (F := F) x0 x10
abbrev At_v91 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v91) = ReadP.val_main_v91 (F := F) x11
abbrev At_v92 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v92) = ReadP.val_main_v92 (F := F) x11
abbrev At_v93 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v93) = ReadP.val_main_v93 (F := F) x11
abbrev At_v94 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v94) = ReadP.val_main_v94 (F := F) x11
abbrev At_v95 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v95) = ReadP.val_main_v95 (F := F) x0 x10 x11
abbrev At_cst_18 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_cst_18) = ReadP.val_main_cst_18 (F := F)
abbrev At_v96 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v96) = ReadP.val_main_v96 (F := F)
abbrev At_v97 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v97) = ReadP.val_main_v97 (F := F) x0 x10 x11
abbrev At_v98 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v98) = ReadP.val_main_v98 (F := F) x12
abbrev At_v99 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v99) = ReadP.val_main_v99 (F := F) x12
abbrev At_v100 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v100) = ReadP.val_main_v100 (F := F) x0 x10 x11 x12
abbrev At_v101 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v101) = ReadP.val_main_v101 (F := F) x13
abbrev At_v102 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v102) = ReadP.val_main_v102 (F := F) x13
abbrev At_v103 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v103) = ReadP.val_main_v103 (F := F) x13
abbrev At_v104 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v104) = ReadP.val_main_v104 (F := F) x13
abbrev At_v105 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v105) = ReadP.val_main_v105 (F := F) x0 x10 x11 x12 x13
abbrev At_v106 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v106) = ReadP.val_main_v106 (F := F) x5
abbrev At_v107 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v107) = ReadP.val_main_v107 (F := F) x5
abbrev At_v108 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v108) = ReadP.val_main_v108 (F := F) x0 x5 x10 x11 x12 x13
abbrev At_cst_19 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_cst_19) = ReadP.val_main_cst_19 (F := F)
abbrev At_v109 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v109) = ReadP.val_main_v109 (F := F)
abbrev At_v110 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v110) = ReadP.val_main_v110 (F := F) x0 x5 x10 x11 x12 x13
abbrev At_v111 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v111) = ReadP.val_main_v111 (F := F) x0 x5 x10 x11 x12 x13
abbrev At_v112 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v112) = ReadP.val_main_v112 (F := F) x0 x5 x10 x11 x12 x13
abbrev At_cst_20 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_cst_20) = ReadP.val_main_cst_20 (F := F)
abbrev At_v113 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v113) = ReadP.val_main_v113 (F := F)
abbrev At_v114 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v114) = ReadP.val_main_v114 (F := F) x0 x5 x10 x11 x12 x13
abbrev At_cst_21 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_cst_21) = ReadP.val_main_cst_21 (F := F)
abbrev At_v115 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v115) = ReadP.val_main_v115 (F := F)
abbrev At_v116 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v116) = ReadP.val_main_v116 (F := F) x0 x5 x10 x11 x12 x13
abbrev At_v117 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v117) = ReadP.val_main_v117 (F := F) x0 x5 x10 x11 x12 x13
abbrev At_v118 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v118) = ReadP.val_main_v118 (F := F) x3
abbrev At_c_22 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_c_22) = ReadP.val_main_c_22 (F := F)
abbrev At_v119 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v119) = ReadP.val_main_v119 (F := F)
abbrev At_v120 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v120) = ReadP.val_main_v120 (F := F) x2
abbrev At_c_23 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_c_23) = ReadP.val_main_c_23 (F := F)
abbrev At_v121 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v121) = ReadP.val_main_v121 (F := F)
abbrev At_v122 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v122) = ReadP.val_main_v122 (F := F) x2
abbrev At_v123 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v123) = ReadP.val_main_v123 (F := F) x2
abbrev At_v124 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v124) = ReadP.val_main_v124 (F := F) x2
abbrev At_v125 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v125) = ReadP.val_main_v125 (F := F) x0 x2 x5 x10 x11 x12 x13
abbrev At_v126 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v126) = ReadP.val_main_v126 (F := F) x3
abbrev At_v127 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v127) = ReadP.val_main_v127 (F := F) x0 x2 x3 x5 x10 x11 x12 x13
abbrev At_cst_24 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_cst_24) = ReadP.val_main_cst_24 (F := F)
abbrev At_v128 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v128) = ReadP.val_main_v128 (F := F)
abbrev At_v129 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v129) = ReadP.val_main_v129 (F := F) x1
abbrev At_v130 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v130) = ReadP.val_main_v130 (F := F) x0 x1 x2 x3 x5 x10 x11 x12 x13
abbrev At_v131 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v131) = ReadP.val_main_v131 (F := F) x0 x1 x2 x3
abbrev At_v132 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v132) = ReadP.val_main_v132 (F := F) x0 x1 x2 x4 x6 x7 x8 x9
abbrev At_v133 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v133) = ReadP.val_main_v133 (F := F) x0 x1 x2 x3 x5 x10 x11 x12 x13
abbrev At_v134 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v134) = ReadP.val_main_v134 (F := F) x0 x1 x2 x3
abbrev At_v135 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v135) = ReadP.val_main_v135 (F := F) x0 x1 x2 x4 x6 x7 x8 x9
abbrev At_v136 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v136) = ReadP.val_main_v136 (F := F) x0 x1 x2 x3 x5 x10 x11 x12 x13
abbrev At_v137 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v137) = ReadP.val_main_v137 (F := F) x3
abbrev At_c_25 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_c_25) = ReadP.val_main_c_25 (F := F)
abbrev At_v138 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v138) = ReadP.val_main_v138 (F := F)
abbrev At_v139 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v139) = ReadP.val_main_v139 (F := F) x2
abbrev At_c_26 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_c_26) = ReadP.val_main_c_26 (F := F)
abbrev At_v140 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v140) = ReadP.val_main_v140 (F := F)
abbrev At_v141 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v141) = ReadP.val_main_v141 (F := F) x2
abbrev At_v142 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v142) = ReadP.val_main_v142 (F := F) x2
abbrev At_v143 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v143) = ReadP.val_main_v143 (F := F) x2
abbrev At_v144 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v144) = ReadP.val_main_v144 (F := F) x0 x1 x2 x3
abbrev At_v145 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v145) = ReadP.val_main_v145 (F := F) x3
abbrev At_v146 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v146) = ReadP.val_main_v146 (F := F) x0 x1 x2 x3
abbrev At_cst_27 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_cst_27) = ReadP.val_main_cst_27 (F := F)
abbrev At_v147 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v147) = ReadP.val_main_v147 (F := F)
abbrev At_v148 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v148) = ReadP.val_main_v148 (F := F) x1
abbrev At_v149 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v149) = ReadP.val_main_v149 (F := F) x0 x1 x2 x3
abbrev At_c_28 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_c_28) = ReadP.val_main_c_28 (F := F)
abbrev At_v150 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v150) = ReadP.val_main_v150 (F := F)
abbrev At_v151 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v151) = ReadP.val_main_v151 (F := F) x1
abbrev At_c_29 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_c_29) = ReadP.val_main_c_29 (F := F)
abbrev At_v152 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v152) = ReadP.val_main_v152 (F := F)
abbrev At_v153 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v153) = ReadP.val_main_v153 (F := F) x1
abbrev At_v154 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v154) = ReadP.val_main_v154 (F := F) x1
abbrev At_v155 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v155) = ReadP.val_main_v155 (F := F) x1
abbrev At_v156 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v156) = ReadP.val_main_v156 (F := F) x0 x1 x2 x4 x6 x7 x8 x9
abbrev At_c_30 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_c_30) = ReadP.val_main_c_30 (F := F)
abbrev At_v157 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v157) = ReadP.val_main_v157 (F := F)
abbrev At_v158 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v158) = ReadP.val_main_v158 (F := F) x2
abbrev At_c_31 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_c_31) = ReadP.val_main_c_31 (F := F)
abbrev At_v159 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v159) = ReadP.val_main_v159 (F := F)
abbrev At_v160 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v160) = ReadP.val_main_v160 (F := F) x2
abbrev At_v161 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v161) = ReadP.val_main_v161 (F := F) x2
abbrev At_v162 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v162) = ReadP.val_main_v162 (F := F) x2
abbrev At_v163 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v163) = ReadP.val_main_v163 (F := F) x0 x1 x2 x4 x6 x7 x8 x9
abbrev At_v164 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v164) = ReadP.val_main_v164 (F := F) x0 x1 x2 x4 x6 x7 x8 x9
abbrev At_v165 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v165) = ReadP.val_main_v165 (F := F) x6
abbrev At_v166 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v166) = ReadP.val_main_v166 (F := F) x6
abbrev At_v167 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v167) = ReadP.val_main_v167 (F := F) x0 x1 x2 x4 x6 x7 x8 x9
abbrev At_v168 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v168) = ReadP.val_main_v168 (F := F) x7
abbrev At_v169 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v169) = ReadP.val_main_v169 (F := F) x7
abbrev At_v170 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v170) = ReadP.val_main_v170 (F := F) x7
abbrev At_v171 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v171) = ReadP.val_main_v171 (F := F) x7
abbrev At_v172 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v172) = ReadP.val_main_v172 (F := F) x0 x1 x2 x4 x6 x7 x8 x9
abbrev At_cst_32 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_cst_32) = ReadP.val_main_cst_32 (F := F)
abbrev At_v173 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v173) = ReadP.val_main_v173 (F := F)
abbrev At_v174 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v174) = ReadP.val_main_v174 (F := F) x0 x1 x2 x4 x6 x7 x8 x9
abbrev At_v175 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v175) = ReadP.val_main_v175 (F := F) x8
abbrev At_v176 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v176) = ReadP.val_main_v176 (F := F) x8
abbrev At_v177 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v177) = ReadP.val_main_v177 (F := F) x0 x1 x2 x4 x6 x7 x8 x9
abbrev At_v178 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v178) = ReadP.val_main_v178 (F := F) x9
abbrev At_v179 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v179) = ReadP.val_main_v179 (F := F) x9
abbrev At_v180 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v180) = ReadP.val_main_v180 (F := F) x9
abbrev At_v181 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v181) = ReadP.val_main_v181 (F := F) x9
abbrev At_v182 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v182) = ReadP.val_main_v182 (F := F) x0 x1 x2 x4 x6 x7 x8 x9
abbrev At_v183 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v183) = ReadP.val_main_v183 (F := F) x4
abbrev At_v184 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v184) = ReadP.val_main_v184 (F := F) x4
abbrev At_v185 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v185) = ReadP.val_main_v185 (F := F) x4
abbrev At_v186 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v186) = ReadP.val_main_v186 (F := F) x0 x1 x2 x4 x6 x7 x8 x9
abbrev At_cst_33 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_cst_33) = ReadP.val_main_cst_33 (F := F)
abbrev At_v187 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v187) = ReadP.val_main_v187 (F := F)
abbrev At_v188 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v188) = ReadP.val_main_v188 (F := F) x0 x1 x2 x4 x6 x7 x8 x9
abbrev At_v189 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v189) = ReadP.val_main_v189 (F := F) x0 x1 x2 x4 x6 x7 x8 x9
abbrev At_v190 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v190) = ReadP.val_main_v190 (F := F) x0 x1 x2 x4 x6 x7 x8 x9
abbrev At_cst_34 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_cst_34) = ReadP.val_main_cst_34 (F := F)
abbrev At_v191 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v191) = ReadP.val_main_v191 (F := F)
abbrev At_v192 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v192) = ReadP.val_main_v192 (F := F) x0 x1 x2 x4 x6 x7 x8 x9
abbrev At_cst_35 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_cst_35) = ReadP.val_main_cst_35 (F := F)
abbrev At_v193 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v193) = ReadP.val_main_v193 (F := F)
abbrev At_v194 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v194) = ReadP.val_main_v194 (F := F) x0 x1 x2 x4 x6 x7 x8 x9
abbrev At_v195 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v195) = ReadP.val_main_v195 (F := F) x0 x1 x2 x4 x6 x7 x8 x9
abbrev At_cst_36 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_cst_36) = ReadP.val_main_cst_36 (F := F)
abbrev At_v196 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v196) = ReadP.val_main_v196 (F := F)
abbrev At_v197 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v197) = ReadP.val_main_v197 (F := F) x1
abbrev At_v198 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v198) = ReadP.val_main_v198 (F := F) x0 x1 x2 x4 x6 x7 x8 x9
abbrev At_cst_37 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_cst_37) = ReadP.val_main_cst_37 (F := F)
abbrev At_v199 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v199) = ReadP.val_main_v199 (F := F)
abbrev At_v200 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v200) = ReadP.val_main_v200 (F := F) x0 x1 x2 x4 x6 x7 x8 x9
abbrev At_cst_38 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_cst_38) = ReadP.val_main_cst_38 (F := F)
abbrev At_v201 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v201) = ReadP.val_main_v201 (F := F)
abbrev At_v202 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v202) = ReadP.val_main_v202 (F := F) x0 x1 x2 x4 x6 x7 x8 x9
abbrev At_cst_39 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_cst_39) = ReadP.val_main_cst_39 (F := F)
abbrev At_call1_v0 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_call1_v0) = ReadP.val_main_call1_v0 (F := F)
abbrev At_call1_v1 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_call1_v1) = ReadP.val_main_call1_v1 (F := F)
abbrev At_v203 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v203) = ReadP.val_main_v203 (F := F) x0 x1 x2 x4 x6 x7 x8 x9
abbrev At_c_40 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_c_40) = ReadP.val_main_c_40 (F := F)
abbrev At_v204 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v204) = ReadP.val_main_v204 (F := F)
abbrev At_v205 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v205) = ReadP.val_main_v205 (F := F) x1
abbrev At_c_41 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_c_41) = ReadP.val_main_c_41 (F := F)
abbrev At_v206 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v206) = ReadP.val_main_v206 (F := F)
abbrev At_v207 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v207) = ReadP.val_main_v207 (F := F) x1
abbrev At_v208 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v208) = ReadP.val_main_v208 (F := F) x1
abbrev At_v209 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v209) = ReadP.val_main_v209 (F := F) x1
abbrev At_v210 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v210) = ReadP.val_main_v210 (F := F) x0 x1 x2 x4 x6 x7 x8 x9
abbrev At_v211 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v211) = ReadP.val_main_v211 (F := F) x0 x1 x2 x4 x6 x7 x8 x9
abbrev At_v212 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v212) = ReadP.val_main_v212 (F := F) x0 x1 x2 x4 x6 x7 x8 x9
abbrev At_c_42 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_c_42) = ReadP.val_main_c_42 (F := F)
abbrev At_v213 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v213) = ReadP.val_main_v213 (F := F)
abbrev At_v214 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v214) = ReadP.val_main_v214 (F := F) x2
abbrev At_c_43 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_c_43) = ReadP.val_main_c_43 (F := F)
abbrev At_v215 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v215) = ReadP.val_main_v215 (F := F)
abbrev At_v216 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v216) = ReadP.val_main_v216 (F := F) x2
abbrev At_v217 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v217) = ReadP.val_main_v217 (F := F) x2
abbrev At_v218 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v218) = ReadP.val_main_v218 (F := F) x2
abbrev At_v219 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v219) = ReadP.val_main_v219 (F := F) x0 x1 x2 x4 x6 x7 x8 x9
abbrev At_v220 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v220) = ReadP.val_main_v220 (F := F) x0 x1 x2 x4 x6 x7 x8 x9
abbrev At_v221 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v221) = ReadP.val_main_v221 (F := F) x0 x1 x2 x4 x6 x7 x8 x9
abbrev At_cst_44 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_cst_44) = ReadP.val_main_cst_44 (F := F)
abbrev At_v222 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v222) = ReadP.val_main_v222 (F := F)
abbrev At_v223 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v223) = ReadP.val_main_v223 (F := F) x1
abbrev At_v224 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v224) = ReadP.val_main_v224 (F := F) x0 x1 x2 x4 x6 x7 x8 x9
abbrev At_v225 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v225) = ReadP.val_main_v225 (F := F) x10
abbrev At_v226 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v226) = ReadP.val_main_v226 (F := F) x10
abbrev At_v227 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v227) = ReadP.val_main_v227 (F := F) x0 x1 x2 x3 x5 x10 x11 x12 x13
abbrev At_v228 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v228) = ReadP.val_main_v228 (F := F) x11
abbrev At_v229 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v229) = ReadP.val_main_v229 (F := F) x11
abbrev At_v230 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v230) = ReadP.val_main_v230 (F := F) x11
abbrev At_v231 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v231) = ReadP.val_main_v231 (F := F) x11
abbrev At_v232 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v232) = ReadP.val_main_v232 (F := F) x0 x1 x2 x3 x5 x10 x11 x12 x13
abbrev At_cst_45 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_cst_45) = ReadP.val_main_cst_45 (F := F)
abbrev At_v233 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v233) = ReadP.val_main_v233 (F := F)
abbrev At_v234 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v234) = ReadP.val_main_v234 (F := F) x0 x1 x2 x3 x5 x10 x11 x12 x13
abbrev At_v235 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v235) = ReadP.val_main_v235 (F := F) x12
abbrev At_v236 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v236) = ReadP.val_main_v236 (F := F) x12
abbrev At_v237 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v237) = ReadP.val_main_v237 (F := F) x0 x1 x2 x3 x5 x10 x11 x12 x13
abbrev At_v238 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v238) = ReadP.val_main_v238 (F := F) x13
abbrev At_v239 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v239) = ReadP.val_main_v239 (F := F) x13
abbrev At_v240 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v240) = ReadP.val_main_v240 (F := F) x13
abbrev At_v241 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v241) = ReadP.val_main_v241 (F := F) x13
abbrev At_v242 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v242) = ReadP.val_main_v242 (F := F) x0 x1 x2 x3 x5 x10 x11 x12 x13
abbrev At_v243 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v243) = ReadP.val_main_v243 (F := F) x5
abbrev At_v244 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v244) = ReadP.val_main_v244 (F := F) x5
abbrev At_v245 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v245) = ReadP.val_main_v245 (F := F) x0 x1 x2 x3 x5 x10 x11 x12 x13
abbrev At_cst_46 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_cst_46) = ReadP.val_main_cst_46 (F := F)
abbrev At_v246 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v246) = ReadP.val_main_v246 (F := F)
abbrev At_v247 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v247) = ReadP.val_main_v247 (F := F) x0 x1 x2 x3 x5 x10 x11 x12 x13
abbrev At_v248 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v248) = ReadP.val_main_v248 (F := F) x0 x1 x2 x3 x5 x10 x11 x12 x13
abbrev At_v249 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v249) = ReadP.val_main_v249 (F := F) x0 x1 x2 x3 x5 x10 x11 x12 x13
abbrev At_cst_47 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_cst_47) = ReadP.val_main_cst_47 (F := F)
abbrev At_v250 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v250) = ReadP.val_main_v250 (F := F)
abbrev At_v251 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v251) = ReadP.val_main_v251 (F := F) x0 x1 x2 x3 x5 x10 x11 x12 x13
abbrev At_cst_48 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_cst_48) = ReadP.val_main_cst_48 (F := F)
abbrev At_v252 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v252) = ReadP.val_main_v252 (F := F)
abbrev At_v253 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v253) = ReadP.val_main_v253 (F := F) x0 x1 x2 x3 x5 x10 x11 x12 x13
abbrev At_v254 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v254) = ReadP.val_main_v254 (F := F) x0 x1 x2 x3 x5 x10 x11 x12 x13
abbrev At_v255 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v255) = ReadP.val_main_v255 (F := F) x3
abbrev At_c_49 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_c_49) = ReadP.val_main_c_49 (F := F)
abbrev At_v256 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v256) = ReadP.val_main_v256 (F := F)
abbrev At_v257 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v257) = ReadP.val_main_v257 (F := F) x2
abbrev At_c_50 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_c_50) = ReadP.val_main_c_50 (F := F)
abbrev At_v258 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v258) = ReadP.val_main_v258 (F := F)
abbrev At_v259 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v259) = ReadP.val_main_v259 (F := F) x2
abbrev At_v260 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v260) = ReadP.val_main_v260 (F := F) x2
abbrev At_v261 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v261) = ReadP.val_main_v261 (F := F) x2
abbrev At_v262 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v262) = ReadP.val_main_v262 (F := F) x0 x1 x2 x3 x5 x10 x11 x12 x13
abbrev At_v263 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v263) = ReadP.val_main_v263 (F := F) x3
abbrev At_v264 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v264) = ReadP.val_main_v264 (F := F) x0 x1 x2 x3 x5 x10 x11 x12 x13
abbrev At_cst_51 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_cst_51) = ReadP.val_main_cst_51 (F := F)
abbrev At_v265 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v265) = ReadP.val_main_v265 (F := F)
abbrev At_v266 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v266) = ReadP.val_main_v266 (F := F) x1
abbrev At_v267 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v267) = ReadP.val_main_v267 (F := F) x0 x1 x2 x3 x5 x10 x11 x12 x13
abbrev At_v268 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v268) = ReadP.val_main_v268 (F := F) x0 x1 x2 x3
abbrev At_v269 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v269) = ReadP.val_main_v269 (F := F) x0 x1 x2 x4 x6 x7 x8 x9
abbrev At_v270 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v270) = ReadP.val_main_v270 (F := F) x0 x1 x2 x3 x5 x10 x11 x12 x13
abbrev At_v271 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v271) = ReadP.val_main_v271 (F := F) x0 x1 x2 x3
abbrev At_v272 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v272) = ReadP.val_main_v272 (F := F) x0 x1 x2 x4 x6 x7 x8 x9
abbrev At_v273 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v273) = ReadP.val_main_v273 (F := F) x0 x1 x2 x3 x5 x10 x11 x12 x13
abbrev At_v274 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v274) = ReadP.val_main_v274 (F := F) x0 x1 x2 x3
abbrev At_v275 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v275) = ReadP.val_main_v275 (F := F) x0 x1 x2 x4 x6 x7 x8 x9
abbrev At_v276 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v276) = ReadP.val_main_v276 (F := F) x0 x1 x2 x3 x5 x10 x11 x12 x13
abbrev At_v277 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  V (Proc.devRef .tc main_v277) = ReadP.val_main_v277 (F := F) x0 x1 x2 x3 x4 x5 x6 x7 x8 x9 x10 x11 x12 x13

/-! ## What is still to be read, before each operation -/

abbrev Live0 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  True
abbrev Live1 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v0 x0 x1 x2 x3 x4 x5 x6 x7 x8 x9 x10 x11 x12 x13 V
abbrev Live2 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v0 x0 x1 x2 x3 x4 x5 x6 x7 x8 x9 x10 x11 x12 x13 V ∧ At_c x0 x1 x2 x3 x4 x5 x6 x7 x8 x9 x10 x11 x12 x13 V
abbrev Live3 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v0 x0 x1 x2 x3 x4 x5 x6 x7 x8 x9 x10 x11 x12 x13 V ∧ At_v1 x0 x1 x2 x3 x4 x5 x6 x7 x8 x9 x10 x11 x12 x13 V
abbrev Live4 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v0 x0 x1 x2 x3 x4 x5 x6 x7 x8 x9 x10 x11 x12 x13 V ∧ At_v2 x0 x1 x2 x3 x4 x5 x6 x7 x8 x9 x10 x11 x12 x13 V
abbrev Live5 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v0 x0 x1 x2 x3 x4 x5 x6 x7 x8 x9 x10 x11 x12 x13 V ∧ At_v2 x0 x1 x2 x3 x4 x5 x6 x7 x8 x9 x10 x11 x12 x13 V ∧ At_c_0 x0 x1 x2 x3 x4 x5 x6 x7 x8 x9 x10 x11 x12 x13 V
abbrev Live6 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v0 x0 x1 x2 x3 x4 x5 x6 x7 x8 x9 x10 x11 x12 x13 V ∧ At_v2 x0 x1 x2 x3 x4 x5 x6 x7 x8 x9 x10 x11 x12 x13 V ∧ At_v3 x0 x1 x2 x3 x4 x5 x6 x7 x8 x9 x10 x11 x12 x13 V
abbrev Live7 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v0 x0 x1 x2 x3 x4 x5 x6 x7 x8 x9 x10 x11 x12 x13 V ∧ At_v2 x0 x1 x2 x3 x4 x5 x6 x7 x8 x9 x10 x11 x12 x13 V ∧ At_v4 x0 x1 x2 x3 x4 x5 x6 x7 x8 x9 x10 x11 x12 x13 V
abbrev Live8 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v0 x0 x1 x2 x3 x4 x5 x6 x7 x8 x9 x10 x11 x12 x13 V ∧ At_v5 x0 x1 x2 x3 x4 x5 x6 x7 x8 x9 x10 x11 x12 x13 V
abbrev Live9 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v0 x0 x1 x2 x3 x4 x5 x6 x7 x8 x9 x10 x11 x12 x13 V ∧ At_v6 x0 x1 x2 x3 x4 x5 x6 x7 x8 x9 x10 x11 x12 x13 V
abbrev Live10 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v0 x0 x1 x2 x3 x4 x5 x6 x7 x8 x9 x10 x11 x12 x13 V ∧ At_v7 x0 x1 x2 x3 x4 x5 x6 x7 x8 x9 x10 x11 x12 x13 V
abbrev Live11 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v7 x0 x1 x2 x3 x4 x5 x6 x7 x8 x9 x10 x11 x12 x13 V ∧ At_v8 x0 x1 x2 x3 x4 x5 x6 x7 x8 x9 x10 x11 x12 x13 V
abbrev Live12 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v9 x0 x1 x2 x3 x4 x5 x6 x7 x8 x9 x10 x11 x12 x13 V
abbrev Live13 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v9 x0 x1 x2 x3 x4 x5 x6 x7 x8 x9 x10 x11 x12 x13 V ∧ At_cst x0 x1 x2 x3 x4 x5 x6 x7 x8 x9 x10 x11 x12 x13 V
abbrev Live14 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v9 x0 x1 x2 x3 x4 x5 x6 x7 x8 x9 x10 x11 x12 x13 V ∧ At_v10 x0 x1 x2 x3 x4 x5 x6 x7 x8 x9 x10 x11 x12 x13 V
abbrev Live15 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v9 x0 x1 x2 x3 x4 x5 x6 x7 x8 x9 x10 x11 x12 x13 V ∧ At_v10 x0 x1 x2 x3 x4 x5 x6 x7 x8 x9 x10 x11 x12 x13 V ∧ At_v11 x0 x1 x2 x3 x4 x5 x6 x7 x8 x9 x10 x11 x12 x13 V
abbrev Live16 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V
abbrev Live17 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_c_1 x0 x1 x2 x3 x4 x5 x6 x7 x8 x9 x10 x11 x12 x13 V
abbrev Live18 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v13 x0 x1 x2 x3 x4 x5 x6 x7 x8 x9 x10 x11 x12 x13 V
abbrev Live19 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v14 x0 x1 x2 x3 x4 x5 x6 x7 x8 x9 x10 x11 x12 x13 V
abbrev Live20 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v14 x0 x1 x2 x3 x4 x5 x6 x7 x8 x9 x10 x11 x12 x13 V ∧ At_c_2 x0 x1 x2 x3 x4 x5 x6 x7 x8 x9 x10 x11 x12 x13 V
abbrev Live21 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v14 x0 x1 x2 x3 x4 x5 x6 x7 x8 x9 x10 x11 x12 x13 V ∧ At_v15 x0 x1 x2 x3 x4 x5 x6 x7 x8 x9 x10 x11 x12 x13 V
abbrev Live22 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v14 x0 x1 x2 x3 x4 x5 x6 x7 x8 x9 x10 x11 x12 x13 V ∧ At_v16 x0 x1 x2 x3 x4 x5 x6 x7 x8 x9 x10 x11 x12 x13 V
abbrev Live23 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v17 x0 x1 x2 x3 x4 x5 x6 x7 x8 x9 x10 x11 x12 x13 V
abbrev Live24 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v18 x0 x1 x2 x3 x4 x5 x6 x7 x8 x9 x10 x11 x12 x13 V
abbrev Live25 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v19 x0 x1 x2 x3 x4 x5 x6 x7 x8 x9 x10 x11 x12 x13 V
abbrev Live26 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v19 x0 x1 x2 x3 x4 x5 x6 x7 x8 x9 x10 x11 x12 x13 V ∧ At_c_3 x0 x1 x2 x3 x4 x5 x6 x7 x8 x9 x10 x11 x12 x13 V
abbrev Live27 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v19 x0 x1 x2 x3 x4 x5 x6 x7 x8 x9 x10 x11 x12 x13 V ∧ At_v20 x0 x1 x2 x3 x4 x5 x6 x7 x8 x9 x10 x11 x12 x13 V
abbrev Live28 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v19 x0 x1 x2 x3 x4 x5 x6 x7 x8 x9 x10 x11 x12 x13 V ∧ At_v21 x0 x1 x2 x3 x4 x5 x6 x7 x8 x9 x10 x11 x12 x13 V
abbrev Live29 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v19 x0 x1 x2 x3 x4 x5 x6 x7 x8 x9 x10 x11 x12 x13 V ∧ At_v21 x0 x1 x2 x3 x4 x5 x6 x7 x8 x9 x10 x11 x12 x13 V ∧ At_c_4 x0 x1 x2 x3 x4 x5 x6 x7 x8 x9 x10 x11 x12 x13 V
abbrev Live30 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v19 x0 x1 x2 x3 x4 x5 x6 x7 x8 x9 x10 x11 x12 x13 V ∧ At_v21 x0 x1 x2 x3 x4 x5 x6 x7 x8 x9 x10 x11 x12 x13 V ∧ At_v22 x0 x1 x2 x3 x4 x5 x6 x7 x8 x9 x10 x11 x12 x13 V
abbrev Live31 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v19 x0 x1 x2 x3 x4 x5 x6 x7 x8 x9 x10 x11 x12 x13 V ∧ At_v21 x0 x1 x2 x3 x4 x5 x6 x7 x8 x9 x10 x11 x12 x13 V ∧ At_v23 x0 x1 x2 x3 x4 x5 x6 x7 x8 x9 x10 x11 x12 x13 V
abbrev Live32 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v19 x0 x1 x2 x3 x4 x5 x6 x7 x8 x9 x10 x11 x12 x13 V ∧ At_v24 x0 x1 x2 x3 x4 x5 x6 x7 x8 x9 x10 x11 x12 x13 V
abbrev Live33 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v19 x0 x1 x2 x3 x4 x5 x6 x7 x8 x9 x10 x11 x12 x13 V ∧ At_v25 x0 x1 x2 x3 x4 x5 x6 x7 x8 x9 x10 x11 x12 x13 V
abbrev Live34 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v19 x0 x1 x2 x3 x4 x5 x6 x7 x8 x9 x10 x11 x12 x13 V ∧ At_v26 x0 x1 x2 x3 x4 x5 x6 x7 x8 x9 x10 x11 x12 x13 V
abbrev Live35 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v27 x0 x1 x2 x3 x4 x5 x6 x7 x8 x9 x10 x11 x12 x13 V
abbrev Live36 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v27 x0 x1 x2 x3 x4 x5 x6 x7 x8 x9 x10 x11 x12 x13 V ∧ At_v28 x0 x1 x2 x3 x4 x5 x6 x7 x8 x9 x10 x11 x12 x13 V
abbrev Live37 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v27 x0 x1 x2 x3 x4 x5 x6 x7 x8 x9 x10 x11 x12 x13 V ∧ At_v29 x0 x1 x2 x3 x4 x5 x6 x7 x8 x9 x10 x11 x12 x13 V
abbrev Live38 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v30 x0 x1 x2 x3 x4 x5 x6 x7 x8 x9 x10 x11 x12 x13 V
abbrev Live39 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v30 x0 x1 x2 x3 x4 x5 x6 x7 x8 x9 x10 x11 x12 x13 V ∧ At_v31 x0 x1 x2 x3 x4 x5 x6 x7 x8 x9 x10 x11 x12 x13 V
abbrev Live40 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v30 x0 x1 x2 x3 x4 x5 x6 x7 x8 x9 x10 x11 x12 x13 V ∧ At_v32 x0 x1 x2 x3 x4 x5 x6 x7 x8 x9 x10 x11 x12 x13 V
abbrev Live41 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v30 x0 x1 x2 x3 x4 x5 x6 x7 x8 x9 x10 x11 x12 x13 V ∧ At_v33 x0 x1 x2 x3 x4 x5 x6 x7 x8 x9 x10 x11 x12 x13 V
abbrev Live42 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v30 x0 x1 x2 x3 x4 x5 x6 x7 x8 x9 x10 x11 x12 x13 V ∧ At_v34 x0 x1 x2 x3 x4 x5 x6 x7 x8 x9 x10 x11 x12 x13 V
abbrev Live43 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v35 x0 x1 x2 x3 x4 x5 x6 x7 x8 x9 x10 x11 x12 x13 V
abbrev Live44 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v35 x0 x1 x2 x3 x4 x5 x6 x7 x8 x9 x10 x11 x12 x13 V ∧ At_cst_5 x0 x1 x2 x3 x4 x5 x6 x7 x8 x9 x10 x11 x12 x13 V
abbrev Live45 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v35 x0 x1 x2 x3 x4 x5 x6 x7 x8 x9 x10 x11 x12 x13 V ∧ At_v36 x0 x1 x2 x3 x4 x5 x6 x7 x8 x9 x10 x11 x12 x13 V
abbrev Live46 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v37 x0 x1 x2 x3 x4 x5 x6 x7 x8 x9 x10 x11 x12 x13 V
abbrev Live47 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v37 x0 x1 x2 x3 x4 x5 x6 x7 x8 x9 x10 x11 x12 x13 V ∧ At_v38 x0 x1 x2 x3 x4 x5 x6 x7 x8 x9 x10 x11 x12 x13 V
abbrev Live48 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v37 x0 x1 x2 x3 x4 x5 x6 x7 x8 x9 x10 x11 x12 x13 V ∧ At_v39 x0 x1 x2 x3 x4 x5 x6 x7 x8 x9 x10 x11 x12 x13 V
abbrev Live49 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v40 x0 x1 x2 x3 x4 x5 x6 x7 x8 x9 x10 x11 x12 x13 V
abbrev Live50 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v40 x0 x1 x2 x3 x4 x5 x6 x7 x8 x9 x10 x11 x12 x13 V ∧ At_v41 x0 x1 x2 x3 x4 x5 x6 x7 x8 x9 x10 x11 x12 x13 V
abbrev Live51 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v40 x0 x1 x2 x3 x4 x5 x6 x7 x8 x9 x10 x11 x12 x13 V ∧ At_v42 x0 x1 x2 x3 x4 x5 x6 x7 x8 x9 x10 x11 x12 x13 V
abbrev Live52 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v40 x0 x1 x2 x3 x4 x5 x6 x7 x8 x9 x10 x11 x12 x13 V ∧ At_v43 x0 x1 x2 x3 x4 x5 x6 x7 x8 x9 x10 x11 x12 x13 V
abbrev Live53 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v40 x0 x1 x2 x3 x4 x5 x6 x7 x8 x9 x10 x11 x12 x13 V ∧ At_v44 x0 x1 x2 x3 x4 x5 x6 x7 x8 x9 x10 x11 x12 x13 V
abbrev Live54 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v45 x0 x1 x2 x3 x4 x5 x6 x7 x8 x9 x10 x11 x12 x13 V
abbrev Live55 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v45 x0 x1 x2 x3 x4 x5 x6 x7 x8 x9 x10 x11 x12 x13 V ∧ At_v46 x0 x1 x2 x3 x4 x5 x6 x7 x8 x9 x10 x11 x12 x13 V
abbrev Live56 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v45 x0 x1 x2 x3 x4 x5 x6 x7 x8 x9 x10 x11 x12 x13 V ∧ At_v47 x0 x1 x2 x3 x4 x5 x6 x7 x8 x9 x10 x11 x12 x13 V
abbrev Live57 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v45 x0 x1 x2 x3 x4 x5 x6 x7 x8 x9 x10 x11 x12 x13 V ∧ At_v48 x0 x1 x2 x3 x4 x5 x6 x7 x8 x9 x10 x11 x12 x13 V
abbrev Live58 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v49 x0 x1 x2 x3 x4 x5 x6 x7 x8 x9 x10 x11 x12 x13 V
abbrev Live59 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v49 x0 x1 x2 x3 x4 x5 x6 x7 x8 x9 x10 x11 x12 x13 V ∧ At_cst_6 x0 x1 x2 x3 x4 x5 x6 x7 x8 x9 x10 x11 x12 x13 V
abbrev Live60 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v49 x0 x1 x2 x3 x4 x5 x6 x7 x8 x9 x10 x11 x12 x13 V ∧ At_v50 x0 x1 x2 x3 x4 x5 x6 x7 x8 x9 x10 x11 x12 x13 V
abbrev Live61 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v51 x0 x1 x2 x3 x4 x5 x6 x7 x8 x9 x10 x11 x12 x13 V
abbrev Live62 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v52 x0 x1 x2 x3 x4 x5 x6 x7 x8 x9 x10 x11 x12 x13 V
abbrev Live63 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v53 x0 x1 x2 x3 x4 x5 x6 x7 x8 x9 x10 x11 x12 x13 V
abbrev Live64 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v53 x0 x1 x2 x3 x4 x5 x6 x7 x8 x9 x10 x11 x12 x13 V ∧ At_cst_7 x0 x1 x2 x3 x4 x5 x6 x7 x8 x9 x10 x11 x12 x13 V
abbrev Live65 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v53 x0 x1 x2 x3 x4 x5 x6 x7 x8 x9 x10 x11 x12 x13 V ∧ At_v54 x0 x1 x2 x3 x4 x5 x6 x7 x8 x9 x10 x11 x12 x13 V
abbrev Live66 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v55 x0 x1 x2 x3 x4 x5 x6 x7 x8 x9 x10 x11 x12 x13 V
abbrev Live67 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v55 x0 x1 x2 x3 x4 x5 x6 x7 x8 x9 x10 x11 x12 x13 V ∧ At_cst_8 x0 x1 x2 x3 x4 x5 x6 x7 x8 x9 x10 x11 x12 x13 V
abbrev Live68 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v55 x0 x1 x2 x3 x4 x5 x6 x7 x8 x9 x10 x11 x12 x13 V ∧ At_v56 x0 x1 x2 x3 x4 x5 x6 x7 x8 x9 x10 x11 x12 x13 V
abbrev Live69 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v57 x0 x1 x2 x3 x4 x5 x6 x7 x8 x9 x10 x11 x12 x13 V
abbrev Live70 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v58 x0 x1 x2 x3 x4 x5 x6 x7 x8 x9 x10 x11 x12 x13 V
abbrev Live71 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v58 x0 x1 x2 x3 x4 x5 x6 x7 x8 x9 x10 x11 x12 x13 V ∧ At_cst_9 x0 x1 x2 x3 x4 x5 x6 x7 x8 x9 x10 x11 x12 x13 V
abbrev Live72 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v58 x0 x1 x2 x3 x4 x5 x6 x7 x8 x9 x10 x11 x12 x13 V ∧ At_v59 x0 x1 x2 x3 x4 x5 x6 x7 x8 x9 x10 x11 x12 x13 V
abbrev Live73 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v58 x0 x1 x2 x3 x4 x5 x6 x7 x8 x9 x10 x11 x12 x13 V ∧ At_v59 x0 x1 x2 x3 x4 x5 x6 x7 x8 x9 x10 x11 x12 x13 V ∧ At_v60 x0 x1 x2 x3 x4 x5 x6 x7 x8 x9 x10 x11 x12 x13 V
abbrev Live74 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v58 x0 x1 x2 x3 x4 x5 x6 x7 x8 x9 x10 x11 x12 x13 V ∧ At_v61 x0 x1 x2 x3 x4 x5 x6 x7 x8 x9 x10 x11 x12 x13 V
abbrev Live75 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v58 x0 x1 x2 x3 x4 x5 x6 x7 x8 x9 x10 x11 x12 x13 V ∧ At_v61 x0 x1 x2 x3 x4 x5 x6 x7 x8 x9 x10 x11 x12 x13 V ∧ At_cst_10 x0 x1 x2 x3 x4 x5 x6 x7 x8 x9 x10 x11 x12 x13 V
abbrev Live76 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v58 x0 x1 x2 x3 x4 x5 x6 x7 x8 x9 x10 x11 x12 x13 V ∧ At_v61 x0 x1 x2 x3 x4 x5 x6 x7 x8 x9 x10 x11 x12 x13 V ∧ At_v62 x0 x1 x2 x3 x4 x5 x6 x7 x8 x9 x10 x11 x12 x13 V
abbrev Live77 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v58 x0 x1 x2 x3 x4 x5 x6 x7 x8 x9 x10 x11 x12 x13 V ∧ At_v61 x0 x1 x2 x3 x4 x5 x6 x7 x8 x9 x10 x11 x12 x13 V ∧ At_v63 x0 x1 x2 x3 x4 x5 x6 x7 x8 x9 x10 x11 x12 x13 V
abbrev Live78 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v58 x0 x1 x2 x3 x4 x5 x6 x7 x8 x9 x10 x11 x12 x13 V ∧ At_v61 x0 x1 x2 x3 x4 x5 x6 x7 x8 x9 x10 x11 x12 x13 V ∧ At_v63 x0 x1 x2 x3 x4 x5 x6 x7 x8 x9 x10 x11 x12 x13 V ∧ At_cst_11 x0 x1 x2 x3 x4 x5 x6 x7 x8 x9 x10 x11 x12 x13 V
abbrev Live79 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v58 x0 x1 x2 x3 x4 x5 x6 x7 x8 x9 x10 x11 x12 x13 V ∧ At_v61 x0 x1 x2 x3 x4 x5 x6 x7 x8 x9 x10 x11 x12 x13 V ∧ At_v63 x0 x1 x2 x3 x4 x5 x6 x7 x8 x9 x10 x11 x12 x13 V ∧ At_v64 x0 x1 x2 x3 x4 x5 x6 x7 x8 x9 x10 x11 x12 x13 V
abbrev Live80 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v58 x0 x1 x2 x3 x4 x5 x6 x7 x8 x9 x10 x11 x12 x13 V ∧ At_v63 x0 x1 x2 x3 x4 x5 x6 x7 x8 x9 x10 x11 x12 x13 V ∧ At_v65 x0 x1 x2 x3 x4 x5 x6 x7 x8 x9 x10 x11 x12 x13 V
abbrev Live81 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v58 x0 x1 x2 x3 x4 x5 x6 x7 x8 x9 x10 x11 x12 x13 V ∧ At_v63 x0 x1 x2 x3 x4 x5 x6 x7 x8 x9 x10 x11 x12 x13 V ∧ At_v65 x0 x1 x2 x3 x4 x5 x6 x7 x8 x9 x10 x11 x12 x13 V ∧ At_cst_12 x0 x1 x2 x3 x4 x5 x6 x7 x8 x9 x10 x11 x12 x13 V
abbrev Live82 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v58 x0 x1 x2 x3 x4 x5 x6 x7 x8 x9 x10 x11 x12 x13 V ∧ At_v63 x0 x1 x2 x3 x4 x5 x6 x7 x8 x9 x10 x11 x12 x13 V ∧ At_v65 x0 x1 x2 x3 x4 x5 x6 x7 x8 x9 x10 x11 x12 x13 V ∧ At_call0_v0 x0 x1 x2 x3 x4 x5 x6 x7 x8 x9 x10 x11 x12 x13 V
abbrev Live83 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v58 x0 x1 x2 x3 x4 x5 x6 x7 x8 x9 x10 x11 x12 x13 V ∧ At_v63 x0 x1 x2 x3 x4 x5 x6 x7 x8 x9 x10 x11 x12 x13 V ∧ At_v65 x0 x1 x2 x3 x4 x5 x6 x7 x8 x9 x10 x11 x12 x13 V ∧ At_call0_v1 x0 x1 x2 x3 x4 x5 x6 x7 x8 x9 x10 x11 x12 x13 V
abbrev Live84 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v58 x0 x1 x2 x3 x4 x5 x6 x7 x8 x9 x10 x11 x12 x13 V ∧ At_v66 x0 x1 x2 x3 x4 x5 x6 x7 x8 x9 x10 x11 x12 x13 V
abbrev Live85 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v58 x0 x1 x2 x3 x4 x5 x6 x7 x8 x9 x10 x11 x12 x13 V ∧ At_v66 x0 x1 x2 x3 x4 x5 x6 x7 x8 x9 x10 x11 x12 x13 V ∧ At_c_13 x0 x1 x2 x3 x4 x5 x6 x7 x8 x9 x10 x11 x12 x13 V
abbrev Live86 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v58 x0 x1 x2 x3 x4 x5 x6 x7 x8 x9 x10 x11 x12 x13 V ∧ At_v66 x0 x1 x2 x3 x4 x5 x6 x7 x8 x9 x10 x11 x12 x13 V ∧ At_v67 x0 x1 x2 x3 x4 x5 x6 x7 x8 x9 x10 x11 x12 x13 V
abbrev Live87 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v58 x0 x1 x2 x3 x4 x5 x6 x7 x8 x9 x10 x11 x12 x13 V ∧ At_v66 x0 x1 x2 x3 x4 x5 x6 x7 x8 x9 x10 x11 x12 x13 V ∧ At_v68 x0 x1 x2 x3 x4 x5 x6 x7 x8 x9 x10 x11 x12 x13 V
abbrev Live88 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v58 x0 x1 x2 x3 x4 x5 x6 x7 x8 x9 x10 x11 x12 x13 V ∧ At_v66 x0 x1 x2 x3 x4 x5 x6 x7 x8 x9 x10 x11 x12 x13 V ∧ At_v68 x0 x1 x2 x3 x4 x5 x6 x7 x8 x9 x10 x11 x12 x13 V ∧ At_c_14 x0 x1 x2 x3 x4 x5 x6 x7 x8 x9 x10 x11 x12 x13 V
abbrev Live89 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v58 x0 x1 x2 x3 x4 x5 x6 x7 x8 x9 x10 x11 x12 x13 V ∧ At_v66 x0 x1 x2 x3 x4 x5 x6 x7 x8 x9 x10 x11 x12 x13 V ∧ At_v68 x0 x1 x2 x3 x4 x5 x6 x7 x8 x9 x10 x11 x12 x13 V ∧ At_v69 x0 x1 x2 x3 x4 x5 x6 x7 x8 x9 x10 x11 x12 x13 V
abbrev Live90 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v58 x0 x1 x2 x3 x4 x5 x6 x7 x8 x9 x10 x11 x12 x13 V ∧ At_v66 x0 x1 x2 x3 x4 x5 x6 x7 x8 x9 x10 x11 x12 x13 V ∧ At_v68 x0 x1 x2 x3 x4 x5 x6 x7 x8 x9 x10 x11 x12 x13 V ∧ At_v70 x0 x1 x2 x3 x4 x5 x6 x7 x8 x9 x10 x11 x12 x13 V
abbrev Live91 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v58 x0 x1 x2 x3 x4 x5 x6 x7 x8 x9 x10 x11 x12 x13 V ∧ At_v66 x0 x1 x2 x3 x4 x5 x6 x7 x8 x9 x10 x11 x12 x13 V ∧ At_v71 x0 x1 x2 x3 x4 x5 x6 x7 x8 x9 x10 x11 x12 x13 V
abbrev Live92 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v58 x0 x1 x2 x3 x4 x5 x6 x7 x8 x9 x10 x11 x12 x13 V ∧ At_v66 x0 x1 x2 x3 x4 x5 x6 x7 x8 x9 x10 x11 x12 x13 V ∧ At_v72 x0 x1 x2 x3 x4 x5 x6 x7 x8 x9 x10 x11 x12 x13 V
abbrev Live93 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v58 x0 x1 x2 x3 x4 x5 x6 x7 x8 x9 x10 x11 x12 x13 V ∧ At_v73 x0 x1 x2 x3 x4 x5 x6 x7 x8 x9 x10 x11 x12 x13 V
abbrev Live94 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v74 x0 x1 x2 x3 x4 x5 x6 x7 x8 x9 x10 x11 x12 x13 V
abbrev Live95 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v75 x0 x1 x2 x3 x4 x5 x6 x7 x8 x9 x10 x11 x12 x13 V
abbrev Live96 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v75 x0 x1 x2 x3 x4 x5 x6 x7 x8 x9 x10 x11 x12 x13 V ∧ At_c_15 x0 x1 x2 x3 x4 x5 x6 x7 x8 x9 x10 x11 x12 x13 V
abbrev Live97 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v75 x0 x1 x2 x3 x4 x5 x6 x7 x8 x9 x10 x11 x12 x13 V ∧ At_v76 x0 x1 x2 x3 x4 x5 x6 x7 x8 x9 x10 x11 x12 x13 V
abbrev Live98 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v75 x0 x1 x2 x3 x4 x5 x6 x7 x8 x9 x10 x11 x12 x13 V ∧ At_v77 x0 x1 x2 x3 x4 x5 x6 x7 x8 x9 x10 x11 x12 x13 V
abbrev Live99 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v75 x0 x1 x2 x3 x4 x5 x6 x7 x8 x9 x10 x11 x12 x13 V ∧ At_v77 x0 x1 x2 x3 x4 x5 x6 x7 x8 x9 x10 x11 x12 x13 V ∧ At_c_16 x0 x1 x2 x3 x4 x5 x6 x7 x8 x9 x10 x11 x12 x13 V
abbrev Live100 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v75 x0 x1 x2 x3 x4 x5 x6 x7 x8 x9 x10 x11 x12 x13 V ∧ At_v77 x0 x1 x2 x3 x4 x5 x6 x7 x8 x9 x10 x11 x12 x13 V ∧ At_v78 x0 x1 x2 x3 x4 x5 x6 x7 x8 x9 x10 x11 x12 x13 V
abbrev Live101 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v75 x0 x1 x2 x3 x4 x5 x6 x7 x8 x9 x10 x11 x12 x13 V ∧ At_v77 x0 x1 x2 x3 x4 x5 x6 x7 x8 x9 x10 x11 x12 x13 V ∧ At_v79 x0 x1 x2 x3 x4 x5 x6 x7 x8 x9 x10 x11 x12 x13 V
abbrev Live102 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v75 x0 x1 x2 x3 x4 x5 x6 x7 x8 x9 x10 x11 x12 x13 V ∧ At_v80 x0 x1 x2 x3 x4 x5 x6 x7 x8 x9 x10 x11 x12 x13 V
abbrev Live103 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v75 x0 x1 x2 x3 x4 x5 x6 x7 x8 x9 x10 x11 x12 x13 V ∧ At_v81 x0 x1 x2 x3 x4 x5 x6 x7 x8 x9 x10 x11 x12 x13 V
abbrev Live104 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v75 x0 x1 x2 x3 x4 x5 x6 x7 x8 x9 x10 x11 x12 x13 V ∧ At_v82 x0 x1 x2 x3 x4 x5 x6 x7 x8 x9 x10 x11 x12 x13 V
abbrev Live105 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v82 x0 x1 x2 x3 x4 x5 x6 x7 x8 x9 x10 x11 x12 x13 V ∧ At_v83 x0 x1 x2 x3 x4 x5 x6 x7 x8 x9 x10 x11 x12 x13 V
abbrev Live106 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v84 x0 x1 x2 x3 x4 x5 x6 x7 x8 x9 x10 x11 x12 x13 V
abbrev Live107 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v84 x0 x1 x2 x3 x4 x5 x6 x7 x8 x9 x10 x11 x12 x13 V ∧ At_cst_17 x0 x1 x2 x3 x4 x5 x6 x7 x8 x9 x10 x11 x12 x13 V
abbrev Live108 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v84 x0 x1 x2 x3 x4 x5 x6 x7 x8 x9 x10 x11 x12 x13 V ∧ At_v85 x0 x1 x2 x3 x4 x5 x6 x7 x8 x9 x10 x11 x12 x13 V
abbrev Live109 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v84 x0 x1 x2 x3 x4 x5 x6 x7 x8 x9 x10 x11 x12 x13 V ∧ At_v85 x0 x1 x2 x3 x4 x5 x6 x7 x8 x9 x10 x11 x12 x13 V ∧ At_v86 x0 x1 x2 x3 x4 x5 x6 x7 x8 x9 x10 x11 x12 x13 V
abbrev Live110 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V
abbrev Live111 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v88 x0 x1 x2 x3 x4 x5 x6 x7 x8 x9 x10 x11 x12 x13 V
abbrev Live112 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v89 x0 x1 x2 x3 x4 x5 x6 x7 x8 x9 x10 x11 x12 x13 V
abbrev Live113 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v90 x0 x1 x2 x3 x4 x5 x6 x7 x8 x9 x10 x11 x12 x13 V
abbrev Live114 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v90 x0 x1 x2 x3 x4 x5 x6 x7 x8 x9 x10 x11 x12 x13 V ∧ At_v91 x0 x1 x2 x3 x4 x5 x6 x7 x8 x9 x10 x11 x12 x13 V
abbrev Live115 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v90 x0 x1 x2 x3 x4 x5 x6 x7 x8 x9 x10 x11 x12 x13 V ∧ At_v92 x0 x1 x2 x3 x4 x5 x6 x7 x8 x9 x10 x11 x12 x13 V
abbrev Live116 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v90 x0 x1 x2 x3 x4 x5 x6 x7 x8 x9 x10 x11 x12 x13 V ∧ At_v93 x0 x1 x2 x3 x4 x5 x6 x7 x8 x9 x10 x11 x12 x13 V
abbrev Live117 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v90 x0 x1 x2 x3 x4 x5 x6 x7 x8 x9 x10 x11 x12 x13 V ∧ At_v94 x0 x1 x2 x3 x4 x5 x6 x7 x8 x9 x10 x11 x12 x13 V
abbrev Live118 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v95 x0 x1 x2 x3 x4 x5 x6 x7 x8 x9 x10 x11 x12 x13 V
abbrev Live119 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v95 x0 x1 x2 x3 x4 x5 x6 x7 x8 x9 x10 x11 x12 x13 V ∧ At_cst_18 x0 x1 x2 x3 x4 x5 x6 x7 x8 x9 x10 x11 x12 x13 V
abbrev Live120 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v95 x0 x1 x2 x3 x4 x5 x6 x7 x8 x9 x10 x11 x12 x13 V ∧ At_v96 x0 x1 x2 x3 x4 x5 x6 x7 x8 x9 x10 x11 x12 x13 V
abbrev Live121 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v97 x0 x1 x2 x3 x4 x5 x6 x7 x8 x9 x10 x11 x12 x13 V
abbrev Live122 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v97 x0 x1 x2 x3 x4 x5 x6 x7 x8 x9 x10 x11 x12 x13 V ∧ At_v98 x0 x1 x2 x3 x4 x5 x6 x7 x8 x9 x10 x11 x12 x13 V
abbrev Live123 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v97 x0 x1 x2 x3 x4 x5 x6 x7 x8 x9 x10 x11 x12 x13 V ∧ At_v99 x0 x1 x2 x3 x4 x5 x6 x7 x8 x9 x10 x11 x12 x13 V
abbrev Live124 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v100 x0 x1 x2 x3 x4 x5 x6 x7 x8 x9 x10 x11 x12 x13 V
abbrev Live125 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v100 x0 x1 x2 x3 x4 x5 x6 x7 x8 x9 x10 x11 x12 x13 V ∧ At_v101 x0 x1 x2 x3 x4 x5 x6 x7 x8 x9 x10 x11 x12 x13 V
abbrev Live126 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v100 x0 x1 x2 x3 x4 x5 x6 x7 x8 x9 x10 x11 x12 x13 V ∧ At_v102 x0 x1 x2 x3 x4 x5 x6 x7 x8 x9 x10 x11 x12 x13 V
abbrev Live127 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v100 x0 x1 x2 x3 x4 x5 x6 x7 x8 x9 x10 x11 x12 x13 V ∧ At_v103 x0 x1 x2 x3 x4 x5 x6 x7 x8 x9 x10 x11 x12 x13 V
abbrev Live128 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v100 x0 x1 x2 x3 x4 x5 x6 x7 x8 x9 x10 x11 x12 x13 V ∧ At_v104 x0 x1 x2 x3 x4 x5 x6 x7 x8 x9 x10 x11 x12 x13 V
abbrev Live129 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v105 x0 x1 x2 x3 x4 x5 x6 x7 x8 x9 x10 x11 x12 x13 V
abbrev Live130 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v105 x0 x1 x2 x3 x4 x5 x6 x7 x8 x9 x10 x11 x12 x13 V ∧ At_v106 x0 x1 x2 x3 x4 x5 x6 x7 x8 x9 x10 x11 x12 x13 V
abbrev Live131 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v105 x0 x1 x2 x3 x4 x5 x6 x7 x8 x9 x10 x11 x12 x13 V ∧ At_v107 x0 x1 x2 x3 x4 x5 x6 x7 x8 x9 x10 x11 x12 x13 V
abbrev Live132 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v108 x0 x1 x2 x3 x4 x5 x6 x7 x8 x9 x10 x11 x12 x13 V
abbrev Live133 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v108 x0 x1 x2 x3 x4 x5 x6 x7 x8 x9 x10 x11 x12 x13 V ∧ At_cst_19 x0 x1 x2 x3 x4 x5 x6 x7 x8 x9 x10 x11 x12 x13 V
abbrev Live134 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v108 x0 x1 x2 x3 x4 x5 x6 x7 x8 x9 x10 x11 x12 x13 V ∧ At_v109 x0 x1 x2 x3 x4 x5 x6 x7 x8 x9 x10 x11 x12 x13 V
abbrev Live135 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v110 x0 x1 x2 x3 x4 x5 x6 x7 x8 x9 x10 x11 x12 x13 V
abbrev Live136 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v111 x0 x1 x2 x3 x4 x5 x6 x7 x8 x9 x10 x11 x12 x13 V
abbrev Live137 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v112 x0 x1 x2 x3 x4 x5 x6 x7 x8 x9 x10 x11 x12 x13 V
abbrev Live138 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v112 x0 x1 x2 x3 x4 x5 x6 x7 x8 x9 x10 x11 x12 x13 V ∧ At_cst_20 x0 x1 x2 x3 x4 x5 x6 x7 x8 x9 x10 x11 x12 x13 V
abbrev Live139 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v112 x0 x1 x2 x3 x4 x5 x6 x7 x8 x9 x10 x11 x12 x13 V ∧ At_v113 x0 x1 x2 x3 x4 x5 x6 x7 x8 x9 x10 x11 x12 x13 V
abbrev Live140 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v114 x0 x1 x2 x3 x4 x5 x6 x7 x8 x9 x10 x11 x12 x13 V
abbrev Live141 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v114 x0 x1 x2 x3 x4 x5 x6 x7 x8 x9 x10 x11 x12 x13 V ∧ At_cst_21 x0 x1 x2 x3 x4 x5 x6 x7 x8 x9 x10 x11 x12 x13 V
abbrev Live142 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v114 x0 x1 x2 x3 x4 x5 x6 x7 x8 x9 x10 x11 x12 x13 V ∧ At_v115 x0 x1 x2 x3 x4 x5 x6 x7 x8 x9 x10 x11 x12 x13 V
abbrev Live143 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v116 x0 x1 x2 x3 x4 x5 x6 x7 x8 x9 x10 x11 x12 x13 V
abbrev Live144 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v117 x0 x1 x2 x3 x4 x5 x6 x7 x8 x9 x10 x11 x12 x13 V
abbrev Live145 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v117 x0 x1 x2 x3 x4 x5 x6 x7 x8 x9 x10 x11 x12 x13 V ∧ At_v118 x0 x1 x2 x3 x4 x5 x6 x7 x8 x9 x10 x11 x12 x13 V
abbrev Live146 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v117 x0 x1 x2 x3 x4 x5 x6 x7 x8 x9 x10 x11 x12 x13 V ∧ At_v118 x0 x1 x2 x3 x4 x5 x6 x7 x8 x9 x10 x11 x12 x13 V ∧ At_c_22 x0 x1 x2 x3 x4 x5 x6 x7 x8 x9 x10 x11 x12 x13 V
abbrev Live147 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v117 x0 x1 x2 x3 x4 x5 x6 x7 x8 x9 x10 x11 x12 x13 V ∧ At_v118 x0 x1 x2 x3 x4 x5 x6 x7 x8 x9 x10 x11 x12 x13 V ∧ At_v119 x0 x1 x2 x3 x4 x5 x6 x7 x8 x9 x10 x11 x12 x13 V
abbrev Live148 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v117 x0 x1 x2 x3 x4 x5 x6 x7 x8 x9 x10 x11 x12 x13 V ∧ At_v118 x0 x1 x2 x3 x4 x5 x6 x7 x8 x9 x10 x11 x12 x13 V ∧ At_v120 x0 x1 x2 x3 x4 x5 x6 x7 x8 x9 x10 x11 x12 x13 V
abbrev Live149 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v117 x0 x1 x2 x3 x4 x5 x6 x7 x8 x9 x10 x11 x12 x13 V ∧ At_v118 x0 x1 x2 x3 x4 x5 x6 x7 x8 x9 x10 x11 x12 x13 V ∧ At_v120 x0 x1 x2 x3 x4 x5 x6 x7 x8 x9 x10 x11 x12 x13 V ∧ At_c_23 x0 x1 x2 x3 x4 x5 x6 x7 x8 x9 x10 x11 x12 x13 V
abbrev Live150 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v117 x0 x1 x2 x3 x4 x5 x6 x7 x8 x9 x10 x11 x12 x13 V ∧ At_v118 x0 x1 x2 x3 x4 x5 x6 x7 x8 x9 x10 x11 x12 x13 V ∧ At_v120 x0 x1 x2 x3 x4 x5 x6 x7 x8 x9 x10 x11 x12 x13 V ∧ At_v121 x0 x1 x2 x3 x4 x5 x6 x7 x8 x9 x10 x11 x12 x13 V
abbrev Live151 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v117 x0 x1 x2 x3 x4 x5 x6 x7 x8 x9 x10 x11 x12 x13 V ∧ At_v118 x0 x1 x2 x3 x4 x5 x6 x7 x8 x9 x10 x11 x12 x13 V ∧ At_v120 x0 x1 x2 x3 x4 x5 x6 x7 x8 x9 x10 x11 x12 x13 V ∧ At_v122 x0 x1 x2 x3 x4 x5 x6 x7 x8 x9 x10 x11 x12 x13 V
abbrev Live152 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v117 x0 x1 x2 x3 x4 x5 x6 x7 x8 x9 x10 x11 x12 x13 V ∧ At_v118 x0 x1 x2 x3 x4 x5 x6 x7 x8 x9 x10 x11 x12 x13 V ∧ At_v123 x0 x1 x2 x3 x4 x5 x6 x7 x8 x9 x10 x11 x12 x13 V
abbrev Live153 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v117 x0 x1 x2 x3 x4 x5 x6 x7 x8 x9 x10 x11 x12 x13 V ∧ At_v118 x0 x1 x2 x3 x4 x5 x6 x7 x8 x9 x10 x11 x12 x13 V ∧ At_v124 x0 x1 x2 x3 x4 x5 x6 x7 x8 x9 x10 x11 x12 x13 V
abbrev Live154 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v118 x0 x1 x2 x3 x4 x5 x6 x7 x8 x9 x10 x11 x12 x13 V ∧ At_v125 x0 x1 x2 x3 x4 x5 x6 x7 x8 x9 x10 x11 x12 x13 V
abbrev Live155 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v125 x0 x1 x2 x3 x4 x5 x6 x7 x8 x9 x10 x11 x12 x13 V ∧ At_v126 x0 x1 x2 x3 x4 x5 x6 x7 x8 x9 x10 x11 x12 x13 V
abbrev Live156 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v127 x0 x1 x2 x3 x4 x5 x6 x7 x8 x9 x10 x11 x12 x13 V
abbrev Live157 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v127 x0 x1 x2 x3 x4 x5 x6 x7 x8 x9 x10 x11 x12 x13 V ∧ At_cst_24 x0 x1 x2 x3 x4 x5 x6 x7 x8 x9 x10 x11 x12 x13 V
abbrev Live158 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v127 x0 x1 x2 x3 x4 x5 x6 x7 x8 x9 x10 x11 x12 x13 V ∧ At_v128 x0 x1 x2 x3 x4 x5 x6 x7 x8 x9 x10 x11 x12 x13 V
abbrev Live159 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v127 x0 x1 x2 x3 x4 x5 x6 x7 x8 x9 x10 x11 x12 x13 V ∧ At_v128 x0 x1 x2 x3 x4 x5 x6 x7 x8 x9 x10 x11 x12 x13 V ∧ At_v129 x0 x1 x2 x3 x4 x5 x6 x7 x8 x9 x10 x11 x12 x13 V
abbrev Live160 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v12 x0 x1 x2 x3 x4 x5 x6 x7 x8 x9 x10 x11 x12 x13 V ∧ At_v87 x0 x1 x2 x3 x4 x5 x6 x7 x8 x9 x10 x11 x12 x13 V ∧ At_v130 x0 x1 x2 x3 x4 x5 x6 x7 x8 x9 x10 x11 x12 x13 V
abbrev Live161 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v87 x0 x1 x2 x3 x4 x5 x6 x7 x8 x9 x10 x11 x12 x13 V ∧ At_v130 x0 x1 x2 x3 x4 x5 x6 x7 x8 x9 x10 x11 x12 x13 V ∧ At_v131 x0 x1 x2 x3 x4 x5 x6 x7 x8 x9 x10 x11 x12 x13 V
abbrev Live162 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v130 x0 x1 x2 x3 x4 x5 x6 x7 x8 x9 x10 x11 x12 x13 V ∧ At_v131 x0 x1 x2 x3 x4 x5 x6 x7 x8 x9 x10 x11 x12 x13 V ∧ At_v132 x0 x1 x2 x3 x4 x5 x6 x7 x8 x9 x10 x11 x12 x13 V
abbrev Live163 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V
abbrev Live164 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V
abbrev Live165 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V
abbrev Live166 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V
abbrev Live167 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v137 x0 x1 x2 x3 x4 x5 x6 x7 x8 x9 x10 x11 x12 x13 V
abbrev Live168 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v137 x0 x1 x2 x3 x4 x5 x6 x7 x8 x9 x10 x11 x12 x13 V ∧ At_c_25 x0 x1 x2 x3 x4 x5 x6 x7 x8 x9 x10 x11 x12 x13 V
abbrev Live169 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v137 x0 x1 x2 x3 x4 x5 x6 x7 x8 x9 x10 x11 x12 x13 V ∧ At_v138 x0 x1 x2 x3 x4 x5 x6 x7 x8 x9 x10 x11 x12 x13 V
abbrev Live170 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v137 x0 x1 x2 x3 x4 x5 x6 x7 x8 x9 x10 x11 x12 x13 V ∧ At_v139 x0 x1 x2 x3 x4 x5 x6 x7 x8 x9 x10 x11 x12 x13 V
abbrev Live171 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v137 x0 x1 x2 x3 x4 x5 x6 x7 x8 x9 x10 x11 x12 x13 V ∧ At_v139 x0 x1 x2 x3 x4 x5 x6 x7 x8 x9 x10 x11 x12 x13 V ∧ At_c_26 x0 x1 x2 x3 x4 x5 x6 x7 x8 x9 x10 x11 x12 x13 V
abbrev Live172 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v137 x0 x1 x2 x3 x4 x5 x6 x7 x8 x9 x10 x11 x12 x13 V ∧ At_v139 x0 x1 x2 x3 x4 x5 x6 x7 x8 x9 x10 x11 x12 x13 V ∧ At_v140 x0 x1 x2 x3 x4 x5 x6 x7 x8 x9 x10 x11 x12 x13 V
abbrev Live173 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v137 x0 x1 x2 x3 x4 x5 x6 x7 x8 x9 x10 x11 x12 x13 V ∧ At_v139 x0 x1 x2 x3 x4 x5 x6 x7 x8 x9 x10 x11 x12 x13 V ∧ At_v141 x0 x1 x2 x3 x4 x5 x6 x7 x8 x9 x10 x11 x12 x13 V
abbrev Live174 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v137 x0 x1 x2 x3 x4 x5 x6 x7 x8 x9 x10 x11 x12 x13 V ∧ At_v142 x0 x1 x2 x3 x4 x5 x6 x7 x8 x9 x10 x11 x12 x13 V
abbrev Live175 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v137 x0 x1 x2 x3 x4 x5 x6 x7 x8 x9 x10 x11 x12 x13 V ∧ At_v143 x0 x1 x2 x3 x4 x5 x6 x7 x8 x9 x10 x11 x12 x13 V
abbrev Live176 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v137 x0 x1 x2 x3 x4 x5 x6 x7 x8 x9 x10 x11 x12 x13 V ∧ At_v144 x0 x1 x2 x3 x4 x5 x6 x7 x8 x9 x10 x11 x12 x13 V
abbrev Live177 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v144 x0 x1 x2 x3 x4 x5 x6 x7 x8 x9 x10 x11 x12 x13 V ∧ At_v145 x0 x1 x2 x3 x4 x5 x6 x7 x8 x9 x10 x11 x12 x13 V
abbrev Live178 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v146 x0 x1 x2 x3 x4 x5 x6 x7 x8 x9 x10 x11 x12 x13 V
abbrev Live179 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v146 x0 x1 x2 x3 x4 x5 x6 x7 x8 x9 x10 x11 x12 x13 V ∧ At_cst_27 x0 x1 x2 x3 x4 x5 x6 x7 x8 x9 x10 x11 x12 x13 V
abbrev Live180 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v146 x0 x1 x2 x3 x4 x5 x6 x7 x8 x9 x10 x11 x12 x13 V ∧ At_v147 x0 x1 x2 x3 x4 x5 x6 x7 x8 x9 x10 x11 x12 x13 V
abbrev Live181 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v146 x0 x1 x2 x3 x4 x5 x6 x7 x8 x9 x10 x11 x12 x13 V ∧ At_v147 x0 x1 x2 x3 x4 x5 x6 x7 x8 x9 x10 x11 x12 x13 V ∧ At_v148 x0 x1 x2 x3 x4 x5 x6 x7 x8 x9 x10 x11 x12 x13 V
abbrev Live182 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V
abbrev Live183 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_c_28 x0 x1 x2 x3 x4 x5 x6 x7 x8 x9 x10 x11 x12 x13 V
abbrev Live184 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v150 x0 x1 x2 x3 x4 x5 x6 x7 x8 x9 x10 x11 x12 x13 V
abbrev Live185 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v151 x0 x1 x2 x3 x4 x5 x6 x7 x8 x9 x10 x11 x12 x13 V
abbrev Live186 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v151 x0 x1 x2 x3 x4 x5 x6 x7 x8 x9 x10 x11 x12 x13 V ∧ At_c_29 x0 x1 x2 x3 x4 x5 x6 x7 x8 x9 x10 x11 x12 x13 V
abbrev Live187 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v151 x0 x1 x2 x3 x4 x5 x6 x7 x8 x9 x10 x11 x12 x13 V ∧ At_v152 x0 x1 x2 x3 x4 x5 x6 x7 x8 x9 x10 x11 x12 x13 V
abbrev Live188 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v151 x0 x1 x2 x3 x4 x5 x6 x7 x8 x9 x10 x11 x12 x13 V ∧ At_v153 x0 x1 x2 x3 x4 x5 x6 x7 x8 x9 x10 x11 x12 x13 V
abbrev Live189 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v154 x0 x1 x2 x3 x4 x5 x6 x7 x8 x9 x10 x11 x12 x13 V
abbrev Live190 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v155 x0 x1 x2 x3 x4 x5 x6 x7 x8 x9 x10 x11 x12 x13 V
abbrev Live191 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v156 x0 x1 x2 x3 x4 x5 x6 x7 x8 x9 x10 x11 x12 x13 V
abbrev Live192 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v156 x0 x1 x2 x3 x4 x5 x6 x7 x8 x9 x10 x11 x12 x13 V ∧ At_c_30 x0 x1 x2 x3 x4 x5 x6 x7 x8 x9 x10 x11 x12 x13 V
abbrev Live193 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v156 x0 x1 x2 x3 x4 x5 x6 x7 x8 x9 x10 x11 x12 x13 V ∧ At_v157 x0 x1 x2 x3 x4 x5 x6 x7 x8 x9 x10 x11 x12 x13 V
abbrev Live194 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v156 x0 x1 x2 x3 x4 x5 x6 x7 x8 x9 x10 x11 x12 x13 V ∧ At_v158 x0 x1 x2 x3 x4 x5 x6 x7 x8 x9 x10 x11 x12 x13 V
abbrev Live195 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v156 x0 x1 x2 x3 x4 x5 x6 x7 x8 x9 x10 x11 x12 x13 V ∧ At_v158 x0 x1 x2 x3 x4 x5 x6 x7 x8 x9 x10 x11 x12 x13 V ∧ At_c_31 x0 x1 x2 x3 x4 x5 x6 x7 x8 x9 x10 x11 x12 x13 V
abbrev Live196 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v156 x0 x1 x2 x3 x4 x5 x6 x7 x8 x9 x10 x11 x12 x13 V ∧ At_v158 x0 x1 x2 x3 x4 x5 x6 x7 x8 x9 x10 x11 x12 x13 V ∧ At_v159 x0 x1 x2 x3 x4 x5 x6 x7 x8 x9 x10 x11 x12 x13 V
abbrev Live197 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v156 x0 x1 x2 x3 x4 x5 x6 x7 x8 x9 x10 x11 x12 x13 V ∧ At_v158 x0 x1 x2 x3 x4 x5 x6 x7 x8 x9 x10 x11 x12 x13 V ∧ At_v160 x0 x1 x2 x3 x4 x5 x6 x7 x8 x9 x10 x11 x12 x13 V
abbrev Live198 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v156 x0 x1 x2 x3 x4 x5 x6 x7 x8 x9 x10 x11 x12 x13 V ∧ At_v161 x0 x1 x2 x3 x4 x5 x6 x7 x8 x9 x10 x11 x12 x13 V
abbrev Live199 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v156 x0 x1 x2 x3 x4 x5 x6 x7 x8 x9 x10 x11 x12 x13 V ∧ At_v162 x0 x1 x2 x3 x4 x5 x6 x7 x8 x9 x10 x11 x12 x13 V
abbrev Live200 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v156 x0 x1 x2 x3 x4 x5 x6 x7 x8 x9 x10 x11 x12 x13 V ∧ At_v163 x0 x1 x2 x3 x4 x5 x6 x7 x8 x9 x10 x11 x12 x13 V
abbrev Live201 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v164 x0 x1 x2 x3 x4 x5 x6 x7 x8 x9 x10 x11 x12 x13 V
abbrev Live202 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v164 x0 x1 x2 x3 x4 x5 x6 x7 x8 x9 x10 x11 x12 x13 V ∧ At_v165 x0 x1 x2 x3 x4 x5 x6 x7 x8 x9 x10 x11 x12 x13 V
abbrev Live203 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v164 x0 x1 x2 x3 x4 x5 x6 x7 x8 x9 x10 x11 x12 x13 V ∧ At_v166 x0 x1 x2 x3 x4 x5 x6 x7 x8 x9 x10 x11 x12 x13 V
abbrev Live204 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v167 x0 x1 x2 x3 x4 x5 x6 x7 x8 x9 x10 x11 x12 x13 V
abbrev Live205 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v167 x0 x1 x2 x3 x4 x5 x6 x7 x8 x9 x10 x11 x12 x13 V ∧ At_v168 x0 x1 x2 x3 x4 x5 x6 x7 x8 x9 x10 x11 x12 x13 V
abbrev Live206 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v167 x0 x1 x2 x3 x4 x5 x6 x7 x8 x9 x10 x11 x12 x13 V ∧ At_v169 x0 x1 x2 x3 x4 x5 x6 x7 x8 x9 x10 x11 x12 x13 V
abbrev Live207 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v167 x0 x1 x2 x3 x4 x5 x6 x7 x8 x9 x10 x11 x12 x13 V ∧ At_v170 x0 x1 x2 x3 x4 x5 x6 x7 x8 x9 x10 x11 x12 x13 V
abbrev Live208 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v167 x0 x1 x2 x3 x4 x5 x6 x7 x8 x9 x10 x11 x12 x13 V ∧ At_v171 x0 x1 x2 x3 x4 x5 x6 x7 x8 x9 x10 x11 x12 x13 V
abbrev Live209 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v172 x0 x1 x2 x3 x4 x5 x6 x7 x8 x9 x10 x11 x12 x13 V
abbrev Live210 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v172 x0 x1 x2 x3 x4 x5 x6 x7 x8 x9 x10 x11 x12 x13 V ∧ At_cst_32 x0 x1 x2 x3 x4 x5 x6 x7 x8 x9 x10 x11 x12 x13 V
abbrev Live211 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v172 x0 x1 x2 x3 x4 x5 x6 x7 x8 x9 x10 x11 x12 x13 V ∧ At_v173 x0 x1 x2 x3 x4 x5 x6 x7 x8 x9 x10 x11 x12 x13 V
abbrev Live212 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v174 x0 x1 x2 x3 x4 x5 x6 x7 x8 x9 x10 x11 x12 x13 V
abbrev Live213 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v174 x0 x1 x2 x3 x4 x5 x6 x7 x8 x9 x10 x11 x12 x13 V ∧ At_v175 x0 x1 x2 x3 x4 x5 x6 x7 x8 x9 x10 x11 x12 x13 V
abbrev Live214 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v174 x0 x1 x2 x3 x4 x5 x6 x7 x8 x9 x10 x11 x12 x13 V ∧ At_v176 x0 x1 x2 x3 x4 x5 x6 x7 x8 x9 x10 x11 x12 x13 V
abbrev Live215 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v177 x0 x1 x2 x3 x4 x5 x6 x7 x8 x9 x10 x11 x12 x13 V
abbrev Live216 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v177 x0 x1 x2 x3 x4 x5 x6 x7 x8 x9 x10 x11 x12 x13 V ∧ At_v178 x0 x1 x2 x3 x4 x5 x6 x7 x8 x9 x10 x11 x12 x13 V
abbrev Live217 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v177 x0 x1 x2 x3 x4 x5 x6 x7 x8 x9 x10 x11 x12 x13 V ∧ At_v179 x0 x1 x2 x3 x4 x5 x6 x7 x8 x9 x10 x11 x12 x13 V
abbrev Live218 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v177 x0 x1 x2 x3 x4 x5 x6 x7 x8 x9 x10 x11 x12 x13 V ∧ At_v180 x0 x1 x2 x3 x4 x5 x6 x7 x8 x9 x10 x11 x12 x13 V
abbrev Live219 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v177 x0 x1 x2 x3 x4 x5 x6 x7 x8 x9 x10 x11 x12 x13 V ∧ At_v181 x0 x1 x2 x3 x4 x5 x6 x7 x8 x9 x10 x11 x12 x13 V
abbrev Live220 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v182 x0 x1 x2 x3 x4 x5 x6 x7 x8 x9 x10 x11 x12 x13 V
abbrev Live221 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v182 x0 x1 x2 x3 x4 x5 x6 x7 x8 x9 x10 x11 x12 x13 V ∧ At_v183 x0 x1 x2 x3 x4 x5 x6 x7 x8 x9 x10 x11 x12 x13 V
abbrev Live222 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v182 x0 x1 x2 x3 x4 x5 x6 x7 x8 x9 x10 x11 x12 x13 V ∧ At_v184 x0 x1 x2 x3 x4 x5 x6 x7 x8 x9 x10 x11 x12 x13 V
abbrev Live223 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v182 x0 x1 x2 x3 x4 x5 x6 x7 x8 x9 x10 x11 x12 x13 V ∧ At_v185 x0 x1 x2 x3 x4 x5 x6 x7 x8 x9 x10 x11 x12 x13 V
abbrev Live224 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v186 x0 x1 x2 x3 x4 x5 x6 x7 x8 x9 x10 x11 x12 x13 V
abbrev Live225 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v186 x0 x1 x2 x3 x4 x5 x6 x7 x8 x9 x10 x11 x12 x13 V ∧ At_cst_33 x0 x1 x2 x3 x4 x5 x6 x7 x8 x9 x10 x11 x12 x13 V
abbrev Live226 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v186 x0 x1 x2 x3 x4 x5 x6 x7 x8 x9 x10 x11 x12 x13 V ∧ At_v187 x0 x1 x2 x3 x4 x5 x6 x7 x8 x9 x10 x11 x12 x13 V
abbrev Live227 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v188 x0 x1 x2 x3 x4 x5 x6 x7 x8 x9 x10 x11 x12 x13 V
abbrev Live228 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v189 x0 x1 x2 x3 x4 x5 x6 x7 x8 x9 x10 x11 x12 x13 V
abbrev Live229 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v190 x0 x1 x2 x3 x4 x5 x6 x7 x8 x9 x10 x11 x12 x13 V
abbrev Live230 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v190 x0 x1 x2 x3 x4 x5 x6 x7 x8 x9 x10 x11 x12 x13 V ∧ At_cst_34 x0 x1 x2 x3 x4 x5 x6 x7 x8 x9 x10 x11 x12 x13 V
abbrev Live231 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v190 x0 x1 x2 x3 x4 x5 x6 x7 x8 x9 x10 x11 x12 x13 V ∧ At_v191 x0 x1 x2 x3 x4 x5 x6 x7 x8 x9 x10 x11 x12 x13 V
abbrev Live232 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v192 x0 x1 x2 x3 x4 x5 x6 x7 x8 x9 x10 x11 x12 x13 V
abbrev Live233 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v192 x0 x1 x2 x3 x4 x5 x6 x7 x8 x9 x10 x11 x12 x13 V ∧ At_cst_35 x0 x1 x2 x3 x4 x5 x6 x7 x8 x9 x10 x11 x12 x13 V
abbrev Live234 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v192 x0 x1 x2 x3 x4 x5 x6 x7 x8 x9 x10 x11 x12 x13 V ∧ At_v193 x0 x1 x2 x3 x4 x5 x6 x7 x8 x9 x10 x11 x12 x13 V
abbrev Live235 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v194 x0 x1 x2 x3 x4 x5 x6 x7 x8 x9 x10 x11 x12 x13 V
abbrev Live236 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v195 x0 x1 x2 x3 x4 x5 x6 x7 x8 x9 x10 x11 x12 x13 V
abbrev Live237 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v195 x0 x1 x2 x3 x4 x5 x6 x7 x8 x9 x10 x11 x12 x13 V ∧ At_cst_36 x0 x1 x2 x3 x4 x5 x6 x7 x8 x9 x10 x11 x12 x13 V
abbrev Live238 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v195 x0 x1 x2 x3 x4 x5 x6 x7 x8 x9 x10 x11 x12 x13 V ∧ At_v196 x0 x1 x2 x3 x4 x5 x6 x7 x8 x9 x10 x11 x12 x13 V
abbrev Live239 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v195 x0 x1 x2 x3 x4 x5 x6 x7 x8 x9 x10 x11 x12 x13 V ∧ At_v196 x0 x1 x2 x3 x4 x5 x6 x7 x8 x9 x10 x11 x12 x13 V ∧ At_v197 x0 x1 x2 x3 x4 x5 x6 x7 x8 x9 x10 x11 x12 x13 V
abbrev Live240 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v195 x0 x1 x2 x3 x4 x5 x6 x7 x8 x9 x10 x11 x12 x13 V ∧ At_v198 x0 x1 x2 x3 x4 x5 x6 x7 x8 x9 x10 x11 x12 x13 V
abbrev Live241 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v195 x0 x1 x2 x3 x4 x5 x6 x7 x8 x9 x10 x11 x12 x13 V ∧ At_v198 x0 x1 x2 x3 x4 x5 x6 x7 x8 x9 x10 x11 x12 x13 V ∧ At_cst_37 x0 x1 x2 x3 x4 x5 x6 x7 x8 x9 x10 x11 x12 x13 V
abbrev Live242 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v195 x0 x1 x2 x3 x4 x5 x6 x7 x8 x9 x10 x11 x12 x13 V ∧ At_v198 x0 x1 x2 x3 x4 x5 x6 x7 x8 x9 x10 x11 x12 x13 V ∧ At_v199 x0 x1 x2 x3 x4 x5 x6 x7 x8 x9 x10 x11 x12 x13 V
abbrev Live243 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v195 x0 x1 x2 x3 x4 x5 x6 x7 x8 x9 x10 x11 x12 x13 V ∧ At_v198 x0 x1 x2 x3 x4 x5 x6 x7 x8 x9 x10 x11 x12 x13 V ∧ At_v200 x0 x1 x2 x3 x4 x5 x6 x7 x8 x9 x10 x11 x12 x13 V
abbrev Live244 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v195 x0 x1 x2 x3 x4 x5 x6 x7 x8 x9 x10 x11 x12 x13 V ∧ At_v198 x0 x1 x2 x3 x4 x5 x6 x7 x8 x9 x10 x11 x12 x13 V ∧ At_v200 x0 x1 x2 x3 x4 x5 x6 x7 x8 x9 x10 x11 x12 x13 V ∧ At_cst_38 x0 x1 x2 x3 x4 x5 x6 x7 x8 x9 x10 x11 x12 x13 V
abbrev Live245 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v195 x0 x1 x2 x3 x4 x5 x6 x7 x8 x9 x10 x11 x12 x13 V ∧ At_v198 x0 x1 x2 x3 x4 x5 x6 x7 x8 x9 x10 x11 x12 x13 V ∧ At_v200 x0 x1 x2 x3 x4 x5 x6 x7 x8 x9 x10 x11 x12 x13 V ∧ At_v201 x0 x1 x2 x3 x4 x5 x6 x7 x8 x9 x10 x11 x12 x13 V
abbrev Live246 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v195 x0 x1 x2 x3 x4 x5 x6 x7 x8 x9 x10 x11 x12 x13 V ∧ At_v200 x0 x1 x2 x3 x4 x5 x6 x7 x8 x9 x10 x11 x12 x13 V ∧ At_v202 x0 x1 x2 x3 x4 x5 x6 x7 x8 x9 x10 x11 x12 x13 V
abbrev Live247 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v195 x0 x1 x2 x3 x4 x5 x6 x7 x8 x9 x10 x11 x12 x13 V ∧ At_v200 x0 x1 x2 x3 x4 x5 x6 x7 x8 x9 x10 x11 x12 x13 V ∧ At_v202 x0 x1 x2 x3 x4 x5 x6 x7 x8 x9 x10 x11 x12 x13 V ∧ At_cst_39 x0 x1 x2 x3 x4 x5 x6 x7 x8 x9 x10 x11 x12 x13 V
abbrev Live248 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v195 x0 x1 x2 x3 x4 x5 x6 x7 x8 x9 x10 x11 x12 x13 V ∧ At_v200 x0 x1 x2 x3 x4 x5 x6 x7 x8 x9 x10 x11 x12 x13 V ∧ At_v202 x0 x1 x2 x3 x4 x5 x6 x7 x8 x9 x10 x11 x12 x13 V ∧ At_call1_v0 x0 x1 x2 x3 x4 x5 x6 x7 x8 x9 x10 x11 x12 x13 V
abbrev Live249 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v195 x0 x1 x2 x3 x4 x5 x6 x7 x8 x9 x10 x11 x12 x13 V ∧ At_v200 x0 x1 x2 x3 x4 x5 x6 x7 x8 x9 x10 x11 x12 x13 V ∧ At_v202 x0 x1 x2 x3 x4 x5 x6 x7 x8 x9 x10 x11 x12 x13 V ∧ At_call1_v1 x0 x1 x2 x3 x4 x5 x6 x7 x8 x9 x10 x11 x12 x13 V
abbrev Live250 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v195 x0 x1 x2 x3 x4 x5 x6 x7 x8 x9 x10 x11 x12 x13 V ∧ At_v203 x0 x1 x2 x3 x4 x5 x6 x7 x8 x9 x10 x11 x12 x13 V
abbrev Live251 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v195 x0 x1 x2 x3 x4 x5 x6 x7 x8 x9 x10 x11 x12 x13 V ∧ At_v203 x0 x1 x2 x3 x4 x5 x6 x7 x8 x9 x10 x11 x12 x13 V ∧ At_c_40 x0 x1 x2 x3 x4 x5 x6 x7 x8 x9 x10 x11 x12 x13 V
abbrev Live252 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v195 x0 x1 x2 x3 x4 x5 x6 x7 x8 x9 x10 x11 x12 x13 V ∧ At_v203 x0 x1 x2 x3 x4 x5 x6 x7 x8 x9 x10 x11 x12 x13 V ∧ At_v204 x0 x1 x2 x3 x4 x5 x6 x7 x8 x9 x10 x11 x12 x13 V
abbrev Live253 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v195 x0 x1 x2 x3 x4 x5 x6 x7 x8 x9 x10 x11 x12 x13 V ∧ At_v203 x0 x1 x2 x3 x4 x5 x6 x7 x8 x9 x10 x11 x12 x13 V ∧ At_v205 x0 x1 x2 x3 x4 x5 x6 x7 x8 x9 x10 x11 x12 x13 V
abbrev Live254 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v195 x0 x1 x2 x3 x4 x5 x6 x7 x8 x9 x10 x11 x12 x13 V ∧ At_v203 x0 x1 x2 x3 x4 x5 x6 x7 x8 x9 x10 x11 x12 x13 V ∧ At_v205 x0 x1 x2 x3 x4 x5 x6 x7 x8 x9 x10 x11 x12 x13 V ∧ At_c_41 x0 x1 x2 x3 x4 x5 x6 x7 x8 x9 x10 x11 x12 x13 V
abbrev Live255 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v195 x0 x1 x2 x3 x4 x5 x6 x7 x8 x9 x10 x11 x12 x13 V ∧ At_v203 x0 x1 x2 x3 x4 x5 x6 x7 x8 x9 x10 x11 x12 x13 V ∧ At_v205 x0 x1 x2 x3 x4 x5 x6 x7 x8 x9 x10 x11 x12 x13 V ∧ At_v206 x0 x1 x2 x3 x4 x5 x6 x7 x8 x9 x10 x11 x12 x13 V
abbrev Live256 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v195 x0 x1 x2 x3 x4 x5 x6 x7 x8 x9 x10 x11 x12 x13 V ∧ At_v203 x0 x1 x2 x3 x4 x5 x6 x7 x8 x9 x10 x11 x12 x13 V ∧ At_v205 x0 x1 x2 x3 x4 x5 x6 x7 x8 x9 x10 x11 x12 x13 V ∧ At_v207 x0 x1 x2 x3 x4 x5 x6 x7 x8 x9 x10 x11 x12 x13 V
abbrev Live257 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v195 x0 x1 x2 x3 x4 x5 x6 x7 x8 x9 x10 x11 x12 x13 V ∧ At_v203 x0 x1 x2 x3 x4 x5 x6 x7 x8 x9 x10 x11 x12 x13 V ∧ At_v208 x0 x1 x2 x3 x4 x5 x6 x7 x8 x9 x10 x11 x12 x13 V
abbrev Live258 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v195 x0 x1 x2 x3 x4 x5 x6 x7 x8 x9 x10 x11 x12 x13 V ∧ At_v203 x0 x1 x2 x3 x4 x5 x6 x7 x8 x9 x10 x11 x12 x13 V ∧ At_v209 x0 x1 x2 x3 x4 x5 x6 x7 x8 x9 x10 x11 x12 x13 V
abbrev Live259 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v195 x0 x1 x2 x3 x4 x5 x6 x7 x8 x9 x10 x11 x12 x13 V ∧ At_v210 x0 x1 x2 x3 x4 x5 x6 x7 x8 x9 x10 x11 x12 x13 V
abbrev Live260 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v211 x0 x1 x2 x3 x4 x5 x6 x7 x8 x9 x10 x11 x12 x13 V
abbrev Live261 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v212 x0 x1 x2 x3 x4 x5 x6 x7 x8 x9 x10 x11 x12 x13 V
abbrev Live262 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v212 x0 x1 x2 x3 x4 x5 x6 x7 x8 x9 x10 x11 x12 x13 V ∧ At_c_42 x0 x1 x2 x3 x4 x5 x6 x7 x8 x9 x10 x11 x12 x13 V
abbrev Live263 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v212 x0 x1 x2 x3 x4 x5 x6 x7 x8 x9 x10 x11 x12 x13 V ∧ At_v213 x0 x1 x2 x3 x4 x5 x6 x7 x8 x9 x10 x11 x12 x13 V
abbrev Live264 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v212 x0 x1 x2 x3 x4 x5 x6 x7 x8 x9 x10 x11 x12 x13 V ∧ At_v214 x0 x1 x2 x3 x4 x5 x6 x7 x8 x9 x10 x11 x12 x13 V
abbrev Live265 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v212 x0 x1 x2 x3 x4 x5 x6 x7 x8 x9 x10 x11 x12 x13 V ∧ At_v214 x0 x1 x2 x3 x4 x5 x6 x7 x8 x9 x10 x11 x12 x13 V ∧ At_c_43 x0 x1 x2 x3 x4 x5 x6 x7 x8 x9 x10 x11 x12 x13 V
abbrev Live266 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v212 x0 x1 x2 x3 x4 x5 x6 x7 x8 x9 x10 x11 x12 x13 V ∧ At_v214 x0 x1 x2 x3 x4 x5 x6 x7 x8 x9 x10 x11 x12 x13 V ∧ At_v215 x0 x1 x2 x3 x4 x5 x6 x7 x8 x9 x10 x11 x12 x13 V
abbrev Live267 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v212 x0 x1 x2 x3 x4 x5 x6 x7 x8 x9 x10 x11 x12 x13 V ∧ At_v214 x0 x1 x2 x3 x4 x5 x6 x7 x8 x9 x10 x11 x12 x13 V ∧ At_v216 x0 x1 x2 x3 x4 x5 x6 x7 x8 x9 x10 x11 x12 x13 V
abbrev Live268 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v212 x0 x1 x2 x3 x4 x5 x6 x7 x8 x9 x10 x11 x12 x13 V ∧ At_v217 x0 x1 x2 x3 x4 x5 x6 x7 x8 x9 x10 x11 x12 x13 V
abbrev Live269 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v212 x0 x1 x2 x3 x4 x5 x6 x7 x8 x9 x10 x11 x12 x13 V ∧ At_v218 x0 x1 x2 x3 x4 x5 x6 x7 x8 x9 x10 x11 x12 x13 V
abbrev Live270 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v212 x0 x1 x2 x3 x4 x5 x6 x7 x8 x9 x10 x11 x12 x13 V ∧ At_v219 x0 x1 x2 x3 x4 x5 x6 x7 x8 x9 x10 x11 x12 x13 V
abbrev Live271 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v219 x0 x1 x2 x3 x4 x5 x6 x7 x8 x9 x10 x11 x12 x13 V ∧ At_v220 x0 x1 x2 x3 x4 x5 x6 x7 x8 x9 x10 x11 x12 x13 V
abbrev Live272 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v221 x0 x1 x2 x3 x4 x5 x6 x7 x8 x9 x10 x11 x12 x13 V
abbrev Live273 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v221 x0 x1 x2 x3 x4 x5 x6 x7 x8 x9 x10 x11 x12 x13 V ∧ At_cst_44 x0 x1 x2 x3 x4 x5 x6 x7 x8 x9 x10 x11 x12 x13 V
abbrev Live274 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v221 x0 x1 x2 x3 x4 x5 x6 x7 x8 x9 x10 x11 x12 x13 V ∧ At_v222 x0 x1 x2 x3 x4 x5 x6 x7 x8 x9 x10 x11 x12 x13 V
abbrev Live275 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v221 x0 x1 x2 x3 x4 x5 x6 x7 x8 x9 x10 x11 x12 x13 V ∧ At_v222 x0 x1 x2 x3 x4 x5 x6 x7 x8 x9 x10 x11 x12 x13 V ∧ At_v223 x0 x1 x2 x3 x4 x5 x6 x7 x8 x9 x10 x11 x12 x13 V
abbrev Live276 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V
abbrev Live277 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v225 x0 x1 x2 x3 x4 x5 x6 x7 x8 x9 x10 x11 x12 x13 V
abbrev Live278 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v226 x0 x1 x2 x3 x4 x5 x6 x7 x8 x9 x10 x11 x12 x13 V
abbrev Live279 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v227 x0 x1 x2 x3 x4 x5 x6 x7 x8 x9 x10 x11 x12 x13 V
abbrev Live280 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v227 x0 x1 x2 x3 x4 x5 x6 x7 x8 x9 x10 x11 x12 x13 V ∧ At_v228 x0 x1 x2 x3 x4 x5 x6 x7 x8 x9 x10 x11 x12 x13 V
abbrev Live281 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v227 x0 x1 x2 x3 x4 x5 x6 x7 x8 x9 x10 x11 x12 x13 V ∧ At_v229 x0 x1 x2 x3 x4 x5 x6 x7 x8 x9 x10 x11 x12 x13 V
abbrev Live282 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v227 x0 x1 x2 x3 x4 x5 x6 x7 x8 x9 x10 x11 x12 x13 V ∧ At_v230 x0 x1 x2 x3 x4 x5 x6 x7 x8 x9 x10 x11 x12 x13 V
abbrev Live283 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v227 x0 x1 x2 x3 x4 x5 x6 x7 x8 x9 x10 x11 x12 x13 V ∧ At_v231 x0 x1 x2 x3 x4 x5 x6 x7 x8 x9 x10 x11 x12 x13 V
abbrev Live284 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v232 x0 x1 x2 x3 x4 x5 x6 x7 x8 x9 x10 x11 x12 x13 V
abbrev Live285 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v232 x0 x1 x2 x3 x4 x5 x6 x7 x8 x9 x10 x11 x12 x13 V ∧ At_cst_45 x0 x1 x2 x3 x4 x5 x6 x7 x8 x9 x10 x11 x12 x13 V
abbrev Live286 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v232 x0 x1 x2 x3 x4 x5 x6 x7 x8 x9 x10 x11 x12 x13 V ∧ At_v233 x0 x1 x2 x3 x4 x5 x6 x7 x8 x9 x10 x11 x12 x13 V
abbrev Live287 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v234 x0 x1 x2 x3 x4 x5 x6 x7 x8 x9 x10 x11 x12 x13 V
abbrev Live288 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v234 x0 x1 x2 x3 x4 x5 x6 x7 x8 x9 x10 x11 x12 x13 V ∧ At_v235 x0 x1 x2 x3 x4 x5 x6 x7 x8 x9 x10 x11 x12 x13 V
abbrev Live289 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v234 x0 x1 x2 x3 x4 x5 x6 x7 x8 x9 x10 x11 x12 x13 V ∧ At_v236 x0 x1 x2 x3 x4 x5 x6 x7 x8 x9 x10 x11 x12 x13 V
abbrev Live290 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v237 x0 x1 x2 x3 x4 x5 x6 x7 x8 x9 x10 x11 x12 x13 V
abbrev Live291 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v237 x0 x1 x2 x3 x4 x5 x6 x7 x8 x9 x10 x11 x12 x13 V ∧ At_v238 x0 x1 x2 x3 x4 x5 x6 x7 x8 x9 x10 x11 x12 x13 V
abbrev Live292 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v237 x0 x1 x2 x3 x4 x5 x6 x7 x8 x9 x10 x11 x12 x13 V ∧ At_v239 x0 x1 x2 x3 x4 x5 x6 x7 x8 x9 x10 x11 x12 x13 V
abbrev Live293 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v237 x0 x1 x2 x3 x4 x5 x6 x7 x8 x9 x10 x11 x12 x13 V ∧ At_v240 x0 x1 x2 x3 x4 x5 x6 x7 x8 x9 x10 x11 x12 x13 V
abbrev Live294 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v237 x0 x1 x2 x3 x4 x5 x6 x7 x8 x9 x10 x11 x12 x13 V ∧ At_v241 x0 x1 x2 x3 x4 x5 x6 x7 x8 x9 x10 x11 x12 x13 V
abbrev Live295 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v242 x0 x1 x2 x3 x4 x5 x6 x7 x8 x9 x10 x11 x12 x13 V
abbrev Live296 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v242 x0 x1 x2 x3 x4 x5 x6 x7 x8 x9 x10 x11 x12 x13 V ∧ At_v243 x0 x1 x2 x3 x4 x5 x6 x7 x8 x9 x10 x11 x12 x13 V
abbrev Live297 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v242 x0 x1 x2 x3 x4 x5 x6 x7 x8 x9 x10 x11 x12 x13 V ∧ At_v244 x0 x1 x2 x3 x4 x5 x6 x7 x8 x9 x10 x11 x12 x13 V
abbrev Live298 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v245 x0 x1 x2 x3 x4 x5 x6 x7 x8 x9 x10 x11 x12 x13 V
abbrev Live299 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v245 x0 x1 x2 x3 x4 x5 x6 x7 x8 x9 x10 x11 x12 x13 V ∧ At_cst_46 x0 x1 x2 x3 x4 x5 x6 x7 x8 x9 x10 x11 x12 x13 V
abbrev Live300 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v245 x0 x1 x2 x3 x4 x5 x6 x7 x8 x9 x10 x11 x12 x13 V ∧ At_v246 x0 x1 x2 x3 x4 x5 x6 x7 x8 x9 x10 x11 x12 x13 V
abbrev Live301 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v247 x0 x1 x2 x3 x4 x5 x6 x7 x8 x9 x10 x11 x12 x13 V
abbrev Live302 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v248 x0 x1 x2 x3 x4 x5 x6 x7 x8 x9 x10 x11 x12 x13 V
abbrev Live303 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v249 x0 x1 x2 x3 x4 x5 x6 x7 x8 x9 x10 x11 x12 x13 V
abbrev Live304 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v249 x0 x1 x2 x3 x4 x5 x6 x7 x8 x9 x10 x11 x12 x13 V ∧ At_cst_47 x0 x1 x2 x3 x4 x5 x6 x7 x8 x9 x10 x11 x12 x13 V
abbrev Live305 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v249 x0 x1 x2 x3 x4 x5 x6 x7 x8 x9 x10 x11 x12 x13 V ∧ At_v250 x0 x1 x2 x3 x4 x5 x6 x7 x8 x9 x10 x11 x12 x13 V
abbrev Live306 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v251 x0 x1 x2 x3 x4 x5 x6 x7 x8 x9 x10 x11 x12 x13 V
abbrev Live307 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v251 x0 x1 x2 x3 x4 x5 x6 x7 x8 x9 x10 x11 x12 x13 V ∧ At_cst_48 x0 x1 x2 x3 x4 x5 x6 x7 x8 x9 x10 x11 x12 x13 V
abbrev Live308 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v251 x0 x1 x2 x3 x4 x5 x6 x7 x8 x9 x10 x11 x12 x13 V ∧ At_v252 x0 x1 x2 x3 x4 x5 x6 x7 x8 x9 x10 x11 x12 x13 V
abbrev Live309 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v253 x0 x1 x2 x3 x4 x5 x6 x7 x8 x9 x10 x11 x12 x13 V
abbrev Live310 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v254 x0 x1 x2 x3 x4 x5 x6 x7 x8 x9 x10 x11 x12 x13 V
abbrev Live311 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v254 x0 x1 x2 x3 x4 x5 x6 x7 x8 x9 x10 x11 x12 x13 V ∧ At_v255 x0 x1 x2 x3 x4 x5 x6 x7 x8 x9 x10 x11 x12 x13 V
abbrev Live312 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v254 x0 x1 x2 x3 x4 x5 x6 x7 x8 x9 x10 x11 x12 x13 V ∧ At_v255 x0 x1 x2 x3 x4 x5 x6 x7 x8 x9 x10 x11 x12 x13 V ∧ At_c_49 x0 x1 x2 x3 x4 x5 x6 x7 x8 x9 x10 x11 x12 x13 V
abbrev Live313 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v254 x0 x1 x2 x3 x4 x5 x6 x7 x8 x9 x10 x11 x12 x13 V ∧ At_v255 x0 x1 x2 x3 x4 x5 x6 x7 x8 x9 x10 x11 x12 x13 V ∧ At_v256 x0 x1 x2 x3 x4 x5 x6 x7 x8 x9 x10 x11 x12 x13 V
abbrev Live314 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v254 x0 x1 x2 x3 x4 x5 x6 x7 x8 x9 x10 x11 x12 x13 V ∧ At_v255 x0 x1 x2 x3 x4 x5 x6 x7 x8 x9 x10 x11 x12 x13 V ∧ At_v257 x0 x1 x2 x3 x4 x5 x6 x7 x8 x9 x10 x11 x12 x13 V
abbrev Live315 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v254 x0 x1 x2 x3 x4 x5 x6 x7 x8 x9 x10 x11 x12 x13 V ∧ At_v255 x0 x1 x2 x3 x4 x5 x6 x7 x8 x9 x10 x11 x12 x13 V ∧ At_v257 x0 x1 x2 x3 x4 x5 x6 x7 x8 x9 x10 x11 x12 x13 V ∧ At_c_50 x0 x1 x2 x3 x4 x5 x6 x7 x8 x9 x10 x11 x12 x13 V
abbrev Live316 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v254 x0 x1 x2 x3 x4 x5 x6 x7 x8 x9 x10 x11 x12 x13 V ∧ At_v255 x0 x1 x2 x3 x4 x5 x6 x7 x8 x9 x10 x11 x12 x13 V ∧ At_v257 x0 x1 x2 x3 x4 x5 x6 x7 x8 x9 x10 x11 x12 x13 V ∧ At_v258 x0 x1 x2 x3 x4 x5 x6 x7 x8 x9 x10 x11 x12 x13 V
abbrev Live317 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v254 x0 x1 x2 x3 x4 x5 x6 x7 x8 x9 x10 x11 x12 x13 V ∧ At_v255 x0 x1 x2 x3 x4 x5 x6 x7 x8 x9 x10 x11 x12 x13 V ∧ At_v257 x0 x1 x2 x3 x4 x5 x6 x7 x8 x9 x10 x11 x12 x13 V ∧ At_v259 x0 x1 x2 x3 x4 x5 x6 x7 x8 x9 x10 x11 x12 x13 V
abbrev Live318 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v254 x0 x1 x2 x3 x4 x5 x6 x7 x8 x9 x10 x11 x12 x13 V ∧ At_v255 x0 x1 x2 x3 x4 x5 x6 x7 x8 x9 x10 x11 x12 x13 V ∧ At_v260 x0 x1 x2 x3 x4 x5 x6 x7 x8 x9 x10 x11 x12 x13 V
abbrev Live319 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v254 x0 x1 x2 x3 x4 x5 x6 x7 x8 x9 x10 x11 x12 x13 V ∧ At_v255 x0 x1 x2 x3 x4 x5 x6 x7 x8 x9 x10 x11 x12 x13 V ∧ At_v261 x0 x1 x2 x3 x4 x5 x6 x7 x8 x9 x10 x11 x12 x13 V
abbrev Live320 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v255 x0 x1 x2 x3 x4 x5 x6 x7 x8 x9 x10 x11 x12 x13 V ∧ At_v262 x0 x1 x2 x3 x4 x5 x6 x7 x8 x9 x10 x11 x12 x13 V
abbrev Live321 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v262 x0 x1 x2 x3 x4 x5 x6 x7 x8 x9 x10 x11 x12 x13 V ∧ At_v263 x0 x1 x2 x3 x4 x5 x6 x7 x8 x9 x10 x11 x12 x13 V
abbrev Live322 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v264 x0 x1 x2 x3 x4 x5 x6 x7 x8 x9 x10 x11 x12 x13 V
abbrev Live323 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v264 x0 x1 x2 x3 x4 x5 x6 x7 x8 x9 x10 x11 x12 x13 V ∧ At_cst_51 x0 x1 x2 x3 x4 x5 x6 x7 x8 x9 x10 x11 x12 x13 V
abbrev Live324 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v264 x0 x1 x2 x3 x4 x5 x6 x7 x8 x9 x10 x11 x12 x13 V ∧ At_v265 x0 x1 x2 x3 x4 x5 x6 x7 x8 x9 x10 x11 x12 x13 V
abbrev Live325 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v264 x0 x1 x2 x3 x4 x5 x6 x7 x8 x9 x10 x11 x12 x13 V ∧ At_v265 x0 x1 x2 x3 x4 x5 x6 x7 x8 x9 x10 x11 x12 x13 V ∧ At_v266 x0 x1 x2 x3 x4 x5 x6 x7 x8 x9 x10 x11 x12 x13 V
abbrev Live326 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v131 x0 x1 x2 x3 x4 x5 x6 x7 x8 x9 x10 x11 x12 x13 V ∧ At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v149 x0 x1 x2 x3 x4 x5 x6 x7 x8 x9 x10 x11 x12 x13 V ∧ At_v224 x0 x1 x2 x3 x4 x5 x6 x7 x8 x9 x10 x11 x12 x13 V ∧ At_v267 x0 x1 x2 x3 x4 x5 x6 x7 x8 x9 x10 x11 x12 x13 V
abbrev Live327 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v132 x0 x1 x2 x3 x4 x5 x6 x7 x8 x9 x10 x11 x12 x13 V ∧ At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v224 x0 x1 x2 x3 x4 x5 x6 x7 x8 x9 x10 x11 x12 x13 V ∧ At_v267 x0 x1 x2 x3 x4 x5 x6 x7 x8 x9 x10 x11 x12 x13 V ∧ At_v268 x0 x1 x2 x3 x4 x5 x6 x7 x8 x9 x10 x11 x12 x13 V
abbrev Live328 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v133 x0 x1 x2 x3 x4 x5 x6 x7 x8 x9 x10 x11 x12 x13 V ∧ At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v267 x0 x1 x2 x3 x4 x5 x6 x7 x8 x9 x10 x11 x12 x13 V ∧ At_v268 x0 x1 x2 x3 x4 x5 x6 x7 x8 x9 x10 x11 x12 x13 V ∧ At_v269 x0 x1 x2 x3 x4 x5 x6 x7 x8 x9 x10 x11 x12 x13 V
abbrev Live329 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v134 x0 x1 x2 x3 x4 x5 x6 x7 x8 x9 x10 x11 x12 x13 V ∧ At_v135 x0 x1 x2 x3 x4 x5 x6 x7 x8 x9 x10 x11 x12 x13 V ∧ At_v136 x0 x1 x2 x3 x4 x5 x6 x7 x8 x9 x10 x11 x12 x13 V ∧ At_v268 x0 x1 x2 x3 x4 x5 x6 x7 x8 x9 x10 x11 x12 x13 V ∧ At_v269 x0 x1 x2 x3 x4 x5 x6 x7 x8 x9 x10 x11 x12 x13 V ∧ At_v270 x0 x1 x2 x3 x4 x5 x6 x7 x8 x9 x10 x11 x12 x13 V
abbrev Live330 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v135 x0 x1 x2 x3 x4 x5 x6 x7 x8 x9 x10 x11 x12 x13 V ∧ At_v136 x0 x1 x2 x3 x4 x5 x6 x7 x8 x9 x10 x11 x12 x13 V ∧ At_v269 x0 x1 x2 x3 x4 x5 x6 x7 x8 x9 x10 x11 x12 x13 V ∧ At_v270 x0 x1 x2 x3 x4 x5 x6 x7 x8 x9 x10 x11 x12 x13 V ∧ At_v271 x0 x1 x2 x3 x4 x5 x6 x7 x8 x9 x10 x11 x12 x13 V
abbrev Live331 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v136 x0 x1 x2 x3 x4 x5 x6 x7 x8 x9 x10 x11 x12 x13 V ∧ At_v270 x0 x1 x2 x3 x4 x5 x6 x7 x8 x9 x10 x11 x12 x13 V ∧ At_v271 x0 x1 x2 x3 x4 x5 x6 x7 x8 x9 x10 x11 x12 x13 V ∧ At_v272 x0 x1 x2 x3 x4 x5 x6 x7 x8 x9 x10 x11 x12 x13 V
abbrev Live332 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v271 x0 x1 x2 x3 x4 x5 x6 x7 x8 x9 x10 x11 x12 x13 V ∧ At_v272 x0 x1 x2 x3 x4 x5 x6 x7 x8 x9 x10 x11 x12 x13 V ∧ At_v273 x0 x1 x2 x3 x4 x5 x6 x7 x8 x9 x10 x11 x12 x13 V
abbrev Live333 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v272 x0 x1 x2 x3 x4 x5 x6 x7 x8 x9 x10 x11 x12 x13 V ∧ At_v273 x0 x1 x2 x3 x4 x5 x6 x7 x8 x9 x10 x11 x12 x13 V ∧ At_v274 x0 x1 x2 x3 x4 x5 x6 x7 x8 x9 x10 x11 x12 x13 V
abbrev Live334 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v273 x0 x1 x2 x3 x4 x5 x6 x7 x8 x9 x10 x11 x12 x13 V ∧ At_v274 x0 x1 x2 x3 x4 x5 x6 x7 x8 x9 x10 x11 x12 x13 V ∧ At_v275 x0 x1 x2 x3 x4 x5 x6 x7 x8 x9 x10 x11 x12 x13 V
abbrev Live335 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v274 x0 x1 x2 x3 x4 x5 x6 x7 x8 x9 x10 x11 x12 x13 V ∧ At_v275 x0 x1 x2 x3 x4 x5 x6 x7 x8 x9 x10 x11 x12 x13 V ∧ At_v276 x0 x1 x2 x3 x4 x5 x6 x7 x8 x9 x10 x11 x12 x13 V
abbrev Live336 (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) : Prop :=
  At_v277 x0 x1 x2 x3 x4 x5 x6 x7 x8 x9 x10 x11 x12 x13 V

end Cert.ReferenceIdeal.RunHand

end
-- ==== Proof.RefRunHandStepsA.lean ====
/- The reference program followed one operation at a time: operations 1 to 182.

  One case per operation, each an instance of the general step (module RefRunHandBase): if before the operation the
  arguments hold x0, … and every earlier result still to be read holds its stage, then after it the same holds, the new
  result at its own stage (the stage is the operation's function of the operands' stages, by definition).
-/
import proofs.«170728_j33028298506953_2_alg».proof.Proof.RefRunHandBase
import proofs.«170728_j33028298506953_2_alg».proof.Proof.RefRunHandLive

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

section Steps

variable (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F))

theorem step0 (hA : Args x0 x1 x2 x3 x4 x5 x6 x7 x8 x9 x10 x11 x12 x13 V) (hL : Live0 x0 x1 x2 x3 x4 x5 x6 x7 x8 x9 x10 x11 x12 x13 V) :
    Args x0 x1 x2 x3 x4 x5 x6 x7 x8 x9 x10 x11 x12 x13 ((unary main_arg3 main_v0 (broadcastInDim S800000x1 ![0] bcast_S800000_S800000x1_0 : (⟨S800000, .f32⟩ : BufTy).Contents (Elt F) → (⟨S800000x1, .f32⟩ : BufTy).Contents (Elt F)) : HloOp τ sig (Elt F)).result V) ∧ Live1 x0 x1 x2 x3 x4 x5 x6 x7 x8 x9 x10 x11 x12 x13 ((unary main_arg3 main_v0 (broadcastInDim S800000x1 ![0] bcast_S800000_S800000x1_0 : (⟨S800000, .f32⟩ : BufTy).Contents (Elt F) → (⟨S800000x1, .f32⟩ : BufTy).Contents (Elt F)) : HloOp τ sig (Elt F)).result V) := by
  refine ⟨args_step main_v0 rfl (by decide) hA, ?_⟩
  unfold Args at hA
  obtain ⟨a0, a1, a2, a3, a4, a5, a6, a7, a8, a9, a10, a11, a12, a13⟩ := hA
  exact new_unary a3 rfl
theorem step1 (hA : Args x0 x1 x2 x3 x4 x5 x6 x7 x8 x9 x10 x11 x12 x13 V) (hL : Live1 x0 x1 x2 x3 x4 x5 x6 x7 x8 x9 x10 x11 x12 x13 V) :
    Args x0 x1 x2 x3 x4 x5 x6 x7 x8 x9 x10 x11 x12 x13 ((nullary main_c (constantI S_ 32 0#32) : HloOp τ sig (Elt F)).result V) ∧ Live2 x0 x1 x2 x3 x4 x5 x6 x7 x8 x9 x10 x11 x12 x13 ((nullary main_c (constantI S_ 32 0#32) : HloOp τ sig (Elt F)).result V) := by
  refine ⟨args_step main_c rfl (by decide) hA, ?_⟩
  have h_v0 := hL
  exact ⟨(keep main_c rfl (by decide)).trans h_v0,
    new_nullary rfl⟩
theorem step2 (hA : Args x0 x1 x2 x3 x4 x5 x6 x7 x8 x9 x10 x11 x12 x13 V) (hL : Live2 x0 x1 x2 x3 x4 x5 x6 x7 x8 x9 x10 x11 x12 x13 V) :
    Args x0 x1 x2 x3 x4 x5 x6 x7 x8 x9 x10 x11 x12 x13 ((unary main_c main_v1 (broadcastInDim S800000 ![] bcast_S_S800000 : (⟨S_, .i32⟩ : BufTy).Contents (Elt F) → (⟨S800000, .i32⟩ : BufTy).Contents (Elt F)) : HloOp τ sig (Elt F)).result V) ∧ Live3 x0 x1 x2 x3 x4 x5 x6 x7 x8 x9 x10 x11 x12 x13 ((unary main_c main_v1 (broadcastInDim S800000 ![] bcast_S_S800000 : (⟨S_, .i32⟩ : BufTy).Contents (Elt F) → (⟨S800000, .i32⟩ : BufTy).Contents (Elt F)) : HloOp τ sig (Elt F)).result V) := by
  refine ⟨args_step main_v1 rfl (by decide) hA, ?_⟩
  obtain ⟨h_v0, h_c⟩ := hL
  exact ⟨(keep main_v1 rfl (by decide)).trans h_v0,
    new_unary h_c rfl⟩
theorem step3 (hA : Args x0 x1 x2 x3 x4 x5 x6 x7 x8 x9 x10 x11 x12 x13 V) (hL : Live3 x0 x1 x2 x3 x4 x5 x6 x7 x8 x9 x10 x11 x12 x13 V) :
    Args x0 x1 x2 x3 x4 x5 x6 x7 x8 x9 x10 x11 x12 x13 ((binary main_arg2 main_v1 main_v2 (cmpi .slt : (⟨S800000, .i32⟩ : BufTy).Contents (Elt F) → (⟨S800000, .i32⟩ : BufTy).Contents (Elt F) → (⟨S800000, .i1⟩ : BufTy).Contents (Elt F)) : HloOp τ sig (Elt F)).result V) ∧ Live4 x0 x1 x2 x3 x4 x5 x6 x7 x8 x9 x10 x11 x12 x13 ((binary main_arg2 main_v1 main_v2 (cmpi .slt : (⟨S800000, .i32⟩ : BufTy).Contents (Elt F) → (⟨S800000, .i32⟩ : BufTy).Contents (Elt F) → (⟨S800000, .i1⟩ : BufTy).Contents (Elt F)) : HloOp τ sig (Elt F)).result V) := by
  refine ⟨args_step main_v2 rfl (by decide) hA, ?_⟩
  unfold Args at hA
  obtain ⟨a0, a1, a2, a3, a4, a5, a6, a7, a8, a9, a10, a11, a12, a13⟩ := hA
  obtain ⟨h_v0, h_v1⟩ := hL
  exact ⟨(keep main_v2 rfl (by decide)).trans h_v0,
    new_binary a2 h_v1 rfl⟩
theorem step4 (hA : Args x0 x1 x2 x3 x4 x5 x6 x7 x8 x9 x10 x11 x12 x13 V) (hL : Live4 x0 x1 x2 x3 x4 x5 x6 x7 x8 x9 x10 x11 x12 x13 V) :
    Args x0 x1 x2 x3 x4 x5 x6 x7 x8 x9 x10 x11 x12 x13 ((nullary main_c_0 (constantI S_ 32 100000#32) : HloOp τ sig (Elt F)).result V) ∧ Live5 x0 x1 x2 x3 x4 x5 x6 x7 x8 x9 x10 x11 x12 x13 ((nullary main_c_0 (constantI S_ 32 100000#32) : HloOp τ sig (Elt F)).result V) := by
  refine ⟨args_step main_c_0 rfl (by decide) hA, ?_⟩
  obtain ⟨h_v0, h_v2⟩ := hL
  exact ⟨(keep main_c_0 rfl (by decide)).trans h_v0,
    (keep main_c_0 rfl (by decide)).trans h_v2,
    new_nullary rfl⟩
theorem step5 (hA : Args x0 x1 x2 x3 x4 x5 x6 x7 x8 x9 x10 x11 x12 x13 V) (hL : Live5 x0 x1 x2 x3 x4 x5 x6 x7 x8 x9 x10 x11 x12 x13 V) :
    Args x0 x1 x2 x3 x4 x5 x6 x7 x8 x9 x10 x11 x12 x13 ((unary main_c_0 main_v3 (broadcastInDim S800000 ![] bcast_S_S800000 : (⟨S_, .i32⟩ : BufTy).Contents (Elt F) → (⟨S800000, .i32⟩ : BufTy).Contents (Elt F)) : HloOp τ sig (Elt F)).result V) ∧ Live6 x0 x1 x2 x3 x4 x5 x6 x7 x8 x9 x10 x11 x12 x13 ((unary main_c_0 main_v3 (broadcastInDim S800000 ![] bcast_S_S800000 : (⟨S_, .i32⟩ : BufTy).Contents (Elt F) → (⟨S800000, .i32⟩ : BufTy).Contents (Elt F)) : HloOp τ sig (Elt F)).result V) := by
  refine ⟨args_step main_v3 rfl (by decide) hA, ?_⟩
  obtain ⟨h_v0, h_v2, h_c_0⟩ := hL
  exact ⟨(keep main_v3 rfl (by decide)).trans h_v0,
    (keep main_v3 rfl (by decide)).trans h_v2,
    new_unary h_c_0 rfl⟩
theorem step6 (hA : Args x0 x1 x2 x3 x4 x5 x6 x7 x8 x9 x10 x11 x12 x13 V) (hL : Live6 x0 x1 x2 x3 x4 x5 x6 x7 x8 x9 x10 x11 x12 x13 V) :
    Args x0 x1 x2 x3 x4 x5 x6 x7 x8 x9 x10 x11 x12 x13 ((binary main_arg2 main_v3 main_v4 (addi : (⟨S800000, .i32⟩ : BufTy).Contents (Elt F) → (⟨S800000, .i32⟩ : BufTy).Contents (Elt F) → (⟨S800000, .i32⟩ : BufTy).Contents (Elt F)) : HloOp τ sig (Elt F)).result V) ∧ Live7 x0 x1 x2 x3 x4 x5 x6 x7 x8 x9 x10 x11 x12 x13 ((binary main_arg2 main_v3 main_v4 (addi : (⟨S800000, .i32⟩ : BufTy).Contents (Elt F) → (⟨S800000, .i32⟩ : BufTy).Contents (Elt F) → (⟨S800000, .i32⟩ : BufTy).Contents (Elt F)) : HloOp τ sig (Elt F)).result V) := by
  refine ⟨args_step main_v4 rfl (by decide) hA, ?_⟩
  unfold Args at hA
  obtain ⟨a0, a1, a2, a3, a4, a5, a6, a7, a8, a9, a10, a11, a12, a13⟩ := hA
  obtain ⟨h_v0, h_v2, h_v3⟩ := hL
  exact ⟨(keep main_v4 rfl (by decide)).trans h_v0,
    (keep main_v4 rfl (by decide)).trans h_v2,
    new_binary a2 h_v3 rfl⟩
theorem step7 (hA : Args x0 x1 x2 x3 x4 x5 x6 x7 x8 x9 x10 x11 x12 x13 V) (hL : Live7 x0 x1 x2 x3 x4 x5 x6 x7 x8 x9 x10 x11 x12 x13 V) :
    Args x0 x1 x2 x3 x4 x5 x6 x7 x8 x9 x10 x11 x12 x13 ((ternary main_v2 main_v4 main_arg2 main_v5 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) : HloOp τ sig (Elt F)).result V) ∧ Live8 x0 x1 x2 x3 x4 x5 x6 x7 x8 x9 x10 x11 x12 x13 ((ternary main_v2 main_v4 main_arg2 main_v5 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) : HloOp τ sig (Elt F)).result V) := by
  refine ⟨args_step main_v5 rfl (by decide) hA, ?_⟩
  unfold Args at hA
  obtain ⟨a0, a1, a2, a3, a4, a5, a6, a7, a8, a9, a10, a11, a12, a13⟩ := hA
  obtain ⟨h_v0, h_v2, h_v4⟩ := hL
  exact ⟨(keep main_v5 rfl (by decide)).trans h_v0,
    new_ternary h_v2 h_v4 a2 rfl⟩
theorem step8 (hA : Args x0 x1 x2 x3 x4 x5 x6 x7 x8 x9 x10 x11 x12 x13 V) (hL : Live8 x0 x1 x2 x3 x4 x5 x6 x7 x8 x9 x10 x11 x12 x13 V) :
    Args x0 x1 x2 x3 x4 x5 x6 x7 x8 x9 x10 x11 x12 x13 ((unary main_v5 main_v6 (broadcastInDim S800000x1 ![0] bcast_S800000_S800000x1_0 : (⟨S800000, .i32⟩ : BufTy).Contents (Elt F) → (⟨S800000x1, .i32⟩ : BufTy).Contents (Elt F)) : HloOp τ sig (Elt F)).result V) ∧ Live9 x0 x1 x2 x3 x4 x5 x6 x7 x8 x9 x10 x11 x12 x13 ((unary main_v5 main_v6 (broadcastInDim S800000x1 ![0] bcast_S800000_S800000x1_0 : (⟨S800000, .i32⟩ : BufTy).Contents (Elt F) → (⟨S800000x1, .i32⟩ : BufTy).Contents (Elt F)) : HloOp τ sig (Elt F)).result V) := by
  refine ⟨args_step main_v6 rfl (by decide) hA, ?_⟩
  obtain ⟨h_v0, h_v5⟩ := hL
  exact ⟨(keep main_v6 rfl (by decide)).trans h_v0,
    new_unary h_v5 rfl⟩
theorem step9 (hA : Args x0 x1 x2 x3 x4 x5 x6 x7 x8 x9 x10 x11 x12 x13 V) (hL : Live9 x0 x1 x2 x3 x4 x5 x6 x7 x8 x9 x10 x11 x12 x13 V) :
    Args x0 x1 x2 x3 x4 x5 x6 x7 x8 x9 x10 x11 x12 x13 ((binary main_arg0 main_v6 main_v7 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)) : HloOp τ sig (Elt F)).result V) ∧ Live10 x0 x1 x2 x3 x4 x5 x6 x7 x8 x9 x10 x11 x12 x13 ((binary main_arg0 main_v6 main_v7 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)) : HloOp τ sig (Elt F)).result V) := by
  refine ⟨args_step main_v7 rfl (by decide) hA, ?_⟩
  unfold Args at hA
  obtain ⟨a0, a1, a2, a3, a4, a5, a6, a7, a8, a9, a10, a11, a12, a13⟩ := hA
  obtain ⟨h_v0, h_v6⟩ := hL
  exact ⟨(keep main_v7 rfl (by decide)).trans h_v0,
    new_binary a0 h_v6 rfl⟩
theorem step10 (hA : Args x0 x1 x2 x3 x4 x5 x6 x7 x8 x9 x10 x11 x12 x13 V) (hL : Live10 x0 x1 x2 x3 x4 x5 x6 x7 x8 x9 x10 x11 x12 x13 V) :
    Args x0 x1 x2 x3 x4 x5 x6 x7 x8 x9 x10 x11 x12 x13 ((unary main_v0 main_v8 (broadcastInDim S800000x64 ![0, 1] bcast_S800000x1_S800000x64_0_1 : (⟨S800000x1, .f32⟩ : BufTy).Contents (Elt F) → (⟨S800000x64, .f32⟩ : BufTy).Contents (Elt F)) : HloOp τ sig (Elt F)).result V) ∧ Live11 x0 x1 x2 x3 x4 x5 x6 x7 x8 x9 x10 x11 x12 x13 ((unary main_v0 main_v8 (broadcastInDim S800000x64 ![0, 1] bcast_S800000x1_S800000x64_0_1 : (⟨S800000x1, .f32⟩ : BufTy).Contents (Elt F) → (⟨S800000x64, .f32⟩ : BufTy).Contents (Elt F)) : HloOp τ sig (Elt F)).result V) := by
  refine ⟨args_step main_v8 rfl (by decide) hA, ?_⟩
  obtain ⟨h_v0, h_v7⟩ := hL
  exact ⟨(keep main_v8 rfl (by decide)).trans h_v7,
    new_unary h_v0 rfl⟩
theorem step11 (hA : Args x0 x1 x2 x3 x4 x5 x6 x7 x8 x9 x10 x11 x12 x13 V) (hL : Live11 x0 x1 x2 x3 x4 x5 x6 x7 x8 x9 x10 x11 x12 x13 V) :
    Args x0 x1 x2 x3 x4 x5 x6 x7 x8 x9 x10 x11 x12 x13 ((binary main_v8 main_v7 main_v9 (mulf : (⟨S800000x64, .f32⟩ : BufTy).Contents (Elt F) → (⟨S800000x64, .f32⟩ : BufTy).Contents (Elt F) → (⟨S800000x64, .f32⟩ : BufTy).Contents (Elt F)) : HloOp τ sig (Elt F)).result V) ∧ Live12 x0 x1 x2 x3 x4 x5 x6 x7 x8 x9 x10 x11 x12 x13 ((binary main_v8 main_v7 main_v9 (mulf : (⟨S800000x64, .f32⟩ : BufTy).Contents (Elt F) → (⟨S800000x64, .f32⟩ : BufTy).Contents (Elt F) → (⟨S800000x64, .f32⟩ : BufTy).Contents (Elt F)) : HloOp τ sig (Elt F)).result V) := by
  refine ⟨args_step main_v9 rfl (by decide) hA, ?_⟩
  obtain ⟨h_v7, h_v8⟩ := hL
  exact new_binary h_v8 h_v7 rfl
theorem step12 (hA : Args x0 x1 x2 x3 x4 x5 x6 x7 x8 x9 x10 x11 x12 x13 V) (hL : Live12 x0 x1 x2 x3 x4 x5 x6 x7 x8 x9 x10 x11 x12 x13 V) :
    Args x0 x1 x2 x3 x4 x5 x6 x7 x8 x9 x10 x11 x12 x13 ((nullary main_cst (constant S_ .f32 0x00000000#32) : HloOp τ sig (Elt F)).result V) ∧ Live13 x0 x1 x2 x3 x4 x5 x6 x7 x8 x9 x10 x11 x12 x13 ((nullary main_cst (constant S_ .f32 0x00000000#32) : HloOp τ sig (Elt F)).result V) := by
  refine ⟨args_step main_cst rfl (by decide) hA, ?_⟩
  have h_v9 := hL
  exact ⟨(keep main_cst rfl (by decide)).trans h_v9,
    new_nullary rfl⟩
theorem step13 (hA : Args x0 x1 x2 x3 x4 x5 x6 x7 x8 x9 x10 x11 x12 x13 V) (hL : Live13 x0 x1 x2 x3 x4 x5 x6 x7 x8 x9 x10 x11 x12 x13 V) :
    Args x0 x1 x2 x3 x4 x5 x6 x7 x8 x9 x10 x11 x12 x13 ((unary main_cst main_v10 (broadcastInDim S100000x64 ![] bcast_S_S100000x64 : (⟨S_, .f32⟩ : BufTy).Contents (Elt F) → (⟨S100000x64, .f32⟩ : BufTy).Contents (Elt F)) : HloOp τ sig (Elt F)).result V) ∧ Live14 x0 x1 x2 x3 x4 x5 x6 x7 x8 x9 x10 x11 x12 x13 ((unary main_cst main_v10 (broadcastInDim S100000x64 ![] bcast_S_S100000x64 : (⟨S_, .f32⟩ : BufTy).Contents (Elt F) → (⟨S100000x64, .f32⟩ : BufTy).Contents (Elt F)) : HloOp τ sig (Elt F)).result V) := by
  refine ⟨args_step main_v10 rfl (by decide) hA, ?_⟩
  obtain ⟨h_v9, h_cst⟩ := hL
  exact ⟨(keep main_v10 rfl (by decide)).trans h_v9,
    new_unary h_cst rfl⟩
theorem step14 (hA : Args x0 x1 x2 x3 x4 x5 x6 x7 x8 x9 x10 x11 x12 x13 V) (hL : Live14 x0 x1 x2 x3 x4 x5 x6 x7 x8 x9 x10 x11 x12 x13 V) :
    Args x0 x1 x2 x3 x4 x5 x6 x7 x8 x9 x10 x11 x12 x13 ((unary main_arg1 main_v11 (broadcastInDim S800000x1 ![0] bcast_S800000_S800000x1_0 : (⟨S800000, .i32⟩ : BufTy).Contents (Elt F) → (⟨S800000x1, .i32⟩ : BufTy).Contents (Elt F)) : HloOp τ sig (Elt F)).result V) ∧ Live15 x0 x1 x2 x3 x4 x5 x6 x7 x8 x9 x10 x11 x12 x13 ((unary main_arg1 main_v11 (broadcastInDim S800000x1 ![0] bcast_S800000_S800000x1_0 : (⟨S800000, .i32⟩ : BufTy).Contents (Elt F) → (⟨S800000x1, .i32⟩ : BufTy).Contents (Elt F)) : HloOp τ sig (Elt F)).result V) := by
  refine ⟨args_step main_v11 rfl (by decide) hA, ?_⟩
  unfold Args at hA
  obtain ⟨a0, a1, a2, a3, a4, a5, a6, a7, a8, a9, a10, a11, a12, a13⟩ := hA
  obtain ⟨h_v9, h_v10⟩ := hL
  exact ⟨(keep main_v11 rfl (by decide)).trans h_v9,
    (keep main_v11 rfl (by decide)).trans h_v10,
    new_unary a1 rfl⟩
theorem step15 (hA : Args x0 x1 x2 x3 x4 x5 x6 x7 x8 x9 x10 x11 x12 x13 V) (hL : Live15 x0 x1 x2 x3 x4 x5 x6 x7 x8 x9 x10 x11 x12 x13 V) :
    Args x0 x1 x2 x3 x4 x5 x6 x7 x8 x9 x10 x11 x12 x13 ((ternary main_v10 main_v11 main_v9 main_v12 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)) : HloOp τ sig (Elt F)).result V) ∧ Live16 x0 x1 x2 x3 x4 x5 x6 x7 x8 x9 x10 x11 x12 x13 ((ternary main_v10 main_v11 main_v9 main_v12 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)) : HloOp τ sig (Elt F)).result V) := by
  refine ⟨args_step main_v12 rfl (by decide) hA, ?_⟩
  obtain ⟨h_v9, h_v10, h_v11⟩ := hL
  exact new_ternary h_v10 h_v11 h_v9 rfl
theorem step16 (hA : Args x0 x1 x2 x3 x4 x5 x6 x7 x8 x9 x10 x11 x12 x13 V) (hL : Live16 x0 x1 x2 x3 x4 x5 x6 x7 x8 x9 x10 x11 x12 x13 V) :
    Args x0 x1 x2 x3 x4 x5 x6 x7 x8 x9 x10 x11 x12 x13 ((nullary main_c_1 (constantI S_ 32 0#32) : HloOp τ sig (Elt F)).result V) ∧ Live17 x0 x1 x2 x3 x4 x5 x6 x7 x8 x9 x10 x11 x12 x13 ((nullary main_c_1 (constantI S_ 32 0#32) : HloOp τ sig (Elt F)).result V) := by
  refine ⟨args_step main_c_1 rfl (by decide) hA, ?_⟩
  have h_v12 := hL
  exact ⟨(keep main_c_1 rfl (by decide)).trans h_v12,
    new_nullary rfl⟩
theorem step17 (hA : Args x0 x1 x2 x3 x4 x5 x6 x7 x8 x9 x10 x11 x12 x13 V) (hL : Live17 x0 x1 x2 x3 x4 x5 x6 x7 x8 x9 x10 x11 x12 x13 V) :
    Args x0 x1 x2 x3 x4 x5 x6 x7 x8 x9 x10 x11 x12 x13 ((unary main_c_1 main_v13 (broadcastInDim S800000 ![] bcast_S_S800000 : (⟨S_, .i32⟩ : BufTy).Contents (Elt F) → (⟨S800000, .i32⟩ : BufTy).Contents (Elt F)) : HloOp τ sig (Elt F)).result V) ∧ Live18 x0 x1 x2 x3 x4 x5 x6 x7 x8 x9 x10 x11 x12 x13 ((unary main_c_1 main_v13 (broadcastInDim S800000 ![] bcast_S_S800000 : (⟨S_, .i32⟩ : BufTy).Contents (Elt F) → (⟨S800000, .i32⟩ : BufTy).Contents (Elt F)) : HloOp τ sig (Elt F)).result V) := by
  refine ⟨args_step main_v13 rfl (by decide) hA, ?_⟩
  obtain ⟨h_v12, h_c_1⟩ := hL
  exact ⟨(keep main_v13 rfl (by decide)).trans h_v12,
    new_unary h_c_1 rfl⟩
theorem step18 (hA : Args x0 x1 x2 x3 x4 x5 x6 x7 x8 x9 x10 x11 x12 x13 V) (hL : Live18 x0 x1 x2 x3 x4 x5 x6 x7 x8 x9 x10 x11 x12 x13 V) :
    Args x0 x1 x2 x3 x4 x5 x6 x7 x8 x9 x10 x11 x12 x13 ((binary main_arg1 main_v13 main_v14 (cmpi .slt : (⟨S800000, .i32⟩ : BufTy).Contents (Elt F) → (⟨S800000, .i32⟩ : BufTy).Contents (Elt F) → (⟨S800000, .i1⟩ : BufTy).Contents (Elt F)) : HloOp τ sig (Elt F)).result V) ∧ Live19 x0 x1 x2 x3 x4 x5 x6 x7 x8 x9 x10 x11 x12 x13 ((binary main_arg1 main_v13 main_v14 (cmpi .slt : (⟨S800000, .i32⟩ : BufTy).Contents (Elt F) → (⟨S800000, .i32⟩ : BufTy).Contents (Elt F) → (⟨S800000, .i1⟩ : BufTy).Contents (Elt F)) : HloOp τ sig (Elt F)).result V) := by
  refine ⟨args_step main_v14 rfl (by decide) hA, ?_⟩
  unfold Args at hA
  obtain ⟨a0, a1, a2, a3, a4, a5, a6, a7, a8, a9, a10, a11, a12, a13⟩ := hA
  obtain ⟨h_v12, h_v13⟩ := hL
  exact ⟨(keep main_v14 rfl (by decide)).trans h_v12,
    new_binary a1 h_v13 rfl⟩
theorem step19 (hA : Args x0 x1 x2 x3 x4 x5 x6 x7 x8 x9 x10 x11 x12 x13 V) (hL : Live19 x0 x1 x2 x3 x4 x5 x6 x7 x8 x9 x10 x11 x12 x13 V) :
    Args x0 x1 x2 x3 x4 x5 x6 x7 x8 x9 x10 x11 x12 x13 ((nullary main_c_2 (constantI S_ 32 100000#32) : HloOp τ sig (Elt F)).result V) ∧ Live20 x0 x1 x2 x3 x4 x5 x6 x7 x8 x9 x10 x11 x12 x13 ((nullary main_c_2 (constantI S_ 32 100000#32) : HloOp τ sig (Elt F)).result V) := by
  refine ⟨args_step main_c_2 rfl (by decide) hA, ?_⟩
  obtain ⟨h_v12, h_v14⟩ := hL
  exact ⟨(keep main_c_2 rfl (by decide)).trans h_v12,
    (keep main_c_2 rfl (by decide)).trans h_v14,
    new_nullary rfl⟩
theorem step20 (hA : Args x0 x1 x2 x3 x4 x5 x6 x7 x8 x9 x10 x11 x12 x13 V) (hL : Live20 x0 x1 x2 x3 x4 x5 x6 x7 x8 x9 x10 x11 x12 x13 V) :
    Args x0 x1 x2 x3 x4 x5 x6 x7 x8 x9 x10 x11 x12 x13 ((unary main_c_2 main_v15 (broadcastInDim S800000 ![] bcast_S_S800000 : (⟨S_, .i32⟩ : BufTy).Contents (Elt F) → (⟨S800000, .i32⟩ : BufTy).Contents (Elt F)) : HloOp τ sig (Elt F)).result V) ∧ Live21 x0 x1 x2 x3 x4 x5 x6 x7 x8 x9 x10 x11 x12 x13 ((unary main_c_2 main_v15 (broadcastInDim S800000 ![] bcast_S_S800000 : (⟨S_, .i32⟩ : BufTy).Contents (Elt F) → (⟨S800000, .i32⟩ : BufTy).Contents (Elt F)) : HloOp τ sig (Elt F)).result V) := by
  refine ⟨args_step main_v15 rfl (by decide) hA, ?_⟩
  obtain ⟨h_v12, h_v14, h_c_2⟩ := hL
  exact ⟨(keep main_v15 rfl (by decide)).trans h_v12,
    (keep main_v15 rfl (by decide)).trans h_v14,
    new_unary h_c_2 rfl⟩
theorem step21 (hA : Args x0 x1 x2 x3 x4 x5 x6 x7 x8 x9 x10 x11 x12 x13 V) (hL : Live21 x0 x1 x2 x3 x4 x5 x6 x7 x8 x9 x10 x11 x12 x13 V) :
    Args x0 x1 x2 x3 x4 x5 x6 x7 x8 x9 x10 x11 x12 x13 ((binary main_arg1 main_v15 main_v16 (addi : (⟨S800000, .i32⟩ : BufTy).Contents (Elt F) → (⟨S800000, .i32⟩ : BufTy).Contents (Elt F) → (⟨S800000, .i32⟩ : BufTy).Contents (Elt F)) : HloOp τ sig (Elt F)).result V) ∧ Live22 x0 x1 x2 x3 x4 x5 x6 x7 x8 x9 x10 x11 x12 x13 ((binary main_arg1 main_v15 main_v16 (addi : (⟨S800000, .i32⟩ : BufTy).Contents (Elt F) → (⟨S800000, .i32⟩ : BufTy).Contents (Elt F) → (⟨S800000, .i32⟩ : BufTy).Contents (Elt F)) : HloOp τ sig (Elt F)).result V) := by
  refine ⟨args_step main_v16 rfl (by decide) hA, ?_⟩
  unfold Args at hA
  obtain ⟨a0, a1, a2, a3, a4, a5, a6, a7, a8, a9, a10, a11, a12, a13⟩ := hA
  obtain ⟨h_v12, h_v14, h_v15⟩ := hL
  exact ⟨(keep main_v16 rfl (by decide)).trans h_v12,
    (keep main_v16 rfl (by decide)).trans h_v14,
    new_binary a1 h_v15 rfl⟩
theorem step22 (hA : Args x0 x1 x2 x3 x4 x5 x6 x7 x8 x9 x10 x11 x12 x13 V) (hL : Live22 x0 x1 x2 x3 x4 x5 x6 x7 x8 x9 x10 x11 x12 x13 V) :
    Args x0 x1 x2 x3 x4 x5 x6 x7 x8 x9 x10 x11 x12 x13 ((ternary main_v14 main_v16 main_arg1 main_v17 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) : HloOp τ sig (Elt F)).result V) ∧ Live23 x0 x1 x2 x3 x4 x5 x6 x7 x8 x9 x10 x11 x12 x13 ((ternary main_v14 main_v16 main_arg1 main_v17 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) : HloOp τ sig (Elt F)).result V) := by
  refine ⟨args_step main_v17 rfl (by decide) hA, ?_⟩
  unfold Args at hA
  obtain ⟨a0, a1, a2, a3, a4, a5, a6, a7, a8, a9, a10, a11, a12, a13⟩ := hA
  obtain ⟨h_v12, h_v14, h_v16⟩ := hL
  exact ⟨(keep main_v17 rfl (by decide)).trans h_v12,
    new_ternary h_v14 h_v16 a1 rfl⟩
theorem step23 (hA : Args x0 x1 x2 x3 x4 x5 x6 x7 x8 x9 x10 x11 x12 x13 V) (hL : Live23 x0 x1 x2 x3 x4 x5 x6 x7 x8 x9 x10 x11 x12 x13 V) :
    Args x0 x1 x2 x3 x4 x5 x6 x7 x8 x9 x10 x11 x12 x13 ((unary main_v17 main_v18 (broadcastInDim S800000x1 ![0] bcast_S800000_S800000x1_0 : (⟨S800000, .i32⟩ : BufTy).Contents (Elt F) → (⟨S800000x1, .i32⟩ : BufTy).Contents (Elt F)) : HloOp τ sig (Elt F)).result V) ∧ Live24 x0 x1 x2 x3 x4 x5 x6 x7 x8 x9 x10 x11 x12 x13 ((unary main_v17 main_v18 (broadcastInDim S800000x1 ![0] bcast_S800000_S800000x1_0 : (⟨S800000, .i32⟩ : BufTy).Contents (Elt F) → (⟨S800000x1, .i32⟩ : BufTy).Contents (Elt F)) : HloOp τ sig (Elt F)).result V) := by
  refine ⟨args_step main_v18 rfl (by decide) hA, ?_⟩
  obtain ⟨h_v12, h_v17⟩ := hL
  exact ⟨(keep main_v18 rfl (by decide)).trans h_v12,
    new_unary h_v17 rfl⟩
theorem step24 (hA : Args x0 x1 x2 x3 x4 x5 x6 x7 x8 x9 x10 x11 x12 x13 V) (hL : Live24 x0 x1 x2 x3 x4 x5 x6 x7 x8 x9 x10 x11 x12 x13 V) :
    Args x0 x1 x2 x3 x4 x5 x6 x7 x8 x9 x10 x11 x12 x13 ((binary main_arg0 main_v18 main_v19 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)) : HloOp τ sig (Elt F)).result V) ∧ Live25 x0 x1 x2 x3 x4 x5 x6 x7 x8 x9 x10 x11 x12 x13 ((binary main_arg0 main_v18 main_v19 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)) : HloOp τ sig (Elt F)).result V) := by
  refine ⟨args_step main_v19 rfl (by decide) hA, ?_⟩
  unfold Args at hA
  obtain ⟨a0, a1, a2, a3, a4, a5, a6, a7, a8, a9, a10, a11, a12, a13⟩ := hA
  obtain ⟨h_v12, h_v18⟩ := hL
  exact ⟨(keep main_v19 rfl (by decide)).trans h_v12,
    new_binary a0 h_v18 rfl⟩
theorem step25 (hA : Args x0 x1 x2 x3 x4 x5 x6 x7 x8 x9 x10 x11 x12 x13 V) (hL : Live25 x0 x1 x2 x3 x4 x5 x6 x7 x8 x9 x10 x11 x12 x13 V) :
    Args x0 x1 x2 x3 x4 x5 x6 x7 x8 x9 x10 x11 x12 x13 ((nullary main_c_3 (constantI S_ 32 0#32) : HloOp τ sig (Elt F)).result V) ∧ Live26 x0 x1 x2 x3 x4 x5 x6 x7 x8 x9 x10 x11 x12 x13 ((nullary main_c_3 (constantI S_ 32 0#32) : HloOp τ sig (Elt F)).result V) := by
  refine ⟨args_step main_c_3 rfl (by decide) hA, ?_⟩
  obtain ⟨h_v12, h_v19⟩ := hL
  exact ⟨(keep main_c_3 rfl (by decide)).trans h_v12,
    (keep main_c_3 rfl (by decide)).trans h_v19,
    new_nullary rfl⟩
theorem step26 (hA : Args x0 x1 x2 x3 x4 x5 x6 x7 x8 x9 x10 x11 x12 x13 V) (hL : Live26 x0 x1 x2 x3 x4 x5 x6 x7 x8 x9 x10 x11 x12 x13 V) :
    Args x0 x1 x2 x3 x4 x5 x6 x7 x8 x9 x10 x11 x12 x13 ((unary main_c_3 main_v20 (broadcastInDim S800000 ![] bcast_S_S800000 : (⟨S_, .i32⟩ : BufTy).Contents (Elt F) → (⟨S800000, .i32⟩ : BufTy).Contents (Elt F)) : HloOp τ sig (Elt F)).result V) ∧ Live27 x0 x1 x2 x3 x4 x5 x6 x7 x8 x9 x10 x11 x12 x13 ((unary main_c_3 main_v20 (broadcastInDim S800000 ![] bcast_S_S800000 : (⟨S_, .i32⟩ : BufTy).Contents (Elt F) → (⟨S800000, .i32⟩ : BufTy).Contents (Elt F)) : HloOp τ sig (Elt F)).result V) := by
  refine ⟨args_step main_v20 rfl (by decide) hA, ?_⟩
  obtain ⟨h_v12, h_v19, h_c_3⟩ := hL
  exact ⟨(keep main_v20 rfl (by decide)).trans h_v12,
    (keep main_v20 rfl (by decide)).trans h_v19,
    new_unary h_c_3 rfl⟩
theorem step27 (hA : Args x0 x1 x2 x3 x4 x5 x6 x7 x8 x9 x10 x11 x12 x13 V) (hL : Live27 x0 x1 x2 x3 x4 x5 x6 x7 x8 x9 x10 x11 x12 x13 V) :
    Args x0 x1 x2 x3 x4 x5 x6 x7 x8 x9 x10 x11 x12 x13 ((binary main_arg2 main_v20 main_v21 (cmpi .slt : (⟨S800000, .i32⟩ : BufTy).Contents (Elt F) → (⟨S800000, .i32⟩ : BufTy).Contents (Elt F) → (⟨S800000, .i1⟩ : BufTy).Contents (Elt F)) : HloOp τ sig (Elt F)).result V) ∧ Live28 x0 x1 x2 x3 x4 x5 x6 x7 x8 x9 x10 x11 x12 x13 ((binary main_arg2 main_v20 main_v21 (cmpi .slt : (⟨S800000, .i32⟩ : BufTy).Contents (Elt F) → (⟨S800000, .i32⟩ : BufTy).Contents (Elt F) → (⟨S800000, .i1⟩ : BufTy).Contents (Elt F)) : HloOp τ sig (Elt F)).result V) := by
  refine ⟨args_step main_v21 rfl (by decide) hA, ?_⟩
  unfold Args at hA
  obtain ⟨a0, a1, a2, a3, a4, a5, a6, a7, a8, a9, a10, a11, a12, a13⟩ := hA
  obtain ⟨h_v12, h_v19, h_v20⟩ := hL
  exact ⟨(keep main_v21 rfl (by decide)).trans h_v12,
    (keep main_v21 rfl (by decide)).trans h_v19,
    new_binary a2 h_v20 rfl⟩
theorem step28 (hA : Args x0 x1 x2 x3 x4 x5 x6 x7 x8 x9 x10 x11 x12 x13 V) (hL : Live28 x0 x1 x2 x3 x4 x5 x6 x7 x8 x9 x10 x11 x12 x13 V) :
    Args x0 x1 x2 x3 x4 x5 x6 x7 x8 x9 x10 x11 x12 x13 ((nullary main_c_4 (constantI S_ 32 100000#32) : HloOp τ sig (Elt F)).result V) ∧ Live29 x0 x1 x2 x3 x4 x5 x6 x7 x8 x9 x10 x11 x12 x13 ((nullary main_c_4 (constantI S_ 32 100000#32) : HloOp τ sig (Elt F)).result V) := by
  refine ⟨args_step main_c_4 rfl (by decide) hA, ?_⟩
  obtain ⟨h_v12, h_v19, h_v21⟩ := hL
  exact ⟨(keep main_c_4 rfl (by decide)).trans h_v12,
    (keep main_c_4 rfl (by decide)).trans h_v19,
    (keep main_c_4 rfl (by decide)).trans h_v21,
    new_nullary rfl⟩
theorem step29 (hA : Args x0 x1 x2 x3 x4 x5 x6 x7 x8 x9 x10 x11 x12 x13 V) (hL : Live29 x0 x1 x2 x3 x4 x5 x6 x7 x8 x9 x10 x11 x12 x13 V) :
    Args x0 x1 x2 x3 x4 x5 x6 x7 x8 x9 x10 x11 x12 x13 ((unary main_c_4 main_v22 (broadcastInDim S800000 ![] bcast_S_S800000 : (⟨S_, .i32⟩ : BufTy).Contents (Elt F) → (⟨S800000, .i32⟩ : BufTy).Contents (Elt F)) : HloOp τ sig (Elt F)).result V) ∧ Live30 x0 x1 x2 x3 x4 x5 x6 x7 x8 x9 x10 x11 x12 x13 ((unary main_c_4 main_v22 (broadcastInDim S800000 ![] bcast_S_S800000 : (⟨S_, .i32⟩ : BufTy).Contents (Elt F) → (⟨S800000, .i32⟩ : BufTy).Contents (Elt F)) : HloOp τ sig (Elt F)).result V) := by
  refine ⟨args_step main_v22 rfl (by decide) hA, ?_⟩
  obtain ⟨h_v12, h_v19, h_v21, h_c_4⟩ := hL
  exact ⟨(keep main_v22 rfl (by decide)).trans h_v12,
    (keep main_v22 rfl (by decide)).trans h_v19,
    (keep main_v22 rfl (by decide)).trans h_v21,
    new_unary h_c_4 rfl⟩
theorem step30 (hA : Args x0 x1 x2 x3 x4 x5 x6 x7 x8 x9 x10 x11 x12 x13 V) (hL : Live30 x0 x1 x2 x3 x4 x5 x6 x7 x8 x9 x10 x11 x12 x13 V) :
    Args x0 x1 x2 x3 x4 x5 x6 x7 x8 x9 x10 x11 x12 x13 ((binary main_arg2 main_v22 main_v23 (addi : (⟨S800000, .i32⟩ : BufTy).Contents (Elt F) → (⟨S800000, .i32⟩ : BufTy).Contents (Elt F) → (⟨S800000, .i32⟩ : BufTy).Contents (Elt F)) : HloOp τ sig (Elt F)).result V) ∧ Live31 x0 x1 x2 x3 x4 x5 x6 x7 x8 x9 x10 x11 x12 x13 ((binary main_arg2 main_v22 main_v23 (addi : (⟨S800000, .i32⟩ : BufTy).Contents (Elt F) → (⟨S800000, .i32⟩ : BufTy).Contents (Elt F) → (⟨S800000, .i32⟩ : BufTy).Contents (Elt F)) : HloOp τ sig (Elt F)).result V) := by
  refine ⟨args_step main_v23 rfl (by decide) hA, ?_⟩
  unfold Args at hA
  obtain ⟨a0, a1, a2, a3, a4, a5, a6, a7, a8, a9, a10, a11, a12, a13⟩ := hA
  obtain ⟨h_v12, h_v19, h_v21, h_v22⟩ := hL
  exact ⟨(keep main_v23 rfl (by decide)).trans h_v12,
    (keep main_v23 rfl (by decide)).trans h_v19,
    (keep main_v23 rfl (by decide)).trans h_v21,
    new_binary a2 h_v22 rfl⟩
theorem step31 (hA : Args x0 x1 x2 x3 x4 x5 x6 x7 x8 x9 x10 x11 x12 x13 V) (hL : Live31 x0 x1 x2 x3 x4 x5 x6 x7 x8 x9 x10 x11 x12 x13 V) :
    Args x0 x1 x2 x3 x4 x5 x6 x7 x8 x9 x10 x11 x12 x13 ((ternary main_v21 main_v23 main_arg2 main_v24 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) : HloOp τ sig (Elt F)).result V) ∧ Live32 x0 x1 x2 x3 x4 x5 x6 x7 x8 x9 x10 x11 x12 x13 ((ternary main_v21 main_v23 main_arg2 main_v24 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) : HloOp τ sig (Elt F)).result V) := by
  refine ⟨args_step main_v24 rfl (by decide) hA, ?_⟩
  unfold Args at hA
  obtain ⟨a0, a1, a2, a3, a4, a5, a6, a7, a8, a9, a10, a11, a12, a13⟩ := hA
  obtain ⟨h_v12, h_v19, h_v21, h_v23⟩ := hL
  exact ⟨(keep main_v24 rfl (by decide)).trans h_v12,
    (keep main_v24 rfl (by decide)).trans h_v19,
    new_ternary h_v21 h_v23 a2 rfl⟩
theorem step32 (hA : Args x0 x1 x2 x3 x4 x5 x6 x7 x8 x9 x10 x11 x12 x13 V) (hL : Live32 x0 x1 x2 x3 x4 x5 x6 x7 x8 x9 x10 x11 x12 x13 V) :
    Args x0 x1 x2 x3 x4 x5 x6 x7 x8 x9 x10 x11 x12 x13 ((unary main_v24 main_v25 (broadcastInDim S800000x1 ![0] bcast_S800000_S800000x1_0 : (⟨S800000, .i32⟩ : BufTy).Contents (Elt F) → (⟨S800000x1, .i32⟩ : BufTy).Contents (Elt F)) : HloOp τ sig (Elt F)).result V) ∧ Live33 x0 x1 x2 x3 x4 x5 x6 x7 x8 x9 x10 x11 x12 x13 ((unary main_v24 main_v25 (broadcastInDim S800000x1 ![0] bcast_S800000_S800000x1_0 : (⟨S800000, .i32⟩ : BufTy).Contents (Elt F) → (⟨S800000x1, .i32⟩ : BufTy).Contents (Elt F)) : HloOp τ sig (Elt F)).result V) := by
  refine ⟨args_step main_v25 rfl (by decide) hA, ?_⟩
  obtain ⟨h_v12, h_v19, h_v24⟩ := hL
  exact ⟨(keep main_v25 rfl (by decide)).trans h_v12,
    (keep main_v25 rfl (by decide)).trans h_v19,
    new_unary h_v24 rfl⟩
theorem step33 (hA : Args x0 x1 x2 x3 x4 x5 x6 x7 x8 x9 x10 x11 x12 x13 V) (hL : Live33 x0 x1 x2 x3 x4 x5 x6 x7 x8 x9 x10 x11 x12 x13 V) :
    Args x0 x1 x2 x3 x4 x5 x6 x7 x8 x9 x10 x11 x12 x13 ((binary main_arg0 main_v25 main_v26 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)) : HloOp τ sig (Elt F)).result V) ∧ Live34 x0 x1 x2 x3 x4 x5 x6 x7 x8 x9 x10 x11 x12 x13 ((binary main_arg0 main_v25 main_v26 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)) : HloOp τ sig (Elt F)).result V) := by
  refine ⟨args_step main_v26 rfl (by decide) hA, ?_⟩
  unfold Args at hA
  obtain ⟨a0, a1, a2, a3, a4, a5, a6, a7, a8, a9, a10, a11, a12, a13⟩ := hA
  obtain ⟨h_v12, h_v19, h_v25⟩ := hL
  exact ⟨(keep main_v26 rfl (by decide)).trans h_v12,
    (keep main_v26 rfl (by decide)).trans h_v19,
    new_binary a0 h_v25 rfl⟩
theorem step34 (hA : Args x0 x1 x2 x3 x4 x5 x6 x7 x8 x9 x10 x11 x12 x13 V) (hL : Live34 x0 x1 x2 x3 x4 x5 x6 x7 x8 x9 x10 x11 x12 x13 V) :
    Args x0 x1 x2 x3 x4 x5 x6 x7 x8 x9 x10 x11 x12 x13 ((binary main_v19 main_v26 main_v27 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)) : HloOp τ sig (Elt F)).result V) ∧ Live35 x0 x1 x2 x3 x4 x5 x6 x7 x8 x9 x10 x11 x12 x13 ((binary main_v19 main_v26 main_v27 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)) : HloOp τ sig (Elt F)).result V) := by
  refine ⟨args_step main_v27 rfl (by decide) hA, ?_⟩
  obtain ⟨h_v12, h_v19, h_v26⟩ := hL
  exact ⟨(keep main_v27 rfl (by decide)).trans h_v12,
    new_binary h_v19 h_v26 rfl⟩
theorem step35 (hA : Args x0 x1 x2 x3 x4 x5 x6 x7 x8 x9 x10 x11 x12 x13 V) (hL : Live35 x0 x1 x2 x3 x4 x5 x6 x7 x8 x9 x10 x11 x12 x13 V) :
    Args x0 x1 x2 x3 x4 x5 x6 x7 x8 x9 x10 x11 x12 x13 ((unary main_arg6 main_v28 ((extractStridedSlice S1x128x64 ![0, 0, 0] · slices_S2x128x64_S1x128x64_0_0_0) : (⟨S2x128x64, .f32⟩ : BufTy).Contents (Elt F) → (⟨S1x128x64, .f32⟩ : BufTy).Contents (Elt F)) : HloOp τ sig (Elt F)).result V) ∧ Live36 x0 x1 x2 x3 x4 x5 x6 x7 x8 x9 x10 x11 x12 x13 ((unary main_arg6 main_v28 ((extractStridedSlice S1x128x64 ![0, 0, 0] · slices_S2x128x64_S1x128x64_0_0_0) : (⟨S2x128x64, .f32⟩ : BufTy).Contents (Elt F) → (⟨S1x128x64, .f32⟩ : BufTy).Contents (Elt F)) : HloOp τ sig (Elt F)).result V) := by
  refine ⟨args_step main_v28 rfl (by decide) hA, ?_⟩
  unfold Args at hA
  obtain ⟨a0, a1, a2, a3, a4, a5, a6, a7, a8, a9, a10, a11, a12, a13⟩ := hA
  obtain ⟨h_v12, h_v27⟩ := hL
  exact ⟨(keep main_v28 rfl (by decide)).trans h_v12,
    (keep main_v28 rfl (by decide)).trans h_v27,
    new_unary a6 rfl⟩
theorem step36 (hA : Args x0 x1 x2 x3 x4 x5 x6 x7 x8 x9 x10 x11 x12 x13 V) (hL : Live36 x0 x1 x2 x3 x4 x5 x6 x7 x8 x9 x10 x11 x12 x13 V) :
    Args x0 x1 x2 x3 x4 x5 x6 x7 x8 x9 x10 x11 x12 x13 ((reshape main_v28 main_v29 rfl shapeCasts_S1x128x64_S128x64 : HloOp τ sig (Elt F)).result V) ∧ Live37 x0 x1 x2 x3 x4 x5 x6 x7 x8 x9 x10 x11 x12 x13 ((reshape main_v28 main_v29 rfl shapeCasts_S1x128x64_S128x64 : HloOp τ sig (Elt F)).result V) := by
  refine ⟨args_step main_v29 rfl (by decide) hA, ?_⟩
  obtain ⟨h_v12, h_v27, h_v28⟩ := hL
  exact ⟨(keep main_v29 rfl (by decide)).trans h_v12,
    (keep main_v29 rfl (by decide)).trans h_v27,
    (by show _ = _; rw [reshape_result, h_v28]; exact rfl)⟩
theorem step37 (hA : Args x0 x1 x2 x3 x4 x5 x6 x7 x8 x9 x10 x11 x12 x13 V) (hL : Live37 x0 x1 x2 x3 x4 x5 x6 x7 x8 x9 x10 x11 x12 x13 V) :
    Args x0 x1 x2 x3 x4 x5 x6 x7 x8 x9 x10 x11 x12 x13 ((binary main_v27 main_v29 main_v30 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)) : HloOp τ sig (Elt F)).result V) ∧ Live38 x0 x1 x2 x3 x4 x5 x6 x7 x8 x9 x10 x11 x12 x13 ((binary main_v27 main_v29 main_v30 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)) : HloOp τ sig (Elt F)).result V) := by
  refine ⟨args_step main_v30 rfl (by decide) hA, ?_⟩
  obtain ⟨h_v12, h_v27, h_v29⟩ := hL
  exact ⟨(keep main_v30 rfl (by decide)).trans h_v12,
    new_binary h_v27 h_v29 rfl⟩
theorem step38 (hA : Args x0 x1 x2 x3 x4 x5 x6 x7 x8 x9 x10 x11 x12 x13 V) (hL : Live38 x0 x1 x2 x3 x4 x5 x6 x7 x8 x9 x10 x11 x12 x13 V) :
    Args x0 x1 x2 x3 x4 x5 x6 x7 x8 x9 x10 x11 x12 x13 ((unary main_arg7 main_v31 ((extractStridedSlice S1x64 ![0, 0] · slices_S2x64_S1x64_0_0) : (⟨S2x64, .f32⟩ : BufTy).Contents (Elt F) → (⟨S1x64, .f32⟩ : BufTy).Contents (Elt F)) : HloOp τ sig (Elt F)).result V) ∧ Live39 x0 x1 x2 x3 x4 x5 x6 x7 x8 x9 x10 x11 x12 x13 ((unary main_arg7 main_v31 ((extractStridedSlice S1x64 ![0, 0] · slices_S2x64_S1x64_0_0) : (⟨S2x64, .f32⟩ : BufTy).Contents (Elt F) → (⟨S1x64, .f32⟩ : BufTy).Contents (Elt F)) : HloOp τ sig (Elt F)).result V) := by
  refine ⟨args_step main_v31 rfl (by decide) hA, ?_⟩
  unfold Args at hA
  obtain ⟨a0, a1, a2, a3, a4, a5, a6, a7, a8, a9, a10, a11, a12, a13⟩ := hA
  obtain ⟨h_v12, h_v30⟩ := hL
  exact ⟨(keep main_v31 rfl (by decide)).trans h_v12,
    (keep main_v31 rfl (by decide)).trans h_v30,
    new_unary a7 rfl⟩
theorem step39 (hA : Args x0 x1 x2 x3 x4 x5 x6 x7 x8 x9 x10 x11 x12 x13 V) (hL : Live39 x0 x1 x2 x3 x4 x5 x6 x7 x8 x9 x10 x11 x12 x13 V) :
    Args x0 x1 x2 x3 x4 x5 x6 x7 x8 x9 x10 x11 x12 x13 ((reshape main_v31 main_v32 rfl shapeCasts_S1x64_S64 : HloOp τ sig (Elt F)).result V) ∧ Live40 x0 x1 x2 x3 x4 x5 x6 x7 x8 x9 x10 x11 x12 x13 ((reshape main_v31 main_v32 rfl shapeCasts_S1x64_S64 : HloOp τ sig (Elt F)).result V) := by
  refine ⟨args_step main_v32 rfl (by decide) hA, ?_⟩
  obtain ⟨h_v12, h_v30, h_v31⟩ := hL
  exact ⟨(keep main_v32 rfl (by decide)).trans h_v12,
    (keep main_v32 rfl (by decide)).trans h_v30,
    (by show _ = _; rw [reshape_result, h_v31]; exact rfl)⟩
theorem step40 (hA : Args x0 x1 x2 x3 x4 x5 x6 x7 x8 x9 x10 x11 x12 x13 V) (hL : Live40 x0 x1 x2 x3 x4 x5 x6 x7 x8 x9 x10 x11 x12 x13 V) :
    Args x0 x1 x2 x3 x4 x5 x6 x7 x8 x9 x10 x11 x12 x13 ((unary main_v32 main_v33 (broadcastInDim S1x64 ![1] bcast_S64_S1x64_1 : (⟨S64, .f32⟩ : BufTy).Contents (Elt F) → (⟨S1x64, .f32⟩ : BufTy).Contents (Elt F)) : HloOp τ sig (Elt F)).result V) ∧ Live41 x0 x1 x2 x3 x4 x5 x6 x7 x8 x9 x10 x11 x12 x13 ((unary main_v32 main_v33 (broadcastInDim S1x64 ![1] bcast_S64_S1x64_1 : (⟨S64, .f32⟩ : BufTy).Contents (Elt F) → (⟨S1x64, .f32⟩ : BufTy).Contents (Elt F)) : HloOp τ sig (Elt F)).result V) := by
  refine ⟨args_step main_v33 rfl (by decide) hA, ?_⟩
  obtain ⟨h_v12, h_v30, h_v32⟩ := hL
  exact ⟨(keep main_v33 rfl (by decide)).trans h_v12,
    (keep main_v33 rfl (by decide)).trans h_v30,
    new_unary h_v32 rfl⟩
theorem step41 (hA : Args x0 x1 x2 x3 x4 x5 x6 x7 x8 x9 x10 x11 x12 x13 V) (hL : Live41 x0 x1 x2 x3 x4 x5 x6 x7 x8 x9 x10 x11 x12 x13 V) :
    Args x0 x1 x2 x3 x4 x5 x6 x7 x8 x9 x10 x11 x12 x13 ((unary main_v33 main_v34 (broadcastInDim S800000x64 ![0, 1] bcast_S1x64_S800000x64_0_1 : (⟨S1x64, .f32⟩ : BufTy).Contents (Elt F) → (⟨S800000x64, .f32⟩ : BufTy).Contents (Elt F)) : HloOp τ sig (Elt F)).result V) ∧ Live42 x0 x1 x2 x3 x4 x5 x6 x7 x8 x9 x10 x11 x12 x13 ((unary main_v33 main_v34 (broadcastInDim S800000x64 ![0, 1] bcast_S1x64_S800000x64_0_1 : (⟨S1x64, .f32⟩ : BufTy).Contents (Elt F) → (⟨S800000x64, .f32⟩ : BufTy).Contents (Elt F)) : HloOp τ sig (Elt F)).result V) := by
  refine ⟨args_step main_v34 rfl (by decide) hA, ?_⟩
  obtain ⟨h_v12, h_v30, h_v33⟩ := hL
  exact ⟨(keep main_v34 rfl (by decide)).trans h_v12,
    (keep main_v34 rfl (by decide)).trans h_v30,
    new_unary h_v33 rfl⟩
theorem step42 (hA : Args x0 x1 x2 x3 x4 x5 x6 x7 x8 x9 x10 x11 x12 x13 V) (hL : Live42 x0 x1 x2 x3 x4 x5 x6 x7 x8 x9 x10 x11 x12 x13 V) :
    Args x0 x1 x2 x3 x4 x5 x6 x7 x8 x9 x10 x11 x12 x13 ((binary main_v30 main_v34 main_v35 (addf : (⟨S800000x64, .f32⟩ : BufTy).Contents (Elt F) → (⟨S800000x64, .f32⟩ : BufTy).Contents (Elt F) → (⟨S800000x64, .f32⟩ : BufTy).Contents (Elt F)) : HloOp τ sig (Elt F)).result V) ∧ Live43 x0 x1 x2 x3 x4 x5 x6 x7 x8 x9 x10 x11 x12 x13 ((binary main_v30 main_v34 main_v35 (addf : (⟨S800000x64, .f32⟩ : BufTy).Contents (Elt F) → (⟨S800000x64, .f32⟩ : BufTy).Contents (Elt F) → (⟨S800000x64, .f32⟩ : BufTy).Contents (Elt F)) : HloOp τ sig (Elt F)).result V) := by
  refine ⟨args_step main_v35 rfl (by decide) hA, ?_⟩
  obtain ⟨h_v12, h_v30, h_v34⟩ := hL
  exact ⟨(keep main_v35 rfl (by decide)).trans h_v12,
    new_binary h_v30 h_v34 rfl⟩
theorem step43 (hA : Args x0 x1 x2 x3 x4 x5 x6 x7 x8 x9 x10 x11 x12 x13 V) (hL : Live43 x0 x1 x2 x3 x4 x5 x6 x7 x8 x9 x10 x11 x12 x13 V) :
    Args x0 x1 x2 x3 x4 x5 x6 x7 x8 x9 x10 x11 x12 x13 ((nullary main_cst_5 (constant S_ .f32 0x00000000#32) : HloOp τ sig (Elt F)).result V) ∧ Live44 x0 x1 x2 x3 x4 x5 x6 x7 x8 x9 x10 x11 x12 x13 ((nullary main_cst_5 (constant S_ .f32 0x00000000#32) : HloOp τ sig (Elt F)).result V) := by
  refine ⟨args_step main_cst_5 rfl (by decide) hA, ?_⟩
  obtain ⟨h_v12, h_v35⟩ := hL
  exact ⟨(keep main_cst_5 rfl (by decide)).trans h_v12,
    (keep main_cst_5 rfl (by decide)).trans h_v35,
    new_nullary rfl⟩
theorem step44 (hA : Args x0 x1 x2 x3 x4 x5 x6 x7 x8 x9 x10 x11 x12 x13 V) (hL : Live44 x0 x1 x2 x3 x4 x5 x6 x7 x8 x9 x10 x11 x12 x13 V) :
    Args x0 x1 x2 x3 x4 x5 x6 x7 x8 x9 x10 x11 x12 x13 ((unary main_cst_5 main_v36 (broadcastInDim S800000x64 ![] bcast_S_S800000x64 : (⟨S_, .f32⟩ : BufTy).Contents (Elt F) → (⟨S800000x64, .f32⟩ : BufTy).Contents (Elt F)) : HloOp τ sig (Elt F)).result V) ∧ Live45 x0 x1 x2 x3 x4 x5 x6 x7 x8 x9 x10 x11 x12 x13 ((unary main_cst_5 main_v36 (broadcastInDim S800000x64 ![] bcast_S_S800000x64 : (⟨S_, .f32⟩ : BufTy).Contents (Elt F) → (⟨S800000x64, .f32⟩ : BufTy).Contents (Elt F)) : HloOp τ sig (Elt F)).result V) := by
  refine ⟨args_step main_v36 rfl (by decide) hA, ?_⟩
  obtain ⟨h_v12, h_v35, h_cst_5⟩ := hL
  exact ⟨(keep main_v36 rfl (by decide)).trans h_v12,
    (keep main_v36 rfl (by decide)).trans h_v35,
    new_unary h_cst_5 rfl⟩
theorem step45 (hA : Args x0 x1 x2 x3 x4 x5 x6 x7 x8 x9 x10 x11 x12 x13 V) (hL : Live45 x0 x1 x2 x3 x4 x5 x6 x7 x8 x9 x10 x11 x12 x13 V) :
    Args x0 x1 x2 x3 x4 x5 x6 x7 x8 x9 x10 x11 x12 x13 ((binary main_v35 main_v36 main_v37 (maximumf : (⟨S800000x64, .f32⟩ : BufTy).Contents (Elt F) → (⟨S800000x64, .f32⟩ : BufTy).Contents (Elt F) → (⟨S800000x64, .f32⟩ : BufTy).Contents (Elt F)) : HloOp τ sig (Elt F)).result V) ∧ Live46 x0 x1 x2 x3 x4 x5 x6 x7 x8 x9 x10 x11 x12 x13 ((binary main_v35 main_v36 main_v37 (maximumf : (⟨S800000x64, .f32⟩ : BufTy).Contents (Elt F) → (⟨S800000x64, .f32⟩ : BufTy).Contents (Elt F) → (⟨S800000x64, .f32⟩ : BufTy).Contents (Elt F)) : HloOp τ sig (Elt F)).result V) := by
  refine ⟨args_step main_v37 rfl (by decide) hA, ?_⟩
  obtain ⟨h_v12, h_v35, h_v36⟩ := hL
  exact ⟨(keep main_v37 rfl (by decide)).trans h_v12,
    new_binary h_v35 h_v36 rfl⟩
theorem step46 (hA : Args x0 x1 x2 x3 x4 x5 x6 x7 x8 x9 x10 x11 x12 x13 V) (hL : Live46 x0 x1 x2 x3 x4 x5 x6 x7 x8 x9 x10 x11 x12 x13 V) :
    Args x0 x1 x2 x3 x4 x5 x6 x7 x8 x9 x10 x11 x12 x13 ((unary main_arg8 main_v38 ((extractStridedSlice S1x64x1 ![0, 0, 0] · slices_S2x64x1_S1x64x1_0_0_0) : (⟨S2x64x1, .f32⟩ : BufTy).Contents (Elt F) → (⟨S1x64x1, .f32⟩ : BufTy).Contents (Elt F)) : HloOp τ sig (Elt F)).result V) ∧ Live47 x0 x1 x2 x3 x4 x5 x6 x7 x8 x9 x10 x11 x12 x13 ((unary main_arg8 main_v38 ((extractStridedSlice S1x64x1 ![0, 0, 0] · slices_S2x64x1_S1x64x1_0_0_0) : (⟨S2x64x1, .f32⟩ : BufTy).Contents (Elt F) → (⟨S1x64x1, .f32⟩ : BufTy).Contents (Elt F)) : HloOp τ sig (Elt F)).result V) := by
  refine ⟨args_step main_v38 rfl (by decide) hA, ?_⟩
  unfold Args at hA
  obtain ⟨a0, a1, a2, a3, a4, a5, a6, a7, a8, a9, a10, a11, a12, a13⟩ := hA
  obtain ⟨h_v12, h_v37⟩ := hL
  exact ⟨(keep main_v38 rfl (by decide)).trans h_v12,
    (keep main_v38 rfl (by decide)).trans h_v37,
    new_unary a8 rfl⟩
theorem step47 (hA : Args x0 x1 x2 x3 x4 x5 x6 x7 x8 x9 x10 x11 x12 x13 V) (hL : Live47 x0 x1 x2 x3 x4 x5 x6 x7 x8 x9 x10 x11 x12 x13 V) :
    Args x0 x1 x2 x3 x4 x5 x6 x7 x8 x9 x10 x11 x12 x13 ((reshape main_v38 main_v39 rfl shapeCasts_S1x64x1_S64x1 : HloOp τ sig (Elt F)).result V) ∧ Live48 x0 x1 x2 x3 x4 x5 x6 x7 x8 x9 x10 x11 x12 x13 ((reshape main_v38 main_v39 rfl shapeCasts_S1x64x1_S64x1 : HloOp τ sig (Elt F)).result V) := by
  refine ⟨args_step main_v39 rfl (by decide) hA, ?_⟩
  obtain ⟨h_v12, h_v37, h_v38⟩ := hL
  exact ⟨(keep main_v39 rfl (by decide)).trans h_v12,
    (keep main_v39 rfl (by decide)).trans h_v37,
    (by show _ = _; rw [reshape_result, h_v38]; exact rfl)⟩
theorem step48 (hA : Args x0 x1 x2 x3 x4 x5 x6 x7 x8 x9 x10 x11 x12 x13 V) (hL : Live48 x0 x1 x2 x3 x4 x5 x6 x7 x8 x9 x10 x11 x12 x13 V) :
    Args x0 x1 x2 x3 x4 x5 x6 x7 x8 x9 x10 x11 x12 x13 ((binary main_v37 main_v39 main_v40 ((fun l r => Host.dotGeneral dot_S800000x64_S64x1_S800000x1_1_0_0_1_n_n none l r) : (⟨S800000x64, .f32⟩ : BufTy).Contents (Elt F) → (⟨S64x1, .f32⟩ : BufTy).Contents (Elt F) → (⟨S800000x1, .f32⟩ : BufTy).Contents (Elt F)) : HloOp τ sig (Elt F)).result V) ∧ Live49 x0 x1 x2 x3 x4 x5 x6 x7 x8 x9 x10 x11 x12 x13 ((binary main_v37 main_v39 main_v40 ((fun l r => Host.dotGeneral dot_S800000x64_S64x1_S800000x1_1_0_0_1_n_n none l r) : (⟨S800000x64, .f32⟩ : BufTy).Contents (Elt F) → (⟨S64x1, .f32⟩ : BufTy).Contents (Elt F) → (⟨S800000x1, .f32⟩ : BufTy).Contents (Elt F)) : HloOp τ sig (Elt F)).result V) := by
  refine ⟨args_step main_v40 rfl (by decide) hA, ?_⟩
  obtain ⟨h_v12, h_v37, h_v39⟩ := hL
  exact ⟨(keep main_v40 rfl (by decide)).trans h_v12,
    new_binary h_v37 h_v39 rfl⟩
theorem step49 (hA : Args x0 x1 x2 x3 x4 x5 x6 x7 x8 x9 x10 x11 x12 x13 V) (hL : Live49 x0 x1 x2 x3 x4 x5 x6 x7 x8 x9 x10 x11 x12 x13 V) :
    Args x0 x1 x2 x3 x4 x5 x6 x7 x8 x9 x10 x11 x12 x13 ((unary main_arg9 main_v41 ((extractStridedSlice S1x1 ![0, 0] · slices_S2x1_S1x1_0_0) : (⟨S2x1, .f32⟩ : BufTy).Contents (Elt F) → (⟨S1x1, .f32⟩ : BufTy).Contents (Elt F)) : HloOp τ sig (Elt F)).result V) ∧ Live50 x0 x1 x2 x3 x4 x5 x6 x7 x8 x9 x10 x11 x12 x13 ((unary main_arg9 main_v41 ((extractStridedSlice S1x1 ![0, 0] · slices_S2x1_S1x1_0_0) : (⟨S2x1, .f32⟩ : BufTy).Contents (Elt F) → (⟨S1x1, .f32⟩ : BufTy).Contents (Elt F)) : HloOp τ sig (Elt F)).result V) := by
  refine ⟨args_step main_v41 rfl (by decide) hA, ?_⟩
  unfold Args at hA
  obtain ⟨a0, a1, a2, a3, a4, a5, a6, a7, a8, a9, a10, a11, a12, a13⟩ := hA
  obtain ⟨h_v12, h_v40⟩ := hL
  exact ⟨(keep main_v41 rfl (by decide)).trans h_v12,
    (keep main_v41 rfl (by decide)).trans h_v40,
    new_unary a9 rfl⟩
theorem step50 (hA : Args x0 x1 x2 x3 x4 x5 x6 x7 x8 x9 x10 x11 x12 x13 V) (hL : Live50 x0 x1 x2 x3 x4 x5 x6 x7 x8 x9 x10 x11 x12 x13 V) :
    Args x0 x1 x2 x3 x4 x5 x6 x7 x8 x9 x10 x11 x12 x13 ((reshape main_v41 main_v42 rfl shapeCasts_S1x1_S1 : HloOp τ sig (Elt F)).result V) ∧ Live51 x0 x1 x2 x3 x4 x5 x6 x7 x8 x9 x10 x11 x12 x13 ((reshape main_v41 main_v42 rfl shapeCasts_S1x1_S1 : HloOp τ sig (Elt F)).result V) := by
  refine ⟨args_step main_v42 rfl (by decide) hA, ?_⟩
  obtain ⟨h_v12, h_v40, h_v41⟩ := hL
  exact ⟨(keep main_v42 rfl (by decide)).trans h_v12,
    (keep main_v42 rfl (by decide)).trans h_v40,
    (by show _ = _; rw [reshape_result, h_v41]; exact rfl)⟩
theorem step51 (hA : Args x0 x1 x2 x3 x4 x5 x6 x7 x8 x9 x10 x11 x12 x13 V) (hL : Live51 x0 x1 x2 x3 x4 x5 x6 x7 x8 x9 x10 x11 x12 x13 V) :
    Args x0 x1 x2 x3 x4 x5 x6 x7 x8 x9 x10 x11 x12 x13 ((unary main_v42 main_v43 (broadcastInDim S1x1 ![1] bcast_S1_S1x1_1 : (⟨S1, .f32⟩ : BufTy).Contents (Elt F) → (⟨S1x1, .f32⟩ : BufTy).Contents (Elt F)) : HloOp τ sig (Elt F)).result V) ∧ Live52 x0 x1 x2 x3 x4 x5 x6 x7 x8 x9 x10 x11 x12 x13 ((unary main_v42 main_v43 (broadcastInDim S1x1 ![1] bcast_S1_S1x1_1 : (⟨S1, .f32⟩ : BufTy).Contents (Elt F) → (⟨S1x1, .f32⟩ : BufTy).Contents (Elt F)) : HloOp τ sig (Elt F)).result V) := by
  refine ⟨args_step main_v43 rfl (by decide) hA, ?_⟩
  obtain ⟨h_v12, h_v40, h_v42⟩ := hL
  exact ⟨(keep main_v43 rfl (by decide)).trans h_v12,
    (keep main_v43 rfl (by decide)).trans h_v40,
    new_unary h_v42 rfl⟩
theorem step52 (hA : Args x0 x1 x2 x3 x4 x5 x6 x7 x8 x9 x10 x11 x12 x13 V) (hL : Live52 x0 x1 x2 x3 x4 x5 x6 x7 x8 x9 x10 x11 x12 x13 V) :
    Args x0 x1 x2 x3 x4 x5 x6 x7 x8 x9 x10 x11 x12 x13 ((unary main_v43 main_v44 (broadcastInDim S800000x1 ![0, 1] bcast_S1x1_S800000x1_0_1 : (⟨S1x1, .f32⟩ : BufTy).Contents (Elt F) → (⟨S800000x1, .f32⟩ : BufTy).Contents (Elt F)) : HloOp τ sig (Elt F)).result V) ∧ Live53 x0 x1 x2 x3 x4 x5 x6 x7 x8 x9 x10 x11 x12 x13 ((unary main_v43 main_v44 (broadcastInDim S800000x1 ![0, 1] bcast_S1x1_S800000x1_0_1 : (⟨S1x1, .f32⟩ : BufTy).Contents (Elt F) → (⟨S800000x1, .f32⟩ : BufTy).Contents (Elt F)) : HloOp τ sig (Elt F)).result V) := by
  refine ⟨args_step main_v44 rfl (by decide) hA, ?_⟩
  obtain ⟨h_v12, h_v40, h_v43⟩ := hL
  exact ⟨(keep main_v44 rfl (by decide)).trans h_v12,
    (keep main_v44 rfl (by decide)).trans h_v40,
    new_unary h_v43 rfl⟩
theorem step53 (hA : Args x0 x1 x2 x3 x4 x5 x6 x7 x8 x9 x10 x11 x12 x13 V) (hL : Live53 x0 x1 x2 x3 x4 x5 x6 x7 x8 x9 x10 x11 x12 x13 V) :
    Args x0 x1 x2 x3 x4 x5 x6 x7 x8 x9 x10 x11 x12 x13 ((binary main_v40 main_v44 main_v45 (addf : (⟨S800000x1, .f32⟩ : BufTy).Contents (Elt F) → (⟨S800000x1, .f32⟩ : BufTy).Contents (Elt F) → (⟨S800000x1, .f32⟩ : BufTy).Contents (Elt F)) : HloOp τ sig (Elt F)).result V) ∧ Live54 x0 x1 x2 x3 x4 x5 x6 x7 x8 x9 x10 x11 x12 x13 ((binary main_v40 main_v44 main_v45 (addf : (⟨S800000x1, .f32⟩ : BufTy).Contents (Elt F) → (⟨S800000x1, .f32⟩ : BufTy).Contents (Elt F) → (⟨S800000x1, .f32⟩ : BufTy).Contents (Elt F)) : HloOp τ sig (Elt F)).result V) := by
  refine ⟨args_step main_v45 rfl (by decide) hA, ?_⟩
  obtain ⟨h_v12, h_v40, h_v44⟩ := hL
  exact ⟨(keep main_v45 rfl (by decide)).trans h_v12,
    new_binary h_v40 h_v44 rfl⟩
theorem step54 (hA : Args x0 x1 x2 x3 x4 x5 x6 x7 x8 x9 x10 x11 x12 x13 V) (hL : Live54 x0 x1 x2 x3 x4 x5 x6 x7 x8 x9 x10 x11 x12 x13 V) :
    Args x0 x1 x2 x3 x4 x5 x6 x7 x8 x9 x10 x11 x12 x13 ((unary main_arg4 main_v46 ((extractStridedSlice S1x800000 ![0, 0] · slices_S2x800000_S1x800000_0_0) : (⟨S2x800000, .f32⟩ : BufTy).Contents (Elt F) → (⟨S1x800000, .f32⟩ : BufTy).Contents (Elt F)) : HloOp τ sig (Elt F)).result V) ∧ Live55 x0 x1 x2 x3 x4 x5 x6 x7 x8 x9 x10 x11 x12 x13 ((unary main_arg4 main_v46 ((extractStridedSlice S1x800000 ![0, 0] · slices_S2x800000_S1x800000_0_0) : (⟨S2x800000, .f32⟩ : BufTy).Contents (Elt F) → (⟨S1x800000, .f32⟩ : BufTy).Contents (Elt F)) : HloOp τ sig (Elt F)).result V) := by
  refine ⟨args_step main_v46 rfl (by decide) hA, ?_⟩
  unfold Args at hA
  obtain ⟨a0, a1, a2, a3, a4, a5, a6, a7, a8, a9, a10, a11, a12, a13⟩ := hA
  obtain ⟨h_v12, h_v45⟩ := hL
  exact ⟨(keep main_v46 rfl (by decide)).trans h_v12,
    (keep main_v46 rfl (by decide)).trans h_v45,
    new_unary a4 rfl⟩
theorem step55 (hA : Args x0 x1 x2 x3 x4 x5 x6 x7 x8 x9 x10 x11 x12 x13 V) (hL : Live55 x0 x1 x2 x3 x4 x5 x6 x7 x8 x9 x10 x11 x12 x13 V) :
    Args x0 x1 x2 x3 x4 x5 x6 x7 x8 x9 x10 x11 x12 x13 ((reshape main_v46 main_v47 rfl shapeCasts_S1x800000_S800000 : HloOp τ sig (Elt F)).result V) ∧ Live56 x0 x1 x2 x3 x4 x5 x6 x7 x8 x9 x10 x11 x12 x13 ((reshape main_v46 main_v47 rfl shapeCasts_S1x800000_S800000 : HloOp τ sig (Elt F)).result V) := by
  refine ⟨args_step main_v47 rfl (by decide) hA, ?_⟩
  obtain ⟨h_v12, h_v45, h_v46⟩ := hL
  exact ⟨(keep main_v47 rfl (by decide)).trans h_v12,
    (keep main_v47 rfl (by decide)).trans h_v45,
    (by show _ = _; rw [reshape_result, h_v46]; exact rfl)⟩
theorem step56 (hA : Args x0 x1 x2 x3 x4 x5 x6 x7 x8 x9 x10 x11 x12 x13 V) (hL : Live56 x0 x1 x2 x3 x4 x5 x6 x7 x8 x9 x10 x11 x12 x13 V) :
    Args x0 x1 x2 x3 x4 x5 x6 x7 x8 x9 x10 x11 x12 x13 ((unary main_v47 main_v48 (broadcastInDim S800000x1 ![0] bcast_S800000_S800000x1_0 : (⟨S800000, .f32⟩ : BufTy).Contents (Elt F) → (⟨S800000x1, .f32⟩ : BufTy).Contents (Elt F)) : HloOp τ sig (Elt F)).result V) ∧ Live57 x0 x1 x2 x3 x4 x5 x6 x7 x8 x9 x10 x11 x12 x13 ((unary main_v47 main_v48 (broadcastInDim S800000x1 ![0] bcast_S800000_S800000x1_0 : (⟨S800000, .f32⟩ : BufTy).Contents (Elt F) → (⟨S800000x1, .f32⟩ : BufTy).Contents (Elt F)) : HloOp τ sig (Elt F)).result V) := by
  refine ⟨args_step main_v48 rfl (by decide) hA, ?_⟩
  obtain ⟨h_v12, h_v45, h_v47⟩ := hL
  exact ⟨(keep main_v48 rfl (by decide)).trans h_v12,
    (keep main_v48 rfl (by decide)).trans h_v45,
    new_unary h_v47 rfl⟩
theorem step57 (hA : Args x0 x1 x2 x3 x4 x5 x6 x7 x8 x9 x10 x11 x12 x13 V) (hL : Live57 x0 x1 x2 x3 x4 x5 x6 x7 x8 x9 x10 x11 x12 x13 V) :
    Args x0 x1 x2 x3 x4 x5 x6 x7 x8 x9 x10 x11 x12 x13 ((binary main_v48 main_v45 main_v49 (addf : (⟨S800000x1, .f32⟩ : BufTy).Contents (Elt F) → (⟨S800000x1, .f32⟩ : BufTy).Contents (Elt F) → (⟨S800000x1, .f32⟩ : BufTy).Contents (Elt F)) : HloOp τ sig (Elt F)).result V) ∧ Live58 x0 x1 x2 x3 x4 x5 x6 x7 x8 x9 x10 x11 x12 x13 ((binary main_v48 main_v45 main_v49 (addf : (⟨S800000x1, .f32⟩ : BufTy).Contents (Elt F) → (⟨S800000x1, .f32⟩ : BufTy).Contents (Elt F) → (⟨S800000x1, .f32⟩ : BufTy).Contents (Elt F)) : HloOp τ sig (Elt F)).result V) := by
  refine ⟨args_step main_v49 rfl (by decide) hA, ?_⟩
  obtain ⟨h_v12, h_v45, h_v48⟩ := hL
  exact ⟨(keep main_v49 rfl (by decide)).trans h_v12,
    new_binary h_v48 h_v45 rfl⟩
theorem step58 (hA : Args x0 x1 x2 x3 x4 x5 x6 x7 x8 x9 x10 x11 x12 x13 V) (hL : Live58 x0 x1 x2 x3 x4 x5 x6 x7 x8 x9 x10 x11 x12 x13 V) :
    Args x0 x1 x2 x3 x4 x5 x6 x7 x8 x9 x10 x11 x12 x13 ((nullary main_cst_6 (constant S_ .f32 0x3F800000#32) : HloOp τ sig (Elt F)).result V) ∧ Live59 x0 x1 x2 x3 x4 x5 x6 x7 x8 x9 x10 x11 x12 x13 ((nullary main_cst_6 (constant S_ .f32 0x3F800000#32) : HloOp τ sig (Elt F)).result V) := by
  refine ⟨args_step main_cst_6 rfl (by decide) hA, ?_⟩
  obtain ⟨h_v12, h_v49⟩ := hL
  exact ⟨(keep main_cst_6 rfl (by decide)).trans h_v12,
    (keep main_cst_6 rfl (by decide)).trans h_v49,
    new_nullary rfl⟩
theorem step59 (hA : Args x0 x1 x2 x3 x4 x5 x6 x7 x8 x9 x10 x11 x12 x13 V) (hL : Live59 x0 x1 x2 x3 x4 x5 x6 x7 x8 x9 x10 x11 x12 x13 V) :
    Args x0 x1 x2 x3 x4 x5 x6 x7 x8 x9 x10 x11 x12 x13 ((unary main_cst_6 main_v50 (broadcastInDim S800000x1 ![] bcast_S_S800000x1 : (⟨S_, .f32⟩ : BufTy).Contents (Elt F) → (⟨S800000x1, .f32⟩ : BufTy).Contents (Elt F)) : HloOp τ sig (Elt F)).result V) ∧ Live60 x0 x1 x2 x3 x4 x5 x6 x7 x8 x9 x10 x11 x12 x13 ((unary main_cst_6 main_v50 (broadcastInDim S800000x1 ![] bcast_S_S800000x1 : (⟨S_, .f32⟩ : BufTy).Contents (Elt F) → (⟨S800000x1, .f32⟩ : BufTy).Contents (Elt F)) : HloOp τ sig (Elt F)).result V) := by
  refine ⟨args_step main_v50 rfl (by decide) hA, ?_⟩
  obtain ⟨h_v12, h_v49, h_cst_6⟩ := hL
  exact ⟨(keep main_v50 rfl (by decide)).trans h_v12,
    (keep main_v50 rfl (by decide)).trans h_v49,
    new_unary h_cst_6 rfl⟩
theorem step60 (hA : Args x0 x1 x2 x3 x4 x5 x6 x7 x8 x9 x10 x11 x12 x13 V) (hL : Live60 x0 x1 x2 x3 x4 x5 x6 x7 x8 x9 x10 x11 x12 x13 V) :
    Args x0 x1 x2 x3 x4 x5 x6 x7 x8 x9 x10 x11 x12 x13 ((binary main_v49 main_v50 main_v51 (Host.divf : (⟨S800000x1, .f32⟩ : BufTy).Contents (Elt F) → (⟨S800000x1, .f32⟩ : BufTy).Contents (Elt F) → (⟨S800000x1, .f32⟩ : BufTy).Contents (Elt F)) : HloOp τ sig (Elt F)).result V) ∧ Live61 x0 x1 x2 x3 x4 x5 x6 x7 x8 x9 x10 x11 x12 x13 ((binary main_v49 main_v50 main_v51 (Host.divf : (⟨S800000x1, .f32⟩ : BufTy).Contents (Elt F) → (⟨S800000x1, .f32⟩ : BufTy).Contents (Elt F) → (⟨S800000x1, .f32⟩ : BufTy).Contents (Elt F)) : HloOp τ sig (Elt F)).result V) := by
  refine ⟨args_step main_v51 rfl (by decide) hA, ?_⟩
  obtain ⟨h_v12, h_v49, h_v50⟩ := hL
  exact ⟨(keep main_v51 rfl (by decide)).trans h_v12,
    new_binary h_v49 h_v50 rfl⟩
theorem step61 (hA : Args x0 x1 x2 x3 x4 x5 x6 x7 x8 x9 x10 x11 x12 x13 V) (hL : Live61 x0 x1 x2 x3 x4 x5 x6 x7 x8 x9 x10 x11 x12 x13 V) :
    Args x0 x1 x2 x3 x4 x5 x6 x7 x8 x9 x10 x11 x12 x13 ((unary main_v51 main_v52 (Host.negf : (⟨S800000x1, .f32⟩ : BufTy).Contents (Elt F) → (⟨S800000x1, .f32⟩ : BufTy).Contents (Elt F)) : HloOp τ sig (Elt F)).result V) ∧ Live62 x0 x1 x2 x3 x4 x5 x6 x7 x8 x9 x10 x11 x12 x13 ((unary main_v51 main_v52 (Host.negf : (⟨S800000x1, .f32⟩ : BufTy).Contents (Elt F) → (⟨S800000x1, .f32⟩ : BufTy).Contents (Elt F)) : HloOp τ sig (Elt F)).result V) := by
  refine ⟨args_step main_v52 rfl (by decide) hA, ?_⟩
  obtain ⟨h_v12, h_v51⟩ := hL
  exact ⟨(keep main_v52 rfl (by decide)).trans h_v12,
    new_unary h_v51 rfl⟩
theorem step62 (hA : Args x0 x1 x2 x3 x4 x5 x6 x7 x8 x9 x10 x11 x12 x13 V) (hL : Live62 x0 x1 x2 x3 x4 x5 x6 x7 x8 x9 x10 x11 x12 x13 V) :
    Args x0 x1 x2 x3 x4 x5 x6 x7 x8 x9 x10 x11 x12 x13 ((unary main_v52 main_v53 (Host.exp : (⟨S800000x1, .f32⟩ : BufTy).Contents (Elt F) → (⟨S800000x1, .f32⟩ : BufTy).Contents (Elt F)) : HloOp τ sig (Elt F)).result V) ∧ Live63 x0 x1 x2 x3 x4 x5 x6 x7 x8 x9 x10 x11 x12 x13 ((unary main_v52 main_v53 (Host.exp : (⟨S800000x1, .f32⟩ : BufTy).Contents (Elt F) → (⟨S800000x1, .f32⟩ : BufTy).Contents (Elt F)) : HloOp τ sig (Elt F)).result V) := by
  refine ⟨args_step main_v53 rfl (by decide) hA, ?_⟩
  obtain ⟨h_v12, h_v52⟩ := hL
  exact ⟨(keep main_v53 rfl (by decide)).trans h_v12,
    new_unary h_v52 rfl⟩
theorem step63 (hA : Args x0 x1 x2 x3 x4 x5 x6 x7 x8 x9 x10 x11 x12 x13 V) (hL : Live63 x0 x1 x2 x3 x4 x5 x6 x7 x8 x9 x10 x11 x12 x13 V) :
    Args x0 x1 x2 x3 x4 x5 x6 x7 x8 x9 x10 x11 x12 x13 ((nullary main_cst_7 (constant S_ .f32 0x3F800000#32) : HloOp τ sig (Elt F)).result V) ∧ Live64 x0 x1 x2 x3 x4 x5 x6 x7 x8 x9 x10 x11 x12 x13 ((nullary main_cst_7 (constant S_ .f32 0x3F800000#32) : HloOp τ sig (Elt F)).result V) := by
  refine ⟨args_step main_cst_7 rfl (by decide) hA, ?_⟩
  obtain ⟨h_v12, h_v53⟩ := hL
  exact ⟨(keep main_cst_7 rfl (by decide)).trans h_v12,
    (keep main_cst_7 rfl (by decide)).trans h_v53,
    new_nullary rfl⟩
theorem step64 (hA : Args x0 x1 x2 x3 x4 x5 x6 x7 x8 x9 x10 x11 x12 x13 V) (hL : Live64 x0 x1 x2 x3 x4 x5 x6 x7 x8 x9 x10 x11 x12 x13 V) :
    Args x0 x1 x2 x3 x4 x5 x6 x7 x8 x9 x10 x11 x12 x13 ((unary main_cst_7 main_v54 (broadcastInDim S800000x1 ![] bcast_S_S800000x1 : (⟨S_, .f32⟩ : BufTy).Contents (Elt F) → (⟨S800000x1, .f32⟩ : BufTy).Contents (Elt F)) : HloOp τ sig (Elt F)).result V) ∧ Live65 x0 x1 x2 x3 x4 x5 x6 x7 x8 x9 x10 x11 x12 x13 ((unary main_cst_7 main_v54 (broadcastInDim S800000x1 ![] bcast_S_S800000x1 : (⟨S_, .f32⟩ : BufTy).Contents (Elt F) → (⟨S800000x1, .f32⟩ : BufTy).Contents (Elt F)) : HloOp τ sig (Elt F)).result V) := by
  refine ⟨args_step main_v54 rfl (by decide) hA, ?_⟩
  obtain ⟨h_v12, h_v53, h_cst_7⟩ := hL
  exact ⟨(keep main_v54 rfl (by decide)).trans h_v12,
    (keep main_v54 rfl (by decide)).trans h_v53,
    new_unary h_cst_7 rfl⟩
theorem step65 (hA : Args x0 x1 x2 x3 x4 x5 x6 x7 x8 x9 x10 x11 x12 x13 V) (hL : Live65 x0 x1 x2 x3 x4 x5 x6 x7 x8 x9 x10 x11 x12 x13 V) :
    Args x0 x1 x2 x3 x4 x5 x6 x7 x8 x9 x10 x11 x12 x13 ((binary main_v54 main_v53 main_v55 (addf : (⟨S800000x1, .f32⟩ : BufTy).Contents (Elt F) → (⟨S800000x1, .f32⟩ : BufTy).Contents (Elt F) → (⟨S800000x1, .f32⟩ : BufTy).Contents (Elt F)) : HloOp τ sig (Elt F)).result V) ∧ Live66 x0 x1 x2 x3 x4 x5 x6 x7 x8 x9 x10 x11 x12 x13 ((binary main_v54 main_v53 main_v55 (addf : (⟨S800000x1, .f32⟩ : BufTy).Contents (Elt F) → (⟨S800000x1, .f32⟩ : BufTy).Contents (Elt F) → (⟨S800000x1, .f32⟩ : BufTy).Contents (Elt F)) : HloOp τ sig (Elt F)).result V) := by
  refine ⟨args_step main_v55 rfl (by decide) hA, ?_⟩
  obtain ⟨h_v12, h_v53, h_v54⟩ := hL
  exact ⟨(keep main_v55 rfl (by decide)).trans h_v12,
    new_binary h_v54 h_v53 rfl⟩
theorem step66 (hA : Args x0 x1 x2 x3 x4 x5 x6 x7 x8 x9 x10 x11 x12 x13 V) (hL : Live66 x0 x1 x2 x3 x4 x5 x6 x7 x8 x9 x10 x11 x12 x13 V) :
    Args x0 x1 x2 x3 x4 x5 x6 x7 x8 x9 x10 x11 x12 x13 ((nullary main_cst_8 (constant S_ .f32 0x3F800000#32) : HloOp τ sig (Elt F)).result V) ∧ Live67 x0 x1 x2 x3 x4 x5 x6 x7 x8 x9 x10 x11 x12 x13 ((nullary main_cst_8 (constant S_ .f32 0x3F800000#32) : HloOp τ sig (Elt F)).result V) := by
  refine ⟨args_step main_cst_8 rfl (by decide) hA, ?_⟩
  obtain ⟨h_v12, h_v55⟩ := hL
  exact ⟨(keep main_cst_8 rfl (by decide)).trans h_v12,
    (keep main_cst_8 rfl (by decide)).trans h_v55,
    new_nullary rfl⟩
theorem step67 (hA : Args x0 x1 x2 x3 x4 x5 x6 x7 x8 x9 x10 x11 x12 x13 V) (hL : Live67 x0 x1 x2 x3 x4 x5 x6 x7 x8 x9 x10 x11 x12 x13 V) :
    Args x0 x1 x2 x3 x4 x5 x6 x7 x8 x9 x10 x11 x12 x13 ((unary main_cst_8 main_v56 (broadcastInDim S800000x1 ![] bcast_S_S800000x1 : (⟨S_, .f32⟩ : BufTy).Contents (Elt F) → (⟨S800000x1, .f32⟩ : BufTy).Contents (Elt F)) : HloOp τ sig (Elt F)).result V) ∧ Live68 x0 x1 x2 x3 x4 x5 x6 x7 x8 x9 x10 x11 x12 x13 ((unary main_cst_8 main_v56 (broadcastInDim S800000x1 ![] bcast_S_S800000x1 : (⟨S_, .f32⟩ : BufTy).Contents (Elt F) → (⟨S800000x1, .f32⟩ : BufTy).Contents (Elt F)) : HloOp τ sig (Elt F)).result V) := by
  refine ⟨args_step main_v56 rfl (by decide) hA, ?_⟩
  obtain ⟨h_v12, h_v55, h_cst_8⟩ := hL
  exact ⟨(keep main_v56 rfl (by decide)).trans h_v12,
    (keep main_v56 rfl (by decide)).trans h_v55,
    new_unary h_cst_8 rfl⟩
theorem step68 (hA : Args x0 x1 x2 x3 x4 x5 x6 x7 x8 x9 x10 x11 x12 x13 V) (hL : Live68 x0 x1 x2 x3 x4 x5 x6 x7 x8 x9 x10 x11 x12 x13 V) :
    Args x0 x1 x2 x3 x4 x5 x6 x7 x8 x9 x10 x11 x12 x13 ((binary main_v56 main_v55 main_v57 (Host.divf : (⟨S800000x1, .f32⟩ : BufTy).Contents (Elt F) → (⟨S800000x1, .f32⟩ : BufTy).Contents (Elt F) → (⟨S800000x1, .f32⟩ : BufTy).Contents (Elt F)) : HloOp τ sig (Elt F)).result V) ∧ Live69 x0 x1 x2 x3 x4 x5 x6 x7 x8 x9 x10 x11 x12 x13 ((binary main_v56 main_v55 main_v57 (Host.divf : (⟨S800000x1, .f32⟩ : BufTy).Contents (Elt F) → (⟨S800000x1, .f32⟩ : BufTy).Contents (Elt F) → (⟨S800000x1, .f32⟩ : BufTy).Contents (Elt F)) : HloOp τ sig (Elt F)).result V) := by
  refine ⟨args_step main_v57 rfl (by decide) hA, ?_⟩
  obtain ⟨h_v12, h_v55, h_v56⟩ := hL
  exact ⟨(keep main_v57 rfl (by decide)).trans h_v12,
    new_binary h_v56 h_v55 rfl⟩
theorem step69 (hA : Args x0 x1 x2 x3 x4 x5 x6 x7 x8 x9 x10 x11 x12 x13 V) (hL : Live69 x0 x1 x2 x3 x4 x5 x6 x7 x8 x9 x10 x11 x12 x13 V) :
    Args x0 x1 x2 x3 x4 x5 x6 x7 x8 x9 x10 x11 x12 x13 ((reshape main_v57 main_v58 rfl shapeCasts_S800000x1_S800000 : HloOp τ sig (Elt F)).result V) ∧ Live70 x0 x1 x2 x3 x4 x5 x6 x7 x8 x9 x10 x11 x12 x13 ((reshape main_v57 main_v58 rfl shapeCasts_S800000x1_S800000 : HloOp τ sig (Elt F)).result V) := by
  refine ⟨args_step main_v58 rfl (by decide) hA, ?_⟩
  obtain ⟨h_v12, h_v57⟩ := hL
  exact ⟨(keep main_v58 rfl (by decide)).trans h_v12,
    (by show _ = _; rw [reshape_result, h_v57]; exact rfl)⟩
theorem step70 (hA : Args x0 x1 x2 x3 x4 x5 x6 x7 x8 x9 x10 x11 x12 x13 V) (hL : Live70 x0 x1 x2 x3 x4 x5 x6 x7 x8 x9 x10 x11 x12 x13 V) :
    Args x0 x1 x2 x3 x4 x5 x6 x7 x8 x9 x10 x11 x12 x13 ((nullary main_cst_9 (constant S_ .f32 0x00000000#32) : HloOp τ sig (Elt F)).result V) ∧ Live71 x0 x1 x2 x3 x4 x5 x6 x7 x8 x9 x10 x11 x12 x13 ((nullary main_cst_9 (constant S_ .f32 0x00000000#32) : HloOp τ sig (Elt F)).result V) := by
  refine ⟨args_step main_cst_9 rfl (by decide) hA, ?_⟩
  obtain ⟨h_v12, h_v58⟩ := hL
  exact ⟨(keep main_cst_9 rfl (by decide)).trans h_v12,
    (keep main_cst_9 rfl (by decide)).trans h_v58,
    new_nullary rfl⟩
theorem step71 (hA : Args x0 x1 x2 x3 x4 x5 x6 x7 x8 x9 x10 x11 x12 x13 V) (hL : Live71 x0 x1 x2 x3 x4 x5 x6 x7 x8 x9 x10 x11 x12 x13 V) :
    Args x0 x1 x2 x3 x4 x5 x6 x7 x8 x9 x10 x11 x12 x13 ((unary main_cst_9 main_v59 (broadcastInDim S100000 ![] bcast_S_S100000 : (⟨S_, .f32⟩ : BufTy).Contents (Elt F) → (⟨S100000, .f32⟩ : BufTy).Contents (Elt F)) : HloOp τ sig (Elt F)).result V) ∧ Live72 x0 x1 x2 x3 x4 x5 x6 x7 x8 x9 x10 x11 x12 x13 ((unary main_cst_9 main_v59 (broadcastInDim S100000 ![] bcast_S_S100000 : (⟨S_, .f32⟩ : BufTy).Contents (Elt F) → (⟨S100000, .f32⟩ : BufTy).Contents (Elt F)) : HloOp τ sig (Elt F)).result V) := by
  refine ⟨args_step main_v59 rfl (by decide) hA, ?_⟩
  obtain ⟨h_v12, h_v58, h_cst_9⟩ := hL
  exact ⟨(keep main_v59 rfl (by decide)).trans h_v12,
    (keep main_v59 rfl (by decide)).trans h_v58,
    new_unary h_cst_9 rfl⟩
theorem step72 (hA : Args x0 x1 x2 x3 x4 x5 x6 x7 x8 x9 x10 x11 x12 x13 V) (hL : Live72 x0 x1 x2 x3 x4 x5 x6 x7 x8 x9 x10 x11 x12 x13 V) :
    Args x0 x1 x2 x3 x4 x5 x6 x7 x8 x9 x10 x11 x12 x13 ((unary main_arg1 main_v60 (broadcastInDim S800000x1 ![0] bcast_S800000_S800000x1_0 : (⟨S800000, .i32⟩ : BufTy).Contents (Elt F) → (⟨S800000x1, .i32⟩ : BufTy).Contents (Elt F)) : HloOp τ sig (Elt F)).result V) ∧ Live73 x0 x1 x2 x3 x4 x5 x6 x7 x8 x9 x10 x11 x12 x13 ((unary main_arg1 main_v60 (broadcastInDim S800000x1 ![0] bcast_S800000_S800000x1_0 : (⟨S800000, .i32⟩ : BufTy).Contents (Elt F) → (⟨S800000x1, .i32⟩ : BufTy).Contents (Elt F)) : HloOp τ sig (Elt F)).result V) := by
  refine ⟨args_step main_v60 rfl (by decide) hA, ?_⟩
  unfold Args at hA
  obtain ⟨a0, a1, a2, a3, a4, a5, a6, a7, a8, a9, a10, a11, a12, a13⟩ := hA
  obtain ⟨h_v12, h_v58, h_v59⟩ := hL
  exact ⟨(keep main_v60 rfl (by decide)).trans h_v12,
    (keep main_v60 rfl (by decide)).trans h_v58,
    (keep main_v60 rfl (by decide)).trans h_v59,
    new_unary a1 rfl⟩
theorem step73 (hA : Args x0 x1 x2 x3 x4 x5 x6 x7 x8 x9 x10 x11 x12 x13 V) (hL : Live73 x0 x1 x2 x3 x4 x5 x6 x7 x8 x9 x10 x11 x12 x13 V) :
    Args x0 x1 x2 x3 x4 x5 x6 x7 x8 x9 x10 x11 x12 x13 ((ternary main_v59 main_v60 main_v58 main_v61 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)) : HloOp τ sig (Elt F)).result V) ∧ Live74 x0 x1 x2 x3 x4 x5 x6 x7 x8 x9 x10 x11 x12 x13 ((ternary main_v59 main_v60 main_v58 main_v61 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)) : HloOp τ sig (Elt F)).result V) := by
  refine ⟨args_step main_v61 rfl (by decide) hA, ?_⟩
  obtain ⟨h_v12, h_v58, h_v59, h_v60⟩ := hL
  exact ⟨(keep main_v61 rfl (by decide)).trans h_v12,
    (keep main_v61 rfl (by decide)).trans h_v58,
    new_ternary h_v59 h_v60 h_v58 rfl⟩
theorem step74 (hA : Args x0 x1 x2 x3 x4 x5 x6 x7 x8 x9 x10 x11 x12 x13 V) (hL : Live74 x0 x1 x2 x3 x4 x5 x6 x7 x8 x9 x10 x11 x12 x13 V) :
    Args x0 x1 x2 x3 x4 x5 x6 x7 x8 x9 x10 x11 x12 x13 ((nullary main_cst_10 (constant S_ .f32 0x00000000#32) : HloOp τ sig (Elt F)).result V) ∧ Live75 x0 x1 x2 x3 x4 x5 x6 x7 x8 x9 x10 x11 x12 x13 ((nullary main_cst_10 (constant S_ .f32 0x00000000#32) : HloOp τ sig (Elt F)).result V) := by
  refine ⟨args_step main_cst_10 rfl (by decide) hA, ?_⟩
  obtain ⟨h_v12, h_v58, h_v61⟩ := hL
  exact ⟨(keep main_cst_10 rfl (by decide)).trans h_v12,
    (keep main_cst_10 rfl (by decide)).trans h_v58,
    (keep main_cst_10 rfl (by decide)).trans h_v61,
    new_nullary rfl⟩
theorem step75 (hA : Args x0 x1 x2 x3 x4 x5 x6 x7 x8 x9 x10 x11 x12 x13 V) (hL : Live75 x0 x1 x2 x3 x4 x5 x6 x7 x8 x9 x10 x11 x12 x13 V) :
    Args x0 x1 x2 x3 x4 x5 x6 x7 x8 x9 x10 x11 x12 x13 ((unary main_cst_10 main_v62 (broadcastInDim S100000 ![] bcast_S_S100000 : (⟨S_, .f32⟩ : BufTy).Contents (Elt F) → (⟨S100000, .f32⟩ : BufTy).Contents (Elt F)) : HloOp τ sig (Elt F)).result V) ∧ Live76 x0 x1 x2 x3 x4 x5 x6 x7 x8 x9 x10 x11 x12 x13 ((unary main_cst_10 main_v62 (broadcastInDim S100000 ![] bcast_S_S100000 : (⟨S_, .f32⟩ : BufTy).Contents (Elt F) → (⟨S100000, .f32⟩ : BufTy).Contents (Elt F)) : HloOp τ sig (Elt F)).result V) := by
  refine ⟨args_step main_v62 rfl (by decide) hA, ?_⟩
  obtain ⟨h_v12, h_v58, h_v61, h_cst_10⟩ := hL
  exact ⟨(keep main_v62 rfl (by decide)).trans h_v12,
    (keep main_v62 rfl (by decide)).trans h_v58,
    (keep main_v62 rfl (by decide)).trans h_v61,
    new_unary h_cst_10 rfl⟩
theorem step76 (hA : Args x0 x1 x2 x3 x4 x5 x6 x7 x8 x9 x10 x11 x12 x13 V) (hL : Live76 x0 x1 x2 x3 x4 x5 x6 x7 x8 x9 x10 x11 x12 x13 V) :
    Args x0 x1 x2 x3 x4 x5 x6 x7 x8 x9 x10 x11 x12 x13 ((binary main_v61 main_v62 main_v63 (cmpf .ogt : (⟨S100000, .f32⟩ : BufTy).Contents (Elt F) → (⟨S100000, .f32⟩ : BufTy).Contents (Elt F) → (⟨S100000, .i1⟩ : BufTy).Contents (Elt F)) : HloOp τ sig (Elt F)).result V) ∧ Live77 x0 x1 x2 x3 x4 x5 x6 x7 x8 x9 x10 x11 x12 x13 ((binary main_v61 main_v62 main_v63 (cmpf .ogt : (⟨S100000, .f32⟩ : BufTy).Contents (Elt F) → (⟨S100000, .f32⟩ : BufTy).Contents (Elt F) → (⟨S100000, .i1⟩ : BufTy).Contents (Elt F)) : HloOp τ sig (Elt F)).result V) := by
  refine ⟨args_step main_v63 rfl (by decide) hA, ?_⟩
  obtain ⟨h_v12, h_v58, h_v61, h_v62⟩ := hL
  exact ⟨(keep main_v63 rfl (by decide)).trans h_v12,
    (keep main_v63 rfl (by decide)).trans h_v58,
    (keep main_v63 rfl (by decide)).trans h_v61,
    new_binary h_v61 h_v62 rfl⟩
theorem step77 (hA : Args x0 x1 x2 x3 x4 x5 x6 x7 x8 x9 x10 x11 x12 x13 V) (hL : Live77 x0 x1 x2 x3 x4 x5 x6 x7 x8 x9 x10 x11 x12 x13 V) :
    Args x0 x1 x2 x3 x4 x5 x6 x7 x8 x9 x10 x11 x12 x13 ((nullary main_cst_11 (constant S_ .f32 0x3F800000#32) : HloOp τ sig (Elt F)).result V) ∧ Live78 x0 x1 x2 x3 x4 x5 x6 x7 x8 x9 x10 x11 x12 x13 ((nullary main_cst_11 (constant S_ .f32 0x3F800000#32) : HloOp τ sig (Elt F)).result V) := by
  refine ⟨args_step main_cst_11 rfl (by decide) hA, ?_⟩
  obtain ⟨h_v12, h_v58, h_v61, h_v63⟩ := hL
  exact ⟨(keep main_cst_11 rfl (by decide)).trans h_v12,
    (keep main_cst_11 rfl (by decide)).trans h_v58,
    (keep main_cst_11 rfl (by decide)).trans h_v61,
    (keep main_cst_11 rfl (by decide)).trans h_v63,
    new_nullary rfl⟩
theorem step78 (hA : Args x0 x1 x2 x3 x4 x5 x6 x7 x8 x9 x10 x11 x12 x13 V) (hL : Live78 x0 x1 x2 x3 x4 x5 x6 x7 x8 x9 x10 x11 x12 x13 V) :
    Args x0 x1 x2 x3 x4 x5 x6 x7 x8 x9 x10 x11 x12 x13 ((unary main_cst_11 main_v64 (broadcastInDim S100000 ![] bcast_S_S100000 : (⟨S_, .f32⟩ : BufTy).Contents (Elt F) → (⟨S100000, .f32⟩ : BufTy).Contents (Elt F)) : HloOp τ sig (Elt F)).result V) ∧ Live79 x0 x1 x2 x3 x4 x5 x6 x7 x8 x9 x10 x11 x12 x13 ((unary main_cst_11 main_v64 (broadcastInDim S100000 ![] bcast_S_S100000 : (⟨S_, .f32⟩ : BufTy).Contents (Elt F) → (⟨S100000, .f32⟩ : BufTy).Contents (Elt F)) : HloOp τ sig (Elt F)).result V) := by
  refine ⟨args_step main_v64 rfl (by decide) hA, ?_⟩
  obtain ⟨h_v12, h_v58, h_v61, h_v63, h_cst_11⟩ := hL
  exact ⟨(keep main_v64 rfl (by decide)).trans h_v12,
    (keep main_v64 rfl (by decide)).trans h_v58,
    (keep main_v64 rfl (by decide)).trans h_v61,
    (keep main_v64 rfl (by decide)).trans h_v63,
    new_unary h_cst_11 rfl⟩
theorem step79 (hA : Args x0 x1 x2 x3 x4 x5 x6 x7 x8 x9 x10 x11 x12 x13 V) (hL : Live79 x0 x1 x2 x3 x4 x5 x6 x7 x8 x9 x10 x11 x12 x13 V) :
    Args x0 x1 x2 x3 x4 x5 x6 x7 x8 x9 x10 x11 x12 x13 ((binary main_v64 main_v61 main_v65 (Host.divf : (⟨S100000, .f32⟩ : BufTy).Contents (Elt F) → (⟨S100000, .f32⟩ : BufTy).Contents (Elt F) → (⟨S100000, .f32⟩ : BufTy).Contents (Elt F)) : HloOp τ sig (Elt F)).result V) ∧ Live80 x0 x1 x2 x3 x4 x5 x6 x7 x8 x9 x10 x11 x12 x13 ((binary main_v64 main_v61 main_v65 (Host.divf : (⟨S100000, .f32⟩ : BufTy).Contents (Elt F) → (⟨S100000, .f32⟩ : BufTy).Contents (Elt F) → (⟨S100000, .f32⟩ : BufTy).Contents (Elt F)) : HloOp τ sig (Elt F)).result V) := by
  refine ⟨args_step main_v65 rfl (by decide) hA, ?_⟩
  obtain ⟨h_v12, h_v58, h_v61, h_v63, h_v64⟩ := hL
  exact ⟨(keep main_v65 rfl (by decide)).trans h_v12,
    (keep main_v65 rfl (by decide)).trans h_v58,
    (keep main_v65 rfl (by decide)).trans h_v63,
    new_binary h_v64 h_v61 rfl⟩
theorem step80 (hA : Args x0 x1 x2 x3 x4 x5 x6 x7 x8 x9 x10 x11 x12 x13 V) (hL : Live80 x0 x1 x2 x3 x4 x5 x6 x7 x8 x9 x10 x11 x12 x13 V) :
    Args x0 x1 x2 x3 x4 x5 x6 x7 x8 x9 x10 x11 x12 x13 ((nullary main_cst_12 (constant S_ .f32 0x00000000#32) : HloOp τ sig (Elt F)).result V) ∧ Live81 x0 x1 x2 x3 x4 x5 x6 x7 x8 x9 x10 x11 x12 x13 ((nullary main_cst_12 (constant S_ .f32 0x00000000#32) : HloOp τ sig (Elt F)).result V) := by
  refine ⟨args_step main_cst_12 rfl (by decide) hA, ?_⟩
  obtain ⟨h_v12, h_v58, h_v63, h_v65⟩ := hL
  exact ⟨(keep main_cst_12 rfl (by decide)).trans h_v12,
    (keep main_cst_12 rfl (by decide)).trans h_v58,
    (keep main_cst_12 rfl (by decide)).trans h_v63,
    (keep main_cst_12 rfl (by decide)).trans h_v65,
    new_nullary rfl⟩
theorem step81 (hA : Args x0 x1 x2 x3 x4 x5 x6 x7 x8 x9 x10 x11 x12 x13 V) (hL : Live81 x0 x1 x2 x3 x4 x5 x6 x7 x8 x9 x10 x11 x12 x13 V) :
    Args x0 x1 x2 x3 x4 x5 x6 x7 x8 x9 x10 x11 x12 x13 ((TRef.unary (TRef.of (T := ⟨S_, .f32⟩) main_cst_12) (TRef.of (T := ⟨S_, .f32⟩) main_call0_v0) id : HloOp τ sig (Elt F)).result V) ∧ Live82 x0 x1 x2 x3 x4 x5 x6 x7 x8 x9 x10 x11 x12 x13 ((TRef.unary (TRef.of (T := ⟨S_, .f32⟩) main_cst_12) (TRef.of (T := ⟨S_, .f32⟩) main_call0_v0) id : HloOp τ sig (Elt F)).result V) := by
  refine ⟨args_step main_call0_v0 rfl (by decide) hA, ?_⟩
  obtain ⟨h_v12, h_v58, h_v63, h_v65, h_cst_12⟩ := hL
  exact ⟨(keep main_call0_v0 rfl (by decide)).trans h_v12,
    (keep main_call0_v0 rfl (by decide)).trans h_v58,
    (keep main_call0_v0 rfl (by decide)).trans h_v63,
    (keep main_call0_v0 rfl (by decide)).trans h_v65,
    new_unary h_cst_12 rfl⟩
theorem step82 (hA : Args x0 x1 x2 x3 x4 x5 x6 x7 x8 x9 x10 x11 x12 x13 V) (hL : Live82 x0 x1 x2 x3 x4 x5 x6 x7 x8 x9 x10 x11 x12 x13 V) :
    Args x0 x1 x2 x3 x4 x5 x6 x7 x8 x9 x10 x11 x12 x13 ((TRef.unary (TRef.of (T := ⟨S_, .f32⟩) main_call0_v0) (TRef.of (T := ⟨S100000, .f32⟩) main_call0_v1) (broadcastInDim S100000 ![] bcast_S_S100000) : HloOp τ sig (Elt F)).result V) ∧ Live83 x0 x1 x2 x3 x4 x5 x6 x7 x8 x9 x10 x11 x12 x13 ((TRef.unary (TRef.of (T := ⟨S_, .f32⟩) main_call0_v0) (TRef.of (T := ⟨S100000, .f32⟩) main_call0_v1) (broadcastInDim S100000 ![] bcast_S_S100000) : HloOp τ sig (Elt F)).result V) := by
  refine ⟨args_step main_call0_v1 rfl (by decide) hA, ?_⟩
  obtain ⟨h_v12, h_v58, h_v63, h_v65, h_call0_v0⟩ := hL
  exact ⟨(keep main_call0_v1 rfl (by decide)).trans h_v12,
    (keep main_call0_v1 rfl (by decide)).trans h_v58,
    (keep main_call0_v1 rfl (by decide)).trans h_v63,
    (keep main_call0_v1 rfl (by decide)).trans h_v65,
    new_unary h_call0_v0 rfl⟩
theorem step83 (hA : Args x0 x1 x2 x3 x4 x5 x6 x7 x8 x9 x10 x11 x12 x13 V) (hL : Live83 x0 x1 x2 x3 x4 x5 x6 x7 x8 x9 x10 x11 x12 x13 V) :
    Args x0 x1 x2 x3 x4 x5 x6 x7 x8 x9 x10 x11 x12 x13 ((TRef.ternary (TRef.of (T := ⟨S100000, .i1⟩) main_v63) (TRef.of (T := ⟨S100000, .f32⟩) main_v65) (TRef.of (T := ⟨S100000, .f32⟩) main_call0_v1) (TRef.of (T := ⟨S100000, .f32⟩) main_v66) select : HloOp τ sig (Elt F)).result V) ∧ Live84 x0 x1 x2 x3 x4 x5 x6 x7 x8 x9 x10 x11 x12 x13 ((TRef.ternary (TRef.of (T := ⟨S100000, .i1⟩) main_v63) (TRef.of (T := ⟨S100000, .f32⟩) main_v65) (TRef.of (T := ⟨S100000, .f32⟩) main_call0_v1) (TRef.of (T := ⟨S100000, .f32⟩) main_v66) select : HloOp τ sig (Elt F)).result V) := by
  refine ⟨args_step main_v66 rfl (by decide) hA, ?_⟩
  obtain ⟨h_v12, h_v58, h_v63, h_v65, h_call0_v1⟩ := hL
  exact ⟨(keep main_v66 rfl (by decide)).trans h_v12,
    (keep main_v66 rfl (by decide)).trans h_v58,
    new_ternary h_v63 h_v65 h_call0_v1 rfl⟩
theorem step84 (hA : Args x0 x1 x2 x3 x4 x5 x6 x7 x8 x9 x10 x11 x12 x13 V) (hL : Live84 x0 x1 x2 x3 x4 x5 x6 x7 x8 x9 x10 x11 x12 x13 V) :
    Args x0 x1 x2 x3 x4 x5 x6 x7 x8 x9 x10 x11 x12 x13 ((nullary main_c_13 (constantI S_ 32 0#32) : HloOp τ sig (Elt F)).result V) ∧ Live85 x0 x1 x2 x3 x4 x5 x6 x7 x8 x9 x10 x11 x12 x13 ((nullary main_c_13 (constantI S_ 32 0#32) : HloOp τ sig (Elt F)).result V) := by
  refine ⟨args_step main_c_13 rfl (by decide) hA, ?_⟩
  obtain ⟨h_v12, h_v58, h_v66⟩ := hL
  exact ⟨(keep main_c_13 rfl (by decide)).trans h_v12,
    (keep main_c_13 rfl (by decide)).trans h_v58,
    (keep main_c_13 rfl (by decide)).trans h_v66,
    new_nullary rfl⟩
theorem step85 (hA : Args x0 x1 x2 x3 x4 x5 x6 x7 x8 x9 x10 x11 x12 x13 V) (hL : Live85 x0 x1 x2 x3 x4 x5 x6 x7 x8 x9 x10 x11 x12 x13 V) :
    Args x0 x1 x2 x3 x4 x5 x6 x7 x8 x9 x10 x11 x12 x13 ((unary main_c_13 main_v67 (broadcastInDim S800000 ![] bcast_S_S800000 : (⟨S_, .i32⟩ : BufTy).Contents (Elt F) → (⟨S800000, .i32⟩ : BufTy).Contents (Elt F)) : HloOp τ sig (Elt F)).result V) ∧ Live86 x0 x1 x2 x3 x4 x5 x6 x7 x8 x9 x10 x11 x12 x13 ((unary main_c_13 main_v67 (broadcastInDim S800000 ![] bcast_S_S800000 : (⟨S_, .i32⟩ : BufTy).Contents (Elt F) → (⟨S800000, .i32⟩ : BufTy).Contents (Elt F)) : HloOp τ sig (Elt F)).result V) := by
  refine ⟨args_step main_v67 rfl (by decide) hA, ?_⟩
  obtain ⟨h_v12, h_v58, h_v66, h_c_13⟩ := hL
  exact ⟨(keep main_v67 rfl (by decide)).trans h_v12,
    (keep main_v67 rfl (by decide)).trans h_v58,
    (keep main_v67 rfl (by decide)).trans h_v66,
    new_unary h_c_13 rfl⟩
theorem step86 (hA : Args x0 x1 x2 x3 x4 x5 x6 x7 x8 x9 x10 x11 x12 x13 V) (hL : Live86 x0 x1 x2 x3 x4 x5 x6 x7 x8 x9 x10 x11 x12 x13 V) :
    Args x0 x1 x2 x3 x4 x5 x6 x7 x8 x9 x10 x11 x12 x13 ((binary main_arg1 main_v67 main_v68 (cmpi .slt : (⟨S800000, .i32⟩ : BufTy).Contents (Elt F) → (⟨S800000, .i32⟩ : BufTy).Contents (Elt F) → (⟨S800000, .i1⟩ : BufTy).Contents (Elt F)) : HloOp τ sig (Elt F)).result V) ∧ Live87 x0 x1 x2 x3 x4 x5 x6 x7 x8 x9 x10 x11 x12 x13 ((binary main_arg1 main_v67 main_v68 (cmpi .slt : (⟨S800000, .i32⟩ : BufTy).Contents (Elt F) → (⟨S800000, .i32⟩ : BufTy).Contents (Elt F) → (⟨S800000, .i1⟩ : BufTy).Contents (Elt F)) : HloOp τ sig (Elt F)).result V) := by
  refine ⟨args_step main_v68 rfl (by decide) hA, ?_⟩
  unfold Args at hA
  obtain ⟨a0, a1, a2, a3, a4, a5, a6, a7, a8, a9, a10, a11, a12, a13⟩ := hA
  obtain ⟨h_v12, h_v58, h_v66, h_v67⟩ := hL
  exact ⟨(keep main_v68 rfl (by decide)).trans h_v12,
    (keep main_v68 rfl (by decide)).trans h_v58,
    (keep main_v68 rfl (by decide)).trans h_v66,
    new_binary a1 h_v67 rfl⟩
theorem step87 (hA : Args x0 x1 x2 x3 x4 x5 x6 x7 x8 x9 x10 x11 x12 x13 V) (hL : Live87 x0 x1 x2 x3 x4 x5 x6 x7 x8 x9 x10 x11 x12 x13 V) :
    Args x0 x1 x2 x3 x4 x5 x6 x7 x8 x9 x10 x11 x12 x13 ((nullary main_c_14 (constantI S_ 32 100000#32) : HloOp τ sig (Elt F)).result V) ∧ Live88 x0 x1 x2 x3 x4 x5 x6 x7 x8 x9 x10 x11 x12 x13 ((nullary main_c_14 (constantI S_ 32 100000#32) : HloOp τ sig (Elt F)).result V) := by
  refine ⟨args_step main_c_14 rfl (by decide) hA, ?_⟩
  obtain ⟨h_v12, h_v58, h_v66, h_v68⟩ := hL
  exact ⟨(keep main_c_14 rfl (by decide)).trans h_v12,
    (keep main_c_14 rfl (by decide)).trans h_v58,
    (keep main_c_14 rfl (by decide)).trans h_v66,
    (keep main_c_14 rfl (by decide)).trans h_v68,
    new_nullary rfl⟩
theorem step88 (hA : Args x0 x1 x2 x3 x4 x5 x6 x7 x8 x9 x10 x11 x12 x13 V) (hL : Live88 x0 x1 x2 x3 x4 x5 x6 x7 x8 x9 x10 x11 x12 x13 V) :
    Args x0 x1 x2 x3 x4 x5 x6 x7 x8 x9 x10 x11 x12 x13 ((unary main_c_14 main_v69 (broadcastInDim S800000 ![] bcast_S_S800000 : (⟨S_, .i32⟩ : BufTy).Contents (Elt F) → (⟨S800000, .i32⟩ : BufTy).Contents (Elt F)) : HloOp τ sig (Elt F)).result V) ∧ Live89 x0 x1 x2 x3 x4 x5 x6 x7 x8 x9 x10 x11 x12 x13 ((unary main_c_14 main_v69 (broadcastInDim S800000 ![] bcast_S_S800000 : (⟨S_, .i32⟩ : BufTy).Contents (Elt F) → (⟨S800000, .i32⟩ : BufTy).Contents (Elt F)) : HloOp τ sig (Elt F)).result V) := by
  refine ⟨args_step main_v69 rfl (by decide) hA, ?_⟩
  obtain ⟨h_v12, h_v58, h_v66, h_v68, h_c_14⟩ := hL
  exact ⟨(keep main_v69 rfl (by decide)).trans h_v12,
    (keep main_v69 rfl (by decide)).trans h_v58,
    (keep main_v69 rfl (by decide)).trans h_v66,
    (keep main_v69 rfl (by decide)).trans h_v68,
    new_unary h_c_14 rfl⟩
theorem step89 (hA : Args x0 x1 x2 x3 x4 x5 x6 x7 x8 x9 x10 x11 x12 x13 V) (hL : Live89 x0 x1 x2 x3 x4 x5 x6 x7 x8 x9 x10 x11 x12 x13 V) :
    Args x0 x1 x2 x3 x4 x5 x6 x7 x8 x9 x10 x11 x12 x13 ((binary main_arg1 main_v69 main_v70 (addi : (⟨S800000, .i32⟩ : BufTy).Contents (Elt F) → (⟨S800000, .i32⟩ : BufTy).Contents (Elt F) → (⟨S800000, .i32⟩ : BufTy).Contents (Elt F)) : HloOp τ sig (Elt F)).result V) ∧ Live90 x0 x1 x2 x3 x4 x5 x6 x7 x8 x9 x10 x11 x12 x13 ((binary main_arg1 main_v69 main_v70 (addi : (⟨S800000, .i32⟩ : BufTy).Contents (Elt F) → (⟨S800000, .i32⟩ : BufTy).Contents (Elt F) → (⟨S800000, .i32⟩ : BufTy).Contents (Elt F)) : HloOp τ sig (Elt F)).result V) := by
  refine ⟨args_step main_v70 rfl (by decide) hA, ?_⟩
  unfold Args at hA
  obtain ⟨a0, a1, a2, a3, a4, a5, a6, a7, a8, a9, a10, a11, a12, a13⟩ := hA
  obtain ⟨h_v12, h_v58, h_v66, h_v68, h_v69⟩ := hL
  exact ⟨(keep main_v70 rfl (by decide)).trans h_v12,
    (keep main_v70 rfl (by decide)).trans h_v58,
    (keep main_v70 rfl (by decide)).trans h_v66,
    (keep main_v70 rfl (by decide)).trans h_v68,
    new_binary a1 h_v69 rfl⟩
theorem step90 (hA : Args x0 x1 x2 x3 x4 x5 x6 x7 x8 x9 x10 x11 x12 x13 V) (hL : Live90 x0 x1 x2 x3 x4 x5 x6 x7 x8 x9 x10 x11 x12 x13 V) :
    Args x0 x1 x2 x3 x4 x5 x6 x7 x8 x9 x10 x11 x12 x13 ((ternary main_v68 main_v70 main_arg1 main_v71 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) : HloOp τ sig (Elt F)).result V) ∧ Live91 x0 x1 x2 x3 x4 x5 x6 x7 x8 x9 x10 x11 x12 x13 ((ternary main_v68 main_v70 main_arg1 main_v71 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) : HloOp τ sig (Elt F)).result V) := by
  refine ⟨args_step main_v71 rfl (by decide) hA, ?_⟩
  unfold Args at hA
  obtain ⟨a0, a1, a2, a3, a4, a5, a6, a7, a8, a9, a10, a11, a12, a13⟩ := hA
  obtain ⟨h_v12, h_v58, h_v66, h_v68, h_v70⟩ := hL
  exact ⟨(keep main_v71 rfl (by decide)).trans h_v12,
    (keep main_v71 rfl (by decide)).trans h_v58,
    (keep main_v71 rfl (by decide)).trans h_v66,
    new_ternary h_v68 h_v70 a1 rfl⟩
theorem step91 (hA : Args x0 x1 x2 x3 x4 x5 x6 x7 x8 x9 x10 x11 x12 x13 V) (hL : Live91 x0 x1 x2 x3 x4 x5 x6 x7 x8 x9 x10 x11 x12 x13 V) :
    Args x0 x1 x2 x3 x4 x5 x6 x7 x8 x9 x10 x11 x12 x13 ((unary main_v71 main_v72 (broadcastInDim S800000x1 ![0] bcast_S800000_S800000x1_0 : (⟨S800000, .i32⟩ : BufTy).Contents (Elt F) → (⟨S800000x1, .i32⟩ : BufTy).Contents (Elt F)) : HloOp τ sig (Elt F)).result V) ∧ Live92 x0 x1 x2 x3 x4 x5 x6 x7 x8 x9 x10 x11 x12 x13 ((unary main_v71 main_v72 (broadcastInDim S800000x1 ![0] bcast_S800000_S800000x1_0 : (⟨S800000, .i32⟩ : BufTy).Contents (Elt F) → (⟨S800000x1, .i32⟩ : BufTy).Contents (Elt F)) : HloOp τ sig (Elt F)).result V) := by
  refine ⟨args_step main_v72 rfl (by decide) hA, ?_⟩
  obtain ⟨h_v12, h_v58, h_v66, h_v71⟩ := hL
  exact ⟨(keep main_v72 rfl (by decide)).trans h_v12,
    (keep main_v72 rfl (by decide)).trans h_v58,
    (keep main_v72 rfl (by decide)).trans h_v66,
    new_unary h_v71 rfl⟩
theorem step92 (hA : Args x0 x1 x2 x3 x4 x5 x6 x7 x8 x9 x10 x11 x12 x13 V) (hL : Live92 x0 x1 x2 x3 x4 x5 x6 x7 x8 x9 x10 x11 x12 x13 V) :
    Args x0 x1 x2 x3 x4 x5 x6 x7 x8 x9 x10 x11 x12 x13 ((binary main_v66 main_v72 main_v73 ((fun x i => Host.gather gather_S100000_S800000x1_S800000_n_0_n_n_0_1_1 x i) : (⟨S100000, .f32⟩ : BufTy).Contents (Elt F) → (⟨S800000x1, .i32⟩ : BufTy).Contents (Elt F) → (⟨S800000, .f32⟩ : BufTy).Contents (Elt F)) : HloOp τ sig (Elt F)).result V) ∧ Live93 x0 x1 x2 x3 x4 x5 x6 x7 x8 x9 x10 x11 x12 x13 ((binary main_v66 main_v72 main_v73 ((fun x i => Host.gather gather_S100000_S800000x1_S800000_n_0_n_n_0_1_1 x i) : (⟨S100000, .f32⟩ : BufTy).Contents (Elt F) → (⟨S800000x1, .i32⟩ : BufTy).Contents (Elt F) → (⟨S800000, .f32⟩ : BufTy).Contents (Elt F)) : HloOp τ sig (Elt F)).result V) := by
  refine ⟨args_step main_v73 rfl (by decide) hA, ?_⟩
  obtain ⟨h_v12, h_v58, h_v66, h_v72⟩ := hL
  exact ⟨(keep main_v73 rfl (by decide)).trans h_v12,
    (keep main_v73 rfl (by decide)).trans h_v58,
    new_binary h_v66 h_v72 rfl⟩
theorem step93 (hA : Args x0 x1 x2 x3 x4 x5 x6 x7 x8 x9 x10 x11 x12 x13 V) (hL : Live93 x0 x1 x2 x3 x4 x5 x6 x7 x8 x9 x10 x11 x12 x13 V) :
    Args x0 x1 x2 x3 x4 x5 x6 x7 x8 x9 x10 x11 x12 x13 ((binary main_v73 main_v58 main_v74 (mulf : (⟨S800000, .f32⟩ : BufTy).Contents (Elt F) → (⟨S800000, .f32⟩ : BufTy).Contents (Elt F) → (⟨S800000, .f32⟩ : BufTy).Contents (Elt F)) : HloOp τ sig (Elt F)).result V) ∧ Live94 x0 x1 x2 x3 x4 x5 x6 x7 x8 x9 x10 x11 x12 x13 ((binary main_v73 main_v58 main_v74 (mulf : (⟨S800000, .f32⟩ : BufTy).Contents (Elt F) → (⟨S800000, .f32⟩ : BufTy).Contents (Elt F) → (⟨S800000, .f32⟩ : BufTy).Contents (Elt F)) : HloOp τ sig (Elt F)).result V) := by
  refine ⟨args_step main_v74 rfl (by decide) hA, ?_⟩
  obtain ⟨h_v12, h_v58, h_v73⟩ := hL
  exact ⟨(keep main_v74 rfl (by decide)).trans h_v12,
    new_binary h_v73 h_v58 rfl⟩
theorem step94 (hA : Args x0 x1 x2 x3 x4 x5 x6 x7 x8 x9 x10 x11 x12 x13 V) (hL : Live94 x0 x1 x2 x3 x4 x5 x6 x7 x8 x9 x10 x11 x12 x13 V) :
    Args x0 x1 x2 x3 x4 x5 x6 x7 x8 x9 x10 x11 x12 x13 ((unary main_v74 main_v75 (broadcastInDim S800000x1 ![0] bcast_S800000_S800000x1_0 : (⟨S800000, .f32⟩ : BufTy).Contents (Elt F) → (⟨S800000x1, .f32⟩ : BufTy).Contents (Elt F)) : HloOp τ sig (Elt F)).result V) ∧ Live95 x0 x1 x2 x3 x4 x5 x6 x7 x8 x9 x10 x11 x12 x13 ((unary main_v74 main_v75 (broadcastInDim S800000x1 ![0] bcast_S800000_S800000x1_0 : (⟨S800000, .f32⟩ : BufTy).Contents (Elt F) → (⟨S800000x1, .f32⟩ : BufTy).Contents (Elt F)) : HloOp τ sig (Elt F)).result V) := by
  refine ⟨args_step main_v75 rfl (by decide) hA, ?_⟩
  obtain ⟨h_v12, h_v74⟩ := hL
  exact ⟨(keep main_v75 rfl (by decide)).trans h_v12,
    new_unary h_v74 rfl⟩
theorem step95 (hA : Args x0 x1 x2 x3 x4 x5 x6 x7 x8 x9 x10 x11 x12 x13 V) (hL : Live95 x0 x1 x2 x3 x4 x5 x6 x7 x8 x9 x10 x11 x12 x13 V) :
    Args x0 x1 x2 x3 x4 x5 x6 x7 x8 x9 x10 x11 x12 x13 ((nullary main_c_15 (constantI S_ 32 0#32) : HloOp τ sig (Elt F)).result V) ∧ Live96 x0 x1 x2 x3 x4 x5 x6 x7 x8 x9 x10 x11 x12 x13 ((nullary main_c_15 (constantI S_ 32 0#32) : HloOp τ sig (Elt F)).result V) := by
  refine ⟨args_step main_c_15 rfl (by decide) hA, ?_⟩
  obtain ⟨h_v12, h_v75⟩ := hL
  exact ⟨(keep main_c_15 rfl (by decide)).trans h_v12,
    (keep main_c_15 rfl (by decide)).trans h_v75,
    new_nullary rfl⟩
theorem step96 (hA : Args x0 x1 x2 x3 x4 x5 x6 x7 x8 x9 x10 x11 x12 x13 V) (hL : Live96 x0 x1 x2 x3 x4 x5 x6 x7 x8 x9 x10 x11 x12 x13 V) :
    Args x0 x1 x2 x3 x4 x5 x6 x7 x8 x9 x10 x11 x12 x13 ((unary main_c_15 main_v76 (broadcastInDim S800000 ![] bcast_S_S800000 : (⟨S_, .i32⟩ : BufTy).Contents (Elt F) → (⟨S800000, .i32⟩ : BufTy).Contents (Elt F)) : HloOp τ sig (Elt F)).result V) ∧ Live97 x0 x1 x2 x3 x4 x5 x6 x7 x8 x9 x10 x11 x12 x13 ((unary main_c_15 main_v76 (broadcastInDim S800000 ![] bcast_S_S800000 : (⟨S_, .i32⟩ : BufTy).Contents (Elt F) → (⟨S800000, .i32⟩ : BufTy).Contents (Elt F)) : HloOp τ sig (Elt F)).result V) := by
  refine ⟨args_step main_v76 rfl (by decide) hA, ?_⟩
  obtain ⟨h_v12, h_v75, h_c_15⟩ := hL
  exact ⟨(keep main_v76 rfl (by decide)).trans h_v12,
    (keep main_v76 rfl (by decide)).trans h_v75,
    new_unary h_c_15 rfl⟩
theorem step97 (hA : Args x0 x1 x2 x3 x4 x5 x6 x7 x8 x9 x10 x11 x12 x13 V) (hL : Live97 x0 x1 x2 x3 x4 x5 x6 x7 x8 x9 x10 x11 x12 x13 V) :
    Args x0 x1 x2 x3 x4 x5 x6 x7 x8 x9 x10 x11 x12 x13 ((binary main_arg2 main_v76 main_v77 (cmpi .slt : (⟨S800000, .i32⟩ : BufTy).Contents (Elt F) → (⟨S800000, .i32⟩ : BufTy).Contents (Elt F) → (⟨S800000, .i1⟩ : BufTy).Contents (Elt F)) : HloOp τ sig (Elt F)).result V) ∧ Live98 x0 x1 x2 x3 x4 x5 x6 x7 x8 x9 x10 x11 x12 x13 ((binary main_arg2 main_v76 main_v77 (cmpi .slt : (⟨S800000, .i32⟩ : BufTy).Contents (Elt F) → (⟨S800000, .i32⟩ : BufTy).Contents (Elt F) → (⟨S800000, .i1⟩ : BufTy).Contents (Elt F)) : HloOp τ sig (Elt F)).result V) := by
  refine ⟨args_step main_v77 rfl (by decide) hA, ?_⟩
  unfold Args at hA
  obtain ⟨a0, a1, a2, a3, a4, a5, a6, a7, a8, a9, a10, a11, a12, a13⟩ := hA
  obtain ⟨h_v12, h_v75, h_v76⟩ := hL
  exact ⟨(keep main_v77 rfl (by decide)).trans h_v12,
    (keep main_v77 rfl (by decide)).trans h_v75,
    new_binary a2 h_v76 rfl⟩
theorem step98 (hA : Args x0 x1 x2 x3 x4 x5 x6 x7 x8 x9 x10 x11 x12 x13 V) (hL : Live98 x0 x1 x2 x3 x4 x5 x6 x7 x8 x9 x10 x11 x12 x13 V) :
    Args x0 x1 x2 x3 x4 x5 x6 x7 x8 x9 x10 x11 x12 x13 ((nullary main_c_16 (constantI S_ 32 100000#32) : HloOp τ sig (Elt F)).result V) ∧ Live99 x0 x1 x2 x3 x4 x5 x6 x7 x8 x9 x10 x11 x12 x13 ((nullary main_c_16 (constantI S_ 32 100000#32) : HloOp τ sig (Elt F)).result V) := by
  refine ⟨args_step main_c_16 rfl (by decide) hA, ?_⟩
  obtain ⟨h_v12, h_v75, h_v77⟩ := hL
  exact ⟨(keep main_c_16 rfl (by decide)).trans h_v12,
    (keep main_c_16 rfl (by decide)).trans h_v75,
    (keep main_c_16 rfl (by decide)).trans h_v77,
    new_nullary rfl⟩
theorem step99 (hA : Args x0 x1 x2 x3 x4 x5 x6 x7 x8 x9 x10 x11 x12 x13 V) (hL : Live99 x0 x1 x2 x3 x4 x5 x6 x7 x8 x9 x10 x11 x12 x13 V) :
    Args x0 x1 x2 x3 x4 x5 x6 x7 x8 x9 x10 x11 x12 x13 ((unary main_c_16 main_v78 (broadcastInDim S800000 ![] bcast_S_S800000 : (⟨S_, .i32⟩ : BufTy).Contents (Elt F) → (⟨S800000, .i32⟩ : BufTy).Contents (Elt F)) : HloOp τ sig (Elt F)).result V) ∧ Live100 x0 x1 x2 x3 x4 x5 x6 x7 x8 x9 x10 x11 x12 x13 ((unary main_c_16 main_v78 (broadcastInDim S800000 ![] bcast_S_S800000 : (⟨S_, .i32⟩ : BufTy).Contents (Elt F) → (⟨S800000, .i32⟩ : BufTy).Contents (Elt F)) : HloOp τ sig (Elt F)).result V) := by
  refine ⟨args_step main_v78 rfl (by decide) hA, ?_⟩
  obtain ⟨h_v12, h_v75, h_v77, h_c_16⟩ := hL
  exact ⟨(keep main_v78 rfl (by decide)).trans h_v12,
    (keep main_v78 rfl (by decide)).trans h_v75,
    (keep main_v78 rfl (by decide)).trans h_v77,
    new_unary h_c_16 rfl⟩
theorem step100 (hA : Args x0 x1 x2 x3 x4 x5 x6 x7 x8 x9 x10 x11 x12 x13 V) (hL : Live100 x0 x1 x2 x3 x4 x5 x6 x7 x8 x9 x10 x11 x12 x13 V) :
    Args x0 x1 x2 x3 x4 x5 x6 x7 x8 x9 x10 x11 x12 x13 ((binary main_arg2 main_v78 main_v79 (addi : (⟨S800000, .i32⟩ : BufTy).Contents (Elt F) → (⟨S800000, .i32⟩ : BufTy).Contents (Elt F) → (⟨S800000, .i32⟩ : BufTy).Contents (Elt F)) : HloOp τ sig (Elt F)).result V) ∧ Live101 x0 x1 x2 x3 x4 x5 x6 x7 x8 x9 x10 x11 x12 x13 ((binary main_arg2 main_v78 main_v79 (addi : (⟨S800000, .i32⟩ : BufTy).Contents (Elt F) → (⟨S800000, .i32⟩ : BufTy).Contents (Elt F) → (⟨S800000, .i32⟩ : BufTy).Contents (Elt F)) : HloOp τ sig (Elt F)).result V) := by
  refine ⟨args_step main_v79 rfl (by decide) hA, ?_⟩
  unfold Args at hA
  obtain ⟨a0, a1, a2, a3, a4, a5, a6, a7, a8, a9, a10, a11, a12, a13⟩ := hA
  obtain ⟨h_v12, h_v75, h_v77, h_v78⟩ := hL
  exact ⟨(keep main_v79 rfl (by decide)).trans h_v12,
    (keep main_v79 rfl (by decide)).trans h_v75,
    (keep main_v79 rfl (by decide)).trans h_v77,
    new_binary a2 h_v78 rfl⟩
theorem step101 (hA : Args x0 x1 x2 x3 x4 x5 x6 x7 x8 x9 x10 x11 x12 x13 V) (hL : Live101 x0 x1 x2 x3 x4 x5 x6 x7 x8 x9 x10 x11 x12 x13 V) :
    Args x0 x1 x2 x3 x4 x5 x6 x7 x8 x9 x10 x11 x12 x13 ((ternary main_v77 main_v79 main_arg2 main_v80 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) : HloOp τ sig (Elt F)).result V) ∧ Live102 x0 x1 x2 x3 x4 x5 x6 x7 x8 x9 x10 x11 x12 x13 ((ternary main_v77 main_v79 main_arg2 main_v80 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) : HloOp τ sig (Elt F)).result V) := by
  refine ⟨args_step main_v80 rfl (by decide) hA, ?_⟩
  unfold Args at hA
  obtain ⟨a0, a1, a2, a3, a4, a5, a6, a7, a8, a9, a10, a11, a12, a13⟩ := hA
  obtain ⟨h_v12, h_v75, h_v77, h_v79⟩ := hL
  exact ⟨(keep main_v80 rfl (by decide)).trans h_v12,
    (keep main_v80 rfl (by decide)).trans h_v75,
    new_ternary h_v77 h_v79 a2 rfl⟩
theorem step102 (hA : Args x0 x1 x2 x3 x4 x5 x6 x7 x8 x9 x10 x11 x12 x13 V) (hL : Live102 x0 x1 x2 x3 x4 x5 x6 x7 x8 x9 x10 x11 x12 x13 V) :
    Args x0 x1 x2 x3 x4 x5 x6 x7 x8 x9 x10 x11 x12 x13 ((unary main_v80 main_v81 (broadcastInDim S800000x1 ![0] bcast_S800000_S800000x1_0 : (⟨S800000, .i32⟩ : BufTy).Contents (Elt F) → (⟨S800000x1, .i32⟩ : BufTy).Contents (Elt F)) : HloOp τ sig (Elt F)).result V) ∧ Live103 x0 x1 x2 x3 x4 x5 x6 x7 x8 x9 x10 x11 x12 x13 ((unary main_v80 main_v81 (broadcastInDim S800000x1 ![0] bcast_S800000_S800000x1_0 : (⟨S800000, .i32⟩ : BufTy).Contents (Elt F) → (⟨S800000x1, .i32⟩ : BufTy).Contents (Elt F)) : HloOp τ sig (Elt F)).result V) := by
  refine ⟨args_step main_v81 rfl (by decide) hA, ?_⟩
  obtain ⟨h_v12, h_v75, h_v80⟩ := hL
  exact ⟨(keep main_v81 rfl (by decide)).trans h_v12,
    (keep main_v81 rfl (by decide)).trans h_v75,
    new_unary h_v80 rfl⟩
theorem step103 (hA : Args x0 x1 x2 x3 x4 x5 x6 x7 x8 x9 x10 x11 x12 x13 V) (hL : Live103 x0 x1 x2 x3 x4 x5 x6 x7 x8 x9 x10 x11 x12 x13 V) :
    Args x0 x1 x2 x3 x4 x5 x6 x7 x8 x9 x10 x11 x12 x13 ((binary main_arg0 main_v81 main_v82 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)) : HloOp τ sig (Elt F)).result V) ∧ Live104 x0 x1 x2 x3 x4 x5 x6 x7 x8 x9 x10 x11 x12 x13 ((binary main_arg0 main_v81 main_v82 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)) : HloOp τ sig (Elt F)).result V) := by
  refine ⟨args_step main_v82 rfl (by decide) hA, ?_⟩
  unfold Args at hA
  obtain ⟨a0, a1, a2, a3, a4, a5, a6, a7, a8, a9, a10, a11, a12, a13⟩ := hA
  obtain ⟨h_v12, h_v75, h_v81⟩ := hL
  exact ⟨(keep main_v82 rfl (by decide)).trans h_v12,
    (keep main_v82 rfl (by decide)).trans h_v75,
    new_binary a0 h_v81 rfl⟩
theorem step104 (hA : Args x0 x1 x2 x3 x4 x5 x6 x7 x8 x9 x10 x11 x12 x13 V) (hL : Live104 x0 x1 x2 x3 x4 x5 x6 x7 x8 x9 x10 x11 x12 x13 V) :
    Args x0 x1 x2 x3 x4 x5 x6 x7 x8 x9 x10 x11 x12 x13 ((unary main_v75 main_v83 (broadcastInDim S800000x64 ![0, 1] bcast_S800000x1_S800000x64_0_1 : (⟨S800000x1, .f32⟩ : BufTy).Contents (Elt F) → (⟨S800000x64, .f32⟩ : BufTy).Contents (Elt F)) : HloOp τ sig (Elt F)).result V) ∧ Live105 x0 x1 x2 x3 x4 x5 x6 x7 x8 x9 x10 x11 x12 x13 ((unary main_v75 main_v83 (broadcastInDim S800000x64 ![0, 1] bcast_S800000x1_S800000x64_0_1 : (⟨S800000x1, .f32⟩ : BufTy).Contents (Elt F) → (⟨S800000x64, .f32⟩ : BufTy).Contents (Elt F)) : HloOp τ sig (Elt F)).result V) := by
  refine ⟨args_step main_v83 rfl (by decide) hA, ?_⟩
  obtain ⟨h_v12, h_v75, h_v82⟩ := hL
  exact ⟨(keep main_v83 rfl (by decide)).trans h_v12,
    (keep main_v83 rfl (by decide)).trans h_v82,
    new_unary h_v75 rfl⟩
theorem step105 (hA : Args x0 x1 x2 x3 x4 x5 x6 x7 x8 x9 x10 x11 x12 x13 V) (hL : Live105 x0 x1 x2 x3 x4 x5 x6 x7 x8 x9 x10 x11 x12 x13 V) :
    Args x0 x1 x2 x3 x4 x5 x6 x7 x8 x9 x10 x11 x12 x13 ((binary main_v83 main_v82 main_v84 (mulf : (⟨S800000x64, .f32⟩ : BufTy).Contents (Elt F) → (⟨S800000x64, .f32⟩ : BufTy).Contents (Elt F) → (⟨S800000x64, .f32⟩ : BufTy).Contents (Elt F)) : HloOp τ sig (Elt F)).result V) ∧ Live106 x0 x1 x2 x3 x4 x5 x6 x7 x8 x9 x10 x11 x12 x13 ((binary main_v83 main_v82 main_v84 (mulf : (⟨S800000x64, .f32⟩ : BufTy).Contents (Elt F) → (⟨S800000x64, .f32⟩ : BufTy).Contents (Elt F) → (⟨S800000x64, .f32⟩ : BufTy).Contents (Elt F)) : HloOp τ sig (Elt F)).result V) := by
  refine ⟨args_step main_v84 rfl (by decide) hA, ?_⟩
  obtain ⟨h_v12, h_v82, h_v83⟩ := hL
  exact ⟨(keep main_v84 rfl (by decide)).trans h_v12,
    new_binary h_v83 h_v82 rfl⟩
theorem step106 (hA : Args x0 x1 x2 x3 x4 x5 x6 x7 x8 x9 x10 x11 x12 x13 V) (hL : Live106 x0 x1 x2 x3 x4 x5 x6 x7 x8 x9 x10 x11 x12 x13 V) :
    Args x0 x1 x2 x3 x4 x5 x6 x7 x8 x9 x10 x11 x12 x13 ((nullary main_cst_17 (constant S_ .f32 0x00000000#32) : HloOp τ sig (Elt F)).result V) ∧ Live107 x0 x1 x2 x3 x4 x5 x6 x7 x8 x9 x10 x11 x12 x13 ((nullary main_cst_17 (constant S_ .f32 0x00000000#32) : HloOp τ sig (Elt F)).result V) := by
  refine ⟨args_step main_cst_17 rfl (by decide) hA, ?_⟩
  obtain ⟨h_v12, h_v84⟩ := hL
  exact ⟨(keep main_cst_17 rfl (by decide)).trans h_v12,
    (keep main_cst_17 rfl (by decide)).trans h_v84,
    new_nullary rfl⟩
theorem step107 (hA : Args x0 x1 x2 x3 x4 x5 x6 x7 x8 x9 x10 x11 x12 x13 V) (hL : Live107 x0 x1 x2 x3 x4 x5 x6 x7 x8 x9 x10 x11 x12 x13 V) :
    Args x0 x1 x2 x3 x4 x5 x6 x7 x8 x9 x10 x11 x12 x13 ((unary main_cst_17 main_v85 (broadcastInDim S100000x64 ![] bcast_S_S100000x64 : (⟨S_, .f32⟩ : BufTy).Contents (Elt F) → (⟨S100000x64, .f32⟩ : BufTy).Contents (Elt F)) : HloOp τ sig (Elt F)).result V) ∧ Live108 x0 x1 x2 x3 x4 x5 x6 x7 x8 x9 x10 x11 x12 x13 ((unary main_cst_17 main_v85 (broadcastInDim S100000x64 ![] bcast_S_S100000x64 : (⟨S_, .f32⟩ : BufTy).Contents (Elt F) → (⟨S100000x64, .f32⟩ : BufTy).Contents (Elt F)) : HloOp τ sig (Elt F)).result V) := by
  refine ⟨args_step main_v85 rfl (by decide) hA, ?_⟩
  obtain ⟨h_v12, h_v84, h_cst_17⟩ := hL
  exact ⟨(keep main_v85 rfl (by decide)).trans h_v12,
    (keep main_v85 rfl (by decide)).trans h_v84,
    new_unary h_cst_17 rfl⟩
theorem step108 (hA : Args x0 x1 x2 x3 x4 x5 x6 x7 x8 x9 x10 x11 x12 x13 V) (hL : Live108 x0 x1 x2 x3 x4 x5 x6 x7 x8 x9 x10 x11 x12 x13 V) :
    Args x0 x1 x2 x3 x4 x5 x6 x7 x8 x9 x10 x11 x12 x13 ((unary main_arg1 main_v86 (broadcastInDim S800000x1 ![0] bcast_S800000_S800000x1_0 : (⟨S800000, .i32⟩ : BufTy).Contents (Elt F) → (⟨S800000x1, .i32⟩ : BufTy).Contents (Elt F)) : HloOp τ sig (Elt F)).result V) ∧ Live109 x0 x1 x2 x3 x4 x5 x6 x7 x8 x9 x10 x11 x12 x13 ((unary main_arg1 main_v86 (broadcastInDim S800000x1 ![0] bcast_S800000_S800000x1_0 : (⟨S800000, .i32⟩ : BufTy).Contents (Elt F) → (⟨S800000x1, .i32⟩ : BufTy).Contents (Elt F)) : HloOp τ sig (Elt F)).result V) := by
  refine ⟨args_step main_v86 rfl (by decide) hA, ?_⟩
  unfold Args at hA
  obtain ⟨a0, a1, a2, a3, a4, a5, a6, a7, a8, a9, a10, a11, a12, a13⟩ := hA
  obtain ⟨h_v12, h_v84, h_v85⟩ := hL
  exact ⟨(keep main_v86 rfl (by decide)).trans h_v12,
    (keep main_v86 rfl (by decide)).trans h_v84,
    (keep main_v86 rfl (by decide)).trans h_v85,
    new_unary a1 rfl⟩
theorem step109 (hA : Args x0 x1 x2 x3 x4 x5 x6 x7 x8 x9 x10 x11 x12 x13 V) (hL : Live109 x0 x1 x2 x3 x4 x5 x6 x7 x8 x9 x10 x11 x12 x13 V) :
    Args x0 x1 x2 x3 x4 x5 x6 x7 x8 x9 x10 x11 x12 x13 ((ternary main_v85 main_v86 main_v84 main_v87 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)) : HloOp τ sig (Elt F)).result V) ∧ Live110 x0 x1 x2 x3 x4 x5 x6 x7 x8 x9 x10 x11 x12 x13 ((ternary main_v85 main_v86 main_v84 main_v87 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)) : HloOp τ sig (Elt F)).result V) := by
  refine ⟨args_step main_v87 rfl (by decide) hA, ?_⟩
  obtain ⟨h_v12, h_v84, h_v85, h_v86⟩ := hL
  exact ⟨(keep main_v87 rfl (by decide)).trans h_v12,
    new_ternary h_v85 h_v86 h_v84 rfl⟩
theorem step110 (hA : Args x0 x1 x2 x3 x4 x5 x6 x7 x8 x9 x10 x11 x12 x13 V) (hL : Live110 x0 x1 x2 x3 x4 x5 x6 x7 x8 x9 x10 x11 x12 x13 V) :
    Args x0 x1 x2 x3 x4 x5 x6 x7 x8 x9 x10 x11 x12 x13 ((unary main_arg10 main_v88 ((extractStridedSlice S1x64x64 ![0, 0, 0] · slices_S2x64x64_S1x64x64_0_0_0) : (⟨S2x64x64, .f32⟩ : BufTy).Contents (Elt F) → (⟨S1x64x64, .f32⟩ : BufTy).Contents (Elt F)) : HloOp τ sig (Elt F)).result V) ∧ Live111 x0 x1 x2 x3 x4 x5 x6 x7 x8 x9 x10 x11 x12 x13 ((unary main_arg10 main_v88 ((extractStridedSlice S1x64x64 ![0, 0, 0] · slices_S2x64x64_S1x64x64_0_0_0) : (⟨S2x64x64, .f32⟩ : BufTy).Contents (Elt F) → (⟨S1x64x64, .f32⟩ : BufTy).Contents (Elt F)) : HloOp τ sig (Elt F)).result V) := by
  refine ⟨args_step main_v88 rfl (by decide) hA, ?_⟩
  unfold Args at hA
  obtain ⟨a0, a1, a2, a3, a4, a5, a6, a7, a8, a9, a10, a11, a12, a13⟩ := hA
  obtain ⟨h_v12, h_v87⟩ := hL
  exact ⟨(keep main_v88 rfl (by decide)).trans h_v12,
    (keep main_v88 rfl (by decide)).trans h_v87,
    new_unary a10 rfl⟩
theorem step111 (hA : Args x0 x1 x2 x3 x4 x5 x6 x7 x8 x9 x10 x11 x12 x13 V) (hL : Live111 x0 x1 x2 x3 x4 x5 x6 x7 x8 x9 x10 x11 x12 x13 V) :
    Args x0 x1 x2 x3 x4 x5 x6 x7 x8 x9 x10 x11 x12 x13 ((reshape main_v88 main_v89 rfl shapeCasts_S1x64x64_S64x64 : HloOp τ sig (Elt F)).result V) ∧ Live112 x0 x1 x2 x3 x4 x5 x6 x7 x8 x9 x10 x11 x12 x13 ((reshape main_v88 main_v89 rfl shapeCasts_S1x64x64_S64x64 : HloOp τ sig (Elt F)).result V) := by
  refine ⟨args_step main_v89 rfl (by decide) hA, ?_⟩
  obtain ⟨h_v12, h_v87, h_v88⟩ := hL
  exact ⟨(keep main_v89 rfl (by decide)).trans h_v12,
    (keep main_v89 rfl (by decide)).trans h_v87,
    (by show _ = _; rw [reshape_result, h_v88]; exact rfl)⟩
theorem step112 (hA : Args x0 x1 x2 x3 x4 x5 x6 x7 x8 x9 x10 x11 x12 x13 V) (hL : Live112 x0 x1 x2 x3 x4 x5 x6 x7 x8 x9 x10 x11 x12 x13 V) :
    Args x0 x1 x2 x3 x4 x5 x6 x7 x8 x9 x10 x11 x12 x13 ((binary main_arg0 main_v89 main_v90 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) : HloOp τ sig (Elt F)).result V) ∧ Live113 x0 x1 x2 x3 x4 x5 x6 x7 x8 x9 x10 x11 x12 x13 ((binary main_arg0 main_v89 main_v90 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) : HloOp τ sig (Elt F)).result V) := by
  refine ⟨args_step main_v90 rfl (by decide) hA, ?_⟩
  unfold Args at hA
  obtain ⟨a0, a1, a2, a3, a4, a5, a6, a7, a8, a9, a10, a11, a12, a13⟩ := hA
  obtain ⟨h_v12, h_v87, h_v89⟩ := hL
  exact ⟨(keep main_v90 rfl (by decide)).trans h_v12,
    (keep main_v90 rfl (by decide)).trans h_v87,
    new_binary a0 h_v89 rfl⟩
theorem step113 (hA : Args x0 x1 x2 x3 x4 x5 x6 x7 x8 x9 x10 x11 x12 x13 V) (hL : Live113 x0 x1 x2 x3 x4 x5 x6 x7 x8 x9 x10 x11 x12 x13 V) :
    Args x0 x1 x2 x3 x4 x5 x6 x7 x8 x9 x10 x11 x12 x13 ((unary main_arg11 main_v91 ((extractStridedSlice S1x64 ![0, 0] · slices_S2x64_S1x64_0_0) : (⟨S2x64, .f32⟩ : BufTy).Contents (Elt F) → (⟨S1x64, .f32⟩ : BufTy).Contents (Elt F)) : HloOp τ sig (Elt F)).result V) ∧ Live114 x0 x1 x2 x3 x4 x5 x6 x7 x8 x9 x10 x11 x12 x13 ((unary main_arg11 main_v91 ((extractStridedSlice S1x64 ![0, 0] · slices_S2x64_S1x64_0_0) : (⟨S2x64, .f32⟩ : BufTy).Contents (Elt F) → (⟨S1x64, .f32⟩ : BufTy).Contents (Elt F)) : HloOp τ sig (Elt F)).result V) := by
  refine ⟨args_step main_v91 rfl (by decide) hA, ?_⟩
  unfold Args at hA
  obtain ⟨a0, a1, a2, a3, a4, a5, a6, a7, a8, a9, a10, a11, a12, a13⟩ := hA
  obtain ⟨h_v12, h_v87, h_v90⟩ := hL
  exact ⟨(keep main_v91 rfl (by decide)).trans h_v12,
    (keep main_v91 rfl (by decide)).trans h_v87,
    (keep main_v91 rfl (by decide)).trans h_v90,
    new_unary a11 rfl⟩
theorem step114 (hA : Args x0 x1 x2 x3 x4 x5 x6 x7 x8 x9 x10 x11 x12 x13 V) (hL : Live114 x0 x1 x2 x3 x4 x5 x6 x7 x8 x9 x10 x11 x12 x13 V) :
    Args x0 x1 x2 x3 x4 x5 x6 x7 x8 x9 x10 x11 x12 x13 ((reshape main_v91 main_v92 rfl shapeCasts_S1x64_S64 : HloOp τ sig (Elt F)).result V) ∧ Live115 x0 x1 x2 x3 x4 x5 x6 x7 x8 x9 x10 x11 x12 x13 ((reshape main_v91 main_v92 rfl shapeCasts_S1x64_S64 : HloOp τ sig (Elt F)).result V) := by
  refine ⟨args_step main_v92 rfl (by decide) hA, ?_⟩
  obtain ⟨h_v12, h_v87, h_v90, h_v91⟩ := hL
  exact ⟨(keep main_v92 rfl (by decide)).trans h_v12,
    (keep main_v92 rfl (by decide)).trans h_v87,
    (keep main_v92 rfl (by decide)).trans h_v90,
    (by show _ = _; rw [reshape_result, h_v91]; exact rfl)⟩
theorem step115 (hA : Args x0 x1 x2 x3 x4 x5 x6 x7 x8 x9 x10 x11 x12 x13 V) (hL : Live115 x0 x1 x2 x3 x4 x5 x6 x7 x8 x9 x10 x11 x12 x13 V) :
    Args x0 x1 x2 x3 x4 x5 x6 x7 x8 x9 x10 x11 x12 x13 ((unary main_v92 main_v93 (broadcastInDim S1x64 ![1] bcast_S64_S1x64_1 : (⟨S64, .f32⟩ : BufTy).Contents (Elt F) → (⟨S1x64, .f32⟩ : BufTy).Contents (Elt F)) : HloOp τ sig (Elt F)).result V) ∧ Live116 x0 x1 x2 x3 x4 x5 x6 x7 x8 x9 x10 x11 x12 x13 ((unary main_v92 main_v93 (broadcastInDim S1x64 ![1] bcast_S64_S1x64_1 : (⟨S64, .f32⟩ : BufTy).Contents (Elt F) → (⟨S1x64, .f32⟩ : BufTy).Contents (Elt F)) : HloOp τ sig (Elt F)).result V) := by
  refine ⟨args_step main_v93 rfl (by decide) hA, ?_⟩
  obtain ⟨h_v12, h_v87, h_v90, h_v92⟩ := hL
  exact ⟨(keep main_v93 rfl (by decide)).trans h_v12,
    (keep main_v93 rfl (by decide)).trans h_v87,
    (keep main_v93 rfl (by decide)).trans h_v90,
    new_unary h_v92 rfl⟩
theorem step116 (hA : Args x0 x1 x2 x3 x4 x5 x6 x7 x8 x9 x10 x11 x12 x13 V) (hL : Live116 x0 x1 x2 x3 x4 x5 x6 x7 x8 x9 x10 x11 x12 x13 V) :
    Args x0 x1 x2 x3 x4 x5 x6 x7 x8 x9 x10 x11 x12 x13 ((unary main_v93 main_v94 (broadcastInDim S100000x64 ![0, 1] bcast_S1x64_S100000x64_0_1 : (⟨S1x64, .f32⟩ : BufTy).Contents (Elt F) → (⟨S100000x64, .f32⟩ : BufTy).Contents (Elt F)) : HloOp τ sig (Elt F)).result V) ∧ Live117 x0 x1 x2 x3 x4 x5 x6 x7 x8 x9 x10 x11 x12 x13 ((unary main_v93 main_v94 (broadcastInDim S100000x64 ![0, 1] bcast_S1x64_S100000x64_0_1 : (⟨S1x64, .f32⟩ : BufTy).Contents (Elt F) → (⟨S100000x64, .f32⟩ : BufTy).Contents (Elt F)) : HloOp τ sig (Elt F)).result V) := by
  refine ⟨args_step main_v94 rfl (by decide) hA, ?_⟩
  obtain ⟨h_v12, h_v87, h_v90, h_v93⟩ := hL
  exact ⟨(keep main_v94 rfl (by decide)).trans h_v12,
    (keep main_v94 rfl (by decide)).trans h_v87,
    (keep main_v94 rfl (by decide)).trans h_v90,
    new_unary h_v93 rfl⟩
theorem step117 (hA : Args x0 x1 x2 x3 x4 x5 x6 x7 x8 x9 x10 x11 x12 x13 V) (hL : Live117 x0 x1 x2 x3 x4 x5 x6 x7 x8 x9 x10 x11 x12 x13 V) :
    Args x0 x1 x2 x3 x4 x5 x6 x7 x8 x9 x10 x11 x12 x13 ((binary main_v90 main_v94 main_v95 (addf : (⟨S100000x64, .f32⟩ : BufTy).Contents (Elt F) → (⟨S100000x64, .f32⟩ : BufTy).Contents (Elt F) → (⟨S100000x64, .f32⟩ : BufTy).Contents (Elt F)) : HloOp τ sig (Elt F)).result V) ∧ Live118 x0 x1 x2 x3 x4 x5 x6 x7 x8 x9 x10 x11 x12 x13 ((binary main_v90 main_v94 main_v95 (addf : (⟨S100000x64, .f32⟩ : BufTy).Contents (Elt F) → (⟨S100000x64, .f32⟩ : BufTy).Contents (Elt F) → (⟨S100000x64, .f32⟩ : BufTy).Contents (Elt F)) : HloOp τ sig (Elt F)).result V) := by
  refine ⟨args_step main_v95 rfl (by decide) hA, ?_⟩
  obtain ⟨h_v12, h_v87, h_v90, h_v94⟩ := hL
  exact ⟨(keep main_v95 rfl (by decide)).trans h_v12,
    (keep main_v95 rfl (by decide)).trans h_v87,
    new_binary h_v90 h_v94 rfl⟩
theorem step118 (hA : Args x0 x1 x2 x3 x4 x5 x6 x7 x8 x9 x10 x11 x12 x13 V) (hL : Live118 x0 x1 x2 x3 x4 x5 x6 x7 x8 x9 x10 x11 x12 x13 V) :
    Args x0 x1 x2 x3 x4 x5 x6 x7 x8 x9 x10 x11 x12 x13 ((nullary main_cst_18 (constant S_ .f32 0x00000000#32) : HloOp τ sig (Elt F)).result V) ∧ Live119 x0 x1 x2 x3 x4 x5 x6 x7 x8 x9 x10 x11 x12 x13 ((nullary main_cst_18 (constant S_ .f32 0x00000000#32) : HloOp τ sig (Elt F)).result V) := by
  refine ⟨args_step main_cst_18 rfl (by decide) hA, ?_⟩
  obtain ⟨h_v12, h_v87, h_v95⟩ := hL
  exact ⟨(keep main_cst_18 rfl (by decide)).trans h_v12,
    (keep main_cst_18 rfl (by decide)).trans h_v87,
    (keep main_cst_18 rfl (by decide)).trans h_v95,
    new_nullary rfl⟩
theorem step119 (hA : Args x0 x1 x2 x3 x4 x5 x6 x7 x8 x9 x10 x11 x12 x13 V) (hL : Live119 x0 x1 x2 x3 x4 x5 x6 x7 x8 x9 x10 x11 x12 x13 V) :
    Args x0 x1 x2 x3 x4 x5 x6 x7 x8 x9 x10 x11 x12 x13 ((unary main_cst_18 main_v96 (broadcastInDim S100000x64 ![] bcast_S_S100000x64 : (⟨S_, .f32⟩ : BufTy).Contents (Elt F) → (⟨S100000x64, .f32⟩ : BufTy).Contents (Elt F)) : HloOp τ sig (Elt F)).result V) ∧ Live120 x0 x1 x2 x3 x4 x5 x6 x7 x8 x9 x10 x11 x12 x13 ((unary main_cst_18 main_v96 (broadcastInDim S100000x64 ![] bcast_S_S100000x64 : (⟨S_, .f32⟩ : BufTy).Contents (Elt F) → (⟨S100000x64, .f32⟩ : BufTy).Contents (Elt F)) : HloOp τ sig (Elt F)).result V) := by
  refine ⟨args_step main_v96 rfl (by decide) hA, ?_⟩
  obtain ⟨h_v12, h_v87, h_v95, h_cst_18⟩ := hL
  exact ⟨(keep main_v96 rfl (by decide)).trans h_v12,
    (keep main_v96 rfl (by decide)).trans h_v87,
    (keep main_v96 rfl (by decide)).trans h_v95,
    new_unary h_cst_18 rfl⟩
theorem step120 (hA : Args x0 x1 x2 x3 x4 x5 x6 x7 x8 x9 x10 x11 x12 x13 V) (hL : Live120 x0 x1 x2 x3 x4 x5 x6 x7 x8 x9 x10 x11 x12 x13 V) :
    Args x0 x1 x2 x3 x4 x5 x6 x7 x8 x9 x10 x11 x12 x13 ((binary main_v95 main_v96 main_v97 (maximumf : (⟨S100000x64, .f32⟩ : BufTy).Contents (Elt F) → (⟨S100000x64, .f32⟩ : BufTy).Contents (Elt F) → (⟨S100000x64, .f32⟩ : BufTy).Contents (Elt F)) : HloOp τ sig (Elt F)).result V) ∧ Live121 x0 x1 x2 x3 x4 x5 x6 x7 x8 x9 x10 x11 x12 x13 ((binary main_v95 main_v96 main_v97 (maximumf : (⟨S100000x64, .f32⟩ : BufTy).Contents (Elt F) → (⟨S100000x64, .f32⟩ : BufTy).Contents (Elt F) → (⟨S100000x64, .f32⟩ : BufTy).Contents (Elt F)) : HloOp τ sig (Elt F)).result V) := by
  refine ⟨args_step main_v97 rfl (by decide) hA, ?_⟩
  obtain ⟨h_v12, h_v87, h_v95, h_v96⟩ := hL
  exact ⟨(keep main_v97 rfl (by decide)).trans h_v12,
    (keep main_v97 rfl (by decide)).trans h_v87,
    new_binary h_v95 h_v96 rfl⟩
theorem step121 (hA : Args x0 x1 x2 x3 x4 x5 x6 x7 x8 x9 x10 x11 x12 x13 V) (hL : Live121 x0 x1 x2 x3 x4 x5 x6 x7 x8 x9 x10 x11 x12 x13 V) :
    Args x0 x1 x2 x3 x4 x5 x6 x7 x8 x9 x10 x11 x12 x13 ((unary main_arg12 main_v98 ((extractStridedSlice S1x64x64 ![0, 0, 0] · slices_S2x64x64_S1x64x64_0_0_0) : (⟨S2x64x64, .f32⟩ : BufTy).Contents (Elt F) → (⟨S1x64x64, .f32⟩ : BufTy).Contents (Elt F)) : HloOp τ sig (Elt F)).result V) ∧ Live122 x0 x1 x2 x3 x4 x5 x6 x7 x8 x9 x10 x11 x12 x13 ((unary main_arg12 main_v98 ((extractStridedSlice S1x64x64 ![0, 0, 0] · slices_S2x64x64_S1x64x64_0_0_0) : (⟨S2x64x64, .f32⟩ : BufTy).Contents (Elt F) → (⟨S1x64x64, .f32⟩ : BufTy).Contents (Elt F)) : HloOp τ sig (Elt F)).result V) := by
  refine ⟨args_step main_v98 rfl (by decide) hA, ?_⟩
  unfold Args at hA
  obtain ⟨a0, a1, a2, a3, a4, a5, a6, a7, a8, a9, a10, a11, a12, a13⟩ := hA
  obtain ⟨h_v12, h_v87, h_v97⟩ := hL
  exact ⟨(keep main_v98 rfl (by decide)).trans h_v12,
    (keep main_v98 rfl (by decide)).trans h_v87,
    (keep main_v98 rfl (by decide)).trans h_v97,
    new_unary a12 rfl⟩
theorem step122 (hA : Args x0 x1 x2 x3 x4 x5 x6 x7 x8 x9 x10 x11 x12 x13 V) (hL : Live122 x0 x1 x2 x3 x4 x5 x6 x7 x8 x9 x10 x11 x12 x13 V) :
    Args x0 x1 x2 x3 x4 x5 x6 x7 x8 x9 x10 x11 x12 x13 ((reshape main_v98 main_v99 rfl shapeCasts_S1x64x64_S64x64 : HloOp τ sig (Elt F)).result V) ∧ Live123 x0 x1 x2 x3 x4 x5 x6 x7 x8 x9 x10 x11 x12 x13 ((reshape main_v98 main_v99 rfl shapeCasts_S1x64x64_S64x64 : HloOp τ sig (Elt F)).result V) := by
  refine ⟨args_step main_v99 rfl (by decide) hA, ?_⟩
  obtain ⟨h_v12, h_v87, h_v97, h_v98⟩ := hL
  exact ⟨(keep main_v99 rfl (by decide)).trans h_v12,
    (keep main_v99 rfl (by decide)).trans h_v87,
    (keep main_v99 rfl (by decide)).trans h_v97,
    (by show _ = _; rw [reshape_result, h_v98]; exact rfl)⟩
theorem step123 (hA : Args x0 x1 x2 x3 x4 x5 x6 x7 x8 x9 x10 x11 x12 x13 V) (hL : Live123 x0 x1 x2 x3 x4 x5 x6 x7 x8 x9 x10 x11 x12 x13 V) :
    Args x0 x1 x2 x3 x4 x5 x6 x7 x8 x9 x10 x11 x12 x13 ((binary main_v97 main_v99 main_v100 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) : HloOp τ sig (Elt F)).result V) ∧ Live124 x0 x1 x2 x3 x4 x5 x6 x7 x8 x9 x10 x11 x12 x13 ((binary main_v97 main_v99 main_v100 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) : HloOp τ sig (Elt F)).result V) := by
  refine ⟨args_step main_v100 rfl (by decide) hA, ?_⟩
  obtain ⟨h_v12, h_v87, h_v97, h_v99⟩ := hL
  exact ⟨(keep main_v100 rfl (by decide)).trans h_v12,
    (keep main_v100 rfl (by decide)).trans h_v87,
    new_binary h_v97 h_v99 rfl⟩
theorem step124 (hA : Args x0 x1 x2 x3 x4 x5 x6 x7 x8 x9 x10 x11 x12 x13 V) (hL : Live124 x0 x1 x2 x3 x4 x5 x6 x7 x8 x9 x10 x11 x12 x13 V) :
    Args x0 x1 x2 x3 x4 x5 x6 x7 x8 x9 x10 x11 x12 x13 ((unary main_arg13 main_v101 ((extractStridedSlice S1x64 ![0, 0] · slices_S2x64_S1x64_0_0) : (⟨S2x64, .f32⟩ : BufTy).Contents (Elt F) → (⟨S1x64, .f32⟩ : BufTy).Contents (Elt F)) : HloOp τ sig (Elt F)).result V) ∧ Live125 x0 x1 x2 x3 x4 x5 x6 x7 x8 x9 x10 x11 x12 x13 ((unary main_arg13 main_v101 ((extractStridedSlice S1x64 ![0, 0] · slices_S2x64_S1x64_0_0) : (⟨S2x64, .f32⟩ : BufTy).Contents (Elt F) → (⟨S1x64, .f32⟩ : BufTy).Contents (Elt F)) : HloOp τ sig (Elt F)).result V) := by
  refine ⟨args_step main_v101 rfl (by decide) hA, ?_⟩
  unfold Args at hA
  obtain ⟨a0, a1, a2, a3, a4, a5, a6, a7, a8, a9, a10, a11, a12, a13⟩ := hA
  obtain ⟨h_v12, h_v87, h_v100⟩ := hL
  exact ⟨(keep main_v101 rfl (by decide)).trans h_v12,
    (keep main_v101 rfl (by decide)).trans h_v87,
    (keep main_v101 rfl (by decide)).trans h_v100,
    new_unary a13 rfl⟩
theorem step125 (hA : Args x0 x1 x2 x3 x4 x5 x6 x7 x8 x9 x10 x11 x12 x13 V) (hL : Live125 x0 x1 x2 x3 x4 x5 x6 x7 x8 x9 x10 x11 x12 x13 V) :
    Args x0 x1 x2 x3 x4 x5 x6 x7 x8 x9 x10 x11 x12 x13 ((reshape main_v101 main_v102 rfl shapeCasts_S1x64_S64 : HloOp τ sig (Elt F)).result V) ∧ Live126 x0 x1 x2 x3 x4 x5 x6 x7 x8 x9 x10 x11 x12 x13 ((reshape main_v101 main_v102 rfl shapeCasts_S1x64_S64 : HloOp τ sig (Elt F)).result V) := by
  refine ⟨args_step main_v102 rfl (by decide) hA, ?_⟩
  obtain ⟨h_v12, h_v87, h_v100, h_v101⟩ := hL
  exact ⟨(keep main_v102 rfl (by decide)).trans h_v12,
    (keep main_v102 rfl (by decide)).trans h_v87,
    (keep main_v102 rfl (by decide)).trans h_v100,
    (by show _ = _; rw [reshape_result, h_v101]; exact rfl)⟩
theorem step126 (hA : Args x0 x1 x2 x3 x4 x5 x6 x7 x8 x9 x10 x11 x12 x13 V) (hL : Live126 x0 x1 x2 x3 x4 x5 x6 x7 x8 x9 x10 x11 x12 x13 V) :
    Args x0 x1 x2 x3 x4 x5 x6 x7 x8 x9 x10 x11 x12 x13 ((unary main_v102 main_v103 (broadcastInDim S1x64 ![1] bcast_S64_S1x64_1 : (⟨S64, .f32⟩ : BufTy).Contents (Elt F) → (⟨S1x64, .f32⟩ : BufTy).Contents (Elt F)) : HloOp τ sig (Elt F)).result V) ∧ Live127 x0 x1 x2 x3 x4 x5 x6 x7 x8 x9 x10 x11 x12 x13 ((unary main_v102 main_v103 (broadcastInDim S1x64 ![1] bcast_S64_S1x64_1 : (⟨S64, .f32⟩ : BufTy).Contents (Elt F) → (⟨S1x64, .f32⟩ : BufTy).Contents (Elt F)) : HloOp τ sig (Elt F)).result V) := by
  refine ⟨args_step main_v103 rfl (by decide) hA, ?_⟩
  obtain ⟨h_v12, h_v87, h_v100, h_v102⟩ := hL
  exact ⟨(keep main_v103 rfl (by decide)).trans h_v12,
    (keep main_v103 rfl (by decide)).trans h_v87,
    (keep main_v103 rfl (by decide)).trans h_v100,
    new_unary h_v102 rfl⟩
theorem step127 (hA : Args x0 x1 x2 x3 x4 x5 x6 x7 x8 x9 x10 x11 x12 x13 V) (hL : Live127 x0 x1 x2 x3 x4 x5 x6 x7 x8 x9 x10 x11 x12 x13 V) :
    Args x0 x1 x2 x3 x4 x5 x6 x7 x8 x9 x10 x11 x12 x13 ((unary main_v103 main_v104 (broadcastInDim S100000x64 ![0, 1] bcast_S1x64_S100000x64_0_1 : (⟨S1x64, .f32⟩ : BufTy).Contents (Elt F) → (⟨S100000x64, .f32⟩ : BufTy).Contents (Elt F)) : HloOp τ sig (Elt F)).result V) ∧ Live128 x0 x1 x2 x3 x4 x5 x6 x7 x8 x9 x10 x11 x12 x13 ((unary main_v103 main_v104 (broadcastInDim S100000x64 ![0, 1] bcast_S1x64_S100000x64_0_1 : (⟨S1x64, .f32⟩ : BufTy).Contents (Elt F) → (⟨S100000x64, .f32⟩ : BufTy).Contents (Elt F)) : HloOp τ sig (Elt F)).result V) := by
  refine ⟨args_step main_v104 rfl (by decide) hA, ?_⟩
  obtain ⟨h_v12, h_v87, h_v100, h_v103⟩ := hL
  exact ⟨(keep main_v104 rfl (by decide)).trans h_v12,
    (keep main_v104 rfl (by decide)).trans h_v87,
    (keep main_v104 rfl (by decide)).trans h_v100,
    new_unary h_v103 rfl⟩
theorem step128 (hA : Args x0 x1 x2 x3 x4 x5 x6 x7 x8 x9 x10 x11 x12 x13 V) (hL : Live128 x0 x1 x2 x3 x4 x5 x6 x7 x8 x9 x10 x11 x12 x13 V) :
    Args x0 x1 x2 x3 x4 x5 x6 x7 x8 x9 x10 x11 x12 x13 ((binary main_v100 main_v104 main_v105 (addf : (⟨S100000x64, .f32⟩ : BufTy).Contents (Elt F) → (⟨S100000x64, .f32⟩ : BufTy).Contents (Elt F) → (⟨S100000x64, .f32⟩ : BufTy).Contents (Elt F)) : HloOp τ sig (Elt F)).result V) ∧ Live129 x0 x1 x2 x3 x4 x5 x6 x7 x8 x9 x10 x11 x12 x13 ((binary main_v100 main_v104 main_v105 (addf : (⟨S100000x64, .f32⟩ : BufTy).Contents (Elt F) → (⟨S100000x64, .f32⟩ : BufTy).Contents (Elt F) → (⟨S100000x64, .f32⟩ : BufTy).Contents (Elt F)) : HloOp τ sig (Elt F)).result V) := by
  refine ⟨args_step main_v105 rfl (by decide) hA, ?_⟩
  obtain ⟨h_v12, h_v87, h_v100, h_v104⟩ := hL
  exact ⟨(keep main_v105 rfl (by decide)).trans h_v12,
    (keep main_v105 rfl (by decide)).trans h_v87,
    new_binary h_v100 h_v104 rfl⟩
theorem step129 (hA : Args x0 x1 x2 x3 x4 x5 x6 x7 x8 x9 x10 x11 x12 x13 V) (hL : Live129 x0 x1 x2 x3 x4 x5 x6 x7 x8 x9 x10 x11 x12 x13 V) :
    Args x0 x1 x2 x3 x4 x5 x6 x7 x8 x9 x10 x11 x12 x13 ((unary main_arg5 main_v106 ((extractStridedSlice S1x100000x64 ![0, 0, 0] · slices_S2x100000x64_S1x100000x64_0_0_0) : (⟨S2x100000x64, .f32⟩ : BufTy).Contents (Elt F) → (⟨S1x100000x64, .f32⟩ : BufTy).Contents (Elt F)) : HloOp τ sig (Elt F)).result V) ∧ Live130 x0 x1 x2 x3 x4 x5 x6 x7 x8 x9 x10 x11 x12 x13 ((unary main_arg5 main_v106 ((extractStridedSlice S1x100000x64 ![0, 0, 0] · slices_S2x100000x64_S1x100000x64_0_0_0) : (⟨S2x100000x64, .f32⟩ : BufTy).Contents (Elt F) → (⟨S1x100000x64, .f32⟩ : BufTy).Contents (Elt F)) : HloOp τ sig (Elt F)).result V) := by
  refine ⟨args_step main_v106 rfl (by decide) hA, ?_⟩
  unfold Args at hA
  obtain ⟨a0, a1, a2, a3, a4, a5, a6, a7, a8, a9, a10, a11, a12, a13⟩ := hA
  obtain ⟨h_v12, h_v87, h_v105⟩ := hL
  exact ⟨(keep main_v106 rfl (by decide)).trans h_v12,
    (keep main_v106 rfl (by decide)).trans h_v87,
    (keep main_v106 rfl (by decide)).trans h_v105,
    new_unary a5 rfl⟩
theorem step130 (hA : Args x0 x1 x2 x3 x4 x5 x6 x7 x8 x9 x10 x11 x12 x13 V) (hL : Live130 x0 x1 x2 x3 x4 x5 x6 x7 x8 x9 x10 x11 x12 x13 V) :
    Args x0 x1 x2 x3 x4 x5 x6 x7 x8 x9 x10 x11 x12 x13 ((reshape main_v106 main_v107 rfl shapeCasts_S1x100000x64_S100000x64 : HloOp τ sig (Elt F)).result V) ∧ Live131 x0 x1 x2 x3 x4 x5 x6 x7 x8 x9 x10 x11 x12 x13 ((reshape main_v106 main_v107 rfl shapeCasts_S1x100000x64_S100000x64 : HloOp τ sig (Elt F)).result V) := by
  refine ⟨args_step main_v107 rfl (by decide) hA, ?_⟩
  obtain ⟨h_v12, h_v87, h_v105, h_v106⟩ := hL
  exact ⟨(keep main_v107 rfl (by decide)).trans h_v12,
    (keep main_v107 rfl (by decide)).trans h_v87,
    (keep main_v107 rfl (by decide)).trans h_v105,
    (by show _ = _; rw [reshape_result, h_v106]; exact rfl)⟩
theorem step131 (hA : Args x0 x1 x2 x3 x4 x5 x6 x7 x8 x9 x10 x11 x12 x13 V) (hL : Live131 x0 x1 x2 x3 x4 x5 x6 x7 x8 x9 x10 x11 x12 x13 V) :
    Args x0 x1 x2 x3 x4 x5 x6 x7 x8 x9 x10 x11 x12 x13 ((binary main_v107 main_v105 main_v108 (addf : (⟨S100000x64, .f32⟩ : BufTy).Contents (Elt F) → (⟨S100000x64, .f32⟩ : BufTy).Contents (Elt F) → (⟨S100000x64, .f32⟩ : BufTy).Contents (Elt F)) : HloOp τ sig (Elt F)).result V) ∧ Live132 x0 x1 x2 x3 x4 x5 x6 x7 x8 x9 x10 x11 x12 x13 ((binary main_v107 main_v105 main_v108 (addf : (⟨S100000x64, .f32⟩ : BufTy).Contents (Elt F) → (⟨S100000x64, .f32⟩ : BufTy).Contents (Elt F) → (⟨S100000x64, .f32⟩ : BufTy).Contents (Elt F)) : HloOp τ sig (Elt F)).result V) := by
  refine ⟨args_step main_v108 rfl (by decide) hA, ?_⟩
  obtain ⟨h_v12, h_v87, h_v105, h_v107⟩ := hL
  exact ⟨(keep main_v108 rfl (by decide)).trans h_v12,
    (keep main_v108 rfl (by decide)).trans h_v87,
    new_binary h_v107 h_v105 rfl⟩
theorem step132 (hA : Args x0 x1 x2 x3 x4 x5 x6 x7 x8 x9 x10 x11 x12 x13 V) (hL : Live132 x0 x1 x2 x3 x4 x5 x6 x7 x8 x9 x10 x11 x12 x13 V) :
    Args x0 x1 x2 x3 x4 x5 x6 x7 x8 x9 x10 x11 x12 x13 ((nullary main_cst_19 (constant S_ .f32 0x3F800000#32) : HloOp τ sig (Elt F)).result V) ∧ Live133 x0 x1 x2 x3 x4 x5 x6 x7 x8 x9 x10 x11 x12 x13 ((nullary main_cst_19 (constant S_ .f32 0x3F800000#32) : HloOp τ sig (Elt F)).result V) := by
  refine ⟨args_step main_cst_19 rfl (by decide) hA, ?_⟩
  obtain ⟨h_v12, h_v87, h_v108⟩ := hL
  exact ⟨(keep main_cst_19 rfl (by decide)).trans h_v12,
    (keep main_cst_19 rfl (by decide)).trans h_v87,
    (keep main_cst_19 rfl (by decide)).trans h_v108,
    new_nullary rfl⟩
theorem step133 (hA : Args x0 x1 x2 x3 x4 x5 x6 x7 x8 x9 x10 x11 x12 x13 V) (hL : Live133 x0 x1 x2 x3 x4 x5 x6 x7 x8 x9 x10 x11 x12 x13 V) :
    Args x0 x1 x2 x3 x4 x5 x6 x7 x8 x9 x10 x11 x12 x13 ((unary main_cst_19 main_v109 (broadcastInDim S100000x64 ![] bcast_S_S100000x64 : (⟨S_, .f32⟩ : BufTy).Contents (Elt F) → (⟨S100000x64, .f32⟩ : BufTy).Contents (Elt F)) : HloOp τ sig (Elt F)).result V) ∧ Live134 x0 x1 x2 x3 x4 x5 x6 x7 x8 x9 x10 x11 x12 x13 ((unary main_cst_19 main_v109 (broadcastInDim S100000x64 ![] bcast_S_S100000x64 : (⟨S_, .f32⟩ : BufTy).Contents (Elt F) → (⟨S100000x64, .f32⟩ : BufTy).Contents (Elt F)) : HloOp τ sig (Elt F)).result V) := by
  refine ⟨args_step main_v109 rfl (by decide) hA, ?_⟩
  obtain ⟨h_v12, h_v87, h_v108, h_cst_19⟩ := hL
  exact ⟨(keep main_v109 rfl (by decide)).trans h_v12,
    (keep main_v109 rfl (by decide)).trans h_v87,
    (keep main_v109 rfl (by decide)).trans h_v108,
    new_unary h_cst_19 rfl⟩
theorem step134 (hA : Args x0 x1 x2 x3 x4 x5 x6 x7 x8 x9 x10 x11 x12 x13 V) (hL : Live134 x0 x1 x2 x3 x4 x5 x6 x7 x8 x9 x10 x11 x12 x13 V) :
    Args x0 x1 x2 x3 x4 x5 x6 x7 x8 x9 x10 x11 x12 x13 ((binary main_v108 main_v109 main_v110 (Host.divf : (⟨S100000x64, .f32⟩ : BufTy).Contents (Elt F) → (⟨S100000x64, .f32⟩ : BufTy).Contents (Elt F) → (⟨S100000x64, .f32⟩ : BufTy).Contents (Elt F)) : HloOp τ sig (Elt F)).result V) ∧ Live135 x0 x1 x2 x3 x4 x5 x6 x7 x8 x9 x10 x11 x12 x13 ((binary main_v108 main_v109 main_v110 (Host.divf : (⟨S100000x64, .f32⟩ : BufTy).Contents (Elt F) → (⟨S100000x64, .f32⟩ : BufTy).Contents (Elt F) → (⟨S100000x64, .f32⟩ : BufTy).Contents (Elt F)) : HloOp τ sig (Elt F)).result V) := by
  refine ⟨args_step main_v110 rfl (by decide) hA, ?_⟩
  obtain ⟨h_v12, h_v87, h_v108, h_v109⟩ := hL
  exact ⟨(keep main_v110 rfl (by decide)).trans h_v12,
    (keep main_v110 rfl (by decide)).trans h_v87,
    new_binary h_v108 h_v109 rfl⟩
theorem step135 (hA : Args x0 x1 x2 x3 x4 x5 x6 x7 x8 x9 x10 x11 x12 x13 V) (hL : Live135 x0 x1 x2 x3 x4 x5 x6 x7 x8 x9 x10 x11 x12 x13 V) :
    Args x0 x1 x2 x3 x4 x5 x6 x7 x8 x9 x10 x11 x12 x13 ((unary main_v110 main_v111 (Host.negf : (⟨S100000x64, .f32⟩ : BufTy).Contents (Elt F) → (⟨S100000x64, .f32⟩ : BufTy).Contents (Elt F)) : HloOp τ sig (Elt F)).result V) ∧ Live136 x0 x1 x2 x3 x4 x5 x6 x7 x8 x9 x10 x11 x12 x13 ((unary main_v110 main_v111 (Host.negf : (⟨S100000x64, .f32⟩ : BufTy).Contents (Elt F) → (⟨S100000x64, .f32⟩ : BufTy).Contents (Elt F)) : HloOp τ sig (Elt F)).result V) := by
  refine ⟨args_step main_v111 rfl (by decide) hA, ?_⟩
  obtain ⟨h_v12, h_v87, h_v110⟩ := hL
  exact ⟨(keep main_v111 rfl (by decide)).trans h_v12,
    (keep main_v111 rfl (by decide)).trans h_v87,
    new_unary h_v110 rfl⟩
theorem step136 (hA : Args x0 x1 x2 x3 x4 x5 x6 x7 x8 x9 x10 x11 x12 x13 V) (hL : Live136 x0 x1 x2 x3 x4 x5 x6 x7 x8 x9 x10 x11 x12 x13 V) :
    Args x0 x1 x2 x3 x4 x5 x6 x7 x8 x9 x10 x11 x12 x13 ((unary main_v111 main_v112 (Host.exp : (⟨S100000x64, .f32⟩ : BufTy).Contents (Elt F) → (⟨S100000x64, .f32⟩ : BufTy).Contents (Elt F)) : HloOp τ sig (Elt F)).result V) ∧ Live137 x0 x1 x2 x3 x4 x5 x6 x7 x8 x9 x10 x11 x12 x13 ((unary main_v111 main_v112 (Host.exp : (⟨S100000x64, .f32⟩ : BufTy).Contents (Elt F) → (⟨S100000x64, .f32⟩ : BufTy).Contents (Elt F)) : HloOp τ sig (Elt F)).result V) := by
  refine ⟨args_step main_v112 rfl (by decide) hA, ?_⟩
  obtain ⟨h_v12, h_v87, h_v111⟩ := hL
  exact ⟨(keep main_v112 rfl (by decide)).trans h_v12,
    (keep main_v112 rfl (by decide)).trans h_v87,
    new_unary h_v111 rfl⟩
theorem step137 (hA : Args x0 x1 x2 x3 x4 x5 x6 x7 x8 x9 x10 x11 x12 x13 V) (hL : Live137 x0 x1 x2 x3 x4 x5 x6 x7 x8 x9 x10 x11 x12 x13 V) :
    Args x0 x1 x2 x3 x4 x5 x6 x7 x8 x9 x10 x11 x12 x13 ((nullary main_cst_20 (constant S_ .f32 0x3F800000#32) : HloOp τ sig (Elt F)).result V) ∧ Live138 x0 x1 x2 x3 x4 x5 x6 x7 x8 x9 x10 x11 x12 x13 ((nullary main_cst_20 (constant S_ .f32 0x3F800000#32) : HloOp τ sig (Elt F)).result V) := by
  refine ⟨args_step main_cst_20 rfl (by decide) hA, ?_⟩
  obtain ⟨h_v12, h_v87, h_v112⟩ := hL
  exact ⟨(keep main_cst_20 rfl (by decide)).trans h_v12,
    (keep main_cst_20 rfl (by decide)).trans h_v87,
    (keep main_cst_20 rfl (by decide)).trans h_v112,
    new_nullary rfl⟩
theorem step138 (hA : Args x0 x1 x2 x3 x4 x5 x6 x7 x8 x9 x10 x11 x12 x13 V) (hL : Live138 x0 x1 x2 x3 x4 x5 x6 x7 x8 x9 x10 x11 x12 x13 V) :
    Args x0 x1 x2 x3 x4 x5 x6 x7 x8 x9 x10 x11 x12 x13 ((unary main_cst_20 main_v113 (broadcastInDim S100000x64 ![] bcast_S_S100000x64 : (⟨S_, .f32⟩ : BufTy).Contents (Elt F) → (⟨S100000x64, .f32⟩ : BufTy).Contents (Elt F)) : HloOp τ sig (Elt F)).result V) ∧ Live139 x0 x1 x2 x3 x4 x5 x6 x7 x8 x9 x10 x11 x12 x13 ((unary main_cst_20 main_v113 (broadcastInDim S100000x64 ![] bcast_S_S100000x64 : (⟨S_, .f32⟩ : BufTy).Contents (Elt F) → (⟨S100000x64, .f32⟩ : BufTy).Contents (Elt F)) : HloOp τ sig (Elt F)).result V) := by
  refine ⟨args_step main_v113 rfl (by decide) hA, ?_⟩
  obtain ⟨h_v12, h_v87, h_v112, h_cst_20⟩ := hL
  exact ⟨(keep main_v113 rfl (by decide)).trans h_v12,
    (keep main_v113 rfl (by decide)).trans h_v87,
    (keep main_v113 rfl (by decide)).trans h_v112,
    new_unary h_cst_20 rfl⟩
theorem step139 (hA : Args x0 x1 x2 x3 x4 x5 x6 x7 x8 x9 x10 x11 x12 x13 V) (hL : Live139 x0 x1 x2 x3 x4 x5 x6 x7 x8 x9 x10 x11 x12 x13 V) :
    Args x0 x1 x2 x3 x4 x5 x6 x7 x8 x9 x10 x11 x12 x13 ((binary main_v113 main_v112 main_v114 (addf : (⟨S100000x64, .f32⟩ : BufTy).Contents (Elt F) → (⟨S100000x64, .f32⟩ : BufTy).Contents (Elt F) → (⟨S100000x64, .f32⟩ : BufTy).Contents (Elt F)) : HloOp τ sig (Elt F)).result V) ∧ Live140 x0 x1 x2 x3 x4 x5 x6 x7 x8 x9 x10 x11 x12 x13 ((binary main_v113 main_v112 main_v114 (addf : (⟨S100000x64, .f32⟩ : BufTy).Contents (Elt F) → (⟨S100000x64, .f32⟩ : BufTy).Contents (Elt F) → (⟨S100000x64, .f32⟩ : BufTy).Contents (Elt F)) : HloOp τ sig (Elt F)).result V) := by
  refine ⟨args_step main_v114 rfl (by decide) hA, ?_⟩
  obtain ⟨h_v12, h_v87, h_v112, h_v113⟩ := hL
  exact ⟨(keep main_v114 rfl (by decide)).trans h_v12,
    (keep main_v114 rfl (by decide)).trans h_v87,
    new_binary h_v113 h_v112 rfl⟩
theorem step140 (hA : Args x0 x1 x2 x3 x4 x5 x6 x7 x8 x9 x10 x11 x12 x13 V) (hL : Live140 x0 x1 x2 x3 x4 x5 x6 x7 x8 x9 x10 x11 x12 x13 V) :
    Args x0 x1 x2 x3 x4 x5 x6 x7 x8 x9 x10 x11 x12 x13 ((nullary main_cst_21 (constant S_ .f32 0x3F800000#32) : HloOp τ sig (Elt F)).result V) ∧ Live141 x0 x1 x2 x3 x4 x5 x6 x7 x8 x9 x10 x11 x12 x13 ((nullary main_cst_21 (constant S_ .f32 0x3F800000#32) : HloOp τ sig (Elt F)).result V) := by
  refine ⟨args_step main_cst_21 rfl (by decide) hA, ?_⟩
  obtain ⟨h_v12, h_v87, h_v114⟩ := hL
  exact ⟨(keep main_cst_21 rfl (by decide)).trans h_v12,
    (keep main_cst_21 rfl (by decide)).trans h_v87,
    (keep main_cst_21 rfl (by decide)).trans h_v114,
    new_nullary rfl⟩
theorem step141 (hA : Args x0 x1 x2 x3 x4 x5 x6 x7 x8 x9 x10 x11 x12 x13 V) (hL : Live141 x0 x1 x2 x3 x4 x5 x6 x7 x8 x9 x10 x11 x12 x13 V) :
    Args x0 x1 x2 x3 x4 x5 x6 x7 x8 x9 x10 x11 x12 x13 ((unary main_cst_21 main_v115 (broadcastInDim S100000x64 ![] bcast_S_S100000x64 : (⟨S_, .f32⟩ : BufTy).Contents (Elt F) → (⟨S100000x64, .f32⟩ : BufTy).Contents (Elt F)) : HloOp τ sig (Elt F)).result V) ∧ Live142 x0 x1 x2 x3 x4 x5 x6 x7 x8 x9 x10 x11 x12 x13 ((unary main_cst_21 main_v115 (broadcastInDim S100000x64 ![] bcast_S_S100000x64 : (⟨S_, .f32⟩ : BufTy).Contents (Elt F) → (⟨S100000x64, .f32⟩ : BufTy).Contents (Elt F)) : HloOp τ sig (Elt F)).result V) := by
  refine ⟨args_step main_v115 rfl (by decide) hA, ?_⟩
  obtain ⟨h_v12, h_v87, h_v114, h_cst_21⟩ := hL
  exact ⟨(keep main_v115 rfl (by decide)).trans h_v12,
    (keep main_v115 rfl (by decide)).trans h_v87,
    (keep main_v115 rfl (by decide)).trans h_v114,
    new_unary h_cst_21 rfl⟩
theorem step142 (hA : Args x0 x1 x2 x3 x4 x5 x6 x7 x8 x9 x10 x11 x12 x13 V) (hL : Live142 x0 x1 x2 x3 x4 x5 x6 x7 x8 x9 x10 x11 x12 x13 V) :
    Args x0 x1 x2 x3 x4 x5 x6 x7 x8 x9 x10 x11 x12 x13 ((binary main_v115 main_v114 main_v116 (Host.divf : (⟨S100000x64, .f32⟩ : BufTy).Contents (Elt F) → (⟨S100000x64, .f32⟩ : BufTy).Contents (Elt F) → (⟨S100000x64, .f32⟩ : BufTy).Contents (Elt F)) : HloOp τ sig (Elt F)).result V) ∧ Live143 x0 x1 x2 x3 x4 x5 x6 x7 x8 x9 x10 x11 x12 x13 ((binary main_v115 main_v114 main_v116 (Host.divf : (⟨S100000x64, .f32⟩ : BufTy).Contents (Elt F) → (⟨S100000x64, .f32⟩ : BufTy).Contents (Elt F) → (⟨S100000x64, .f32⟩ : BufTy).Contents (Elt F)) : HloOp τ sig (Elt F)).result V) := by
  refine ⟨args_step main_v116 rfl (by decide) hA, ?_⟩
  obtain ⟨h_v12, h_v87, h_v114, h_v115⟩ := hL
  exact ⟨(keep main_v116 rfl (by decide)).trans h_v12,
    (keep main_v116 rfl (by decide)).trans h_v87,
    new_binary h_v115 h_v114 rfl⟩
theorem step143 (hA : Args x0 x1 x2 x3 x4 x5 x6 x7 x8 x9 x10 x11 x12 x13 V) (hL : Live143 x0 x1 x2 x3 x4 x5 x6 x7 x8 x9 x10 x11 x12 x13 V) :
    Args x0 x1 x2 x3 x4 x5 x6 x7 x8 x9 x10 x11 x12 x13 ((binary main_v116 main_arg0 main_v117 (mulf : (⟨S100000x64, .f32⟩ : BufTy).Contents (Elt F) → (⟨S100000x64, .f32⟩ : BufTy).Contents (Elt F) → (⟨S100000x64, .f32⟩ : BufTy).Contents (Elt F)) : HloOp τ sig (Elt F)).result V) ∧ Live144 x0 x1 x2 x3 x4 x5 x6 x7 x8 x9 x10 x11 x12 x13 ((binary main_v116 main_arg0 main_v117 (mulf : (⟨S100000x64, .f32⟩ : BufTy).Contents (Elt F) → (⟨S100000x64, .f32⟩ : BufTy).Contents (Elt F) → (⟨S100000x64, .f32⟩ : BufTy).Contents (Elt F)) : HloOp τ sig (Elt F)).result V) := by
  refine ⟨args_step main_v117 rfl (by decide) hA, ?_⟩
  unfold Args at hA
  obtain ⟨a0, a1, a2, a3, a4, a5, a6, a7, a8, a9, a10, a11, a12, a13⟩ := hA
  obtain ⟨h_v12, h_v87, h_v116⟩ := hL
  exact ⟨(keep main_v117 rfl (by decide)).trans h_v12,
    (keep main_v117 rfl (by decide)).trans h_v87,
    new_binary h_v116 a0 rfl⟩
theorem step144 (hA : Args x0 x1 x2 x3 x4 x5 x6 x7 x8 x9 x10 x11 x12 x13 V) (hL : Live144 x0 x1 x2 x3 x4 x5 x6 x7 x8 x9 x10 x11 x12 x13 V) :
    Args x0 x1 x2 x3 x4 x5 x6 x7 x8 x9 x10 x11 x12 x13 ((unary main_arg3 main_v118 (broadcastInDim S800000x1 ![0] bcast_S800000_S800000x1_0 : (⟨S800000, .f32⟩ : BufTy).Contents (Elt F) → (⟨S800000x1, .f32⟩ : BufTy).Contents (Elt F)) : HloOp τ sig (Elt F)).result V) ∧ Live145 x0 x1 x2 x3 x4 x5 x6 x7 x8 x9 x10 x11 x12 x13 ((unary main_arg3 main_v118 (broadcastInDim S800000x1 ![0] bcast_S800000_S800000x1_0 : (⟨S800000, .f32⟩ : BufTy).Contents (Elt F) → (⟨S800000x1, .f32⟩ : BufTy).Contents (Elt F)) : HloOp τ sig (Elt F)).result V) := by
  refine ⟨args_step main_v118 rfl (by decide) hA, ?_⟩
  unfold Args at hA
  obtain ⟨a0, a1, a2, a3, a4, a5, a6, a7, a8, a9, a10, a11, a12, a13⟩ := hA
  obtain ⟨h_v12, h_v87, h_v117⟩ := hL
  exact ⟨(keep main_v118 rfl (by decide)).trans h_v12,
    (keep main_v118 rfl (by decide)).trans h_v87,
    (keep main_v118 rfl (by decide)).trans h_v117,
    new_unary a3 rfl⟩
theorem step145 (hA : Args x0 x1 x2 x3 x4 x5 x6 x7 x8 x9 x10 x11 x12 x13 V) (hL : Live145 x0 x1 x2 x3 x4 x5 x6 x7 x8 x9 x10 x11 x12 x13 V) :
    Args x0 x1 x2 x3 x4 x5 x6 x7 x8 x9 x10 x11 x12 x13 ((nullary main_c_22 (constantI S_ 32 0#32) : HloOp τ sig (Elt F)).result V) ∧ Live146 x0 x1 x2 x3 x4 x5 x6 x7 x8 x9 x10 x11 x12 x13 ((nullary main_c_22 (constantI S_ 32 0#32) : HloOp τ sig (Elt F)).result V) := by
  refine ⟨args_step main_c_22 rfl (by decide) hA, ?_⟩
  obtain ⟨h_v12, h_v87, h_v117, h_v118⟩ := hL
  exact ⟨(keep main_c_22 rfl (by decide)).trans h_v12,
    (keep main_c_22 rfl (by decide)).trans h_v87,
    (keep main_c_22 rfl (by decide)).trans h_v117,
    (keep main_c_22 rfl (by decide)).trans h_v118,
    new_nullary rfl⟩
theorem step146 (hA : Args x0 x1 x2 x3 x4 x5 x6 x7 x8 x9 x10 x11 x12 x13 V) (hL : Live146 x0 x1 x2 x3 x4 x5 x6 x7 x8 x9 x10 x11 x12 x13 V) :
    Args x0 x1 x2 x3 x4 x5 x6 x7 x8 x9 x10 x11 x12 x13 ((unary main_c_22 main_v119 (broadcastInDim S800000 ![] bcast_S_S800000 : (⟨S_, .i32⟩ : BufTy).Contents (Elt F) → (⟨S800000, .i32⟩ : BufTy).Contents (Elt F)) : HloOp τ sig (Elt F)).result V) ∧ Live147 x0 x1 x2 x3 x4 x5 x6 x7 x8 x9 x10 x11 x12 x13 ((unary main_c_22 main_v119 (broadcastInDim S800000 ![] bcast_S_S800000 : (⟨S_, .i32⟩ : BufTy).Contents (Elt F) → (⟨S800000, .i32⟩ : BufTy).Contents (Elt F)) : HloOp τ sig (Elt F)).result V) := by
  refine ⟨args_step main_v119 rfl (by decide) hA, ?_⟩
  obtain ⟨h_v12, h_v87, h_v117, h_v118, h_c_22⟩ := hL
  exact ⟨(keep main_v119 rfl (by decide)).trans h_v12,
    (keep main_v119 rfl (by decide)).trans h_v87,
    (keep main_v119 rfl (by decide)).trans h_v117,
    (keep main_v119 rfl (by decide)).trans h_v118,
    new_unary h_c_22 rfl⟩
theorem step147 (hA : Args x0 x1 x2 x3 x4 x5 x6 x7 x8 x9 x10 x11 x12 x13 V) (hL : Live147 x0 x1 x2 x3 x4 x5 x6 x7 x8 x9 x10 x11 x12 x13 V) :
    Args x0 x1 x2 x3 x4 x5 x6 x7 x8 x9 x10 x11 x12 x13 ((binary main_arg2 main_v119 main_v120 (cmpi .slt : (⟨S800000, .i32⟩ : BufTy).Contents (Elt F) → (⟨S800000, .i32⟩ : BufTy).Contents (Elt F) → (⟨S800000, .i1⟩ : BufTy).Contents (Elt F)) : HloOp τ sig (Elt F)).result V) ∧ Live148 x0 x1 x2 x3 x4 x5 x6 x7 x8 x9 x10 x11 x12 x13 ((binary main_arg2 main_v119 main_v120 (cmpi .slt : (⟨S800000, .i32⟩ : BufTy).Contents (Elt F) → (⟨S800000, .i32⟩ : BufTy).Contents (Elt F) → (⟨S800000, .i1⟩ : BufTy).Contents (Elt F)) : HloOp τ sig (Elt F)).result V) := by
  refine ⟨args_step main_v120 rfl (by decide) hA, ?_⟩
  unfold Args at hA
  obtain ⟨a0, a1, a2, a3, a4, a5, a6, a7, a8, a9, a10, a11, a12, a13⟩ := hA
  obtain ⟨h_v12, h_v87, h_v117, h_v118, h_v119⟩ := hL
  exact ⟨(keep main_v120 rfl (by decide)).trans h_v12,
    (keep main_v120 rfl (by decide)).trans h_v87,
    (keep main_v120 rfl (by decide)).trans h_v117,
    (keep main_v120 rfl (by decide)).trans h_v118,
    new_binary a2 h_v119 rfl⟩
theorem step148 (hA : Args x0 x1 x2 x3 x4 x5 x6 x7 x8 x9 x10 x11 x12 x13 V) (hL : Live148 x0 x1 x2 x3 x4 x5 x6 x7 x8 x9 x10 x11 x12 x13 V) :
    Args x0 x1 x2 x3 x4 x5 x6 x7 x8 x9 x10 x11 x12 x13 ((nullary main_c_23 (constantI S_ 32 100000#32) : HloOp τ sig (Elt F)).result V) ∧ Live149 x0 x1 x2 x3 x4 x5 x6 x7 x8 x9 x10 x11 x12 x13 ((nullary main_c_23 (constantI S_ 32 100000#32) : HloOp τ sig (Elt F)).result V) := by
  refine ⟨args_step main_c_23 rfl (by decide) hA, ?_⟩
  obtain ⟨h_v12, h_v87, h_v117, h_v118, h_v120⟩ := hL
  exact ⟨(keep main_c_23 rfl (by decide)).trans h_v12,
    (keep main_c_23 rfl (by decide)).trans h_v87,
    (keep main_c_23 rfl (by decide)).trans h_v117,
    (keep main_c_23 rfl (by decide)).trans h_v118,
    (keep main_c_23 rfl (by decide)).trans h_v120,
    new_nullary rfl⟩
theorem step149 (hA : Args x0 x1 x2 x3 x4 x5 x6 x7 x8 x9 x10 x11 x12 x13 V) (hL : Live149 x0 x1 x2 x3 x4 x5 x6 x7 x8 x9 x10 x11 x12 x13 V) :
    Args x0 x1 x2 x3 x4 x5 x6 x7 x8 x9 x10 x11 x12 x13 ((unary main_c_23 main_v121 (broadcastInDim S800000 ![] bcast_S_S800000 : (⟨S_, .i32⟩ : BufTy).Contents (Elt F) → (⟨S800000, .i32⟩ : BufTy).Contents (Elt F)) : HloOp τ sig (Elt F)).result V) ∧ Live150 x0 x1 x2 x3 x4 x5 x6 x7 x8 x9 x10 x11 x12 x13 ((unary main_c_23 main_v121 (broadcastInDim S800000 ![] bcast_S_S800000 : (⟨S_, .i32⟩ : BufTy).Contents (Elt F) → (⟨S800000, .i32⟩ : BufTy).Contents (Elt F)) : HloOp τ sig (Elt F)).result V) := by
  refine ⟨args_step main_v121 rfl (by decide) hA, ?_⟩
  obtain ⟨h_v12, h_v87, h_v117, h_v118, h_v120, h_c_23⟩ := hL
  exact ⟨(keep main_v121 rfl (by decide)).trans h_v12,
    (keep main_v121 rfl (by decide)).trans h_v87,
    (keep main_v121 rfl (by decide)).trans h_v117,
    (keep main_v121 rfl (by decide)).trans h_v118,
    (keep main_v121 rfl (by decide)).trans h_v120,
    new_unary h_c_23 rfl⟩
theorem step150 (hA : Args x0 x1 x2 x3 x4 x5 x6 x7 x8 x9 x10 x11 x12 x13 V) (hL : Live150 x0 x1 x2 x3 x4 x5 x6 x7 x8 x9 x10 x11 x12 x13 V) :
    Args x0 x1 x2 x3 x4 x5 x6 x7 x8 x9 x10 x11 x12 x13 ((binary main_arg2 main_v121 main_v122 (addi : (⟨S800000, .i32⟩ : BufTy).Contents (Elt F) → (⟨S800000, .i32⟩ : BufTy).Contents (Elt F) → (⟨S800000, .i32⟩ : BufTy).Contents (Elt F)) : HloOp τ sig (Elt F)).result V) ∧ Live151 x0 x1 x2 x3 x4 x5 x6 x7 x8 x9 x10 x11 x12 x13 ((binary main_arg2 main_v121 main_v122 (addi : (⟨S800000, .i32⟩ : BufTy).Contents (Elt F) → (⟨S800000, .i32⟩ : BufTy).Contents (Elt F) → (⟨S800000, .i32⟩ : BufTy).Contents (Elt F)) : HloOp τ sig (Elt F)).result V) := by
  refine ⟨args_step main_v122 rfl (by decide) hA, ?_⟩
  unfold Args at hA
  obtain ⟨a0, a1, a2, a3, a4, a5, a6, a7, a8, a9, a10, a11, a12, a13⟩ := hA
  obtain ⟨h_v12, h_v87, h_v117, h_v118, h_v120, h_v121⟩ := hL
  exact ⟨(keep main_v122 rfl (by decide)).trans h_v12,
    (keep main_v122 rfl (by decide)).trans h_v87,
    (keep main_v122 rfl (by decide)).trans h_v117,
    (keep main_v122 rfl (by decide)).trans h_v118,
    (keep main_v122 rfl (by decide)).trans h_v120,
    new_binary a2 h_v121 rfl⟩
theorem step151 (hA : Args x0 x1 x2 x3 x4 x5 x6 x7 x8 x9 x10 x11 x12 x13 V) (hL : Live151 x0 x1 x2 x3 x4 x5 x6 x7 x8 x9 x10 x11 x12 x13 V) :
    Args x0 x1 x2 x3 x4 x5 x6 x7 x8 x9 x10 x11 x12 x13 ((ternary main_v120 main_v122 main_arg2 main_v123 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) : HloOp τ sig (Elt F)).result V) ∧ Live152 x0 x1 x2 x3 x4 x5 x6 x7 x8 x9 x10 x11 x12 x13 ((ternary main_v120 main_v122 main_arg2 main_v123 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) : HloOp τ sig (Elt F)).result V) := by
  refine ⟨args_step main_v123 rfl (by decide) hA, ?_⟩
  unfold Args at hA
  obtain ⟨a0, a1, a2, a3, a4, a5, a6, a7, a8, a9, a10, a11, a12, a13⟩ := hA
  obtain ⟨h_v12, h_v87, h_v117, h_v118, h_v120, h_v122⟩ := hL
  exact ⟨(keep main_v123 rfl (by decide)).trans h_v12,
    (keep main_v123 rfl (by decide)).trans h_v87,
    (keep main_v123 rfl (by decide)).trans h_v117,
    (keep main_v123 rfl (by decide)).trans h_v118,
    new_ternary h_v120 h_v122 a2 rfl⟩
theorem step152 (hA : Args x0 x1 x2 x3 x4 x5 x6 x7 x8 x9 x10 x11 x12 x13 V) (hL : Live152 x0 x1 x2 x3 x4 x5 x6 x7 x8 x9 x10 x11 x12 x13 V) :
    Args x0 x1 x2 x3 x4 x5 x6 x7 x8 x9 x10 x11 x12 x13 ((unary main_v123 main_v124 (broadcastInDim S800000x1 ![0] bcast_S800000_S800000x1_0 : (⟨S800000, .i32⟩ : BufTy).Contents (Elt F) → (⟨S800000x1, .i32⟩ : BufTy).Contents (Elt F)) : HloOp τ sig (Elt F)).result V) ∧ Live153 x0 x1 x2 x3 x4 x5 x6 x7 x8 x9 x10 x11 x12 x13 ((unary main_v123 main_v124 (broadcastInDim S800000x1 ![0] bcast_S800000_S800000x1_0 : (⟨S800000, .i32⟩ : BufTy).Contents (Elt F) → (⟨S800000x1, .i32⟩ : BufTy).Contents (Elt F)) : HloOp τ sig (Elt F)).result V) := by
  refine ⟨args_step main_v124 rfl (by decide) hA, ?_⟩
  obtain ⟨h_v12, h_v87, h_v117, h_v118, h_v123⟩ := hL
  exact ⟨(keep main_v124 rfl (by decide)).trans h_v12,
    (keep main_v124 rfl (by decide)).trans h_v87,
    (keep main_v124 rfl (by decide)).trans h_v117,
    (keep main_v124 rfl (by decide)).trans h_v118,
    new_unary h_v123 rfl⟩
theorem step153 (hA : Args x0 x1 x2 x3 x4 x5 x6 x7 x8 x9 x10 x11 x12 x13 V) (hL : Live153 x0 x1 x2 x3 x4 x5 x6 x7 x8 x9 x10 x11 x12 x13 V) :
    Args x0 x1 x2 x3 x4 x5 x6 x7 x8 x9 x10 x11 x12 x13 ((binary main_v117 main_v124 main_v125 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)) : HloOp τ sig (Elt F)).result V) ∧ Live154 x0 x1 x2 x3 x4 x5 x6 x7 x8 x9 x10 x11 x12 x13 ((binary main_v117 main_v124 main_v125 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)) : HloOp τ sig (Elt F)).result V) := by
  refine ⟨args_step main_v125 rfl (by decide) hA, ?_⟩
  obtain ⟨h_v12, h_v87, h_v117, h_v118, h_v124⟩ := hL
  exact ⟨(keep main_v125 rfl (by decide)).trans h_v12,
    (keep main_v125 rfl (by decide)).trans h_v87,
    (keep main_v125 rfl (by decide)).trans h_v118,
    new_binary h_v117 h_v124 rfl⟩
theorem step154 (hA : Args x0 x1 x2 x3 x4 x5 x6 x7 x8 x9 x10 x11 x12 x13 V) (hL : Live154 x0 x1 x2 x3 x4 x5 x6 x7 x8 x9 x10 x11 x12 x13 V) :
    Args x0 x1 x2 x3 x4 x5 x6 x7 x8 x9 x10 x11 x12 x13 ((unary main_v118 main_v126 (broadcastInDim S800000x64 ![0, 1] bcast_S800000x1_S800000x64_0_1 : (⟨S800000x1, .f32⟩ : BufTy).Contents (Elt F) → (⟨S800000x64, .f32⟩ : BufTy).Contents (Elt F)) : HloOp τ sig (Elt F)).result V) ∧ Live155 x0 x1 x2 x3 x4 x5 x6 x7 x8 x9 x10 x11 x12 x13 ((unary main_v118 main_v126 (broadcastInDim S800000x64 ![0, 1] bcast_S800000x1_S800000x64_0_1 : (⟨S800000x1, .f32⟩ : BufTy).Contents (Elt F) → (⟨S800000x64, .f32⟩ : BufTy).Contents (Elt F)) : HloOp τ sig (Elt F)).result V) := by
  refine ⟨args_step main_v126 rfl (by decide) hA, ?_⟩
  obtain ⟨h_v12, h_v87, h_v118, h_v125⟩ := hL
  exact ⟨(keep main_v126 rfl (by decide)).trans h_v12,
    (keep main_v126 rfl (by decide)).trans h_v87,
    (keep main_v126 rfl (by decide)).trans h_v125,
    new_unary h_v118 rfl⟩
theorem step155 (hA : Args x0 x1 x2 x3 x4 x5 x6 x7 x8 x9 x10 x11 x12 x13 V) (hL : Live155 x0 x1 x2 x3 x4 x5 x6 x7 x8 x9 x10 x11 x12 x13 V) :
    Args x0 x1 x2 x3 x4 x5 x6 x7 x8 x9 x10 x11 x12 x13 ((binary main_v126 main_v125 main_v127 (mulf : (⟨S800000x64, .f32⟩ : BufTy).Contents (Elt F) → (⟨S800000x64, .f32⟩ : BufTy).Contents (Elt F) → (⟨S800000x64, .f32⟩ : BufTy).Contents (Elt F)) : HloOp τ sig (Elt F)).result V) ∧ Live156 x0 x1 x2 x3 x4 x5 x6 x7 x8 x9 x10 x11 x12 x13 ((binary main_v126 main_v125 main_v127 (mulf : (⟨S800000x64, .f32⟩ : BufTy).Contents (Elt F) → (⟨S800000x64, .f32⟩ : BufTy).Contents (Elt F) → (⟨S800000x64, .f32⟩ : BufTy).Contents (Elt F)) : HloOp τ sig (Elt F)).result V) := by
  refine ⟨args_step main_v127 rfl (by decide) hA, ?_⟩
  obtain ⟨h_v12, h_v87, h_v125, h_v126⟩ := hL
  exact ⟨(keep main_v127 rfl (by decide)).trans h_v12,
    (keep main_v127 rfl (by decide)).trans h_v87,
    new_binary h_v126 h_v125 rfl⟩
theorem step156 (hA : Args x0 x1 x2 x3 x4 x5 x6 x7 x8 x9 x10 x11 x12 x13 V) (hL : Live156 x0 x1 x2 x3 x4 x5 x6 x7 x8 x9 x10 x11 x12 x13 V) :
    Args x0 x1 x2 x3 x4 x5 x6 x7 x8 x9 x10 x11 x12 x13 ((nullary main_cst_24 (constant S_ .f32 0x00000000#32) : HloOp τ sig (Elt F)).result V) ∧ Live157 x0 x1 x2 x3 x4 x5 x6 x7 x8 x9 x10 x11 x12 x13 ((nullary main_cst_24 (constant S_ .f32 0x00000000#32) : HloOp τ sig (Elt F)).result V) := by
  refine ⟨args_step main_cst_24 rfl (by decide) hA, ?_⟩
  obtain ⟨h_v12, h_v87, h_v127⟩ := hL
  exact ⟨(keep main_cst_24 rfl (by decide)).trans h_v12,
    (keep main_cst_24 rfl (by decide)).trans h_v87,
    (keep main_cst_24 rfl (by decide)).trans h_v127,
    new_nullary rfl⟩
theorem step157 (hA : Args x0 x1 x2 x3 x4 x5 x6 x7 x8 x9 x10 x11 x12 x13 V) (hL : Live157 x0 x1 x2 x3 x4 x5 x6 x7 x8 x9 x10 x11 x12 x13 V) :
    Args x0 x1 x2 x3 x4 x5 x6 x7 x8 x9 x10 x11 x12 x13 ((unary main_cst_24 main_v128 (broadcastInDim S100000x64 ![] bcast_S_S100000x64 : (⟨S_, .f32⟩ : BufTy).Contents (Elt F) → (⟨S100000x64, .f32⟩ : BufTy).Contents (Elt F)) : HloOp τ sig (Elt F)).result V) ∧ Live158 x0 x1 x2 x3 x4 x5 x6 x7 x8 x9 x10 x11 x12 x13 ((unary main_cst_24 main_v128 (broadcastInDim S100000x64 ![] bcast_S_S100000x64 : (⟨S_, .f32⟩ : BufTy).Contents (Elt F) → (⟨S100000x64, .f32⟩ : BufTy).Contents (Elt F)) : HloOp τ sig (Elt F)).result V) := by
  refine ⟨args_step main_v128 rfl (by decide) hA, ?_⟩
  obtain ⟨h_v12, h_v87, h_v127, h_cst_24⟩ := hL
  exact ⟨(keep main_v128 rfl (by decide)).trans h_v12,
    (keep main_v128 rfl (by decide)).trans h_v87,
    (keep main_v128 rfl (by decide)).trans h_v127,
    new_unary h_cst_24 rfl⟩
theorem step158 (hA : Args x0 x1 x2 x3 x4 x5 x6 x7 x8 x9 x10 x11 x12 x13 V) (hL : Live158 x0 x1 x2 x3 x4 x5 x6 x7 x8 x9 x10 x11 x12 x13 V) :
    Args x0 x1 x2 x3 x4 x5 x6 x7 x8 x9 x10 x11 x12 x13 ((unary main_arg1 main_v129 (broadcastInDim S800000x1 ![0] bcast_S800000_S800000x1_0 : (⟨S800000, .i32⟩ : BufTy).Contents (Elt F) → (⟨S800000x1, .i32⟩ : BufTy).Contents (Elt F)) : HloOp τ sig (Elt F)).result V) ∧ Live159 x0 x1 x2 x3 x4 x5 x6 x7 x8 x9 x10 x11 x12 x13 ((unary main_arg1 main_v129 (broadcastInDim S800000x1 ![0] bcast_S800000_S800000x1_0 : (⟨S800000, .i32⟩ : BufTy).Contents (Elt F) → (⟨S800000x1, .i32⟩ : BufTy).Contents (Elt F)) : HloOp τ sig (Elt F)).result V) := by
  refine ⟨args_step main_v129 rfl (by decide) hA, ?_⟩
  unfold Args at hA
  obtain ⟨a0, a1, a2, a3, a4, a5, a6, a7, a8, a9, a10, a11, a12, a13⟩ := hA
  obtain ⟨h_v12, h_v87, h_v127, h_v128⟩ := hL
  exact ⟨(keep main_v129 rfl (by decide)).trans h_v12,
    (keep main_v129 rfl (by decide)).trans h_v87,
    (keep main_v129 rfl (by decide)).trans h_v127,
    (keep main_v129 rfl (by decide)).trans h_v128,
    new_unary a1 rfl⟩
theorem step159 (hA : Args x0 x1 x2 x3 x4 x5 x6 x7 x8 x9 x10 x11 x12 x13 V) (hL : Live159 x0 x1 x2 x3 x4 x5 x6 x7 x8 x9 x10 x11 x12 x13 V) :
    Args x0 x1 x2 x3 x4 x5 x6 x7 x8 x9 x10 x11 x12 x13 ((ternary main_v128 main_v129 main_v127 main_v130 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)) : HloOp τ sig (Elt F)).result V) ∧ Live160 x0 x1 x2 x3 x4 x5 x6 x7 x8 x9 x10 x11 x12 x13 ((ternary main_v128 main_v129 main_v127 main_v130 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)) : HloOp τ sig (Elt F)).result V) := by
  refine ⟨args_step main_v130 rfl (by decide) hA, ?_⟩
  obtain ⟨h_v12, h_v87, h_v127, h_v128, h_v129⟩ := hL
  exact ⟨(keep main_v130 rfl (by decide)).trans h_v12,
    (keep main_v130 rfl (by decide)).trans h_v87,
    new_ternary h_v128 h_v129 h_v127 rfl⟩
theorem step160 (hA : Args x0 x1 x2 x3 x4 x5 x6 x7 x8 x9 x10 x11 x12 x13 V) (hL : Live160 x0 x1 x2 x3 x4 x5 x6 x7 x8 x9 x10 x11 x12 x13 V) :
    Args x0 x1 x2 x3 x4 x5 x6 x7 x8 x9 x10 x11 x12 x13 ((binary main_v12 main_arg0 main_v131 (addf : (⟨S100000x64, .f32⟩ : BufTy).Contents (Elt F) → (⟨S100000x64, .f32⟩ : BufTy).Contents (Elt F) → (⟨S100000x64, .f32⟩ : BufTy).Contents (Elt F)) : HloOp τ sig (Elt F)).result V) ∧ Live161 x0 x1 x2 x3 x4 x5 x6 x7 x8 x9 x10 x11 x12 x13 ((binary main_v12 main_arg0 main_v131 (addf : (⟨S100000x64, .f32⟩ : BufTy).Contents (Elt F) → (⟨S100000x64, .f32⟩ : BufTy).Contents (Elt F) → (⟨S100000x64, .f32⟩ : BufTy).Contents (Elt F)) : HloOp τ sig (Elt F)).result V) := by
  refine ⟨args_step main_v131 rfl (by decide) hA, ?_⟩
  unfold Args at hA
  obtain ⟨a0, a1, a2, a3, a4, a5, a6, a7, a8, a9, a10, a11, a12, a13⟩ := hA
  obtain ⟨h_v12, h_v87, h_v130⟩ := hL
  exact ⟨(keep main_v131 rfl (by decide)).trans h_v87,
    (keep main_v131 rfl (by decide)).trans h_v130,
    new_binary h_v12 a0 rfl⟩
theorem step161 (hA : Args x0 x1 x2 x3 x4 x5 x6 x7 x8 x9 x10 x11 x12 x13 V) (hL : Live161 x0 x1 x2 x3 x4 x5 x6 x7 x8 x9 x10 x11 x12 x13 V) :
    Args x0 x1 x2 x3 x4 x5 x6 x7 x8 x9 x10 x11 x12 x13 ((binary main_v87 main_arg0 main_v132 (addf : (⟨S100000x64, .f32⟩ : BufTy).Contents (Elt F) → (⟨S100000x64, .f32⟩ : BufTy).Contents (Elt F) → (⟨S100000x64, .f32⟩ : BufTy).Contents (Elt F)) : HloOp τ sig (Elt F)).result V) ∧ Live162 x0 x1 x2 x3 x4 x5 x6 x7 x8 x9 x10 x11 x12 x13 ((binary main_v87 main_arg0 main_v132 (addf : (⟨S100000x64, .f32⟩ : BufTy).Contents (Elt F) → (⟨S100000x64, .f32⟩ : BufTy).Contents (Elt F) → (⟨S100000x64, .f32⟩ : BufTy).Contents (Elt F)) : HloOp τ sig (Elt F)).result V) := by
  refine ⟨args_step main_v132 rfl (by decide) hA, ?_⟩
  unfold Args at hA
  obtain ⟨a0, a1, a2, a3, a4, a5, a6, a7, a8, a9, a10, a11, a12, a13⟩ := hA
  obtain ⟨h_v87, h_v130, h_v131⟩ := hL
  exact ⟨(keep main_v132 rfl (by decide)).trans h_v130,
    (keep main_v132 rfl (by decide)).trans h_v131,
    new_binary h_v87 a0 rfl⟩
theorem step162 (hA : Args x0 x1 x2 x3 x4 x5 x6 x7 x8 x9 x10 x11 x12 x13 V) (hL : Live162 x0 x1 x2 x3 x4 x5 x6 x7 x8 x9 x10 x11 x12 x13 V) :
    Args x0 x1 x2 x3 x4 x5 x6 x7 x8 x9 x10 x11 x12 x13 ((binary main_v130 main_arg0 main_v133 (addf : (⟨S100000x64, .f32⟩ : BufTy).Contents (Elt F) → (⟨S100000x64, .f32⟩ : BufTy).Contents (Elt F) → (⟨S100000x64, .f32⟩ : BufTy).Contents (Elt F)) : HloOp τ sig (Elt F)).result V) ∧ Live163 x0 x1 x2 x3 x4 x5 x6 x7 x8 x9 x10 x11 x12 x13 ((binary main_v130 main_arg0 main_v133 (addf : (⟨S100000x64, .f32⟩ : BufTy).Contents (Elt F) → (⟨S100000x64, .f32⟩ : BufTy).Contents (Elt F) → (⟨S100000x64, .f32⟩ : BufTy).Contents (Elt F)) : HloOp τ sig (Elt F)).result V) := by
  refine ⟨args_step main_v133 rfl (by decide) hA, ?_⟩
  unfold Args at hA
  obtain ⟨a0, a1, a2, a3, a4, a5, a6, a7, a8, a9, a10, a11, a12, a13⟩ := hA
  obtain ⟨h_v130, h_v131, h_v132⟩ := hL
  exact ⟨(keep main_v133 rfl (by decide)).trans h_v131,
    (keep main_v133 rfl (by decide)).trans h_v132,
    new_binary h_v130 a0 rfl⟩
theorem step163 (hA : Args x0 x1 x2 x3 x4 x5 x6 x7 x8 x9 x10 x11 x12 x13 V) (hL : Live163 x0 x1 x2 x3 x4 x5 x6 x7 x8 x9 x10 x11 x12 x13 V) :
    Args x0 x1 x2 x3 x4 x5 x6 x7 x8 x9 x10 x11 x12 x13 ((binary main_arg0 main_v131 main_v134 (addf : (⟨S100000x64, .f32⟩ : BufTy).Contents (Elt F) → (⟨S100000x64, .f32⟩ : BufTy).Contents (Elt F) → (⟨S100000x64, .f32⟩ : BufTy).Contents (Elt F)) : HloOp τ sig (Elt F)).result V) ∧ Live164 x0 x1 x2 x3 x4 x5 x6 x7 x8 x9 x10 x11 x12 x13 ((binary main_arg0 main_v131 main_v134 (addf : (⟨S100000x64, .f32⟩ : BufTy).Contents (Elt F) → (⟨S100000x64, .f32⟩ : BufTy).Contents (Elt F) → (⟨S100000x64, .f32⟩ : BufTy).Contents (Elt F)) : HloOp τ sig (Elt F)).result V) := by
  refine ⟨args_step main_v134 rfl (by decide) hA, ?_⟩
  unfold Args at hA
  obtain ⟨a0, a1, a2, a3, a4, a5, a6, a7, a8, a9, a10, a11, a12, a13⟩ := hA
  obtain ⟨h_v131, h_v132, h_v133⟩ := hL
  exact ⟨(keep main_v134 rfl (by decide)).trans h_v131,
    (keep main_v134 rfl (by decide)).trans h_v132,
    (keep main_v134 rfl (by decide)).trans h_v133,
    new_binary a0 h_v131 rfl⟩
theorem step164 (hA : Args x0 x1 x2 x3 x4 x5 x6 x7 x8 x9 x10 x11 x12 x13 V) (hL : Live164 x0 x1 x2 x3 x4 x5 x6 x7 x8 x9 x10 x11 x12 x13 V) :
    Args x0 x1 x2 x3 x4 x5 x6 x7 x8 x9 x10 x11 x12 x13 ((binary main_arg0 main_v132 main_v135 (addf : (⟨S100000x64, .f32⟩ : BufTy).Contents (Elt F) → (⟨S100000x64, .f32⟩ : BufTy).Contents (Elt F) → (⟨S100000x64, .f32⟩ : BufTy).Contents (Elt F)) : HloOp τ sig (Elt F)).result V) ∧ Live165 x0 x1 x2 x3 x4 x5 x6 x7 x8 x9 x10 x11 x12 x13 ((binary main_arg0 main_v132 main_v135 (addf : (⟨S100000x64, .f32⟩ : BufTy).Contents (Elt F) → (⟨S100000x64, .f32⟩ : BufTy).Contents (Elt F) → (⟨S100000x64, .f32⟩ : BufTy).Contents (Elt F)) : HloOp τ sig (Elt F)).result V) := by
  refine ⟨args_step main_v135 rfl (by decide) hA, ?_⟩
  unfold Args at hA
  obtain ⟨a0, a1, a2, a3, a4, a5, a6, a7, a8, a9, a10, a11, a12, a13⟩ := hA
  obtain ⟨h_v131, h_v132, h_v133, h_v134⟩ := hL
  exact ⟨(keep main_v135 rfl (by decide)).trans h_v131,
    (keep main_v135 rfl (by decide)).trans h_v132,
    (keep main_v135 rfl (by decide)).trans h_v133,
    (keep main_v135 rfl (by decide)).trans h_v134,
    new_binary a0 h_v132 rfl⟩
theorem step165 (hA : Args x0 x1 x2 x3 x4 x5 x6 x7 x8 x9 x10 x11 x12 x13 V) (hL : Live165 x0 x1 x2 x3 x4 x5 x6 x7 x8 x9 x10 x11 x12 x13 V) :
    Args x0 x1 x2 x3 x4 x5 x6 x7 x8 x9 x10 x11 x12 x13 ((binary main_arg0 main_v133 main_v136 (addf : (⟨S100000x64, .f32⟩ : BufTy).Contents (Elt F) → (⟨S100000x64, .f32⟩ : BufTy).Contents (Elt F) → (⟨S100000x64, .f32⟩ : BufTy).Contents (Elt F)) : HloOp τ sig (Elt F)).result V) ∧ Live166 x0 x1 x2 x3 x4 x5 x6 x7 x8 x9 x10 x11 x12 x13 ((binary main_arg0 main_v133 main_v136 (addf : (⟨S100000x64, .f32⟩ : BufTy).Contents (Elt F) → (⟨S100000x64, .f32⟩ : BufTy).Contents (Elt F) → (⟨S100000x64, .f32⟩ : BufTy).Contents (Elt F)) : HloOp τ sig (Elt F)).result V) := by
  refine ⟨args_step main_v136 rfl (by decide) hA, ?_⟩
  unfold Args at hA
  obtain ⟨a0, a1, a2, a3, a4, a5, a6, a7, a8, a9, a10, a11, a12, a13⟩ := hA
  obtain ⟨h_v131, h_v132, h_v133, h_v134, h_v135⟩ := hL
  exact ⟨(keep main_v136 rfl (by decide)).trans h_v131,
    (keep main_v136 rfl (by decide)).trans h_v132,
    (keep main_v136 rfl (by decide)).trans h_v133,
    (keep main_v136 rfl (by decide)).trans h_v134,
    (keep main_v136 rfl (by decide)).trans h_v135,
    new_binary a0 h_v133 rfl⟩
theorem step166 (hA : Args x0 x1 x2 x3 x4 x5 x6 x7 x8 x9 x10 x11 x12 x13 V) (hL : Live166 x0 x1 x2 x3 x4 x5 x6 x7 x8 x9 x10 x11 x12 x13 V) :
    Args x0 x1 x2 x3 x4 x5 x6 x7 x8 x9 x10 x11 x12 x13 ((unary main_arg3 main_v137 (broadcastInDim S800000x1 ![0] bcast_S800000_S800000x1_0 : (⟨S800000, .f32⟩ : BufTy).Contents (Elt F) → (⟨S800000x1, .f32⟩ : BufTy).Contents (Elt F)) : HloOp τ sig (Elt F)).result V) ∧ Live167 x0 x1 x2 x3 x4 x5 x6 x7 x8 x9 x10 x11 x12 x13 ((unary main_arg3 main_v137 (broadcastInDim S800000x1 ![0] bcast_S800000_S800000x1_0 : (⟨S800000, .f32⟩ : BufTy).Contents (Elt F) → (⟨S800000x1, .f32⟩ : BufTy).Contents (Elt F)) : HloOp τ sig (Elt F)).result V) := by
  refine ⟨args_step main_v137 rfl (by decide) hA, ?_⟩
  unfold Args at hA
  obtain ⟨a0, a1, a2, a3, a4, a5, a6, a7, a8, a9, a10, a11, a12, a13⟩ := hA
  obtain ⟨h_v131, h_v132, h_v133, h_v134, h_v135, h_v136⟩ := hL
  exact ⟨(keep main_v137 rfl (by decide)).trans h_v131,
    (keep main_v137 rfl (by decide)).trans h_v132,
    (keep main_v137 rfl (by decide)).trans h_v133,
    (keep main_v137 rfl (by decide)).trans h_v134,
    (keep main_v137 rfl (by decide)).trans h_v135,
    (keep main_v137 rfl (by decide)).trans h_v136,
    new_unary a3 rfl⟩
theorem step167 (hA : Args x0 x1 x2 x3 x4 x5 x6 x7 x8 x9 x10 x11 x12 x13 V) (hL : Live167 x0 x1 x2 x3 x4 x5 x6 x7 x8 x9 x10 x11 x12 x13 V) :
    Args x0 x1 x2 x3 x4 x5 x6 x7 x8 x9 x10 x11 x12 x13 ((nullary main_c_25 (constantI S_ 32 0#32) : HloOp τ sig (Elt F)).result V) ∧ Live168 x0 x1 x2 x3 x4 x5 x6 x7 x8 x9 x10 x11 x12 x13 ((nullary main_c_25 (constantI S_ 32 0#32) : HloOp τ sig (Elt F)).result V) := by
  refine ⟨args_step main_c_25 rfl (by decide) hA, ?_⟩
  obtain ⟨h_v131, h_v132, h_v133, h_v134, h_v135, h_v136, h_v137⟩ := hL
  exact ⟨(keep main_c_25 rfl (by decide)).trans h_v131,
    (keep main_c_25 rfl (by decide)).trans h_v132,
    (keep main_c_25 rfl (by decide)).trans h_v133,
    (keep main_c_25 rfl (by decide)).trans h_v134,
    (keep main_c_25 rfl (by decide)).trans h_v135,
    (keep main_c_25 rfl (by decide)).trans h_v136,
    (keep main_c_25 rfl (by decide)).trans h_v137,
    new_nullary rfl⟩
theorem step168 (hA : Args x0 x1 x2 x3 x4 x5 x6 x7 x8 x9 x10 x11 x12 x13 V) (hL : Live168 x0 x1 x2 x3 x4 x5 x6 x7 x8 x9 x10 x11 x12 x13 V) :
    Args x0 x1 x2 x3 x4 x5 x6 x7 x8 x9 x10 x11 x12 x13 ((unary main_c_25 main_v138 (broadcastInDim S800000 ![] bcast_S_S800000 : (⟨S_, .i32⟩ : BufTy).Contents (Elt F) → (⟨S800000, .i32⟩ : BufTy).Contents (Elt F)) : HloOp τ sig (Elt F)).result V) ∧ Live169 x0 x1 x2 x3 x4 x5 x6 x7 x8 x9 x10 x11 x12 x13 ((unary main_c_25 main_v138 (broadcastInDim S800000 ![] bcast_S_S800000 : (⟨S_, .i32⟩ : BufTy).Contents (Elt F) → (⟨S800000, .i32⟩ : BufTy).Contents (Elt F)) : HloOp τ sig (Elt F)).result V) := by
  refine ⟨args_step main_v138 rfl (by decide) hA, ?_⟩
  obtain ⟨h_v131, h_v132, h_v133, h_v134, h_v135, h_v136, h_v137, h_c_25⟩ := hL
  exact ⟨(keep main_v138 rfl (by decide)).trans h_v131,
    (keep main_v138 rfl (by decide)).trans h_v132,
    (keep main_v138 rfl (by decide)).trans h_v133,
    (keep main_v138 rfl (by decide)).trans h_v134,
    (keep main_v138 rfl (by decide)).trans h_v135,
    (keep main_v138 rfl (by decide)).trans h_v136,
    (keep main_v138 rfl (by decide)).trans h_v137,
    new_unary h_c_25 rfl⟩
theorem step169 (hA : Args x0 x1 x2 x3 x4 x5 x6 x7 x8 x9 x10 x11 x12 x13 V) (hL : Live169 x0 x1 x2 x3 x4 x5 x6 x7 x8 x9 x10 x11 x12 x13 V) :
    Args x0 x1 x2 x3 x4 x5 x6 x7 x8 x9 x10 x11 x12 x13 ((binary main_arg2 main_v138 main_v139 (cmpi .slt : (⟨S800000, .i32⟩ : BufTy).Contents (Elt F) → (⟨S800000, .i32⟩ : BufTy).Contents (Elt F) → (⟨S800000, .i1⟩ : BufTy).Contents (Elt F)) : HloOp τ sig (Elt F)).result V) ∧ Live170 x0 x1 x2 x3 x4 x5 x6 x7 x8 x9 x10 x11 x12 x13 ((binary main_arg2 main_v138 main_v139 (cmpi .slt : (⟨S800000, .i32⟩ : BufTy).Contents (Elt F) → (⟨S800000, .i32⟩ : BufTy).Contents (Elt F) → (⟨S800000, .i1⟩ : BufTy).Contents (Elt F)) : HloOp τ sig (Elt F)).result V) := by
  refine ⟨args_step main_v139 rfl (by decide) hA, ?_⟩
  unfold Args at hA
  obtain ⟨a0, a1, a2, a3, a4, a5, a6, a7, a8, a9, a10, a11, a12, a13⟩ := hA
  obtain ⟨h_v131, h_v132, h_v133, h_v134, h_v135, h_v136, h_v137, h_v138⟩ := hL
  exact ⟨(keep main_v139 rfl (by decide)).trans h_v131,
    (keep main_v139 rfl (by decide)).trans h_v132,
    (keep main_v139 rfl (by decide)).trans h_v133,
    (keep main_v139 rfl (by decide)).trans h_v134,
    (keep main_v139 rfl (by decide)).trans h_v135,
    (keep main_v139 rfl (by decide)).trans h_v136,
    (keep main_v139 rfl (by decide)).trans h_v137,
    new_binary a2 h_v138 rfl⟩
theorem step170 (hA : Args x0 x1 x2 x3 x4 x5 x6 x7 x8 x9 x10 x11 x12 x13 V) (hL : Live170 x0 x1 x2 x3 x4 x5 x6 x7 x8 x9 x10 x11 x12 x13 V) :
    Args x0 x1 x2 x3 x4 x5 x6 x7 x8 x9 x10 x11 x12 x13 ((nullary main_c_26 (constantI S_ 32 100000#32) : HloOp τ sig (Elt F)).result V) ∧ Live171 x0 x1 x2 x3 x4 x5 x6 x7 x8 x9 x10 x11 x12 x13 ((nullary main_c_26 (constantI S_ 32 100000#32) : HloOp τ sig (Elt F)).result V) := by
  refine ⟨args_step main_c_26 rfl (by decide) hA, ?_⟩
  obtain ⟨h_v131, h_v132, h_v133, h_v134, h_v135, h_v136, h_v137, h_v139⟩ := hL
  exact ⟨(keep main_c_26 rfl (by decide)).trans h_v131,
    (keep main_c_26 rfl (by decide)).trans h_v132,
    (keep main_c_26 rfl (by decide)).trans h_v133,
    (keep main_c_26 rfl (by decide)).trans h_v134,
    (keep main_c_26 rfl (by decide)).trans h_v135,
    (keep main_c_26 rfl (by decide)).trans h_v136,
    (keep main_c_26 rfl (by decide)).trans h_v137,
    (keep main_c_26 rfl (by decide)).trans h_v139,
    new_nullary rfl⟩
theorem step171 (hA : Args x0 x1 x2 x3 x4 x5 x6 x7 x8 x9 x10 x11 x12 x13 V) (hL : Live171 x0 x1 x2 x3 x4 x5 x6 x7 x8 x9 x10 x11 x12 x13 V) :
    Args x0 x1 x2 x3 x4 x5 x6 x7 x8 x9 x10 x11 x12 x13 ((unary main_c_26 main_v140 (broadcastInDim S800000 ![] bcast_S_S800000 : (⟨S_, .i32⟩ : BufTy).Contents (Elt F) → (⟨S800000, .i32⟩ : BufTy).Contents (Elt F)) : HloOp τ sig (Elt F)).result V) ∧ Live172 x0 x1 x2 x3 x4 x5 x6 x7 x8 x9 x10 x11 x12 x13 ((unary main_c_26 main_v140 (broadcastInDim S800000 ![] bcast_S_S800000 : (⟨S_, .i32⟩ : BufTy).Contents (Elt F) → (⟨S800000, .i32⟩ : BufTy).Contents (Elt F)) : HloOp τ sig (Elt F)).result V) := by
  refine ⟨args_step main_v140 rfl (by decide) hA, ?_⟩
  obtain ⟨h_v131, h_v132, h_v133, h_v134, h_v135, h_v136, h_v137, h_v139, h_c_26⟩ := hL
  exact ⟨(keep main_v140 rfl (by decide)).trans h_v131,
    (keep main_v140 rfl (by decide)).trans h_v132,
    (keep main_v140 rfl (by decide)).trans h_v133,
    (keep main_v140 rfl (by decide)).trans h_v134,
    (keep main_v140 rfl (by decide)).trans h_v135,
    (keep main_v140 rfl (by decide)).trans h_v136,
    (keep main_v140 rfl (by decide)).trans h_v137,
    (keep main_v140 rfl (by decide)).trans h_v139,
    new_unary h_c_26 rfl⟩
theorem step172 (hA : Args x0 x1 x2 x3 x4 x5 x6 x7 x8 x9 x10 x11 x12 x13 V) (hL : Live172 x0 x1 x2 x3 x4 x5 x6 x7 x8 x9 x10 x11 x12 x13 V) :
    Args x0 x1 x2 x3 x4 x5 x6 x7 x8 x9 x10 x11 x12 x13 ((binary main_arg2 main_v140 main_v141 (addi : (⟨S800000, .i32⟩ : BufTy).Contents (Elt F) → (⟨S800000, .i32⟩ : BufTy).Contents (Elt F) → (⟨S800000, .i32⟩ : BufTy).Contents (Elt F)) : HloOp τ sig (Elt F)).result V) ∧ Live173 x0 x1 x2 x3 x4 x5 x6 x7 x8 x9 x10 x11 x12 x13 ((binary main_arg2 main_v140 main_v141 (addi : (⟨S800000, .i32⟩ : BufTy).Contents (Elt F) → (⟨S800000, .i32⟩ : BufTy).Contents (Elt F) → (⟨S800000, .i32⟩ : BufTy).Contents (Elt F)) : HloOp τ sig (Elt F)).result V) := by
  refine ⟨args_step main_v141 rfl (by decide) hA, ?_⟩
  unfold Args at hA
  obtain ⟨a0, a1, a2, a3, a4, a5, a6, a7, a8, a9, a10, a11, a12, a13⟩ := hA
  obtain ⟨h_v131, h_v132, h_v133, h_v134, h_v135, h_v136, h_v137, h_v139, h_v140⟩ := hL
  exact ⟨(keep main_v141 rfl (by decide)).trans h_v131,
    (keep main_v141 rfl (by decide)).trans h_v132,
    (keep main_v141 rfl (by decide)).trans h_v133,
    (keep main_v141 rfl (by decide)).trans h_v134,
    (keep main_v141 rfl (by decide)).trans h_v135,
    (keep main_v141 rfl (by decide)).trans h_v136,
    (keep main_v141 rfl (by decide)).trans h_v137,
    (keep main_v141 rfl (by decide)).trans h_v139,
    new_binary a2 h_v140 rfl⟩
theorem step173 (hA : Args x0 x1 x2 x3 x4 x5 x6 x7 x8 x9 x10 x11 x12 x13 V) (hL : Live173 x0 x1 x2 x3 x4 x5 x6 x7 x8 x9 x10 x11 x12 x13 V) :
    Args x0 x1 x2 x3 x4 x5 x6 x7 x8 x9 x10 x11 x12 x13 ((ternary main_v139 main_v141 main_arg2 main_v142 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) : HloOp τ sig (Elt F)).result V) ∧ Live174 x0 x1 x2 x3 x4 x5 x6 x7 x8 x9 x10 x11 x12 x13 ((ternary main_v139 main_v141 main_arg2 main_v142 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) : HloOp τ sig (Elt F)).result V) := by
  refine ⟨args_step main_v142 rfl (by decide) hA, ?_⟩
  unfold Args at hA
  obtain ⟨a0, a1, a2, a3, a4, a5, a6, a7, a8, a9, a10, a11, a12, a13⟩ := hA
  obtain ⟨h_v131, h_v132, h_v133, h_v134, h_v135, h_v136, h_v137, h_v139, h_v141⟩ := hL
  exact ⟨(keep main_v142 rfl (by decide)).trans h_v131,
    (keep main_v142 rfl (by decide)).trans h_v132,
    (keep main_v142 rfl (by decide)).trans h_v133,
    (keep main_v142 rfl (by decide)).trans h_v134,
    (keep main_v142 rfl (by decide)).trans h_v135,
    (keep main_v142 rfl (by decide)).trans h_v136,
    (keep main_v142 rfl (by decide)).trans h_v137,
    new_ternary h_v139 h_v141 a2 rfl⟩
theorem step174 (hA : Args x0 x1 x2 x3 x4 x5 x6 x7 x8 x9 x10 x11 x12 x13 V) (hL : Live174 x0 x1 x2 x3 x4 x5 x6 x7 x8 x9 x10 x11 x12 x13 V) :
    Args x0 x1 x2 x3 x4 x5 x6 x7 x8 x9 x10 x11 x12 x13 ((unary main_v142 main_v143 (broadcastInDim S800000x1 ![0] bcast_S800000_S800000x1_0 : (⟨S800000, .i32⟩ : BufTy).Contents (Elt F) → (⟨S800000x1, .i32⟩ : BufTy).Contents (Elt F)) : HloOp τ sig (Elt F)).result V) ∧ Live175 x0 x1 x2 x3 x4 x5 x6 x7 x8 x9 x10 x11 x12 x13 ((unary main_v142 main_v143 (broadcastInDim S800000x1 ![0] bcast_S800000_S800000x1_0 : (⟨S800000, .i32⟩ : BufTy).Contents (Elt F) → (⟨S800000x1, .i32⟩ : BufTy).Contents (Elt F)) : HloOp τ sig (Elt F)).result V) := by
  refine ⟨args_step main_v143 rfl (by decide) hA, ?_⟩
  obtain ⟨h_v131, h_v132, h_v133, h_v134, h_v135, h_v136, h_v137, h_v142⟩ := hL
  exact ⟨(keep main_v143 rfl (by decide)).trans h_v131,
    (keep main_v143 rfl (by decide)).trans h_v132,
    (keep main_v143 rfl (by decide)).trans h_v133,
    (keep main_v143 rfl (by decide)).trans h_v134,
    (keep main_v143 rfl (by decide)).trans h_v135,
    (keep main_v143 rfl (by decide)).trans h_v136,
    (keep main_v143 rfl (by decide)).trans h_v137,
    new_unary h_v142 rfl⟩
theorem step175 (hA : Args x0 x1 x2 x3 x4 x5 x6 x7 x8 x9 x10 x11 x12 x13 V) (hL : Live175 x0 x1 x2 x3 x4 x5 x6 x7 x8 x9 x10 x11 x12 x13 V) :
    Args x0 x1 x2 x3 x4 x5 x6 x7 x8 x9 x10 x11 x12 x13 ((binary main_v131 main_v143 main_v144 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)) : HloOp τ sig (Elt F)).result V) ∧ Live176 x0 x1 x2 x3 x4 x5 x6 x7 x8 x9 x10 x11 x12 x13 ((binary main_v131 main_v143 main_v144 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)) : HloOp τ sig (Elt F)).result V) := by
  refine ⟨args_step main_v144 rfl (by decide) hA, ?_⟩
  obtain ⟨h_v131, h_v132, h_v133, h_v134, h_v135, h_v136, h_v137, h_v143⟩ := hL
  exact ⟨(keep main_v144 rfl (by decide)).trans h_v131,
    (keep main_v144 rfl (by decide)).trans h_v132,
    (keep main_v144 rfl (by decide)).trans h_v133,
    (keep main_v144 rfl (by decide)).trans h_v134,
    (keep main_v144 rfl (by decide)).trans h_v135,
    (keep main_v144 rfl (by decide)).trans h_v136,
    (keep main_v144 rfl (by decide)).trans h_v137,
    new_binary h_v131 h_v143 rfl⟩
theorem step176 (hA : Args x0 x1 x2 x3 x4 x5 x6 x7 x8 x9 x10 x11 x12 x13 V) (hL : Live176 x0 x1 x2 x3 x4 x5 x6 x7 x8 x9 x10 x11 x12 x13 V) :
    Args x0 x1 x2 x3 x4 x5 x6 x7 x8 x9 x10 x11 x12 x13 ((unary main_v137 main_v145 (broadcastInDim S800000x64 ![0, 1] bcast_S800000x1_S800000x64_0_1 : (⟨S800000x1, .f32⟩ : BufTy).Contents (Elt F) → (⟨S800000x64, .f32⟩ : BufTy).Contents (Elt F)) : HloOp τ sig (Elt F)).result V) ∧ Live177 x0 x1 x2 x3 x4 x5 x6 x7 x8 x9 x10 x11 x12 x13 ((unary main_v137 main_v145 (broadcastInDim S800000x64 ![0, 1] bcast_S800000x1_S800000x64_0_1 : (⟨S800000x1, .f32⟩ : BufTy).Contents (Elt F) → (⟨S800000x64, .f32⟩ : BufTy).Contents (Elt F)) : HloOp τ sig (Elt F)).result V) := by
  refine ⟨args_step main_v145 rfl (by decide) hA, ?_⟩
  obtain ⟨h_v131, h_v132, h_v133, h_v134, h_v135, h_v136, h_v137, h_v144⟩ := hL
  exact ⟨(keep main_v145 rfl (by decide)).trans h_v131,
    (keep main_v145 rfl (by decide)).trans h_v132,
    (keep main_v145 rfl (by decide)).trans h_v133,
    (keep main_v145 rfl (by decide)).trans h_v134,
    (keep main_v145 rfl (by decide)).trans h_v135,
    (keep main_v145 rfl (by decide)).trans h_v136,
    (keep main_v145 rfl (by decide)).trans h_v144,
    new_unary h_v137 rfl⟩
theorem step177 (hA : Args x0 x1 x2 x3 x4 x5 x6 x7 x8 x9 x10 x11 x12 x13 V) (hL : Live177 x0 x1 x2 x3 x4 x5 x6 x7 x8 x9 x10 x11 x12 x13 V) :
    Args x0 x1 x2 x3 x4 x5 x6 x7 x8 x9 x10 x11 x12 x13 ((binary main_v145 main_v144 main_v146 (mulf : (⟨S800000x64, .f32⟩ : BufTy).Contents (Elt F) → (⟨S800000x64, .f32⟩ : BufTy).Contents (Elt F) → (⟨S800000x64, .f32⟩ : BufTy).Contents (Elt F)) : HloOp τ sig (Elt F)).result V) ∧ Live178 x0 x1 x2 x3 x4 x5 x6 x7 x8 x9 x10 x11 x12 x13 ((binary main_v145 main_v144 main_v146 (mulf : (⟨S800000x64, .f32⟩ : BufTy).Contents (Elt F) → (⟨S800000x64, .f32⟩ : BufTy).Contents (Elt F) → (⟨S800000x64, .f32⟩ : BufTy).Contents (Elt F)) : HloOp τ sig (Elt F)).result V) := by
  refine ⟨args_step main_v146 rfl (by decide) hA, ?_⟩
  obtain ⟨h_v131, h_v132, h_v133, h_v134, h_v135, h_v136, h_v144, h_v145⟩ := hL
  exact ⟨(keep main_v146 rfl (by decide)).trans h_v131,
    (keep main_v146 rfl (by decide)).trans h_v132,
    (keep main_v146 rfl (by decide)).trans h_v133,
    (keep main_v146 rfl (by decide)).trans h_v134,
    (keep main_v146 rfl (by decide)).trans h_v135,
    (keep main_v146 rfl (by decide)).trans h_v136,
    new_binary h_v145 h_v144 rfl⟩
theorem step178 (hA : Args x0 x1 x2 x3 x4 x5 x6 x7 x8 x9 x10 x11 x12 x13 V) (hL : Live178 x0 x1 x2 x3 x4 x5 x6 x7 x8 x9 x10 x11 x12 x13 V) :
    Args x0 x1 x2 x3 x4 x5 x6 x7 x8 x9 x10 x11 x12 x13 ((nullary main_cst_27 (constant S_ .f32 0x00000000#32) : HloOp τ sig (Elt F)).result V) ∧ Live179 x0 x1 x2 x3 x4 x5 x6 x7 x8 x9 x10 x11 x12 x13 ((nullary main_cst_27 (constant S_ .f32 0x00000000#32) : HloOp τ sig (Elt F)).result V) := by
  refine ⟨args_step main_cst_27 rfl (by decide) hA, ?_⟩
  obtain ⟨h_v131, h_v132, h_v133, h_v134, h_v135, h_v136, h_v146⟩ := hL
  exact ⟨(keep main_cst_27 rfl (by decide)).trans h_v131,
    (keep main_cst_27 rfl (by decide)).trans h_v132,
    (keep main_cst_27 rfl (by decide)).trans h_v133,
    (keep main_cst_27 rfl (by decide)).trans h_v134,
    (keep main_cst_27 rfl (by decide)).trans h_v135,
    (keep main_cst_27 rfl (by decide)).trans h_v136,
    (keep main_cst_27 rfl (by decide)).trans h_v146,
    new_nullary rfl⟩
theorem step179 (hA : Args x0 x1 x2 x3 x4 x5 x6 x7 x8 x9 x10 x11 x12 x13 V) (hL : Live179 x0 x1 x2 x3 x4 x5 x6 x7 x8 x9 x10 x11 x12 x13 V) :
    Args x0 x1 x2 x3 x4 x5 x6 x7 x8 x9 x10 x11 x12 x13 ((unary main_cst_27 main_v147 (broadcastInDim S100000x64 ![] bcast_S_S100000x64 : (⟨S_, .f32⟩ : BufTy).Contents (Elt F) → (⟨S100000x64, .f32⟩ : BufTy).Contents (Elt F)) : HloOp τ sig (Elt F)).result V) ∧ Live180 x0 x1 x2 x3 x4 x5 x6 x7 x8 x9 x10 x11 x12 x13 ((unary main_cst_27 main_v147 (broadcastInDim S100000x64 ![] bcast_S_S100000x64 : (⟨S_, .f32⟩ : BufTy).Contents (Elt F) → (⟨S100000x64, .f32⟩ : BufTy).Contents (Elt F)) : HloOp τ sig (Elt F)).result V) := by
  refine ⟨args_step main_v147 rfl (by decide) hA, ?_⟩
  obtain ⟨h_v131, h_v132, h_v133, h_v134, h_v135, h_v136, h_v146, h_cst_27⟩ := hL
  exact ⟨(keep main_v147 rfl (by decide)).trans h_v131,
    (keep main_v147 rfl (by decide)).trans h_v132,
    (keep main_v147 rfl (by decide)).trans h_v133,
    (keep main_v147 rfl (by decide)).trans h_v134,
    (keep main_v147 rfl (by decide)).trans h_v135,
    (keep main_v147 rfl (by decide)).trans h_v136,
    (keep main_v147 rfl (by decide)).trans h_v146,
    new_unary h_cst_27 rfl⟩
theorem step180 (hA : Args x0 x1 x2 x3 x4 x5 x6 x7 x8 x9 x10 x11 x12 x13 V) (hL : Live180 x0 x1 x2 x3 x4 x5 x6 x7 x8 x9 x10 x11 x12 x13 V) :
    Args x0 x1 x2 x3 x4 x5 x6 x7 x8 x9 x10 x11 x12 x13 ((unary main_arg1 main_v148 (broadcastInDim S800000x1 ![0] bcast_S800000_S800000x1_0 : (⟨S800000, .i32⟩ : BufTy).Contents (Elt F) → (⟨S800000x1, .i32⟩ : BufTy).Contents (Elt F)) : HloOp τ sig (Elt F)).result V) ∧ Live181 x0 x1 x2 x3 x4 x5 x6 x7 x8 x9 x10 x11 x12 x13 ((unary main_arg1 main_v148 (broadcastInDim S800000x1 ![0] bcast_S800000_S800000x1_0 : (⟨S800000, .i32⟩ : BufTy).Contents (Elt F) → (⟨S800000x1, .i32⟩ : BufTy).Contents (Elt F)) : HloOp τ sig (Elt F)).result V) := by
  refine ⟨args_step main_v148 rfl (by decide) hA, ?_⟩
  unfold Args at hA
  obtain ⟨a0, a1, a2, a3, a4, a5, a6, a7, a8, a9, a10, a11, a12, a13⟩ := hA
  obtain ⟨h_v131, h_v132, h_v133, h_v134, h_v135, h_v136, h_v146, h_v147⟩ := hL
  exact ⟨(keep main_v148 rfl (by decide)).trans h_v131,
    (keep main_v148 rfl (by decide)).trans h_v132,
    (keep main_v148 rfl (by decide)).trans h_v133,
    (keep main_v148 rfl (by decide)).trans h_v134,
    (keep main_v148 rfl (by decide)).trans h_v135,
    (keep main_v148 rfl (by decide)).trans h_v136,
    (keep main_v148 rfl (by decide)).trans h_v146,
    (keep main_v148 rfl (by decide)).trans h_v147,
    new_unary a1 rfl⟩
theorem step181 (hA : Args x0 x1 x2 x3 x4 x5 x6 x7 x8 x9 x10 x11 x12 x13 V) (hL : Live181 x0 x1 x2 x3 x4 x5 x6 x7 x8 x9 x10 x11 x12 x13 V) :
    Args x0 x1 x2 x3 x4 x5 x6 x7 x8 x9 x10 x11 x12 x13 ((ternary main_v147 main_v148 main_v146 main_v149 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)) : HloOp τ sig (Elt F)).result V) ∧ Live182 x0 x1 x2 x3 x4 x5 x6 x7 x8 x9 x10 x11 x12 x13 ((ternary main_v147 main_v148 main_v146 main_v149 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)) : HloOp τ sig (Elt F)).result V) := by
  refine ⟨args_step main_v149 rfl (by decide) hA, ?_⟩
  obtain ⟨h_v131, h_v132, h_v133, h_v134, h_v135, h_v136, h_v146, h_v147, h_v148⟩ := hL
  exact ⟨(keep main_v149 rfl (by decide)).trans h_v131,
    (keep main_v149 rfl (by decide)).trans h_v132,
    (keep main_v149 rfl (by decide)).trans h_v133,
    (keep main_v149 rfl (by decide)).trans h_v134,
    (keep main_v149 rfl (by decide)).trans h_v135,
    (keep main_v149 rfl (by decide)).trans h_v136,
    new_ternary h_v147 h_v148 h_v146 rfl⟩

end Steps

end Cert.ReferenceIdeal.RunHand

end
-- ==== Proof.RefRunHandStepsB.lean ====
/- The reference program followed one operation at a time: operations 183 to 336.

  One case per operation, each an instance of the general step (module RefRunHandBase): if before the operation the
  arguments hold x0, … and every earlier result still to be read holds its stage, then after it the same holds, the new
  result at its own stage (the stage is the operation's function of the operands' stages, by definition).
-/
import proofs.«170728_j33028298506953_2_alg».proof.Proof.RefRunHandBase
import proofs.«170728_j33028298506953_2_alg».proof.Proof.RefRunHandLive

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

section Steps

variable (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F))

theorem step182 (hA : Args x0 x1 x2 x3 x4 x5 x6 x7 x8 x9 x10 x11 x12 x13 V) (hL : Live182 x0 x1 x2 x3 x4 x5 x6 x7 x8 x9 x10 x11 x12 x13 V) :
    Args x0 x1 x2 x3 x4 x5 x6 x7 x8 x9 x10 x11 x12 x13 ((nullary main_c_28 (constantI S_ 32 0#32) : HloOp τ sig (Elt F)).result V) ∧ Live183 x0 x1 x2 x3 x4 x5 x6 x7 x8 x9 x10 x11 x12 x13 ((nullary main_c_28 (constantI S_ 32 0#32) : HloOp τ sig (Elt F)).result V) := by
  refine ⟨args_step main_c_28 rfl (by decide) hA, ?_⟩
  obtain ⟨h_v131, h_v132, h_v133, h_v134, h_v135, h_v136, h_v149⟩ := hL
  exact ⟨(keep main_c_28 rfl (by decide)).trans h_v131,
    (keep main_c_28 rfl (by decide)).trans h_v132,
    (keep main_c_28 rfl (by decide)).trans h_v133,
    (keep main_c_28 rfl (by decide)).trans h_v134,
    (keep main_c_28 rfl (by decide)).trans h_v135,
    (keep main_c_28 rfl (by decide)).trans h_v136,
    (keep main_c_28 rfl (by decide)).trans h_v149,
    new_nullary rfl⟩
theorem step183 (hA : Args x0 x1 x2 x3 x4 x5 x6 x7 x8 x9 x10 x11 x12 x13 V) (hL : Live183 x0 x1 x2 x3 x4 x5 x6 x7 x8 x9 x10 x11 x12 x13 V) :
    Args x0 x1 x2 x3 x4 x5 x6 x7 x8 x9 x10 x11 x12 x13 ((unary main_c_28 main_v150 (broadcastInDim S800000 ![] bcast_S_S800000 : (⟨S_, .i32⟩ : BufTy).Contents (Elt F) → (⟨S800000, .i32⟩ : BufTy).Contents (Elt F)) : HloOp τ sig (Elt F)).result V) ∧ Live184 x0 x1 x2 x3 x4 x5 x6 x7 x8 x9 x10 x11 x12 x13 ((unary main_c_28 main_v150 (broadcastInDim S800000 ![] bcast_S_S800000 : (⟨S_, .i32⟩ : BufTy).Contents (Elt F) → (⟨S800000, .i32⟩ : BufTy).Contents (Elt F)) : HloOp τ sig (Elt F)).result V) := by
  refine ⟨args_step main_v150 rfl (by decide) hA, ?_⟩
  obtain ⟨h_v131, h_v132, h_v133, h_v134, h_v135, h_v136, h_v149, h_c_28⟩ := hL
  exact ⟨(keep main_v150 rfl (by decide)).trans h_v131,
    (keep main_v150 rfl (by decide)).trans h_v132,
    (keep main_v150 rfl (by decide)).trans h_v133,
    (keep main_v150 rfl (by decide)).trans h_v134,
    (keep main_v150 rfl (by decide)).trans h_v135,
    (keep main_v150 rfl (by decide)).trans h_v136,
    (keep main_v150 rfl (by decide)).trans h_v149,
    new_unary h_c_28 rfl⟩
theorem step184 (hA : Args x0 x1 x2 x3 x4 x5 x6 x7 x8 x9 x10 x11 x12 x13 V) (hL : Live184 x0 x1 x2 x3 x4 x5 x6 x7 x8 x9 x10 x11 x12 x13 V) :
    Args x0 x1 x2 x3 x4 x5 x6 x7 x8 x9 x10 x11 x12 x13 ((binary main_arg1 main_v150 main_v151 (cmpi .slt : (⟨S800000, .i32⟩ : BufTy).Contents (Elt F) → (⟨S800000, .i32⟩ : BufTy).Contents (Elt F) → (⟨S800000, .i1⟩ : BufTy).Contents (Elt F)) : HloOp τ sig (Elt F)).result V) ∧ Live185 x0 x1 x2 x3 x4 x5 x6 x7 x8 x9 x10 x11 x12 x13 ((binary main_arg1 main_v150 main_v151 (cmpi .slt : (⟨S800000, .i32⟩ : BufTy).Contents (Elt F) → (⟨S800000, .i32⟩ : BufTy).Contents (Elt F) → (⟨S800000, .i1⟩ : BufTy).Contents (Elt F)) : HloOp τ sig (Elt F)).result V) := by
  refine ⟨args_step main_v151 rfl (by decide) hA, ?_⟩
  unfold Args at hA
  obtain ⟨a0, a1, a2, a3, a4, a5, a6, a7, a8, a9, a10, a11, a12, a13⟩ := hA
  obtain ⟨h_v131, h_v132, h_v133, h_v134, h_v135, h_v136, h_v149, h_v150⟩ := hL
  exact ⟨(keep main_v151 rfl (by decide)).trans h_v131,
    (keep main_v151 rfl (by decide)).trans h_v132,
    (keep main_v151 rfl (by decide)).trans h_v133,
    (keep main_v151 rfl (by decide)).trans h_v134,
    (keep main_v151 rfl (by decide)).trans h_v135,
    (keep main_v151 rfl (by decide)).trans h_v136,
    (keep main_v151 rfl (by decide)).trans h_v149,
    new_binary a1 h_v150 rfl⟩
theorem step185 (hA : Args x0 x1 x2 x3 x4 x5 x6 x7 x8 x9 x10 x11 x12 x13 V) (hL : Live185 x0 x1 x2 x3 x4 x5 x6 x7 x8 x9 x10 x11 x12 x13 V) :
    Args x0 x1 x2 x3 x4 x5 x6 x7 x8 x9 x10 x11 x12 x13 ((nullary main_c_29 (constantI S_ 32 100000#32) : HloOp τ sig (Elt F)).result V) ∧ Live186 x0 x1 x2 x3 x4 x5 x6 x7 x8 x9 x10 x11 x12 x13 ((nullary main_c_29 (constantI S_ 32 100000#32) : HloOp τ sig (Elt F)).result V) := by
  refine ⟨args_step main_c_29 rfl (by decide) hA, ?_⟩
  obtain ⟨h_v131, h_v132, h_v133, h_v134, h_v135, h_v136, h_v149, h_v151⟩ := hL
  exact ⟨(keep main_c_29 rfl (by decide)).trans h_v131,
    (keep main_c_29 rfl (by decide)).trans h_v132,
    (keep main_c_29 rfl (by decide)).trans h_v133,
    (keep main_c_29 rfl (by decide)).trans h_v134,
    (keep main_c_29 rfl (by decide)).trans h_v135,
    (keep main_c_29 rfl (by decide)).trans h_v136,
    (keep main_c_29 rfl (by decide)).trans h_v149,
    (keep main_c_29 rfl (by decide)).trans h_v151,
    new_nullary rfl⟩
theorem step186 (hA : Args x0 x1 x2 x3 x4 x5 x6 x7 x8 x9 x10 x11 x12 x13 V) (hL : Live186 x0 x1 x2 x3 x4 x5 x6 x7 x8 x9 x10 x11 x12 x13 V) :
    Args x0 x1 x2 x3 x4 x5 x6 x7 x8 x9 x10 x11 x12 x13 ((unary main_c_29 main_v152 (broadcastInDim S800000 ![] bcast_S_S800000 : (⟨S_, .i32⟩ : BufTy).Contents (Elt F) → (⟨S800000, .i32⟩ : BufTy).Contents (Elt F)) : HloOp τ sig (Elt F)).result V) ∧ Live187 x0 x1 x2 x3 x4 x5 x6 x7 x8 x9 x10 x11 x12 x13 ((unary main_c_29 main_v152 (broadcastInDim S800000 ![] bcast_S_S800000 : (⟨S_, .i32⟩ : BufTy).Contents (Elt F) → (⟨S800000, .i32⟩ : BufTy).Contents (Elt F)) : HloOp τ sig (Elt F)).result V) := by
  refine ⟨args_step main_v152 rfl (by decide) hA, ?_⟩
  obtain ⟨h_v131, h_v132, h_v133, h_v134, h_v135, h_v136, h_v149, h_v151, h_c_29⟩ := hL
  exact ⟨(keep main_v152 rfl (by decide)).trans h_v131,
    (keep main_v152 rfl (by decide)).trans h_v132,
    (keep main_v152 rfl (by decide)).trans h_v133,
    (keep main_v152 rfl (by decide)).trans h_v134,
    (keep main_v152 rfl (by decide)).trans h_v135,
    (keep main_v152 rfl (by decide)).trans h_v136,
    (keep main_v152 rfl (by decide)).trans h_v149,
    (keep main_v152 rfl (by decide)).trans h_v151,
    new_unary h_c_29 rfl⟩
theorem step187 (hA : Args x0 x1 x2 x3 x4 x5 x6 x7 x8 x9 x10 x11 x12 x13 V) (hL : Live187 x0 x1 x2 x3 x4 x5 x6 x7 x8 x9 x10 x11 x12 x13 V) :
    Args x0 x1 x2 x3 x4 x5 x6 x7 x8 x9 x10 x11 x12 x13 ((binary main_arg1 main_v152 main_v153 (addi : (⟨S800000, .i32⟩ : BufTy).Contents (Elt F) → (⟨S800000, .i32⟩ : BufTy).Contents (Elt F) → (⟨S800000, .i32⟩ : BufTy).Contents (Elt F)) : HloOp τ sig (Elt F)).result V) ∧ Live188 x0 x1 x2 x3 x4 x5 x6 x7 x8 x9 x10 x11 x12 x13 ((binary main_arg1 main_v152 main_v153 (addi : (⟨S800000, .i32⟩ : BufTy).Contents (Elt F) → (⟨S800000, .i32⟩ : BufTy).Contents (Elt F) → (⟨S800000, .i32⟩ : BufTy).Contents (Elt F)) : HloOp τ sig (Elt F)).result V) := by
  refine ⟨args_step main_v153 rfl (by decide) hA, ?_⟩
  unfold Args at hA
  obtain ⟨a0, a1, a2, a3, a4, a5, a6, a7, a8, a9, a10, a11, a12, a13⟩ := hA
  obtain ⟨h_v131, h_v132, h_v133, h_v134, h_v135, h_v136, h_v149, h_v151, h_v152⟩ := hL
  exact ⟨(keep main_v153 rfl (by decide)).trans h_v131,
    (keep main_v153 rfl (by decide)).trans h_v132,
    (keep main_v153 rfl (by decide)).trans h_v133,
    (keep main_v153 rfl (by decide)).trans h_v134,
    (keep main_v153 rfl (by decide)).trans h_v135,
    (keep main_v153 rfl (by decide)).trans h_v136,
    (keep main_v153 rfl (by decide)).trans h_v149,
    (keep main_v153 rfl (by decide)).trans h_v151,
    new_binary a1 h_v152 rfl⟩
theorem step188 (hA : Args x0 x1 x2 x3 x4 x5 x6 x7 x8 x9 x10 x11 x12 x13 V) (hL : Live188 x0 x1 x2 x3 x4 x5 x6 x7 x8 x9 x10 x11 x12 x13 V) :
    Args x0 x1 x2 x3 x4 x5 x6 x7 x8 x9 x10 x11 x12 x13 ((ternary main_v151 main_v153 main_arg1 main_v154 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) : HloOp τ sig (Elt F)).result V) ∧ Live189 x0 x1 x2 x3 x4 x5 x6 x7 x8 x9 x10 x11 x12 x13 ((ternary main_v151 main_v153 main_arg1 main_v154 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) : HloOp τ sig (Elt F)).result V) := by
  refine ⟨args_step main_v154 rfl (by decide) hA, ?_⟩
  unfold Args at hA
  obtain ⟨a0, a1, a2, a3, a4, a5, a6, a7, a8, a9, a10, a11, a12, a13⟩ := hA
  obtain ⟨h_v131, h_v132, h_v133, h_v134, h_v135, h_v136, h_v149, h_v151, h_v153⟩ := hL
  exact ⟨(keep main_v154 rfl (by decide)).trans h_v131,
    (keep main_v154 rfl (by decide)).trans h_v132,
    (keep main_v154 rfl (by decide)).trans h_v133,
    (keep main_v154 rfl (by decide)).trans h_v134,
    (keep main_v154 rfl (by decide)).trans h_v135,
    (keep main_v154 rfl (by decide)).trans h_v136,
    (keep main_v154 rfl (by decide)).trans h_v149,
    new_ternary h_v151 h_v153 a1 rfl⟩
theorem step189 (hA : Args x0 x1 x2 x3 x4 x5 x6 x7 x8 x9 x10 x11 x12 x13 V) (hL : Live189 x0 x1 x2 x3 x4 x5 x6 x7 x8 x9 x10 x11 x12 x13 V) :
    Args x0 x1 x2 x3 x4 x5 x6 x7 x8 x9 x10 x11 x12 x13 ((unary main_v154 main_v155 (broadcastInDim S800000x1 ![0] bcast_S800000_S800000x1_0 : (⟨S800000, .i32⟩ : BufTy).Contents (Elt F) → (⟨S800000x1, .i32⟩ : BufTy).Contents (Elt F)) : HloOp τ sig (Elt F)).result V) ∧ Live190 x0 x1 x2 x3 x4 x5 x6 x7 x8 x9 x10 x11 x12 x13 ((unary main_v154 main_v155 (broadcastInDim S800000x1 ![0] bcast_S800000_S800000x1_0 : (⟨S800000, .i32⟩ : BufTy).Contents (Elt F) → (⟨S800000x1, .i32⟩ : BufTy).Contents (Elt F)) : HloOp τ sig (Elt F)).result V) := by
  refine ⟨args_step main_v155 rfl (by decide) hA, ?_⟩
  obtain ⟨h_v131, h_v132, h_v133, h_v134, h_v135, h_v136, h_v149, h_v154⟩ := hL
  exact ⟨(keep main_v155 rfl (by decide)).trans h_v131,
    (keep main_v155 rfl (by decide)).trans h_v132,
    (keep main_v155 rfl (by decide)).trans h_v133,
    (keep main_v155 rfl (by decide)).trans h_v134,
    (keep main_v155 rfl (by decide)).trans h_v135,
    (keep main_v155 rfl (by decide)).trans h_v136,
    (keep main_v155 rfl (by decide)).trans h_v149,
    new_unary h_v154 rfl⟩
theorem step190 (hA : Args x0 x1 x2 x3 x4 x5 x6 x7 x8 x9 x10 x11 x12 x13 V) (hL : Live190 x0 x1 x2 x3 x4 x5 x6 x7 x8 x9 x10 x11 x12 x13 V) :
    Args x0 x1 x2 x3 x4 x5 x6 x7 x8 x9 x10 x11 x12 x13 ((binary main_v132 main_v155 main_v156 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)) : HloOp τ sig (Elt F)).result V) ∧ Live191 x0 x1 x2 x3 x4 x5 x6 x7 x8 x9 x10 x11 x12 x13 ((binary main_v132 main_v155 main_v156 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)) : HloOp τ sig (Elt F)).result V) := by
  refine ⟨args_step main_v156 rfl (by decide) hA, ?_⟩
  obtain ⟨h_v131, h_v132, h_v133, h_v134, h_v135, h_v136, h_v149, h_v155⟩ := hL
  exact ⟨(keep main_v156 rfl (by decide)).trans h_v131,
    (keep main_v156 rfl (by decide)).trans h_v132,
    (keep main_v156 rfl (by decide)).trans h_v133,
    (keep main_v156 rfl (by decide)).trans h_v134,
    (keep main_v156 rfl (by decide)).trans h_v135,
    (keep main_v156 rfl (by decide)).trans h_v136,
    (keep main_v156 rfl (by decide)).trans h_v149,
    new_binary h_v132 h_v155 rfl⟩
theorem step191 (hA : Args x0 x1 x2 x3 x4 x5 x6 x7 x8 x9 x10 x11 x12 x13 V) (hL : Live191 x0 x1 x2 x3 x4 x5 x6 x7 x8 x9 x10 x11 x12 x13 V) :
    Args x0 x1 x2 x3 x4 x5 x6 x7 x8 x9 x10 x11 x12 x13 ((nullary main_c_30 (constantI S_ 32 0#32) : HloOp τ sig (Elt F)).result V) ∧ Live192 x0 x1 x2 x3 x4 x5 x6 x7 x8 x9 x10 x11 x12 x13 ((nullary main_c_30 (constantI S_ 32 0#32) : HloOp τ sig (Elt F)).result V) := by
  refine ⟨args_step main_c_30 rfl (by decide) hA, ?_⟩
  obtain ⟨h_v131, h_v132, h_v133, h_v134, h_v135, h_v136, h_v149, h_v156⟩ := hL
  exact ⟨(keep main_c_30 rfl (by decide)).trans h_v131,
    (keep main_c_30 rfl (by decide)).trans h_v132,
    (keep main_c_30 rfl (by decide)).trans h_v133,
    (keep main_c_30 rfl (by decide)).trans h_v134,
    (keep main_c_30 rfl (by decide)).trans h_v135,
    (keep main_c_30 rfl (by decide)).trans h_v136,
    (keep main_c_30 rfl (by decide)).trans h_v149,
    (keep main_c_30 rfl (by decide)).trans h_v156,
    new_nullary rfl⟩
theorem step192 (hA : Args x0 x1 x2 x3 x4 x5 x6 x7 x8 x9 x10 x11 x12 x13 V) (hL : Live192 x0 x1 x2 x3 x4 x5 x6 x7 x8 x9 x10 x11 x12 x13 V) :
    Args x0 x1 x2 x3 x4 x5 x6 x7 x8 x9 x10 x11 x12 x13 ((unary main_c_30 main_v157 (broadcastInDim S800000 ![] bcast_S_S800000 : (⟨S_, .i32⟩ : BufTy).Contents (Elt F) → (⟨S800000, .i32⟩ : BufTy).Contents (Elt F)) : HloOp τ sig (Elt F)).result V) ∧ Live193 x0 x1 x2 x3 x4 x5 x6 x7 x8 x9 x10 x11 x12 x13 ((unary main_c_30 main_v157 (broadcastInDim S800000 ![] bcast_S_S800000 : (⟨S_, .i32⟩ : BufTy).Contents (Elt F) → (⟨S800000, .i32⟩ : BufTy).Contents (Elt F)) : HloOp τ sig (Elt F)).result V) := by
  refine ⟨args_step main_v157 rfl (by decide) hA, ?_⟩
  obtain ⟨h_v131, h_v132, h_v133, h_v134, h_v135, h_v136, h_v149, h_v156, h_c_30⟩ := hL
  exact ⟨(keep main_v157 rfl (by decide)).trans h_v131,
    (keep main_v157 rfl (by decide)).trans h_v132,
    (keep main_v157 rfl (by decide)).trans h_v133,
    (keep main_v157 rfl (by decide)).trans h_v134,
    (keep main_v157 rfl (by decide)).trans h_v135,
    (keep main_v157 rfl (by decide)).trans h_v136,
    (keep main_v157 rfl (by decide)).trans h_v149,
    (keep main_v157 rfl (by decide)).trans h_v156,
    new_unary h_c_30 rfl⟩
theorem step193 (hA : Args x0 x1 x2 x3 x4 x5 x6 x7 x8 x9 x10 x11 x12 x13 V) (hL : Live193 x0 x1 x2 x3 x4 x5 x6 x7 x8 x9 x10 x11 x12 x13 V) :
    Args x0 x1 x2 x3 x4 x5 x6 x7 x8 x9 x10 x11 x12 x13 ((binary main_arg2 main_v157 main_v158 (cmpi .slt : (⟨S800000, .i32⟩ : BufTy).Contents (Elt F) → (⟨S800000, .i32⟩ : BufTy).Contents (Elt F) → (⟨S800000, .i1⟩ : BufTy).Contents (Elt F)) : HloOp τ sig (Elt F)).result V) ∧ Live194 x0 x1 x2 x3 x4 x5 x6 x7 x8 x9 x10 x11 x12 x13 ((binary main_arg2 main_v157 main_v158 (cmpi .slt : (⟨S800000, .i32⟩ : BufTy).Contents (Elt F) → (⟨S800000, .i32⟩ : BufTy).Contents (Elt F) → (⟨S800000, .i1⟩ : BufTy).Contents (Elt F)) : HloOp τ sig (Elt F)).result V) := by
  refine ⟨args_step main_v158 rfl (by decide) hA, ?_⟩
  unfold Args at hA
  obtain ⟨a0, a1, a2, a3, a4, a5, a6, a7, a8, a9, a10, a11, a12, a13⟩ := hA
  obtain ⟨h_v131, h_v132, h_v133, h_v134, h_v135, h_v136, h_v149, h_v156, h_v157⟩ := hL
  exact ⟨(keep main_v158 rfl (by decide)).trans h_v131,
    (keep main_v158 rfl (by decide)).trans h_v132,
    (keep main_v158 rfl (by decide)).trans h_v133,
    (keep main_v158 rfl (by decide)).trans h_v134,
    (keep main_v158 rfl (by decide)).trans h_v135,
    (keep main_v158 rfl (by decide)).trans h_v136,
    (keep main_v158 rfl (by decide)).trans h_v149,
    (keep main_v158 rfl (by decide)).trans h_v156,
    new_binary a2 h_v157 rfl⟩
theorem step194 (hA : Args x0 x1 x2 x3 x4 x5 x6 x7 x8 x9 x10 x11 x12 x13 V) (hL : Live194 x0 x1 x2 x3 x4 x5 x6 x7 x8 x9 x10 x11 x12 x13 V) :
    Args x0 x1 x2 x3 x4 x5 x6 x7 x8 x9 x10 x11 x12 x13 ((nullary main_c_31 (constantI S_ 32 100000#32) : HloOp τ sig (Elt F)).result V) ∧ Live195 x0 x1 x2 x3 x4 x5 x6 x7 x8 x9 x10 x11 x12 x13 ((nullary main_c_31 (constantI S_ 32 100000#32) : HloOp τ sig (Elt F)).result V) := by
  refine ⟨args_step main_c_31 rfl (by decide) hA, ?_⟩
  obtain ⟨h_v131, h_v132, h_v133, h_v134, h_v135, h_v136, h_v149, h_v156, h_v158⟩ := hL
  exact ⟨(keep main_c_31 rfl (by decide)).trans h_v131,
    (keep main_c_31 rfl (by decide)).trans h_v132,
    (keep main_c_31 rfl (by decide)).trans h_v133,
    (keep main_c_31 rfl (by decide)).trans h_v134,
    (keep main_c_31 rfl (by decide)).trans h_v135,
    (keep main_c_31 rfl (by decide)).trans h_v136,
    (keep main_c_31 rfl (by decide)).trans h_v149,
    (keep main_c_31 rfl (by decide)).trans h_v156,
    (keep main_c_31 rfl (by decide)).trans h_v158,
    new_nullary rfl⟩
theorem step195 (hA : Args x0 x1 x2 x3 x4 x5 x6 x7 x8 x9 x10 x11 x12 x13 V) (hL : Live195 x0 x1 x2 x3 x4 x5 x6 x7 x8 x9 x10 x11 x12 x13 V) :
    Args x0 x1 x2 x3 x4 x5 x6 x7 x8 x9 x10 x11 x12 x13 ((unary main_c_31 main_v159 (broadcastInDim S800000 ![] bcast_S_S800000 : (⟨S_, .i32⟩ : BufTy).Contents (Elt F) → (⟨S800000, .i32⟩ : BufTy).Contents (Elt F)) : HloOp τ sig (Elt F)).result V) ∧ Live196 x0 x1 x2 x3 x4 x5 x6 x7 x8 x9 x10 x11 x12 x13 ((unary main_c_31 main_v159 (broadcastInDim S800000 ![] bcast_S_S800000 : (⟨S_, .i32⟩ : BufTy).Contents (Elt F) → (⟨S800000, .i32⟩ : BufTy).Contents (Elt F)) : HloOp τ sig (Elt F)).result V) := by
  refine ⟨args_step main_v159 rfl (by decide) hA, ?_⟩
  obtain ⟨h_v131, h_v132, h_v133, h_v134, h_v135, h_v136, h_v149, h_v156, h_v158, h_c_31⟩ := hL
  exact ⟨(keep main_v159 rfl (by decide)).trans h_v131,
    (keep main_v159 rfl (by decide)).trans h_v132,
    (keep main_v159 rfl (by decide)).trans h_v133,
    (keep main_v159 rfl (by decide)).trans h_v134,
    (keep main_v159 rfl (by decide)).trans h_v135,
    (keep main_v159 rfl (by decide)).trans h_v136,
    (keep main_v159 rfl (by decide)).trans h_v149,
    (keep main_v159 rfl (by decide)).trans h_v156,
    (keep main_v159 rfl (by decide)).trans h_v158,
    new_unary h_c_31 rfl⟩
theorem step196 (hA : Args x0 x1 x2 x3 x4 x5 x6 x7 x8 x9 x10 x11 x12 x13 V) (hL : Live196 x0 x1 x2 x3 x4 x5 x6 x7 x8 x9 x10 x11 x12 x13 V) :
    Args x0 x1 x2 x3 x4 x5 x6 x7 x8 x9 x10 x11 x12 x13 ((binary main_arg2 main_v159 main_v160 (addi : (⟨S800000, .i32⟩ : BufTy).Contents (Elt F) → (⟨S800000, .i32⟩ : BufTy).Contents (Elt F) → (⟨S800000, .i32⟩ : BufTy).Contents (Elt F)) : HloOp τ sig (Elt F)).result V) ∧ Live197 x0 x1 x2 x3 x4 x5 x6 x7 x8 x9 x10 x11 x12 x13 ((binary main_arg2 main_v159 main_v160 (addi : (⟨S800000, .i32⟩ : BufTy).Contents (Elt F) → (⟨S800000, .i32⟩ : BufTy).Contents (Elt F) → (⟨S800000, .i32⟩ : BufTy).Contents (Elt F)) : HloOp τ sig (Elt F)).result V) := by
  refine ⟨args_step main_v160 rfl (by decide) hA, ?_⟩
  unfold Args at hA
  obtain ⟨a0, a1, a2, a3, a4, a5, a6, a7, a8, a9, a10, a11, a12, a13⟩ := hA
  obtain ⟨h_v131, h_v132, h_v133, h_v134, h_v135, h_v136, h_v149, h_v156, h_v158, h_v159⟩ := hL
  exact ⟨(keep main_v160 rfl (by decide)).trans h_v131,
    (keep main_v160 rfl (by decide)).trans h_v132,
    (keep main_v160 rfl (by decide)).trans h_v133,
    (keep main_v160 rfl (by decide)).trans h_v134,
    (keep main_v160 rfl (by decide)).trans h_v135,
    (keep main_v160 rfl (by decide)).trans h_v136,
    (keep main_v160 rfl (by decide)).trans h_v149,
    (keep main_v160 rfl (by decide)).trans h_v156,
    (keep main_v160 rfl (by decide)).trans h_v158,
    new_binary a2 h_v159 rfl⟩
theorem step197 (hA : Args x0 x1 x2 x3 x4 x5 x6 x7 x8 x9 x10 x11 x12 x13 V) (hL : Live197 x0 x1 x2 x3 x4 x5 x6 x7 x8 x9 x10 x11 x12 x13 V) :
    Args x0 x1 x2 x3 x4 x5 x6 x7 x8 x9 x10 x11 x12 x13 ((ternary main_v158 main_v160 main_arg2 main_v161 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) : HloOp τ sig (Elt F)).result V) ∧ Live198 x0 x1 x2 x3 x4 x5 x6 x7 x8 x9 x10 x11 x12 x13 ((ternary main_v158 main_v160 main_arg2 main_v161 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) : HloOp τ sig (Elt F)).result V) := by
  refine ⟨args_step main_v161 rfl (by decide) hA, ?_⟩
  unfold Args at hA
  obtain ⟨a0, a1, a2, a3, a4, a5, a6, a7, a8, a9, a10, a11, a12, a13⟩ := hA
  obtain ⟨h_v131, h_v132, h_v133, h_v134, h_v135, h_v136, h_v149, h_v156, h_v158, h_v160⟩ := hL
  exact ⟨(keep main_v161 rfl (by decide)).trans h_v131,
    (keep main_v161 rfl (by decide)).trans h_v132,
    (keep main_v161 rfl (by decide)).trans h_v133,
    (keep main_v161 rfl (by decide)).trans h_v134,
    (keep main_v161 rfl (by decide)).trans h_v135,
    (keep main_v161 rfl (by decide)).trans h_v136,
    (keep main_v161 rfl (by decide)).trans h_v149,
    (keep main_v161 rfl (by decide)).trans h_v156,
    new_ternary h_v158 h_v160 a2 rfl⟩
theorem step198 (hA : Args x0 x1 x2 x3 x4 x5 x6 x7 x8 x9 x10 x11 x12 x13 V) (hL : Live198 x0 x1 x2 x3 x4 x5 x6 x7 x8 x9 x10 x11 x12 x13 V) :
    Args x0 x1 x2 x3 x4 x5 x6 x7 x8 x9 x10 x11 x12 x13 ((unary main_v161 main_v162 (broadcastInDim S800000x1 ![0] bcast_S800000_S800000x1_0 : (⟨S800000, .i32⟩ : BufTy).Contents (Elt F) → (⟨S800000x1, .i32⟩ : BufTy).Contents (Elt F)) : HloOp τ sig (Elt F)).result V) ∧ Live199 x0 x1 x2 x3 x4 x5 x6 x7 x8 x9 x10 x11 x12 x13 ((unary main_v161 main_v162 (broadcastInDim S800000x1 ![0] bcast_S800000_S800000x1_0 : (⟨S800000, .i32⟩ : BufTy).Contents (Elt F) → (⟨S800000x1, .i32⟩ : BufTy).Contents (Elt F)) : HloOp τ sig (Elt F)).result V) := by
  refine ⟨args_step main_v162 rfl (by decide) hA, ?_⟩
  obtain ⟨h_v131, h_v132, h_v133, h_v134, h_v135, h_v136, h_v149, h_v156, h_v161⟩ := hL
  exact ⟨(keep main_v162 rfl (by decide)).trans h_v131,
    (keep main_v162 rfl (by decide)).trans h_v132,
    (keep main_v162 rfl (by decide)).trans h_v133,
    (keep main_v162 rfl (by decide)).trans h_v134,
    (keep main_v162 rfl (by decide)).trans h_v135,
    (keep main_v162 rfl (by decide)).trans h_v136,
    (keep main_v162 rfl (by decide)).trans h_v149,
    (keep main_v162 rfl (by decide)).trans h_v156,
    new_unary h_v161 rfl⟩
theorem step199 (hA : Args x0 x1 x2 x3 x4 x5 x6 x7 x8 x9 x10 x11 x12 x13 V) (hL : Live199 x0 x1 x2 x3 x4 x5 x6 x7 x8 x9 x10 x11 x12 x13 V) :
    Args x0 x1 x2 x3 x4 x5 x6 x7 x8 x9 x10 x11 x12 x13 ((binary main_v132 main_v162 main_v163 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)) : HloOp τ sig (Elt F)).result V) ∧ Live200 x0 x1 x2 x3 x4 x5 x6 x7 x8 x9 x10 x11 x12 x13 ((binary main_v132 main_v162 main_v163 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)) : HloOp τ sig (Elt F)).result V) := by
  refine ⟨args_step main_v163 rfl (by decide) hA, ?_⟩
  obtain ⟨h_v131, h_v132, h_v133, h_v134, h_v135, h_v136, h_v149, h_v156, h_v162⟩ := hL
  exact ⟨(keep main_v163 rfl (by decide)).trans h_v131,
    (keep main_v163 rfl (by decide)).trans h_v132,
    (keep main_v163 rfl (by decide)).trans h_v133,
    (keep main_v163 rfl (by decide)).trans h_v134,
    (keep main_v163 rfl (by decide)).trans h_v135,
    (keep main_v163 rfl (by decide)).trans h_v136,
    (keep main_v163 rfl (by decide)).trans h_v149,
    (keep main_v163 rfl (by decide)).trans h_v156,
    new_binary h_v132 h_v162 rfl⟩
theorem step200 (hA : Args x0 x1 x2 x3 x4 x5 x6 x7 x8 x9 x10 x11 x12 x13 V) (hL : Live200 x0 x1 x2 x3 x4 x5 x6 x7 x8 x9 x10 x11 x12 x13 V) :
    Args x0 x1 x2 x3 x4 x5 x6 x7 x8 x9 x10 x11 x12 x13 ((binary main_v156 main_v163 main_v164 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)) : HloOp τ sig (Elt F)).result V) ∧ Live201 x0 x1 x2 x3 x4 x5 x6 x7 x8 x9 x10 x11 x12 x13 ((binary main_v156 main_v163 main_v164 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)) : HloOp τ sig (Elt F)).result V) := by
  refine ⟨args_step main_v164 rfl (by decide) hA, ?_⟩
  obtain ⟨h_v131, h_v132, h_v133, h_v134, h_v135, h_v136, h_v149, h_v156, h_v163⟩ := hL
  exact ⟨(keep main_v164 rfl (by decide)).trans h_v131,
    (keep main_v164 rfl (by decide)).trans h_v132,
    (keep main_v164 rfl (by decide)).trans h_v133,
    (keep main_v164 rfl (by decide)).trans h_v134,
    (keep main_v164 rfl (by decide)).trans h_v135,
    (keep main_v164 rfl (by decide)).trans h_v136,
    (keep main_v164 rfl (by decide)).trans h_v149,
    new_binary h_v156 h_v163 rfl⟩
theorem step201 (hA : Args x0 x1 x2 x3 x4 x5 x6 x7 x8 x9 x10 x11 x12 x13 V) (hL : Live201 x0 x1 x2 x3 x4 x5 x6 x7 x8 x9 x10 x11 x12 x13 V) :
    Args x0 x1 x2 x3 x4 x5 x6 x7 x8 x9 x10 x11 x12 x13 ((unary main_arg6 main_v165 ((extractStridedSlice S1x128x64 ![1, 0, 0] · slices_S2x128x64_S1x128x64_1_0_0) : (⟨S2x128x64, .f32⟩ : BufTy).Contents (Elt F) → (⟨S1x128x64, .f32⟩ : BufTy).Contents (Elt F)) : HloOp τ sig (Elt F)).result V) ∧ Live202 x0 x1 x2 x3 x4 x5 x6 x7 x8 x9 x10 x11 x12 x13 ((unary main_arg6 main_v165 ((extractStridedSlice S1x128x64 ![1, 0, 0] · slices_S2x128x64_S1x128x64_1_0_0) : (⟨S2x128x64, .f32⟩ : BufTy).Contents (Elt F) → (⟨S1x128x64, .f32⟩ : BufTy).Contents (Elt F)) : HloOp τ sig (Elt F)).result V) := by
  refine ⟨args_step main_v165 rfl (by decide) hA, ?_⟩
  unfold Args at hA
  obtain ⟨a0, a1, a2, a3, a4, a5, a6, a7, a8, a9, a10, a11, a12, a13⟩ := hA
  obtain ⟨h_v131, h_v132, h_v133, h_v134, h_v135, h_v136, h_v149, h_v164⟩ := hL
  exact ⟨(keep main_v165 rfl (by decide)).trans h_v131,
    (keep main_v165 rfl (by decide)).trans h_v132,
    (keep main_v165 rfl (by decide)).trans h_v133,
    (keep main_v165 rfl (by decide)).trans h_v134,
    (keep main_v165 rfl (by decide)).trans h_v135,
    (keep main_v165 rfl (by decide)).trans h_v136,
    (keep main_v165 rfl (by decide)).trans h_v149,
    (keep main_v165 rfl (by decide)).trans h_v164,
    new_unary a6 rfl⟩
theorem step202 (hA : Args x0 x1 x2 x3 x4 x5 x6 x7 x8 x9 x10 x11 x12 x13 V) (hL : Live202 x0 x1 x2 x3 x4 x5 x6 x7 x8 x9 x10 x11 x12 x13 V) :
    Args x0 x1 x2 x3 x4 x5 x6 x7 x8 x9 x10 x11 x12 x13 ((reshape main_v165 main_v166 rfl shapeCasts_S1x128x64_S128x64 : HloOp τ sig (Elt F)).result V) ∧ Live203 x0 x1 x2 x3 x4 x5 x6 x7 x8 x9 x10 x11 x12 x13 ((reshape main_v165 main_v166 rfl shapeCasts_S1x128x64_S128x64 : HloOp τ sig (Elt F)).result V) := by
  refine ⟨args_step main_v166 rfl (by decide) hA, ?_⟩
  obtain ⟨h_v131, h_v132, h_v133, h_v134, h_v135, h_v136, h_v149, h_v164, h_v165⟩ := hL
  exact ⟨(keep main_v166 rfl (by decide)).trans h_v131,
    (keep main_v166 rfl (by decide)).trans h_v132,
    (keep main_v166 rfl (by decide)).trans h_v133,
    (keep main_v166 rfl (by decide)).trans h_v134,
    (keep main_v166 rfl (by decide)).trans h_v135,
    (keep main_v166 rfl (by decide)).trans h_v136,
    (keep main_v166 rfl (by decide)).trans h_v149,
    (keep main_v166 rfl (by decide)).trans h_v164,
    (by show _ = _; rw [reshape_result, h_v165]; exact rfl)⟩
theorem step203 (hA : Args x0 x1 x2 x3 x4 x5 x6 x7 x8 x9 x10 x11 x12 x13 V) (hL : Live203 x0 x1 x2 x3 x4 x5 x6 x7 x8 x9 x10 x11 x12 x13 V) :
    Args x0 x1 x2 x3 x4 x5 x6 x7 x8 x9 x10 x11 x12 x13 ((binary main_v164 main_v166 main_v167 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)) : HloOp τ sig (Elt F)).result V) ∧ Live204 x0 x1 x2 x3 x4 x5 x6 x7 x8 x9 x10 x11 x12 x13 ((binary main_v164 main_v166 main_v167 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)) : HloOp τ sig (Elt F)).result V) := by
  refine ⟨args_step main_v167 rfl (by decide) hA, ?_⟩
  obtain ⟨h_v131, h_v132, h_v133, h_v134, h_v135, h_v136, h_v149, h_v164, h_v166⟩ := hL
  exact ⟨(keep main_v167 rfl (by decide)).trans h_v131,
    (keep main_v167 rfl (by decide)).trans h_v132,
    (keep main_v167 rfl (by decide)).trans h_v133,
    (keep main_v167 rfl (by decide)).trans h_v134,
    (keep main_v167 rfl (by decide)).trans h_v135,
    (keep main_v167 rfl (by decide)).trans h_v136,
    (keep main_v167 rfl (by decide)).trans h_v149,
    new_binary h_v164 h_v166 rfl⟩
theorem step204 (hA : Args x0 x1 x2 x3 x4 x5 x6 x7 x8 x9 x10 x11 x12 x13 V) (hL : Live204 x0 x1 x2 x3 x4 x5 x6 x7 x8 x9 x10 x11 x12 x13 V) :
    Args x0 x1 x2 x3 x4 x5 x6 x7 x8 x9 x10 x11 x12 x13 ((unary main_arg7 main_v168 ((extractStridedSlice S1x64 ![1, 0] · slices_S2x64_S1x64_1_0) : (⟨S2x64, .f32⟩ : BufTy).Contents (Elt F) → (⟨S1x64, .f32⟩ : BufTy).Contents (Elt F)) : HloOp τ sig (Elt F)).result V) ∧ Live205 x0 x1 x2 x3 x4 x5 x6 x7 x8 x9 x10 x11 x12 x13 ((unary main_arg7 main_v168 ((extractStridedSlice S1x64 ![1, 0] · slices_S2x64_S1x64_1_0) : (⟨S2x64, .f32⟩ : BufTy).Contents (Elt F) → (⟨S1x64, .f32⟩ : BufTy).Contents (Elt F)) : HloOp τ sig (Elt F)).result V) := by
  refine ⟨args_step main_v168 rfl (by decide) hA, ?_⟩
  unfold Args at hA
  obtain ⟨a0, a1, a2, a3, a4, a5, a6, a7, a8, a9, a10, a11, a12, a13⟩ := hA
  obtain ⟨h_v131, h_v132, h_v133, h_v134, h_v135, h_v136, h_v149, h_v167⟩ := hL
  exact ⟨(keep main_v168 rfl (by decide)).trans h_v131,
    (keep main_v168 rfl (by decide)).trans h_v132,
    (keep main_v168 rfl (by decide)).trans h_v133,
    (keep main_v168 rfl (by decide)).trans h_v134,
    (keep main_v168 rfl (by decide)).trans h_v135,
    (keep main_v168 rfl (by decide)).trans h_v136,
    (keep main_v168 rfl (by decide)).trans h_v149,
    (keep main_v168 rfl (by decide)).trans h_v167,
    new_unary a7 rfl⟩
theorem step205 (hA : Args x0 x1 x2 x3 x4 x5 x6 x7 x8 x9 x10 x11 x12 x13 V) (hL : Live205 x0 x1 x2 x3 x4 x5 x6 x7 x8 x9 x10 x11 x12 x13 V) :
    Args x0 x1 x2 x3 x4 x5 x6 x7 x8 x9 x10 x11 x12 x13 ((reshape main_v168 main_v169 rfl shapeCasts_S1x64_S64 : HloOp τ sig (Elt F)).result V) ∧ Live206 x0 x1 x2 x3 x4 x5 x6 x7 x8 x9 x10 x11 x12 x13 ((reshape main_v168 main_v169 rfl shapeCasts_S1x64_S64 : HloOp τ sig (Elt F)).result V) := by
  refine ⟨args_step main_v169 rfl (by decide) hA, ?_⟩
  obtain ⟨h_v131, h_v132, h_v133, h_v134, h_v135, h_v136, h_v149, h_v167, h_v168⟩ := hL
  exact ⟨(keep main_v169 rfl (by decide)).trans h_v131,
    (keep main_v169 rfl (by decide)).trans h_v132,
    (keep main_v169 rfl (by decide)).trans h_v133,
    (keep main_v169 rfl (by decide)).trans h_v134,
    (keep main_v169 rfl (by decide)).trans h_v135,
    (keep main_v169 rfl (by decide)).trans h_v136,
    (keep main_v169 rfl (by decide)).trans h_v149,
    (keep main_v169 rfl (by decide)).trans h_v167,
    (by show _ = _; rw [reshape_result, h_v168]; exact rfl)⟩
theorem step206 (hA : Args x0 x1 x2 x3 x4 x5 x6 x7 x8 x9 x10 x11 x12 x13 V) (hL : Live206 x0 x1 x2 x3 x4 x5 x6 x7 x8 x9 x10 x11 x12 x13 V) :
    Args x0 x1 x2 x3 x4 x5 x6 x7 x8 x9 x10 x11 x12 x13 ((unary main_v169 main_v170 (broadcastInDim S1x64 ![1] bcast_S64_S1x64_1 : (⟨S64, .f32⟩ : BufTy).Contents (Elt F) → (⟨S1x64, .f32⟩ : BufTy).Contents (Elt F)) : HloOp τ sig (Elt F)).result V) ∧ Live207 x0 x1 x2 x3 x4 x5 x6 x7 x8 x9 x10 x11 x12 x13 ((unary main_v169 main_v170 (broadcastInDim S1x64 ![1] bcast_S64_S1x64_1 : (⟨S64, .f32⟩ : BufTy).Contents (Elt F) → (⟨S1x64, .f32⟩ : BufTy).Contents (Elt F)) : HloOp τ sig (Elt F)).result V) := by
  refine ⟨args_step main_v170 rfl (by decide) hA, ?_⟩
  obtain ⟨h_v131, h_v132, h_v133, h_v134, h_v135, h_v136, h_v149, h_v167, h_v169⟩ := hL
  exact ⟨(keep main_v170 rfl (by decide)).trans h_v131,
    (keep main_v170 rfl (by decide)).trans h_v132,
    (keep main_v170 rfl (by decide)).trans h_v133,
    (keep main_v170 rfl (by decide)).trans h_v134,
    (keep main_v170 rfl (by decide)).trans h_v135,
    (keep main_v170 rfl (by decide)).trans h_v136,
    (keep main_v170 rfl (by decide)).trans h_v149,
    (keep main_v170 rfl (by decide)).trans h_v167,
    new_unary h_v169 rfl⟩
theorem step207 (hA : Args x0 x1 x2 x3 x4 x5 x6 x7 x8 x9 x10 x11 x12 x13 V) (hL : Live207 x0 x1 x2 x3 x4 x5 x6 x7 x8 x9 x10 x11 x12 x13 V) :
    Args x0 x1 x2 x3 x4 x5 x6 x7 x8 x9 x10 x11 x12 x13 ((unary main_v170 main_v171 (broadcastInDim S800000x64 ![0, 1] bcast_S1x64_S800000x64_0_1 : (⟨S1x64, .f32⟩ : BufTy).Contents (Elt F) → (⟨S800000x64, .f32⟩ : BufTy).Contents (Elt F)) : HloOp τ sig (Elt F)).result V) ∧ Live208 x0 x1 x2 x3 x4 x5 x6 x7 x8 x9 x10 x11 x12 x13 ((unary main_v170 main_v171 (broadcastInDim S800000x64 ![0, 1] bcast_S1x64_S800000x64_0_1 : (⟨S1x64, .f32⟩ : BufTy).Contents (Elt F) → (⟨S800000x64, .f32⟩ : BufTy).Contents (Elt F)) : HloOp τ sig (Elt F)).result V) := by
  refine ⟨args_step main_v171 rfl (by decide) hA, ?_⟩
  obtain ⟨h_v131, h_v132, h_v133, h_v134, h_v135, h_v136, h_v149, h_v167, h_v170⟩ := hL
  exact ⟨(keep main_v171 rfl (by decide)).trans h_v131,
    (keep main_v171 rfl (by decide)).trans h_v132,
    (keep main_v171 rfl (by decide)).trans h_v133,
    (keep main_v171 rfl (by decide)).trans h_v134,
    (keep main_v171 rfl (by decide)).trans h_v135,
    (keep main_v171 rfl (by decide)).trans h_v136,
    (keep main_v171 rfl (by decide)).trans h_v149,
    (keep main_v171 rfl (by decide)).trans h_v167,
    new_unary h_v170 rfl⟩
theorem step208 (hA : Args x0 x1 x2 x3 x4 x5 x6 x7 x8 x9 x10 x11 x12 x13 V) (hL : Live208 x0 x1 x2 x3 x4 x5 x6 x7 x8 x9 x10 x11 x12 x13 V) :
    Args x0 x1 x2 x3 x4 x5 x6 x7 x8 x9 x10 x11 x12 x13 ((binary main_v167 main_v171 main_v172 (addf : (⟨S800000x64, .f32⟩ : BufTy).Contents (Elt F) → (⟨S800000x64, .f32⟩ : BufTy).Contents (Elt F) → (⟨S800000x64, .f32⟩ : BufTy).Contents (Elt F)) : HloOp τ sig (Elt F)).result V) ∧ Live209 x0 x1 x2 x3 x4 x5 x6 x7 x8 x9 x10 x11 x12 x13 ((binary main_v167 main_v171 main_v172 (addf : (⟨S800000x64, .f32⟩ : BufTy).Contents (Elt F) → (⟨S800000x64, .f32⟩ : BufTy).Contents (Elt F) → (⟨S800000x64, .f32⟩ : BufTy).Contents (Elt F)) : HloOp τ sig (Elt F)).result V) := by
  refine ⟨args_step main_v172 rfl (by decide) hA, ?_⟩
  obtain ⟨h_v131, h_v132, h_v133, h_v134, h_v135, h_v136, h_v149, h_v167, h_v171⟩ := hL
  exact ⟨(keep main_v172 rfl (by decide)).trans h_v131,
    (keep main_v172 rfl (by decide)).trans h_v132,
    (keep main_v172 rfl (by decide)).trans h_v133,
    (keep main_v172 rfl (by decide)).trans h_v134,
    (keep main_v172 rfl (by decide)).trans h_v135,
    (keep main_v172 rfl (by decide)).trans h_v136,
    (keep main_v172 rfl (by decide)).trans h_v149,
    new_binary h_v167 h_v171 rfl⟩
theorem step209 (hA : Args x0 x1 x2 x3 x4 x5 x6 x7 x8 x9 x10 x11 x12 x13 V) (hL : Live209 x0 x1 x2 x3 x4 x5 x6 x7 x8 x9 x10 x11 x12 x13 V) :
    Args x0 x1 x2 x3 x4 x5 x6 x7 x8 x9 x10 x11 x12 x13 ((nullary main_cst_32 (constant S_ .f32 0x00000000#32) : HloOp τ sig (Elt F)).result V) ∧ Live210 x0 x1 x2 x3 x4 x5 x6 x7 x8 x9 x10 x11 x12 x13 ((nullary main_cst_32 (constant S_ .f32 0x00000000#32) : HloOp τ sig (Elt F)).result V) := by
  refine ⟨args_step main_cst_32 rfl (by decide) hA, ?_⟩
  obtain ⟨h_v131, h_v132, h_v133, h_v134, h_v135, h_v136, h_v149, h_v172⟩ := hL
  exact ⟨(keep main_cst_32 rfl (by decide)).trans h_v131,
    (keep main_cst_32 rfl (by decide)).trans h_v132,
    (keep main_cst_32 rfl (by decide)).trans h_v133,
    (keep main_cst_32 rfl (by decide)).trans h_v134,
    (keep main_cst_32 rfl (by decide)).trans h_v135,
    (keep main_cst_32 rfl (by decide)).trans h_v136,
    (keep main_cst_32 rfl (by decide)).trans h_v149,
    (keep main_cst_32 rfl (by decide)).trans h_v172,
    new_nullary rfl⟩
theorem step210 (hA : Args x0 x1 x2 x3 x4 x5 x6 x7 x8 x9 x10 x11 x12 x13 V) (hL : Live210 x0 x1 x2 x3 x4 x5 x6 x7 x8 x9 x10 x11 x12 x13 V) :
    Args x0 x1 x2 x3 x4 x5 x6 x7 x8 x9 x10 x11 x12 x13 ((unary main_cst_32 main_v173 (broadcastInDim S800000x64 ![] bcast_S_S800000x64 : (⟨S_, .f32⟩ : BufTy).Contents (Elt F) → (⟨S800000x64, .f32⟩ : BufTy).Contents (Elt F)) : HloOp τ sig (Elt F)).result V) ∧ Live211 x0 x1 x2 x3 x4 x5 x6 x7 x8 x9 x10 x11 x12 x13 ((unary main_cst_32 main_v173 (broadcastInDim S800000x64 ![] bcast_S_S800000x64 : (⟨S_, .f32⟩ : BufTy).Contents (Elt F) → (⟨S800000x64, .f32⟩ : BufTy).Contents (Elt F)) : HloOp τ sig (Elt F)).result V) := by
  refine ⟨args_step main_v173 rfl (by decide) hA, ?_⟩
  obtain ⟨h_v131, h_v132, h_v133, h_v134, h_v135, h_v136, h_v149, h_v172, h_cst_32⟩ := hL
  exact ⟨(keep main_v173 rfl (by decide)).trans h_v131,
    (keep main_v173 rfl (by decide)).trans h_v132,
    (keep main_v173 rfl (by decide)).trans h_v133,
    (keep main_v173 rfl (by decide)).trans h_v134,
    (keep main_v173 rfl (by decide)).trans h_v135,
    (keep main_v173 rfl (by decide)).trans h_v136,
    (keep main_v173 rfl (by decide)).trans h_v149,
    (keep main_v173 rfl (by decide)).trans h_v172,
    new_unary h_cst_32 rfl⟩
theorem step211 (hA : Args x0 x1 x2 x3 x4 x5 x6 x7 x8 x9 x10 x11 x12 x13 V) (hL : Live211 x0 x1 x2 x3 x4 x5 x6 x7 x8 x9 x10 x11 x12 x13 V) :
    Args x0 x1 x2 x3 x4 x5 x6 x7 x8 x9 x10 x11 x12 x13 ((binary main_v172 main_v173 main_v174 (maximumf : (⟨S800000x64, .f32⟩ : BufTy).Contents (Elt F) → (⟨S800000x64, .f32⟩ : BufTy).Contents (Elt F) → (⟨S800000x64, .f32⟩ : BufTy).Contents (Elt F)) : HloOp τ sig (Elt F)).result V) ∧ Live212 x0 x1 x2 x3 x4 x5 x6 x7 x8 x9 x10 x11 x12 x13 ((binary main_v172 main_v173 main_v174 (maximumf : (⟨S800000x64, .f32⟩ : BufTy).Contents (Elt F) → (⟨S800000x64, .f32⟩ : BufTy).Contents (Elt F) → (⟨S800000x64, .f32⟩ : BufTy).Contents (Elt F)) : HloOp τ sig (Elt F)).result V) := by
  refine ⟨args_step main_v174 rfl (by decide) hA, ?_⟩
  obtain ⟨h_v131, h_v132, h_v133, h_v134, h_v135, h_v136, h_v149, h_v172, h_v173⟩ := hL
  exact ⟨(keep main_v174 rfl (by decide)).trans h_v131,
    (keep main_v174 rfl (by decide)).trans h_v132,
    (keep main_v174 rfl (by decide)).trans h_v133,
    (keep main_v174 rfl (by decide)).trans h_v134,
    (keep main_v174 rfl (by decide)).trans h_v135,
    (keep main_v174 rfl (by decide)).trans h_v136,
    (keep main_v174 rfl (by decide)).trans h_v149,
    new_binary h_v172 h_v173 rfl⟩
theorem step212 (hA : Args x0 x1 x2 x3 x4 x5 x6 x7 x8 x9 x10 x11 x12 x13 V) (hL : Live212 x0 x1 x2 x3 x4 x5 x6 x7 x8 x9 x10 x11 x12 x13 V) :
    Args x0 x1 x2 x3 x4 x5 x6 x7 x8 x9 x10 x11 x12 x13 ((unary main_arg8 main_v175 ((extractStridedSlice S1x64x1 ![1, 0, 0] · slices_S2x64x1_S1x64x1_1_0_0) : (⟨S2x64x1, .f32⟩ : BufTy).Contents (Elt F) → (⟨S1x64x1, .f32⟩ : BufTy).Contents (Elt F)) : HloOp τ sig (Elt F)).result V) ∧ Live213 x0 x1 x2 x3 x4 x5 x6 x7 x8 x9 x10 x11 x12 x13 ((unary main_arg8 main_v175 ((extractStridedSlice S1x64x1 ![1, 0, 0] · slices_S2x64x1_S1x64x1_1_0_0) : (⟨S2x64x1, .f32⟩ : BufTy).Contents (Elt F) → (⟨S1x64x1, .f32⟩ : BufTy).Contents (Elt F)) : HloOp τ sig (Elt F)).result V) := by
  refine ⟨args_step main_v175 rfl (by decide) hA, ?_⟩
  unfold Args at hA
  obtain ⟨a0, a1, a2, a3, a4, a5, a6, a7, a8, a9, a10, a11, a12, a13⟩ := hA
  obtain ⟨h_v131, h_v132, h_v133, h_v134, h_v135, h_v136, h_v149, h_v174⟩ := hL
  exact ⟨(keep main_v175 rfl (by decide)).trans h_v131,
    (keep main_v175 rfl (by decide)).trans h_v132,
    (keep main_v175 rfl (by decide)).trans h_v133,
    (keep main_v175 rfl (by decide)).trans h_v134,
    (keep main_v175 rfl (by decide)).trans h_v135,
    (keep main_v175 rfl (by decide)).trans h_v136,
    (keep main_v175 rfl (by decide)).trans h_v149,
    (keep main_v175 rfl (by decide)).trans h_v174,
    new_unary a8 rfl⟩
theorem step213 (hA : Args x0 x1 x2 x3 x4 x5 x6 x7 x8 x9 x10 x11 x12 x13 V) (hL : Live213 x0 x1 x2 x3 x4 x5 x6 x7 x8 x9 x10 x11 x12 x13 V) :
    Args x0 x1 x2 x3 x4 x5 x6 x7 x8 x9 x10 x11 x12 x13 ((reshape main_v175 main_v176 rfl shapeCasts_S1x64x1_S64x1 : HloOp τ sig (Elt F)).result V) ∧ Live214 x0 x1 x2 x3 x4 x5 x6 x7 x8 x9 x10 x11 x12 x13 ((reshape main_v175 main_v176 rfl shapeCasts_S1x64x1_S64x1 : HloOp τ sig (Elt F)).result V) := by
  refine ⟨args_step main_v176 rfl (by decide) hA, ?_⟩
  obtain ⟨h_v131, h_v132, h_v133, h_v134, h_v135, h_v136, h_v149, h_v174, h_v175⟩ := hL
  exact ⟨(keep main_v176 rfl (by decide)).trans h_v131,
    (keep main_v176 rfl (by decide)).trans h_v132,
    (keep main_v176 rfl (by decide)).trans h_v133,
    (keep main_v176 rfl (by decide)).trans h_v134,
    (keep main_v176 rfl (by decide)).trans h_v135,
    (keep main_v176 rfl (by decide)).trans h_v136,
    (keep main_v176 rfl (by decide)).trans h_v149,
    (keep main_v176 rfl (by decide)).trans h_v174,
    (by show _ = _; rw [reshape_result, h_v175]; exact rfl)⟩
theorem step214 (hA : Args x0 x1 x2 x3 x4 x5 x6 x7 x8 x9 x10 x11 x12 x13 V) (hL : Live214 x0 x1 x2 x3 x4 x5 x6 x7 x8 x9 x10 x11 x12 x13 V) :
    Args x0 x1 x2 x3 x4 x5 x6 x7 x8 x9 x10 x11 x12 x13 ((binary main_v174 main_v176 main_v177 ((fun l r => Host.dotGeneral dot_S800000x64_S64x1_S800000x1_1_0_0_1_n_n none l r) : (⟨S800000x64, .f32⟩ : BufTy).Contents (Elt F) → (⟨S64x1, .f32⟩ : BufTy).Contents (Elt F) → (⟨S800000x1, .f32⟩ : BufTy).Contents (Elt F)) : HloOp τ sig (Elt F)).result V) ∧ Live215 x0 x1 x2 x3 x4 x5 x6 x7 x8 x9 x10 x11 x12 x13 ((binary main_v174 main_v176 main_v177 ((fun l r => Host.dotGeneral dot_S800000x64_S64x1_S800000x1_1_0_0_1_n_n none l r) : (⟨S800000x64, .f32⟩ : BufTy).Contents (Elt F) → (⟨S64x1, .f32⟩ : BufTy).Contents (Elt F) → (⟨S800000x1, .f32⟩ : BufTy).Contents (Elt F)) : HloOp τ sig (Elt F)).result V) := by
  refine ⟨args_step main_v177 rfl (by decide) hA, ?_⟩
  obtain ⟨h_v131, h_v132, h_v133, h_v134, h_v135, h_v136, h_v149, h_v174, h_v176⟩ := hL
  exact ⟨(keep main_v177 rfl (by decide)).trans h_v131,
    (keep main_v177 rfl (by decide)).trans h_v132,
    (keep main_v177 rfl (by decide)).trans h_v133,
    (keep main_v177 rfl (by decide)).trans h_v134,
    (keep main_v177 rfl (by decide)).trans h_v135,
    (keep main_v177 rfl (by decide)).trans h_v136,
    (keep main_v177 rfl (by decide)).trans h_v149,
    new_binary h_v174 h_v176 rfl⟩
theorem step215 (hA : Args x0 x1 x2 x3 x4 x5 x6 x7 x8 x9 x10 x11 x12 x13 V) (hL : Live215 x0 x1 x2 x3 x4 x5 x6 x7 x8 x9 x10 x11 x12 x13 V) :
    Args x0 x1 x2 x3 x4 x5 x6 x7 x8 x9 x10 x11 x12 x13 ((unary main_arg9 main_v178 ((extractStridedSlice S1x1 ![1, 0] · slices_S2x1_S1x1_1_0) : (⟨S2x1, .f32⟩ : BufTy).Contents (Elt F) → (⟨S1x1, .f32⟩ : BufTy).Contents (Elt F)) : HloOp τ sig (Elt F)).result V) ∧ Live216 x0 x1 x2 x3 x4 x5 x6 x7 x8 x9 x10 x11 x12 x13 ((unary main_arg9 main_v178 ((extractStridedSlice S1x1 ![1, 0] · slices_S2x1_S1x1_1_0) : (⟨S2x1, .f32⟩ : BufTy).Contents (Elt F) → (⟨S1x1, .f32⟩ : BufTy).Contents (Elt F)) : HloOp τ sig (Elt F)).result V) := by
  refine ⟨args_step main_v178 rfl (by decide) hA, ?_⟩
  unfold Args at hA
  obtain ⟨a0, a1, a2, a3, a4, a5, a6, a7, a8, a9, a10, a11, a12, a13⟩ := hA
  obtain ⟨h_v131, h_v132, h_v133, h_v134, h_v135, h_v136, h_v149, h_v177⟩ := hL
  exact ⟨(keep main_v178 rfl (by decide)).trans h_v131,
    (keep main_v178 rfl (by decide)).trans h_v132,
    (keep main_v178 rfl (by decide)).trans h_v133,
    (keep main_v178 rfl (by decide)).trans h_v134,
    (keep main_v178 rfl (by decide)).trans h_v135,
    (keep main_v178 rfl (by decide)).trans h_v136,
    (keep main_v178 rfl (by decide)).trans h_v149,
    (keep main_v178 rfl (by decide)).trans h_v177,
    new_unary a9 rfl⟩
theorem step216 (hA : Args x0 x1 x2 x3 x4 x5 x6 x7 x8 x9 x10 x11 x12 x13 V) (hL : Live216 x0 x1 x2 x3 x4 x5 x6 x7 x8 x9 x10 x11 x12 x13 V) :
    Args x0 x1 x2 x3 x4 x5 x6 x7 x8 x9 x10 x11 x12 x13 ((reshape main_v178 main_v179 rfl shapeCasts_S1x1_S1 : HloOp τ sig (Elt F)).result V) ∧ Live217 x0 x1 x2 x3 x4 x5 x6 x7 x8 x9 x10 x11 x12 x13 ((reshape main_v178 main_v179 rfl shapeCasts_S1x1_S1 : HloOp τ sig (Elt F)).result V) := by
  refine ⟨args_step main_v179 rfl (by decide) hA, ?_⟩
  obtain ⟨h_v131, h_v132, h_v133, h_v134, h_v135, h_v136, h_v149, h_v177, h_v178⟩ := hL
  exact ⟨(keep main_v179 rfl (by decide)).trans h_v131,
    (keep main_v179 rfl (by decide)).trans h_v132,
    (keep main_v179 rfl (by decide)).trans h_v133,
    (keep main_v179 rfl (by decide)).trans h_v134,
    (keep main_v179 rfl (by decide)).trans h_v135,
    (keep main_v179 rfl (by decide)).trans h_v136,
    (keep main_v179 rfl (by decide)).trans h_v149,
    (keep main_v179 rfl (by decide)).trans h_v177,
    (by show _ = _; rw [reshape_result, h_v178]; exact rfl)⟩
theorem step217 (hA : Args x0 x1 x2 x3 x4 x5 x6 x7 x8 x9 x10 x11 x12 x13 V) (hL : Live217 x0 x1 x2 x3 x4 x5 x6 x7 x8 x9 x10 x11 x12 x13 V) :
    Args x0 x1 x2 x3 x4 x5 x6 x7 x8 x9 x10 x11 x12 x13 ((unary main_v179 main_v180 (broadcastInDim S1x1 ![1] bcast_S1_S1x1_1 : (⟨S1, .f32⟩ : BufTy).Contents (Elt F) → (⟨S1x1, .f32⟩ : BufTy).Contents (Elt F)) : HloOp τ sig (Elt F)).result V) ∧ Live218 x0 x1 x2 x3 x4 x5 x6 x7 x8 x9 x10 x11 x12 x13 ((unary main_v179 main_v180 (broadcastInDim S1x1 ![1] bcast_S1_S1x1_1 : (⟨S1, .f32⟩ : BufTy).Contents (Elt F) → (⟨S1x1, .f32⟩ : BufTy).Contents (Elt F)) : HloOp τ sig (Elt F)).result V) := by
  refine ⟨args_step main_v180 rfl (by decide) hA, ?_⟩
  obtain ⟨h_v131, h_v132, h_v133, h_v134, h_v135, h_v136, h_v149, h_v177, h_v179⟩ := hL
  exact ⟨(keep main_v180 rfl (by decide)).trans h_v131,
    (keep main_v180 rfl (by decide)).trans h_v132,
    (keep main_v180 rfl (by decide)).trans h_v133,
    (keep main_v180 rfl (by decide)).trans h_v134,
    (keep main_v180 rfl (by decide)).trans h_v135,
    (keep main_v180 rfl (by decide)).trans h_v136,
    (keep main_v180 rfl (by decide)).trans h_v149,
    (keep main_v180 rfl (by decide)).trans h_v177,
    new_unary h_v179 rfl⟩
theorem step218 (hA : Args x0 x1 x2 x3 x4 x5 x6 x7 x8 x9 x10 x11 x12 x13 V) (hL : Live218 x0 x1 x2 x3 x4 x5 x6 x7 x8 x9 x10 x11 x12 x13 V) :
    Args x0 x1 x2 x3 x4 x5 x6 x7 x8 x9 x10 x11 x12 x13 ((unary main_v180 main_v181 (broadcastInDim S800000x1 ![0, 1] bcast_S1x1_S800000x1_0_1 : (⟨S1x1, .f32⟩ : BufTy).Contents (Elt F) → (⟨S800000x1, .f32⟩ : BufTy).Contents (Elt F)) : HloOp τ sig (Elt F)).result V) ∧ Live219 x0 x1 x2 x3 x4 x5 x6 x7 x8 x9 x10 x11 x12 x13 ((unary main_v180 main_v181 (broadcastInDim S800000x1 ![0, 1] bcast_S1x1_S800000x1_0_1 : (⟨S1x1, .f32⟩ : BufTy).Contents (Elt F) → (⟨S800000x1, .f32⟩ : BufTy).Contents (Elt F)) : HloOp τ sig (Elt F)).result V) := by
  refine ⟨args_step main_v181 rfl (by decide) hA, ?_⟩
  obtain ⟨h_v131, h_v132, h_v133, h_v134, h_v135, h_v136, h_v149, h_v177, h_v180⟩ := hL
  exact ⟨(keep main_v181 rfl (by decide)).trans h_v131,
    (keep main_v181 rfl (by decide)).trans h_v132,
    (keep main_v181 rfl (by decide)).trans h_v133,
    (keep main_v181 rfl (by decide)).trans h_v134,
    (keep main_v181 rfl (by decide)).trans h_v135,
    (keep main_v181 rfl (by decide)).trans h_v136,
    (keep main_v181 rfl (by decide)).trans h_v149,
    (keep main_v181 rfl (by decide)).trans h_v177,
    new_unary h_v180 rfl⟩
theorem step219 (hA : Args x0 x1 x2 x3 x4 x5 x6 x7 x8 x9 x10 x11 x12 x13 V) (hL : Live219 x0 x1 x2 x3 x4 x5 x6 x7 x8 x9 x10 x11 x12 x13 V) :
    Args x0 x1 x2 x3 x4 x5 x6 x7 x8 x9 x10 x11 x12 x13 ((binary main_v177 main_v181 main_v182 (addf : (⟨S800000x1, .f32⟩ : BufTy).Contents (Elt F) → (⟨S800000x1, .f32⟩ : BufTy).Contents (Elt F) → (⟨S800000x1, .f32⟩ : BufTy).Contents (Elt F)) : HloOp τ sig (Elt F)).result V) ∧ Live220 x0 x1 x2 x3 x4 x5 x6 x7 x8 x9 x10 x11 x12 x13 ((binary main_v177 main_v181 main_v182 (addf : (⟨S800000x1, .f32⟩ : BufTy).Contents (Elt F) → (⟨S800000x1, .f32⟩ : BufTy).Contents (Elt F) → (⟨S800000x1, .f32⟩ : BufTy).Contents (Elt F)) : HloOp τ sig (Elt F)).result V) := by
  refine ⟨args_step main_v182 rfl (by decide) hA, ?_⟩
  obtain ⟨h_v131, h_v132, h_v133, h_v134, h_v135, h_v136, h_v149, h_v177, h_v181⟩ := hL
  exact ⟨(keep main_v182 rfl (by decide)).trans h_v131,
    (keep main_v182 rfl (by decide)).trans h_v132,
    (keep main_v182 rfl (by decide)).trans h_v133,
    (keep main_v182 rfl (by decide)).trans h_v134,
    (keep main_v182 rfl (by decide)).trans h_v135,
    (keep main_v182 rfl (by decide)).trans h_v136,
    (keep main_v182 rfl (by decide)).trans h_v149,
    new_binary h_v177 h_v181 rfl⟩
theorem step220 (hA : Args x0 x1 x2 x3 x4 x5 x6 x7 x8 x9 x10 x11 x12 x13 V) (hL : Live220 x0 x1 x2 x3 x4 x5 x6 x7 x8 x9 x10 x11 x12 x13 V) :
    Args x0 x1 x2 x3 x4 x5 x6 x7 x8 x9 x10 x11 x12 x13 ((unary main_arg4 main_v183 ((extractStridedSlice S1x800000 ![1, 0] · slices_S2x800000_S1x800000_1_0) : (⟨S2x800000, .f32⟩ : BufTy).Contents (Elt F) → (⟨S1x800000, .f32⟩ : BufTy).Contents (Elt F)) : HloOp τ sig (Elt F)).result V) ∧ Live221 x0 x1 x2 x3 x4 x5 x6 x7 x8 x9 x10 x11 x12 x13 ((unary main_arg4 main_v183 ((extractStridedSlice S1x800000 ![1, 0] · slices_S2x800000_S1x800000_1_0) : (⟨S2x800000, .f32⟩ : BufTy).Contents (Elt F) → (⟨S1x800000, .f32⟩ : BufTy).Contents (Elt F)) : HloOp τ sig (Elt F)).result V) := by
  refine ⟨args_step main_v183 rfl (by decide) hA, ?_⟩
  unfold Args at hA
  obtain ⟨a0, a1, a2, a3, a4, a5, a6, a7, a8, a9, a10, a11, a12, a13⟩ := hA
  obtain ⟨h_v131, h_v132, h_v133, h_v134, h_v135, h_v136, h_v149, h_v182⟩ := hL
  exact ⟨(keep main_v183 rfl (by decide)).trans h_v131,
    (keep main_v183 rfl (by decide)).trans h_v132,
    (keep main_v183 rfl (by decide)).trans h_v133,
    (keep main_v183 rfl (by decide)).trans h_v134,
    (keep main_v183 rfl (by decide)).trans h_v135,
    (keep main_v183 rfl (by decide)).trans h_v136,
    (keep main_v183 rfl (by decide)).trans h_v149,
    (keep main_v183 rfl (by decide)).trans h_v182,
    new_unary a4 rfl⟩
theorem step221 (hA : Args x0 x1 x2 x3 x4 x5 x6 x7 x8 x9 x10 x11 x12 x13 V) (hL : Live221 x0 x1 x2 x3 x4 x5 x6 x7 x8 x9 x10 x11 x12 x13 V) :
    Args x0 x1 x2 x3 x4 x5 x6 x7 x8 x9 x10 x11 x12 x13 ((reshape main_v183 main_v184 rfl shapeCasts_S1x800000_S800000 : HloOp τ sig (Elt F)).result V) ∧ Live222 x0 x1 x2 x3 x4 x5 x6 x7 x8 x9 x10 x11 x12 x13 ((reshape main_v183 main_v184 rfl shapeCasts_S1x800000_S800000 : HloOp τ sig (Elt F)).result V) := by
  refine ⟨args_step main_v184 rfl (by decide) hA, ?_⟩
  obtain ⟨h_v131, h_v132, h_v133, h_v134, h_v135, h_v136, h_v149, h_v182, h_v183⟩ := hL
  exact ⟨(keep main_v184 rfl (by decide)).trans h_v131,
    (keep main_v184 rfl (by decide)).trans h_v132,
    (keep main_v184 rfl (by decide)).trans h_v133,
    (keep main_v184 rfl (by decide)).trans h_v134,
    (keep main_v184 rfl (by decide)).trans h_v135,
    (keep main_v184 rfl (by decide)).trans h_v136,
    (keep main_v184 rfl (by decide)).trans h_v149,
    (keep main_v184 rfl (by decide)).trans h_v182,
    (by show _ = _; rw [reshape_result, h_v183]; exact rfl)⟩
theorem step222 (hA : Args x0 x1 x2 x3 x4 x5 x6 x7 x8 x9 x10 x11 x12 x13 V) (hL : Live222 x0 x1 x2 x3 x4 x5 x6 x7 x8 x9 x10 x11 x12 x13 V) :
    Args x0 x1 x2 x3 x4 x5 x6 x7 x8 x9 x10 x11 x12 x13 ((unary main_v184 main_v185 (broadcastInDim S800000x1 ![0] bcast_S800000_S800000x1_0 : (⟨S800000, .f32⟩ : BufTy).Contents (Elt F) → (⟨S800000x1, .f32⟩ : BufTy).Contents (Elt F)) : HloOp τ sig (Elt F)).result V) ∧ Live223 x0 x1 x2 x3 x4 x5 x6 x7 x8 x9 x10 x11 x12 x13 ((unary main_v184 main_v185 (broadcastInDim S800000x1 ![0] bcast_S800000_S800000x1_0 : (⟨S800000, .f32⟩ : BufTy).Contents (Elt F) → (⟨S800000x1, .f32⟩ : BufTy).Contents (Elt F)) : HloOp τ sig (Elt F)).result V) := by
  refine ⟨args_step main_v185 rfl (by decide) hA, ?_⟩
  obtain ⟨h_v131, h_v132, h_v133, h_v134, h_v135, h_v136, h_v149, h_v182, h_v184⟩ := hL
  exact ⟨(keep main_v185 rfl (by decide)).trans h_v131,
    (keep main_v185 rfl (by decide)).trans h_v132,
    (keep main_v185 rfl (by decide)).trans h_v133,
    (keep main_v185 rfl (by decide)).trans h_v134,
    (keep main_v185 rfl (by decide)).trans h_v135,
    (keep main_v185 rfl (by decide)).trans h_v136,
    (keep main_v185 rfl (by decide)).trans h_v149,
    (keep main_v185 rfl (by decide)).trans h_v182,
    new_unary h_v184 rfl⟩
theorem step223 (hA : Args x0 x1 x2 x3 x4 x5 x6 x7 x8 x9 x10 x11 x12 x13 V) (hL : Live223 x0 x1 x2 x3 x4 x5 x6 x7 x8 x9 x10 x11 x12 x13 V) :
    Args x0 x1 x2 x3 x4 x5 x6 x7 x8 x9 x10 x11 x12 x13 ((binary main_v185 main_v182 main_v186 (addf : (⟨S800000x1, .f32⟩ : BufTy).Contents (Elt F) → (⟨S800000x1, .f32⟩ : BufTy).Contents (Elt F) → (⟨S800000x1, .f32⟩ : BufTy).Contents (Elt F)) : HloOp τ sig (Elt F)).result V) ∧ Live224 x0 x1 x2 x3 x4 x5 x6 x7 x8 x9 x10 x11 x12 x13 ((binary main_v185 main_v182 main_v186 (addf : (⟨S800000x1, .f32⟩ : BufTy).Contents (Elt F) → (⟨S800000x1, .f32⟩ : BufTy).Contents (Elt F) → (⟨S800000x1, .f32⟩ : BufTy).Contents (Elt F)) : HloOp τ sig (Elt F)).result V) := by
  refine ⟨args_step main_v186 rfl (by decide) hA, ?_⟩
  obtain ⟨h_v131, h_v132, h_v133, h_v134, h_v135, h_v136, h_v149, h_v182, h_v185⟩ := hL
  exact ⟨(keep main_v186 rfl (by decide)).trans h_v131,
    (keep main_v186 rfl (by decide)).trans h_v132,
    (keep main_v186 rfl (by decide)).trans h_v133,
    (keep main_v186 rfl (by decide)).trans h_v134,
    (keep main_v186 rfl (by decide)).trans h_v135,
    (keep main_v186 rfl (by decide)).trans h_v136,
    (keep main_v186 rfl (by decide)).trans h_v149,
    new_binary h_v185 h_v182 rfl⟩
theorem step224 (hA : Args x0 x1 x2 x3 x4 x5 x6 x7 x8 x9 x10 x11 x12 x13 V) (hL : Live224 x0 x1 x2 x3 x4 x5 x6 x7 x8 x9 x10 x11 x12 x13 V) :
    Args x0 x1 x2 x3 x4 x5 x6 x7 x8 x9 x10 x11 x12 x13 ((nullary main_cst_33 (constant S_ .f32 0x3F800000#32) : HloOp τ sig (Elt F)).result V) ∧ Live225 x0 x1 x2 x3 x4 x5 x6 x7 x8 x9 x10 x11 x12 x13 ((nullary main_cst_33 (constant S_ .f32 0x3F800000#32) : HloOp τ sig (Elt F)).result V) := by
  refine ⟨args_step main_cst_33 rfl (by decide) hA, ?_⟩
  obtain ⟨h_v131, h_v132, h_v133, h_v134, h_v135, h_v136, h_v149, h_v186⟩ := hL
  exact ⟨(keep main_cst_33 rfl (by decide)).trans h_v131,
    (keep main_cst_33 rfl (by decide)).trans h_v132,
    (keep main_cst_33 rfl (by decide)).trans h_v133,
    (keep main_cst_33 rfl (by decide)).trans h_v134,
    (keep main_cst_33 rfl (by decide)).trans h_v135,
    (keep main_cst_33 rfl (by decide)).trans h_v136,
    (keep main_cst_33 rfl (by decide)).trans h_v149,
    (keep main_cst_33 rfl (by decide)).trans h_v186,
    new_nullary rfl⟩
theorem step225 (hA : Args x0 x1 x2 x3 x4 x5 x6 x7 x8 x9 x10 x11 x12 x13 V) (hL : Live225 x0 x1 x2 x3 x4 x5 x6 x7 x8 x9 x10 x11 x12 x13 V) :
    Args x0 x1 x2 x3 x4 x5 x6 x7 x8 x9 x10 x11 x12 x13 ((unary main_cst_33 main_v187 (broadcastInDim S800000x1 ![] bcast_S_S800000x1 : (⟨S_, .f32⟩ : BufTy).Contents (Elt F) → (⟨S800000x1, .f32⟩ : BufTy).Contents (Elt F)) : HloOp τ sig (Elt F)).result V) ∧ Live226 x0 x1 x2 x3 x4 x5 x6 x7 x8 x9 x10 x11 x12 x13 ((unary main_cst_33 main_v187 (broadcastInDim S800000x1 ![] bcast_S_S800000x1 : (⟨S_, .f32⟩ : BufTy).Contents (Elt F) → (⟨S800000x1, .f32⟩ : BufTy).Contents (Elt F)) : HloOp τ sig (Elt F)).result V) := by
  refine ⟨args_step main_v187 rfl (by decide) hA, ?_⟩
  obtain ⟨h_v131, h_v132, h_v133, h_v134, h_v135, h_v136, h_v149, h_v186, h_cst_33⟩ := hL
  exact ⟨(keep main_v187 rfl (by decide)).trans h_v131,
    (keep main_v187 rfl (by decide)).trans h_v132,
    (keep main_v187 rfl (by decide)).trans h_v133,
    (keep main_v187 rfl (by decide)).trans h_v134,
    (keep main_v187 rfl (by decide)).trans h_v135,
    (keep main_v187 rfl (by decide)).trans h_v136,
    (keep main_v187 rfl (by decide)).trans h_v149,
    (keep main_v187 rfl (by decide)).trans h_v186,
    new_unary h_cst_33 rfl⟩
theorem step226 (hA : Args x0 x1 x2 x3 x4 x5 x6 x7 x8 x9 x10 x11 x12 x13 V) (hL : Live226 x0 x1 x2 x3 x4 x5 x6 x7 x8 x9 x10 x11 x12 x13 V) :
    Args x0 x1 x2 x3 x4 x5 x6 x7 x8 x9 x10 x11 x12 x13 ((binary main_v186 main_v187 main_v188 (Host.divf : (⟨S800000x1, .f32⟩ : BufTy).Contents (Elt F) → (⟨S800000x1, .f32⟩ : BufTy).Contents (Elt F) → (⟨S800000x1, .f32⟩ : BufTy).Contents (Elt F)) : HloOp τ sig (Elt F)).result V) ∧ Live227 x0 x1 x2 x3 x4 x5 x6 x7 x8 x9 x10 x11 x12 x13 ((binary main_v186 main_v187 main_v188 (Host.divf : (⟨S800000x1, .f32⟩ : BufTy).Contents (Elt F) → (⟨S800000x1, .f32⟩ : BufTy).Contents (Elt F) → (⟨S800000x1, .f32⟩ : BufTy).Contents (Elt F)) : HloOp τ sig (Elt F)).result V) := by
  refine ⟨args_step main_v188 rfl (by decide) hA, ?_⟩
  obtain ⟨h_v131, h_v132, h_v133, h_v134, h_v135, h_v136, h_v149, h_v186, h_v187⟩ := hL
  exact ⟨(keep main_v188 rfl (by decide)).trans h_v131,
    (keep main_v188 rfl (by decide)).trans h_v132,
    (keep main_v188 rfl (by decide)).trans h_v133,
    (keep main_v188 rfl (by decide)).trans h_v134,
    (keep main_v188 rfl (by decide)).trans h_v135,
    (keep main_v188 rfl (by decide)).trans h_v136,
    (keep main_v188 rfl (by decide)).trans h_v149,
    new_binary h_v186 h_v187 rfl⟩
theorem step227 (hA : Args x0 x1 x2 x3 x4 x5 x6 x7 x8 x9 x10 x11 x12 x13 V) (hL : Live227 x0 x1 x2 x3 x4 x5 x6 x7 x8 x9 x10 x11 x12 x13 V) :
    Args x0 x1 x2 x3 x4 x5 x6 x7 x8 x9 x10 x11 x12 x13 ((unary main_v188 main_v189 (Host.negf : (⟨S800000x1, .f32⟩ : BufTy).Contents (Elt F) → (⟨S800000x1, .f32⟩ : BufTy).Contents (Elt F)) : HloOp τ sig (Elt F)).result V) ∧ Live228 x0 x1 x2 x3 x4 x5 x6 x7 x8 x9 x10 x11 x12 x13 ((unary main_v188 main_v189 (Host.negf : (⟨S800000x1, .f32⟩ : BufTy).Contents (Elt F) → (⟨S800000x1, .f32⟩ : BufTy).Contents (Elt F)) : HloOp τ sig (Elt F)).result V) := by
  refine ⟨args_step main_v189 rfl (by decide) hA, ?_⟩
  obtain ⟨h_v131, h_v132, h_v133, h_v134, h_v135, h_v136, h_v149, h_v188⟩ := hL
  exact ⟨(keep main_v189 rfl (by decide)).trans h_v131,
    (keep main_v189 rfl (by decide)).trans h_v132,
    (keep main_v189 rfl (by decide)).trans h_v133,
    (keep main_v189 rfl (by decide)).trans h_v134,
    (keep main_v189 rfl (by decide)).trans h_v135,
    (keep main_v189 rfl (by decide)).trans h_v136,
    (keep main_v189 rfl (by decide)).trans h_v149,
    new_unary h_v188 rfl⟩
theorem step228 (hA : Args x0 x1 x2 x3 x4 x5 x6 x7 x8 x9 x10 x11 x12 x13 V) (hL : Live228 x0 x1 x2 x3 x4 x5 x6 x7 x8 x9 x10 x11 x12 x13 V) :
    Args x0 x1 x2 x3 x4 x5 x6 x7 x8 x9 x10 x11 x12 x13 ((unary main_v189 main_v190 (Host.exp : (⟨S800000x1, .f32⟩ : BufTy).Contents (Elt F) → (⟨S800000x1, .f32⟩ : BufTy).Contents (Elt F)) : HloOp τ sig (Elt F)).result V) ∧ Live229 x0 x1 x2 x3 x4 x5 x6 x7 x8 x9 x10 x11 x12 x13 ((unary main_v189 main_v190 (Host.exp : (⟨S800000x1, .f32⟩ : BufTy).Contents (Elt F) → (⟨S800000x1, .f32⟩ : BufTy).Contents (Elt F)) : HloOp τ sig (Elt F)).result V) := by
  refine ⟨args_step main_v190 rfl (by decide) hA, ?_⟩
  obtain ⟨h_v131, h_v132, h_v133, h_v134, h_v135, h_v136, h_v149, h_v189⟩ := hL
  exact ⟨(keep main_v190 rfl (by decide)).trans h_v131,
    (keep main_v190 rfl (by decide)).trans h_v132,
    (keep main_v190 rfl (by decide)).trans h_v133,
    (keep main_v190 rfl (by decide)).trans h_v134,
    (keep main_v190 rfl (by decide)).trans h_v135,
    (keep main_v190 rfl (by decide)).trans h_v136,
    (keep main_v190 rfl (by decide)).trans h_v149,
    new_unary h_v189 rfl⟩
theorem step229 (hA : Args x0 x1 x2 x3 x4 x5 x6 x7 x8 x9 x10 x11 x12 x13 V) (hL : Live229 x0 x1 x2 x3 x4 x5 x6 x7 x8 x9 x10 x11 x12 x13 V) :
    Args x0 x1 x2 x3 x4 x5 x6 x7 x8 x9 x10 x11 x12 x13 ((nullary main_cst_34 (constant S_ .f32 0x3F800000#32) : HloOp τ sig (Elt F)).result V) ∧ Live230 x0 x1 x2 x3 x4 x5 x6 x7 x8 x9 x10 x11 x12 x13 ((nullary main_cst_34 (constant S_ .f32 0x3F800000#32) : HloOp τ sig (Elt F)).result V) := by
  refine ⟨args_step main_cst_34 rfl (by decide) hA, ?_⟩
  obtain ⟨h_v131, h_v132, h_v133, h_v134, h_v135, h_v136, h_v149, h_v190⟩ := hL
  exact ⟨(keep main_cst_34 rfl (by decide)).trans h_v131,
    (keep main_cst_34 rfl (by decide)).trans h_v132,
    (keep main_cst_34 rfl (by decide)).trans h_v133,
    (keep main_cst_34 rfl (by decide)).trans h_v134,
    (keep main_cst_34 rfl (by decide)).trans h_v135,
    (keep main_cst_34 rfl (by decide)).trans h_v136,
    (keep main_cst_34 rfl (by decide)).trans h_v149,
    (keep main_cst_34 rfl (by decide)).trans h_v190,
    new_nullary rfl⟩
theorem step230 (hA : Args x0 x1 x2 x3 x4 x5 x6 x7 x8 x9 x10 x11 x12 x13 V) (hL : Live230 x0 x1 x2 x3 x4 x5 x6 x7 x8 x9 x10 x11 x12 x13 V) :
    Args x0 x1 x2 x3 x4 x5 x6 x7 x8 x9 x10 x11 x12 x13 ((unary main_cst_34 main_v191 (broadcastInDim S800000x1 ![] bcast_S_S800000x1 : (⟨S_, .f32⟩ : BufTy).Contents (Elt F) → (⟨S800000x1, .f32⟩ : BufTy).Contents (Elt F)) : HloOp τ sig (Elt F)).result V) ∧ Live231 x0 x1 x2 x3 x4 x5 x6 x7 x8 x9 x10 x11 x12 x13 ((unary main_cst_34 main_v191 (broadcastInDim S800000x1 ![] bcast_S_S800000x1 : (⟨S_, .f32⟩ : BufTy).Contents (Elt F) → (⟨S800000x1, .f32⟩ : BufTy).Contents (Elt F)) : HloOp τ sig (Elt F)).result V) := by
  refine ⟨args_step main_v191 rfl (by decide) hA, ?_⟩
  obtain ⟨h_v131, h_v132, h_v133, h_v134, h_v135, h_v136, h_v149, h_v190, h_cst_34⟩ := hL
  exact ⟨(keep main_v191 rfl (by decide)).trans h_v131,
    (keep main_v191 rfl (by decide)).trans h_v132,
    (keep main_v191 rfl (by decide)).trans h_v133,
    (keep main_v191 rfl (by decide)).trans h_v134,
    (keep main_v191 rfl (by decide)).trans h_v135,
    (keep main_v191 rfl (by decide)).trans h_v136,
    (keep main_v191 rfl (by decide)).trans h_v149,
    (keep main_v191 rfl (by decide)).trans h_v190,
    new_unary h_cst_34 rfl⟩
theorem step231 (hA : Args x0 x1 x2 x3 x4 x5 x6 x7 x8 x9 x10 x11 x12 x13 V) (hL : Live231 x0 x1 x2 x3 x4 x5 x6 x7 x8 x9 x10 x11 x12 x13 V) :
    Args x0 x1 x2 x3 x4 x5 x6 x7 x8 x9 x10 x11 x12 x13 ((binary main_v191 main_v190 main_v192 (addf : (⟨S800000x1, .f32⟩ : BufTy).Contents (Elt F) → (⟨S800000x1, .f32⟩ : BufTy).Contents (Elt F) → (⟨S800000x1, .f32⟩ : BufTy).Contents (Elt F)) : HloOp τ sig (Elt F)).result V) ∧ Live232 x0 x1 x2 x3 x4 x5 x6 x7 x8 x9 x10 x11 x12 x13 ((binary main_v191 main_v190 main_v192 (addf : (⟨S800000x1, .f32⟩ : BufTy).Contents (Elt F) → (⟨S800000x1, .f32⟩ : BufTy).Contents (Elt F) → (⟨S800000x1, .f32⟩ : BufTy).Contents (Elt F)) : HloOp τ sig (Elt F)).result V) := by
  refine ⟨args_step main_v192 rfl (by decide) hA, ?_⟩
  obtain ⟨h_v131, h_v132, h_v133, h_v134, h_v135, h_v136, h_v149, h_v190, h_v191⟩ := hL
  exact ⟨(keep main_v192 rfl (by decide)).trans h_v131,
    (keep main_v192 rfl (by decide)).trans h_v132,
    (keep main_v192 rfl (by decide)).trans h_v133,
    (keep main_v192 rfl (by decide)).trans h_v134,
    (keep main_v192 rfl (by decide)).trans h_v135,
    (keep main_v192 rfl (by decide)).trans h_v136,
    (keep main_v192 rfl (by decide)).trans h_v149,
    new_binary h_v191 h_v190 rfl⟩
theorem step232 (hA : Args x0 x1 x2 x3 x4 x5 x6 x7 x8 x9 x10 x11 x12 x13 V) (hL : Live232 x0 x1 x2 x3 x4 x5 x6 x7 x8 x9 x10 x11 x12 x13 V) :
    Args x0 x1 x2 x3 x4 x5 x6 x7 x8 x9 x10 x11 x12 x13 ((nullary main_cst_35 (constant S_ .f32 0x3F800000#32) : HloOp τ sig (Elt F)).result V) ∧ Live233 x0 x1 x2 x3 x4 x5 x6 x7 x8 x9 x10 x11 x12 x13 ((nullary main_cst_35 (constant S_ .f32 0x3F800000#32) : HloOp τ sig (Elt F)).result V) := by
  refine ⟨args_step main_cst_35 rfl (by decide) hA, ?_⟩
  obtain ⟨h_v131, h_v132, h_v133, h_v134, h_v135, h_v136, h_v149, h_v192⟩ := hL
  exact ⟨(keep main_cst_35 rfl (by decide)).trans h_v131,
    (keep main_cst_35 rfl (by decide)).trans h_v132,
    (keep main_cst_35 rfl (by decide)).trans h_v133,
    (keep main_cst_35 rfl (by decide)).trans h_v134,
    (keep main_cst_35 rfl (by decide)).trans h_v135,
    (keep main_cst_35 rfl (by decide)).trans h_v136,
    (keep main_cst_35 rfl (by decide)).trans h_v149,
    (keep main_cst_35 rfl (by decide)).trans h_v192,
    new_nullary rfl⟩
theorem step233 (hA : Args x0 x1 x2 x3 x4 x5 x6 x7 x8 x9 x10 x11 x12 x13 V) (hL : Live233 x0 x1 x2 x3 x4 x5 x6 x7 x8 x9 x10 x11 x12 x13 V) :
    Args x0 x1 x2 x3 x4 x5 x6 x7 x8 x9 x10 x11 x12 x13 ((unary main_cst_35 main_v193 (broadcastInDim S800000x1 ![] bcast_S_S800000x1 : (⟨S_, .f32⟩ : BufTy).Contents (Elt F) → (⟨S800000x1, .f32⟩ : BufTy).Contents (Elt F)) : HloOp τ sig (Elt F)).result V) ∧ Live234 x0 x1 x2 x3 x4 x5 x6 x7 x8 x9 x10 x11 x12 x13 ((unary main_cst_35 main_v193 (broadcastInDim S800000x1 ![] bcast_S_S800000x1 : (⟨S_, .f32⟩ : BufTy).Contents (Elt F) → (⟨S800000x1, .f32⟩ : BufTy).Contents (Elt F)) : HloOp τ sig (Elt F)).result V) := by
  refine ⟨args_step main_v193 rfl (by decide) hA, ?_⟩
  obtain ⟨h_v131, h_v132, h_v133, h_v134, h_v135, h_v136, h_v149, h_v192, h_cst_35⟩ := hL
  exact ⟨(keep main_v193 rfl (by decide)).trans h_v131,
    (keep main_v193 rfl (by decide)).trans h_v132,
    (keep main_v193 rfl (by decide)).trans h_v133,
    (keep main_v193 rfl (by decide)).trans h_v134,
    (keep main_v193 rfl (by decide)).trans h_v135,
    (keep main_v193 rfl (by decide)).trans h_v136,
    (keep main_v193 rfl (by decide)).trans h_v149,
    (keep main_v193 rfl (by decide)).trans h_v192,
    new_unary h_cst_35 rfl⟩
theorem step234 (hA : Args x0 x1 x2 x3 x4 x5 x6 x7 x8 x9 x10 x11 x12 x13 V) (hL : Live234 x0 x1 x2 x3 x4 x5 x6 x7 x8 x9 x10 x11 x12 x13 V) :
    Args x0 x1 x2 x3 x4 x5 x6 x7 x8 x9 x10 x11 x12 x13 ((binary main_v193 main_v192 main_v194 (Host.divf : (⟨S800000x1, .f32⟩ : BufTy).Contents (Elt F) → (⟨S800000x1, .f32⟩ : BufTy).Contents (Elt F) → (⟨S800000x1, .f32⟩ : BufTy).Contents (Elt F)) : HloOp τ sig (Elt F)).result V) ∧ Live235 x0 x1 x2 x3 x4 x5 x6 x7 x8 x9 x10 x11 x12 x13 ((binary main_v193 main_v192 main_v194 (Host.divf : (⟨S800000x1, .f32⟩ : BufTy).Contents (Elt F) → (⟨S800000x1, .f32⟩ : BufTy).Contents (Elt F) → (⟨S800000x1, .f32⟩ : BufTy).Contents (Elt F)) : HloOp τ sig (Elt F)).result V) := by
  refine ⟨args_step main_v194 rfl (by decide) hA, ?_⟩
  obtain ⟨h_v131, h_v132, h_v133, h_v134, h_v135, h_v136, h_v149, h_v192, h_v193⟩ := hL
  exact ⟨(keep main_v194 rfl (by decide)).trans h_v131,
    (keep main_v194 rfl (by decide)).trans h_v132,
    (keep main_v194 rfl (by decide)).trans h_v133,
    (keep main_v194 rfl (by decide)).trans h_v134,
    (keep main_v194 rfl (by decide)).trans h_v135,
    (keep main_v194 rfl (by decide)).trans h_v136,
    (keep main_v194 rfl (by decide)).trans h_v149,
    new_binary h_v193 h_v192 rfl⟩
theorem step235 (hA : Args x0 x1 x2 x3 x4 x5 x6 x7 x8 x9 x10 x11 x12 x13 V) (hL : Live235 x0 x1 x2 x3 x4 x5 x6 x7 x8 x9 x10 x11 x12 x13 V) :
    Args x0 x1 x2 x3 x4 x5 x6 x7 x8 x9 x10 x11 x12 x13 ((reshape main_v194 main_v195 rfl shapeCasts_S800000x1_S800000 : HloOp τ sig (Elt F)).result V) ∧ Live236 x0 x1 x2 x3 x4 x5 x6 x7 x8 x9 x10 x11 x12 x13 ((reshape main_v194 main_v195 rfl shapeCasts_S800000x1_S800000 : HloOp τ sig (Elt F)).result V) := by
  refine ⟨args_step main_v195 rfl (by decide) hA, ?_⟩
  obtain ⟨h_v131, h_v132, h_v133, h_v134, h_v135, h_v136, h_v149, h_v194⟩ := hL
  exact ⟨(keep main_v195 rfl (by decide)).trans h_v131,
    (keep main_v195 rfl (by decide)).trans h_v132,
    (keep main_v195 rfl (by decide)).trans h_v133,
    (keep main_v195 rfl (by decide)).trans h_v134,
    (keep main_v195 rfl (by decide)).trans h_v135,
    (keep main_v195 rfl (by decide)).trans h_v136,
    (keep main_v195 rfl (by decide)).trans h_v149,
    (by show _ = _; rw [reshape_result, h_v194]; exact rfl)⟩
theorem step236 (hA : Args x0 x1 x2 x3 x4 x5 x6 x7 x8 x9 x10 x11 x12 x13 V) (hL : Live236 x0 x1 x2 x3 x4 x5 x6 x7 x8 x9 x10 x11 x12 x13 V) :
    Args x0 x1 x2 x3 x4 x5 x6 x7 x8 x9 x10 x11 x12 x13 ((nullary main_cst_36 (constant S_ .f32 0x00000000#32) : HloOp τ sig (Elt F)).result V) ∧ Live237 x0 x1 x2 x3 x4 x5 x6 x7 x8 x9 x10 x11 x12 x13 ((nullary main_cst_36 (constant S_ .f32 0x00000000#32) : HloOp τ sig (Elt F)).result V) := by
  refine ⟨args_step main_cst_36 rfl (by decide) hA, ?_⟩
  obtain ⟨h_v131, h_v132, h_v133, h_v134, h_v135, h_v136, h_v149, h_v195⟩ := hL
  exact ⟨(keep main_cst_36 rfl (by decide)).trans h_v131,
    (keep main_cst_36 rfl (by decide)).trans h_v132,
    (keep main_cst_36 rfl (by decide)).trans h_v133,
    (keep main_cst_36 rfl (by decide)).trans h_v134,
    (keep main_cst_36 rfl (by decide)).trans h_v135,
    (keep main_cst_36 rfl (by decide)).trans h_v136,
    (keep main_cst_36 rfl (by decide)).trans h_v149,
    (keep main_cst_36 rfl (by decide)).trans h_v195,
    new_nullary rfl⟩
theorem step237 (hA : Args x0 x1 x2 x3 x4 x5 x6 x7 x8 x9 x10 x11 x12 x13 V) (hL : Live237 x0 x1 x2 x3 x4 x5 x6 x7 x8 x9 x10 x11 x12 x13 V) :
    Args x0 x1 x2 x3 x4 x5 x6 x7 x8 x9 x10 x11 x12 x13 ((unary main_cst_36 main_v196 (broadcastInDim S100000 ![] bcast_S_S100000 : (⟨S_, .f32⟩ : BufTy).Contents (Elt F) → (⟨S100000, .f32⟩ : BufTy).Contents (Elt F)) : HloOp τ sig (Elt F)).result V) ∧ Live238 x0 x1 x2 x3 x4 x5 x6 x7 x8 x9 x10 x11 x12 x13 ((unary main_cst_36 main_v196 (broadcastInDim S100000 ![] bcast_S_S100000 : (⟨S_, .f32⟩ : BufTy).Contents (Elt F) → (⟨S100000, .f32⟩ : BufTy).Contents (Elt F)) : HloOp τ sig (Elt F)).result V) := by
  refine ⟨args_step main_v196 rfl (by decide) hA, ?_⟩
  obtain ⟨h_v131, h_v132, h_v133, h_v134, h_v135, h_v136, h_v149, h_v195, h_cst_36⟩ := hL
  exact ⟨(keep main_v196 rfl (by decide)).trans h_v131,
    (keep main_v196 rfl (by decide)).trans h_v132,
    (keep main_v196 rfl (by decide)).trans h_v133,
    (keep main_v196 rfl (by decide)).trans h_v134,
    (keep main_v196 rfl (by decide)).trans h_v135,
    (keep main_v196 rfl (by decide)).trans h_v136,
    (keep main_v196 rfl (by decide)).trans h_v149,
    (keep main_v196 rfl (by decide)).trans h_v195,
    new_unary h_cst_36 rfl⟩
theorem step238 (hA : Args x0 x1 x2 x3 x4 x5 x6 x7 x8 x9 x10 x11 x12 x13 V) (hL : Live238 x0 x1 x2 x3 x4 x5 x6 x7 x8 x9 x10 x11 x12 x13 V) :
    Args x0 x1 x2 x3 x4 x5 x6 x7 x8 x9 x10 x11 x12 x13 ((unary main_arg1 main_v197 (broadcastInDim S800000x1 ![0] bcast_S800000_S800000x1_0 : (⟨S800000, .i32⟩ : BufTy).Contents (Elt F) → (⟨S800000x1, .i32⟩ : BufTy).Contents (Elt F)) : HloOp τ sig (Elt F)).result V) ∧ Live239 x0 x1 x2 x3 x4 x5 x6 x7 x8 x9 x10 x11 x12 x13 ((unary main_arg1 main_v197 (broadcastInDim S800000x1 ![0] bcast_S800000_S800000x1_0 : (⟨S800000, .i32⟩ : BufTy).Contents (Elt F) → (⟨S800000x1, .i32⟩ : BufTy).Contents (Elt F)) : HloOp τ sig (Elt F)).result V) := by
  refine ⟨args_step main_v197 rfl (by decide) hA, ?_⟩
  unfold Args at hA
  obtain ⟨a0, a1, a2, a3, a4, a5, a6, a7, a8, a9, a10, a11, a12, a13⟩ := hA
  obtain ⟨h_v131, h_v132, h_v133, h_v134, h_v135, h_v136, h_v149, h_v195, h_v196⟩ := hL
  exact ⟨(keep main_v197 rfl (by decide)).trans h_v131,
    (keep main_v197 rfl (by decide)).trans h_v132,
    (keep main_v197 rfl (by decide)).trans h_v133,
    (keep main_v197 rfl (by decide)).trans h_v134,
    (keep main_v197 rfl (by decide)).trans h_v135,
    (keep main_v197 rfl (by decide)).trans h_v136,
    (keep main_v197 rfl (by decide)).trans h_v149,
    (keep main_v197 rfl (by decide)).trans h_v195,
    (keep main_v197 rfl (by decide)).trans h_v196,
    new_unary a1 rfl⟩
theorem step239 (hA : Args x0 x1 x2 x3 x4 x5 x6 x7 x8 x9 x10 x11 x12 x13 V) (hL : Live239 x0 x1 x2 x3 x4 x5 x6 x7 x8 x9 x10 x11 x12 x13 V) :
    Args x0 x1 x2 x3 x4 x5 x6 x7 x8 x9 x10 x11 x12 x13 ((ternary main_v196 main_v197 main_v195 main_v198 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)) : HloOp τ sig (Elt F)).result V) ∧ Live240 x0 x1 x2 x3 x4 x5 x6 x7 x8 x9 x10 x11 x12 x13 ((ternary main_v196 main_v197 main_v195 main_v198 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)) : HloOp τ sig (Elt F)).result V) := by
  refine ⟨args_step main_v198 rfl (by decide) hA, ?_⟩
  obtain ⟨h_v131, h_v132, h_v133, h_v134, h_v135, h_v136, h_v149, h_v195, h_v196, h_v197⟩ := hL
  exact ⟨(keep main_v198 rfl (by decide)).trans h_v131,
    (keep main_v198 rfl (by decide)).trans h_v132,
    (keep main_v198 rfl (by decide)).trans h_v133,
    (keep main_v198 rfl (by decide)).trans h_v134,
    (keep main_v198 rfl (by decide)).trans h_v135,
    (keep main_v198 rfl (by decide)).trans h_v136,
    (keep main_v198 rfl (by decide)).trans h_v149,
    (keep main_v198 rfl (by decide)).trans h_v195,
    new_ternary h_v196 h_v197 h_v195 rfl⟩
theorem step240 (hA : Args x0 x1 x2 x3 x4 x5 x6 x7 x8 x9 x10 x11 x12 x13 V) (hL : Live240 x0 x1 x2 x3 x4 x5 x6 x7 x8 x9 x10 x11 x12 x13 V) :
    Args x0 x1 x2 x3 x4 x5 x6 x7 x8 x9 x10 x11 x12 x13 ((nullary main_cst_37 (constant S_ .f32 0x00000000#32) : HloOp τ sig (Elt F)).result V) ∧ Live241 x0 x1 x2 x3 x4 x5 x6 x7 x8 x9 x10 x11 x12 x13 ((nullary main_cst_37 (constant S_ .f32 0x00000000#32) : HloOp τ sig (Elt F)).result V) := by
  refine ⟨args_step main_cst_37 rfl (by decide) hA, ?_⟩
  obtain ⟨h_v131, h_v132, h_v133, h_v134, h_v135, h_v136, h_v149, h_v195, h_v198⟩ := hL
  exact ⟨(keep main_cst_37 rfl (by decide)).trans h_v131,
    (keep main_cst_37 rfl (by decide)).trans h_v132,
    (keep main_cst_37 rfl (by decide)).trans h_v133,
    (keep main_cst_37 rfl (by decide)).trans h_v134,
    (keep main_cst_37 rfl (by decide)).trans h_v135,
    (keep main_cst_37 rfl (by decide)).trans h_v136,
    (keep main_cst_37 rfl (by decide)).trans h_v149,
    (keep main_cst_37 rfl (by decide)).trans h_v195,
    (keep main_cst_37 rfl (by decide)).trans h_v198,
    new_nullary rfl⟩
theorem step241 (hA : Args x0 x1 x2 x3 x4 x5 x6 x7 x8 x9 x10 x11 x12 x13 V) (hL : Live241 x0 x1 x2 x3 x4 x5 x6 x7 x8 x9 x10 x11 x12 x13 V) :
    Args x0 x1 x2 x3 x4 x5 x6 x7 x8 x9 x10 x11 x12 x13 ((unary main_cst_37 main_v199 (broadcastInDim S100000 ![] bcast_S_S100000 : (⟨S_, .f32⟩ : BufTy).Contents (Elt F) → (⟨S100000, .f32⟩ : BufTy).Contents (Elt F)) : HloOp τ sig (Elt F)).result V) ∧ Live242 x0 x1 x2 x3 x4 x5 x6 x7 x8 x9 x10 x11 x12 x13 ((unary main_cst_37 main_v199 (broadcastInDim S100000 ![] bcast_S_S100000 : (⟨S_, .f32⟩ : BufTy).Contents (Elt F) → (⟨S100000, .f32⟩ : BufTy).Contents (Elt F)) : HloOp τ sig (Elt F)).result V) := by
  refine ⟨args_step main_v199 rfl (by decide) hA, ?_⟩
  obtain ⟨h_v131, h_v132, h_v133, h_v134, h_v135, h_v136, h_v149, h_v195, h_v198, h_cst_37⟩ := hL
  exact ⟨(keep main_v199 rfl (by decide)).trans h_v131,
    (keep main_v199 rfl (by decide)).trans h_v132,
    (keep main_v199 rfl (by decide)).trans h_v133,
    (keep main_v199 rfl (by decide)).trans h_v134,
    (keep main_v199 rfl (by decide)).trans h_v135,
    (keep main_v199 rfl (by decide)).trans h_v136,
    (keep main_v199 rfl (by decide)).trans h_v149,
    (keep main_v199 rfl (by decide)).trans h_v195,
    (keep main_v199 rfl (by decide)).trans h_v198,
    new_unary h_cst_37 rfl⟩
theorem step242 (hA : Args x0 x1 x2 x3 x4 x5 x6 x7 x8 x9 x10 x11 x12 x13 V) (hL : Live242 x0 x1 x2 x3 x4 x5 x6 x7 x8 x9 x10 x11 x12 x13 V) :
    Args x0 x1 x2 x3 x4 x5 x6 x7 x8 x9 x10 x11 x12 x13 ((binary main_v198 main_v199 main_v200 (cmpf .ogt : (⟨S100000, .f32⟩ : BufTy).Contents (Elt F) → (⟨S100000, .f32⟩ : BufTy).Contents (Elt F) → (⟨S100000, .i1⟩ : BufTy).Contents (Elt F)) : HloOp τ sig (Elt F)).result V) ∧ Live243 x0 x1 x2 x3 x4 x5 x6 x7 x8 x9 x10 x11 x12 x13 ((binary main_v198 main_v199 main_v200 (cmpf .ogt : (⟨S100000, .f32⟩ : BufTy).Contents (Elt F) → (⟨S100000, .f32⟩ : BufTy).Contents (Elt F) → (⟨S100000, .i1⟩ : BufTy).Contents (Elt F)) : HloOp τ sig (Elt F)).result V) := by
  refine ⟨args_step main_v200 rfl (by decide) hA, ?_⟩
  obtain ⟨h_v131, h_v132, h_v133, h_v134, h_v135, h_v136, h_v149, h_v195, h_v198, h_v199⟩ := hL
  exact ⟨(keep main_v200 rfl (by decide)).trans h_v131,
    (keep main_v200 rfl (by decide)).trans h_v132,
    (keep main_v200 rfl (by decide)).trans h_v133,
    (keep main_v200 rfl (by decide)).trans h_v134,
    (keep main_v200 rfl (by decide)).trans h_v135,
    (keep main_v200 rfl (by decide)).trans h_v136,
    (keep main_v200 rfl (by decide)).trans h_v149,
    (keep main_v200 rfl (by decide)).trans h_v195,
    (keep main_v200 rfl (by decide)).trans h_v198,
    new_binary h_v198 h_v199 rfl⟩
theorem step243 (hA : Args x0 x1 x2 x3 x4 x5 x6 x7 x8 x9 x10 x11 x12 x13 V) (hL : Live243 x0 x1 x2 x3 x4 x5 x6 x7 x8 x9 x10 x11 x12 x13 V) :
    Args x0 x1 x2 x3 x4 x5 x6 x7 x8 x9 x10 x11 x12 x13 ((nullary main_cst_38 (constant S_ .f32 0x3F800000#32) : HloOp τ sig (Elt F)).result V) ∧ Live244 x0 x1 x2 x3 x4 x5 x6 x7 x8 x9 x10 x11 x12 x13 ((nullary main_cst_38 (constant S_ .f32 0x3F800000#32) : HloOp τ sig (Elt F)).result V) := by
  refine ⟨args_step main_cst_38 rfl (by decide) hA, ?_⟩
  obtain ⟨h_v131, h_v132, h_v133, h_v134, h_v135, h_v136, h_v149, h_v195, h_v198, h_v200⟩ := hL
  exact ⟨(keep main_cst_38 rfl (by decide)).trans h_v131,
    (keep main_cst_38 rfl (by decide)).trans h_v132,
    (keep main_cst_38 rfl (by decide)).trans h_v133,
    (keep main_cst_38 rfl (by decide)).trans h_v134,
    (keep main_cst_38 rfl (by decide)).trans h_v135,
    (keep main_cst_38 rfl (by decide)).trans h_v136,
    (keep main_cst_38 rfl (by decide)).trans h_v149,
    (keep main_cst_38 rfl (by decide)).trans h_v195,
    (keep main_cst_38 rfl (by decide)).trans h_v198,
    (keep main_cst_38 rfl (by decide)).trans h_v200,
    new_nullary rfl⟩
theorem step244 (hA : Args x0 x1 x2 x3 x4 x5 x6 x7 x8 x9 x10 x11 x12 x13 V) (hL : Live244 x0 x1 x2 x3 x4 x5 x6 x7 x8 x9 x10 x11 x12 x13 V) :
    Args x0 x1 x2 x3 x4 x5 x6 x7 x8 x9 x10 x11 x12 x13 ((unary main_cst_38 main_v201 (broadcastInDim S100000 ![] bcast_S_S100000 : (⟨S_, .f32⟩ : BufTy).Contents (Elt F) → (⟨S100000, .f32⟩ : BufTy).Contents (Elt F)) : HloOp τ sig (Elt F)).result V) ∧ Live245 x0 x1 x2 x3 x4 x5 x6 x7 x8 x9 x10 x11 x12 x13 ((unary main_cst_38 main_v201 (broadcastInDim S100000 ![] bcast_S_S100000 : (⟨S_, .f32⟩ : BufTy).Contents (Elt F) → (⟨S100000, .f32⟩ : BufTy).Contents (Elt F)) : HloOp τ sig (Elt F)).result V) := by
  refine ⟨args_step main_v201 rfl (by decide) hA, ?_⟩
  obtain ⟨h_v131, h_v132, h_v133, h_v134, h_v135, h_v136, h_v149, h_v195, h_v198, h_v200, h_cst_38⟩ := hL
  exact ⟨(keep main_v201 rfl (by decide)).trans h_v131,
    (keep main_v201 rfl (by decide)).trans h_v132,
    (keep main_v201 rfl (by decide)).trans h_v133,
    (keep main_v201 rfl (by decide)).trans h_v134,
    (keep main_v201 rfl (by decide)).trans h_v135,
    (keep main_v201 rfl (by decide)).trans h_v136,
    (keep main_v201 rfl (by decide)).trans h_v149,
    (keep main_v201 rfl (by decide)).trans h_v195,
    (keep main_v201 rfl (by decide)).trans h_v198,
    (keep main_v201 rfl (by decide)).trans h_v200,
    new_unary h_cst_38 rfl⟩
theorem step245 (hA : Args x0 x1 x2 x3 x4 x5 x6 x7 x8 x9 x10 x11 x12 x13 V) (hL : Live245 x0 x1 x2 x3 x4 x5 x6 x7 x8 x9 x10 x11 x12 x13 V) :
    Args x0 x1 x2 x3 x4 x5 x6 x7 x8 x9 x10 x11 x12 x13 ((binary main_v201 main_v198 main_v202 (Host.divf : (⟨S100000, .f32⟩ : BufTy).Contents (Elt F) → (⟨S100000, .f32⟩ : BufTy).Contents (Elt F) → (⟨S100000, .f32⟩ : BufTy).Contents (Elt F)) : HloOp τ sig (Elt F)).result V) ∧ Live246 x0 x1 x2 x3 x4 x5 x6 x7 x8 x9 x10 x11 x12 x13 ((binary main_v201 main_v198 main_v202 (Host.divf : (⟨S100000, .f32⟩ : BufTy).Contents (Elt F) → (⟨S100000, .f32⟩ : BufTy).Contents (Elt F) → (⟨S100000, .f32⟩ : BufTy).Contents (Elt F)) : HloOp τ sig (Elt F)).result V) := by
  refine ⟨args_step main_v202 rfl (by decide) hA, ?_⟩
  obtain ⟨h_v131, h_v132, h_v133, h_v134, h_v135, h_v136, h_v149, h_v195, h_v198, h_v200, h_v201⟩ := hL
  exact ⟨(keep main_v202 rfl (by decide)).trans h_v131,
    (keep main_v202 rfl (by decide)).trans h_v132,
    (keep main_v202 rfl (by decide)).trans h_v133,
    (keep main_v202 rfl (by decide)).trans h_v134,
    (keep main_v202 rfl (by decide)).trans h_v135,
    (keep main_v202 rfl (by decide)).trans h_v136,
    (keep main_v202 rfl (by decide)).trans h_v149,
    (keep main_v202 rfl (by decide)).trans h_v195,
    (keep main_v202 rfl (by decide)).trans h_v200,
    new_binary h_v201 h_v198 rfl⟩
theorem step246 (hA : Args x0 x1 x2 x3 x4 x5 x6 x7 x8 x9 x10 x11 x12 x13 V) (hL : Live246 x0 x1 x2 x3 x4 x5 x6 x7 x8 x9 x10 x11 x12 x13 V) :
    Args x0 x1 x2 x3 x4 x5 x6 x7 x8 x9 x10 x11 x12 x13 ((nullary main_cst_39 (constant S_ .f32 0x00000000#32) : HloOp τ sig (Elt F)).result V) ∧ Live247 x0 x1 x2 x3 x4 x5 x6 x7 x8 x9 x10 x11 x12 x13 ((nullary main_cst_39 (constant S_ .f32 0x00000000#32) : HloOp τ sig (Elt F)).result V) := by
  refine ⟨args_step main_cst_39 rfl (by decide) hA, ?_⟩
  obtain ⟨h_v131, h_v132, h_v133, h_v134, h_v135, h_v136, h_v149, h_v195, h_v200, h_v202⟩ := hL
  exact ⟨(keep main_cst_39 rfl (by decide)).trans h_v131,
    (keep main_cst_39 rfl (by decide)).trans h_v132,
    (keep main_cst_39 rfl (by decide)).trans h_v133,
    (keep main_cst_39 rfl (by decide)).trans h_v134,
    (keep main_cst_39 rfl (by decide)).trans h_v135,
    (keep main_cst_39 rfl (by decide)).trans h_v136,
    (keep main_cst_39 rfl (by decide)).trans h_v149,
    (keep main_cst_39 rfl (by decide)).trans h_v195,
    (keep main_cst_39 rfl (by decide)).trans h_v200,
    (keep main_cst_39 rfl (by decide)).trans h_v202,
    new_nullary rfl⟩
theorem step247 (hA : Args x0 x1 x2 x3 x4 x5 x6 x7 x8 x9 x10 x11 x12 x13 V) (hL : Live247 x0 x1 x2 x3 x4 x5 x6 x7 x8 x9 x10 x11 x12 x13 V) :
    Args x0 x1 x2 x3 x4 x5 x6 x7 x8 x9 x10 x11 x12 x13 ((TRef.unary (TRef.of (T := ⟨S_, .f32⟩) main_cst_39) (TRef.of (T := ⟨S_, .f32⟩) main_call1_v0) id : HloOp τ sig (Elt F)).result V) ∧ Live248 x0 x1 x2 x3 x4 x5 x6 x7 x8 x9 x10 x11 x12 x13 ((TRef.unary (TRef.of (T := ⟨S_, .f32⟩) main_cst_39) (TRef.of (T := ⟨S_, .f32⟩) main_call1_v0) id : HloOp τ sig (Elt F)).result V) := by
  refine ⟨args_step main_call1_v0 rfl (by decide) hA, ?_⟩
  obtain ⟨h_v131, h_v132, h_v133, h_v134, h_v135, h_v136, h_v149, h_v195, h_v200, h_v202, h_cst_39⟩ := hL
  exact ⟨(keep main_call1_v0 rfl (by decide)).trans h_v131,
    (keep main_call1_v0 rfl (by decide)).trans h_v132,
    (keep main_call1_v0 rfl (by decide)).trans h_v133,
    (keep main_call1_v0 rfl (by decide)).trans h_v134,
    (keep main_call1_v0 rfl (by decide)).trans h_v135,
    (keep main_call1_v0 rfl (by decide)).trans h_v136,
    (keep main_call1_v0 rfl (by decide)).trans h_v149,
    (keep main_call1_v0 rfl (by decide)).trans h_v195,
    (keep main_call1_v0 rfl (by decide)).trans h_v200,
    (keep main_call1_v0 rfl (by decide)).trans h_v202,
    new_unary h_cst_39 rfl⟩
theorem step248 (hA : Args x0 x1 x2 x3 x4 x5 x6 x7 x8 x9 x10 x11 x12 x13 V) (hL : Live248 x0 x1 x2 x3 x4 x5 x6 x7 x8 x9 x10 x11 x12 x13 V) :
    Args x0 x1 x2 x3 x4 x5 x6 x7 x8 x9 x10 x11 x12 x13 ((TRef.unary (TRef.of (T := ⟨S_, .f32⟩) main_call1_v0) (TRef.of (T := ⟨S100000, .f32⟩) main_call1_v1) (broadcastInDim S100000 ![] bcast_S_S100000) : HloOp τ sig (Elt F)).result V) ∧ Live249 x0 x1 x2 x3 x4 x5 x6 x7 x8 x9 x10 x11 x12 x13 ((TRef.unary (TRef.of (T := ⟨S_, .f32⟩) main_call1_v0) (TRef.of (T := ⟨S100000, .f32⟩) main_call1_v1) (broadcastInDim S100000 ![] bcast_S_S100000) : HloOp τ sig (Elt F)).result V) := by
  refine ⟨args_step main_call1_v1 rfl (by decide) hA, ?_⟩
  obtain ⟨h_v131, h_v132, h_v133, h_v134, h_v135, h_v136, h_v149, h_v195, h_v200, h_v202, h_call1_v0⟩ := hL
  exact ⟨(keep main_call1_v1 rfl (by decide)).trans h_v131,
    (keep main_call1_v1 rfl (by decide)).trans h_v132,
    (keep main_call1_v1 rfl (by decide)).trans h_v133,
    (keep main_call1_v1 rfl (by decide)).trans h_v134,
    (keep main_call1_v1 rfl (by decide)).trans h_v135,
    (keep main_call1_v1 rfl (by decide)).trans h_v136,
    (keep main_call1_v1 rfl (by decide)).trans h_v149,
    (keep main_call1_v1 rfl (by decide)).trans h_v195,
    (keep main_call1_v1 rfl (by decide)).trans h_v200,
    (keep main_call1_v1 rfl (by decide)).trans h_v202,
    new_unary h_call1_v0 rfl⟩
theorem step249 (hA : Args x0 x1 x2 x3 x4 x5 x6 x7 x8 x9 x10 x11 x12 x13 V) (hL : Live249 x0 x1 x2 x3 x4 x5 x6 x7 x8 x9 x10 x11 x12 x13 V) :
    Args x0 x1 x2 x3 x4 x5 x6 x7 x8 x9 x10 x11 x12 x13 ((TRef.ternary (TRef.of (T := ⟨S100000, .i1⟩) main_v200) (TRef.of (T := ⟨S100000, .f32⟩) main_v202) (TRef.of (T := ⟨S100000, .f32⟩) main_call1_v1) (TRef.of (T := ⟨S100000, .f32⟩) main_v203) select : HloOp τ sig (Elt F)).result V) ∧ Live250 x0 x1 x2 x3 x4 x5 x6 x7 x8 x9 x10 x11 x12 x13 ((TRef.ternary (TRef.of (T := ⟨S100000, .i1⟩) main_v200) (TRef.of (T := ⟨S100000, .f32⟩) main_v202) (TRef.of (T := ⟨S100000, .f32⟩) main_call1_v1) (TRef.of (T := ⟨S100000, .f32⟩) main_v203) select : HloOp τ sig (Elt F)).result V) := by
  refine ⟨args_step main_v203 rfl (by decide) hA, ?_⟩
  obtain ⟨h_v131, h_v132, h_v133, h_v134, h_v135, h_v136, h_v149, h_v195, h_v200, h_v202, h_call1_v1⟩ := hL
  exact ⟨(keep main_v203 rfl (by decide)).trans h_v131,
    (keep main_v203 rfl (by decide)).trans h_v132,
    (keep main_v203 rfl (by decide)).trans h_v133,
    (keep main_v203 rfl (by decide)).trans h_v134,
    (keep main_v203 rfl (by decide)).trans h_v135,
    (keep main_v203 rfl (by decide)).trans h_v136,
    (keep main_v203 rfl (by decide)).trans h_v149,
    (keep main_v203 rfl (by decide)).trans h_v195,
    new_ternary h_v200 h_v202 h_call1_v1 rfl⟩
theorem step250 (hA : Args x0 x1 x2 x3 x4 x5 x6 x7 x8 x9 x10 x11 x12 x13 V) (hL : Live250 x0 x1 x2 x3 x4 x5 x6 x7 x8 x9 x10 x11 x12 x13 V) :
    Args x0 x1 x2 x3 x4 x5 x6 x7 x8 x9 x10 x11 x12 x13 ((nullary main_c_40 (constantI S_ 32 0#32) : HloOp τ sig (Elt F)).result V) ∧ Live251 x0 x1 x2 x3 x4 x5 x6 x7 x8 x9 x10 x11 x12 x13 ((nullary main_c_40 (constantI S_ 32 0#32) : HloOp τ sig (Elt F)).result V) := by
  refine ⟨args_step main_c_40 rfl (by decide) hA, ?_⟩
  obtain ⟨h_v131, h_v132, h_v133, h_v134, h_v135, h_v136, h_v149, h_v195, h_v203⟩ := hL
  exact ⟨(keep main_c_40 rfl (by decide)).trans h_v131,
    (keep main_c_40 rfl (by decide)).trans h_v132,
    (keep main_c_40 rfl (by decide)).trans h_v133,
    (keep main_c_40 rfl (by decide)).trans h_v134,
    (keep main_c_40 rfl (by decide)).trans h_v135,
    (keep main_c_40 rfl (by decide)).trans h_v136,
    (keep main_c_40 rfl (by decide)).trans h_v149,
    (keep main_c_40 rfl (by decide)).trans h_v195,
    (keep main_c_40 rfl (by decide)).trans h_v203,
    new_nullary rfl⟩
theorem step251 (hA : Args x0 x1 x2 x3 x4 x5 x6 x7 x8 x9 x10 x11 x12 x13 V) (hL : Live251 x0 x1 x2 x3 x4 x5 x6 x7 x8 x9 x10 x11 x12 x13 V) :
    Args x0 x1 x2 x3 x4 x5 x6 x7 x8 x9 x10 x11 x12 x13 ((unary main_c_40 main_v204 (broadcastInDim S800000 ![] bcast_S_S800000 : (⟨S_, .i32⟩ : BufTy).Contents (Elt F) → (⟨S800000, .i32⟩ : BufTy).Contents (Elt F)) : HloOp τ sig (Elt F)).result V) ∧ Live252 x0 x1 x2 x3 x4 x5 x6 x7 x8 x9 x10 x11 x12 x13 ((unary main_c_40 main_v204 (broadcastInDim S800000 ![] bcast_S_S800000 : (⟨S_, .i32⟩ : BufTy).Contents (Elt F) → (⟨S800000, .i32⟩ : BufTy).Contents (Elt F)) : HloOp τ sig (Elt F)).result V) := by
  refine ⟨args_step main_v204 rfl (by decide) hA, ?_⟩
  obtain ⟨h_v131, h_v132, h_v133, h_v134, h_v135, h_v136, h_v149, h_v195, h_v203, h_c_40⟩ := hL
  exact ⟨(keep main_v204 rfl (by decide)).trans h_v131,
    (keep main_v204 rfl (by decide)).trans h_v132,
    (keep main_v204 rfl (by decide)).trans h_v133,
    (keep main_v204 rfl (by decide)).trans h_v134,
    (keep main_v204 rfl (by decide)).trans h_v135,
    (keep main_v204 rfl (by decide)).trans h_v136,
    (keep main_v204 rfl (by decide)).trans h_v149,
    (keep main_v204 rfl (by decide)).trans h_v195,
    (keep main_v204 rfl (by decide)).trans h_v203,
    new_unary h_c_40 rfl⟩
theorem step252 (hA : Args x0 x1 x2 x3 x4 x5 x6 x7 x8 x9 x10 x11 x12 x13 V) (hL : Live252 x0 x1 x2 x3 x4 x5 x6 x7 x8 x9 x10 x11 x12 x13 V) :
    Args x0 x1 x2 x3 x4 x5 x6 x7 x8 x9 x10 x11 x12 x13 ((binary main_arg1 main_v204 main_v205 (cmpi .slt : (⟨S800000, .i32⟩ : BufTy).Contents (Elt F) → (⟨S800000, .i32⟩ : BufTy).Contents (Elt F) → (⟨S800000, .i1⟩ : BufTy).Contents (Elt F)) : HloOp τ sig (Elt F)).result V) ∧ Live253 x0 x1 x2 x3 x4 x5 x6 x7 x8 x9 x10 x11 x12 x13 ((binary main_arg1 main_v204 main_v205 (cmpi .slt : (⟨S800000, .i32⟩ : BufTy).Contents (Elt F) → (⟨S800000, .i32⟩ : BufTy).Contents (Elt F) → (⟨S800000, .i1⟩ : BufTy).Contents (Elt F)) : HloOp τ sig (Elt F)).result V) := by
  refine ⟨args_step main_v205 rfl (by decide) hA, ?_⟩
  unfold Args at hA
  obtain ⟨a0, a1, a2, a3, a4, a5, a6, a7, a8, a9, a10, a11, a12, a13⟩ := hA
  obtain ⟨h_v131, h_v132, h_v133, h_v134, h_v135, h_v136, h_v149, h_v195, h_v203, h_v204⟩ := hL
  exact ⟨(keep main_v205 rfl (by decide)).trans h_v131,
    (keep main_v205 rfl (by decide)).trans h_v132,
    (keep main_v205 rfl (by decide)).trans h_v133,
    (keep main_v205 rfl (by decide)).trans h_v134,
    (keep main_v205 rfl (by decide)).trans h_v135,
    (keep main_v205 rfl (by decide)).trans h_v136,
    (keep main_v205 rfl (by decide)).trans h_v149,
    (keep main_v205 rfl (by decide)).trans h_v195,
    (keep main_v205 rfl (by decide)).trans h_v203,
    new_binary a1 h_v204 rfl⟩
theorem step253 (hA : Args x0 x1 x2 x3 x4 x5 x6 x7 x8 x9 x10 x11 x12 x13 V) (hL : Live253 x0 x1 x2 x3 x4 x5 x6 x7 x8 x9 x10 x11 x12 x13 V) :
    Args x0 x1 x2 x3 x4 x5 x6 x7 x8 x9 x10 x11 x12 x13 ((nullary main_c_41 (constantI S_ 32 100000#32) : HloOp τ sig (Elt F)).result V) ∧ Live254 x0 x1 x2 x3 x4 x5 x6 x7 x8 x9 x10 x11 x12 x13 ((nullary main_c_41 (constantI S_ 32 100000#32) : HloOp τ sig (Elt F)).result V) := by
  refine ⟨args_step main_c_41 rfl (by decide) hA, ?_⟩
  obtain ⟨h_v131, h_v132, h_v133, h_v134, h_v135, h_v136, h_v149, h_v195, h_v203, h_v205⟩ := hL
  exact ⟨(keep main_c_41 rfl (by decide)).trans h_v131,
    (keep main_c_41 rfl (by decide)).trans h_v132,
    (keep main_c_41 rfl (by decide)).trans h_v133,
    (keep main_c_41 rfl (by decide)).trans h_v134,
    (keep main_c_41 rfl (by decide)).trans h_v135,
    (keep main_c_41 rfl (by decide)).trans h_v136,
    (keep main_c_41 rfl (by decide)).trans h_v149,
    (keep main_c_41 rfl (by decide)).trans h_v195,
    (keep main_c_41 rfl (by decide)).trans h_v203,
    (keep main_c_41 rfl (by decide)).trans h_v205,
    new_nullary rfl⟩
theorem step254 (hA : Args x0 x1 x2 x3 x4 x5 x6 x7 x8 x9 x10 x11 x12 x13 V) (hL : Live254 x0 x1 x2 x3 x4 x5 x6 x7 x8 x9 x10 x11 x12 x13 V) :
    Args x0 x1 x2 x3 x4 x5 x6 x7 x8 x9 x10 x11 x12 x13 ((unary main_c_41 main_v206 (broadcastInDim S800000 ![] bcast_S_S800000 : (⟨S_, .i32⟩ : BufTy).Contents (Elt F) → (⟨S800000, .i32⟩ : BufTy).Contents (Elt F)) : HloOp τ sig (Elt F)).result V) ∧ Live255 x0 x1 x2 x3 x4 x5 x6 x7 x8 x9 x10 x11 x12 x13 ((unary main_c_41 main_v206 (broadcastInDim S800000 ![] bcast_S_S800000 : (⟨S_, .i32⟩ : BufTy).Contents (Elt F) → (⟨S800000, .i32⟩ : BufTy).Contents (Elt F)) : HloOp τ sig (Elt F)).result V) := by
  refine ⟨args_step main_v206 rfl (by decide) hA, ?_⟩
  obtain ⟨h_v131, h_v132, h_v133, h_v134, h_v135, h_v136, h_v149, h_v195, h_v203, h_v205, h_c_41⟩ := hL
  exact ⟨(keep main_v206 rfl (by decide)).trans h_v131,
    (keep main_v206 rfl (by decide)).trans h_v132,
    (keep main_v206 rfl (by decide)).trans h_v133,
    (keep main_v206 rfl (by decide)).trans h_v134,
    (keep main_v206 rfl (by decide)).trans h_v135,
    (keep main_v206 rfl (by decide)).trans h_v136,
    (keep main_v206 rfl (by decide)).trans h_v149,
    (keep main_v206 rfl (by decide)).trans h_v195,
    (keep main_v206 rfl (by decide)).trans h_v203,
    (keep main_v206 rfl (by decide)).trans h_v205,
    new_unary h_c_41 rfl⟩
theorem step255 (hA : Args x0 x1 x2 x3 x4 x5 x6 x7 x8 x9 x10 x11 x12 x13 V) (hL : Live255 x0 x1 x2 x3 x4 x5 x6 x7 x8 x9 x10 x11 x12 x13 V) :
    Args x0 x1 x2 x3 x4 x5 x6 x7 x8 x9 x10 x11 x12 x13 ((binary main_arg1 main_v206 main_v207 (addi : (⟨S800000, .i32⟩ : BufTy).Contents (Elt F) → (⟨S800000, .i32⟩ : BufTy).Contents (Elt F) → (⟨S800000, .i32⟩ : BufTy).Contents (Elt F)) : HloOp τ sig (Elt F)).result V) ∧ Live256 x0 x1 x2 x3 x4 x5 x6 x7 x8 x9 x10 x11 x12 x13 ((binary main_arg1 main_v206 main_v207 (addi : (⟨S800000, .i32⟩ : BufTy).Contents (Elt F) → (⟨S800000, .i32⟩ : BufTy).Contents (Elt F) → (⟨S800000, .i32⟩ : BufTy).Contents (Elt F)) : HloOp τ sig (Elt F)).result V) := by
  refine ⟨args_step main_v207 rfl (by decide) hA, ?_⟩
  unfold Args at hA
  obtain ⟨a0, a1, a2, a3, a4, a5, a6, a7, a8, a9, a10, a11, a12, a13⟩ := hA
  obtain ⟨h_v131, h_v132, h_v133, h_v134, h_v135, h_v136, h_v149, h_v195, h_v203, h_v205, h_v206⟩ := hL
  exact ⟨(keep main_v207 rfl (by decide)).trans h_v131,
    (keep main_v207 rfl (by decide)).trans h_v132,
    (keep main_v207 rfl (by decide)).trans h_v133,
    (keep main_v207 rfl (by decide)).trans h_v134,
    (keep main_v207 rfl (by decide)).trans h_v135,
    (keep main_v207 rfl (by decide)).trans h_v136,
    (keep main_v207 rfl (by decide)).trans h_v149,
    (keep main_v207 rfl (by decide)).trans h_v195,
    (keep main_v207 rfl (by decide)).trans h_v203,
    (keep main_v207 rfl (by decide)).trans h_v205,
    new_binary a1 h_v206 rfl⟩
theorem step256 (hA : Args x0 x1 x2 x3 x4 x5 x6 x7 x8 x9 x10 x11 x12 x13 V) (hL : Live256 x0 x1 x2 x3 x4 x5 x6 x7 x8 x9 x10 x11 x12 x13 V) :
    Args x0 x1 x2 x3 x4 x5 x6 x7 x8 x9 x10 x11 x12 x13 ((ternary main_v205 main_v207 main_arg1 main_v208 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) : HloOp τ sig (Elt F)).result V) ∧ Live257 x0 x1 x2 x3 x4 x5 x6 x7 x8 x9 x10 x11 x12 x13 ((ternary main_v205 main_v207 main_arg1 main_v208 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) : HloOp τ sig (Elt F)).result V) := by
  refine ⟨args_step main_v208 rfl (by decide) hA, ?_⟩
  unfold Args at hA
  obtain ⟨a0, a1, a2, a3, a4, a5, a6, a7, a8, a9, a10, a11, a12, a13⟩ := hA
  obtain ⟨h_v131, h_v132, h_v133, h_v134, h_v135, h_v136, h_v149, h_v195, h_v203, h_v205, h_v207⟩ := hL
  exact ⟨(keep main_v208 rfl (by decide)).trans h_v131,
    (keep main_v208 rfl (by decide)).trans h_v132,
    (keep main_v208 rfl (by decide)).trans h_v133,
    (keep main_v208 rfl (by decide)).trans h_v134,
    (keep main_v208 rfl (by decide)).trans h_v135,
    (keep main_v208 rfl (by decide)).trans h_v136,
    (keep main_v208 rfl (by decide)).trans h_v149,
    (keep main_v208 rfl (by decide)).trans h_v195,
    (keep main_v208 rfl (by decide)).trans h_v203,
    new_ternary h_v205 h_v207 a1 rfl⟩
theorem step257 (hA : Args x0 x1 x2 x3 x4 x5 x6 x7 x8 x9 x10 x11 x12 x13 V) (hL : Live257 x0 x1 x2 x3 x4 x5 x6 x7 x8 x9 x10 x11 x12 x13 V) :
    Args x0 x1 x2 x3 x4 x5 x6 x7 x8 x9 x10 x11 x12 x13 ((unary main_v208 main_v209 (broadcastInDim S800000x1 ![0] bcast_S800000_S800000x1_0 : (⟨S800000, .i32⟩ : BufTy).Contents (Elt F) → (⟨S800000x1, .i32⟩ : BufTy).Contents (Elt F)) : HloOp τ sig (Elt F)).result V) ∧ Live258 x0 x1 x2 x3 x4 x5 x6 x7 x8 x9 x10 x11 x12 x13 ((unary main_v208 main_v209 (broadcastInDim S800000x1 ![0] bcast_S800000_S800000x1_0 : (⟨S800000, .i32⟩ : BufTy).Contents (Elt F) → (⟨S800000x1, .i32⟩ : BufTy).Contents (Elt F)) : HloOp τ sig (Elt F)).result V) := by
  refine ⟨args_step main_v209 rfl (by decide) hA, ?_⟩
  obtain ⟨h_v131, h_v132, h_v133, h_v134, h_v135, h_v136, h_v149, h_v195, h_v203, h_v208⟩ := hL
  exact ⟨(keep main_v209 rfl (by decide)).trans h_v131,
    (keep main_v209 rfl (by decide)).trans h_v132,
    (keep main_v209 rfl (by decide)).trans h_v133,
    (keep main_v209 rfl (by decide)).trans h_v134,
    (keep main_v209 rfl (by decide)).trans h_v135,
    (keep main_v209 rfl (by decide)).trans h_v136,
    (keep main_v209 rfl (by decide)).trans h_v149,
    (keep main_v209 rfl (by decide)).trans h_v195,
    (keep main_v209 rfl (by decide)).trans h_v203,
    new_unary h_v208 rfl⟩
theorem step258 (hA : Args x0 x1 x2 x3 x4 x5 x6 x7 x8 x9 x10 x11 x12 x13 V) (hL : Live258 x0 x1 x2 x3 x4 x5 x6 x7 x8 x9 x10 x11 x12 x13 V) :
    Args x0 x1 x2 x3 x4 x5 x6 x7 x8 x9 x10 x11 x12 x13 ((binary main_v203 main_v209 main_v210 ((fun x i => Host.gather gather_S100000_S800000x1_S800000_n_0_n_n_0_1_1 x i) : (⟨S100000, .f32⟩ : BufTy).Contents (Elt F) → (⟨S800000x1, .i32⟩ : BufTy).Contents (Elt F) → (⟨S800000, .f32⟩ : BufTy).Contents (Elt F)) : HloOp τ sig (Elt F)).result V) ∧ Live259 x0 x1 x2 x3 x4 x5 x6 x7 x8 x9 x10 x11 x12 x13 ((binary main_v203 main_v209 main_v210 ((fun x i => Host.gather gather_S100000_S800000x1_S800000_n_0_n_n_0_1_1 x i) : (⟨S100000, .f32⟩ : BufTy).Contents (Elt F) → (⟨S800000x1, .i32⟩ : BufTy).Contents (Elt F) → (⟨S800000, .f32⟩ : BufTy).Contents (Elt F)) : HloOp τ sig (Elt F)).result V) := by
  refine ⟨args_step main_v210 rfl (by decide) hA, ?_⟩
  obtain ⟨h_v131, h_v132, h_v133, h_v134, h_v135, h_v136, h_v149, h_v195, h_v203, h_v209⟩ := hL
  exact ⟨(keep main_v210 rfl (by decide)).trans h_v131,
    (keep main_v210 rfl (by decide)).trans h_v132,
    (keep main_v210 rfl (by decide)).trans h_v133,
    (keep main_v210 rfl (by decide)).trans h_v134,
    (keep main_v210 rfl (by decide)).trans h_v135,
    (keep main_v210 rfl (by decide)).trans h_v136,
    (keep main_v210 rfl (by decide)).trans h_v149,
    (keep main_v210 rfl (by decide)).trans h_v195,
    new_binary h_v203 h_v209 rfl⟩
theorem step259 (hA : Args x0 x1 x2 x3 x4 x5 x6 x7 x8 x9 x10 x11 x12 x13 V) (hL : Live259 x0 x1 x2 x3 x4 x5 x6 x7 x8 x9 x10 x11 x12 x13 V) :
    Args x0 x1 x2 x3 x4 x5 x6 x7 x8 x9 x10 x11 x12 x13 ((binary main_v210 main_v195 main_v211 (mulf : (⟨S800000, .f32⟩ : BufTy).Contents (Elt F) → (⟨S800000, .f32⟩ : BufTy).Contents (Elt F) → (⟨S800000, .f32⟩ : BufTy).Contents (Elt F)) : HloOp τ sig (Elt F)).result V) ∧ Live260 x0 x1 x2 x3 x4 x5 x6 x7 x8 x9 x10 x11 x12 x13 ((binary main_v210 main_v195 main_v211 (mulf : (⟨S800000, .f32⟩ : BufTy).Contents (Elt F) → (⟨S800000, .f32⟩ : BufTy).Contents (Elt F) → (⟨S800000, .f32⟩ : BufTy).Contents (Elt F)) : HloOp τ sig (Elt F)).result V) := by
  refine ⟨args_step main_v211 rfl (by decide) hA, ?_⟩
  obtain ⟨h_v131, h_v132, h_v133, h_v134, h_v135, h_v136, h_v149, h_v195, h_v210⟩ := hL
  exact ⟨(keep main_v211 rfl (by decide)).trans h_v131,
    (keep main_v211 rfl (by decide)).trans h_v132,
    (keep main_v211 rfl (by decide)).trans h_v133,
    (keep main_v211 rfl (by decide)).trans h_v134,
    (keep main_v211 rfl (by decide)).trans h_v135,
    (keep main_v211 rfl (by decide)).trans h_v136,
    (keep main_v211 rfl (by decide)).trans h_v149,
    new_binary h_v210 h_v195 rfl⟩
theorem step260 (hA : Args x0 x1 x2 x3 x4 x5 x6 x7 x8 x9 x10 x11 x12 x13 V) (hL : Live260 x0 x1 x2 x3 x4 x5 x6 x7 x8 x9 x10 x11 x12 x13 V) :
    Args x0 x1 x2 x3 x4 x5 x6 x7 x8 x9 x10 x11 x12 x13 ((unary main_v211 main_v212 (broadcastInDim S800000x1 ![0] bcast_S800000_S800000x1_0 : (⟨S800000, .f32⟩ : BufTy).Contents (Elt F) → (⟨S800000x1, .f32⟩ : BufTy).Contents (Elt F)) : HloOp τ sig (Elt F)).result V) ∧ Live261 x0 x1 x2 x3 x4 x5 x6 x7 x8 x9 x10 x11 x12 x13 ((unary main_v211 main_v212 (broadcastInDim S800000x1 ![0] bcast_S800000_S800000x1_0 : (⟨S800000, .f32⟩ : BufTy).Contents (Elt F) → (⟨S800000x1, .f32⟩ : BufTy).Contents (Elt F)) : HloOp τ sig (Elt F)).result V) := by
  refine ⟨args_step main_v212 rfl (by decide) hA, ?_⟩
  obtain ⟨h_v131, h_v132, h_v133, h_v134, h_v135, h_v136, h_v149, h_v211⟩ := hL
  exact ⟨(keep main_v212 rfl (by decide)).trans h_v131,
    (keep main_v212 rfl (by decide)).trans h_v132,
    (keep main_v212 rfl (by decide)).trans h_v133,
    (keep main_v212 rfl (by decide)).trans h_v134,
    (keep main_v212 rfl (by decide)).trans h_v135,
    (keep main_v212 rfl (by decide)).trans h_v136,
    (keep main_v212 rfl (by decide)).trans h_v149,
    new_unary h_v211 rfl⟩
theorem step261 (hA : Args x0 x1 x2 x3 x4 x5 x6 x7 x8 x9 x10 x11 x12 x13 V) (hL : Live261 x0 x1 x2 x3 x4 x5 x6 x7 x8 x9 x10 x11 x12 x13 V) :
    Args x0 x1 x2 x3 x4 x5 x6 x7 x8 x9 x10 x11 x12 x13 ((nullary main_c_42 (constantI S_ 32 0#32) : HloOp τ sig (Elt F)).result V) ∧ Live262 x0 x1 x2 x3 x4 x5 x6 x7 x8 x9 x10 x11 x12 x13 ((nullary main_c_42 (constantI S_ 32 0#32) : HloOp τ sig (Elt F)).result V) := by
  refine ⟨args_step main_c_42 rfl (by decide) hA, ?_⟩
  obtain ⟨h_v131, h_v132, h_v133, h_v134, h_v135, h_v136, h_v149, h_v212⟩ := hL
  exact ⟨(keep main_c_42 rfl (by decide)).trans h_v131,
    (keep main_c_42 rfl (by decide)).trans h_v132,
    (keep main_c_42 rfl (by decide)).trans h_v133,
    (keep main_c_42 rfl (by decide)).trans h_v134,
    (keep main_c_42 rfl (by decide)).trans h_v135,
    (keep main_c_42 rfl (by decide)).trans h_v136,
    (keep main_c_42 rfl (by decide)).trans h_v149,
    (keep main_c_42 rfl (by decide)).trans h_v212,
    new_nullary rfl⟩
theorem step262 (hA : Args x0 x1 x2 x3 x4 x5 x6 x7 x8 x9 x10 x11 x12 x13 V) (hL : Live262 x0 x1 x2 x3 x4 x5 x6 x7 x8 x9 x10 x11 x12 x13 V) :
    Args x0 x1 x2 x3 x4 x5 x6 x7 x8 x9 x10 x11 x12 x13 ((unary main_c_42 main_v213 (broadcastInDim S800000 ![] bcast_S_S800000 : (⟨S_, .i32⟩ : BufTy).Contents (Elt F) → (⟨S800000, .i32⟩ : BufTy).Contents (Elt F)) : HloOp τ sig (Elt F)).result V) ∧ Live263 x0 x1 x2 x3 x4 x5 x6 x7 x8 x9 x10 x11 x12 x13 ((unary main_c_42 main_v213 (broadcastInDim S800000 ![] bcast_S_S800000 : (⟨S_, .i32⟩ : BufTy).Contents (Elt F) → (⟨S800000, .i32⟩ : BufTy).Contents (Elt F)) : HloOp τ sig (Elt F)).result V) := by
  refine ⟨args_step main_v213 rfl (by decide) hA, ?_⟩
  obtain ⟨h_v131, h_v132, h_v133, h_v134, h_v135, h_v136, h_v149, h_v212, h_c_42⟩ := hL
  exact ⟨(keep main_v213 rfl (by decide)).trans h_v131,
    (keep main_v213 rfl (by decide)).trans h_v132,
    (keep main_v213 rfl (by decide)).trans h_v133,
    (keep main_v213 rfl (by decide)).trans h_v134,
    (keep main_v213 rfl (by decide)).trans h_v135,
    (keep main_v213 rfl (by decide)).trans h_v136,
    (keep main_v213 rfl (by decide)).trans h_v149,
    (keep main_v213 rfl (by decide)).trans h_v212,
    new_unary h_c_42 rfl⟩
theorem step263 (hA : Args x0 x1 x2 x3 x4 x5 x6 x7 x8 x9 x10 x11 x12 x13 V) (hL : Live263 x0 x1 x2 x3 x4 x5 x6 x7 x8 x9 x10 x11 x12 x13 V) :
    Args x0 x1 x2 x3 x4 x5 x6 x7 x8 x9 x10 x11 x12 x13 ((binary main_arg2 main_v213 main_v214 (cmpi .slt : (⟨S800000, .i32⟩ : BufTy).Contents (Elt F) → (⟨S800000, .i32⟩ : BufTy).Contents (Elt F) → (⟨S800000, .i1⟩ : BufTy).Contents (Elt F)) : HloOp τ sig (Elt F)).result V) ∧ Live264 x0 x1 x2 x3 x4 x5 x6 x7 x8 x9 x10 x11 x12 x13 ((binary main_arg2 main_v213 main_v214 (cmpi .slt : (⟨S800000, .i32⟩ : BufTy).Contents (Elt F) → (⟨S800000, .i32⟩ : BufTy).Contents (Elt F) → (⟨S800000, .i1⟩ : BufTy).Contents (Elt F)) : HloOp τ sig (Elt F)).result V) := by
  refine ⟨args_step main_v214 rfl (by decide) hA, ?_⟩
  unfold Args at hA
  obtain ⟨a0, a1, a2, a3, a4, a5, a6, a7, a8, a9, a10, a11, a12, a13⟩ := hA
  obtain ⟨h_v131, h_v132, h_v133, h_v134, h_v135, h_v136, h_v149, h_v212, h_v213⟩ := hL
  exact ⟨(keep main_v214 rfl (by decide)).trans h_v131,
    (keep main_v214 rfl (by decide)).trans h_v132,
    (keep main_v214 rfl (by decide)).trans h_v133,
    (keep main_v214 rfl (by decide)).trans h_v134,
    (keep main_v214 rfl (by decide)).trans h_v135,
    (keep main_v214 rfl (by decide)).trans h_v136,
    (keep main_v214 rfl (by decide)).trans h_v149,
    (keep main_v214 rfl (by decide)).trans h_v212,
    new_binary a2 h_v213 rfl⟩
theorem step264 (hA : Args x0 x1 x2 x3 x4 x5 x6 x7 x8 x9 x10 x11 x12 x13 V) (hL : Live264 x0 x1 x2 x3 x4 x5 x6 x7 x8 x9 x10 x11 x12 x13 V) :
    Args x0 x1 x2 x3 x4 x5 x6 x7 x8 x9 x10 x11 x12 x13 ((nullary main_c_43 (constantI S_ 32 100000#32) : HloOp τ sig (Elt F)).result V) ∧ Live265 x0 x1 x2 x3 x4 x5 x6 x7 x8 x9 x10 x11 x12 x13 ((nullary main_c_43 (constantI S_ 32 100000#32) : HloOp τ sig (Elt F)).result V) := by
  refine ⟨args_step main_c_43 rfl (by decide) hA, ?_⟩
  obtain ⟨h_v131, h_v132, h_v133, h_v134, h_v135, h_v136, h_v149, h_v212, h_v214⟩ := hL
  exact ⟨(keep main_c_43 rfl (by decide)).trans h_v131,
    (keep main_c_43 rfl (by decide)).trans h_v132,
    (keep main_c_43 rfl (by decide)).trans h_v133,
    (keep main_c_43 rfl (by decide)).trans h_v134,
    (keep main_c_43 rfl (by decide)).trans h_v135,
    (keep main_c_43 rfl (by decide)).trans h_v136,
    (keep main_c_43 rfl (by decide)).trans h_v149,
    (keep main_c_43 rfl (by decide)).trans h_v212,
    (keep main_c_43 rfl (by decide)).trans h_v214,
    new_nullary rfl⟩
theorem step265 (hA : Args x0 x1 x2 x3 x4 x5 x6 x7 x8 x9 x10 x11 x12 x13 V) (hL : Live265 x0 x1 x2 x3 x4 x5 x6 x7 x8 x9 x10 x11 x12 x13 V) :
    Args x0 x1 x2 x3 x4 x5 x6 x7 x8 x9 x10 x11 x12 x13 ((unary main_c_43 main_v215 (broadcastInDim S800000 ![] bcast_S_S800000 : (⟨S_, .i32⟩ : BufTy).Contents (Elt F) → (⟨S800000, .i32⟩ : BufTy).Contents (Elt F)) : HloOp τ sig (Elt F)).result V) ∧ Live266 x0 x1 x2 x3 x4 x5 x6 x7 x8 x9 x10 x11 x12 x13 ((unary main_c_43 main_v215 (broadcastInDim S800000 ![] bcast_S_S800000 : (⟨S_, .i32⟩ : BufTy).Contents (Elt F) → (⟨S800000, .i32⟩ : BufTy).Contents (Elt F)) : HloOp τ sig (Elt F)).result V) := by
  refine ⟨args_step main_v215 rfl (by decide) hA, ?_⟩
  obtain ⟨h_v131, h_v132, h_v133, h_v134, h_v135, h_v136, h_v149, h_v212, h_v214, h_c_43⟩ := hL
  exact ⟨(keep main_v215 rfl (by decide)).trans h_v131,
    (keep main_v215 rfl (by decide)).trans h_v132,
    (keep main_v215 rfl (by decide)).trans h_v133,
    (keep main_v215 rfl (by decide)).trans h_v134,
    (keep main_v215 rfl (by decide)).trans h_v135,
    (keep main_v215 rfl (by decide)).trans h_v136,
    (keep main_v215 rfl (by decide)).trans h_v149,
    (keep main_v215 rfl (by decide)).trans h_v212,
    (keep main_v215 rfl (by decide)).trans h_v214,
    new_unary h_c_43 rfl⟩
theorem step266 (hA : Args x0 x1 x2 x3 x4 x5 x6 x7 x8 x9 x10 x11 x12 x13 V) (hL : Live266 x0 x1 x2 x3 x4 x5 x6 x7 x8 x9 x10 x11 x12 x13 V) :
    Args x0 x1 x2 x3 x4 x5 x6 x7 x8 x9 x10 x11 x12 x13 ((binary main_arg2 main_v215 main_v216 (addi : (⟨S800000, .i32⟩ : BufTy).Contents (Elt F) → (⟨S800000, .i32⟩ : BufTy).Contents (Elt F) → (⟨S800000, .i32⟩ : BufTy).Contents (Elt F)) : HloOp τ sig (Elt F)).result V) ∧ Live267 x0 x1 x2 x3 x4 x5 x6 x7 x8 x9 x10 x11 x12 x13 ((binary main_arg2 main_v215 main_v216 (addi : (⟨S800000, .i32⟩ : BufTy).Contents (Elt F) → (⟨S800000, .i32⟩ : BufTy).Contents (Elt F) → (⟨S800000, .i32⟩ : BufTy).Contents (Elt F)) : HloOp τ sig (Elt F)).result V) := by
  refine ⟨args_step main_v216 rfl (by decide) hA, ?_⟩
  unfold Args at hA
  obtain ⟨a0, a1, a2, a3, a4, a5, a6, a7, a8, a9, a10, a11, a12, a13⟩ := hA
  obtain ⟨h_v131, h_v132, h_v133, h_v134, h_v135, h_v136, h_v149, h_v212, h_v214, h_v215⟩ := hL
  exact ⟨(keep main_v216 rfl (by decide)).trans h_v131,
    (keep main_v216 rfl (by decide)).trans h_v132,
    (keep main_v216 rfl (by decide)).trans h_v133,
    (keep main_v216 rfl (by decide)).trans h_v134,
    (keep main_v216 rfl (by decide)).trans h_v135,
    (keep main_v216 rfl (by decide)).trans h_v136,
    (keep main_v216 rfl (by decide)).trans h_v149,
    (keep main_v216 rfl (by decide)).trans h_v212,
    (keep main_v216 rfl (by decide)).trans h_v214,
    new_binary a2 h_v215 rfl⟩
theorem step267 (hA : Args x0 x1 x2 x3 x4 x5 x6 x7 x8 x9 x10 x11 x12 x13 V) (hL : Live267 x0 x1 x2 x3 x4 x5 x6 x7 x8 x9 x10 x11 x12 x13 V) :
    Args x0 x1 x2 x3 x4 x5 x6 x7 x8 x9 x10 x11 x12 x13 ((ternary main_v214 main_v216 main_arg2 main_v217 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) : HloOp τ sig (Elt F)).result V) ∧ Live268 x0 x1 x2 x3 x4 x5 x6 x7 x8 x9 x10 x11 x12 x13 ((ternary main_v214 main_v216 main_arg2 main_v217 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) : HloOp τ sig (Elt F)).result V) := by
  refine ⟨args_step main_v217 rfl (by decide) hA, ?_⟩
  unfold Args at hA
  obtain ⟨a0, a1, a2, a3, a4, a5, a6, a7, a8, a9, a10, a11, a12, a13⟩ := hA
  obtain ⟨h_v131, h_v132, h_v133, h_v134, h_v135, h_v136, h_v149, h_v212, h_v214, h_v216⟩ := hL
  exact ⟨(keep main_v217 rfl (by decide)).trans h_v131,
    (keep main_v217 rfl (by decide)).trans h_v132,
    (keep main_v217 rfl (by decide)).trans h_v133,
    (keep main_v217 rfl (by decide)).trans h_v134,
    (keep main_v217 rfl (by decide)).trans h_v135,
    (keep main_v217 rfl (by decide)).trans h_v136,
    (keep main_v217 rfl (by decide)).trans h_v149,
    (keep main_v217 rfl (by decide)).trans h_v212,
    new_ternary h_v214 h_v216 a2 rfl⟩
theorem step268 (hA : Args x0 x1 x2 x3 x4 x5 x6 x7 x8 x9 x10 x11 x12 x13 V) (hL : Live268 x0 x1 x2 x3 x4 x5 x6 x7 x8 x9 x10 x11 x12 x13 V) :
    Args x0 x1 x2 x3 x4 x5 x6 x7 x8 x9 x10 x11 x12 x13 ((unary main_v217 main_v218 (broadcastInDim S800000x1 ![0] bcast_S800000_S800000x1_0 : (⟨S800000, .i32⟩ : BufTy).Contents (Elt F) → (⟨S800000x1, .i32⟩ : BufTy).Contents (Elt F)) : HloOp τ sig (Elt F)).result V) ∧ Live269 x0 x1 x2 x3 x4 x5 x6 x7 x8 x9 x10 x11 x12 x13 ((unary main_v217 main_v218 (broadcastInDim S800000x1 ![0] bcast_S800000_S800000x1_0 : (⟨S800000, .i32⟩ : BufTy).Contents (Elt F) → (⟨S800000x1, .i32⟩ : BufTy).Contents (Elt F)) : HloOp τ sig (Elt F)).result V) := by
  refine ⟨args_step main_v218 rfl (by decide) hA, ?_⟩
  obtain ⟨h_v131, h_v132, h_v133, h_v134, h_v135, h_v136, h_v149, h_v212, h_v217⟩ := hL
  exact ⟨(keep main_v218 rfl (by decide)).trans h_v131,
    (keep main_v218 rfl (by decide)).trans h_v132,
    (keep main_v218 rfl (by decide)).trans h_v133,
    (keep main_v218 rfl (by decide)).trans h_v134,
    (keep main_v218 rfl (by decide)).trans h_v135,
    (keep main_v218 rfl (by decide)).trans h_v136,
    (keep main_v218 rfl (by decide)).trans h_v149,
    (keep main_v218 rfl (by decide)).trans h_v212,
    new_unary h_v217 rfl⟩
theorem step269 (hA : Args x0 x1 x2 x3 x4 x5 x6 x7 x8 x9 x10 x11 x12 x13 V) (hL : Live269 x0 x1 x2 x3 x4 x5 x6 x7 x8 x9 x10 x11 x12 x13 V) :
    Args x0 x1 x2 x3 x4 x5 x6 x7 x8 x9 x10 x11 x12 x13 ((binary main_v132 main_v218 main_v219 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)) : HloOp τ sig (Elt F)).result V) ∧ Live270 x0 x1 x2 x3 x4 x5 x6 x7 x8 x9 x10 x11 x12 x13 ((binary main_v132 main_v218 main_v219 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)) : HloOp τ sig (Elt F)).result V) := by
  refine ⟨args_step main_v219 rfl (by decide) hA, ?_⟩
  obtain ⟨h_v131, h_v132, h_v133, h_v134, h_v135, h_v136, h_v149, h_v212, h_v218⟩ := hL
  exact ⟨(keep main_v219 rfl (by decide)).trans h_v131,
    (keep main_v219 rfl (by decide)).trans h_v132,
    (keep main_v219 rfl (by decide)).trans h_v133,
    (keep main_v219 rfl (by decide)).trans h_v134,
    (keep main_v219 rfl (by decide)).trans h_v135,
    (keep main_v219 rfl (by decide)).trans h_v136,
    (keep main_v219 rfl (by decide)).trans h_v149,
    (keep main_v219 rfl (by decide)).trans h_v212,
    new_binary h_v132 h_v218 rfl⟩
theorem step270 (hA : Args x0 x1 x2 x3 x4 x5 x6 x7 x8 x9 x10 x11 x12 x13 V) (hL : Live270 x0 x1 x2 x3 x4 x5 x6 x7 x8 x9 x10 x11 x12 x13 V) :
    Args x0 x1 x2 x3 x4 x5 x6 x7 x8 x9 x10 x11 x12 x13 ((unary main_v212 main_v220 (broadcastInDim S800000x64 ![0, 1] bcast_S800000x1_S800000x64_0_1 : (⟨S800000x1, .f32⟩ : BufTy).Contents (Elt F) → (⟨S800000x64, .f32⟩ : BufTy).Contents (Elt F)) : HloOp τ sig (Elt F)).result V) ∧ Live271 x0 x1 x2 x3 x4 x5 x6 x7 x8 x9 x10 x11 x12 x13 ((unary main_v212 main_v220 (broadcastInDim S800000x64 ![0, 1] bcast_S800000x1_S800000x64_0_1 : (⟨S800000x1, .f32⟩ : BufTy).Contents (Elt F) → (⟨S800000x64, .f32⟩ : BufTy).Contents (Elt F)) : HloOp τ sig (Elt F)).result V) := by
  refine ⟨args_step main_v220 rfl (by decide) hA, ?_⟩
  obtain ⟨h_v131, h_v132, h_v133, h_v134, h_v135, h_v136, h_v149, h_v212, h_v219⟩ := hL
  exact ⟨(keep main_v220 rfl (by decide)).trans h_v131,
    (keep main_v220 rfl (by decide)).trans h_v132,
    (keep main_v220 rfl (by decide)).trans h_v133,
    (keep main_v220 rfl (by decide)).trans h_v134,
    (keep main_v220 rfl (by decide)).trans h_v135,
    (keep main_v220 rfl (by decide)).trans h_v136,
    (keep main_v220 rfl (by decide)).trans h_v149,
    (keep main_v220 rfl (by decide)).trans h_v219,
    new_unary h_v212 rfl⟩
theorem step271 (hA : Args x0 x1 x2 x3 x4 x5 x6 x7 x8 x9 x10 x11 x12 x13 V) (hL : Live271 x0 x1 x2 x3 x4 x5 x6 x7 x8 x9 x10 x11 x12 x13 V) :
    Args x0 x1 x2 x3 x4 x5 x6 x7 x8 x9 x10 x11 x12 x13 ((binary main_v220 main_v219 main_v221 (mulf : (⟨S800000x64, .f32⟩ : BufTy).Contents (Elt F) → (⟨S800000x64, .f32⟩ : BufTy).Contents (Elt F) → (⟨S800000x64, .f32⟩ : BufTy).Contents (Elt F)) : HloOp τ sig (Elt F)).result V) ∧ Live272 x0 x1 x2 x3 x4 x5 x6 x7 x8 x9 x10 x11 x12 x13 ((binary main_v220 main_v219 main_v221 (mulf : (⟨S800000x64, .f32⟩ : BufTy).Contents (Elt F) → (⟨S800000x64, .f32⟩ : BufTy).Contents (Elt F) → (⟨S800000x64, .f32⟩ : BufTy).Contents (Elt F)) : HloOp τ sig (Elt F)).result V) := by
  refine ⟨args_step main_v221 rfl (by decide) hA, ?_⟩
  obtain ⟨h_v131, h_v132, h_v133, h_v134, h_v135, h_v136, h_v149, h_v219, h_v220⟩ := hL
  exact ⟨(keep main_v221 rfl (by decide)).trans h_v131,
    (keep main_v221 rfl (by decide)).trans h_v132,
    (keep main_v221 rfl (by decide)).trans h_v133,
    (keep main_v221 rfl (by decide)).trans h_v134,
    (keep main_v221 rfl (by decide)).trans h_v135,
    (keep main_v221 rfl (by decide)).trans h_v136,
    (keep main_v221 rfl (by decide)).trans h_v149,
    new_binary h_v220 h_v219 rfl⟩
theorem step272 (hA : Args x0 x1 x2 x3 x4 x5 x6 x7 x8 x9 x10 x11 x12 x13 V) (hL : Live272 x0 x1 x2 x3 x4 x5 x6 x7 x8 x9 x10 x11 x12 x13 V) :
    Args x0 x1 x2 x3 x4 x5 x6 x7 x8 x9 x10 x11 x12 x13 ((nullary main_cst_44 (constant S_ .f32 0x00000000#32) : HloOp τ sig (Elt F)).result V) ∧ Live273 x0 x1 x2 x3 x4 x5 x6 x7 x8 x9 x10 x11 x12 x13 ((nullary main_cst_44 (constant S_ .f32 0x00000000#32) : HloOp τ sig (Elt F)).result V) := by
  refine ⟨args_step main_cst_44 rfl (by decide) hA, ?_⟩
  obtain ⟨h_v131, h_v132, h_v133, h_v134, h_v135, h_v136, h_v149, h_v221⟩ := hL
  exact ⟨(keep main_cst_44 rfl (by decide)).trans h_v131,
    (keep main_cst_44 rfl (by decide)).trans h_v132,
    (keep main_cst_44 rfl (by decide)).trans h_v133,
    (keep main_cst_44 rfl (by decide)).trans h_v134,
    (keep main_cst_44 rfl (by decide)).trans h_v135,
    (keep main_cst_44 rfl (by decide)).trans h_v136,
    (keep main_cst_44 rfl (by decide)).trans h_v149,
    (keep main_cst_44 rfl (by decide)).trans h_v221,
    new_nullary rfl⟩
theorem step273 (hA : Args x0 x1 x2 x3 x4 x5 x6 x7 x8 x9 x10 x11 x12 x13 V) (hL : Live273 x0 x1 x2 x3 x4 x5 x6 x7 x8 x9 x10 x11 x12 x13 V) :
    Args x0 x1 x2 x3 x4 x5 x6 x7 x8 x9 x10 x11 x12 x13 ((unary main_cst_44 main_v222 (broadcastInDim S100000x64 ![] bcast_S_S100000x64 : (⟨S_, .f32⟩ : BufTy).Contents (Elt F) → (⟨S100000x64, .f32⟩ : BufTy).Contents (Elt F)) : HloOp τ sig (Elt F)).result V) ∧ Live274 x0 x1 x2 x3 x4 x5 x6 x7 x8 x9 x10 x11 x12 x13 ((unary main_cst_44 main_v222 (broadcastInDim S100000x64 ![] bcast_S_S100000x64 : (⟨S_, .f32⟩ : BufTy).Contents (Elt F) → (⟨S100000x64, .f32⟩ : BufTy).Contents (Elt F)) : HloOp τ sig (Elt F)).result V) := by
  refine ⟨args_step main_v222 rfl (by decide) hA, ?_⟩
  obtain ⟨h_v131, h_v132, h_v133, h_v134, h_v135, h_v136, h_v149, h_v221, h_cst_44⟩ := hL
  exact ⟨(keep main_v222 rfl (by decide)).trans h_v131,
    (keep main_v222 rfl (by decide)).trans h_v132,
    (keep main_v222 rfl (by decide)).trans h_v133,
    (keep main_v222 rfl (by decide)).trans h_v134,
    (keep main_v222 rfl (by decide)).trans h_v135,
    (keep main_v222 rfl (by decide)).trans h_v136,
    (keep main_v222 rfl (by decide)).trans h_v149,
    (keep main_v222 rfl (by decide)).trans h_v221,
    new_unary h_cst_44 rfl⟩
theorem step274 (hA : Args x0 x1 x2 x3 x4 x5 x6 x7 x8 x9 x10 x11 x12 x13 V) (hL : Live274 x0 x1 x2 x3 x4 x5 x6 x7 x8 x9 x10 x11 x12 x13 V) :
    Args x0 x1 x2 x3 x4 x5 x6 x7 x8 x9 x10 x11 x12 x13 ((unary main_arg1 main_v223 (broadcastInDim S800000x1 ![0] bcast_S800000_S800000x1_0 : (⟨S800000, .i32⟩ : BufTy).Contents (Elt F) → (⟨S800000x1, .i32⟩ : BufTy).Contents (Elt F)) : HloOp τ sig (Elt F)).result V) ∧ Live275 x0 x1 x2 x3 x4 x5 x6 x7 x8 x9 x10 x11 x12 x13 ((unary main_arg1 main_v223 (broadcastInDim S800000x1 ![0] bcast_S800000_S800000x1_0 : (⟨S800000, .i32⟩ : BufTy).Contents (Elt F) → (⟨S800000x1, .i32⟩ : BufTy).Contents (Elt F)) : HloOp τ sig (Elt F)).result V) := by
  refine ⟨args_step main_v223 rfl (by decide) hA, ?_⟩
  unfold Args at hA
  obtain ⟨a0, a1, a2, a3, a4, a5, a6, a7, a8, a9, a10, a11, a12, a13⟩ := hA
  obtain ⟨h_v131, h_v132, h_v133, h_v134, h_v135, h_v136, h_v149, h_v221, h_v222⟩ := hL
  exact ⟨(keep main_v223 rfl (by decide)).trans h_v131,
    (keep main_v223 rfl (by decide)).trans h_v132,
    (keep main_v223 rfl (by decide)).trans h_v133,
    (keep main_v223 rfl (by decide)).trans h_v134,
    (keep main_v223 rfl (by decide)).trans h_v135,
    (keep main_v223 rfl (by decide)).trans h_v136,
    (keep main_v223 rfl (by decide)).trans h_v149,
    (keep main_v223 rfl (by decide)).trans h_v221,
    (keep main_v223 rfl (by decide)).trans h_v222,
    new_unary a1 rfl⟩
theorem step275 (hA : Args x0 x1 x2 x3 x4 x5 x6 x7 x8 x9 x10 x11 x12 x13 V) (hL : Live275 x0 x1 x2 x3 x4 x5 x6 x7 x8 x9 x10 x11 x12 x13 V) :
    Args x0 x1 x2 x3 x4 x5 x6 x7 x8 x9 x10 x11 x12 x13 ((ternary main_v222 main_v223 main_v221 main_v224 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)) : HloOp τ sig (Elt F)).result V) ∧ Live276 x0 x1 x2 x3 x4 x5 x6 x7 x8 x9 x10 x11 x12 x13 ((ternary main_v222 main_v223 main_v221 main_v224 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)) : HloOp τ sig (Elt F)).result V) := by
  refine ⟨args_step main_v224 rfl (by decide) hA, ?_⟩
  obtain ⟨h_v131, h_v132, h_v133, h_v134, h_v135, h_v136, h_v149, h_v221, h_v222, h_v223⟩ := hL
  exact ⟨(keep main_v224 rfl (by decide)).trans h_v131,
    (keep main_v224 rfl (by decide)).trans h_v132,
    (keep main_v224 rfl (by decide)).trans h_v133,
    (keep main_v224 rfl (by decide)).trans h_v134,
    (keep main_v224 rfl (by decide)).trans h_v135,
    (keep main_v224 rfl (by decide)).trans h_v136,
    (keep main_v224 rfl (by decide)).trans h_v149,
    new_ternary h_v222 h_v223 h_v221 rfl⟩
theorem step276 (hA : Args x0 x1 x2 x3 x4 x5 x6 x7 x8 x9 x10 x11 x12 x13 V) (hL : Live276 x0 x1 x2 x3 x4 x5 x6 x7 x8 x9 x10 x11 x12 x13 V) :
    Args x0 x1 x2 x3 x4 x5 x6 x7 x8 x9 x10 x11 x12 x13 ((unary main_arg10 main_v225 ((extractStridedSlice S1x64x64 ![1, 0, 0] · slices_S2x64x64_S1x64x64_1_0_0) : (⟨S2x64x64, .f32⟩ : BufTy).Contents (Elt F) → (⟨S1x64x64, .f32⟩ : BufTy).Contents (Elt F)) : HloOp τ sig (Elt F)).result V) ∧ Live277 x0 x1 x2 x3 x4 x5 x6 x7 x8 x9 x10 x11 x12 x13 ((unary main_arg10 main_v225 ((extractStridedSlice S1x64x64 ![1, 0, 0] · slices_S2x64x64_S1x64x64_1_0_0) : (⟨S2x64x64, .f32⟩ : BufTy).Contents (Elt F) → (⟨S1x64x64, .f32⟩ : BufTy).Contents (Elt F)) : HloOp τ sig (Elt F)).result V) := by
  refine ⟨args_step main_v225 rfl (by decide) hA, ?_⟩
  unfold Args at hA
  obtain ⟨a0, a1, a2, a3, a4, a5, a6, a7, a8, a9, a10, a11, a12, a13⟩ := hA
  obtain ⟨h_v131, h_v132, h_v133, h_v134, h_v135, h_v136, h_v149, h_v224⟩ := hL
  exact ⟨(keep main_v225 rfl (by decide)).trans h_v131,
    (keep main_v225 rfl (by decide)).trans h_v132,
    (keep main_v225 rfl (by decide)).trans h_v133,
    (keep main_v225 rfl (by decide)).trans h_v134,
    (keep main_v225 rfl (by decide)).trans h_v135,
    (keep main_v225 rfl (by decide)).trans h_v136,
    (keep main_v225 rfl (by decide)).trans h_v149,
    (keep main_v225 rfl (by decide)).trans h_v224,
    new_unary a10 rfl⟩
theorem step277 (hA : Args x0 x1 x2 x3 x4 x5 x6 x7 x8 x9 x10 x11 x12 x13 V) (hL : Live277 x0 x1 x2 x3 x4 x5 x6 x7 x8 x9 x10 x11 x12 x13 V) :
    Args x0 x1 x2 x3 x4 x5 x6 x7 x8 x9 x10 x11 x12 x13 ((reshape main_v225 main_v226 rfl shapeCasts_S1x64x64_S64x64 : HloOp τ sig (Elt F)).result V) ∧ Live278 x0 x1 x2 x3 x4 x5 x6 x7 x8 x9 x10 x11 x12 x13 ((reshape main_v225 main_v226 rfl shapeCasts_S1x64x64_S64x64 : HloOp τ sig (Elt F)).result V) := by
  refine ⟨args_step main_v226 rfl (by decide) hA, ?_⟩
  obtain ⟨h_v131, h_v132, h_v133, h_v134, h_v135, h_v136, h_v149, h_v224, h_v225⟩ := hL
  exact ⟨(keep main_v226 rfl (by decide)).trans h_v131,
    (keep main_v226 rfl (by decide)).trans h_v132,
    (keep main_v226 rfl (by decide)).trans h_v133,
    (keep main_v226 rfl (by decide)).trans h_v134,
    (keep main_v226 rfl (by decide)).trans h_v135,
    (keep main_v226 rfl (by decide)).trans h_v136,
    (keep main_v226 rfl (by decide)).trans h_v149,
    (keep main_v226 rfl (by decide)).trans h_v224,
    (by show _ = _; rw [reshape_result, h_v225]; exact rfl)⟩
theorem step278 (hA : Args x0 x1 x2 x3 x4 x5 x6 x7 x8 x9 x10 x11 x12 x13 V) (hL : Live278 x0 x1 x2 x3 x4 x5 x6 x7 x8 x9 x10 x11 x12 x13 V) :
    Args x0 x1 x2 x3 x4 x5 x6 x7 x8 x9 x10 x11 x12 x13 ((binary main_v133 main_v226 main_v227 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) : HloOp τ sig (Elt F)).result V) ∧ Live279 x0 x1 x2 x3 x4 x5 x6 x7 x8 x9 x10 x11 x12 x13 ((binary main_v133 main_v226 main_v227 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) : HloOp τ sig (Elt F)).result V) := by
  refine ⟨args_step main_v227 rfl (by decide) hA, ?_⟩
  obtain ⟨h_v131, h_v132, h_v133, h_v134, h_v135, h_v136, h_v149, h_v224, h_v226⟩ := hL
  exact ⟨(keep main_v227 rfl (by decide)).trans h_v131,
    (keep main_v227 rfl (by decide)).trans h_v132,
    (keep main_v227 rfl (by decide)).trans h_v133,
    (keep main_v227 rfl (by decide)).trans h_v134,
    (keep main_v227 rfl (by decide)).trans h_v135,
    (keep main_v227 rfl (by decide)).trans h_v136,
    (keep main_v227 rfl (by decide)).trans h_v149,
    (keep main_v227 rfl (by decide)).trans h_v224,
    new_binary h_v133 h_v226 rfl⟩
theorem step279 (hA : Args x0 x1 x2 x3 x4 x5 x6 x7 x8 x9 x10 x11 x12 x13 V) (hL : Live279 x0 x1 x2 x3 x4 x5 x6 x7 x8 x9 x10 x11 x12 x13 V) :
    Args x0 x1 x2 x3 x4 x5 x6 x7 x8 x9 x10 x11 x12 x13 ((unary main_arg11 main_v228 ((extractStridedSlice S1x64 ![1, 0] · slices_S2x64_S1x64_1_0) : (⟨S2x64, .f32⟩ : BufTy).Contents (Elt F) → (⟨S1x64, .f32⟩ : BufTy).Contents (Elt F)) : HloOp τ sig (Elt F)).result V) ∧ Live280 x0 x1 x2 x3 x4 x5 x6 x7 x8 x9 x10 x11 x12 x13 ((unary main_arg11 main_v228 ((extractStridedSlice S1x64 ![1, 0] · slices_S2x64_S1x64_1_0) : (⟨S2x64, .f32⟩ : BufTy).Contents (Elt F) → (⟨S1x64, .f32⟩ : BufTy).Contents (Elt F)) : HloOp τ sig (Elt F)).result V) := by
  refine ⟨args_step main_v228 rfl (by decide) hA, ?_⟩
  unfold Args at hA
  obtain ⟨a0, a1, a2, a3, a4, a5, a6, a7, a8, a9, a10, a11, a12, a13⟩ := hA
  obtain ⟨h_v131, h_v132, h_v133, h_v134, h_v135, h_v136, h_v149, h_v224, h_v227⟩ := hL
  exact ⟨(keep main_v228 rfl (by decide)).trans h_v131,
    (keep main_v228 rfl (by decide)).trans h_v132,
    (keep main_v228 rfl (by decide)).trans h_v133,
    (keep main_v228 rfl (by decide)).trans h_v134,
    (keep main_v228 rfl (by decide)).trans h_v135,
    (keep main_v228 rfl (by decide)).trans h_v136,
    (keep main_v228 rfl (by decide)).trans h_v149,
    (keep main_v228 rfl (by decide)).trans h_v224,
    (keep main_v228 rfl (by decide)).trans h_v227,
    new_unary a11 rfl⟩
theorem step280 (hA : Args x0 x1 x2 x3 x4 x5 x6 x7 x8 x9 x10 x11 x12 x13 V) (hL : Live280 x0 x1 x2 x3 x4 x5 x6 x7 x8 x9 x10 x11 x12 x13 V) :
    Args x0 x1 x2 x3 x4 x5 x6 x7 x8 x9 x10 x11 x12 x13 ((reshape main_v228 main_v229 rfl shapeCasts_S1x64_S64 : HloOp τ sig (Elt F)).result V) ∧ Live281 x0 x1 x2 x3 x4 x5 x6 x7 x8 x9 x10 x11 x12 x13 ((reshape main_v228 main_v229 rfl shapeCasts_S1x64_S64 : HloOp τ sig (Elt F)).result V) := by
  refine ⟨args_step main_v229 rfl (by decide) hA, ?_⟩
  obtain ⟨h_v131, h_v132, h_v133, h_v134, h_v135, h_v136, h_v149, h_v224, h_v227, h_v228⟩ := hL
  exact ⟨(keep main_v229 rfl (by decide)).trans h_v131,
    (keep main_v229 rfl (by decide)).trans h_v132,
    (keep main_v229 rfl (by decide)).trans h_v133,
    (keep main_v229 rfl (by decide)).trans h_v134,
    (keep main_v229 rfl (by decide)).trans h_v135,
    (keep main_v229 rfl (by decide)).trans h_v136,
    (keep main_v229 rfl (by decide)).trans h_v149,
    (keep main_v229 rfl (by decide)).trans h_v224,
    (keep main_v229 rfl (by decide)).trans h_v227,
    (by show _ = _; rw [reshape_result, h_v228]; exact rfl)⟩
theorem step281 (hA : Args x0 x1 x2 x3 x4 x5 x6 x7 x8 x9 x10 x11 x12 x13 V) (hL : Live281 x0 x1 x2 x3 x4 x5 x6 x7 x8 x9 x10 x11 x12 x13 V) :
    Args x0 x1 x2 x3 x4 x5 x6 x7 x8 x9 x10 x11 x12 x13 ((unary main_v229 main_v230 (broadcastInDim S1x64 ![1] bcast_S64_S1x64_1 : (⟨S64, .f32⟩ : BufTy).Contents (Elt F) → (⟨S1x64, .f32⟩ : BufTy).Contents (Elt F)) : HloOp τ sig (Elt F)).result V) ∧ Live282 x0 x1 x2 x3 x4 x5 x6 x7 x8 x9 x10 x11 x12 x13 ((unary main_v229 main_v230 (broadcastInDim S1x64 ![1] bcast_S64_S1x64_1 : (⟨S64, .f32⟩ : BufTy).Contents (Elt F) → (⟨S1x64, .f32⟩ : BufTy).Contents (Elt F)) : HloOp τ sig (Elt F)).result V) := by
  refine ⟨args_step main_v230 rfl (by decide) hA, ?_⟩
  obtain ⟨h_v131, h_v132, h_v133, h_v134, h_v135, h_v136, h_v149, h_v224, h_v227, h_v229⟩ := hL
  exact ⟨(keep main_v230 rfl (by decide)).trans h_v131,
    (keep main_v230 rfl (by decide)).trans h_v132,
    (keep main_v230 rfl (by decide)).trans h_v133,
    (keep main_v230 rfl (by decide)).trans h_v134,
    (keep main_v230 rfl (by decide)).trans h_v135,
    (keep main_v230 rfl (by decide)).trans h_v136,
    (keep main_v230 rfl (by decide)).trans h_v149,
    (keep main_v230 rfl (by decide)).trans h_v224,
    (keep main_v230 rfl (by decide)).trans h_v227,
    new_unary h_v229 rfl⟩
theorem step282 (hA : Args x0 x1 x2 x3 x4 x5 x6 x7 x8 x9 x10 x11 x12 x13 V) (hL : Live282 x0 x1 x2 x3 x4 x5 x6 x7 x8 x9 x10 x11 x12 x13 V) :
    Args x0 x1 x2 x3 x4 x5 x6 x7 x8 x9 x10 x11 x12 x13 ((unary main_v230 main_v231 (broadcastInDim S100000x64 ![0, 1] bcast_S1x64_S100000x64_0_1 : (⟨S1x64, .f32⟩ : BufTy).Contents (Elt F) → (⟨S100000x64, .f32⟩ : BufTy).Contents (Elt F)) : HloOp τ sig (Elt F)).result V) ∧ Live283 x0 x1 x2 x3 x4 x5 x6 x7 x8 x9 x10 x11 x12 x13 ((unary main_v230 main_v231 (broadcastInDim S100000x64 ![0, 1] bcast_S1x64_S100000x64_0_1 : (⟨S1x64, .f32⟩ : BufTy).Contents (Elt F) → (⟨S100000x64, .f32⟩ : BufTy).Contents (Elt F)) : HloOp τ sig (Elt F)).result V) := by
  refine ⟨args_step main_v231 rfl (by decide) hA, ?_⟩
  obtain ⟨h_v131, h_v132, h_v133, h_v134, h_v135, h_v136, h_v149, h_v224, h_v227, h_v230⟩ := hL
  exact ⟨(keep main_v231 rfl (by decide)).trans h_v131,
    (keep main_v231 rfl (by decide)).trans h_v132,
    (keep main_v231 rfl (by decide)).trans h_v133,
    (keep main_v231 rfl (by decide)).trans h_v134,
    (keep main_v231 rfl (by decide)).trans h_v135,
    (keep main_v231 rfl (by decide)).trans h_v136,
    (keep main_v231 rfl (by decide)).trans h_v149,
    (keep main_v231 rfl (by decide)).trans h_v224,
    (keep main_v231 rfl (by decide)).trans h_v227,
    new_unary h_v230 rfl⟩
theorem step283 (hA : Args x0 x1 x2 x3 x4 x5 x6 x7 x8 x9 x10 x11 x12 x13 V) (hL : Live283 x0 x1 x2 x3 x4 x5 x6 x7 x8 x9 x10 x11 x12 x13 V) :
    Args x0 x1 x2 x3 x4 x5 x6 x7 x8 x9 x10 x11 x12 x13 ((binary main_v227 main_v231 main_v232 (addf : (⟨S100000x64, .f32⟩ : BufTy).Contents (Elt F) → (⟨S100000x64, .f32⟩ : BufTy).Contents (Elt F) → (⟨S100000x64, .f32⟩ : BufTy).Contents (Elt F)) : HloOp τ sig (Elt F)).result V) ∧ Live284 x0 x1 x2 x3 x4 x5 x6 x7 x8 x9 x10 x11 x12 x13 ((binary main_v227 main_v231 main_v232 (addf : (⟨S100000x64, .f32⟩ : BufTy).Contents (Elt F) → (⟨S100000x64, .f32⟩ : BufTy).Contents (Elt F) → (⟨S100000x64, .f32⟩ : BufTy).Contents (Elt F)) : HloOp τ sig (Elt F)).result V) := by
  refine ⟨args_step main_v232 rfl (by decide) hA, ?_⟩
  obtain ⟨h_v131, h_v132, h_v133, h_v134, h_v135, h_v136, h_v149, h_v224, h_v227, h_v231⟩ := hL
  exact ⟨(keep main_v232 rfl (by decide)).trans h_v131,
    (keep main_v232 rfl (by decide)).trans h_v132,
    (keep main_v232 rfl (by decide)).trans h_v133,
    (keep main_v232 rfl (by decide)).trans h_v134,
    (keep main_v232 rfl (by decide)).trans h_v135,
    (keep main_v232 rfl (by decide)).trans h_v136,
    (keep main_v232 rfl (by decide)).trans h_v149,
    (keep main_v232 rfl (by decide)).trans h_v224,
    new_binary h_v227 h_v231 rfl⟩
theorem step284 (hA : Args x0 x1 x2 x3 x4 x5 x6 x7 x8 x9 x10 x11 x12 x13 V) (hL : Live284 x0 x1 x2 x3 x4 x5 x6 x7 x8 x9 x10 x11 x12 x13 V) :
    Args x0 x1 x2 x3 x4 x5 x6 x7 x8 x9 x10 x11 x12 x13 ((nullary main_cst_45 (constant S_ .f32 0x00000000#32) : HloOp τ sig (Elt F)).result V) ∧ Live285 x0 x1 x2 x3 x4 x5 x6 x7 x8 x9 x10 x11 x12 x13 ((nullary main_cst_45 (constant S_ .f32 0x00000000#32) : HloOp τ sig (Elt F)).result V) := by
  refine ⟨args_step main_cst_45 rfl (by decide) hA, ?_⟩
  obtain ⟨h_v131, h_v132, h_v133, h_v134, h_v135, h_v136, h_v149, h_v224, h_v232⟩ := hL
  exact ⟨(keep main_cst_45 rfl (by decide)).trans h_v131,
    (keep main_cst_45 rfl (by decide)).trans h_v132,
    (keep main_cst_45 rfl (by decide)).trans h_v133,
    (keep main_cst_45 rfl (by decide)).trans h_v134,
    (keep main_cst_45 rfl (by decide)).trans h_v135,
    (keep main_cst_45 rfl (by decide)).trans h_v136,
    (keep main_cst_45 rfl (by decide)).trans h_v149,
    (keep main_cst_45 rfl (by decide)).trans h_v224,
    (keep main_cst_45 rfl (by decide)).trans h_v232,
    new_nullary rfl⟩
theorem step285 (hA : Args x0 x1 x2 x3 x4 x5 x6 x7 x8 x9 x10 x11 x12 x13 V) (hL : Live285 x0 x1 x2 x3 x4 x5 x6 x7 x8 x9 x10 x11 x12 x13 V) :
    Args x0 x1 x2 x3 x4 x5 x6 x7 x8 x9 x10 x11 x12 x13 ((unary main_cst_45 main_v233 (broadcastInDim S100000x64 ![] bcast_S_S100000x64 : (⟨S_, .f32⟩ : BufTy).Contents (Elt F) → (⟨S100000x64, .f32⟩ : BufTy).Contents (Elt F)) : HloOp τ sig (Elt F)).result V) ∧ Live286 x0 x1 x2 x3 x4 x5 x6 x7 x8 x9 x10 x11 x12 x13 ((unary main_cst_45 main_v233 (broadcastInDim S100000x64 ![] bcast_S_S100000x64 : (⟨S_, .f32⟩ : BufTy).Contents (Elt F) → (⟨S100000x64, .f32⟩ : BufTy).Contents (Elt F)) : HloOp τ sig (Elt F)).result V) := by
  refine ⟨args_step main_v233 rfl (by decide) hA, ?_⟩
  obtain ⟨h_v131, h_v132, h_v133, h_v134, h_v135, h_v136, h_v149, h_v224, h_v232, h_cst_45⟩ := hL
  exact ⟨(keep main_v233 rfl (by decide)).trans h_v131,
    (keep main_v233 rfl (by decide)).trans h_v132,
    (keep main_v233 rfl (by decide)).trans h_v133,
    (keep main_v233 rfl (by decide)).trans h_v134,
    (keep main_v233 rfl (by decide)).trans h_v135,
    (keep main_v233 rfl (by decide)).trans h_v136,
    (keep main_v233 rfl (by decide)).trans h_v149,
    (keep main_v233 rfl (by decide)).trans h_v224,
    (keep main_v233 rfl (by decide)).trans h_v232,
    new_unary h_cst_45 rfl⟩
theorem step286 (hA : Args x0 x1 x2 x3 x4 x5 x6 x7 x8 x9 x10 x11 x12 x13 V) (hL : Live286 x0 x1 x2 x3 x4 x5 x6 x7 x8 x9 x10 x11 x12 x13 V) :
    Args x0 x1 x2 x3 x4 x5 x6 x7 x8 x9 x10 x11 x12 x13 ((binary main_v232 main_v233 main_v234 (maximumf : (⟨S100000x64, .f32⟩ : BufTy).Contents (Elt F) → (⟨S100000x64, .f32⟩ : BufTy).Contents (Elt F) → (⟨S100000x64, .f32⟩ : BufTy).Contents (Elt F)) : HloOp τ sig (Elt F)).result V) ∧ Live287 x0 x1 x2 x3 x4 x5 x6 x7 x8 x9 x10 x11 x12 x13 ((binary main_v232 main_v233 main_v234 (maximumf : (⟨S100000x64, .f32⟩ : BufTy).Contents (Elt F) → (⟨S100000x64, .f32⟩ : BufTy).Contents (Elt F) → (⟨S100000x64, .f32⟩ : BufTy).Contents (Elt F)) : HloOp τ sig (Elt F)).result V) := by
  refine ⟨args_step main_v234 rfl (by decide) hA, ?_⟩
  obtain ⟨h_v131, h_v132, h_v133, h_v134, h_v135, h_v136, h_v149, h_v224, h_v232, h_v233⟩ := hL
  exact ⟨(keep main_v234 rfl (by decide)).trans h_v131,
    (keep main_v234 rfl (by decide)).trans h_v132,
    (keep main_v234 rfl (by decide)).trans h_v133,
    (keep main_v234 rfl (by decide)).trans h_v134,
    (keep main_v234 rfl (by decide)).trans h_v135,
    (keep main_v234 rfl (by decide)).trans h_v136,
    (keep main_v234 rfl (by decide)).trans h_v149,
    (keep main_v234 rfl (by decide)).trans h_v224,
    new_binary h_v232 h_v233 rfl⟩
theorem step287 (hA : Args x0 x1 x2 x3 x4 x5 x6 x7 x8 x9 x10 x11 x12 x13 V) (hL : Live287 x0 x1 x2 x3 x4 x5 x6 x7 x8 x9 x10 x11 x12 x13 V) :
    Args x0 x1 x2 x3 x4 x5 x6 x7 x8 x9 x10 x11 x12 x13 ((unary main_arg12 main_v235 ((extractStridedSlice S1x64x64 ![1, 0, 0] · slices_S2x64x64_S1x64x64_1_0_0) : (⟨S2x64x64, .f32⟩ : BufTy).Contents (Elt F) → (⟨S1x64x64, .f32⟩ : BufTy).Contents (Elt F)) : HloOp τ sig (Elt F)).result V) ∧ Live288 x0 x1 x2 x3 x4 x5 x6 x7 x8 x9 x10 x11 x12 x13 ((unary main_arg12 main_v235 ((extractStridedSlice S1x64x64 ![1, 0, 0] · slices_S2x64x64_S1x64x64_1_0_0) : (⟨S2x64x64, .f32⟩ : BufTy).Contents (Elt F) → (⟨S1x64x64, .f32⟩ : BufTy).Contents (Elt F)) : HloOp τ sig (Elt F)).result V) := by
  refine ⟨args_step main_v235 rfl (by decide) hA, ?_⟩
  unfold Args at hA
  obtain ⟨a0, a1, a2, a3, a4, a5, a6, a7, a8, a9, a10, a11, a12, a13⟩ := hA
  obtain ⟨h_v131, h_v132, h_v133, h_v134, h_v135, h_v136, h_v149, h_v224, h_v234⟩ := hL
  exact ⟨(keep main_v235 rfl (by decide)).trans h_v131,
    (keep main_v235 rfl (by decide)).trans h_v132,
    (keep main_v235 rfl (by decide)).trans h_v133,
    (keep main_v235 rfl (by decide)).trans h_v134,
    (keep main_v235 rfl (by decide)).trans h_v135,
    (keep main_v235 rfl (by decide)).trans h_v136,
    (keep main_v235 rfl (by decide)).trans h_v149,
    (keep main_v235 rfl (by decide)).trans h_v224,
    (keep main_v235 rfl (by decide)).trans h_v234,
    new_unary a12 rfl⟩
theorem step288 (hA : Args x0 x1 x2 x3 x4 x5 x6 x7 x8 x9 x10 x11 x12 x13 V) (hL : Live288 x0 x1 x2 x3 x4 x5 x6 x7 x8 x9 x10 x11 x12 x13 V) :
    Args x0 x1 x2 x3 x4 x5 x6 x7 x8 x9 x10 x11 x12 x13 ((reshape main_v235 main_v236 rfl shapeCasts_S1x64x64_S64x64 : HloOp τ sig (Elt F)).result V) ∧ Live289 x0 x1 x2 x3 x4 x5 x6 x7 x8 x9 x10 x11 x12 x13 ((reshape main_v235 main_v236 rfl shapeCasts_S1x64x64_S64x64 : HloOp τ sig (Elt F)).result V) := by
  refine ⟨args_step main_v236 rfl (by decide) hA, ?_⟩
  obtain ⟨h_v131, h_v132, h_v133, h_v134, h_v135, h_v136, h_v149, h_v224, h_v234, h_v235⟩ := hL
  exact ⟨(keep main_v236 rfl (by decide)).trans h_v131,
    (keep main_v236 rfl (by decide)).trans h_v132,
    (keep main_v236 rfl (by decide)).trans h_v133,
    (keep main_v236 rfl (by decide)).trans h_v134,
    (keep main_v236 rfl (by decide)).trans h_v135,
    (keep main_v236 rfl (by decide)).trans h_v136,
    (keep main_v236 rfl (by decide)).trans h_v149,
    (keep main_v236 rfl (by decide)).trans h_v224,
    (keep main_v236 rfl (by decide)).trans h_v234,
    (by show _ = _; rw [reshape_result, h_v235]; exact rfl)⟩
theorem step289 (hA : Args x0 x1 x2 x3 x4 x5 x6 x7 x8 x9 x10 x11 x12 x13 V) (hL : Live289 x0 x1 x2 x3 x4 x5 x6 x7 x8 x9 x10 x11 x12 x13 V) :
    Args x0 x1 x2 x3 x4 x5 x6 x7 x8 x9 x10 x11 x12 x13 ((binary main_v234 main_v236 main_v237 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) : HloOp τ sig (Elt F)).result V) ∧ Live290 x0 x1 x2 x3 x4 x5 x6 x7 x8 x9 x10 x11 x12 x13 ((binary main_v234 main_v236 main_v237 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) : HloOp τ sig (Elt F)).result V) := by
  refine ⟨args_step main_v237 rfl (by decide) hA, ?_⟩
  obtain ⟨h_v131, h_v132, h_v133, h_v134, h_v135, h_v136, h_v149, h_v224, h_v234, h_v236⟩ := hL
  exact ⟨(keep main_v237 rfl (by decide)).trans h_v131,
    (keep main_v237 rfl (by decide)).trans h_v132,
    (keep main_v237 rfl (by decide)).trans h_v133,
    (keep main_v237 rfl (by decide)).trans h_v134,
    (keep main_v237 rfl (by decide)).trans h_v135,
    (keep main_v237 rfl (by decide)).trans h_v136,
    (keep main_v237 rfl (by decide)).trans h_v149,
    (keep main_v237 rfl (by decide)).trans h_v224,
    new_binary h_v234 h_v236 rfl⟩
theorem step290 (hA : Args x0 x1 x2 x3 x4 x5 x6 x7 x8 x9 x10 x11 x12 x13 V) (hL : Live290 x0 x1 x2 x3 x4 x5 x6 x7 x8 x9 x10 x11 x12 x13 V) :
    Args x0 x1 x2 x3 x4 x5 x6 x7 x8 x9 x10 x11 x12 x13 ((unary main_arg13 main_v238 ((extractStridedSlice S1x64 ![1, 0] · slices_S2x64_S1x64_1_0) : (⟨S2x64, .f32⟩ : BufTy).Contents (Elt F) → (⟨S1x64, .f32⟩ : BufTy).Contents (Elt F)) : HloOp τ sig (Elt F)).result V) ∧ Live291 x0 x1 x2 x3 x4 x5 x6 x7 x8 x9 x10 x11 x12 x13 ((unary main_arg13 main_v238 ((extractStridedSlice S1x64 ![1, 0] · slices_S2x64_S1x64_1_0) : (⟨S2x64, .f32⟩ : BufTy).Contents (Elt F) → (⟨S1x64, .f32⟩ : BufTy).Contents (Elt F)) : HloOp τ sig (Elt F)).result V) := by
  refine ⟨args_step main_v238 rfl (by decide) hA, ?_⟩
  unfold Args at hA
  obtain ⟨a0, a1, a2, a3, a4, a5, a6, a7, a8, a9, a10, a11, a12, a13⟩ := hA
  obtain ⟨h_v131, h_v132, h_v133, h_v134, h_v135, h_v136, h_v149, h_v224, h_v237⟩ := hL
  exact ⟨(keep main_v238 rfl (by decide)).trans h_v131,
    (keep main_v238 rfl (by decide)).trans h_v132,
    (keep main_v238 rfl (by decide)).trans h_v133,
    (keep main_v238 rfl (by decide)).trans h_v134,
    (keep main_v238 rfl (by decide)).trans h_v135,
    (keep main_v238 rfl (by decide)).trans h_v136,
    (keep main_v238 rfl (by decide)).trans h_v149,
    (keep main_v238 rfl (by decide)).trans h_v224,
    (keep main_v238 rfl (by decide)).trans h_v237,
    new_unary a13 rfl⟩
theorem step291 (hA : Args x0 x1 x2 x3 x4 x5 x6 x7 x8 x9 x10 x11 x12 x13 V) (hL : Live291 x0 x1 x2 x3 x4 x5 x6 x7 x8 x9 x10 x11 x12 x13 V) :
    Args x0 x1 x2 x3 x4 x5 x6 x7 x8 x9 x10 x11 x12 x13 ((reshape main_v238 main_v239 rfl shapeCasts_S1x64_S64 : HloOp τ sig (Elt F)).result V) ∧ Live292 x0 x1 x2 x3 x4 x5 x6 x7 x8 x9 x10 x11 x12 x13 ((reshape main_v238 main_v239 rfl shapeCasts_S1x64_S64 : HloOp τ sig (Elt F)).result V) := by
  refine ⟨args_step main_v239 rfl (by decide) hA, ?_⟩
  obtain ⟨h_v131, h_v132, h_v133, h_v134, h_v135, h_v136, h_v149, h_v224, h_v237, h_v238⟩ := hL
  exact ⟨(keep main_v239 rfl (by decide)).trans h_v131,
    (keep main_v239 rfl (by decide)).trans h_v132,
    (keep main_v239 rfl (by decide)).trans h_v133,
    (keep main_v239 rfl (by decide)).trans h_v134,
    (keep main_v239 rfl (by decide)).trans h_v135,
    (keep main_v239 rfl (by decide)).trans h_v136,
    (keep main_v239 rfl (by decide)).trans h_v149,
    (keep main_v239 rfl (by decide)).trans h_v224,
    (keep main_v239 rfl (by decide)).trans h_v237,
    (by show _ = _; rw [reshape_result, h_v238]; exact rfl)⟩
theorem step292 (hA : Args x0 x1 x2 x3 x4 x5 x6 x7 x8 x9 x10 x11 x12 x13 V) (hL : Live292 x0 x1 x2 x3 x4 x5 x6 x7 x8 x9 x10 x11 x12 x13 V) :
    Args x0 x1 x2 x3 x4 x5 x6 x7 x8 x9 x10 x11 x12 x13 ((unary main_v239 main_v240 (broadcastInDim S1x64 ![1] bcast_S64_S1x64_1 : (⟨S64, .f32⟩ : BufTy).Contents (Elt F) → (⟨S1x64, .f32⟩ : BufTy).Contents (Elt F)) : HloOp τ sig (Elt F)).result V) ∧ Live293 x0 x1 x2 x3 x4 x5 x6 x7 x8 x9 x10 x11 x12 x13 ((unary main_v239 main_v240 (broadcastInDim S1x64 ![1] bcast_S64_S1x64_1 : (⟨S64, .f32⟩ : BufTy).Contents (Elt F) → (⟨S1x64, .f32⟩ : BufTy).Contents (Elt F)) : HloOp τ sig (Elt F)).result V) := by
  refine ⟨args_step main_v240 rfl (by decide) hA, ?_⟩
  obtain ⟨h_v131, h_v132, h_v133, h_v134, h_v135, h_v136, h_v149, h_v224, h_v237, h_v239⟩ := hL
  exact ⟨(keep main_v240 rfl (by decide)).trans h_v131,
    (keep main_v240 rfl (by decide)).trans h_v132,
    (keep main_v240 rfl (by decide)).trans h_v133,
    (keep main_v240 rfl (by decide)).trans h_v134,
    (keep main_v240 rfl (by decide)).trans h_v135,
    (keep main_v240 rfl (by decide)).trans h_v136,
    (keep main_v240 rfl (by decide)).trans h_v149,
    (keep main_v240 rfl (by decide)).trans h_v224,
    (keep main_v240 rfl (by decide)).trans h_v237,
    new_unary h_v239 rfl⟩
theorem step293 (hA : Args x0 x1 x2 x3 x4 x5 x6 x7 x8 x9 x10 x11 x12 x13 V) (hL : Live293 x0 x1 x2 x3 x4 x5 x6 x7 x8 x9 x10 x11 x12 x13 V) :
    Args x0 x1 x2 x3 x4 x5 x6 x7 x8 x9 x10 x11 x12 x13 ((unary main_v240 main_v241 (broadcastInDim S100000x64 ![0, 1] bcast_S1x64_S100000x64_0_1 : (⟨S1x64, .f32⟩ : BufTy).Contents (Elt F) → (⟨S100000x64, .f32⟩ : BufTy).Contents (Elt F)) : HloOp τ sig (Elt F)).result V) ∧ Live294 x0 x1 x2 x3 x4 x5 x6 x7 x8 x9 x10 x11 x12 x13 ((unary main_v240 main_v241 (broadcastInDim S100000x64 ![0, 1] bcast_S1x64_S100000x64_0_1 : (⟨S1x64, .f32⟩ : BufTy).Contents (Elt F) → (⟨S100000x64, .f32⟩ : BufTy).Contents (Elt F)) : HloOp τ sig (Elt F)).result V) := by
  refine ⟨args_step main_v241 rfl (by decide) hA, ?_⟩
  obtain ⟨h_v131, h_v132, h_v133, h_v134, h_v135, h_v136, h_v149, h_v224, h_v237, h_v240⟩ := hL
  exact ⟨(keep main_v241 rfl (by decide)).trans h_v131,
    (keep main_v241 rfl (by decide)).trans h_v132,
    (keep main_v241 rfl (by decide)).trans h_v133,
    (keep main_v241 rfl (by decide)).trans h_v134,
    (keep main_v241 rfl (by decide)).trans h_v135,
    (keep main_v241 rfl (by decide)).trans h_v136,
    (keep main_v241 rfl (by decide)).trans h_v149,
    (keep main_v241 rfl (by decide)).trans h_v224,
    (keep main_v241 rfl (by decide)).trans h_v237,
    new_unary h_v240 rfl⟩
theorem step294 (hA : Args x0 x1 x2 x3 x4 x5 x6 x7 x8 x9 x10 x11 x12 x13 V) (hL : Live294 x0 x1 x2 x3 x4 x5 x6 x7 x8 x9 x10 x11 x12 x13 V) :
    Args x0 x1 x2 x3 x4 x5 x6 x7 x8 x9 x10 x11 x12 x13 ((binary main_v237 main_v241 main_v242 (addf : (⟨S100000x64, .f32⟩ : BufTy).Contents (Elt F) → (⟨S100000x64, .f32⟩ : BufTy).Contents (Elt F) → (⟨S100000x64, .f32⟩ : BufTy).Contents (Elt F)) : HloOp τ sig (Elt F)).result V) ∧ Live295 x0 x1 x2 x3 x4 x5 x6 x7 x8 x9 x10 x11 x12 x13 ((binary main_v237 main_v241 main_v242 (addf : (⟨S100000x64, .f32⟩ : BufTy).Contents (Elt F) → (⟨S100000x64, .f32⟩ : BufTy).Contents (Elt F) → (⟨S100000x64, .f32⟩ : BufTy).Contents (Elt F)) : HloOp τ sig (Elt F)).result V) := by
  refine ⟨args_step main_v242 rfl (by decide) hA, ?_⟩
  obtain ⟨h_v131, h_v132, h_v133, h_v134, h_v135, h_v136, h_v149, h_v224, h_v237, h_v241⟩ := hL
  exact ⟨(keep main_v242 rfl (by decide)).trans h_v131,
    (keep main_v242 rfl (by decide)).trans h_v132,
    (keep main_v242 rfl (by decide)).trans h_v133,
    (keep main_v242 rfl (by decide)).trans h_v134,
    (keep main_v242 rfl (by decide)).trans h_v135,
    (keep main_v242 rfl (by decide)).trans h_v136,
    (keep main_v242 rfl (by decide)).trans h_v149,
    (keep main_v242 rfl (by decide)).trans h_v224,
    new_binary h_v237 h_v241 rfl⟩
theorem step295 (hA : Args x0 x1 x2 x3 x4 x5 x6 x7 x8 x9 x10 x11 x12 x13 V) (hL : Live295 x0 x1 x2 x3 x4 x5 x6 x7 x8 x9 x10 x11 x12 x13 V) :
    Args x0 x1 x2 x3 x4 x5 x6 x7 x8 x9 x10 x11 x12 x13 ((unary main_arg5 main_v243 ((extractStridedSlice S1x100000x64 ![1, 0, 0] · slices_S2x100000x64_S1x100000x64_1_0_0) : (⟨S2x100000x64, .f32⟩ : BufTy).Contents (Elt F) → (⟨S1x100000x64, .f32⟩ : BufTy).Contents (Elt F)) : HloOp τ sig (Elt F)).result V) ∧ Live296 x0 x1 x2 x3 x4 x5 x6 x7 x8 x9 x10 x11 x12 x13 ((unary main_arg5 main_v243 ((extractStridedSlice S1x100000x64 ![1, 0, 0] · slices_S2x100000x64_S1x100000x64_1_0_0) : (⟨S2x100000x64, .f32⟩ : BufTy).Contents (Elt F) → (⟨S1x100000x64, .f32⟩ : BufTy).Contents (Elt F)) : HloOp τ sig (Elt F)).result V) := by
  refine ⟨args_step main_v243 rfl (by decide) hA, ?_⟩
  unfold Args at hA
  obtain ⟨a0, a1, a2, a3, a4, a5, a6, a7, a8, a9, a10, a11, a12, a13⟩ := hA
  obtain ⟨h_v131, h_v132, h_v133, h_v134, h_v135, h_v136, h_v149, h_v224, h_v242⟩ := hL
  exact ⟨(keep main_v243 rfl (by decide)).trans h_v131,
    (keep main_v243 rfl (by decide)).trans h_v132,
    (keep main_v243 rfl (by decide)).trans h_v133,
    (keep main_v243 rfl (by decide)).trans h_v134,
    (keep main_v243 rfl (by decide)).trans h_v135,
    (keep main_v243 rfl (by decide)).trans h_v136,
    (keep main_v243 rfl (by decide)).trans h_v149,
    (keep main_v243 rfl (by decide)).trans h_v224,
    (keep main_v243 rfl (by decide)).trans h_v242,
    new_unary a5 rfl⟩
theorem step296 (hA : Args x0 x1 x2 x3 x4 x5 x6 x7 x8 x9 x10 x11 x12 x13 V) (hL : Live296 x0 x1 x2 x3 x4 x5 x6 x7 x8 x9 x10 x11 x12 x13 V) :
    Args x0 x1 x2 x3 x4 x5 x6 x7 x8 x9 x10 x11 x12 x13 ((reshape main_v243 main_v244 rfl shapeCasts_S1x100000x64_S100000x64 : HloOp τ sig (Elt F)).result V) ∧ Live297 x0 x1 x2 x3 x4 x5 x6 x7 x8 x9 x10 x11 x12 x13 ((reshape main_v243 main_v244 rfl shapeCasts_S1x100000x64_S100000x64 : HloOp τ sig (Elt F)).result V) := by
  refine ⟨args_step main_v244 rfl (by decide) hA, ?_⟩
  obtain ⟨h_v131, h_v132, h_v133, h_v134, h_v135, h_v136, h_v149, h_v224, h_v242, h_v243⟩ := hL
  exact ⟨(keep main_v244 rfl (by decide)).trans h_v131,
    (keep main_v244 rfl (by decide)).trans h_v132,
    (keep main_v244 rfl (by decide)).trans h_v133,
    (keep main_v244 rfl (by decide)).trans h_v134,
    (keep main_v244 rfl (by decide)).trans h_v135,
    (keep main_v244 rfl (by decide)).trans h_v136,
    (keep main_v244 rfl (by decide)).trans h_v149,
    (keep main_v244 rfl (by decide)).trans h_v224,
    (keep main_v244 rfl (by decide)).trans h_v242,
    (by show _ = _; rw [reshape_result, h_v243]; exact rfl)⟩
theorem step297 (hA : Args x0 x1 x2 x3 x4 x5 x6 x7 x8 x9 x10 x11 x12 x13 V) (hL : Live297 x0 x1 x2 x3 x4 x5 x6 x7 x8 x9 x10 x11 x12 x13 V) :
    Args x0 x1 x2 x3 x4 x5 x6 x7 x8 x9 x10 x11 x12 x13 ((binary main_v244 main_v242 main_v245 (addf : (⟨S100000x64, .f32⟩ : BufTy).Contents (Elt F) → (⟨S100000x64, .f32⟩ : BufTy).Contents (Elt F) → (⟨S100000x64, .f32⟩ : BufTy).Contents (Elt F)) : HloOp τ sig (Elt F)).result V) ∧ Live298 x0 x1 x2 x3 x4 x5 x6 x7 x8 x9 x10 x11 x12 x13 ((binary main_v244 main_v242 main_v245 (addf : (⟨S100000x64, .f32⟩ : BufTy).Contents (Elt F) → (⟨S100000x64, .f32⟩ : BufTy).Contents (Elt F) → (⟨S100000x64, .f32⟩ : BufTy).Contents (Elt F)) : HloOp τ sig (Elt F)).result V) := by
  refine ⟨args_step main_v245 rfl (by decide) hA, ?_⟩
  obtain ⟨h_v131, h_v132, h_v133, h_v134, h_v135, h_v136, h_v149, h_v224, h_v242, h_v244⟩ := hL
  exact ⟨(keep main_v245 rfl (by decide)).trans h_v131,
    (keep main_v245 rfl (by decide)).trans h_v132,
    (keep main_v245 rfl (by decide)).trans h_v133,
    (keep main_v245 rfl (by decide)).trans h_v134,
    (keep main_v245 rfl (by decide)).trans h_v135,
    (keep main_v245 rfl (by decide)).trans h_v136,
    (keep main_v245 rfl (by decide)).trans h_v149,
    (keep main_v245 rfl (by decide)).trans h_v224,
    new_binary h_v244 h_v242 rfl⟩
theorem step298 (hA : Args x0 x1 x2 x3 x4 x5 x6 x7 x8 x9 x10 x11 x12 x13 V) (hL : Live298 x0 x1 x2 x3 x4 x5 x6 x7 x8 x9 x10 x11 x12 x13 V) :
    Args x0 x1 x2 x3 x4 x5 x6 x7 x8 x9 x10 x11 x12 x13 ((nullary main_cst_46 (constant S_ .f32 0x3F800000#32) : HloOp τ sig (Elt F)).result V) ∧ Live299 x0 x1 x2 x3 x4 x5 x6 x7 x8 x9 x10 x11 x12 x13 ((nullary main_cst_46 (constant S_ .f32 0x3F800000#32) : HloOp τ sig (Elt F)).result V) := by
  refine ⟨args_step main_cst_46 rfl (by decide) hA, ?_⟩
  obtain ⟨h_v131, h_v132, h_v133, h_v134, h_v135, h_v136, h_v149, h_v224, h_v245⟩ := hL
  exact ⟨(keep main_cst_46 rfl (by decide)).trans h_v131,
    (keep main_cst_46 rfl (by decide)).trans h_v132,
    (keep main_cst_46 rfl (by decide)).trans h_v133,
    (keep main_cst_46 rfl (by decide)).trans h_v134,
    (keep main_cst_46 rfl (by decide)).trans h_v135,
    (keep main_cst_46 rfl (by decide)).trans h_v136,
    (keep main_cst_46 rfl (by decide)).trans h_v149,
    (keep main_cst_46 rfl (by decide)).trans h_v224,
    (keep main_cst_46 rfl (by decide)).trans h_v245,
    new_nullary rfl⟩
theorem step299 (hA : Args x0 x1 x2 x3 x4 x5 x6 x7 x8 x9 x10 x11 x12 x13 V) (hL : Live299 x0 x1 x2 x3 x4 x5 x6 x7 x8 x9 x10 x11 x12 x13 V) :
    Args x0 x1 x2 x3 x4 x5 x6 x7 x8 x9 x10 x11 x12 x13 ((unary main_cst_46 main_v246 (broadcastInDim S100000x64 ![] bcast_S_S100000x64 : (⟨S_, .f32⟩ : BufTy).Contents (Elt F) → (⟨S100000x64, .f32⟩ : BufTy).Contents (Elt F)) : HloOp τ sig (Elt F)).result V) ∧ Live300 x0 x1 x2 x3 x4 x5 x6 x7 x8 x9 x10 x11 x12 x13 ((unary main_cst_46 main_v246 (broadcastInDim S100000x64 ![] bcast_S_S100000x64 : (⟨S_, .f32⟩ : BufTy).Contents (Elt F) → (⟨S100000x64, .f32⟩ : BufTy).Contents (Elt F)) : HloOp τ sig (Elt F)).result V) := by
  refine ⟨args_step main_v246 rfl (by decide) hA, ?_⟩
  obtain ⟨h_v131, h_v132, h_v133, h_v134, h_v135, h_v136, h_v149, h_v224, h_v245, h_cst_46⟩ := hL
  exact ⟨(keep main_v246 rfl (by decide)).trans h_v131,
    (keep main_v246 rfl (by decide)).trans h_v132,
    (keep main_v246 rfl (by decide)).trans h_v133,
    (keep main_v246 rfl (by decide)).trans h_v134,
    (keep main_v246 rfl (by decide)).trans h_v135,
    (keep main_v246 rfl (by decide)).trans h_v136,
    (keep main_v246 rfl (by decide)).trans h_v149,
    (keep main_v246 rfl (by decide)).trans h_v224,
    (keep main_v246 rfl (by decide)).trans h_v245,
    new_unary h_cst_46 rfl⟩
theorem step300 (hA : Args x0 x1 x2 x3 x4 x5 x6 x7 x8 x9 x10 x11 x12 x13 V) (hL : Live300 x0 x1 x2 x3 x4 x5 x6 x7 x8 x9 x10 x11 x12 x13 V) :
    Args x0 x1 x2 x3 x4 x5 x6 x7 x8 x9 x10 x11 x12 x13 ((binary main_v245 main_v246 main_v247 (Host.divf : (⟨S100000x64, .f32⟩ : BufTy).Contents (Elt F) → (⟨S100000x64, .f32⟩ : BufTy).Contents (Elt F) → (⟨S100000x64, .f32⟩ : BufTy).Contents (Elt F)) : HloOp τ sig (Elt F)).result V) ∧ Live301 x0 x1 x2 x3 x4 x5 x6 x7 x8 x9 x10 x11 x12 x13 ((binary main_v245 main_v246 main_v247 (Host.divf : (⟨S100000x64, .f32⟩ : BufTy).Contents (Elt F) → (⟨S100000x64, .f32⟩ : BufTy).Contents (Elt F) → (⟨S100000x64, .f32⟩ : BufTy).Contents (Elt F)) : HloOp τ sig (Elt F)).result V) := by
  refine ⟨args_step main_v247 rfl (by decide) hA, ?_⟩
  obtain ⟨h_v131, h_v132, h_v133, h_v134, h_v135, h_v136, h_v149, h_v224, h_v245, h_v246⟩ := hL
  exact ⟨(keep main_v247 rfl (by decide)).trans h_v131,
    (keep main_v247 rfl (by decide)).trans h_v132,
    (keep main_v247 rfl (by decide)).trans h_v133,
    (keep main_v247 rfl (by decide)).trans h_v134,
    (keep main_v247 rfl (by decide)).trans h_v135,
    (keep main_v247 rfl (by decide)).trans h_v136,
    (keep main_v247 rfl (by decide)).trans h_v149,
    (keep main_v247 rfl (by decide)).trans h_v224,
    new_binary h_v245 h_v246 rfl⟩
theorem step301 (hA : Args x0 x1 x2 x3 x4 x5 x6 x7 x8 x9 x10 x11 x12 x13 V) (hL : Live301 x0 x1 x2 x3 x4 x5 x6 x7 x8 x9 x10 x11 x12 x13 V) :
    Args x0 x1 x2 x3 x4 x5 x6 x7 x8 x9 x10 x11 x12 x13 ((unary main_v247 main_v248 (Host.negf : (⟨S100000x64, .f32⟩ : BufTy).Contents (Elt F) → (⟨S100000x64, .f32⟩ : BufTy).Contents (Elt F)) : HloOp τ sig (Elt F)).result V) ∧ Live302 x0 x1 x2 x3 x4 x5 x6 x7 x8 x9 x10 x11 x12 x13 ((unary main_v247 main_v248 (Host.negf : (⟨S100000x64, .f32⟩ : BufTy).Contents (Elt F) → (⟨S100000x64, .f32⟩ : BufTy).Contents (Elt F)) : HloOp τ sig (Elt F)).result V) := by
  refine ⟨args_step main_v248 rfl (by decide) hA, ?_⟩
  obtain ⟨h_v131, h_v132, h_v133, h_v134, h_v135, h_v136, h_v149, h_v224, h_v247⟩ := hL
  exact ⟨(keep main_v248 rfl (by decide)).trans h_v131,
    (keep main_v248 rfl (by decide)).trans h_v132,
    (keep main_v248 rfl (by decide)).trans h_v133,
    (keep main_v248 rfl (by decide)).trans h_v134,
    (keep main_v248 rfl (by decide)).trans h_v135,
    (keep main_v248 rfl (by decide)).trans h_v136,
    (keep main_v248 rfl (by decide)).trans h_v149,
    (keep main_v248 rfl (by decide)).trans h_v224,
    new_unary h_v247 rfl⟩
theorem step302 (hA : Args x0 x1 x2 x3 x4 x5 x6 x7 x8 x9 x10 x11 x12 x13 V) (hL : Live302 x0 x1 x2 x3 x4 x5 x6 x7 x8 x9 x10 x11 x12 x13 V) :
    Args x0 x1 x2 x3 x4 x5 x6 x7 x8 x9 x10 x11 x12 x13 ((unary main_v248 main_v249 (Host.exp : (⟨S100000x64, .f32⟩ : BufTy).Contents (Elt F) → (⟨S100000x64, .f32⟩ : BufTy).Contents (Elt F)) : HloOp τ sig (Elt F)).result V) ∧ Live303 x0 x1 x2 x3 x4 x5 x6 x7 x8 x9 x10 x11 x12 x13 ((unary main_v248 main_v249 (Host.exp : (⟨S100000x64, .f32⟩ : BufTy).Contents (Elt F) → (⟨S100000x64, .f32⟩ : BufTy).Contents (Elt F)) : HloOp τ sig (Elt F)).result V) := by
  refine ⟨args_step main_v249 rfl (by decide) hA, ?_⟩
  obtain ⟨h_v131, h_v132, h_v133, h_v134, h_v135, h_v136, h_v149, h_v224, h_v248⟩ := hL
  exact ⟨(keep main_v249 rfl (by decide)).trans h_v131,
    (keep main_v249 rfl (by decide)).trans h_v132,
    (keep main_v249 rfl (by decide)).trans h_v133,
    (keep main_v249 rfl (by decide)).trans h_v134,
    (keep main_v249 rfl (by decide)).trans h_v135,
    (keep main_v249 rfl (by decide)).trans h_v136,
    (keep main_v249 rfl (by decide)).trans h_v149,
    (keep main_v249 rfl (by decide)).trans h_v224,
    new_unary h_v248 rfl⟩
theorem step303 (hA : Args x0 x1 x2 x3 x4 x5 x6 x7 x8 x9 x10 x11 x12 x13 V) (hL : Live303 x0 x1 x2 x3 x4 x5 x6 x7 x8 x9 x10 x11 x12 x13 V) :
    Args x0 x1 x2 x3 x4 x5 x6 x7 x8 x9 x10 x11 x12 x13 ((nullary main_cst_47 (constant S_ .f32 0x3F800000#32) : HloOp τ sig (Elt F)).result V) ∧ Live304 x0 x1 x2 x3 x4 x5 x6 x7 x8 x9 x10 x11 x12 x13 ((nullary main_cst_47 (constant S_ .f32 0x3F800000#32) : HloOp τ sig (Elt F)).result V) := by
  refine ⟨args_step main_cst_47 rfl (by decide) hA, ?_⟩
  obtain ⟨h_v131, h_v132, h_v133, h_v134, h_v135, h_v136, h_v149, h_v224, h_v249⟩ := hL
  exact ⟨(keep main_cst_47 rfl (by decide)).trans h_v131,
    (keep main_cst_47 rfl (by decide)).trans h_v132,
    (keep main_cst_47 rfl (by decide)).trans h_v133,
    (keep main_cst_47 rfl (by decide)).trans h_v134,
    (keep main_cst_47 rfl (by decide)).trans h_v135,
    (keep main_cst_47 rfl (by decide)).trans h_v136,
    (keep main_cst_47 rfl (by decide)).trans h_v149,
    (keep main_cst_47 rfl (by decide)).trans h_v224,
    (keep main_cst_47 rfl (by decide)).trans h_v249,
    new_nullary rfl⟩
theorem step304 (hA : Args x0 x1 x2 x3 x4 x5 x6 x7 x8 x9 x10 x11 x12 x13 V) (hL : Live304 x0 x1 x2 x3 x4 x5 x6 x7 x8 x9 x10 x11 x12 x13 V) :
    Args x0 x1 x2 x3 x4 x5 x6 x7 x8 x9 x10 x11 x12 x13 ((unary main_cst_47 main_v250 (broadcastInDim S100000x64 ![] bcast_S_S100000x64 : (⟨S_, .f32⟩ : BufTy).Contents (Elt F) → (⟨S100000x64, .f32⟩ : BufTy).Contents (Elt F)) : HloOp τ sig (Elt F)).result V) ∧ Live305 x0 x1 x2 x3 x4 x5 x6 x7 x8 x9 x10 x11 x12 x13 ((unary main_cst_47 main_v250 (broadcastInDim S100000x64 ![] bcast_S_S100000x64 : (⟨S_, .f32⟩ : BufTy).Contents (Elt F) → (⟨S100000x64, .f32⟩ : BufTy).Contents (Elt F)) : HloOp τ sig (Elt F)).result V) := by
  refine ⟨args_step main_v250 rfl (by decide) hA, ?_⟩
  obtain ⟨h_v131, h_v132, h_v133, h_v134, h_v135, h_v136, h_v149, h_v224, h_v249, h_cst_47⟩ := hL
  exact ⟨(keep main_v250 rfl (by decide)).trans h_v131,
    (keep main_v250 rfl (by decide)).trans h_v132,
    (keep main_v250 rfl (by decide)).trans h_v133,
    (keep main_v250 rfl (by decide)).trans h_v134,
    (keep main_v250 rfl (by decide)).trans h_v135,
    (keep main_v250 rfl (by decide)).trans h_v136,
    (keep main_v250 rfl (by decide)).trans h_v149,
    (keep main_v250 rfl (by decide)).trans h_v224,
    (keep main_v250 rfl (by decide)).trans h_v249,
    new_unary h_cst_47 rfl⟩
theorem step305 (hA : Args x0 x1 x2 x3 x4 x5 x6 x7 x8 x9 x10 x11 x12 x13 V) (hL : Live305 x0 x1 x2 x3 x4 x5 x6 x7 x8 x9 x10 x11 x12 x13 V) :
    Args x0 x1 x2 x3 x4 x5 x6 x7 x8 x9 x10 x11 x12 x13 ((binary main_v250 main_v249 main_v251 (addf : (⟨S100000x64, .f32⟩ : BufTy).Contents (Elt F) → (⟨S100000x64, .f32⟩ : BufTy).Contents (Elt F) → (⟨S100000x64, .f32⟩ : BufTy).Contents (Elt F)) : HloOp τ sig (Elt F)).result V) ∧ Live306 x0 x1 x2 x3 x4 x5 x6 x7 x8 x9 x10 x11 x12 x13 ((binary main_v250 main_v249 main_v251 (addf : (⟨S100000x64, .f32⟩ : BufTy).Contents (Elt F) → (⟨S100000x64, .f32⟩ : BufTy).Contents (Elt F) → (⟨S100000x64, .f32⟩ : BufTy).Contents (Elt F)) : HloOp τ sig (Elt F)).result V) := by
  refine ⟨args_step main_v251 rfl (by decide) hA, ?_⟩
  obtain ⟨h_v131, h_v132, h_v133, h_v134, h_v135, h_v136, h_v149, h_v224, h_v249, h_v250⟩ := hL
  exact ⟨(keep main_v251 rfl (by decide)).trans h_v131,
    (keep main_v251 rfl (by decide)).trans h_v132,
    (keep main_v251 rfl (by decide)).trans h_v133,
    (keep main_v251 rfl (by decide)).trans h_v134,
    (keep main_v251 rfl (by decide)).trans h_v135,
    (keep main_v251 rfl (by decide)).trans h_v136,
    (keep main_v251 rfl (by decide)).trans h_v149,
    (keep main_v251 rfl (by decide)).trans h_v224,
    new_binary h_v250 h_v249 rfl⟩
theorem step306 (hA : Args x0 x1 x2 x3 x4 x5 x6 x7 x8 x9 x10 x11 x12 x13 V) (hL : Live306 x0 x1 x2 x3 x4 x5 x6 x7 x8 x9 x10 x11 x12 x13 V) :
    Args x0 x1 x2 x3 x4 x5 x6 x7 x8 x9 x10 x11 x12 x13 ((nullary main_cst_48 (constant S_ .f32 0x3F800000#32) : HloOp τ sig (Elt F)).result V) ∧ Live307 x0 x1 x2 x3 x4 x5 x6 x7 x8 x9 x10 x11 x12 x13 ((nullary main_cst_48 (constant S_ .f32 0x3F800000#32) : HloOp τ sig (Elt F)).result V) := by
  refine ⟨args_step main_cst_48 rfl (by decide) hA, ?_⟩
  obtain ⟨h_v131, h_v132, h_v133, h_v134, h_v135, h_v136, h_v149, h_v224, h_v251⟩ := hL
  exact ⟨(keep main_cst_48 rfl (by decide)).trans h_v131,
    (keep main_cst_48 rfl (by decide)).trans h_v132,
    (keep main_cst_48 rfl (by decide)).trans h_v133,
    (keep main_cst_48 rfl (by decide)).trans h_v134,
    (keep main_cst_48 rfl (by decide)).trans h_v135,
    (keep main_cst_48 rfl (by decide)).trans h_v136,
    (keep main_cst_48 rfl (by decide)).trans h_v149,
    (keep main_cst_48 rfl (by decide)).trans h_v224,
    (keep main_cst_48 rfl (by decide)).trans h_v251,
    new_nullary rfl⟩
theorem step307 (hA : Args x0 x1 x2 x3 x4 x5 x6 x7 x8 x9 x10 x11 x12 x13 V) (hL : Live307 x0 x1 x2 x3 x4 x5 x6 x7 x8 x9 x10 x11 x12 x13 V) :
    Args x0 x1 x2 x3 x4 x5 x6 x7 x8 x9 x10 x11 x12 x13 ((unary main_cst_48 main_v252 (broadcastInDim S100000x64 ![] bcast_S_S100000x64 : (⟨S_, .f32⟩ : BufTy).Contents (Elt F) → (⟨S100000x64, .f32⟩ : BufTy).Contents (Elt F)) : HloOp τ sig (Elt F)).result V) ∧ Live308 x0 x1 x2 x3 x4 x5 x6 x7 x8 x9 x10 x11 x12 x13 ((unary main_cst_48 main_v252 (broadcastInDim S100000x64 ![] bcast_S_S100000x64 : (⟨S_, .f32⟩ : BufTy).Contents (Elt F) → (⟨S100000x64, .f32⟩ : BufTy).Contents (Elt F)) : HloOp τ sig (Elt F)).result V) := by
  refine ⟨args_step main_v252 rfl (by decide) hA, ?_⟩
  obtain ⟨h_v131, h_v132, h_v133, h_v134, h_v135, h_v136, h_v149, h_v224, h_v251, h_cst_48⟩ := hL
  exact ⟨(keep main_v252 rfl (by decide)).trans h_v131,
    (keep main_v252 rfl (by decide)).trans h_v132,
    (keep main_v252 rfl (by decide)).trans h_v133,
    (keep main_v252 rfl (by decide)).trans h_v134,
    (keep main_v252 rfl (by decide)).trans h_v135,
    (keep main_v252 rfl (by decide)).trans h_v136,
    (keep main_v252 rfl (by decide)).trans h_v149,
    (keep main_v252 rfl (by decide)).trans h_v224,
    (keep main_v252 rfl (by decide)).trans h_v251,
    new_unary h_cst_48 rfl⟩
theorem step308 (hA : Args x0 x1 x2 x3 x4 x5 x6 x7 x8 x9 x10 x11 x12 x13 V) (hL : Live308 x0 x1 x2 x3 x4 x5 x6 x7 x8 x9 x10 x11 x12 x13 V) :
    Args x0 x1 x2 x3 x4 x5 x6 x7 x8 x9 x10 x11 x12 x13 ((binary main_v252 main_v251 main_v253 (Host.divf : (⟨S100000x64, .f32⟩ : BufTy).Contents (Elt F) → (⟨S100000x64, .f32⟩ : BufTy).Contents (Elt F) → (⟨S100000x64, .f32⟩ : BufTy).Contents (Elt F)) : HloOp τ sig (Elt F)).result V) ∧ Live309 x0 x1 x2 x3 x4 x5 x6 x7 x8 x9 x10 x11 x12 x13 ((binary main_v252 main_v251 main_v253 (Host.divf : (⟨S100000x64, .f32⟩ : BufTy).Contents (Elt F) → (⟨S100000x64, .f32⟩ : BufTy).Contents (Elt F) → (⟨S100000x64, .f32⟩ : BufTy).Contents (Elt F)) : HloOp τ sig (Elt F)).result V) := by
  refine ⟨args_step main_v253 rfl (by decide) hA, ?_⟩
  obtain ⟨h_v131, h_v132, h_v133, h_v134, h_v135, h_v136, h_v149, h_v224, h_v251, h_v252⟩ := hL
  exact ⟨(keep main_v253 rfl (by decide)).trans h_v131,
    (keep main_v253 rfl (by decide)).trans h_v132,
    (keep main_v253 rfl (by decide)).trans h_v133,
    (keep main_v253 rfl (by decide)).trans h_v134,
    (keep main_v253 rfl (by decide)).trans h_v135,
    (keep main_v253 rfl (by decide)).trans h_v136,
    (keep main_v253 rfl (by decide)).trans h_v149,
    (keep main_v253 rfl (by decide)).trans h_v224,
    new_binary h_v252 h_v251 rfl⟩
theorem step309 (hA : Args x0 x1 x2 x3 x4 x5 x6 x7 x8 x9 x10 x11 x12 x13 V) (hL : Live309 x0 x1 x2 x3 x4 x5 x6 x7 x8 x9 x10 x11 x12 x13 V) :
    Args x0 x1 x2 x3 x4 x5 x6 x7 x8 x9 x10 x11 x12 x13 ((binary main_v253 main_v133 main_v254 (mulf : (⟨S100000x64, .f32⟩ : BufTy).Contents (Elt F) → (⟨S100000x64, .f32⟩ : BufTy).Contents (Elt F) → (⟨S100000x64, .f32⟩ : BufTy).Contents (Elt F)) : HloOp τ sig (Elt F)).result V) ∧ Live310 x0 x1 x2 x3 x4 x5 x6 x7 x8 x9 x10 x11 x12 x13 ((binary main_v253 main_v133 main_v254 (mulf : (⟨S100000x64, .f32⟩ : BufTy).Contents (Elt F) → (⟨S100000x64, .f32⟩ : BufTy).Contents (Elt F) → (⟨S100000x64, .f32⟩ : BufTy).Contents (Elt F)) : HloOp τ sig (Elt F)).result V) := by
  refine ⟨args_step main_v254 rfl (by decide) hA, ?_⟩
  obtain ⟨h_v131, h_v132, h_v133, h_v134, h_v135, h_v136, h_v149, h_v224, h_v253⟩ := hL
  exact ⟨(keep main_v254 rfl (by decide)).trans h_v131,
    (keep main_v254 rfl (by decide)).trans h_v132,
    (keep main_v254 rfl (by decide)).trans h_v133,
    (keep main_v254 rfl (by decide)).trans h_v134,
    (keep main_v254 rfl (by decide)).trans h_v135,
    (keep main_v254 rfl (by decide)).trans h_v136,
    (keep main_v254 rfl (by decide)).trans h_v149,
    (keep main_v254 rfl (by decide)).trans h_v224,
    new_binary h_v253 h_v133 rfl⟩
theorem step310 (hA : Args x0 x1 x2 x3 x4 x5 x6 x7 x8 x9 x10 x11 x12 x13 V) (hL : Live310 x0 x1 x2 x3 x4 x5 x6 x7 x8 x9 x10 x11 x12 x13 V) :
    Args x0 x1 x2 x3 x4 x5 x6 x7 x8 x9 x10 x11 x12 x13 ((unary main_arg3 main_v255 (broadcastInDim S800000x1 ![0] bcast_S800000_S800000x1_0 : (⟨S800000, .f32⟩ : BufTy).Contents (Elt F) → (⟨S800000x1, .f32⟩ : BufTy).Contents (Elt F)) : HloOp τ sig (Elt F)).result V) ∧ Live311 x0 x1 x2 x3 x4 x5 x6 x7 x8 x9 x10 x11 x12 x13 ((unary main_arg3 main_v255 (broadcastInDim S800000x1 ![0] bcast_S800000_S800000x1_0 : (⟨S800000, .f32⟩ : BufTy).Contents (Elt F) → (⟨S800000x1, .f32⟩ : BufTy).Contents (Elt F)) : HloOp τ sig (Elt F)).result V) := by
  refine ⟨args_step main_v255 rfl (by decide) hA, ?_⟩
  unfold Args at hA
  obtain ⟨a0, a1, a2, a3, a4, a5, a6, a7, a8, a9, a10, a11, a12, a13⟩ := hA
  obtain ⟨h_v131, h_v132, h_v133, h_v134, h_v135, h_v136, h_v149, h_v224, h_v254⟩ := hL
  exact ⟨(keep main_v255 rfl (by decide)).trans h_v131,
    (keep main_v255 rfl (by decide)).trans h_v132,
    (keep main_v255 rfl (by decide)).trans h_v133,
    (keep main_v255 rfl (by decide)).trans h_v134,
    (keep main_v255 rfl (by decide)).trans h_v135,
    (keep main_v255 rfl (by decide)).trans h_v136,
    (keep main_v255 rfl (by decide)).trans h_v149,
    (keep main_v255 rfl (by decide)).trans h_v224,
    (keep main_v255 rfl (by decide)).trans h_v254,
    new_unary a3 rfl⟩
theorem step311 (hA : Args x0 x1 x2 x3 x4 x5 x6 x7 x8 x9 x10 x11 x12 x13 V) (hL : Live311 x0 x1 x2 x3 x4 x5 x6 x7 x8 x9 x10 x11 x12 x13 V) :
    Args x0 x1 x2 x3 x4 x5 x6 x7 x8 x9 x10 x11 x12 x13 ((nullary main_c_49 (constantI S_ 32 0#32) : HloOp τ sig (Elt F)).result V) ∧ Live312 x0 x1 x2 x3 x4 x5 x6 x7 x8 x9 x10 x11 x12 x13 ((nullary main_c_49 (constantI S_ 32 0#32) : HloOp τ sig (Elt F)).result V) := by
  refine ⟨args_step main_c_49 rfl (by decide) hA, ?_⟩
  obtain ⟨h_v131, h_v132, h_v133, h_v134, h_v135, h_v136, h_v149, h_v224, h_v254, h_v255⟩ := hL
  exact ⟨(keep main_c_49 rfl (by decide)).trans h_v131,
    (keep main_c_49 rfl (by decide)).trans h_v132,
    (keep main_c_49 rfl (by decide)).trans h_v133,
    (keep main_c_49 rfl (by decide)).trans h_v134,
    (keep main_c_49 rfl (by decide)).trans h_v135,
    (keep main_c_49 rfl (by decide)).trans h_v136,
    (keep main_c_49 rfl (by decide)).trans h_v149,
    (keep main_c_49 rfl (by decide)).trans h_v224,
    (keep main_c_49 rfl (by decide)).trans h_v254,
    (keep main_c_49 rfl (by decide)).trans h_v255,
    new_nullary rfl⟩
theorem step312 (hA : Args x0 x1 x2 x3 x4 x5 x6 x7 x8 x9 x10 x11 x12 x13 V) (hL : Live312 x0 x1 x2 x3 x4 x5 x6 x7 x8 x9 x10 x11 x12 x13 V) :
    Args x0 x1 x2 x3 x4 x5 x6 x7 x8 x9 x10 x11 x12 x13 ((unary main_c_49 main_v256 (broadcastInDim S800000 ![] bcast_S_S800000 : (⟨S_, .i32⟩ : BufTy).Contents (Elt F) → (⟨S800000, .i32⟩ : BufTy).Contents (Elt F)) : HloOp τ sig (Elt F)).result V) ∧ Live313 x0 x1 x2 x3 x4 x5 x6 x7 x8 x9 x10 x11 x12 x13 ((unary main_c_49 main_v256 (broadcastInDim S800000 ![] bcast_S_S800000 : (⟨S_, .i32⟩ : BufTy).Contents (Elt F) → (⟨S800000, .i32⟩ : BufTy).Contents (Elt F)) : HloOp τ sig (Elt F)).result V) := by
  refine ⟨args_step main_v256 rfl (by decide) hA, ?_⟩
  obtain ⟨h_v131, h_v132, h_v133, h_v134, h_v135, h_v136, h_v149, h_v224, h_v254, h_v255, h_c_49⟩ := hL
  exact ⟨(keep main_v256 rfl (by decide)).trans h_v131,
    (keep main_v256 rfl (by decide)).trans h_v132,
    (keep main_v256 rfl (by decide)).trans h_v133,
    (keep main_v256 rfl (by decide)).trans h_v134,
    (keep main_v256 rfl (by decide)).trans h_v135,
    (keep main_v256 rfl (by decide)).trans h_v136,
    (keep main_v256 rfl (by decide)).trans h_v149,
    (keep main_v256 rfl (by decide)).trans h_v224,
    (keep main_v256 rfl (by decide)).trans h_v254,
    (keep main_v256 rfl (by decide)).trans h_v255,
    new_unary h_c_49 rfl⟩
theorem step313 (hA : Args x0 x1 x2 x3 x4 x5 x6 x7 x8 x9 x10 x11 x12 x13 V) (hL : Live313 x0 x1 x2 x3 x4 x5 x6 x7 x8 x9 x10 x11 x12 x13 V) :
    Args x0 x1 x2 x3 x4 x5 x6 x7 x8 x9 x10 x11 x12 x13 ((binary main_arg2 main_v256 main_v257 (cmpi .slt : (⟨S800000, .i32⟩ : BufTy).Contents (Elt F) → (⟨S800000, .i32⟩ : BufTy).Contents (Elt F) → (⟨S800000, .i1⟩ : BufTy).Contents (Elt F)) : HloOp τ sig (Elt F)).result V) ∧ Live314 x0 x1 x2 x3 x4 x5 x6 x7 x8 x9 x10 x11 x12 x13 ((binary main_arg2 main_v256 main_v257 (cmpi .slt : (⟨S800000, .i32⟩ : BufTy).Contents (Elt F) → (⟨S800000, .i32⟩ : BufTy).Contents (Elt F) → (⟨S800000, .i1⟩ : BufTy).Contents (Elt F)) : HloOp τ sig (Elt F)).result V) := by
  refine ⟨args_step main_v257 rfl (by decide) hA, ?_⟩
  unfold Args at hA
  obtain ⟨a0, a1, a2, a3, a4, a5, a6, a7, a8, a9, a10, a11, a12, a13⟩ := hA
  obtain ⟨h_v131, h_v132, h_v133, h_v134, h_v135, h_v136, h_v149, h_v224, h_v254, h_v255, h_v256⟩ := hL
  exact ⟨(keep main_v257 rfl (by decide)).trans h_v131,
    (keep main_v257 rfl (by decide)).trans h_v132,
    (keep main_v257 rfl (by decide)).trans h_v133,
    (keep main_v257 rfl (by decide)).trans h_v134,
    (keep main_v257 rfl (by decide)).trans h_v135,
    (keep main_v257 rfl (by decide)).trans h_v136,
    (keep main_v257 rfl (by decide)).trans h_v149,
    (keep main_v257 rfl (by decide)).trans h_v224,
    (keep main_v257 rfl (by decide)).trans h_v254,
    (keep main_v257 rfl (by decide)).trans h_v255,
    new_binary a2 h_v256 rfl⟩
theorem step314 (hA : Args x0 x1 x2 x3 x4 x5 x6 x7 x8 x9 x10 x11 x12 x13 V) (hL : Live314 x0 x1 x2 x3 x4 x5 x6 x7 x8 x9 x10 x11 x12 x13 V) :
    Args x0 x1 x2 x3 x4 x5 x6 x7 x8 x9 x10 x11 x12 x13 ((nullary main_c_50 (constantI S_ 32 100000#32) : HloOp τ sig (Elt F)).result V) ∧ Live315 x0 x1 x2 x3 x4 x5 x6 x7 x8 x9 x10 x11 x12 x13 ((nullary main_c_50 (constantI S_ 32 100000#32) : HloOp τ sig (Elt F)).result V) := by
  refine ⟨args_step main_c_50 rfl (by decide) hA, ?_⟩
  obtain ⟨h_v131, h_v132, h_v133, h_v134, h_v135, h_v136, h_v149, h_v224, h_v254, h_v255, h_v257⟩ := hL
  exact ⟨(keep main_c_50 rfl (by decide)).trans h_v131,
    (keep main_c_50 rfl (by decide)).trans h_v132,
    (keep main_c_50 rfl (by decide)).trans h_v133,
    (keep main_c_50 rfl (by decide)).trans h_v134,
    (keep main_c_50 rfl (by decide)).trans h_v135,
    (keep main_c_50 rfl (by decide)).trans h_v136,
    (keep main_c_50 rfl (by decide)).trans h_v149,
    (keep main_c_50 rfl (by decide)).trans h_v224,
    (keep main_c_50 rfl (by decide)).trans h_v254,
    (keep main_c_50 rfl (by decide)).trans h_v255,
    (keep main_c_50 rfl (by decide)).trans h_v257,
    new_nullary rfl⟩
theorem step315 (hA : Args x0 x1 x2 x3 x4 x5 x6 x7 x8 x9 x10 x11 x12 x13 V) (hL : Live315 x0 x1 x2 x3 x4 x5 x6 x7 x8 x9 x10 x11 x12 x13 V) :
    Args x0 x1 x2 x3 x4 x5 x6 x7 x8 x9 x10 x11 x12 x13 ((unary main_c_50 main_v258 (broadcastInDim S800000 ![] bcast_S_S800000 : (⟨S_, .i32⟩ : BufTy).Contents (Elt F) → (⟨S800000, .i32⟩ : BufTy).Contents (Elt F)) : HloOp τ sig (Elt F)).result V) ∧ Live316 x0 x1 x2 x3 x4 x5 x6 x7 x8 x9 x10 x11 x12 x13 ((unary main_c_50 main_v258 (broadcastInDim S800000 ![] bcast_S_S800000 : (⟨S_, .i32⟩ : BufTy).Contents (Elt F) → (⟨S800000, .i32⟩ : BufTy).Contents (Elt F)) : HloOp τ sig (Elt F)).result V) := by
  refine ⟨args_step main_v258 rfl (by decide) hA, ?_⟩
  obtain ⟨h_v131, h_v132, h_v133, h_v134, h_v135, h_v136, h_v149, h_v224, h_v254, h_v255, h_v257, h_c_50⟩ := hL
  exact ⟨(keep main_v258 rfl (by decide)).trans h_v131,
    (keep main_v258 rfl (by decide)).trans h_v132,
    (keep main_v258 rfl (by decide)).trans h_v133,
    (keep main_v258 rfl (by decide)).trans h_v134,
    (keep main_v258 rfl (by decide)).trans h_v135,
    (keep main_v258 rfl (by decide)).trans h_v136,
    (keep main_v258 rfl (by decide)).trans h_v149,
    (keep main_v258 rfl (by decide)).trans h_v224,
    (keep main_v258 rfl (by decide)).trans h_v254,
    (keep main_v258 rfl (by decide)).trans h_v255,
    (keep main_v258 rfl (by decide)).trans h_v257,
    new_unary h_c_50 rfl⟩
theorem step316 (hA : Args x0 x1 x2 x3 x4 x5 x6 x7 x8 x9 x10 x11 x12 x13 V) (hL : Live316 x0 x1 x2 x3 x4 x5 x6 x7 x8 x9 x10 x11 x12 x13 V) :
    Args x0 x1 x2 x3 x4 x5 x6 x7 x8 x9 x10 x11 x12 x13 ((binary main_arg2 main_v258 main_v259 (addi : (⟨S800000, .i32⟩ : BufTy).Contents (Elt F) → (⟨S800000, .i32⟩ : BufTy).Contents (Elt F) → (⟨S800000, .i32⟩ : BufTy).Contents (Elt F)) : HloOp τ sig (Elt F)).result V) ∧ Live317 x0 x1 x2 x3 x4 x5 x6 x7 x8 x9 x10 x11 x12 x13 ((binary main_arg2 main_v258 main_v259 (addi : (⟨S800000, .i32⟩ : BufTy).Contents (Elt F) → (⟨S800000, .i32⟩ : BufTy).Contents (Elt F) → (⟨S800000, .i32⟩ : BufTy).Contents (Elt F)) : HloOp τ sig (Elt F)).result V) := by
  refine ⟨args_step main_v259 rfl (by decide) hA, ?_⟩
  unfold Args at hA
  obtain ⟨a0, a1, a2, a3, a4, a5, a6, a7, a8, a9, a10, a11, a12, a13⟩ := hA
  obtain ⟨h_v131, h_v132, h_v133, h_v134, h_v135, h_v136, h_v149, h_v224, h_v254, h_v255, h_v257, h_v258⟩ := hL
  exact ⟨(keep main_v259 rfl (by decide)).trans h_v131,
    (keep main_v259 rfl (by decide)).trans h_v132,
    (keep main_v259 rfl (by decide)).trans h_v133,
    (keep main_v259 rfl (by decide)).trans h_v134,
    (keep main_v259 rfl (by decide)).trans h_v135,
    (keep main_v259 rfl (by decide)).trans h_v136,
    (keep main_v259 rfl (by decide)).trans h_v149,
    (keep main_v259 rfl (by decide)).trans h_v224,
    (keep main_v259 rfl (by decide)).trans h_v254,
    (keep main_v259 rfl (by decide)).trans h_v255,
    (keep main_v259 rfl (by decide)).trans h_v257,
    new_binary a2 h_v258 rfl⟩
theorem step317 (hA : Args x0 x1 x2 x3 x4 x5 x6 x7 x8 x9 x10 x11 x12 x13 V) (hL : Live317 x0 x1 x2 x3 x4 x5 x6 x7 x8 x9 x10 x11 x12 x13 V) :
    Args x0 x1 x2 x3 x4 x5 x6 x7 x8 x9 x10 x11 x12 x13 ((ternary main_v257 main_v259 main_arg2 main_v260 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) : HloOp τ sig (Elt F)).result V) ∧ Live318 x0 x1 x2 x3 x4 x5 x6 x7 x8 x9 x10 x11 x12 x13 ((ternary main_v257 main_v259 main_arg2 main_v260 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) : HloOp τ sig (Elt F)).result V) := by
  refine ⟨args_step main_v260 rfl (by decide) hA, ?_⟩
  unfold Args at hA
  obtain ⟨a0, a1, a2, a3, a4, a5, a6, a7, a8, a9, a10, a11, a12, a13⟩ := hA
  obtain ⟨h_v131, h_v132, h_v133, h_v134, h_v135, h_v136, h_v149, h_v224, h_v254, h_v255, h_v257, h_v259⟩ := hL
  exact ⟨(keep main_v260 rfl (by decide)).trans h_v131,
    (keep main_v260 rfl (by decide)).trans h_v132,
    (keep main_v260 rfl (by decide)).trans h_v133,
    (keep main_v260 rfl (by decide)).trans h_v134,
    (keep main_v260 rfl (by decide)).trans h_v135,
    (keep main_v260 rfl (by decide)).trans h_v136,
    (keep main_v260 rfl (by decide)).trans h_v149,
    (keep main_v260 rfl (by decide)).trans h_v224,
    (keep main_v260 rfl (by decide)).trans h_v254,
    (keep main_v260 rfl (by decide)).trans h_v255,
    new_ternary h_v257 h_v259 a2 rfl⟩
theorem step318 (hA : Args x0 x1 x2 x3 x4 x5 x6 x7 x8 x9 x10 x11 x12 x13 V) (hL : Live318 x0 x1 x2 x3 x4 x5 x6 x7 x8 x9 x10 x11 x12 x13 V) :
    Args x0 x1 x2 x3 x4 x5 x6 x7 x8 x9 x10 x11 x12 x13 ((unary main_v260 main_v261 (broadcastInDim S800000x1 ![0] bcast_S800000_S800000x1_0 : (⟨S800000, .i32⟩ : BufTy).Contents (Elt F) → (⟨S800000x1, .i32⟩ : BufTy).Contents (Elt F)) : HloOp τ sig (Elt F)).result V) ∧ Live319 x0 x1 x2 x3 x4 x5 x6 x7 x8 x9 x10 x11 x12 x13 ((unary main_v260 main_v261 (broadcastInDim S800000x1 ![0] bcast_S800000_S800000x1_0 : (⟨S800000, .i32⟩ : BufTy).Contents (Elt F) → (⟨S800000x1, .i32⟩ : BufTy).Contents (Elt F)) : HloOp τ sig (Elt F)).result V) := by
  refine ⟨args_step main_v261 rfl (by decide) hA, ?_⟩
  obtain ⟨h_v131, h_v132, h_v133, h_v134, h_v135, h_v136, h_v149, h_v224, h_v254, h_v255, h_v260⟩ := hL
  exact ⟨(keep main_v261 rfl (by decide)).trans h_v131,
    (keep main_v261 rfl (by decide)).trans h_v132,
    (keep main_v261 rfl (by decide)).trans h_v133,
    (keep main_v261 rfl (by decide)).trans h_v134,
    (keep main_v261 rfl (by decide)).trans h_v135,
    (keep main_v261 rfl (by decide)).trans h_v136,
    (keep main_v261 rfl (by decide)).trans h_v149,
    (keep main_v261 rfl (by decide)).trans h_v224,
    (keep main_v261 rfl (by decide)).trans h_v254,
    (keep main_v261 rfl (by decide)).trans h_v255,
    new_unary h_v260 rfl⟩
theorem step319 (hA : Args x0 x1 x2 x3 x4 x5 x6 x7 x8 x9 x10 x11 x12 x13 V) (hL : Live319 x0 x1 x2 x3 x4 x5 x6 x7 x8 x9 x10 x11 x12 x13 V) :
    Args x0 x1 x2 x3 x4 x5 x6 x7 x8 x9 x10 x11 x12 x13 ((binary main_v254 main_v261 main_v262 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)) : HloOp τ sig (Elt F)).result V) ∧ Live320 x0 x1 x2 x3 x4 x5 x6 x7 x8 x9 x10 x11 x12 x13 ((binary main_v254 main_v261 main_v262 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)) : HloOp τ sig (Elt F)).result V) := by
  refine ⟨args_step main_v262 rfl (by decide) hA, ?_⟩
  obtain ⟨h_v131, h_v132, h_v133, h_v134, h_v135, h_v136, h_v149, h_v224, h_v254, h_v255, h_v261⟩ := hL
  exact ⟨(keep main_v262 rfl (by decide)).trans h_v131,
    (keep main_v262 rfl (by decide)).trans h_v132,
    (keep main_v262 rfl (by decide)).trans h_v133,
    (keep main_v262 rfl (by decide)).trans h_v134,
    (keep main_v262 rfl (by decide)).trans h_v135,
    (keep main_v262 rfl (by decide)).trans h_v136,
    (keep main_v262 rfl (by decide)).trans h_v149,
    (keep main_v262 rfl (by decide)).trans h_v224,
    (keep main_v262 rfl (by decide)).trans h_v255,
    new_binary h_v254 h_v261 rfl⟩
theorem step320 (hA : Args x0 x1 x2 x3 x4 x5 x6 x7 x8 x9 x10 x11 x12 x13 V) (hL : Live320 x0 x1 x2 x3 x4 x5 x6 x7 x8 x9 x10 x11 x12 x13 V) :
    Args x0 x1 x2 x3 x4 x5 x6 x7 x8 x9 x10 x11 x12 x13 ((unary main_v255 main_v263 (broadcastInDim S800000x64 ![0, 1] bcast_S800000x1_S800000x64_0_1 : (⟨S800000x1, .f32⟩ : BufTy).Contents (Elt F) → (⟨S800000x64, .f32⟩ : BufTy).Contents (Elt F)) : HloOp τ sig (Elt F)).result V) ∧ Live321 x0 x1 x2 x3 x4 x5 x6 x7 x8 x9 x10 x11 x12 x13 ((unary main_v255 main_v263 (broadcastInDim S800000x64 ![0, 1] bcast_S800000x1_S800000x64_0_1 : (⟨S800000x1, .f32⟩ : BufTy).Contents (Elt F) → (⟨S800000x64, .f32⟩ : BufTy).Contents (Elt F)) : HloOp τ sig (Elt F)).result V) := by
  refine ⟨args_step main_v263 rfl (by decide) hA, ?_⟩
  obtain ⟨h_v131, h_v132, h_v133, h_v134, h_v135, h_v136, h_v149, h_v224, h_v255, h_v262⟩ := hL
  exact ⟨(keep main_v263 rfl (by decide)).trans h_v131,
    (keep main_v263 rfl (by decide)).trans h_v132,
    (keep main_v263 rfl (by decide)).trans h_v133,
    (keep main_v263 rfl (by decide)).trans h_v134,
    (keep main_v263 rfl (by decide)).trans h_v135,
    (keep main_v263 rfl (by decide)).trans h_v136,
    (keep main_v263 rfl (by decide)).trans h_v149,
    (keep main_v263 rfl (by decide)).trans h_v224,
    (keep main_v263 rfl (by decide)).trans h_v262,
    new_unary h_v255 rfl⟩
theorem step321 (hA : Args x0 x1 x2 x3 x4 x5 x6 x7 x8 x9 x10 x11 x12 x13 V) (hL : Live321 x0 x1 x2 x3 x4 x5 x6 x7 x8 x9 x10 x11 x12 x13 V) :
    Args x0 x1 x2 x3 x4 x5 x6 x7 x8 x9 x10 x11 x12 x13 ((binary main_v263 main_v262 main_v264 (mulf : (⟨S800000x64, .f32⟩ : BufTy).Contents (Elt F) → (⟨S800000x64, .f32⟩ : BufTy).Contents (Elt F) → (⟨S800000x64, .f32⟩ : BufTy).Contents (Elt F)) : HloOp τ sig (Elt F)).result V) ∧ Live322 x0 x1 x2 x3 x4 x5 x6 x7 x8 x9 x10 x11 x12 x13 ((binary main_v263 main_v262 main_v264 (mulf : (⟨S800000x64, .f32⟩ : BufTy).Contents (Elt F) → (⟨S800000x64, .f32⟩ : BufTy).Contents (Elt F) → (⟨S800000x64, .f32⟩ : BufTy).Contents (Elt F)) : HloOp τ sig (Elt F)).result V) := by
  refine ⟨args_step main_v264 rfl (by decide) hA, ?_⟩
  obtain ⟨h_v131, h_v132, h_v133, h_v134, h_v135, h_v136, h_v149, h_v224, h_v262, h_v263⟩ := hL
  exact ⟨(keep main_v264 rfl (by decide)).trans h_v131,
    (keep main_v264 rfl (by decide)).trans h_v132,
    (keep main_v264 rfl (by decide)).trans h_v133,
    (keep main_v264 rfl (by decide)).trans h_v134,
    (keep main_v264 rfl (by decide)).trans h_v135,
    (keep main_v264 rfl (by decide)).trans h_v136,
    (keep main_v264 rfl (by decide)).trans h_v149,
    (keep main_v264 rfl (by decide)).trans h_v224,
    new_binary h_v263 h_v262 rfl⟩
theorem step322 (hA : Args x0 x1 x2 x3 x4 x5 x6 x7 x8 x9 x10 x11 x12 x13 V) (hL : Live322 x0 x1 x2 x3 x4 x5 x6 x7 x8 x9 x10 x11 x12 x13 V) :
    Args x0 x1 x2 x3 x4 x5 x6 x7 x8 x9 x10 x11 x12 x13 ((nullary main_cst_51 (constant S_ .f32 0x00000000#32) : HloOp τ sig (Elt F)).result V) ∧ Live323 x0 x1 x2 x3 x4 x5 x6 x7 x8 x9 x10 x11 x12 x13 ((nullary main_cst_51 (constant S_ .f32 0x00000000#32) : HloOp τ sig (Elt F)).result V) := by
  refine ⟨args_step main_cst_51 rfl (by decide) hA, ?_⟩
  obtain ⟨h_v131, h_v132, h_v133, h_v134, h_v135, h_v136, h_v149, h_v224, h_v264⟩ := hL
  exact ⟨(keep main_cst_51 rfl (by decide)).trans h_v131,
    (keep main_cst_51 rfl (by decide)).trans h_v132,
    (keep main_cst_51 rfl (by decide)).trans h_v133,
    (keep main_cst_51 rfl (by decide)).trans h_v134,
    (keep main_cst_51 rfl (by decide)).trans h_v135,
    (keep main_cst_51 rfl (by decide)).trans h_v136,
    (keep main_cst_51 rfl (by decide)).trans h_v149,
    (keep main_cst_51 rfl (by decide)).trans h_v224,
    (keep main_cst_51 rfl (by decide)).trans h_v264,
    new_nullary rfl⟩
theorem step323 (hA : Args x0 x1 x2 x3 x4 x5 x6 x7 x8 x9 x10 x11 x12 x13 V) (hL : Live323 x0 x1 x2 x3 x4 x5 x6 x7 x8 x9 x10 x11 x12 x13 V) :
    Args x0 x1 x2 x3 x4 x5 x6 x7 x8 x9 x10 x11 x12 x13 ((unary main_cst_51 main_v265 (broadcastInDim S100000x64 ![] bcast_S_S100000x64 : (⟨S_, .f32⟩ : BufTy).Contents (Elt F) → (⟨S100000x64, .f32⟩ : BufTy).Contents (Elt F)) : HloOp τ sig (Elt F)).result V) ∧ Live324 x0 x1 x2 x3 x4 x5 x6 x7 x8 x9 x10 x11 x12 x13 ((unary main_cst_51 main_v265 (broadcastInDim S100000x64 ![] bcast_S_S100000x64 : (⟨S_, .f32⟩ : BufTy).Contents (Elt F) → (⟨S100000x64, .f32⟩ : BufTy).Contents (Elt F)) : HloOp τ sig (Elt F)).result V) := by
  refine ⟨args_step main_v265 rfl (by decide) hA, ?_⟩
  obtain ⟨h_v131, h_v132, h_v133, h_v134, h_v135, h_v136, h_v149, h_v224, h_v264, h_cst_51⟩ := hL
  exact ⟨(keep main_v265 rfl (by decide)).trans h_v131,
    (keep main_v265 rfl (by decide)).trans h_v132,
    (keep main_v265 rfl (by decide)).trans h_v133,
    (keep main_v265 rfl (by decide)).trans h_v134,
    (keep main_v265 rfl (by decide)).trans h_v135,
    (keep main_v265 rfl (by decide)).trans h_v136,
    (keep main_v265 rfl (by decide)).trans h_v149,
    (keep main_v265 rfl (by decide)).trans h_v224,
    (keep main_v265 rfl (by decide)).trans h_v264,
    new_unary h_cst_51 rfl⟩
theorem step324 (hA : Args x0 x1 x2 x3 x4 x5 x6 x7 x8 x9 x10 x11 x12 x13 V) (hL : Live324 x0 x1 x2 x3 x4 x5 x6 x7 x8 x9 x10 x11 x12 x13 V) :
    Args x0 x1 x2 x3 x4 x5 x6 x7 x8 x9 x10 x11 x12 x13 ((unary main_arg1 main_v266 (broadcastInDim S800000x1 ![0] bcast_S800000_S800000x1_0 : (⟨S800000, .i32⟩ : BufTy).Contents (Elt F) → (⟨S800000x1, .i32⟩ : BufTy).Contents (Elt F)) : HloOp τ sig (Elt F)).result V) ∧ Live325 x0 x1 x2 x3 x4 x5 x6 x7 x8 x9 x10 x11 x12 x13 ((unary main_arg1 main_v266 (broadcastInDim S800000x1 ![0] bcast_S800000_S800000x1_0 : (⟨S800000, .i32⟩ : BufTy).Contents (Elt F) → (⟨S800000x1, .i32⟩ : BufTy).Contents (Elt F)) : HloOp τ sig (Elt F)).result V) := by
  refine ⟨args_step main_v266 rfl (by decide) hA, ?_⟩
  unfold Args at hA
  obtain ⟨a0, a1, a2, a3, a4, a5, a6, a7, a8, a9, a10, a11, a12, a13⟩ := hA
  obtain ⟨h_v131, h_v132, h_v133, h_v134, h_v135, h_v136, h_v149, h_v224, h_v264, h_v265⟩ := hL
  exact ⟨(keep main_v266 rfl (by decide)).trans h_v131,
    (keep main_v266 rfl (by decide)).trans h_v132,
    (keep main_v266 rfl (by decide)).trans h_v133,
    (keep main_v266 rfl (by decide)).trans h_v134,
    (keep main_v266 rfl (by decide)).trans h_v135,
    (keep main_v266 rfl (by decide)).trans h_v136,
    (keep main_v266 rfl (by decide)).trans h_v149,
    (keep main_v266 rfl (by decide)).trans h_v224,
    (keep main_v266 rfl (by decide)).trans h_v264,
    (keep main_v266 rfl (by decide)).trans h_v265,
    new_unary a1 rfl⟩
theorem step325 (hA : Args x0 x1 x2 x3 x4 x5 x6 x7 x8 x9 x10 x11 x12 x13 V) (hL : Live325 x0 x1 x2 x3 x4 x5 x6 x7 x8 x9 x10 x11 x12 x13 V) :
    Args x0 x1 x2 x3 x4 x5 x6 x7 x8 x9 x10 x11 x12 x13 ((ternary main_v265 main_v266 main_v264 main_v267 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)) : HloOp τ sig (Elt F)).result V) ∧ Live326 x0 x1 x2 x3 x4 x5 x6 x7 x8 x9 x10 x11 x12 x13 ((ternary main_v265 main_v266 main_v264 main_v267 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)) : HloOp τ sig (Elt F)).result V) := by
  refine ⟨args_step main_v267 rfl (by decide) hA, ?_⟩
  obtain ⟨h_v131, h_v132, h_v133, h_v134, h_v135, h_v136, h_v149, h_v224, h_v264, h_v265, h_v266⟩ := hL
  exact ⟨(keep main_v267 rfl (by decide)).trans h_v131,
    (keep main_v267 rfl (by decide)).trans h_v132,
    (keep main_v267 rfl (by decide)).trans h_v133,
    (keep main_v267 rfl (by decide)).trans h_v134,
    (keep main_v267 rfl (by decide)).trans h_v135,
    (keep main_v267 rfl (by decide)).trans h_v136,
    (keep main_v267 rfl (by decide)).trans h_v149,
    (keep main_v267 rfl (by decide)).trans h_v224,
    new_ternary h_v265 h_v266 h_v264 rfl⟩
theorem step326 (hA : Args x0 x1 x2 x3 x4 x5 x6 x7 x8 x9 x10 x11 x12 x13 V) (hL : Live326 x0 x1 x2 x3 x4 x5 x6 x7 x8 x9 x10 x11 x12 x13 V) :
    Args x0 x1 x2 x3 x4 x5 x6 x7 x8 x9 x10 x11 x12 x13 ((binary main_v149 main_v131 main_v268 (addf : (⟨S100000x64, .f32⟩ : BufTy).Contents (Elt F) → (⟨S100000x64, .f32⟩ : BufTy).Contents (Elt F) → (⟨S100000x64, .f32⟩ : BufTy).Contents (Elt F)) : HloOp τ sig (Elt F)).result V) ∧ Live327 x0 x1 x2 x3 x4 x5 x6 x7 x8 x9 x10 x11 x12 x13 ((binary main_v149 main_v131 main_v268 (addf : (⟨S100000x64, .f32⟩ : BufTy).Contents (Elt F) → (⟨S100000x64, .f32⟩ : BufTy).Contents (Elt F) → (⟨S100000x64, .f32⟩ : BufTy).Contents (Elt F)) : HloOp τ sig (Elt F)).result V) := by
  refine ⟨args_step main_v268 rfl (by decide) hA, ?_⟩
  obtain ⟨h_v131, h_v132, h_v133, h_v134, h_v135, h_v136, h_v149, h_v224, h_v267⟩ := hL
  exact ⟨(keep main_v268 rfl (by decide)).trans h_v132,
    (keep main_v268 rfl (by decide)).trans h_v133,
    (keep main_v268 rfl (by decide)).trans h_v134,
    (keep main_v268 rfl (by decide)).trans h_v135,
    (keep main_v268 rfl (by decide)).trans h_v136,
    (keep main_v268 rfl (by decide)).trans h_v224,
    (keep main_v268 rfl (by decide)).trans h_v267,
    new_binary h_v149 h_v131 rfl⟩
theorem step327 (hA : Args x0 x1 x2 x3 x4 x5 x6 x7 x8 x9 x10 x11 x12 x13 V) (hL : Live327 x0 x1 x2 x3 x4 x5 x6 x7 x8 x9 x10 x11 x12 x13 V) :
    Args x0 x1 x2 x3 x4 x5 x6 x7 x8 x9 x10 x11 x12 x13 ((binary main_v224 main_v132 main_v269 (addf : (⟨S100000x64, .f32⟩ : BufTy).Contents (Elt F) → (⟨S100000x64, .f32⟩ : BufTy).Contents (Elt F) → (⟨S100000x64, .f32⟩ : BufTy).Contents (Elt F)) : HloOp τ sig (Elt F)).result V) ∧ Live328 x0 x1 x2 x3 x4 x5 x6 x7 x8 x9 x10 x11 x12 x13 ((binary main_v224 main_v132 main_v269 (addf : (⟨S100000x64, .f32⟩ : BufTy).Contents (Elt F) → (⟨S100000x64, .f32⟩ : BufTy).Contents (Elt F) → (⟨S100000x64, .f32⟩ : BufTy).Contents (Elt F)) : HloOp τ sig (Elt F)).result V) := by
  refine ⟨args_step main_v269 rfl (by decide) hA, ?_⟩
  obtain ⟨h_v132, h_v133, h_v134, h_v135, h_v136, h_v224, h_v267, h_v268⟩ := hL
  exact ⟨(keep main_v269 rfl (by decide)).trans h_v133,
    (keep main_v269 rfl (by decide)).trans h_v134,
    (keep main_v269 rfl (by decide)).trans h_v135,
    (keep main_v269 rfl (by decide)).trans h_v136,
    (keep main_v269 rfl (by decide)).trans h_v267,
    (keep main_v269 rfl (by decide)).trans h_v268,
    new_binary h_v224 h_v132 rfl⟩
theorem step328 (hA : Args x0 x1 x2 x3 x4 x5 x6 x7 x8 x9 x10 x11 x12 x13 V) (hL : Live328 x0 x1 x2 x3 x4 x5 x6 x7 x8 x9 x10 x11 x12 x13 V) :
    Args x0 x1 x2 x3 x4 x5 x6 x7 x8 x9 x10 x11 x12 x13 ((binary main_v267 main_v133 main_v270 (addf : (⟨S100000x64, .f32⟩ : BufTy).Contents (Elt F) → (⟨S100000x64, .f32⟩ : BufTy).Contents (Elt F) → (⟨S100000x64, .f32⟩ : BufTy).Contents (Elt F)) : HloOp τ sig (Elt F)).result V) ∧ Live329 x0 x1 x2 x3 x4 x5 x6 x7 x8 x9 x10 x11 x12 x13 ((binary main_v267 main_v133 main_v270 (addf : (⟨S100000x64, .f32⟩ : BufTy).Contents (Elt F) → (⟨S100000x64, .f32⟩ : BufTy).Contents (Elt F) → (⟨S100000x64, .f32⟩ : BufTy).Contents (Elt F)) : HloOp τ sig (Elt F)).result V) := by
  refine ⟨args_step main_v270 rfl (by decide) hA, ?_⟩
  obtain ⟨h_v133, h_v134, h_v135, h_v136, h_v267, h_v268, h_v269⟩ := hL
  exact ⟨(keep main_v270 rfl (by decide)).trans h_v134,
    (keep main_v270 rfl (by decide)).trans h_v135,
    (keep main_v270 rfl (by decide)).trans h_v136,
    (keep main_v270 rfl (by decide)).trans h_v268,
    (keep main_v270 rfl (by decide)).trans h_v269,
    new_binary h_v267 h_v133 rfl⟩
theorem step329 (hA : Args x0 x1 x2 x3 x4 x5 x6 x7 x8 x9 x10 x11 x12 x13 V) (hL : Live329 x0 x1 x2 x3 x4 x5 x6 x7 x8 x9 x10 x11 x12 x13 V) :
    Args x0 x1 x2 x3 x4 x5 x6 x7 x8 x9 x10 x11 x12 x13 ((binary main_v134 main_v268 main_v271 (addf : (⟨S100000x64, .f32⟩ : BufTy).Contents (Elt F) → (⟨S100000x64, .f32⟩ : BufTy).Contents (Elt F) → (⟨S100000x64, .f32⟩ : BufTy).Contents (Elt F)) : HloOp τ sig (Elt F)).result V) ∧ Live330 x0 x1 x2 x3 x4 x5 x6 x7 x8 x9 x10 x11 x12 x13 ((binary main_v134 main_v268 main_v271 (addf : (⟨S100000x64, .f32⟩ : BufTy).Contents (Elt F) → (⟨S100000x64, .f32⟩ : BufTy).Contents (Elt F) → (⟨S100000x64, .f32⟩ : BufTy).Contents (Elt F)) : HloOp τ sig (Elt F)).result V) := by
  refine ⟨args_step main_v271 rfl (by decide) hA, ?_⟩
  obtain ⟨h_v134, h_v135, h_v136, h_v268, h_v269, h_v270⟩ := hL
  exact ⟨(keep main_v271 rfl (by decide)).trans h_v135,
    (keep main_v271 rfl (by decide)).trans h_v136,
    (keep main_v271 rfl (by decide)).trans h_v269,
    (keep main_v271 rfl (by decide)).trans h_v270,
    new_binary h_v134 h_v268 rfl⟩
theorem step330 (hA : Args x0 x1 x2 x3 x4 x5 x6 x7 x8 x9 x10 x11 x12 x13 V) (hL : Live330 x0 x1 x2 x3 x4 x5 x6 x7 x8 x9 x10 x11 x12 x13 V) :
    Args x0 x1 x2 x3 x4 x5 x6 x7 x8 x9 x10 x11 x12 x13 ((binary main_v135 main_v269 main_v272 (addf : (⟨S100000x64, .f32⟩ : BufTy).Contents (Elt F) → (⟨S100000x64, .f32⟩ : BufTy).Contents (Elt F) → (⟨S100000x64, .f32⟩ : BufTy).Contents (Elt F)) : HloOp τ sig (Elt F)).result V) ∧ Live331 x0 x1 x2 x3 x4 x5 x6 x7 x8 x9 x10 x11 x12 x13 ((binary main_v135 main_v269 main_v272 (addf : (⟨S100000x64, .f32⟩ : BufTy).Contents (Elt F) → (⟨S100000x64, .f32⟩ : BufTy).Contents (Elt F) → (⟨S100000x64, .f32⟩ : BufTy).Contents (Elt F)) : HloOp τ sig (Elt F)).result V) := by
  refine ⟨args_step main_v272 rfl (by decide) hA, ?_⟩
  obtain ⟨h_v135, h_v136, h_v269, h_v270, h_v271⟩ := hL
  exact ⟨(keep main_v272 rfl (by decide)).trans h_v136,
    (keep main_v272 rfl (by decide)).trans h_v270,
    (keep main_v272 rfl (by decide)).trans h_v271,
    new_binary h_v135 h_v269 rfl⟩
theorem step331 (hA : Args x0 x1 x2 x3 x4 x5 x6 x7 x8 x9 x10 x11 x12 x13 V) (hL : Live331 x0 x1 x2 x3 x4 x5 x6 x7 x8 x9 x10 x11 x12 x13 V) :
    Args x0 x1 x2 x3 x4 x5 x6 x7 x8 x9 x10 x11 x12 x13 ((binary main_v136 main_v270 main_v273 (addf : (⟨S100000x64, .f32⟩ : BufTy).Contents (Elt F) → (⟨S100000x64, .f32⟩ : BufTy).Contents (Elt F) → (⟨S100000x64, .f32⟩ : BufTy).Contents (Elt F)) : HloOp τ sig (Elt F)).result V) ∧ Live332 x0 x1 x2 x3 x4 x5 x6 x7 x8 x9 x10 x11 x12 x13 ((binary main_v136 main_v270 main_v273 (addf : (⟨S100000x64, .f32⟩ : BufTy).Contents (Elt F) → (⟨S100000x64, .f32⟩ : BufTy).Contents (Elt F) → (⟨S100000x64, .f32⟩ : BufTy).Contents (Elt F)) : HloOp τ sig (Elt F)).result V) := by
  refine ⟨args_step main_v273 rfl (by decide) hA, ?_⟩
  obtain ⟨h_v136, h_v270, h_v271, h_v272⟩ := hL
  exact ⟨(keep main_v273 rfl (by decide)).trans h_v271,
    (keep main_v273 rfl (by decide)).trans h_v272,
    new_binary h_v136 h_v270 rfl⟩
theorem step332 (hA : Args x0 x1 x2 x3 x4 x5 x6 x7 x8 x9 x10 x11 x12 x13 V) (hL : Live332 x0 x1 x2 x3 x4 x5 x6 x7 x8 x9 x10 x11 x12 x13 V) :
    Args x0 x1 x2 x3 x4 x5 x6 x7 x8 x9 x10 x11 x12 x13 ((unary main_v271 main_v274 (broadcastInDim S1x100000x64 ![1, 2] bcast_S100000x64_S1x100000x64_1_2 : (⟨S100000x64, .f32⟩ : BufTy).Contents (Elt F) → (⟨S1x100000x64, .f32⟩ : BufTy).Contents (Elt F)) : HloOp τ sig (Elt F)).result V) ∧ Live333 x0 x1 x2 x3 x4 x5 x6 x7 x8 x9 x10 x11 x12 x13 ((unary main_v271 main_v274 (broadcastInDim S1x100000x64 ![1, 2] bcast_S100000x64_S1x100000x64_1_2 : (⟨S100000x64, .f32⟩ : BufTy).Contents (Elt F) → (⟨S1x100000x64, .f32⟩ : BufTy).Contents (Elt F)) : HloOp τ sig (Elt F)).result V) := by
  refine ⟨args_step main_v274 rfl (by decide) hA, ?_⟩
  obtain ⟨h_v271, h_v272, h_v273⟩ := hL
  exact ⟨(keep main_v274 rfl (by decide)).trans h_v272,
    (keep main_v274 rfl (by decide)).trans h_v273,
    new_unary h_v271 rfl⟩
theorem step333 (hA : Args x0 x1 x2 x3 x4 x5 x6 x7 x8 x9 x10 x11 x12 x13 V) (hL : Live333 x0 x1 x2 x3 x4 x5 x6 x7 x8 x9 x10 x11 x12 x13 V) :
    Args x0 x1 x2 x3 x4 x5 x6 x7 x8 x9 x10 x11 x12 x13 ((unary main_v272 main_v275 (broadcastInDim S1x100000x64 ![1, 2] bcast_S100000x64_S1x100000x64_1_2 : (⟨S100000x64, .f32⟩ : BufTy).Contents (Elt F) → (⟨S1x100000x64, .f32⟩ : BufTy).Contents (Elt F)) : HloOp τ sig (Elt F)).result V) ∧ Live334 x0 x1 x2 x3 x4 x5 x6 x7 x8 x9 x10 x11 x12 x13 ((unary main_v272 main_v275 (broadcastInDim S1x100000x64 ![1, 2] bcast_S100000x64_S1x100000x64_1_2 : (⟨S100000x64, .f32⟩ : BufTy).Contents (Elt F) → (⟨S1x100000x64, .f32⟩ : BufTy).Contents (Elt F)) : HloOp τ sig (Elt F)).result V) := by
  refine ⟨args_step main_v275 rfl (by decide) hA, ?_⟩
  obtain ⟨h_v272, h_v273, h_v274⟩ := hL
  exact ⟨(keep main_v275 rfl (by decide)).trans h_v273,
    (keep main_v275 rfl (by decide)).trans h_v274,
    new_unary h_v272 rfl⟩
theorem step334 (hA : Args x0 x1 x2 x3 x4 x5 x6 x7 x8 x9 x10 x11 x12 x13 V) (hL : Live334 x0 x1 x2 x3 x4 x5 x6 x7 x8 x9 x10 x11 x12 x13 V) :
    Args x0 x1 x2 x3 x4 x5 x6 x7 x8 x9 x10 x11 x12 x13 ((unary main_v273 main_v276 (broadcastInDim S1x100000x64 ![1, 2] bcast_S100000x64_S1x100000x64_1_2 : (⟨S100000x64, .f32⟩ : BufTy).Contents (Elt F) → (⟨S1x100000x64, .f32⟩ : BufTy).Contents (Elt F)) : HloOp τ sig (Elt F)).result V) ∧ Live335 x0 x1 x2 x3 x4 x5 x6 x7 x8 x9 x10 x11 x12 x13 ((unary main_v273 main_v276 (broadcastInDim S1x100000x64 ![1, 2] bcast_S100000x64_S1x100000x64_1_2 : (⟨S100000x64, .f32⟩ : BufTy).Contents (Elt F) → (⟨S1x100000x64, .f32⟩ : BufTy).Contents (Elt F)) : HloOp τ sig (Elt F)).result V) := by
  refine ⟨args_step main_v276 rfl (by decide) hA, ?_⟩
  obtain ⟨h_v273, h_v274, h_v275⟩ := hL
  exact ⟨(keep main_v276 rfl (by decide)).trans h_v274,
    (keep main_v276 rfl (by decide)).trans h_v275,
    new_unary h_v273 rfl⟩
theorem step335 (hA : Args x0 x1 x2 x3 x4 x5 x6 x7 x8 x9 x10 x11 x12 x13 V) (hL : Live335 x0 x1 x2 x3 x4 x5 x6 x7 x8 x9 x10 x11 x12 x13 V) :
    Args x0 x1 x2 x3 x4 x5 x6 x7 x8 x9 x10 x11 x12 x13 ((nary ![main_v274, main_v275, main_v276] main_v277 (fun u => concatenate S3x100000x64 0 [⟨S1x100000x64, u 0⟩, ⟨S1x100000x64, u 1⟩, ⟨S1x100000x64, u 2⟩] concatenates_S1x100000x64_S1x100000x64_S1x100000x64_S3x100000x64_d0) : HloOp τ sig (Elt F)).result V) ∧ Live336 x0 x1 x2 x3 x4 x5 x6 x7 x8 x9 x10 x11 x12 x13 ((nary ![main_v274, main_v275, main_v276] main_v277 (fun u => concatenate S3x100000x64 0 [⟨S1x100000x64, u 0⟩, ⟨S1x100000x64, u 1⟩, ⟨S1x100000x64, u 2⟩] concatenates_S1x100000x64_S1x100000x64_S1x100000x64_S3x100000x64_d0) : HloOp τ sig (Elt F)).result V) := by
  refine ⟨args_step main_v277 rfl (by decide) hA, ?_⟩
  obtain ⟨h_v274, h_v275, h_v276⟩ := hL
  exact (by show _ = _; rw [nary_result]; show concatenate _ _ [⟨_, V (Proc.devRef .tc main_v274)⟩, ⟨_, V (Proc.devRef .tc main_v275)⟩, ⟨_, V (Proc.devRef .tc main_v276)⟩] _ = _; rw [h_v274, h_v275, h_v276]; exact rfl)

end Steps

end Cert.ReferenceIdeal.RunHand

end
-- ==== Proof.RefRunHandChunks.lean ====
/- The reference program followed one printed function at a time: the steps of a function's operations chained.
-/
import proofs.«170728_j33028298506953_2_alg».proof.Proof.RefRunHandOps
import proofs.«170728_j33028298506953_2_alg».proof.Proof.RefRunHandStepsA
import proofs.«170728_j33028298506953_2_alg».proof.Proof.RefRunHandStepsB

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

section Chunks

variable (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F))

set_option maxHeartbeats 4000000 in
/-- Through list 0. -/
theorem chunk0 (hA : Args x0 x1 x2 x3 x4 x5 x6 x7 x8 x9 x10 x11 x12 x13 V) (hL : Live0 x0 x1 x2 x3 x4 x5 x6 x7 x8 x9 x10 x11 x12 x13 V) :
    Args x0 x1 x2 x3 x4 x5 x6 x7 x8 x9 x10 x11 x12 x13 (after ops0 V) ∧ Live60 x0 x1 x2 x3 x4 x5 x6 x7 x8 x9 x10 x11 x12 x13 (after ops0 V) := by
  have a0 := hA
  have l0 := hL
  obtain ⟨a1, l1⟩ := step0 x0 x1 x2 x3 x4 x5 x6 x7 x8 x9 x10 x11 x12 x13 _ a0 l0
  obtain ⟨a2, l2⟩ := step1 x0 x1 x2 x3 x4 x5 x6 x7 x8 x9 x10 x11 x12 x13 _ a1 l1
  obtain ⟨a3, l3⟩ := step2 x0 x1 x2 x3 x4 x5 x6 x7 x8 x9 x10 x11 x12 x13 _ a2 l2
  obtain ⟨a4, l4⟩ := step3 x0 x1 x2 x3 x4 x5 x6 x7 x8 x9 x10 x11 x12 x13 _ a3 l3
  obtain ⟨a5, l5⟩ := step4 x0 x1 x2 x3 x4 x5 x6 x7 x8 x9 x10 x11 x12 x13 _ a4 l4
  obtain ⟨a6, l6⟩ := step5 x0 x1 x2 x3 x4 x5 x6 x7 x8 x9 x10 x11 x12 x13 _ a5 l5
  obtain ⟨a7, l7⟩ := step6 x0 x1 x2 x3 x4 x5 x6 x7 x8 x9 x10 x11 x12 x13 _ a6 l6
  obtain ⟨a8, l8⟩ := step7 x0 x1 x2 x3 x4 x5 x6 x7 x8 x9 x10 x11 x12 x13 _ a7 l7
  obtain ⟨a9, l9⟩ := step8 x0 x1 x2 x3 x4 x5 x6 x7 x8 x9 x10 x11 x12 x13 _ a8 l8
  obtain ⟨a10, l10⟩ := step9 x0 x1 x2 x3 x4 x5 x6 x7 x8 x9 x10 x11 x12 x13 _ a9 l9
  obtain ⟨a11, l11⟩ := step10 x0 x1 x2 x3 x4 x5 x6 x7 x8 x9 x10 x11 x12 x13 _ a10 l10
  obtain ⟨a12, l12⟩ := step11 x0 x1 x2 x3 x4 x5 x6 x7 x8 x9 x10 x11 x12 x13 _ a11 l11
  obtain ⟨a13, l13⟩ := step12 x0 x1 x2 x3 x4 x5 x6 x7 x8 x9 x10 x11 x12 x13 _ a12 l12
  obtain ⟨a14, l14⟩ := step13 x0 x1 x2 x3 x4 x5 x6 x7 x8 x9 x10 x11 x12 x13 _ a13 l13
  obtain ⟨a15, l15⟩ := step14 x0 x1 x2 x3 x4 x5 x6 x7 x8 x9 x10 x11 x12 x13 _ a14 l14
  obtain ⟨a16, l16⟩ := step15 x0 x1 x2 x3 x4 x5 x6 x7 x8 x9 x10 x11 x12 x13 _ a15 l15
  obtain ⟨a17, l17⟩ := step16 x0 x1 x2 x3 x4 x5 x6 x7 x8 x9 x10 x11 x12 x13 _ a16 l16
  obtain ⟨a18, l18⟩ := step17 x0 x1 x2 x3 x4 x5 x6 x7 x8 x9 x10 x11 x12 x13 _ a17 l17
  obtain ⟨a19, l19⟩ := step18 x0 x1 x2 x3 x4 x5 x6 x7 x8 x9 x10 x11 x12 x13 _ a18 l18
  obtain ⟨a20, l20⟩ := step19 x0 x1 x2 x3 x4 x5 x6 x7 x8 x9 x10 x11 x12 x13 _ a19 l19
  obtain ⟨a21, l21⟩ := step20 x0 x1 x2 x3 x4 x5 x6 x7 x8 x9 x10 x11 x12 x13 _ a20 l20
  obtain ⟨a22, l22⟩ := step21 x0 x1 x2 x3 x4 x5 x6 x7 x8 x9 x10 x11 x12 x13 _ a21 l21
  obtain ⟨a23, l23⟩ := step22 x0 x1 x2 x3 x4 x5 x6 x7 x8 x9 x10 x11 x12 x13 _ a22 l22
  obtain ⟨a24, l24⟩ := step23 x0 x1 x2 x3 x4 x5 x6 x7 x8 x9 x10 x11 x12 x13 _ a23 l23
  obtain ⟨a25, l25⟩ := step24 x0 x1 x2 x3 x4 x5 x6 x7 x8 x9 x10 x11 x12 x13 _ a24 l24
  obtain ⟨a26, l26⟩ := step25 x0 x1 x2 x3 x4 x5 x6 x7 x8 x9 x10 x11 x12 x13 _ a25 l25
  obtain ⟨a27, l27⟩ := step26 x0 x1 x2 x3 x4 x5 x6 x7 x8 x9 x10 x11 x12 x13 _ a26 l26
  obtain ⟨a28, l28⟩ := step27 x0 x1 x2 x3 x4 x5 x6 x7 x8 x9 x10 x11 x12 x13 _ a27 l27
  obtain ⟨a29, l29⟩ := step28 x0 x1 x2 x3 x4 x5 x6 x7 x8 x9 x10 x11 x12 x13 _ a28 l28
  obtain ⟨a30, l30⟩ := step29 x0 x1 x2 x3 x4 x5 x6 x7 x8 x9 x10 x11 x12 x13 _ a29 l29
  obtain ⟨a31, l31⟩ := step30 x0 x1 x2 x3 x4 x5 x6 x7 x8 x9 x10 x11 x12 x13 _ a30 l30
  obtain ⟨a32, l32⟩ := step31 x0 x1 x2 x3 x4 x5 x6 x7 x8 x9 x10 x11 x12 x13 _ a31 l31
  obtain ⟨a33, l33⟩ := step32 x0 x1 x2 x3 x4 x5 x6 x7 x8 x9 x10 x11 x12 x13 _ a32 l32
  obtain ⟨a34, l34⟩ := step33 x0 x1 x2 x3 x4 x5 x6 x7 x8 x9 x10 x11 x12 x13 _ a33 l33
  obtain ⟨a35, l35⟩ := step34 x0 x1 x2 x3 x4 x5 x6 x7 x8 x9 x10 x11 x12 x13 _ a34 l34
  obtain ⟨a36, l36⟩ := step35 x0 x1 x2 x3 x4 x5 x6 x7 x8 x9 x10 x11 x12 x13 _ a35 l35
  obtain ⟨a37, l37⟩ := step36 x0 x1 x2 x3 x4 x5 x6 x7 x8 x9 x10 x11 x12 x13 _ a36 l36
  obtain ⟨a38, l38⟩ := step37 x0 x1 x2 x3 x4 x5 x6 x7 x8 x9 x10 x11 x12 x13 _ a37 l37
  obtain ⟨a39, l39⟩ := step38 x0 x1 x2 x3 x4 x5 x6 x7 x8 x9 x10 x11 x12 x13 _ a38 l38
  obtain ⟨a40, l40⟩ := step39 x0 x1 x2 x3 x4 x5 x6 x7 x8 x9 x10 x11 x12 x13 _ a39 l39
  obtain ⟨a41, l41⟩ := step40 x0 x1 x2 x3 x4 x5 x6 x7 x8 x9 x10 x11 x12 x13 _ a40 l40
  obtain ⟨a42, l42⟩ := step41 x0 x1 x2 x3 x4 x5 x6 x7 x8 x9 x10 x11 x12 x13 _ a41 l41
  obtain ⟨a43, l43⟩ := step42 x0 x1 x2 x3 x4 x5 x6 x7 x8 x9 x10 x11 x12 x13 _ a42 l42
  obtain ⟨a44, l44⟩ := step43 x0 x1 x2 x3 x4 x5 x6 x7 x8 x9 x10 x11 x12 x13 _ a43 l43
  obtain ⟨a45, l45⟩ := step44 x0 x1 x2 x3 x4 x5 x6 x7 x8 x9 x10 x11 x12 x13 _ a44 l44
  obtain ⟨a46, l46⟩ := step45 x0 x1 x2 x3 x4 x5 x6 x7 x8 x9 x10 x11 x12 x13 _ a45 l45
  obtain ⟨a47, l47⟩ := step46 x0 x1 x2 x3 x4 x5 x6 x7 x8 x9 x10 x11 x12 x13 _ a46 l46
  obtain ⟨a48, l48⟩ := step47 x0 x1 x2 x3 x4 x5 x6 x7 x8 x9 x10 x11 x12 x13 _ a47 l47
  obtain ⟨a49, l49⟩ := step48 x0 x1 x2 x3 x4 x5 x6 x7 x8 x9 x10 x11 x12 x13 _ a48 l48
  obtain ⟨a50, l50⟩ := step49 x0 x1 x2 x3 x4 x5 x6 x7 x8 x9 x10 x11 x12 x13 _ a49 l49
  obtain ⟨a51, l51⟩ := step50 x0 x1 x2 x3 x4 x5 x6 x7 x8 x9 x10 x11 x12 x13 _ a50 l50
  obtain ⟨a52, l52⟩ := step51 x0 x1 x2 x3 x4 x5 x6 x7 x8 x9 x10 x11 x12 x13 _ a51 l51
  obtain ⟨a53, l53⟩ := step52 x0 x1 x2 x3 x4 x5 x6 x7 x8 x9 x10 x11 x12 x13 _ a52 l52
  obtain ⟨a54, l54⟩ := step53 x0 x1 x2 x3 x4 x5 x6 x7 x8 x9 x10 x11 x12 x13 _ a53 l53
  obtain ⟨a55, l55⟩ := step54 x0 x1 x2 x3 x4 x5 x6 x7 x8 x9 x10 x11 x12 x13 _ a54 l54
  obtain ⟨a56, l56⟩ := step55 x0 x1 x2 x3 x4 x5 x6 x7 x8 x9 x10 x11 x12 x13 _ a55 l55
  obtain ⟨a57, l57⟩ := step56 x0 x1 x2 x3 x4 x5 x6 x7 x8 x9 x10 x11 x12 x13 _ a56 l56
  obtain ⟨a58, l58⟩ := step57 x0 x1 x2 x3 x4 x5 x6 x7 x8 x9 x10 x11 x12 x13 _ a57 l57
  obtain ⟨a59, l59⟩ := step58 x0 x1 x2 x3 x4 x5 x6 x7 x8 x9 x10 x11 x12 x13 _ a58 l58
  obtain ⟨a60, l60⟩ := step59 x0 x1 x2 x3 x4 x5 x6 x7 x8 x9 x10 x11 x12 x13 _ a59 l59
  exact ⟨a60, l60⟩

set_option maxHeartbeats 4000000 in
/-- Through list 1. -/
theorem chunk1 (hA : Args x0 x1 x2 x3 x4 x5 x6 x7 x8 x9 x10 x11 x12 x13 V) (hL : Live60 x0 x1 x2 x3 x4 x5 x6 x7 x8 x9 x10 x11 x12 x13 V) :
    Args x0 x1 x2 x3 x4 x5 x6 x7 x8 x9 x10 x11 x12 x13 (after ops1 V) ∧ Live122 x0 x1 x2 x3 x4 x5 x6 x7 x8 x9 x10 x11 x12 x13 (after ops1 V) := by
  have a60 := hA
  have l60 := hL
  obtain ⟨a61, l61⟩ := step60 x0 x1 x2 x3 x4 x5 x6 x7 x8 x9 x10 x11 x12 x13 _ a60 l60
  obtain ⟨a62, l62⟩ := step61 x0 x1 x2 x3 x4 x5 x6 x7 x8 x9 x10 x11 x12 x13 _ a61 l61
  obtain ⟨a63, l63⟩ := step62 x0 x1 x2 x3 x4 x5 x6 x7 x8 x9 x10 x11 x12 x13 _ a62 l62
  obtain ⟨a64, l64⟩ := step63 x0 x1 x2 x3 x4 x5 x6 x7 x8 x9 x10 x11 x12 x13 _ a63 l63
  obtain ⟨a65, l65⟩ := step64 x0 x1 x2 x3 x4 x5 x6 x7 x8 x9 x10 x11 x12 x13 _ a64 l64
  obtain ⟨a66, l66⟩ := step65 x0 x1 x2 x3 x4 x5 x6 x7 x8 x9 x10 x11 x12 x13 _ a65 l65
  obtain ⟨a67, l67⟩ := step66 x0 x1 x2 x3 x4 x5 x6 x7 x8 x9 x10 x11 x12 x13 _ a66 l66
  obtain ⟨a68, l68⟩ := step67 x0 x1 x2 x3 x4 x5 x6 x7 x8 x9 x10 x11 x12 x13 _ a67 l67
  obtain ⟨a69, l69⟩ := step68 x0 x1 x2 x3 x4 x5 x6 x7 x8 x9 x10 x11 x12 x13 _ a68 l68
  obtain ⟨a70, l70⟩ := step69 x0 x1 x2 x3 x4 x5 x6 x7 x8 x9 x10 x11 x12 x13 _ a69 l69
  obtain ⟨a71, l71⟩ := step70 x0 x1 x2 x3 x4 x5 x6 x7 x8 x9 x10 x11 x12 x13 _ a70 l70
  obtain ⟨a72, l72⟩ := step71 x0 x1 x2 x3 x4 x5 x6 x7 x8 x9 x10 x11 x12 x13 _ a71 l71
  obtain ⟨a73, l73⟩ := step72 x0 x1 x2 x3 x4 x5 x6 x7 x8 x9 x10 x11 x12 x13 _ a72 l72
  obtain ⟨a74, l74⟩ := step73 x0 x1 x2 x3 x4 x5 x6 x7 x8 x9 x10 x11 x12 x13 _ a73 l73
  obtain ⟨a75, l75⟩ := step74 x0 x1 x2 x3 x4 x5 x6 x7 x8 x9 x10 x11 x12 x13 _ a74 l74
  obtain ⟨a76, l76⟩ := step75 x0 x1 x2 x3 x4 x5 x6 x7 x8 x9 x10 x11 x12 x13 _ a75 l75
  obtain ⟨a77, l77⟩ := step76 x0 x1 x2 x3 x4 x5 x6 x7 x8 x9 x10 x11 x12 x13 _ a76 l76
  obtain ⟨a78, l78⟩ := step77 x0 x1 x2 x3 x4 x5 x6 x7 x8 x9 x10 x11 x12 x13 _ a77 l77
  obtain ⟨a79, l79⟩ := step78 x0 x1 x2 x3 x4 x5 x6 x7 x8 x9 x10 x11 x12 x13 _ a78 l78
  obtain ⟨a80, l80⟩ := step79 x0 x1 x2 x3 x4 x5 x6 x7 x8 x9 x10 x11 x12 x13 _ a79 l79
  obtain ⟨a81, l81⟩ := step80 x0 x1 x2 x3 x4 x5 x6 x7 x8 x9 x10 x11 x12 x13 _ a80 l80
  obtain ⟨a82, l82⟩ := step81 x0 x1 x2 x3 x4 x5 x6 x7 x8 x9 x10 x11 x12 x13 _ a81 l81
  obtain ⟨a83, l83⟩ := step82 x0 x1 x2 x3 x4 x5 x6 x7 x8 x9 x10 x11 x12 x13 _ a82 l82
  obtain ⟨a84, l84⟩ := step83 x0 x1 x2 x3 x4 x5 x6 x7 x8 x9 x10 x11 x12 x13 _ a83 l83
  obtain ⟨a85, l85⟩ := step84 x0 x1 x2 x3 x4 x5 x6 x7 x8 x9 x10 x11 x12 x13 _ a84 l84
  obtain ⟨a86, l86⟩ := step85 x0 x1 x2 x3 x4 x5 x6 x7 x8 x9 x10 x11 x12 x13 _ a85 l85
  obtain ⟨a87, l87⟩ := step86 x0 x1 x2 x3 x4 x5 x6 x7 x8 x9 x10 x11 x12 x13 _ a86 l86
  obtain ⟨a88, l88⟩ := step87 x0 x1 x2 x3 x4 x5 x6 x7 x8 x9 x10 x11 x12 x13 _ a87 l87
  obtain ⟨a89, l89⟩ := step88 x0 x1 x2 x3 x4 x5 x6 x7 x8 x9 x10 x11 x12 x13 _ a88 l88
  obtain ⟨a90, l90⟩ := step89 x0 x1 x2 x3 x4 x5 x6 x7 x8 x9 x10 x11 x12 x13 _ a89 l89
  obtain ⟨a91, l91⟩ := step90 x0 x1 x2 x3 x4 x5 x6 x7 x8 x9 x10 x11 x12 x13 _ a90 l90
  obtain ⟨a92, l92⟩ := step91 x0 x1 x2 x3 x4 x5 x6 x7 x8 x9 x10 x11 x12 x13 _ a91 l91
  obtain ⟨a93, l93⟩ := step92 x0 x1 x2 x3 x4 x5 x6 x7 x8 x9 x10 x11 x12 x13 _ a92 l92
  obtain ⟨a94, l94⟩ := step93 x0 x1 x2 x3 x4 x5 x6 x7 x8 x9 x10 x11 x12 x13 _ a93 l93
  obtain ⟨a95, l95⟩ := step94 x0 x1 x2 x3 x4 x5 x6 x7 x8 x9 x10 x11 x12 x13 _ a94 l94
  obtain ⟨a96, l96⟩ := step95 x0 x1 x2 x3 x4 x5 x6 x7 x8 x9 x10 x11 x12 x13 _ a95 l95
  obtain ⟨a97, l97⟩ := step96 x0 x1 x2 x3 x4 x5 x6 x7 x8 x9 x10 x11 x12 x13 _ a96 l96
  obtain ⟨a98, l98⟩ := step97 x0 x1 x2 x3 x4 x5 x6 x7 x8 x9 x10 x11 x12 x13 _ a97 l97
  obtain ⟨a99, l99⟩ := step98 x0 x1 x2 x3 x4 x5 x6 x7 x8 x9 x10 x11 x12 x13 _ a98 l98
  obtain ⟨a100, l100⟩ := step99 x0 x1 x2 x3 x4 x5 x6 x7 x8 x9 x10 x11 x12 x13 _ a99 l99
  obtain ⟨a101, l101⟩ := step100 x0 x1 x2 x3 x4 x5 x6 x7 x8 x9 x10 x11 x12 x13 _ a100 l100
  obtain ⟨a102, l102⟩ := step101 x0 x1 x2 x3 x4 x5 x6 x7 x8 x9 x10 x11 x12 x13 _ a101 l101
  obtain ⟨a103, l103⟩ := step102 x0 x1 x2 x3 x4 x5 x6 x7 x8 x9 x10 x11 x12 x13 _ a102 l102
  obtain ⟨a104, l104⟩ := step103 x0 x1 x2 x3 x4 x5 x6 x7 x8 x9 x10 x11 x12 x13 _ a103 l103
  obtain ⟨a105, l105⟩ := step104 x0 x1 x2 x3 x4 x5 x6 x7 x8 x9 x10 x11 x12 x13 _ a104 l104
  obtain ⟨a106, l106⟩ := step105 x0 x1 x2 x3 x4 x5 x6 x7 x8 x9 x10 x11 x12 x13 _ a105 l105
  obtain ⟨a107, l107⟩ := step106 x0 x1 x2 x3 x4 x5 x6 x7 x8 x9 x10 x11 x12 x13 _ a106 l106
  obtain ⟨a108, l108⟩ := step107 x0 x1 x2 x3 x4 x5 x6 x7 x8 x9 x10 x11 x12 x13 _ a107 l107
  obtain ⟨a109, l109⟩ := step108 x0 x1 x2 x3 x4 x5 x6 x7 x8 x9 x10 x11 x12 x13 _ a108 l108
  obtain ⟨a110, l110⟩ := step109 x0 x1 x2 x3 x4 x5 x6 x7 x8 x9 x10 x11 x12 x13 _ a109 l109
  obtain ⟨a111, l111⟩ := step110 x0 x1 x2 x3 x4 x5 x6 x7 x8 x9 x10 x11 x12 x13 _ a110 l110
  obtain ⟨a112, l112⟩ := step111 x0 x1 x2 x3 x4 x5 x6 x7 x8 x9 x10 x11 x12 x13 _ a111 l111
  obtain ⟨a113, l113⟩ := step112 x0 x1 x2 x3 x4 x5 x6 x7 x8 x9 x10 x11 x12 x13 _ a112 l112
  obtain ⟨a114, l114⟩ := step113 x0 x1 x2 x3 x4 x5 x6 x7 x8 x9 x10 x11 x12 x13 _ a113 l113
  obtain ⟨a115, l115⟩ := step114 x0 x1 x2 x3 x4 x5 x6 x7 x8 x9 x10 x11 x12 x13 _ a114 l114
  obtain ⟨a116, l116⟩ := step115 x0 x1 x2 x3 x4 x5 x6 x7 x8 x9 x10 x11 x12 x13 _ a115 l115
  obtain ⟨a117, l117⟩ := step116 x0 x1 x2 x3 x4 x5 x6 x7 x8 x9 x10 x11 x12 x13 _ a116 l116
  obtain ⟨a118, l118⟩ := step117 x0 x1 x2 x3 x4 x5 x6 x7 x8 x9 x10 x11 x12 x13 _ a117 l117
  obtain ⟨a119, l119⟩ := step118 x0 x1 x2 x3 x4 x5 x6 x7 x8 x9 x10 x11 x12 x13 _ a118 l118
  obtain ⟨a120, l120⟩ := step119 x0 x1 x2 x3 x4 x5 x6 x7 x8 x9 x10 x11 x12 x13 _ a119 l119
  obtain ⟨a121, l121⟩ := step120 x0 x1 x2 x3 x4 x5 x6 x7 x8 x9 x10 x11 x12 x13 _ a120 l120
  obtain ⟨a122, l122⟩ := step121 x0 x1 x2 x3 x4 x5 x6 x7 x8 x9 x10 x11 x12 x13 _ a121 l121
  exact ⟨a122, l122⟩

set_option maxHeartbeats 4000000 in
/-- Through list 2. -/
theorem chunk2 (hA : Args x0 x1 x2 x3 x4 x5 x6 x7 x8 x9 x10 x11 x12 x13 V) (hL : Live122 x0 x1 x2 x3 x4 x5 x6 x7 x8 x9 x10 x11 x12 x13 V) :
    Args x0 x1 x2 x3 x4 x5 x6 x7 x8 x9 x10 x11 x12 x13 (after ops2 V) ∧ Live182 x0 x1 x2 x3 x4 x5 x6 x7 x8 x9 x10 x11 x12 x13 (after ops2 V) := by
  have a122 := hA
  have l122 := hL
  obtain ⟨a123, l123⟩ := step122 x0 x1 x2 x3 x4 x5 x6 x7 x8 x9 x10 x11 x12 x13 _ a122 l122
  obtain ⟨a124, l124⟩ := step123 x0 x1 x2 x3 x4 x5 x6 x7 x8 x9 x10 x11 x12 x13 _ a123 l123
  obtain ⟨a125, l125⟩ := step124 x0 x1 x2 x3 x4 x5 x6 x7 x8 x9 x10 x11 x12 x13 _ a124 l124
  obtain ⟨a126, l126⟩ := step125 x0 x1 x2 x3 x4 x5 x6 x7 x8 x9 x10 x11 x12 x13 _ a125 l125
  obtain ⟨a127, l127⟩ := step126 x0 x1 x2 x3 x4 x5 x6 x7 x8 x9 x10 x11 x12 x13 _ a126 l126
  obtain ⟨a128, l128⟩ := step127 x0 x1 x2 x3 x4 x5 x6 x7 x8 x9 x10 x11 x12 x13 _ a127 l127
  obtain ⟨a129, l129⟩ := step128 x0 x1 x2 x3 x4 x5 x6 x7 x8 x9 x10 x11 x12 x13 _ a128 l128
  obtain ⟨a130, l130⟩ := step129 x0 x1 x2 x3 x4 x5 x6 x7 x8 x9 x10 x11 x12 x13 _ a129 l129
  obtain ⟨a131, l131⟩ := step130 x0 x1 x2 x3 x4 x5 x6 x7 x8 x9 x10 x11 x12 x13 _ a130 l130
  obtain ⟨a132, l132⟩ := step131 x0 x1 x2 x3 x4 x5 x6 x7 x8 x9 x10 x11 x12 x13 _ a131 l131
  obtain ⟨a133, l133⟩ := step132 x0 x1 x2 x3 x4 x5 x6 x7 x8 x9 x10 x11 x12 x13 _ a132 l132
  obtain ⟨a134, l134⟩ := step133 x0 x1 x2 x3 x4 x5 x6 x7 x8 x9 x10 x11 x12 x13 _ a133 l133
  obtain ⟨a135, l135⟩ := step134 x0 x1 x2 x3 x4 x5 x6 x7 x8 x9 x10 x11 x12 x13 _ a134 l134
  obtain ⟨a136, l136⟩ := step135 x0 x1 x2 x3 x4 x5 x6 x7 x8 x9 x10 x11 x12 x13 _ a135 l135
  obtain ⟨a137, l137⟩ := step136 x0 x1 x2 x3 x4 x5 x6 x7 x8 x9 x10 x11 x12 x13 _ a136 l136
  obtain ⟨a138, l138⟩ := step137 x0 x1 x2 x3 x4 x5 x6 x7 x8 x9 x10 x11 x12 x13 _ a137 l137
  obtain ⟨a139, l139⟩ := step138 x0 x1 x2 x3 x4 x5 x6 x7 x8 x9 x10 x11 x12 x13 _ a138 l138
  obtain ⟨a140, l140⟩ := step139 x0 x1 x2 x3 x4 x5 x6 x7 x8 x9 x10 x11 x12 x13 _ a139 l139
  obtain ⟨a141, l141⟩ := step140 x0 x1 x2 x3 x4 x5 x6 x7 x8 x9 x10 x11 x12 x13 _ a140 l140
  obtain ⟨a142, l142⟩ := step141 x0 x1 x2 x3 x4 x5 x6 x7 x8 x9 x10 x11 x12 x13 _ a141 l141
  obtain ⟨a143, l143⟩ := step142 x0 x1 x2 x3 x4 x5 x6 x7 x8 x9 x10 x11 x12 x13 _ a142 l142
  obtain ⟨a144, l144⟩ := step143 x0 x1 x2 x3 x4 x5 x6 x7 x8 x9 x10 x11 x12 x13 _ a143 l143
  obtain ⟨a145, l145⟩ := step144 x0 x1 x2 x3 x4 x5 x6 x7 x8 x9 x10 x11 x12 x13 _ a144 l144
  obtain ⟨a146, l146⟩ := step145 x0 x1 x2 x3 x4 x5 x6 x7 x8 x9 x10 x11 x12 x13 _ a145 l145
  obtain ⟨a147, l147⟩ := step146 x0 x1 x2 x3 x4 x5 x6 x7 x8 x9 x10 x11 x12 x13 _ a146 l146
  obtain ⟨a148, l148⟩ := step147 x0 x1 x2 x3 x4 x5 x6 x7 x8 x9 x10 x11 x12 x13 _ a147 l147
  obtain ⟨a149, l149⟩ := step148 x0 x1 x2 x3 x4 x5 x6 x7 x8 x9 x10 x11 x12 x13 _ a148 l148
  obtain ⟨a150, l150⟩ := step149 x0 x1 x2 x3 x4 x5 x6 x7 x8 x9 x10 x11 x12 x13 _ a149 l149
  obtain ⟨a151, l151⟩ := step150 x0 x1 x2 x3 x4 x5 x6 x7 x8 x9 x10 x11 x12 x13 _ a150 l150
  obtain ⟨a152, l152⟩ := step151 x0 x1 x2 x3 x4 x5 x6 x7 x8 x9 x10 x11 x12 x13 _ a151 l151
  obtain ⟨a153, l153⟩ := step152 x0 x1 x2 x3 x4 x5 x6 x7 x8 x9 x10 x11 x12 x13 _ a152 l152
  obtain ⟨a154, l154⟩ := step153 x0 x1 x2 x3 x4 x5 x6 x7 x8 x9 x10 x11 x12 x13 _ a153 l153
  obtain ⟨a155, l155⟩ := step154 x0 x1 x2 x3 x4 x5 x6 x7 x8 x9 x10 x11 x12 x13 _ a154 l154
  obtain ⟨a156, l156⟩ := step155 x0 x1 x2 x3 x4 x5 x6 x7 x8 x9 x10 x11 x12 x13 _ a155 l155
  obtain ⟨a157, l157⟩ := step156 x0 x1 x2 x3 x4 x5 x6 x7 x8 x9 x10 x11 x12 x13 _ a156 l156
  obtain ⟨a158, l158⟩ := step157 x0 x1 x2 x3 x4 x5 x6 x7 x8 x9 x10 x11 x12 x13 _ a157 l157
  obtain ⟨a159, l159⟩ := step158 x0 x1 x2 x3 x4 x5 x6 x7 x8 x9 x10 x11 x12 x13 _ a158 l158
  obtain ⟨a160, l160⟩ := step159 x0 x1 x2 x3 x4 x5 x6 x7 x8 x9 x10 x11 x12 x13 _ a159 l159
  obtain ⟨a161, l161⟩ := step160 x0 x1 x2 x3 x4 x5 x6 x7 x8 x9 x10 x11 x12 x13 _ a160 l160
  obtain ⟨a162, l162⟩ := step161 x0 x1 x2 x3 x4 x5 x6 x7 x8 x9 x10 x11 x12 x13 _ a161 l161
  obtain ⟨a163, l163⟩ := step162 x0 x1 x2 x3 x4 x5 x6 x7 x8 x9 x10 x11 x12 x13 _ a162 l162
  obtain ⟨a164, l164⟩ := step163 x0 x1 x2 x3 x4 x5 x6 x7 x8 x9 x10 x11 x12 x13 _ a163 l163
  obtain ⟨a165, l165⟩ := step164 x0 x1 x2 x3 x4 x5 x6 x7 x8 x9 x10 x11 x12 x13 _ a164 l164
  obtain ⟨a166, l166⟩ := step165 x0 x1 x2 x3 x4 x5 x6 x7 x8 x9 x10 x11 x12 x13 _ a165 l165
  obtain ⟨a167, l167⟩ := step166 x0 x1 x2 x3 x4 x5 x6 x7 x8 x9 x10 x11 x12 x13 _ a166 l166
  obtain ⟨a168, l168⟩ := step167 x0 x1 x2 x3 x4 x5 x6 x7 x8 x9 x10 x11 x12 x13 _ a167 l167
  obtain ⟨a169, l169⟩ := step168 x0 x1 x2 x3 x4 x5 x6 x7 x8 x9 x10 x11 x12 x13 _ a168 l168
  obtain ⟨a170, l170⟩ := step169 x0 x1 x2 x3 x4 x5 x6 x7 x8 x9 x10 x11 x12 x13 _ a169 l169
  obtain ⟨a171, l171⟩ := step170 x0 x1 x2 x3 x4 x5 x6 x7 x8 x9 x10 x11 x12 x13 _ a170 l170
  obtain ⟨a172, l172⟩ := step171 x0 x1 x2 x3 x4 x5 x6 x7 x8 x9 x10 x11 x12 x13 _ a171 l171
  obtain ⟨a173, l173⟩ := step172 x0 x1 x2 x3 x4 x5 x6 x7 x8 x9 x10 x11 x12 x13 _ a172 l172
  obtain ⟨a174, l174⟩ := step173 x0 x1 x2 x3 x4 x5 x6 x7 x8 x9 x10 x11 x12 x13 _ a173 l173
  obtain ⟨a175, l175⟩ := step174 x0 x1 x2 x3 x4 x5 x6 x7 x8 x9 x10 x11 x12 x13 _ a174 l174
  obtain ⟨a176, l176⟩ := step175 x0 x1 x2 x3 x4 x5 x6 x7 x8 x9 x10 x11 x12 x13 _ a175 l175
  obtain ⟨a177, l177⟩ := step176 x0 x1 x2 x3 x4 x5 x6 x7 x8 x9 x10 x11 x12 x13 _ a176 l176
  obtain ⟨a178, l178⟩ := step177 x0 x1 x2 x3 x4 x5 x6 x7 x8 x9 x10 x11 x12 x13 _ a177 l177
  obtain ⟨a179, l179⟩ := step178 x0 x1 x2 x3 x4 x5 x6 x7 x8 x9 x10 x11 x12 x13 _ a178 l178
  obtain ⟨a180, l180⟩ := step179 x0 x1 x2 x3 x4 x5 x6 x7 x8 x9 x10 x11 x12 x13 _ a179 l179
  obtain ⟨a181, l181⟩ := step180 x0 x1 x2 x3 x4 x5 x6 x7 x8 x9 x10 x11 x12 x13 _ a180 l180
  obtain ⟨a182, l182⟩ := step181 x0 x1 x2 x3 x4 x5 x6 x7 x8 x9 x10 x11 x12 x13 _ a181 l181
  exact ⟨a182, l182⟩

set_option maxHeartbeats 4000000 in
/-- Through list 3. -/
theorem chunk3 (hA : Args x0 x1 x2 x3 x4 x5 x6 x7 x8 x9 x10 x11 x12 x13 V) (hL : Live182 x0 x1 x2 x3 x4 x5 x6 x7 x8 x9 x10 x11 x12 x13 V) :
    Args x0 x1 x2 x3 x4 x5 x6 x7 x8 x9 x10 x11 x12 x13 (after ops3 V) ∧ Live242 x0 x1 x2 x3 x4 x5 x6 x7 x8 x9 x10 x11 x12 x13 (after ops3 V) := by
  have a182 := hA
  have l182 := hL
  obtain ⟨a183, l183⟩ := step182 x0 x1 x2 x3 x4 x5 x6 x7 x8 x9 x10 x11 x12 x13 _ a182 l182
  obtain ⟨a184, l184⟩ := step183 x0 x1 x2 x3 x4 x5 x6 x7 x8 x9 x10 x11 x12 x13 _ a183 l183
  obtain ⟨a185, l185⟩ := step184 x0 x1 x2 x3 x4 x5 x6 x7 x8 x9 x10 x11 x12 x13 _ a184 l184
  obtain ⟨a186, l186⟩ := step185 x0 x1 x2 x3 x4 x5 x6 x7 x8 x9 x10 x11 x12 x13 _ a185 l185
  obtain ⟨a187, l187⟩ := step186 x0 x1 x2 x3 x4 x5 x6 x7 x8 x9 x10 x11 x12 x13 _ a186 l186
  obtain ⟨a188, l188⟩ := step187 x0 x1 x2 x3 x4 x5 x6 x7 x8 x9 x10 x11 x12 x13 _ a187 l187
  obtain ⟨a189, l189⟩ := step188 x0 x1 x2 x3 x4 x5 x6 x7 x8 x9 x10 x11 x12 x13 _ a188 l188
  obtain ⟨a190, l190⟩ := step189 x0 x1 x2 x3 x4 x5 x6 x7 x8 x9 x10 x11 x12 x13 _ a189 l189
  obtain ⟨a191, l191⟩ := step190 x0 x1 x2 x3 x4 x5 x6 x7 x8 x9 x10 x11 x12 x13 _ a190 l190
  obtain ⟨a192, l192⟩ := step191 x0 x1 x2 x3 x4 x5 x6 x7 x8 x9 x10 x11 x12 x13 _ a191 l191
  obtain ⟨a193, l193⟩ := step192 x0 x1 x2 x3 x4 x5 x6 x7 x8 x9 x10 x11 x12 x13 _ a192 l192
  obtain ⟨a194, l194⟩ := step193 x0 x1 x2 x3 x4 x5 x6 x7 x8 x9 x10 x11 x12 x13 _ a193 l193
  obtain ⟨a195, l195⟩ := step194 x0 x1 x2 x3 x4 x5 x6 x7 x8 x9 x10 x11 x12 x13 _ a194 l194
  obtain ⟨a196, l196⟩ := step195 x0 x1 x2 x3 x4 x5 x6 x7 x8 x9 x10 x11 x12 x13 _ a195 l195
  obtain ⟨a197, l197⟩ := step196 x0 x1 x2 x3 x4 x5 x6 x7 x8 x9 x10 x11 x12 x13 _ a196 l196
  obtain ⟨a198, l198⟩ := step197 x0 x1 x2 x3 x4 x5 x6 x7 x8 x9 x10 x11 x12 x13 _ a197 l197
  obtain ⟨a199, l199⟩ := step198 x0 x1 x2 x3 x4 x5 x6 x7 x8 x9 x10 x11 x12 x13 _ a198 l198
  obtain ⟨a200, l200⟩ := step199 x0 x1 x2 x3 x4 x5 x6 x7 x8 x9 x10 x11 x12 x13 _ a199 l199
  obtain ⟨a201, l201⟩ := step200 x0 x1 x2 x3 x4 x5 x6 x7 x8 x9 x10 x11 x12 x13 _ a200 l200
  obtain ⟨a202, l202⟩ := step201 x0 x1 x2 x3 x4 x5 x6 x7 x8 x9 x10 x11 x12 x13 _ a201 l201
  obtain ⟨a203, l203⟩ := step202 x0 x1 x2 x3 x4 x5 x6 x7 x8 x9 x10 x11 x12 x13 _ a202 l202
  obtain ⟨a204, l204⟩ := step203 x0 x1 x2 x3 x4 x5 x6 x7 x8 x9 x10 x11 x12 x13 _ a203 l203
  obtain ⟨a205, l205⟩ := step204 x0 x1 x2 x3 x4 x5 x6 x7 x8 x9 x10 x11 x12 x13 _ a204 l204
  obtain ⟨a206, l206⟩ := step205 x0 x1 x2 x3 x4 x5 x6 x7 x8 x9 x10 x11 x12 x13 _ a205 l205
  obtain ⟨a207, l207⟩ := step206 x0 x1 x2 x3 x4 x5 x6 x7 x8 x9 x10 x11 x12 x13 _ a206 l206
  obtain ⟨a208, l208⟩ := step207 x0 x1 x2 x3 x4 x5 x6 x7 x8 x9 x10 x11 x12 x13 _ a207 l207
  obtain ⟨a209, l209⟩ := step208 x0 x1 x2 x3 x4 x5 x6 x7 x8 x9 x10 x11 x12 x13 _ a208 l208
  obtain ⟨a210, l210⟩ := step209 x0 x1 x2 x3 x4 x5 x6 x7 x8 x9 x10 x11 x12 x13 _ a209 l209
  obtain ⟨a211, l211⟩ := step210 x0 x1 x2 x3 x4 x5 x6 x7 x8 x9 x10 x11 x12 x13 _ a210 l210
  obtain ⟨a212, l212⟩ := step211 x0 x1 x2 x3 x4 x5 x6 x7 x8 x9 x10 x11 x12 x13 _ a211 l211
  obtain ⟨a213, l213⟩ := step212 x0 x1 x2 x3 x4 x5 x6 x7 x8 x9 x10 x11 x12 x13 _ a212 l212
  obtain ⟨a214, l214⟩ := step213 x0 x1 x2 x3 x4 x5 x6 x7 x8 x9 x10 x11 x12 x13 _ a213 l213
  obtain ⟨a215, l215⟩ := step214 x0 x1 x2 x3 x4 x5 x6 x7 x8 x9 x10 x11 x12 x13 _ a214 l214
  obtain ⟨a216, l216⟩ := step215 x0 x1 x2 x3 x4 x5 x6 x7 x8 x9 x10 x11 x12 x13 _ a215 l215
  obtain ⟨a217, l217⟩ := step216 x0 x1 x2 x3 x4 x5 x6 x7 x8 x9 x10 x11 x12 x13 _ a216 l216
  obtain ⟨a218, l218⟩ := step217 x0 x1 x2 x3 x4 x5 x6 x7 x8 x9 x10 x11 x12 x13 _ a217 l217
  obtain ⟨a219, l219⟩ := step218 x0 x1 x2 x3 x4 x5 x6 x7 x8 x9 x10 x11 x12 x13 _ a218 l218
  obtain ⟨a220, l220⟩ := step219 x0 x1 x2 x3 x4 x5 x6 x7 x8 x9 x10 x11 x12 x13 _ a219 l219
  obtain ⟨a221, l221⟩ := step220 x0 x1 x2 x3 x4 x5 x6 x7 x8 x9 x10 x11 x12 x13 _ a220 l220
  obtain ⟨a222, l222⟩ := step221 x0 x1 x2 x3 x4 x5 x6 x7 x8 x9 x10 x11 x12 x13 _ a221 l221
  obtain ⟨a223, l223⟩ := step222 x0 x1 x2 x3 x4 x5 x6 x7 x8 x9 x10 x11 x12 x13 _ a222 l222
  obtain ⟨a224, l224⟩ := step223 x0 x1 x2 x3 x4 x5 x6 x7 x8 x9 x10 x11 x12 x13 _ a223 l223
  obtain ⟨a225, l225⟩ := step224 x0 x1 x2 x3 x4 x5 x6 x7 x8 x9 x10 x11 x12 x13 _ a224 l224
  obtain ⟨a226, l226⟩ := step225 x0 x1 x2 x3 x4 x5 x6 x7 x8 x9 x10 x11 x12 x13 _ a225 l225
  obtain ⟨a227, l227⟩ := step226 x0 x1 x2 x3 x4 x5 x6 x7 x8 x9 x10 x11 x12 x13 _ a226 l226
  obtain ⟨a228, l228⟩ := step227 x0 x1 x2 x3 x4 x5 x6 x7 x8 x9 x10 x11 x12 x13 _ a227 l227
  obtain ⟨a229, l229⟩ := step228 x0 x1 x2 x3 x4 x5 x6 x7 x8 x9 x10 x11 x12 x13 _ a228 l228
  obtain ⟨a230, l230⟩ := step229 x0 x1 x2 x3 x4 x5 x6 x7 x8 x9 x10 x11 x12 x13 _ a229 l229
  obtain ⟨a231, l231⟩ := step230 x0 x1 x2 x3 x4 x5 x6 x7 x8 x9 x10 x11 x12 x13 _ a230 l230
  obtain ⟨a232, l232⟩ := step231 x0 x1 x2 x3 x4 x5 x6 x7 x8 x9 x10 x11 x12 x13 _ a231 l231
  obtain ⟨a233, l233⟩ := step232 x0 x1 x2 x3 x4 x5 x6 x7 x8 x9 x10 x11 x12 x13 _ a232 l232
  obtain ⟨a234, l234⟩ := step233 x0 x1 x2 x3 x4 x5 x6 x7 x8 x9 x10 x11 x12 x13 _ a233 l233
  obtain ⟨a235, l235⟩ := step234 x0 x1 x2 x3 x4 x5 x6 x7 x8 x9 x10 x11 x12 x13 _ a234 l234
  obtain ⟨a236, l236⟩ := step235 x0 x1 x2 x3 x4 x5 x6 x7 x8 x9 x10 x11 x12 x13 _ a235 l235
  obtain ⟨a237, l237⟩ := step236 x0 x1 x2 x3 x4 x5 x6 x7 x8 x9 x10 x11 x12 x13 _ a236 l236
  obtain ⟨a238, l238⟩ := step237 x0 x1 x2 x3 x4 x5 x6 x7 x8 x9 x10 x11 x12 x13 _ a237 l237
  obtain ⟨a239, l239⟩ := step238 x0 x1 x2 x3 x4 x5 x6 x7 x8 x9 x10 x11 x12 x13 _ a238 l238
  obtain ⟨a240, l240⟩ := step239 x0 x1 x2 x3 x4 x5 x6 x7 x8 x9 x10 x11 x12 x13 _ a239 l239
  obtain ⟨a241, l241⟩ := step240 x0 x1 x2 x3 x4 x5 x6 x7 x8 x9 x10 x11 x12 x13 _ a240 l240
  obtain ⟨a242, l242⟩ := step241 x0 x1 x2 x3 x4 x5 x6 x7 x8 x9 x10 x11 x12 x13 _ a241 l241
  exact ⟨a242, l242⟩

set_option maxHeartbeats 4000000 in
/-- Through list 4. -/
theorem chunk4 (hA : Args x0 x1 x2 x3 x4 x5 x6 x7 x8 x9 x10 x11 x12 x13 V) (hL : Live242 x0 x1 x2 x3 x4 x5 x6 x7 x8 x9 x10 x11 x12 x13 V) :
    Args x0 x1 x2 x3 x4 x5 x6 x7 x8 x9 x10 x11 x12 x13 (after ops4 V) ∧ Live304 x0 x1 x2 x3 x4 x5 x6 x7 x8 x9 x10 x11 x12 x13 (after ops4 V) := by
  have a242 := hA
  have l242 := hL
  obtain ⟨a243, l243⟩ := step242 x0 x1 x2 x3 x4 x5 x6 x7 x8 x9 x10 x11 x12 x13 _ a242 l242
  obtain ⟨a244, l244⟩ := step243 x0 x1 x2 x3 x4 x5 x6 x7 x8 x9 x10 x11 x12 x13 _ a243 l243
  obtain ⟨a245, l245⟩ := step244 x0 x1 x2 x3 x4 x5 x6 x7 x8 x9 x10 x11 x12 x13 _ a244 l244
  obtain ⟨a246, l246⟩ := step245 x0 x1 x2 x3 x4 x5 x6 x7 x8 x9 x10 x11 x12 x13 _ a245 l245
  obtain ⟨a247, l247⟩ := step246 x0 x1 x2 x3 x4 x5 x6 x7 x8 x9 x10 x11 x12 x13 _ a246 l246
  obtain ⟨a248, l248⟩ := step247 x0 x1 x2 x3 x4 x5 x6 x7 x8 x9 x10 x11 x12 x13 _ a247 l247
  obtain ⟨a249, l249⟩ := step248 x0 x1 x2 x3 x4 x5 x6 x7 x8 x9 x10 x11 x12 x13 _ a248 l248
  obtain ⟨a250, l250⟩ := step249 x0 x1 x2 x3 x4 x5 x6 x7 x8 x9 x10 x11 x12 x13 _ a249 l249
  obtain ⟨a251, l251⟩ := step250 x0 x1 x2 x3 x4 x5 x6 x7 x8 x9 x10 x11 x12 x13 _ a250 l250
  obtain ⟨a252, l252⟩ := step251 x0 x1 x2 x3 x4 x5 x6 x7 x8 x9 x10 x11 x12 x13 _ a251 l251
  obtain ⟨a253, l253⟩ := step252 x0 x1 x2 x3 x4 x5 x6 x7 x8 x9 x10 x11 x12 x13 _ a252 l252
  obtain ⟨a254, l254⟩ := step253 x0 x1 x2 x3 x4 x5 x6 x7 x8 x9 x10 x11 x12 x13 _ a253 l253
  obtain ⟨a255, l255⟩ := step254 x0 x1 x2 x3 x4 x5 x6 x7 x8 x9 x10 x11 x12 x13 _ a254 l254
  obtain ⟨a256, l256⟩ := step255 x0 x1 x2 x3 x4 x5 x6 x7 x8 x9 x10 x11 x12 x13 _ a255 l255
  obtain ⟨a257, l257⟩ := step256 x0 x1 x2 x3 x4 x5 x6 x7 x8 x9 x10 x11 x12 x13 _ a256 l256
  obtain ⟨a258, l258⟩ := step257 x0 x1 x2 x3 x4 x5 x6 x7 x8 x9 x10 x11 x12 x13 _ a257 l257
  obtain ⟨a259, l259⟩ := step258 x0 x1 x2 x3 x4 x5 x6 x7 x8 x9 x10 x11 x12 x13 _ a258 l258
  obtain ⟨a260, l260⟩ := step259 x0 x1 x2 x3 x4 x5 x6 x7 x8 x9 x10 x11 x12 x13 _ a259 l259
  obtain ⟨a261, l261⟩ := step260 x0 x1 x2 x3 x4 x5 x6 x7 x8 x9 x10 x11 x12 x13 _ a260 l260
  obtain ⟨a262, l262⟩ := step261 x0 x1 x2 x3 x4 x5 x6 x7 x8 x9 x10 x11 x12 x13 _ a261 l261
  obtain ⟨a263, l263⟩ := step262 x0 x1 x2 x3 x4 x5 x6 x7 x8 x9 x10 x11 x12 x13 _ a262 l262
  obtain ⟨a264, l264⟩ := step263 x0 x1 x2 x3 x4 x5 x6 x7 x8 x9 x10 x11 x12 x13 _ a263 l263
  obtain ⟨a265, l265⟩ := step264 x0 x1 x2 x3 x4 x5 x6 x7 x8 x9 x10 x11 x12 x13 _ a264 l264
  obtain ⟨a266, l266⟩ := step265 x0 x1 x2 x3 x4 x5 x6 x7 x8 x9 x10 x11 x12 x13 _ a265 l265
  obtain ⟨a267, l267⟩ := step266 x0 x1 x2 x3 x4 x5 x6 x7 x8 x9 x10 x11 x12 x13 _ a266 l266
  obtain ⟨a268, l268⟩ := step267 x0 x1 x2 x3 x4 x5 x6 x7 x8 x9 x10 x11 x12 x13 _ a267 l267
  obtain ⟨a269, l269⟩ := step268 x0 x1 x2 x3 x4 x5 x6 x7 x8 x9 x10 x11 x12 x13 _ a268 l268
  obtain ⟨a270, l270⟩ := step269 x0 x1 x2 x3 x4 x5 x6 x7 x8 x9 x10 x11 x12 x13 _ a269 l269
  obtain ⟨a271, l271⟩ := step270 x0 x1 x2 x3 x4 x5 x6 x7 x8 x9 x10 x11 x12 x13 _ a270 l270
  obtain ⟨a272, l272⟩ := step271 x0 x1 x2 x3 x4 x5 x6 x7 x8 x9 x10 x11 x12 x13 _ a271 l271
  obtain ⟨a273, l273⟩ := step272 x0 x1 x2 x3 x4 x5 x6 x7 x8 x9 x10 x11 x12 x13 _ a272 l272
  obtain ⟨a274, l274⟩ := step273 x0 x1 x2 x3 x4 x5 x6 x7 x8 x9 x10 x11 x12 x13 _ a273 l273
  obtain ⟨a275, l275⟩ := step274 x0 x1 x2 x3 x4 x5 x6 x7 x8 x9 x10 x11 x12 x13 _ a274 l274
  obtain ⟨a276, l276⟩ := step275 x0 x1 x2 x3 x4 x5 x6 x7 x8 x9 x10 x11 x12 x13 _ a275 l275
  obtain ⟨a277, l277⟩ := step276 x0 x1 x2 x3 x4 x5 x6 x7 x8 x9 x10 x11 x12 x13 _ a276 l276
  obtain ⟨a278, l278⟩ := step277 x0 x1 x2 x3 x4 x5 x6 x7 x8 x9 x10 x11 x12 x13 _ a277 l277
  obtain ⟨a279, l279⟩ := step278 x0 x1 x2 x3 x4 x5 x6 x7 x8 x9 x10 x11 x12 x13 _ a278 l278
  obtain ⟨a280, l280⟩ := step279 x0 x1 x2 x3 x4 x5 x6 x7 x8 x9 x10 x11 x12 x13 _ a279 l279
  obtain ⟨a281, l281⟩ := step280 x0 x1 x2 x3 x4 x5 x6 x7 x8 x9 x10 x11 x12 x13 _ a280 l280
  obtain ⟨a282, l282⟩ := step281 x0 x1 x2 x3 x4 x5 x6 x7 x8 x9 x10 x11 x12 x13 _ a281 l281
  obtain ⟨a283, l283⟩ := step282 x0 x1 x2 x3 x4 x5 x6 x7 x8 x9 x10 x11 x12 x13 _ a282 l282
  obtain ⟨a284, l284⟩ := step283 x0 x1 x2 x3 x4 x5 x6 x7 x8 x9 x10 x11 x12 x13 _ a283 l283
  obtain ⟨a285, l285⟩ := step284 x0 x1 x2 x3 x4 x5 x6 x7 x8 x9 x10 x11 x12 x13 _ a284 l284
  obtain ⟨a286, l286⟩ := step285 x0 x1 x2 x3 x4 x5 x6 x7 x8 x9 x10 x11 x12 x13 _ a285 l285
  obtain ⟨a287, l287⟩ := step286 x0 x1 x2 x3 x4 x5 x6 x7 x8 x9 x10 x11 x12 x13 _ a286 l286
  obtain ⟨a288, l288⟩ := step287 x0 x1 x2 x3 x4 x5 x6 x7 x8 x9 x10 x11 x12 x13 _ a287 l287
  obtain ⟨a289, l289⟩ := step288 x0 x1 x2 x3 x4 x5 x6 x7 x8 x9 x10 x11 x12 x13 _ a288 l288
  obtain ⟨a290, l290⟩ := step289 x0 x1 x2 x3 x4 x5 x6 x7 x8 x9 x10 x11 x12 x13 _ a289 l289
  obtain ⟨a291, l291⟩ := step290 x0 x1 x2 x3 x4 x5 x6 x7 x8 x9 x10 x11 x12 x13 _ a290 l290
  obtain ⟨a292, l292⟩ := step291 x0 x1 x2 x3 x4 x5 x6 x7 x8 x9 x10 x11 x12 x13 _ a291 l291
  obtain ⟨a293, l293⟩ := step292 x0 x1 x2 x3 x4 x5 x6 x7 x8 x9 x10 x11 x12 x13 _ a292 l292
  obtain ⟨a294, l294⟩ := step293 x0 x1 x2 x3 x4 x5 x6 x7 x8 x9 x10 x11 x12 x13 _ a293 l293
  obtain ⟨a295, l295⟩ := step294 x0 x1 x2 x3 x4 x5 x6 x7 x8 x9 x10 x11 x12 x13 _ a294 l294
  obtain ⟨a296, l296⟩ := step295 x0 x1 x2 x3 x4 x5 x6 x7 x8 x9 x10 x11 x12 x13 _ a295 l295
  obtain ⟨a297, l297⟩ := step296 x0 x1 x2 x3 x4 x5 x6 x7 x8 x9 x10 x11 x12 x13 _ a296 l296
  obtain ⟨a298, l298⟩ := step297 x0 x1 x2 x3 x4 x5 x6 x7 x8 x9 x10 x11 x12 x13 _ a297 l297
  obtain ⟨a299, l299⟩ := step298 x0 x1 x2 x3 x4 x5 x6 x7 x8 x9 x10 x11 x12 x13 _ a298 l298
  obtain ⟨a300, l300⟩ := step299 x0 x1 x2 x3 x4 x5 x6 x7 x8 x9 x10 x11 x12 x13 _ a299 l299
  obtain ⟨a301, l301⟩ := step300 x0 x1 x2 x3 x4 x5 x6 x7 x8 x9 x10 x11 x12 x13 _ a300 l300
  obtain ⟨a302, l302⟩ := step301 x0 x1 x2 x3 x4 x5 x6 x7 x8 x9 x10 x11 x12 x13 _ a301 l301
  obtain ⟨a303, l303⟩ := step302 x0 x1 x2 x3 x4 x5 x6 x7 x8 x9 x10 x11 x12 x13 _ a302 l302
  obtain ⟨a304, l304⟩ := step303 x0 x1 x2 x3 x4 x5 x6 x7 x8 x9 x10 x11 x12 x13 _ a303 l303
  exact ⟨a304, l304⟩

set_option maxHeartbeats 4000000 in
/-- Through list 5. -/
theorem chunk5 (hA : Args x0 x1 x2 x3 x4 x5 x6 x7 x8 x9 x10 x11 x12 x13 V) (hL : Live304 x0 x1 x2 x3 x4 x5 x6 x7 x8 x9 x10 x11 x12 x13 V) :
    Args x0 x1 x2 x3 x4 x5 x6 x7 x8 x9 x10 x11 x12 x13 (after ops5 V) ∧ Live336 x0 x1 x2 x3 x4 x5 x6 x7 x8 x9 x10 x11 x12 x13 (after ops5 V) := by
  have a304 := hA
  have l304 := hL
  obtain ⟨a305, l305⟩ := step304 x0 x1 x2 x3 x4 x5 x6 x7 x8 x9 x10 x11 x12 x13 _ a304 l304
  obtain ⟨a306, l306⟩ := step305 x0 x1 x2 x3 x4 x5 x6 x7 x8 x9 x10 x11 x12 x13 _ a305 l305
  obtain ⟨a307, l307⟩ := step306 x0 x1 x2 x3 x4 x5 x6 x7 x8 x9 x10 x11 x12 x13 _ a306 l306
  obtain ⟨a308, l308⟩ := step307 x0 x1 x2 x3 x4 x5 x6 x7 x8 x9 x10 x11 x12 x13 _ a307 l307
  obtain ⟨a309, l309⟩ := step308 x0 x1 x2 x3 x4 x5 x6 x7 x8 x9 x10 x11 x12 x13 _ a308 l308
  obtain ⟨a310, l310⟩ := step309 x0 x1 x2 x3 x4 x5 x6 x7 x8 x9 x10 x11 x12 x13 _ a309 l309
  obtain ⟨a311, l311⟩ := step310 x0 x1 x2 x3 x4 x5 x6 x7 x8 x9 x10 x11 x12 x13 _ a310 l310
  obtain ⟨a312, l312⟩ := step311 x0 x1 x2 x3 x4 x5 x6 x7 x8 x9 x10 x11 x12 x13 _ a311 l311
  obtain ⟨a313, l313⟩ := step312 x0 x1 x2 x3 x4 x5 x6 x7 x8 x9 x10 x11 x12 x13 _ a312 l312
  obtain ⟨a314, l314⟩ := step313 x0 x1 x2 x3 x4 x5 x6 x7 x8 x9 x10 x11 x12 x13 _ a313 l313
  obtain ⟨a315, l315⟩ := step314 x0 x1 x2 x3 x4 x5 x6 x7 x8 x9 x10 x11 x12 x13 _ a314 l314
  obtain ⟨a316, l316⟩ := step315 x0 x1 x2 x3 x4 x5 x6 x7 x8 x9 x10 x11 x12 x13 _ a315 l315
  obtain ⟨a317, l317⟩ := step316 x0 x1 x2 x3 x4 x5 x6 x7 x8 x9 x10 x11 x12 x13 _ a316 l316
  obtain ⟨a318, l318⟩ := step317 x0 x1 x2 x3 x4 x5 x6 x7 x8 x9 x10 x11 x12 x13 _ a317 l317
  obtain ⟨a319, l319⟩ := step318 x0 x1 x2 x3 x4 x5 x6 x7 x8 x9 x10 x11 x12 x13 _ a318 l318
  obtain ⟨a320, l320⟩ := step319 x0 x1 x2 x3 x4 x5 x6 x7 x8 x9 x10 x11 x12 x13 _ a319 l319
  obtain ⟨a321, l321⟩ := step320 x0 x1 x2 x3 x4 x5 x6 x7 x8 x9 x10 x11 x12 x13 _ a320 l320
  obtain ⟨a322, l322⟩ := step321 x0 x1 x2 x3 x4 x5 x6 x7 x8 x9 x10 x11 x12 x13 _ a321 l321
  obtain ⟨a323, l323⟩ := step322 x0 x1 x2 x3 x4 x5 x6 x7 x8 x9 x10 x11 x12 x13 _ a322 l322
  obtain ⟨a324, l324⟩ := step323 x0 x1 x2 x3 x4 x5 x6 x7 x8 x9 x10 x11 x12 x13 _ a323 l323
  obtain ⟨a325, l325⟩ := step324 x0 x1 x2 x3 x4 x5 x6 x7 x8 x9 x10 x11 x12 x13 _ a324 l324
  obtain ⟨a326, l326⟩ := step325 x0 x1 x2 x3 x4 x5 x6 x7 x8 x9 x10 x11 x12 x13 _ a325 l325
  obtain ⟨a327, l327⟩ := step326 x0 x1 x2 x3 x4 x5 x6 x7 x8 x9 x10 x11 x12 x13 _ a326 l326
  obtain ⟨a328, l328⟩ := step327 x0 x1 x2 x3 x4 x5 x6 x7 x8 x9 x10 x11 x12 x13 _ a327 l327
  obtain ⟨a329, l329⟩ := step328 x0 x1 x2 x3 x4 x5 x6 x7 x8 x9 x10 x11 x12 x13 _ a328 l328
  obtain ⟨a330, l330⟩ := step329 x0 x1 x2 x3 x4 x5 x6 x7 x8 x9 x10 x11 x12 x13 _ a329 l329
  obtain ⟨a331, l331⟩ := step330 x0 x1 x2 x3 x4 x5 x6 x7 x8 x9 x10 x11 x12 x13 _ a330 l330
  obtain ⟨a332, l332⟩ := step331 x0 x1 x2 x3 x4 x5 x6 x7 x8 x9 x10 x11 x12 x13 _ a331 l331
  obtain ⟨a333, l333⟩ := step332 x0 x1 x2 x3 x4 x5 x6 x7 x8 x9 x10 x11 x12 x13 _ a332 l332
  obtain ⟨a334, l334⟩ := step333 x0 x1 x2 x3 x4 x5 x6 x7 x8 x9 x10 x11 x12 x13 _ a333 l333
  obtain ⟨a335, l335⟩ := step334 x0 x1 x2 x3 x4 x5 x6 x7 x8 x9 x10 x11 x12 x13 _ a334 l334
  obtain ⟨a336, l336⟩ := step335 x0 x1 x2 x3 x4 x5 x6 x7 x8 x9 x10 x11 x12 x13 _ a335 l335
  exact ⟨a336, l336⟩

end Chunks

end Cert.ReferenceIdeal.RunHand

end
-- ==== Proof.RefRunHand.lean ====
/-
  The run of the reference program, read back.

  On every device, from any memory, every weakly fair execution of the program terminates; at the end the result
  array holds the last stage of the program — the value its operations compute, one after the other, from the
  contents of the fourteen argument arrays at launch — and the argument arrays hold what they held at launch.

  The program is its six printed functions run in order, and each runs its list of operations, so the program runs
  the six lists appended. The library runs a straight line of operations to the fold of their results over the launch
  contents. Following that fold one list at a time (each list one operation at a time) keeps "the arguments as
  launched, every result still to be read at its stage" true from the start, where nothing has been written, to the
  end, where it says the result array holds the last stage.
-/
import proofs.«170728_j33028298506953_2_alg».proof.Proof.RefRead
import proofs.«170728_j33028298506953_2_alg».proof.Proof.RefRunHandOps
import proofs.«170728_j33028298506953_2_alg».proof.Proof.RefRunHandBase
import proofs.«170728_j33028298506953_2_alg».proof.Proof.RefRunHandLive
import proofs.«170728_j33028298506953_2_alg».proof.Proof.RefRunHandChunks
import Idealize.ShloMosaic.Lib.Pipeline.Frame

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

/-! ## The program as one list -/

/-- The whole program's operations, in order. -/
def ops : List (HloOp τ sig (Elt F)) := ops0 ++ (ops1 ++ (ops2 ++ (ops3 ++ (ops4 ++ ops5))))

/-- Running the program is running its operations in order: the six printed functions one after the other are the six
    lists appended. -/
theorem main_eq (c : Dev nD) : main (F := F) c = seq ops := by
  unfold ops
  rw [seq_append, seq_append, seq_append, seq_append, seq_append,
    ← part0_eq c, ← part1_eq c, ← part2_eq c, ← part3_eq c, ← part4_eq c, ← part5_eq c]
  rfl

/-- The device has no array that lives only inside a kernel launch, -/
theorem scopedRefs_eq : (Finset.univ.filter fun b : Ref sig .tc => b.isScoped) = ∅ := by decide
/-- and no such semaphore. -/
theorem scopedSems_eq : (Finset.univ.filter fun sm : SemLoc sig => sm.isScoped .tc) = ∅ := by decide

/-- A property of every element of two lists holds of every element of their concatenation. -/
theorem forall_append {α : Type} {p : α → Prop} {l₁ l₂ : List α} (h₁ : l₁.Forall p) (h₂ : l₂.Forall p) : (l₁ ++ l₂).Forall p :=
  List.forall_iff_forall_mem.mpr fun x hx => (List.mem_append.mp hx).elim
    (List.forall_iff_forall_mem.mp h₁ x) (List.forall_iff_forall_mem.mp h₂ x)

/-- Every operation touches only arrays of the device. -/
theorem ops_sub : (ops : List (HloOp τ sig (Elt F))).Forall fun op => op.bufs ⊆ tcRefs τ sig :=
  forall_append ops0_sub (forall_append ops1_sub (forall_append ops2_sub (forall_append ops3_sub (forall_append ops4_sub ops5_sub))))

/-- No operation leaves a result undetermined. -/
theorem ops_fresh : ∀ op ∈ (ops : List (HloOp τ sig (Elt F))), op.fresh = ∅ :=
  List.forall_iff_forall_mem.mp
    (forall_append ops0_fresh (forall_append ops1_fresh (forall_append ops2_fresh (forall_append ops3_fresh (forall_append ops4_fresh ops5_fresh)))))

/-! ## Through the whole program -/

/-- From contents at which the arguments hold `x0`, …, `x13`: after all the operations the arguments still hold them
    and the result array holds the last stage. Nothing is to be read before the first operation, so the statement about
    earlier results is empty at the start; the six lists carry it to the end. -/
theorem after_ops (x0 : (⟨S100000x64, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S2x800000, .f32⟩ : BufTy).Contents (Elt F)) (x5 : (⟨S2x100000x64, .f32⟩ : BufTy).Contents (Elt F)) (x6 : (⟨S2x128x64, .f32⟩ : BufTy).Contents (Elt F)) (x7 : (⟨S2x64, .f32⟩ : BufTy).Contents (Elt F)) (x8 : (⟨S2x64x1, .f32⟩ : BufTy).Contents (Elt F)) (x9 : (⟨S2x1, .f32⟩ : BufTy).Contents (Elt F)) (x10 : (⟨S2x64x64, .f32⟩ : BufTy).Contents (Elt F)) (x11 : (⟨S2x64, .f32⟩ : BufTy).Contents (Elt F)) (x12 : (⟨S2x64x64, .f32⟩ : BufTy).Contents (Elt F)) (x13 : (⟨S2x64, .f32⟩ : BufTy).Contents (Elt F)) (V : Valuation τ sig (Elt F)) (hA : Args x0 x1 x2 x3 x4 x5 x6 x7 x8 x9 x10 x11 x12 x13 V) :
    Args x0 x1 x2 x3 x4 x5 x6 x7 x8 x9 x10 x11 x12 x13 (after ops V) ∧ after ops V (Proc.devRef .tc main_v277) = ReadP.val_main_v277 (F := F) x0 x1 x2 x3 x4 x5 x6 x7 x8 x9 x10 x11 x12 x13 := by
  unfold ops
  rw [after_append, after_append, after_append, after_append, after_append]
  obtain ⟨a1, l1⟩ := chunk0 x0 x1 x2 x3 x4 x5 x6 x7 x8 x9 x10 x11 x12 x13 V hA trivial
  obtain ⟨a2, l2⟩ := chunk1 x0 x1 x2 x3 x4 x5 x6 x7 x8 x9 x10 x11 x12 x13 _ a1 l1
  obtain ⟨a3, l3⟩ := chunk2 x0 x1 x2 x3 x4 x5 x6 x7 x8 x9 x10 x11 x12 x13 _ a2 l2
  obtain ⟨a4, l4⟩ := chunk3 x0 x1 x2 x3 x4 x5 x6 x7 x8 x9 x10 x11 x12 x13 _ a3 l3
  obtain ⟨a5, l5⟩ := chunk4 x0 x1 x2 x3 x4 x5 x6 x7 x8 x9 x10 x11 x12 x13 _ a4 l4
  obtain ⟨a6, l6⟩ := chunk5 x0 x1 x2 x3 x4 x5 x6 x7 x8 x9 x10 x11 x12 x13 _ a5 l5
  exact ⟨a6, l6⟩

/-! ## The run -/

/-- From any memory with zero counters: the program terminates, the result array at the last stage of the launch
    contents of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v277) = Cert.ReferenceIdeal.ReadP.val_main_v277 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => by
      obtain ⟨hA, hR⟩ := after_ops (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
        (launchContents m c) (by unfold Args; exact ⟨rfl, rfl, rfl, rfl, rfl, rfl, rfl, rfl, rfl, rfl, rfl, rfl, rfl, rfl⟩)
      unfold Args at hA
      obtain ⟨a0, a1, a2, a3, a4, a5, a6, a7, a8, a9, a10, a11, a12, a13⟩ := hA
      exact ⟨(h c main_v277).trans hR, (h c main_arg0).trans a0, (h c main_arg1).trans a1, (h c main_arg2).trans a2, (h c main_arg3).trans a3, (h c main_arg4).trans a4, (h c main_arg5).trans a5, (h c main_arg6).trans a6, (h c main_arg7).trans a7, (h c main_arg8).trans a8, (h c main_arg9).trans a9, (h c main_arg10).trans a10, (h c main_arg11).trans a11, (h c main_arg12).trans a12, (h c main_arg13).trans a13⟩)
    (run_seq scopedRefs_eq scopedSems_eq defs main (fun _ => ops) main_eq (fun _ => ops_sub) m ρ (fun _ => ops_fresh))

end Cert.ReferenceIdeal.RunHand

end
-- ==== Proof.LibFusedGather.lean ====
import Idealize.ShloMosaic.Lib.ValueIdx
import Idealize.ShloMosaic.Lib.Pipeline.Value

/-!
# A row gather of three arrays laid side by side

Three arrays of 64 columns each, over the same rows, are laid side by side into one array of 192 columns; rows of that
wide array are gathered at a list of row numbers; the result is cut back into its three bands of 64 columns. Band k of
the gathered wide array is the row gather of the k-th array alone: a gathered row is copied whole, so cutting before or
after the gather reads the same entries.

The statements are over any numbers of rows (of the arrays and of the list), with the operations' dimension records
given by their fields, so that they apply to a printed program's records by unfolding.
-/

open scoped BigOperators

namespace Cert.LibFused

open Idealize.ShloMosaic Idealize.ShloMosaic.ValueIdx

variable {α : Type}

/-- The dimension numbers of a gather of whole rows: operand `[N, C]`, one row number per result row (start indices
    `[E, 1]`), result `[E, C]`. -/
abbrev rowDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start index names: read signed, clamped into the operand's rows. -/
def rowOf {N E w : Nat} (hN : 0 < N) (idx : IVec ⟨2, ![E, 1]⟩ w) (e : Fin E) : Fin N :=
  ⟨min (idx (ix2 e 0)).toInt.toNat (N - 1), by omega⟩

/-- A gather of whole rows read at `(e, q)`: the operand at the row the `e`-th start index names, column `q`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowDims N E C wf) x idx (ix2 e q) = x (ix2 (rowOf hN idx e) q) := by
  have h0 : ((rowDims N E C wf).operandIdx (ix2 e q) idx (0 : Fin 2)).val = (rowOf hN idx e).val := by
    show (rowDims N E C wf).start (ix2 e q) idx 0 + (rowDims N E C wf).batchCoord (ix2 e q) 0
        + (rowDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e q) ⟨List.idxOf (0 : Fin 2) (rowDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  have h1 : ((rowDims N E C wf).operandIdx (ix2 e q) idx (1 : Fin 2)).val = q.val := by
    show (rowDims N E C wf).start (ix2 e q) idx 1 + (rowDims N E C wf).batchCoord (ix2 e q) 1
        + (rowDims N E C wf).offCoord (ix2 e q) 1 = _
    rw [GatherDims.batchCoord_eq_zero _ _ _ List.not_mem_nil]
    have hn : (1 : Fin 2) ∉ (rowDims N E C wf).startIndexMap :=
      fun h => absurd (List.mem_singleton.mp h) (show ¬((1 : Fin 2) = 0) from by decide)
    have hk : (1 : Fin 2) ∈ (rowDims N E C wf).sKept :=
      (GatherDims.mem_sKept _ _).2 ⟨fun h => absurd (List.mem_singleton.mp h) (show ¬((1 : Fin 2) = 0) from by decide), List.not_mem_nil⟩
    unfold GatherDims.start GatherDims.offCoord
    rw [dif_neg hn, dif_pos hk]
    simp only [Nat.add_zero, Nat.zero_add, List.getElem_singleton]
    rfl
  unfold Host.gather
  congr 1
  funext a
  refine Fin.ext ?_
  match a with
  | ⟨0, _⟩ => exact h0
  | ⟨1, _⟩ => exact h1

/-- A column band cut out of an array of `C` columns, read at `(e, q)`: the array at column `off + q`. -/
theorem band_apply {E C B : Nat} (off : Nat) (hs : (⟨2, ![E, C]⟩ : Shape).Slices ![0, off] ⟨2, ![E, B]⟩)
    (x : (⟨2, ![E, C]⟩ : Shape).Idx → α) (e : Fin E) (q : Fin B) (hq : off + q.val < C) :
    extractStridedSlice ⟨2, ![E, B]⟩ ![0, off] x hs (ix2 e q) = x (ix2 e ⟨off + q.val, hq⟩) := by
  unfold extractStridedSlice
  congr 1
  funext a
  refine Fin.ext ?_
  match a with
  | ⟨0, _⟩ => exact Nat.zero_add _
  | ⟨1, _⟩ => rfl

/-- Three arrays of 64 columns laid side by side, read at row `r` and column `64 k + q`: the `k`-th array at
    `(r, q)`. -/
theorem concat3_apply {N : Nat}
    (hc : Shape.Concatenates [⟨2, ![N, 64]⟩, ⟨2, ![N, 64]⟩, ⟨2, ![N, 64]⟩] ⟨2, ![N, 192]⟩ 1)
    (a0 a1 a2 : (⟨2, ![N, 64]⟩ : Shape).Idx → α) (r : Fin N) (q : Fin 64) :
    concatenate ⟨2, ![N, 192]⟩ 1 [⟨⟨2, ![N, 64]⟩, a0⟩, ⟨⟨2, ![N, 64]⟩, a1⟩, ⟨⟨2, ![N, 64]⟩, a2⟩] hc
        (ix2 r ⟨0 + q.val, by omega⟩) = a0 (ix2 r q)
    ∧ concatenate ⟨2, ![N, 192]⟩ 1 [⟨⟨2, ![N, 64]⟩, a0⟩, ⟨⟨2, ![N, 64]⟩, a1⟩, ⟨⟨2, ![N, 64]⟩, a2⟩] hc
        (ix2 r ⟨64 + q.val, by omega⟩) = a1 (ix2 r q)
    ∧ concatenate ⟨2, ![N, 192]⟩ 1 [⟨⟨2, ![N, 64]⟩, a0⟩, ⟨⟨2, ![N, 64]⟩, a1⟩, ⟨⟨2, ![N, 64]⟩, a2⟩] hc
        (ix2 r ⟨128 + q.val, by omega⟩) = a2 (ix2 r q) := by
  have hi : ∀ (j : Fin 192) (b : Fin 2), b.cast (rfl : (2 : Nat) = 2) ≠ (1 : Fin 2) →
      ((ix2 r q : (⟨2, ![N, 64]⟩ : Shape).Idx) b).val
        = ((ix2 r j : (⟨2, ![N, 192]⟩ : Shape).Idx) (b.cast (rfl : (2 : Nat) = 2))).val := by
    intro j b hb
    match b with
    | ⟨0, _⟩ => rfl
    | ⟨1, _⟩ => exact absurd rfl hb
  refine ⟨?_, ?_, ?_⟩
  · exact concatenate_apply_piece (t := ⟨2, ![N, 192]⟩) (1 : Fin 2)
      [⟨⟨2, ![N, 64]⟩, a0⟩, ⟨⟨2, ![N, 64]⟩, a1⟩, ⟨⟨2, ![N, 64]⟩, a2⟩] hc _ 0 (by simp) ⟨2, ![N, 64]⟩ a0 rfl rfl 0 rfl (ix2 r q)
      (hi _) rfl
  · exact concatenate_apply_piece (t := ⟨2, ![N, 192]⟩) (1 : Fin 2)
      [⟨⟨2, ![N, 64]⟩, a0⟩, ⟨⟨2, ![N, 64]⟩, a1⟩, ⟨⟨2, ![N, 64]⟩, a2⟩] hc _ 1 (by simp) ⟨2, ![N, 64]⟩ a1 rfl rfl 64 rfl (ix2 r q)
      (hi _) rfl
  · exact concatenate_apply_piece (t := ⟨2, ![N, 192]⟩) (1 : Fin 2)
      [⟨⟨2, ![N, 64]⟩, a0⟩, ⟨⟨2, ![N, 64]⟩, a1⟩, ⟨⟨2, ![N, 64]⟩, a2⟩] hc _ 2 (by simp) ⟨2, ![N, 64]⟩ a2 rfl rfl 128 rfl (ix2 r q)
      (hi _) rfl

/-- **Band k of the row gather of three arrays side by side is the row gather of the k-th array** (k = 0, 1, 2, as
    whole arrays). -/
theorem band_gather_concat3 {N E w : Nat} (hN : 0 < N)
    (hc : Shape.Concatenates [⟨2, ![N, 64]⟩, ⟨2, ![N, 64]⟩, ⟨2, ![N, 64]⟩] ⟨2, ![N, 192]⟩ 1)
    (wf192 : GatherDims.WF ⟨2, ![N, 192]⟩ ⟨2, ![E, 1]⟩ ⟨2, ![E, 192]⟩ [1] [0] [] [0] [] 1 ![1, 192])
    (wf64 : GatherDims.WF ⟨2, ![N, 64]⟩ ⟨2, ![E, 1]⟩ ⟨2, ![E, 64]⟩ [1] [0] [] [0] [] 1 ![1, 64])
    (hs0 : (⟨2, ![E, 192]⟩ : Shape).Slices ![0, 0] ⟨2, ![E, 64]⟩)
    (hs1 : (⟨2, ![E, 192]⟩ : Shape).Slices ![0, 64] ⟨2, ![E, 64]⟩)
    (hs2 : (⟨2, ![E, 192]⟩ : Shape).Slices ![0, 128] ⟨2, ![E, 64]⟩)
    (a0 a1 a2 : (⟨2, ![N, 64]⟩ : Shape).Idx → α) (idx : IVec ⟨2, ![E, 1]⟩ w) :
    extractStridedSlice ⟨2, ![E, 64]⟩ ![0, 0]
        (Host.gather (rowDims N E 192 wf192)
          (concatenate ⟨2, ![N, 192]⟩ 1 [⟨⟨2, ![N, 64]⟩, a0⟩, ⟨⟨2, ![N, 64]⟩, a1⟩, ⟨⟨2, ![N, 64]⟩, a2⟩] hc) idx) hs0
      = Host.gather (rowDims N E 64 wf64) a0 idx
    ∧ extractStridedSlice ⟨2, ![E, 64]⟩ ![0, 64]
        (Host.gather (rowDims N E 192 wf192)
          (concatenate ⟨2, ![N, 192]⟩ 1 [⟨⟨2, ![N, 64]⟩, a0⟩, ⟨⟨2, ![N, 64]⟩, a1⟩, ⟨⟨2, ![N, 64]⟩, a2⟩] hc) idx) hs1
      = Host.gather (rowDims N E 64 wf64) a1 idx
    ∧ extractStridedSlice ⟨2, ![E, 64]⟩ ![0, 128]
        (Host.gather (rowDims N E 192 wf192)
          (concatenate ⟨2, ![N, 192]⟩ 1 [⟨⟨2, ![N, 64]⟩, a0⟩, ⟨⟨2, ![N, 64]⟩, a1⟩, ⟨⟨2, ![N, 64]⟩, a2⟩] hc) idx) hs2
      = Host.gather (rowDims N E 64 wf64) a2 idx := by
  refine ⟨?_, ?_, ?_⟩ <;> funext j <;>
    obtain ⟨e, q, rfl⟩ : ∃ (e : Fin E) (q : Fin 64), j = ix2 e q := ⟨j 0, j 1, eq_ix2 j⟩
  · rw [band_apply 0 hs0 _ e q (by omega), gather_rows_apply hN wf192, gather_rows_apply hN wf64]
    exact (concat3_apply hc a0 a1 a2 _ q).1
  · rw [band_apply 64 hs1 _ e q (by omega), gather_rows_apply hN wf192, gather_rows_apply hN wf64]
    exact (concat3_apply hc a0 a1 a2 _ q).2.1
  · rw [band_apply 128 hs2 _ e q (by omega), gather_rows_apply hN wf192, gather_rows_apply hN wf64]
    exact (concat3_apply hc a0 a1 a2 _ q).2.2

end Cert.LibFused
-- ==== Proof.LibFusedScatter.lean ====
import Idealize.ShloMosaic.Lib.ValueIdx
import Idealize.ShloMosaic.Lib.Pipeline.Value
import Idealize.ShloMosaic.PureOps.Ideal.Laws
import proofs.«170728_j33028298506953_2_alg».proof.Proof.LibFusedGather

/-!
# A row scatter-add of three arrays laid side by side

Rows of updates are added into the rows of an array that a list of row numbers names (a row number outside the array
drops its update). Over the extended reals the result at `(n, c)` is the operand there plus the sum of the updates'
column `c` over the list positions that name row `n`. When the updates are three arrays of 64 columns laid side by side,
column `64 k + q` of the result only ever meets column `q` of the `k`-th array: band `k` of the wide scatter-add is the
scatter-add of the `k`-th array alone.
-/

open scoped BigOperators

namespace Cert.LibFused

open Idealize.ShloMosaic Idealize.ShloMosaic.ValueIdx

/-- The dimension numbers of a scatter of whole rows: operand `[N, C]`, one row number per update row (scatter indices
    `[E, 1]`), updates `[E, C]`. -/
abbrev scatDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section
variable {N E C w : Nat} (wf : ScatterDims.WF ⟨2, ![N, C]⟩ ⟨2, ![E, 1]⟩ ⟨2, ![E, C]⟩ [1] [0] [0] 1)
  (idx : IVec ⟨2, ![E, 1]⟩ w)

/-- On the row axis an update's landing coordinate is its row number, read signed. -/
theorem scat_row (e : Fin E) (c : Fin C) :
    (scatDims N E C wf).start (ix2 e c) idx 0 + ((scatDims N E C wf).window (ix2 e c) 0 : ℤ)
      = (idx (ix2 e 0)).toInt := by
  have hm : (0 : Fin 2) ∈ (scatDims N E C wf).scatterDimsToOperandDims := List.mem_singleton.mpr rfl
  have hk : (0 : Fin 2) ∉ (scatDims N E C wf).sKept := by
    simp [ScatterDims.sKept, Shape.kept]
  unfold ScatterDims.start ScatterDims.window
  rw [dif_pos hm, dif_neg hk]
  have hsi : (scatDims N E C wf).siIdx (ix2 e c) ⟨List.idxOf (0 : Fin 2) (scatDims N E C wf).scatterDimsToOperandDims,
      List.idxOf_lt_length_iff.2 hm⟩ = ix2 e 0 := by
    funext b; refine Fin.ext ?_
    match b with
    | ⟨0, _⟩ => rfl
    | ⟨1, _⟩ => rfl
  rw [hsi]
  simp

/-- On the column axis an update's landing coordinate is its own column. -/
theorem scat_col (e : Fin E) (c : Fin C) :
    (scatDims N E C wf).start (ix2 e c) idx 1 + ((scatDims N E C wf).window (ix2 e c) 1 : ℤ) = (c.val : ℤ) := by
  have hm : (1 : Fin 2) ∉ (scatDims N E C wf).scatterDimsToOperandDims :=
    fun h => absurd (List.mem_singleton.mp h) (show ¬((1 : Fin 2) = 0) from by decide)
  have hk : (1 : Fin 2) ∈ (scatDims N E C wf).sKept := by
    simp [ScatterDims.sKept, Shape.kept]
  unfold ScatterDims.start ScatterDims.window
  rw [dif_neg hm, dif_pos hk]
  simp only [List.getElem_singleton, Int.zero_add]
  rfl

/-- **Where an update lands**: update `(e, c)` lands at `(n, c')` exactly when the `e`-th row number, read signed, is
    `n` and the columns agree. -/
theorem scat_resultIdx_iff (e : Fin E) (c : Fin C) (n : Fin N) (c' : Fin C) :
    (scatDims N E C wf).resultIdx? (ix2 e c) idx = some (ix2 n c')
      ↔ (idx (ix2 e 0)).toInt = (n.val : ℤ) ∧ c = c' := by
  unfold ScatterDims.resultIdx?
  constructor
  · intro h
    split at h
    · next hall =>
      have h' := Option.some.inj h
      have e0 := congrArg Fin.val (congrFun h' (0 : Fin 2))
      have e1 := congrArg Fin.val (congrFun h' (1 : Fin 2))
      have p0 := (hall 0).1
      have p1 := (hall 1).1
      simp only [scat_row wf idx e c, scat_col wf idx e c] at e0 e1 p0 p1
      refine ⟨?_, Fin.ext ?_⟩
      · have : ((idx (ix2 e 0)).toInt.toNat : ℤ) = (n.val : ℤ) := by exact_mod_cast e0
        omega
      · have : ((c.val : ℤ).toNat) = c'.val := e1
        omega
    · exact absurd h (by simp)
  · rintro ⟨hr, rfl⟩
    have hall : ∀ a : Fin 2, 0 ≤ (scatDims N E C wf).start (ix2 e c) idx a + ((scatDims N E C wf).window (ix2 e c) a : ℤ)
        ∧ (scatDims N E C wf).start (ix2 e c) idx a + ((scatDims N E C wf).window (ix2 e c) a : ℤ)
          < ((⟨2, ![N, C]⟩ : Shape).size a : ℤ) := by
      intro a
      match a with
      | ⟨0, _⟩ =>
        rw [show (⟨0, by decide⟩ : Fin 2) = 0 from rfl, scat_row wf idx e c, hr]
        exact ⟨Int.natCast_nonneg _, by exact_mod_cast n.isLt⟩
      | ⟨1, _⟩ =>
        rw [show (⟨1, by decide⟩ : Fin 2) = 1 from rfl, scat_col wf idx e c]
        exact ⟨Int.natCast_nonneg _, by exact_mod_cast c.isLt⟩
    rw [dif_pos hall]
    congr 1
    funext a
    refine Fin.ext ?_
    match a with
    | ⟨0, _⟩ =>
      show ((scatDims N E C wf).start (ix2 e c) idx 0 + ((scatDims N E C wf).window (ix2 e c) 0 : ℤ)).toNat = n.val
      rw [scat_row wf idx e c, hr]; exact Int.toNat_natCast _
    | ⟨1, _⟩ =>
      show ((scatDims N E C wf).start (ix2 e c) idx 1 + ((scatDims N E C wf).window (ix2 e c) 1 : ℤ)).toNat = c.val
      rw [scat_col wf idx e c]; exact Int.toNat_natCast _

/-- **A row scatter-add read at `(n, c)`**: the operand there plus the updates' column `c` summed over the list
    positions whose row number is `n`. -/
theorem scatterAdd_rows_apply (x : FVec Ideal ⟨2, ![N, C]⟩ .f32) (upd : FVec Ideal ⟨2, ![E, C]⟩ .f32)
    (n : Fin N) (c : Fin C) :
    Host.scatterAdd (F := Ideal) (scatDims N E C wf) x idx upd (ix2 n c)
      = x (ix2 n c) + ∑ e ∈ Finset.univ.filter (fun e : Fin E => (idx (ix2 e 0)).toInt = (n.val : ℤ)), upd (ix2 e c) := by
  show Ideal.hostScatterAdd (scatDims N E C wf) x idx upd (ix2 n c) = _
  unfold Ideal.hostScatterAdd
  congr 1
  refine Finset.sum_nbij' (fun j => (⟨(j 0).val, idx2_lt0 j⟩ : Fin E)) (fun e => ix2 e c) ?_ ?_ ?_ ?_ ?_
  · intro j hj
    obtain ⟨e, c0, rfl⟩ : ∃ (e : Fin E) (c0 : Fin C), j = ix2 e c0 := ⟨j 0, j 1, eq_ix2 j⟩
    rw [Finset.mem_filter] at hj
    exact Finset.mem_filter.2 ⟨Finset.mem_univ _, ((scat_resultIdx_iff wf idx e c0 n c).1 hj.2).1⟩
  · intro e he
    rw [Finset.mem_filter] at he ⊢
    exact ⟨Finset.mem_univ _, (scat_resultIdx_iff wf idx e c n c).2 ⟨he.2, rfl⟩⟩
  · intro j hj
    obtain ⟨e, c0, rfl⟩ : ∃ (e : Fin E) (c0 : Fin C), j = ix2 e c0 := ⟨j 0, j 1, eq_ix2 j⟩
    rw [Finset.mem_filter] at hj
    have := ((scat_resultIdx_iff wf idx e c0 n c).1 hj.2).2
    subst this; rfl
  · intro e _; rfl
  · intro j hj
    obtain ⟨e, c0, rfl⟩ : ∃ (e : Fin E) (c0 : Fin C), j = ix2 e c0 := ⟨j 0, j 1, eq_ix2 j⟩
    rw [Finset.mem_filter] at hj
    have := ((scat_resultIdx_iff wf idx e c0 n c).1 hj.2).2
    subst this; rfl

end

/-- **Band k of the row scatter-add of three arrays side by side is the row scatter-add of the k-th array**
    (k = 0, 1, 2, as whole arrays), when the wide operand's band `k` is the narrow operand `x_k`. -/
theorem band_scatterAdd_concat3 {N E w : Nat}
    (hc : Shape.Concatenates [⟨2, ![E, 64]⟩, ⟨2, ![E, 64]⟩, ⟨2, ![E, 64]⟩] ⟨2, ![E, 192]⟩ 1)
    (wf192 : ScatterDims.WF ⟨2, ![N, 192]⟩ ⟨2, ![E, 1]⟩ ⟨2, ![E, 192]⟩ [1] [0] [0] 1)
    (wf64 : ScatterDims.WF ⟨2, ![N, 64]⟩ ⟨2, ![E, 1]⟩ ⟨2, ![E, 64]⟩ [1] [0] [0] 1)
    (hs0 : (⟨2, ![N, 192]⟩ : Shape).Slices ![0, 0] ⟨2, ![N, 64]⟩)
    (hs1 : (⟨2, ![N, 192]⟩ : Shape).Slices ![0, 64] ⟨2, ![N, 64]⟩)
    (hs2 : (⟨2, ![N, 192]⟩ : Shape).Slices ![0, 128] ⟨2, ![N, 64]⟩)
    (x : FVec Ideal ⟨2, ![N, 192]⟩ .f32) (x0 x1 x2 : FVec Ideal ⟨2, ![N, 64]⟩ .f32)
    (hx0 : ∀ (n : Fin N) (q : Fin 64), x (ix2 n ⟨0 + q.val, by omega⟩) = x0 (ix2 n q))
    (hx1 : ∀ (n : Fin N) (q : Fin 64), x (ix2 n ⟨64 + q.val, by omega⟩) = x1 (ix2 n q))
    (hx2 : ∀ (n : Fin N) (q : Fin 64), x (ix2 n ⟨128 + q.val, by omega⟩) = x2 (ix2 n q))
    (u0 u1 u2 : FVec Ideal ⟨2, ![E, 64]⟩ .f32) (idx : IVec ⟨2, ![E, 1]⟩ w) :
    extractStridedSlice ⟨2, ![N, 64]⟩ ![0, 0]
        (Host.scatterAdd (F := Ideal) (scatDims N E 192 wf192) x idx
          (concatenate ⟨2, ![E, 192]⟩ 1 [⟨⟨2, ![E, 64]⟩, u0⟩, ⟨⟨2, ![E, 64]⟩, u1⟩, ⟨⟨2, ![E, 64]⟩, u2⟩] hc)) hs0
      = Host.scatterAdd (F := Ideal) (scatDims N E 64 wf64) x0 idx u0
    ∧ extractStridedSlice ⟨2, ![N, 64]⟩ ![0, 64]
        (Host.scatterAdd (F := Ideal) (scatDims N E 192 wf192) x idx
          (concatenate ⟨2, ![E, 192]⟩ 1 [⟨⟨2, ![E, 64]⟩, u0⟩, ⟨⟨2, ![E, 64]⟩, u1⟩, ⟨⟨2, ![E, 64]⟩, u2⟩] hc)) hs1
      = Host.scatterAdd (F := Ideal) (scatDims N E 64 wf64) x1 idx u1
    ∧ extractStridedSlice ⟨2, ![N, 64]⟩ ![0, 128]
        (Host.scatterAdd (F := Ideal) (scatDims N E 192 wf192) x idx
          (concatenate ⟨2, ![E, 192]⟩ 1 [⟨⟨2, ![E, 64]⟩, u0⟩, ⟨⟨2, ![E, 64]⟩, u1⟩, ⟨⟨2, ![E, 64]⟩, u2⟩] hc)) hs2
      = Host.scatterAdd (F := Ideal) (scatDims N E 64 wf64) x2 idx u2 := by
  refine ⟨?_, ?_, ?_⟩ <;> funext j <;>
    obtain ⟨n, q, rfl⟩ : ∃ (n : Fin N) (q : Fin 64), j = ix2 n q := ⟨j 0, j 1, eq_ix2 j⟩
  · rw [band_apply 0 hs0 _ n q (by omega), scatterAdd_rows_apply wf192, scatterAdd_rows_apply wf64, hx0]
    exact congrArg _ (Finset.sum_congr rfl fun e _ => (concat3_apply hc u0 u1 u2 e q).1)
  · rw [band_apply 64 hs1 _ n q (by omega), scatterAdd_rows_apply wf192, scatterAdd_rows_apply wf64, hx1]
    exact congrArg _ (Finset.sum_congr rfl fun e _ => (concat3_apply hc u0 u1 u2 e q).2.1)
  · rw [band_apply 128 hs2 _ n q (by omega), scatterAdd_rows_apply wf192, scatterAdd_rows_apply wf64, hx2]
    exact congrArg _ (Finset.sum_congr rfl fun e _ => (concat3_apply hc u0 u1 u2 e q).2.2)

end Cert.LibFused
-- ==== Proof.BridgeBase.lean ====
import Idealize.ShloMosaic.PureOps.Ideal.Laws
import Idealize.ShloMosaic.Lib.ValueIdx

/-!
# The word of the float one, and the logistic function written out

Both programs print the float one as its 32-bit word. Over the extended reals that word denotes the number one, and
the quotient `1 / (1 + exp (-y))` written with it is the logistic function of `y`.
-/

namespace Cert.BridgeBase

open Idealize.ShloMosaic

/-- The 32-bit word `0x3F800000` denotes one. -/
theorem oneW_eq : Ideal.ofBits .f32 0x3F800000#32 = (1 : EReal) := by
  simp [Ideal.ofBits, Ideal.ieee]
  rw [← EReal.coe_mul, ← EReal.coe_one]
  exact congrArg _ (by norm_num)

/-- `1 / (1 + exp (-y))`, the ones written as words, is the logistic function of `y`. -/
theorem logistic_words (y : EReal) :
    Ideal.div (Ideal.ofBits .f32 0x3F800000#32) (Ideal.ofBits .f32 0x3F800000#32 + Ideal.exp (-y)) = Ideal.logistic y := by
  rw [oneW_eq]; rfl

end Cert.BridgeBase
-- ==== Proof.BridgeNode.lean ====
import proofs.«170728_j33028298506953_2_alg».proof.Proof.RefRead
import proofs.«170728_j33028298506953_2_alg».proof.Proof.Spec
import proofs.«170728_j33028298506953_2_alg».proof.Proof.BridgeBase

/-!
# The reference's node perceptron is the specification's gated features

In each of its two layers the reference program computes, with host operations, a two-layer perceptron on the rows of
a feature array (a matrix product, a bias, a rectifier, a second product and bias), adds the per-entry noise, divides
by one, takes `1 / (1 + exp (-·))` and multiplies by the features. Entry by entry this is the function
`Cert.Spec.gated` of the same arrays: each matrix product is a sum over the 64 contracted coordinates, the bias rows
are read at the entry's column, and the quotient is the logistic function.
-/

open scoped BigOperators

namespace Cert.BridgeNode

open Cert.ReferenceIdeal Idealize.ShloMosaic Idealize.ShloMosaic.ValueIdx

variable (x0 : (⟨S100000x64, .f32⟩ : BufTy).Contents (Elt Ideal))
  (x1 x2 : (⟨S800000, .i32⟩ : BufTy).Contents (Elt Ideal)) (x3 : (⟨S800000, .f32⟩ : BufTy).Contents (Elt Ideal))
  (x5 : (⟨S2x100000x64, .f32⟩ : BufTy).Contents (Elt Ideal)) (x10 : (⟨S2x64x64, .f32⟩ : BufTy).Contents (Elt Ideal))
  (x11 : (⟨S2x64, .f32⟩ : BufTy).Contents (Elt Ideal)) (x12 : (⟨S2x64x64, .f32⟩ : BufTy).Contents (Elt Ideal))
  (x13 : (⟨S2x64, .f32⟩ : BufTy).Contents (Elt Ideal))

/-- Layer 1: the first perceptron layer after the rectifier, read at row `r` and hidden unit `k`. -/
theorem hidden1 (r : Fin 100000) (k : Fin 64) :
    ReadP.val_main_v97 (F := Ideal) x0 x10 x11 (ix2 r k)
      = Cert.Spec.hiddenNode (n := 100000) x0 (ReadP.val_main_v89 (F := Ideal) x10) (ReadP.val_main_v92 (F := Ideal) x11) r k := by
  have el : ∀ j : Fin 64, ReadP.lidx_main_v90 (ix2 r k) j = ix2 r j := fun j => by
    funext a; match a with
    | ⟨0, _⟩ => rfl
    | ⟨1, _⟩ => rfl
  have er : ∀ j : Fin 64, ReadP.ridx_main_v90 (ix2 r k) j = ix2 j k := fun j => by
    funext a; match a with
    | ⟨0, _⟩ => rfl
    | ⟨1, _⟩ => rfl
  have e1 : ReadP.idx_main_v93 (ReadP.idx_main_v94 (ix2 r k)) = ix1 k := by
    funext a; match a with
    | ⟨0, _⟩ => rfl
  rw [ReadP.val_main_v97_apply, ReadP.val_main_v95_apply, ReadP.val_main_v96_apply, ReadP.val_main_cst_18_apply,
    ReadP.val_main_v94_apply, ReadP.val_main_v93_apply, ReadP.val_main_v90_apply, e1]
  simp only [el, er]
  rfl

/-- Layer 1: the reference's node perceptron, gate and product, is the specification's gated features of the
    same arrays. -/
theorem node1 :
    ReadP.val_main_v117 (F := Ideal) x0 x5 x10 x11 x12 x13
      = Cert.Spec.gated (n := 100000) x0 (ReadP.val_main_v107 (F := Ideal) x5) (ReadP.val_main_v89 (F := Ideal) x10)
          (ReadP.val_main_v92 (F := Ideal) x11) (ReadP.val_main_v99 (F := Ideal) x12) (ReadP.val_main_v102 (F := Ideal) x13) := by
  funext i
  obtain ⟨r, q, rfl⟩ : ∃ (r : Fin 100000) (q : Fin 64), i = ix2 r q := ⟨i 0, i 1, eq_ix2 i⟩
  have el : ∀ k : Fin 64, ReadP.lidx_main_v100 (ix2 r q) k = ix2 r k := fun k => by
    funext a; match a with
    | ⟨0, _⟩ => rfl
    | ⟨1, _⟩ => rfl
  have er : ∀ k : Fin 64, ReadP.ridx_main_v100 (ix2 r q) k = ix2 k q := fun k => by
    funext a; match a with
    | ⟨0, _⟩ => rfl
    | ⟨1, _⟩ => rfl
  have e1 : ReadP.idx_main_v103 (ReadP.idx_main_v104 (ix2 r q)) = ix1 q := by
    funext a; match a with
    | ⟨0, _⟩ => rfl
  rw [ReadP.val_main_v117_apply, ReadP.val_main_v116_apply, ReadP.val_main_v115_apply, ReadP.val_main_cst_21_apply,
    ReadP.val_main_v114_apply, ReadP.val_main_v113_apply, ReadP.val_main_cst_20_apply, ReadP.val_main_v112_apply,
    ReadP.val_main_v111_apply, ReadP.val_main_v110_apply, ReadP.val_main_v109_apply, ReadP.val_main_cst_19_apply,
    ReadP.val_main_v108_apply, ReadP.val_main_v105_apply, ReadP.val_main_v104_apply, ReadP.val_main_v103_apply,
    ReadP.val_main_v100_apply, e1]
  simp only [el, er, hidden1]
  exact congrArg (· * (x0) (ix2 r q)) (Cert.BridgeBase.logistic_words _)

/-- Layer 2: the first perceptron layer after the rectifier, read at row `r` and hidden unit `k`. -/
theorem hidden2 (r : Fin 100000) (k : Fin 64) :
    ReadP.val_main_v234 (F := Ideal) x0 x1 x2 x3 x5 x10 x11 x12 x13 (ix2 r k)
      = Cert.Spec.hiddenNode (n := 100000) (ReadP.val_main_v133 (F := Ideal) x0 x1 x2 x3 x5 x10 x11 x12 x13) (ReadP.val_main_v226 (F := Ideal) x10) (ReadP.val_main_v229 (F := Ideal) x11) r k := by
  have el : ∀ j : Fin 64, ReadP.lidx_main_v227 (ix2 r k) j = ix2 r j := fun j => by
    funext a; match a with
    | ⟨0, _⟩ => rfl
    | ⟨1, _⟩ => rfl
  have er : ∀ j : Fin 64, ReadP.ridx_main_v227 (ix2 r k) j = ix2 j k := fun j => by
    funext a; match a with
    | ⟨0, _⟩ => rfl
    | ⟨1, _⟩ => rfl
  have e1 : ReadP.idx_main_v230 (ReadP.idx_main_v231 (ix2 r k)) = ix1 k := by
    funext a; match a with
    | ⟨0, _⟩ => rfl
  rw [ReadP.val_main_v234_apply, ReadP.val_main_v232_apply, ReadP.val_main_v233_apply, ReadP.val_main_cst_45_apply,
    ReadP.val_main_v231_apply, ReadP.val_main_v230_apply, ReadP.val_main_v227_apply, e1]
  simp only [el, er]
  rfl

/-- Layer 2: the reference's node perceptron, gate and product, is the specification's gated features of the
    same arrays. -/
theorem node2 :
    ReadP.val_main_v254 (F := Ideal) x0 x1 x2 x3 x5 x10 x11 x12 x13
      = Cert.Spec.gated (n := 100000) (ReadP.val_main_v133 (F := Ideal) x0 x1 x2 x3 x5 x10 x11 x12 x13) (ReadP.val_main_v244 (F := Ideal) x5) (ReadP.val_main_v226 (F := Ideal) x10)
          (ReadP.val_main_v229 (F := Ideal) x11) (ReadP.val_main_v236 (F := Ideal) x12) (ReadP.val_main_v239 (F := Ideal) x13) := by
  funext i
  obtain ⟨r, q, rfl⟩ : ∃ (r : Fin 100000) (q : Fin 64), i = ix2 r q := ⟨i 0, i 1, eq_ix2 i⟩
  have el : ∀ k : Fin 64, ReadP.lidx_main_v237 (ix2 r q) k = ix2 r k := fun k => by
    funext a; match a with
    | ⟨0, _⟩ => rfl
    | ⟨1, _⟩ => rfl
  have er : ∀ k : Fin 64, ReadP.ridx_main_v237 (ix2 r q) k = ix2 k q := fun k => by
    funext a; match a with
    | ⟨0, _⟩ => rfl
    | ⟨1, _⟩ => rfl
  have e1 : ReadP.idx_main_v240 (ReadP.idx_main_v241 (ix2 r q)) = ix1 q := by
    funext a; match a with
    | ⟨0, _⟩ => rfl
  rw [ReadP.val_main_v254_apply, ReadP.val_main_v253_apply, ReadP.val_main_v252_apply, ReadP.val_main_cst_48_apply,
    ReadP.val_main_v251_apply, ReadP.val_main_v250_apply, ReadP.val_main_cst_47_apply, ReadP.val_main_v249_apply,
    ReadP.val_main_v248_apply, ReadP.val_main_v247_apply, ReadP.val_main_v246_apply, ReadP.val_main_cst_46_apply,
    ReadP.val_main_v245_apply, ReadP.val_main_v242_apply, ReadP.val_main_v241_apply, ReadP.val_main_v240_apply,
    ReadP.val_main_v237_apply, e1]
  simp only [el, er, hidden2]
  exact congrArg (· * ((ReadP.val_main_v133 (F := Ideal) x0 x1 x2 x3 x5 x10 x11 x12 x13)) (ix2 r q)) (Cert.BridgeBase.logistic_words _)

end Cert.BridgeNode
-- ==== Proof.BridgeEdge.lean ====
import proofs.«170728_j33028298506953_2_alg».proof.Proof.RefRead
import proofs.«170728_j33028298506953_2_alg».proof.Proof.Spec
import proofs.«170728_j33028298506953_2_alg».proof.Proof.BridgeBase

/-!
# The reference's edge perceptron is the specification's edge weight

In each layer the reference program lays an edge's head row and tail row side by side (128 columns), multiplies by a
128 × 64 matrix, adds a bias, rectifies, multiplies by a 64 × 1 matrix, adds a bias and the edge's noise, divides by
one and takes `1 / (1 + exp (-·))`. A sum over the 128 concatenated columns is the sum over the head's 64 columns
against the matrix's upper 64 rows plus the sum over the tail's 64 columns against its lower 64 rows (addition of
extended reals is associative and commutative; nothing is distributed). Entry by entry the result is
`Cert.Spec.edgeGate` of the head rows, the tail rows, the noise and the two half matrices.
-/

open scoped BigOperators

namespace Cert.BridgeEdge

open Cert.ReferenceIdeal Idealize.ShloMosaic Idealize.ShloMosaic.ValueIdx

/-- The upper 64 rows of a 128 × 64 matrix. -/
def upper (W : FVec Ideal ⟨2, ![128, 64]⟩ .f32) : FVec Ideal ⟨2, ![64, 64]⟩ .f32 :=
  fun i => W (ix2 (Fin.castAdd 64 (i 0)) (i 1))
/-- The lower 64 rows of a 128 × 64 matrix. -/
def lower (W : FVec Ideal ⟨2, ![128, 64]⟩ .f32) : FVec Ideal ⟨2, ![64, 64]⟩ .f32 :=
  fun i => W (ix2 (Fin.natAdd 64 (i 0)) (i 1))

/-- A sum over 128 indices is the sum over the first 64 plus the sum over the last 64. -/
theorem split128 (f : Fin 128 → EReal) :
    ∑ j : Fin 128, f j = (∑ j : Fin 64, f (Fin.castAdd 64 j)) + ∑ j : Fin 64, f (Fin.natAdd 64 j) :=
  Fin.sum_univ_add (a := 64) (b := 64) (f : Fin (64 + 64) → EReal)

/-- Two arrays of 64 columns side by side, read in the first and in the second half of the 128 columns. -/
theorem concat2_apply {α : Type} {E : Nat}
    (hc : Shape.Concatenates [⟨2, ![E, 64]⟩, ⟨2, ![E, 64]⟩] ⟨2, ![E, 128]⟩ 1)
    (x₁ x₂ : (⟨2, ![E, 64]⟩ : Shape).Idx → α) (r : Fin E) (j : Fin 64) :
    concatenate ⟨2, ![E, 128]⟩ 1 [⟨⟨2, ![E, 64]⟩, x₁⟩, ⟨⟨2, ![E, 64]⟩, x₂⟩] hc (ix2 r (Fin.castAdd 64 j)) = x₁ (ix2 r j)
    ∧ concatenate ⟨2, ![E, 128]⟩ 1 [⟨⟨2, ![E, 64]⟩, x₁⟩, ⟨⟨2, ![E, 64]⟩, x₂⟩] hc (ix2 r (Fin.natAdd 64 j)) = x₂ (ix2 r j) := by
  constructor
  · refine concatenate_pair_apply_left (t := ⟨2, ![E, 128]⟩) (1 : Fin 2) x₁ x₂ hc _ rfl (ix2 r j) ?_
    intro b
    match b with
    | ⟨0, _⟩ => rfl
    | ⟨1, _⟩ => rfl
  · refine concatenate_pair_apply_right (t := ⟨2, ![E, 128]⟩) (1 : Fin 2) x₁ x₂ hc _ rfl rfl (ix2 r j) ?_ ?_
    · intro b hb
      match b with
      | ⟨0, _⟩ => rfl
      | ⟨1, _⟩ => exact absurd rfl hb
    · show j.val + 64 = 64 + j.val
      omega

variable (x0 : (⟨S100000x64, .f32⟩ : BufTy).Contents (Elt Ideal))
  (x1 x2 : (⟨S800000, .i32⟩ : BufTy).Contents (Elt Ideal))
  (x4 : (⟨S2x800000, .f32⟩ : BufTy).Contents (Elt Ideal)) (x6 : (⟨S2x128x64, .f32⟩ : BufTy).Contents (Elt Ideal))
  (x7 : (⟨S2x64, .f32⟩ : BufTy).Contents (Elt Ideal)) (x8 : (⟨S2x64x1, .f32⟩ : BufTy).Contents (Elt Ideal))
  (x9 : (⟨S2x1, .f32⟩ : BufTy).Contents (Elt Ideal))

/-- Layer 1: the concatenated head and tail rows, read in the first and in the second half of the columns. -/
theorem cat1 (r : Fin 800000) (j : Fin 64) :
    ReadP.val_main_v27 (F := Ideal) x0 x1 x2 (ix2 r (Fin.castAdd 64 j)) = (ReadP.val_main_v19 (F := Ideal) x0 x1) (ix2 r j)
    ∧ ReadP.val_main_v27 (F := Ideal) x0 x1 x2 (ix2 r (Fin.natAdd 64 j)) = (ReadP.val_main_v26 (F := Ideal) x0 x2) (ix2 r j) := by
  unfold ReadP.val_main_v27
  exact concat2_apply _ _ _ r j

/-- Layer 1: the first edge-perceptron layer after the rectifier, read at edge `r` and hidden unit `k`: the sum
    over the 128 concatenated columns splits into the head's and the tail's 64. -/
theorem hiddenE1 (r : Fin 800000) (k : Fin 64) :
    ReadP.val_main_v37 (F := Ideal) x0 x1 x2 x6 x7 (ix2 r k)
      = Cert.Spec.hiddenEdge (n := 800000) (ReadP.val_main_v19 (F := Ideal) x0 x1) (ReadP.val_main_v26 (F := Ideal) x0 x2)
          (upper (ReadP.val_main_v29 (F := Ideal) x6)) (lower (ReadP.val_main_v29 (F := Ideal) x6)) (ReadP.val_main_v32 (F := Ideal) x7) r k := by
  have el : ∀ j : Fin 128, ReadP.lidx_main_v30 (ix2 r k) j = ix2 r j := fun j => by
    funext a; match a with
    | ⟨0, _⟩ => rfl
    | ⟨1, _⟩ => rfl
  have er : ∀ j : Fin 128, ReadP.ridx_main_v30 (ix2 r k) j = ix2 j k := fun j => by
    funext a; match a with
    | ⟨0, _⟩ => rfl
    | ⟨1, _⟩ => rfl
  have e1 : ReadP.idx_main_v33 (ReadP.idx_main_v34 (ix2 r k)) = ix1 k := by
    funext a; match a with
    | ⟨0, _⟩ => rfl
  rw [ReadP.val_main_v37_apply, ReadP.val_main_v35_apply, ReadP.val_main_v36_apply, ReadP.val_main_cst_5_apply,
    ReadP.val_main_v34_apply, ReadP.val_main_v33_apply, ReadP.val_main_v30_apply, e1]
  simp only [el, er]
  rw [split128]
  simp only [(cat1 x0 x1 x2  r _).1, (cat1 x0 x1 x2  r _).2]
  rfl

/-- Layer 1: the reference's edge perceptron and gate is the specification's edge weight of the same arrays, the
    first-layer matrix cut into its upper and lower 64 rows. -/
theorem edge1 :
    ReadP.val_main_v57 (F := Ideal) x0 x1 x2 x4 x6 x7 x8 x9
      = Cert.Spec.edgeGate (n := 800000) (ReadP.val_main_v19 (F := Ideal) x0 x1) (ReadP.val_main_v26 (F := Ideal) x0 x2) (ReadP.val_main_v48 (F := Ideal) x4)
          (upper (ReadP.val_main_v29 (F := Ideal) x6)) (lower (ReadP.val_main_v29 (F := Ideal) x6)) (ReadP.val_main_v32 (F := Ideal) x7)
          (ReadP.val_main_v39 (F := Ideal) x8) (ReadP.val_main_v42 (F := Ideal) x9) := by
  funext i
  obtain ⟨r, q, rfl⟩ : ∃ (r : Fin 800000) (q : Fin 1), i = ix2 r q := ⟨i 0, i 1, eq_ix2 i⟩
  have el : ∀ k : Fin 64, ReadP.lidx_main_v40 (ix2 r q) k = ix2 r k := fun k => by
    funext a; match a with
    | ⟨0, _⟩ => rfl
    | ⟨1, _⟩ => rfl
  have er : ∀ k : Fin 64, ReadP.ridx_main_v40 (ix2 r q) k = ix2 k q := fun k => by
    funext a; match a with
    | ⟨0, _⟩ => rfl
    | ⟨1, _⟩ => rfl
  have e1 : ReadP.idx_main_v43 (ReadP.idx_main_v44 (ix2 r q)) = ix1 q := by
    funext a; match a with
    | ⟨0, _⟩ => exact Fin.ext (by have := q.isLt; show 0 = q.val; omega)
  rw [ReadP.val_main_v57_apply, ReadP.val_main_v56_apply, ReadP.val_main_cst_8_apply,
    ReadP.val_main_v55_apply, ReadP.val_main_v54_apply, ReadP.val_main_cst_7_apply, ReadP.val_main_v53_apply,
    ReadP.val_main_v52_apply, ReadP.val_main_v51_apply, ReadP.val_main_v50_apply, ReadP.val_main_cst_6_apply,
    ReadP.val_main_v49_apply, ReadP.val_main_v45_apply, ReadP.val_main_v44_apply, ReadP.val_main_v43_apply,
    ReadP.val_main_v40_apply, e1]
  simp only [el, er, hiddenE1]
  exact Cert.BridgeBase.logistic_words _

/-- Layer 2: the concatenated head and tail rows, read in the first and in the second half of the columns. -/
theorem cat2 (r : Fin 800000) (j : Fin 64) :
    ReadP.val_main_v164 (F := Ideal) x0 x1 x2 x4 x6 x7 x8 x9 (ix2 r (Fin.castAdd 64 j)) = (ReadP.val_main_v156 (F := Ideal) x0 x1 x2 x4 x6 x7 x8 x9) (ix2 r j)
    ∧ ReadP.val_main_v164 (F := Ideal) x0 x1 x2 x4 x6 x7 x8 x9 (ix2 r (Fin.natAdd 64 j)) = (ReadP.val_main_v163 (F := Ideal) x0 x1 x2 x4 x6 x7 x8 x9) (ix2 r j) := by
  unfold ReadP.val_main_v164
  exact concat2_apply _ _ _ r j

/-- Layer 2: the first edge-perceptron layer after the rectifier, read at edge `r` and hidden unit `k`: the sum
    over the 128 concatenated columns splits into the head's and the tail's 64. -/
theorem hiddenE2 (r : Fin 800000) (k : Fin 64) :
    ReadP.val_main_v174 (F := Ideal) x0 x1 x2 x4 x6 x7 x8 x9 (ix2 r k)
      = Cert.Spec.hiddenEdge (n := 800000) (ReadP.val_main_v156 (F := Ideal) x0 x1 x2 x4 x6 x7 x8 x9) (ReadP.val_main_v163 (F := Ideal) x0 x1 x2 x4 x6 x7 x8 x9)
          (upper (ReadP.val_main_v166 (F := Ideal) x6)) (lower (ReadP.val_main_v166 (F := Ideal) x6)) (ReadP.val_main_v169 (F := Ideal) x7) r k := by
  have el : ∀ j : Fin 128, ReadP.lidx_main_v167 (ix2 r k) j = ix2 r j := fun j => by
    funext a; match a with
    | ⟨0, _⟩ => rfl
    | ⟨1, _⟩ => rfl
  have er : ∀ j : Fin 128, ReadP.ridx_main_v167 (ix2 r k) j = ix2 j k := fun j => by
    funext a; match a with
    | ⟨0, _⟩ => rfl
    | ⟨1, _⟩ => rfl
  have e1 : ReadP.idx_main_v170 (ReadP.idx_main_v171 (ix2 r k)) = ix1 k := by
    funext a; match a with
    | ⟨0, _⟩ => rfl
  rw [ReadP.val_main_v174_apply, ReadP.val_main_v172_apply, ReadP.val_main_v173_apply, ReadP.val_main_cst_32_apply,
    ReadP.val_main_v171_apply, ReadP.val_main_v170_apply, ReadP.val_main_v167_apply, e1]
  simp only [el, er]
  rw [split128]
  simp only [(cat2 x0 x1 x2 x4 x6 x7 x8 x9 r _).1, (cat2 x0 x1 x2 x4 x6 x7 x8 x9 r _).2]
  rfl

/-- Layer 2: the reference's edge perceptron and gate is the specification's edge weight of the same arrays, the
    first-layer matrix cut into its upper and lower 64 rows. -/
theorem edge2 :
    ReadP.val_main_v194 (F := Ideal) x0 x1 x2 x4 x6 x7 x8 x9
      = Cert.Spec.edgeGate (n := 800000) (ReadP.val_main_v156 (F := Ideal) x0 x1 x2 x4 x6 x7 x8 x9) (ReadP.val_main_v163 (F := Ideal) x0 x1 x2 x4 x6 x7 x8 x9) (ReadP.val_main_v185 (F := Ideal) x4)
          (upper (ReadP.val_main_v166 (F := Ideal) x6)) (lower (ReadP.val_main_v166 (F := Ideal) x6)) (ReadP.val_main_v169 (F := Ideal) x7)
          (ReadP.val_main_v176 (F := Ideal) x8) (ReadP.val_main_v179 (F := Ideal) x9) := by
  funext i
  obtain ⟨r, q, rfl⟩ : ∃ (r : Fin 800000) (q : Fin 1), i = ix2 r q := ⟨i 0, i 1, eq_ix2 i⟩
  have el : ∀ k : Fin 64, ReadP.lidx_main_v177 (ix2 r q) k = ix2 r k := fun k => by
    funext a; match a with
    | ⟨0, _⟩ => rfl
    | ⟨1, _⟩ => rfl
  have er : ∀ k : Fin 64, ReadP.ridx_main_v177 (ix2 r q) k = ix2 k q := fun k => by
    funext a; match a with
    | ⟨0, _⟩ => rfl
    | ⟨1, _⟩ => rfl
  have e1 : ReadP.idx_main_v180 (ReadP.idx_main_v181 (ix2 r q)) = ix1 q := by
    funext a; match a with
    | ⟨0, _⟩ => exact Fin.ext (by have := q.isLt; show 0 = q.val; omega)
  rw [ReadP.val_main_v194_apply, ReadP.val_main_v193_apply, ReadP.val_main_cst_35_apply,
    ReadP.val_main_v192_apply, ReadP.val_main_v191_apply, ReadP.val_main_cst_34_apply, ReadP.val_main_v190_apply,
    ReadP.val_main_v189_apply, ReadP.val_main_v188_apply, ReadP.val_main_v187_apply, ReadP.val_main_cst_33_apply,
    ReadP.val_main_v186_apply, ReadP.val_main_v182_apply, ReadP.val_main_v181_apply, ReadP.val_main_v180_apply,
    ReadP.val_main_v177_apply, e1]
  simp only [el, er, hiddenE2]
  exact Cert.BridgeBase.logistic_words _

end Cert.BridgeEdge
-- ==== Proof.BridgeLayout.lean ====
import Idealize.ShloMosaic.Lib.ValueIdx
import Idealize.ShloMosaic.Lib.Pipeline.Value
import proofs.«170728_j33028298506953_2_alg».proof.Proof.BridgeEdge

/-!
# Three small re-spellings of layout operations

* A vector of length 800000 reshaped to a column `[800000, 1]` is the same array as the vector broadcast along a new
  trailing unit axis: both read entry `(e, 0)` from the vector's entry `e`.
* Plane `o` of a `[2, 128, 64]` array cut to its rows 0..63 (or 64..127) and reshaped to `[64, 64]` is the upper (or
  lower) half of that plane cut whole and reshaped to `[128, 64]`: both read entry `(a, b)` from `(o, a, b)` (or
  `(o, 64 + a, b)`).
-/

namespace Cert.BridgeLayout

open Idealize.ShloMosaic Idealize.ShloMosaic.ValueIdx Cert.BridgeEdge

/-- A vector reshaped to a column is the vector broadcast along a trailing unit axis. -/
theorem column_eq {α : Type} {E : Nat} (y : (⟨1, ![E]⟩ : Shape).Idx → α)
    (hc : (⟨1, ![E]⟩ : Shape).ShapeCasts ⟨2, ![E, 1]⟩)
    (hb : (⟨1, ![E]⟩ : Shape).BroadcastsInDim ⟨2, ![E, 1]⟩ (![0] : Fin 1 → Fin 2)) (hE : E ≠ 1) :
    shapeCast ⟨2, ![E, 1]⟩ y hc = broadcastInDim ⟨2, ![E, 1]⟩ ![0] hb y := by
  funext i
  obtain ⟨e, z, rfl⟩ : ∃ (e : Fin E) (z : Fin 1), i = ix2 e z := ⟨i 0, i 1, eq_ix2 i⟩
  rw [shapeCast_apply y hc (ix2 e z) (ix1 e)
      (by rw [Shape.rowMajor_val_one, Shape.rowMajor_val_two]; show e.val = e.val * 1 + z.val; have := z.isLt; omega),
    broadcastInDim_apply _ hb y (ix2 e z) (ix1 e) (fun a => match a with
      | ⟨0, _⟩ => by show e.val = if E = 1 then 0 else e.val; rw [if_neg hE])]

/-- Rows `r0 .. r0 + 63` of plane `o`, reshaped to `[64, 64]`, read at `(a, b)`. -/
theorem half_apply (o r0 : Nat) (ho : o < 2) (hr : r0 + 64 ≤ 128) (x : FVec Ideal ⟨3, ![2, 128, 64]⟩ .f32)
    (hs : (⟨3, ![2, 128, 64]⟩ : Shape).Slices ![o, r0, 0] ⟨3, ![1, 64, 64]⟩)
    (hc : (⟨3, ![1, 64, 64]⟩ : Shape).ShapeCasts ⟨2, ![64, 64]⟩) (a b : Fin 64) :
    shapeCast ⟨2, ![64, 64]⟩ (extractStridedSlice ⟨3, ![1, 64, 64]⟩ ![o, r0, 0] x hs) hc (ix2 a b)
      = x (ix3 ⟨o, ho⟩ ⟨r0 + a.val, by omega⟩ b) := by
  rw [shapeCast_apply _ hc (ix2 a b) (ix3 (0 : Fin 1) a b)
      (by rw [Shape.rowMajor_val_three, Shape.rowMajor_val_two]; show (0 * 64 + a.val) * 64 + b.val = a.val * 64 + b.val; omega)]
  exact extractStridedSlice_apply _ x hs _ _ (fun k => match k with
    | ⟨0, _⟩ => by show o = o + 0; omega
    | ⟨1, _⟩ => rfl
    | ⟨2, _⟩ => by show b.val = 0 + b.val; omega)

/-- Plane `o` whole, reshaped to `[128, 64]`, read at `(a, b)`. -/
theorem whole_apply (o : Nat) (ho : o < 2) (x : FVec Ideal ⟨3, ![2, 128, 64]⟩ .f32)
    (hs : (⟨3, ![2, 128, 64]⟩ : Shape).Slices ![o, 0, 0] ⟨3, ![1, 128, 64]⟩)
    (hc : (⟨3, ![1, 128, 64]⟩ : Shape).ShapeCasts ⟨2, ![128, 64]⟩) (a : Fin 128) (b : Fin 64) :
    shapeCast ⟨2, ![128, 64]⟩ (extractStridedSlice ⟨3, ![1, 128, 64]⟩ ![o, 0, 0] x hs) hc (ix2 a b)
      = x (ix3 ⟨o, ho⟩ a b) := by
  rw [shapeCast_apply _ hc (ix2 a b) (ix3 (0 : Fin 1) a b)
      (by rw [Shape.rowMajor_val_three, Shape.rowMajor_val_two]; show (0 * 128 + a.val) * 64 + b.val = a.val * 64 + b.val; omega)]
  exact extractStridedSlice_apply _ x hs _ _ (fun k => match k with
    | ⟨0, _⟩ => by show o = o + 0; omega
    | ⟨1, _⟩ => by show a.val = 0 + a.val; omega
    | ⟨2, _⟩ => by show b.val = 0 + b.val; omega)

/-- The plane's rows 0..63 are the upper half of the whole plane. -/
theorem upper_eq (o : Nat) (ho : o < 2) (x : FVec Ideal ⟨3, ![2, 128, 64]⟩ .f32)
    (hs : (⟨3, ![2, 128, 64]⟩ : Shape).Slices ![o, 0, 0] ⟨3, ![1, 64, 64]⟩)
    (hc : (⟨3, ![1, 64, 64]⟩ : Shape).ShapeCasts ⟨2, ![64, 64]⟩)
    (hs' : (⟨3, ![2, 128, 64]⟩ : Shape).Slices ![o, 0, 0] ⟨3, ![1, 128, 64]⟩)
    (hc' : (⟨3, ![1, 128, 64]⟩ : Shape).ShapeCasts ⟨2, ![128, 64]⟩) :
    shapeCast ⟨2, ![64, 64]⟩ (extractStridedSlice ⟨3, ![1, 64, 64]⟩ ![o, 0, 0] x hs) hc
      = upper (shapeCast ⟨2, ![128, 64]⟩ (extractStridedSlice ⟨3, ![1, 128, 64]⟩ ![o, 0, 0] x hs') hc') := by
  funext i
  obtain ⟨a, b, rfl⟩ : ∃ (a b : Fin 64), i = ix2 a b := ⟨i 0, i 1, eq_ix2 i⟩
  rw [half_apply o 0 ho (by omega) x hs hc a b]
  show _ = shapeCast ⟨2, ![128, 64]⟩ (extractStridedSlice ⟨3, ![1, 128, 64]⟩ ![o, 0, 0] x hs') hc' (ix2 (Fin.castAdd 64 a) b)
  rw [whole_apply o ho x hs' hc']
  exact congrArg x (funext fun k => match k with
    | ⟨0, _⟩ => rfl
    | ⟨1, _⟩ => Fin.ext (by show 0 + a.val = a.val; omega)
    | ⟨2, _⟩ => rfl)

/-- The plane's rows 64..127 are the lower half of the whole plane. -/
theorem lower_eq (o : Nat) (ho : o < 2) (x : FVec Ideal ⟨3, ![2, 128, 64]⟩ .f32)
    (hs : (⟨3, ![2, 128, 64]⟩ : Shape).Slices ![o, 64, 0] ⟨3, ![1, 64, 64]⟩)
    (hc : (⟨3, ![1, 64, 64]⟩ : Shape).ShapeCasts ⟨2, ![64, 64]⟩)
    (hs' : (⟨3, ![2, 128, 64]⟩ : Shape).Slices ![o, 0, 0] ⟨3, ![1, 128, 64]⟩)
    (hc' : (⟨3, ![1, 128, 64]⟩ : Shape).ShapeCasts ⟨2, ![128, 64]⟩) :
    shapeCast ⟨2, ![64, 64]⟩ (extractStridedSlice ⟨3, ![1, 64, 64]⟩ ![o, 64, 0] x hs) hc
      = lower (shapeCast ⟨2, ![128, 64]⟩ (extractStridedSlice ⟨3, ![1, 128, 64]⟩ ![o, 0, 0] x hs') hc') := by
  funext i
  obtain ⟨a, b, rfl⟩ : ∃ (a b : Fin 64), i = ix2 a b := ⟨i 0, i 1, eq_ix2 i⟩
  rw [half_apply o 64 ho (by omega) x hs hc a b]
  show _ = shapeCast ⟨2, ![128, 64]⟩ (extractStridedSlice ⟨3, ![1, 128, 64]⟩ ![o, 0, 0] x hs') hc' (ix2 (Fin.natAdd 64 a) b)
  rw [whole_apply o ho x hs' hc']
  rfl

end Cert.BridgeLayout
-- ==== Proof.Bridge1.lean ====
import proofs.«170728_j33028298506953_2_alg».proof.Proof.Gen.KernelIdeal.Regions
import proofs.«170728_j33028298506953_2_alg».proof.Proof.RefRead
import proofs.«170728_j33028298506953_2_alg».proof.Proof.LibFusedScatter
import proofs.«170728_j33028298506953_2_alg».proof.Proof.BridgeNode
import proofs.«170728_j33028298506953_2_alg».proof.Proof.BridgeEdge
import proofs.«170728_j33028298506953_2_alg».proof.Proof.BridgeLayout

/-!
# Layer 1 of the kernel program's host side, buffer by buffer, against the reference's stages

Between its kernel regions the kernel program runs stretches of host operations. Over any contents `W` of the buffers
before a stretch, each buffer the stretch writes is a composed term of `W`'s buffers; where the kernel program gathers
rows of three arrays laid side by side and cuts the result (or scatter-adds three update arrays side by side and cuts
the result), the cut band is the gather (the scatter-add) of the one array, and the term is then the reference
program's stage of the same name applied to the same arrays. Chained from the launch contents through the two regions
of layer 1 (whose outputs are the specification's gated features and edge weights, hence the reference's perceptron
stages), this gives the six arrays layer 1 hands to layer 2 as the reference's stages of the argument arrays.
-/

/-- The contents of a buffer after a line of host operations, as one `simp` pass; an operation of several operands
    (a concatenation) has its operand list `![a, b, c] k` evaluated so that the operands' contents are rewritten too. -/
macro "after_results_all" : tactic =>
  `(tactic| repeat (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result', Idealize.ShloMosaic.StableHlo.ternary_result',
      Idealize.ShloMosaic.StableHlo.quaternary_result', Idealize.ShloMosaic.StableHlo.reshape_result', Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne', Idealize.ShloMosaic.StableHlo.ternary_result_ne',
      Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne', Matrix.cons_val]))

namespace Cert.Bridge1

open Cert.KernelIdeal Cert.KernelIdeal.Gen Idealize.ShloMosaic Idealize.ShloMosaic.TcCoe Idealize.ShloMosaic.StableHlo
open Cert.ReferenceIdeal.ReadP

/-! ## Buffers no stretch writes keep the launch contents -/

section Keep
variable (m : (ℓ : Loc nD τ sig) → Buf (Elt Ideal) ℓ) (outs : Outs (F := Ideal)) (c : Dev nD) (r : Ref sig .tc)

theorem keepV1 (h0 : r ∉ hostOps0_W) : V1 m c r = V0 m c r :=
  after_of_writes_sub _ _ hostOps0_writes h0
theorem keepV2 (h0 : r ∉ hostOps0_W) (h10 : r ≠ main_v10) : V2 m outs c r = V0 m c r := by
  dsimp only [V2]
  rw [Function.update_of_ne (fun e => h10 (Proc.devRef_injective _ e))]
  exact keepV1 m c r h0
theorem keepV3 (h0 : r ∉ hostOps0_W) (h10 : r ≠ main_v10) (h1 : r ∉ hostOps1_W) : V3 m outs c r = V0 m c r :=
  (after_of_writes_sub _ _ hostOps1_writes h1).trans (keepV2 m outs c r h0 h10)
theorem keepV4 (h0 : r ∉ hostOps0_W) (h10 : r ≠ main_v10) (h1 : r ∉ hostOps1_W) (h42 : r ≠ main_v42) :
    V4 m outs c r = V0 m c r := by
  dsimp only [V4]
  rw [Function.update_of_ne (fun e => h42 (Proc.devRef_injective _ e))]
  exact keepV3 m outs c r h0 h10 h1
/-- A buffer of the second stretch that the first region's output does not touch. -/
theorem keepV4_of_V3 (h42 : r ≠ main_v42) : V4 m outs c r = V3 m outs c r := by
  dsimp only [V4]
  rw [Function.update_of_ne (fun e => h42 (Proc.devRef_injective _ e))]

theorem keepV6_of_V4 (h2w : r ∉ hostOps2_W) (h21 : r ∉ hostOps2_1_W) : V6 m outs c r = V4 m outs c r :=
  (after_of_writes_sub _ _ hostOps2_1_writes h21).trans (after_of_writes_sub _ _ hostOps2_writes h2w)
theorem keepV6 (h0 : r ∉ hostOps0_W) (h10 : r ≠ main_v10) (h1 : r ∉ hostOps1_W) (h42 : r ≠ main_v42)
    (h2w : r ∉ hostOps2_W) (h21 : r ∉ hostOps2_1_W) : V6 m outs c r = V0 m c r :=
  (keepV6_of_V4 m outs c r h2w h21).trans (keepV4 m outs c r h0 h10 h1 h42)

end Keep

/-! ## The stretch before region 0: the node perceptron's weights -/

section Stretch0
variable (W : Valuation τ sig (Elt Ideal))

theorem s0_v1 : (StableHlo.after hostOps0 W main_v1 : S100000x64.Idx → EReal) = val_main_v107 (F := Ideal) (W main_arg5) := by
  after_results; rfl
theorem s0_v3 : (StableHlo.after hostOps0 W main_v3 : S64x64.Idx → EReal) = val_main_v89 (F := Ideal) (W main_arg10) := by
  after_results; rfl
theorem s0_v5 : (StableHlo.after hostOps0 W main_v5 : S64.Idx → EReal) = val_main_v92 (F := Ideal) (W main_arg11) := by
  after_results; rfl
theorem s0_v7 : (StableHlo.after hostOps0 W main_v7 : S64x64.Idx → EReal) = val_main_v99 (F := Ideal) (W main_arg12) := by
  after_results; rfl
theorem s0_v9 : (StableHlo.after hostOps0 W main_v9 : S64.Idx → EReal) = val_main_v102 (F := Ideal) (W main_arg13) := by
  after_results; rfl

end Stretch0

/-! ## The stretch before region 1: the gathered rows and the edge perceptron's operands -/

section Stretch1
variable (W : Valuation τ sig (Elt Ideal))

/-- Band 0 of the fused gather: the rows of the first array at the tail indices. -/
theorem s1_v19 : (StableHlo.after hostOps1 W main_v19 : S800000x64.Idx → EReal)
    = val_main_v7 (F := Ideal) (W main_arg0) (W main_arg2) := by
  after_results_all
  refine ((Cert.LibFused.band_gather_concat3 (N := 100000) (E := 800000) (by decide) _ _
    gather_S100000x64_S800000x1_S800000x64_1_0_n_n_0_1_164_wf
    slices_S800000x192_S800000x64_0_0 slices_S800000x192_S800000x64_0_64 slices_S800000x192_S800000x64_0_128 _ _ _ _).1).trans ?_
  rfl
/-- Band 1: the rows of the second array at the tail indices. -/
theorem s1_v20 : (StableHlo.after hostOps1 W main_v20 : S800000x64.Idx → EReal)
    = val_main_v26 (F := Ideal) (W main_arg0) (W main_arg2) := by
  after_results_all
  refine ((Cert.LibFused.band_gather_concat3 (N := 100000) (E := 800000) (by decide) _ _
    gather_S100000x64_S800000x1_S800000x64_1_0_n_n_0_1_164_wf
    slices_S800000x192_S800000x64_0_0 slices_S800000x192_S800000x64_0_64 slices_S800000x192_S800000x64_0_128 _ _ _ _).2.1).trans ?_
  rfl
/-- Band 2: the rows of region 0's output at the tail indices. -/
theorem s1_v21 : (StableHlo.after hostOps1 W main_v21 : S800000x64.Idx → EReal)
    = Host.gather Cert.ReferenceIdeal.gather_S100000x64_S800000x1_S800000x64_1_0_n_n_0_1_164 (W main_v10)
        (val_main_v124 (F := Ideal) (W main_arg2)) := by
  after_results_all
  refine ((Cert.LibFused.band_gather_concat3 (N := 100000) (E := 800000) (by decide) _ _
    gather_S100000x64_S800000x1_S800000x64_1_0_n_n_0_1_164_wf
    slices_S800000x192_S800000x64_0_0 slices_S800000x192_S800000x64_0_64 slices_S800000x192_S800000x64_0_128 _ _ _ _).2.2).trans ?_
  rfl
theorem s1_v28 : (StableHlo.after hostOps1 W main_v28 : S800000x64.Idx → EReal)
    = val_main_v19 (F := Ideal) (W main_arg0) (W main_arg1) := by
  after_results_all; rfl
theorem s1_v30 : (StableHlo.after hostOps1 W main_v30 : S64x64.Idx → EReal)
    = Cert.BridgeEdge.upper (val_main_v29 (F := Ideal) (W main_arg6)) := by
  after_results_all
  exact Cert.BridgeLayout.upper_eq 0 (by decide) _ _ _ _ _
theorem s1_v32 : (StableHlo.after hostOps1 W main_v32 : S64x64.Idx → EReal)
    = Cert.BridgeEdge.lower (val_main_v29 (F := Ideal) (W main_arg6)) := by
  after_results_all
  exact Cert.BridgeLayout.lower_eq 0 (by decide) _ _ _ _ _
theorem s1_v35 : (StableHlo.after hostOps1 W main_v35 : S800000x1.Idx → EReal) = val_main_v48 (F := Ideal) (W main_arg4) := by
  after_results_all
  exact Cert.BridgeLayout.column_eq _ _ _ (by decide)
theorem s1_v37 : (StableHlo.after hostOps1 W main_v37 : S64.Idx → EReal) = val_main_v32 (F := Ideal) (W main_arg7) := by
  after_results_all; rfl
theorem s1_v39 : (StableHlo.after hostOps1 W main_v39 : S64x1.Idx → EReal) = val_main_v39 (F := Ideal) (W main_arg8) := by
  after_results_all; rfl
theorem s1_v41 : (StableHlo.after hostOps1 W main_v41 : S1.Idx → EReal) = val_main_v42 (F := Ideal) (W main_arg9) := by
  after_results_all; rfl

end Stretch1

/-! ## The three stretches after region 1: the normalised weights, the scatter-adds, the layer's outputs -/

section Tail1
variable (W : Valuation τ sig (Elt Ideal))

theorem t1_v76 (hv19 : (W main_v19 : S800000x64.Idx → EReal) = val_main_v7 (F := Ideal) (W main_arg0) (W main_arg2)) :
    (StableHlo.after hostOps2_2 (StableHlo.after hostOps2_1 (StableHlo.after hostOps2 W)) main_v76 : S100000x64.Idx → EReal)
      = val_main_v131 (F := Ideal) (W main_arg0) (W main_arg1) (W main_arg2) (W main_arg3) := by
  after_results_all
  refine (congrArg (fun z : FVec Ideal S100000x64 .f32 => addf (F := Ideal) (φ := .f32) z (W main_arg0)) ((Cert.LibFused.band_scatterAdd_concat3 (N := 100000) (E := 800000) _ _
      Cert.ReferenceIdeal.Gen.scatter_S100000x64_S800000x1_S800000x64_1_0_0_1_wf
      slices_S100000x192_S100000x64_0_0 slices_S100000x192_S100000x64_0_64 slices_S100000x192_S100000x64_0_128
      (broadcastInDim S100000x192 ![] bcast_S_S100000x192 (constant (F := Ideal) S_ .f32 0x00000000#32))
      (val_main_v10 (F := Ideal)) (val_main_v10 (F := Ideal)) (val_main_v10 (F := Ideal))
      (fun _ _ => rfl) (fun _ _ => rfl) (fun _ _ => rfl) _ _ _ _).1)).trans ?_
  after_results_all
  rw [hv19]
  rfl

theorem t1_v78 (hv21 : (W main_v21 : S800000x64.Idx → EReal) = val_main_v125 (F := Ideal) (W main_arg0) (W main_arg2) (W main_arg5) (W main_arg10) (W main_arg11) (W main_arg12) (W main_arg13)) :
    (StableHlo.after hostOps2_2 (StableHlo.after hostOps2_1 (StableHlo.after hostOps2 W)) main_v78 : S100000x64.Idx → EReal)
      = val_main_v133 (F := Ideal) (W main_arg0) (W main_arg1) (W main_arg2) (W main_arg3) (W main_arg5) (W main_arg10) (W main_arg11) (W main_arg12) (W main_arg13) := by
  after_results_all
  refine (congrArg (fun z : FVec Ideal S100000x64 .f32 => addf (F := Ideal) (φ := .f32) z (W main_arg0)) ((Cert.LibFused.band_scatterAdd_concat3 (N := 100000) (E := 800000) _ _
      Cert.ReferenceIdeal.Gen.scatter_S100000x64_S800000x1_S800000x64_1_0_0_1_wf
      slices_S100000x192_S100000x64_0_0 slices_S100000x192_S100000x64_0_64 slices_S100000x192_S100000x64_0_128
      (broadcastInDim S100000x192 ![] bcast_S_S100000x192 (constant (F := Ideal) S_ .f32 0x00000000#32))
      (val_main_v128 (F := Ideal)) (val_main_v128 (F := Ideal)) (val_main_v128 (F := Ideal))
      (fun _ _ => rfl) (fun _ _ => rfl) (fun _ _ => rfl) _ _ _ _).2.2)).trans ?_
  after_results_all
  rw [hv21]
  rfl

theorem t1_v79 (hv19 : (W main_v19 : S800000x64.Idx → EReal) = val_main_v7 (F := Ideal) (W main_arg0) (W main_arg2)) :
    (StableHlo.after hostOps2_2 (StableHlo.after hostOps2_1 (StableHlo.after hostOps2 W)) main_v79 : S100000x64.Idx → EReal)
      = val_main_v134 (F := Ideal) (W main_arg0) (W main_arg1) (W main_arg2) (W main_arg3) := by
  after_results_all
  refine (congrArg (fun z : FVec Ideal S100000x64 .f32 => addf (F := Ideal) (φ := .f32) (W main_arg0) (addf (F := Ideal) (φ := .f32) z (W main_arg0))) ((Cert.LibFused.band_scatterAdd_concat3 (N := 100000) (E := 800000) _ _
      Cert.ReferenceIdeal.Gen.scatter_S100000x64_S800000x1_S800000x64_1_0_0_1_wf
      slices_S100000x192_S100000x64_0_0 slices_S100000x192_S100000x64_0_64 slices_S100000x192_S100000x64_0_128
      (broadcastInDim S100000x192 ![] bcast_S_S100000x192 (constant (F := Ideal) S_ .f32 0x00000000#32))
      (val_main_v10 (F := Ideal)) (val_main_v10 (F := Ideal)) (val_main_v10 (F := Ideal))
      (fun _ _ => rfl) (fun _ _ => rfl) (fun _ _ => rfl) _ _ _ _).1)).trans ?_
  after_results_all
  rw [hv19]
  rfl

theorem t1_v81 (hv21 : (W main_v21 : S800000x64.Idx → EReal) = val_main_v125 (F := Ideal) (W main_arg0) (W main_arg2) (W main_arg5) (W main_arg10) (W main_arg11) (W main_arg12) (W main_arg13)) :
    (StableHlo.after hostOps2_2 (StableHlo.after hostOps2_1 (StableHlo.after hostOps2 W)) main_v81 : S100000x64.Idx → EReal)
      = val_main_v136 (F := Ideal) (W main_arg0) (W main_arg1) (W main_arg2) (W main_arg3) (W main_arg5) (W main_arg10) (W main_arg11) (W main_arg12) (W main_arg13) := by
  after_results_all
  refine (congrArg (fun z : FVec Ideal S100000x64 .f32 => addf (F := Ideal) (φ := .f32) (W main_arg0) (addf (F := Ideal) (φ := .f32) z (W main_arg0))) ((Cert.LibFused.band_scatterAdd_concat3 (N := 100000) (E := 800000) _ _
      Cert.ReferenceIdeal.Gen.scatter_S100000x64_S800000x1_S800000x64_1_0_0_1_wf
      slices_S100000x192_S100000x64_0_0 slices_S100000x192_S100000x64_0_64 slices_S100000x192_S100000x64_0_128
      (broadcastInDim S100000x192 ![] bcast_S_S100000x192 (constant (F := Ideal) S_ .f32 0x00000000#32))
      (val_main_v128 (F := Ideal)) (val_main_v128 (F := Ideal)) (val_main_v128 (F := Ideal))
      (fun _ _ => rfl) (fun _ _ => rfl) (fun _ _ => rfl) _ _ _ _).2.2)).trans ?_
  after_results_all
  rw [hv21]
  rfl

theorem t1_v83 : (StableHlo.after hostOps2_2 (StableHlo.after hostOps2_1 (StableHlo.after hostOps2 W)) main_v83 : S100000x64.Idx → EReal) = val_main_v244 (F := Ideal) (W main_arg5) := by
  after_results_all; rfl
theorem t1_v85 : (StableHlo.after hostOps2_2 (StableHlo.after hostOps2_1 (StableHlo.after hostOps2 W)) main_v85 : S64x64.Idx → EReal) = val_main_v226 (F := Ideal) (W main_arg10) := by
  after_results_all; rfl
theorem t1_v87 : (StableHlo.after hostOps2_2 (StableHlo.after hostOps2_1 (StableHlo.after hostOps2 W)) main_v87 : S64.Idx → EReal) = val_main_v229 (F := Ideal) (W main_arg11) := by
  after_results_all; rfl
theorem t1_v89 : (StableHlo.after hostOps2_2 (StableHlo.after hostOps2_1 (StableHlo.after hostOps2 W)) main_v89 : S64x64.Idx → EReal) = val_main_v236 (F := Ideal) (W main_arg12) := by
  after_results_all; rfl
theorem t1_v91 : (StableHlo.after hostOps2_2 (StableHlo.after hostOps2_1 (StableHlo.after hostOps2 W)) main_v91 : S64.Idx → EReal) = val_main_v239 (F := Ideal) (W main_arg13) := by
  after_results_all; rfl

end Tail1

/-! ## The same three stretches one by one, for the path through the normalised weights -/

section Split
variable (W : Valuation τ sig (Elt Ideal))

theorem s2_v43 (hv42 : (W main_v42 : S800000x1.Idx → EReal) = val_main_v57 (F := Ideal) (W main_arg0) (W main_arg1) (W main_arg2) (W main_arg4) (W main_arg6) (W main_arg7) (W main_arg8) (W main_arg9)) :
    (StableHlo.after hostOps2 W main_v43 : S800000.Idx → EReal) = val_main_v58 (F := Ideal) (W main_arg0) (W main_arg1) (W main_arg2) (W main_arg4) (W main_arg6) (W main_arg7) (W main_arg8) (W main_arg9) := by
  after_results_all; rw [hv42]; rfl
theorem s2_v48 (hv42 : (W main_v42 : S800000x1.Idx → EReal) = val_main_v57 (F := Ideal) (W main_arg0) (W main_arg1) (W main_arg2) (W main_arg4) (W main_arg6) (W main_arg7) (W main_arg8) (W main_arg9)) :
    (StableHlo.after hostOps2 W main_v48 : (⟨S100000, .i1⟩ : BufTy).Contents (Elt Ideal)) = val_main_v63 (F := Ideal) (W main_arg0) (W main_arg1) (W main_arg2) (W main_arg4) (W main_arg6) (W main_arg7) (W main_arg8) (W main_arg9) := by
  after_results_all; rw [hv42]; rfl
theorem s2_v50 (hv42 : (W main_v42 : S800000x1.Idx → EReal) = val_main_v57 (F := Ideal) (W main_arg0) (W main_arg1) (W main_arg2) (W main_arg4) (W main_arg6) (W main_arg7) (W main_arg8) (W main_arg9)) :
    (StableHlo.after hostOps2 W main_v50 : S100000.Idx → EReal) = val_main_v65 (F := Ideal) (W main_arg0) (W main_arg1) (W main_arg2) (W main_arg4) (W main_arg6) (W main_arg7) (W main_arg8) (W main_arg9) := by
  after_results_all; rw [hv42]; rfl
theorem s2_cst5 : (StableHlo.after hostOps2 W main_cst_5 : S_.Idx → EReal) = val_main_cst_12 (F := Ideal) := by
  after_results_all; rfl
/-- The select of the reciprocal row sums where the row sum is positive, zero elsewhere. -/
theorem s21_v51 : (StableHlo.after hostOps2_1 W main_v51 : S100000.Idx → EReal)
    = select (W main_v48 : (⟨S100000, .i1⟩ : BufTy).Contents (Elt Ideal)) (W main_v50 : S100000.Idx → EReal)
        (broadcastInDim S100000 ![] bcast_S_S100000 (W main_cst_5 : S_.Idx → EReal)) := rfl

theorem s22_v77 (hv20 : (W main_v20 : S800000x64.Idx → EReal) = val_main_v82 (F := Ideal) (W main_arg0) (W main_arg2))
    (hv43 : (W main_v43 : S800000.Idx → EReal) = val_main_v58 (F := Ideal) (W main_arg0) (W main_arg1) (W main_arg2) (W main_arg4) (W main_arg6) (W main_arg7) (W main_arg8) (W main_arg9))
    (hv51 : (W main_v51 : S100000.Idx → EReal) = val_main_v66 (F := Ideal) (W main_arg0) (W main_arg1) (W main_arg2) (W main_arg4) (W main_arg6) (W main_arg7) (W main_arg8) (W main_arg9)) :
    (StableHlo.after hostOps2_2 W main_v77 : S100000x64.Idx → EReal)
      = val_main_v132 (F := Ideal) (W main_arg0) (W main_arg1) (W main_arg2) (W main_arg4) (W main_arg6) (W main_arg7) (W main_arg8) (W main_arg9) := by
  after_results_all
  refine (congrArg (fun z : FVec Ideal S100000x64 .f32 => addf (F := Ideal) (φ := .f32) z (W main_arg0)) ((Cert.LibFused.band_scatterAdd_concat3 (N := 100000) (E := 800000) _ _
      Cert.ReferenceIdeal.Gen.scatter_S100000x64_S800000x1_S800000x64_1_0_0_1_wf
      slices_S100000x192_S100000x64_0_0 slices_S100000x192_S100000x64_0_64 slices_S100000x192_S100000x64_0_128
      (broadcastInDim S100000x192 ![] bcast_S_S100000x192 (constant (F := Ideal) S_ .f32 0x00000000#32))
      (val_main_v85 (F := Ideal)) (val_main_v85 (F := Ideal)) (val_main_v85 (F := Ideal))
      (fun _ _ => rfl) (fun _ _ => rfl) (fun _ _ => rfl) _ _ _ _).2.1)).trans ?_
  after_results_all
  rw [hv20, hv43, hv51]
  rfl

theorem s22_v80 (hv20 : (W main_v20 : S800000x64.Idx → EReal) = val_main_v82 (F := Ideal) (W main_arg0) (W main_arg2))
    (hv43 : (W main_v43 : S800000.Idx → EReal) = val_main_v58 (F := Ideal) (W main_arg0) (W main_arg1) (W main_arg2) (W main_arg4) (W main_arg6) (W main_arg7) (W main_arg8) (W main_arg9))
    (hv51 : (W main_v51 : S100000.Idx → EReal) = val_main_v66 (F := Ideal) (W main_arg0) (W main_arg1) (W main_arg2) (W main_arg4) (W main_arg6) (W main_arg7) (W main_arg8) (W main_arg9)) :
    (StableHlo.after hostOps2_2 W main_v80 : S100000x64.Idx → EReal)
      = val_main_v135 (F := Ideal) (W main_arg0) (W main_arg1) (W main_arg2) (W main_arg4) (W main_arg6) (W main_arg7) (W main_arg8) (W main_arg9) := by
  after_results_all
  refine (congrArg (fun z : FVec Ideal S100000x64 .f32 => addf (F := Ideal) (φ := .f32) (W main_arg0) (addf (F := Ideal) (φ := .f32) z (W main_arg0))) ((Cert.LibFused.band_scatterAdd_concat3 (N := 100000) (E := 800000) _ _
      Cert.ReferenceIdeal.Gen.scatter_S100000x64_S800000x1_S800000x64_1_0_0_1_wf
      slices_S100000x192_S100000x64_0_0 slices_S100000x192_S100000x64_0_64 slices_S100000x192_S100000x64_0_128
      (broadcastInDim S100000x192 ![] bcast_S_S100000x192 (constant (F := Ideal) S_ .f32 0x00000000#32))
      (val_main_v85 (F := Ideal)) (val_main_v85 (F := Ideal)) (val_main_v85 (F := Ideal))
      (fun _ _ => rfl) (fun _ _ => rfl) (fun _ _ => rfl) _ _ _ _).2.1)).trans ?_
  after_results_all
  rw [hv20, hv43, hv51]
  rfl

end Split

/-! ## Chained from the launch contents -/

section Chain
variable (m : (ℓ : Loc nD τ sig) → Buf (Elt Ideal) ℓ) (outs : Outs (F := Ideal)) (c : Dev nD)

/-- Region 0's output is the reference's gated node features of layer 1. -/
theorem gate1 (h2 : outs 2 main_v10 c = Cert.Spec.gated (n := 100000) (V1 m c main_arg0) (V1 m c main_v1) (V1 m c main_v3) (V1 m c main_v5) (V1 m c main_v7) (V1 m c main_v9)) :
    (outs 2 main_v10 c : S100000x64.Idx → EReal) = val_main_v117 (F := Ideal) (V0 m c main_arg0) (V0 m c main_arg5) (V0 m c main_arg10) (V0 m c main_arg11) (V0 m c main_arg12) (V0 m c main_arg13) := by
  have e1 : (V1 m c main_v1 : S100000x64.Idx → EReal) = _ := s0_v1 (V0 m c)
  have e3 : (V1 m c main_v3 : S64x64.Idx → EReal) = _ := s0_v3 (V0 m c)
  have e5 : (V1 m c main_v5 : S64.Idx → EReal) = _ := s0_v5 (V0 m c)
  have e7 : (V1 m c main_v7 : S64x64.Idx → EReal) = _ := s0_v7 (V0 m c)
  have e9 : (V1 m c main_v9 : S64.Idx → EReal) = _ := s0_v9 (V0 m c)
  rw [h2, keepV1 m c main_arg0 (by decide), e1, e3, e5, e7, e9]
  exact (Cert.BridgeNode.node1 _ _ _ _ _ _).symm

theorem V3_v19 : (V3 m outs c main_v19 : S800000x64.Idx → EReal) = val_main_v7 (F := Ideal) (V0 m c main_arg0) (V0 m c main_arg2) := by
  have h := s1_v19 (V2 m outs c)
  rw [keepV2 m outs c main_arg0 (by decide) (by decide), keepV2 m outs c main_arg2 (by decide) (by decide)] at h
  exact h

theorem V3_v20 : (V3 m outs c main_v20 : S800000x64.Idx → EReal) = val_main_v26 (F := Ideal) (V0 m c main_arg0) (V0 m c main_arg2) := by
  have h := s1_v20 (V2 m outs c)
  rw [keepV2 m outs c main_arg0 (by decide) (by decide), keepV2 m outs c main_arg2 (by decide) (by decide)] at h
  exact h

theorem V3_v28 : (V3 m outs c main_v28 : S800000x64.Idx → EReal) = val_main_v19 (F := Ideal) (V0 m c main_arg0) (V0 m c main_arg1) := by
  have h := s1_v28 (V2 m outs c)
  rw [keepV2 m outs c main_arg0 (by decide) (by decide), keepV2 m outs c main_arg1 (by decide) (by decide)] at h
  exact h

theorem V3_v30 : (V3 m outs c main_v30 : S64x64.Idx → EReal) = Cert.BridgeEdge.upper (val_main_v29 (F := Ideal) (V0 m c main_arg6)) := by
  have h := s1_v30 (V2 m outs c)
  rw [keepV2 m outs c main_arg6 (by decide) (by decide)] at h
  exact h

theorem V3_v32 : (V3 m outs c main_v32 : S64x64.Idx → EReal) = Cert.BridgeEdge.lower (val_main_v29 (F := Ideal) (V0 m c main_arg6)) := by
  have h := s1_v32 (V2 m outs c)
  rw [keepV2 m outs c main_arg6 (by decide) (by decide)] at h
  exact h

theorem V3_v35 : (V3 m outs c main_v35 : S800000x1.Idx → EReal) = val_main_v48 (F := Ideal) (V0 m c main_arg4) := by
  have h := s1_v35 (V2 m outs c)
  rw [keepV2 m outs c main_arg4 (by decide) (by decide)] at h
  exact h

theorem V3_v37 : (V3 m outs c main_v37 : S64.Idx → EReal) = val_main_v32 (F := Ideal) (V0 m c main_arg7) := by
  have h := s1_v37 (V2 m outs c)
  rw [keepV2 m outs c main_arg7 (by decide) (by decide)] at h
  exact h

theorem V3_v39 : (V3 m outs c main_v39 : S64x1.Idx → EReal) = val_main_v39 (F := Ideal) (V0 m c main_arg8) := by
  have h := s1_v39 (V2 m outs c)
  rw [keepV2 m outs c main_arg8 (by decide) (by decide)] at h
  exact h

theorem V3_v41 : (V3 m outs c main_v41 : S1.Idx → EReal) = val_main_v42 (F := Ideal) (V0 m c main_arg9) := by
  have h := s1_v41 (V2 m outs c)
  rw [keepV2 m outs c main_arg9 (by decide) (by decide)] at h
  exact h

/-- The gathered rows of region 0's output are the reference's gathered gated features. -/
theorem V3_v21 (hg : (outs 2 main_v10 c : S100000x64.Idx → EReal) = val_main_v117 (F := Ideal) (V0 m c main_arg0) (V0 m c main_arg5) (V0 m c main_arg10) (V0 m c main_arg11) (V0 m c main_arg12) (V0 m c main_arg13)) :
    (V3 m outs c main_v21 : S800000x64.Idx → EReal)
      = val_main_v125 (F := Ideal) (V0 m c main_arg0) (V0 m c main_arg2) (V0 m c main_arg5) (V0 m c main_arg10) (V0 m c main_arg11) (V0 m c main_arg12) (V0 m c main_arg13) := by
  have h := s1_v21 (V2 m outs c)
  have e10 : (V2 m outs c main_v10 : S100000x64.Idx → EReal) = outs 2 main_v10 c := by
    dsimp only [V2]; rw [Function.update_self]
  rw [keepV2 m outs c main_arg2 (by decide) (by decide), e10, hg] at h
  exact h

/-- Region 1's output is the reference's edge weights of layer 1. -/
theorem edgeOut1 (h4 : outs 4 main_v42 c = Cert.Spec.edgeGate (n := 800000) (V3 m outs c main_v28) (V3 m outs c main_v20) (V3 m outs c main_v35) (V3 m outs c main_v30) (V3 m outs c main_v32) (V3 m outs c main_v37) (V3 m outs c main_v39) (V3 m outs c main_v41)) :
    (outs 4 main_v42 c : S800000x1.Idx → EReal) = val_main_v57 (F := Ideal) (V0 m c main_arg0) (V0 m c main_arg1) (V0 m c main_arg2) (V0 m c main_arg4) (V0 m c main_arg6) (V0 m c main_arg7) (V0 m c main_arg8) (V0 m c main_arg9) := by
  rw [h4, V3_v28, V3_v20, V3_v35, V3_v30, V3_v32, V3_v37, V3_v39, V3_v41]
  exact (Cert.BridgeEdge.edge1 _ _ _ _ _ _ _ _).symm

section
variable (h2 : outs 2 main_v10 c = Cert.Spec.gated (n := 100000) (V1 m c main_arg0) (V1 m c main_v1) (V1 m c main_v3) (V1 m c main_v5) (V1 m c main_v7) (V1 m c main_v9))
  (h4 : outs 4 main_v42 c = Cert.Spec.edgeGate (n := 800000) (V3 m outs c main_v28) (V3 m outs c main_v20) (V3 m outs c main_v35) (V3 m outs c main_v30) (V3 m outs c main_v32) (V3 m outs c main_v37) (V3 m outs c main_v39) (V3 m outs c main_v41))
include h2 h4

theorem V4_v19 : (V4 m outs c main_v19 : S800000x64.Idx → EReal) = val_main_v7 (F := Ideal) (V4 m outs c main_arg0) (V4 m outs c main_arg2) := by
  rw [keepV4_of_V3 m outs c main_v19 (by decide), V3_v19, keepV4 m outs c main_arg0 (by decide) (by decide) (by decide) (by decide), keepV4 m outs c main_arg2 (by decide) (by decide) (by decide) (by decide)]
theorem V4_v20 : (V4 m outs c main_v20 : S800000x64.Idx → EReal) = val_main_v82 (F := Ideal) (V4 m outs c main_arg0) (V4 m outs c main_arg2) := by
  rw [keepV4_of_V3 m outs c main_v20 (by decide), V3_v20, keepV4 m outs c main_arg0 (by decide) (by decide) (by decide) (by decide), keepV4 m outs c main_arg2 (by decide) (by decide) (by decide) (by decide)]
  rfl
theorem V4_v21 : (V4 m outs c main_v21 : S800000x64.Idx → EReal)
    = val_main_v125 (F := Ideal) (V4 m outs c main_arg0) (V4 m outs c main_arg2) (V4 m outs c main_arg5) (V4 m outs c main_arg10) (V4 m outs c main_arg11) (V4 m outs c main_arg12) (V4 m outs c main_arg13) := by
  rw [keepV4_of_V3 m outs c main_v21 (by decide), V3_v21 m outs c (gate1 m outs c h2),
    keepV4 m outs c main_arg0 (by decide) (by decide) (by decide) (by decide), keepV4 m outs c main_arg2 (by decide) (by decide) (by decide) (by decide), keepV4 m outs c main_arg5 (by decide) (by decide) (by decide) (by decide), keepV4 m outs c main_arg10 (by decide) (by decide) (by decide) (by decide), keepV4 m outs c main_arg11 (by decide) (by decide) (by decide) (by decide), keepV4 m outs c main_arg12 (by decide) (by decide) (by decide) (by decide), keepV4 m outs c main_arg13 (by decide) (by decide) (by decide) (by decide)]
theorem V4_v42 : (V4 m outs c main_v42 : S800000x1.Idx → EReal)
    = val_main_v57 (F := Ideal) (V4 m outs c main_arg0) (V4 m outs c main_arg1) (V4 m outs c main_arg2) (V4 m outs c main_arg4) (V4 m outs c main_arg6) (V4 m outs c main_arg7) (V4 m outs c main_arg8) (V4 m outs c main_arg9) := by
  have e : (V4 m outs c main_v42 : S800000x1.Idx → EReal) = outs 4 main_v42 c := by
    dsimp only [V4]; rw [Function.update_self]
  rw [e, edgeOut1 m outs c h4, keepV4 m outs c main_arg0 (by decide) (by decide) (by decide) (by decide), keepV4 m outs c main_arg1 (by decide) (by decide) (by decide) (by decide), keepV4 m outs c main_arg2 (by decide) (by decide) (by decide) (by decide), keepV4 m outs c main_arg4 (by decide) (by decide) (by decide) (by decide), keepV4 m outs c main_arg6 (by decide) (by decide) (by decide) (by decide), keepV4 m outs c main_arg7 (by decide) (by decide) (by decide) (by decide), keepV4 m outs c main_arg8 (by decide) (by decide) (by decide) (by decide), keepV4 m outs c main_arg9 (by decide) (by decide) (by decide) (by decide)]

/-- Layer 1's first output array. -/
theorem V7_v76 : (V7 m outs c main_v76 : S100000x64.Idx → EReal) = val_main_v131 (F := Ideal) (V0 m c main_arg0) (V0 m c main_arg1) (V0 m c main_arg2) (V0 m c main_arg3) := by
  have h := t1_v76 (V4 m outs c) (V4_v19 m outs c h2 h4)
  rw [keepV4 m outs c main_arg0 (by decide) (by decide) (by decide) (by decide), keepV4 m outs c main_arg1 (by decide) (by decide) (by decide) (by decide), keepV4 m outs c main_arg2 (by decide) (by decide) (by decide) (by decide), keepV4 m outs c main_arg3 (by decide) (by decide) (by decide) (by decide)] at h
  exact h
theorem V5_v43 : (V5 m outs c main_v43 : S800000.Idx → EReal) = val_main_v58 (F := Ideal) (V0 m c main_arg0) (V0 m c main_arg1) (V0 m c main_arg2) (V0 m c main_arg4) (V0 m c main_arg6) (V0 m c main_arg7) (V0 m c main_arg8) (V0 m c main_arg9) := by
  have h := s2_v43 (V4 m outs c) (V4_v42 m outs c h2 h4)
  rw [keepV4 m outs c main_arg0 (by decide) (by decide) (by decide) (by decide), keepV4 m outs c main_arg1 (by decide) (by decide) (by decide) (by decide), keepV4 m outs c main_arg2 (by decide) (by decide) (by decide) (by decide), keepV4 m outs c main_arg4 (by decide) (by decide) (by decide) (by decide), keepV4 m outs c main_arg6 (by decide) (by decide) (by decide) (by decide), keepV4 m outs c main_arg7 (by decide) (by decide) (by decide) (by decide), keepV4 m outs c main_arg8 (by decide) (by decide) (by decide) (by decide), keepV4 m outs c main_arg9 (by decide) (by decide) (by decide) (by decide)] at h
  exact h
theorem V5_v48 : (V5 m outs c main_v48 : (⟨S100000, .i1⟩ : BufTy).Contents (Elt Ideal)) = val_main_v63 (F := Ideal) (V0 m c main_arg0) (V0 m c main_arg1) (V0 m c main_arg2) (V0 m c main_arg4) (V0 m c main_arg6) (V0 m c main_arg7) (V0 m c main_arg8) (V0 m c main_arg9) := by
  have h := s2_v48 (V4 m outs c) (V4_v42 m outs c h2 h4)
  rw [keepV4 m outs c main_arg0 (by decide) (by decide) (by decide) (by decide), keepV4 m outs c main_arg1 (by decide) (by decide) (by decide) (by decide), keepV4 m outs c main_arg2 (by decide) (by decide) (by decide) (by decide), keepV4 m outs c main_arg4 (by decide) (by decide) (by decide) (by decide), keepV4 m outs c main_arg6 (by decide) (by decide) (by decide) (by decide), keepV4 m outs c main_arg7 (by decide) (by decide) (by decide) (by decide), keepV4 m outs c main_arg8 (by decide) (by decide) (by decide) (by decide), keepV4 m outs c main_arg9 (by decide) (by decide) (by decide) (by decide)] at h
  exact h
theorem V5_v50 : (V5 m outs c main_v50 : S100000.Idx → EReal) = val_main_v65 (F := Ideal) (V0 m c main_arg0) (V0 m c main_arg1) (V0 m c main_arg2) (V0 m c main_arg4) (V0 m c main_arg6) (V0 m c main_arg7) (V0 m c main_arg8) (V0 m c main_arg9) := by
  have h := s2_v50 (V4 m outs c) (V4_v42 m outs c h2 h4)
  rw [keepV4 m outs c main_arg0 (by decide) (by decide) (by decide) (by decide), keepV4 m outs c main_arg1 (by decide) (by decide) (by decide) (by decide), keepV4 m outs c main_arg2 (by decide) (by decide) (by decide) (by decide), keepV4 m outs c main_arg4 (by decide) (by decide) (by decide) (by decide), keepV4 m outs c main_arg6 (by decide) (by decide) (by decide) (by decide), keepV4 m outs c main_arg7 (by decide) (by decide) (by decide) (by decide), keepV4 m outs c main_arg8 (by decide) (by decide) (by decide) (by decide), keepV4 m outs c main_arg9 (by decide) (by decide) (by decide) (by decide)] at h
  exact h
theorem V5_cst5 : (V5 m outs c main_cst_5 : S_.Idx → EReal) = val_main_cst_12 (F := Ideal) := s2_cst5 (V4 m outs c)
theorem V6_v51 : (V6 m outs c main_v51 : S100000.Idx → EReal) = val_main_v66 (F := Ideal) (V0 m c main_arg0) (V0 m c main_arg1) (V0 m c main_arg2) (V0 m c main_arg4) (V0 m c main_arg6) (V0 m c main_arg7) (V0 m c main_arg8) (V0 m c main_arg9) := by
  have h := s21_v51 (V5 m outs c)
  rw [V5_v48 m outs c h2 h4, V5_v50 m outs c h2 h4, V5_cst5 m outs c h2 h4] at h
  exact h
theorem V6_v43 : (V6 m outs c main_v43 : S800000.Idx → EReal) = val_main_v58 (F := Ideal) (V0 m c main_arg0) (V0 m c main_arg1) (V0 m c main_arg2) (V0 m c main_arg4) (V0 m c main_arg6) (V0 m c main_arg7) (V0 m c main_arg8) (V0 m c main_arg9) :=
  (after_of_writes_sub _ _ hostOps2_1_writes (by decide)).trans (V5_v43 m outs c h2 h4)
theorem V6_v20 : (V6 m outs c main_v20 : S800000x64.Idx → EReal) = val_main_v82 (F := Ideal) (V0 m c main_arg0) (V0 m c main_arg2) := by
  rw [keepV6_of_V4 m outs c main_v20 (by decide) (by decide), keepV4_of_V3 m outs c main_v20 (by decide), V3_v20]
  rfl
theorem V7_v77 : (V7 m outs c main_v77 : S100000x64.Idx → EReal) = val_main_v132 (F := Ideal) (V0 m c main_arg0) (V0 m c main_arg1) (V0 m c main_arg2) (V0 m c main_arg4) (V0 m c main_arg6) (V0 m c main_arg7) (V0 m c main_arg8) (V0 m c main_arg9) := by
  have h := s22_v77 (V6 m outs c)
    (by rw [keepV6 m outs c main_arg0 (by decide) (by decide) (by decide) (by decide) (by decide) (by decide), keepV6 m outs c main_arg2 (by decide) (by decide) (by decide) (by decide) (by decide) (by decide)]; exact V6_v20 m outs c h2 h4)
    (by rw [keepV6 m outs c main_arg0 (by decide) (by decide) (by decide) (by decide) (by decide) (by decide), keepV6 m outs c main_arg1 (by decide) (by decide) (by decide) (by decide) (by decide) (by decide), keepV6 m outs c main_arg2 (by decide) (by decide) (by decide) (by decide) (by decide) (by decide), keepV6 m outs c main_arg4 (by decide) (by decide) (by decide) (by decide) (by decide) (by decide), keepV6 m outs c main_arg6 (by decide) (by decide) (by decide) (by decide) (by decide) (by decide), keepV6 m outs c main_arg7 (by decide) (by decide) (by decide) (by decide) (by decide) (by decide), keepV6 m outs c main_arg8 (by decide) (by decide) (by decide) (by decide) (by decide) (by decide), keepV6 m outs c main_arg9 (by decide) (by decide) (by decide) (by decide) (by decide) (by decide)]; exact V6_v43 m outs c h2 h4)
    (by rw [keepV6 m outs c main_arg0 (by decide) (by decide) (by decide) (by decide) (by decide) (by decide), keepV6 m outs c main_arg1 (by decide) (by decide) (by decide) (by decide) (by decide) (by decide), keepV6 m outs c main_arg2 (by decide) (by decide) (by decide) (by decide) (by decide) (by decide), keepV6 m outs c main_arg4 (by decide) (by decide) (by decide) (by decide) (by decide) (by decide), keepV6 m outs c main_arg6 (by decide) (by decide) (by decide) (by decide) (by decide) (by decide), keepV6 m outs c main_arg7 (by decide) (by decide) (by decide) (by decide) (by decide) (by decide), keepV6 m outs c main_arg8 (by decide) (by decide) (by decide) (by decide) (by decide) (by decide), keepV6 m outs c main_arg9 (by decide) (by decide) (by decide) (by decide) (by decide) (by decide)]; exact V6_v51 m outs c h2 h4)
  rw [keepV6 m outs c main_arg0 (by decide) (by decide) (by decide) (by decide) (by decide) (by decide), keepV6 m outs c main_arg1 (by decide) (by decide) (by decide) (by decide) (by decide) (by decide), keepV6 m outs c main_arg2 (by decide) (by decide) (by decide) (by decide) (by decide) (by decide), keepV6 m outs c main_arg4 (by decide) (by decide) (by decide) (by decide) (by decide) (by decide), keepV6 m outs c main_arg6 (by decide) (by decide) (by decide) (by decide) (by decide) (by decide), keepV6 m outs c main_arg7 (by decide) (by decide) (by decide) (by decide) (by decide) (by decide), keepV6 m outs c main_arg8 (by decide) (by decide) (by decide) (by decide) (by decide) (by decide), keepV6 m outs c main_arg9 (by decide) (by decide) (by decide) (by decide) (by decide) (by decide)] at h
  exact h
theorem V7_v78 : (V7 m outs c main_v78 : S100000x64.Idx → EReal) = val_main_v133 (F := Ideal) (V0 m c main_arg0) (V0 m c main_arg1) (V0 m c main_arg2) (V0 m c main_arg3) (V0 m c main_arg5) (V0 m c main_arg10) (V0 m c main_arg11) (V0 m c main_arg12) (V0 m c main_arg13) := by
  have h := t1_v78 (V4 m outs c) (V4_v21 m outs c h2 h4)
  rw [keepV4 m outs c main_arg0 (by decide) (by decide) (by decide) (by decide), keepV4 m outs c main_arg1 (by decide) (by decide) (by decide) (by decide), keepV4 m outs c main_arg2 (by decide) (by decide) (by decide) (by decide), keepV4 m outs c main_arg3 (by decide) (by decide) (by decide) (by decide), keepV4 m outs c main_arg5 (by decide) (by decide) (by decide) (by decide), keepV4 m outs c main_arg10 (by decide) (by decide) (by decide) (by decide), keepV4 m outs c main_arg11 (by decide) (by decide) (by decide) (by decide), keepV4 m outs c main_arg12 (by decide) (by decide) (by decide) (by decide), keepV4 m outs c main_arg13 (by decide) (by decide) (by decide) (by decide)] at h
  exact h
theorem V7_v79 : (V7 m outs c main_v79 : S100000x64.Idx → EReal) = val_main_v134 (F := Ideal) (V0 m c main_arg0) (V0 m c main_arg1) (V0 m c main_arg2) (V0 m c main_arg3) := by
  have h := t1_v79 (V4 m outs c) (V4_v19 m outs c h2 h4)
  rw [keepV4 m outs c main_arg0 (by decide) (by decide) (by decide) (by decide), keepV4 m outs c main_arg1 (by decide) (by decide) (by decide) (by decide), keepV4 m outs c main_arg2 (by decide) (by decide) (by decide) (by decide), keepV4 m outs c main_arg3 (by decide) (by decide) (by decide) (by decide)] at h
  exact h
theorem V7_v80 : (V7 m outs c main_v80 : S100000x64.Idx → EReal) = val_main_v135 (F := Ideal) (V0 m c main_arg0) (V0 m c main_arg1) (V0 m c main_arg2) (V0 m c main_arg4) (V0 m c main_arg6) (V0 m c main_arg7) (V0 m c main_arg8) (V0 m c main_arg9) := by
  have h := s22_v80 (V6 m outs c)
    (by rw [keepV6 m outs c main_arg0 (by decide) (by decide) (by decide) (by decide) (by decide) (by decide), keepV6 m outs c main_arg2 (by decide) (by decide) (by decide) (by decide) (by decide) (by decide)]; exact V6_v20 m outs c h2 h4)
    (by rw [keepV6 m outs c main_arg0 (by decide) (by decide) (by decide) (by decide) (by decide) (by decide), keepV6 m outs c main_arg1 (by decide) (by decide) (by decide) (by decide) (by decide) (by decide), keepV6 m outs c main_arg2 (by decide) (by decide) (by decide) (by decide) (by decide) (by decide), keepV6 m outs c main_arg4 (by decide) (by decide) (by decide) (by decide) (by decide) (by decide), keepV6 m outs c main_arg6 (by decide) (by decide) (by decide) (by decide) (by decide) (by decide), keepV6 m outs c main_arg7 (by decide) (by decide) (by decide) (by decide) (by decide) (by decide), keepV6 m outs c main_arg8 (by decide) (by decide) (by decide) (by decide) (by decide) (by decide), keepV6 m outs c main_arg9 (by decide) (by decide) (by decide) (by decide) (by decide) (by decide)]; exact V6_v43 m outs c h2 h4)
    (by rw [keepV6 m outs c main_arg0 (by decide) (by decide) (by decide) (by decide) (by decide) (by decide), keepV6 m outs c main_arg1 (by decide) (by decide) (by decide) (by decide) (by decide) (by decide), keepV6 m outs c main_arg2 (by decide) (by decide) (by decide) (by decide) (by decide) (by decide), keepV6 m outs c main_arg4 (by decide) (by decide) (by decide) (by decide) (by decide) (by decide), keepV6 m outs c main_arg6 (by decide) (by decide) (by decide) (by decide) (by decide) (by decide), keepV6 m outs c main_arg7 (by decide) (by decide) (by decide) (by decide) (by decide) (by decide), keepV6 m outs c main_arg8 (by decide) (by decide) (by decide) (by decide) (by decide) (by decide), keepV6 m outs c main_arg9 (by decide) (by decide) (by decide) (by decide) (by decide) (by decide)]; exact V6_v51 m outs c h2 h4)
  rw [keepV6 m outs c main_arg0 (by decide) (by decide) (by decide) (by decide) (by decide) (by decide), keepV6 m outs c main_arg1 (by decide) (by decide) (by decide) (by decide) (by decide) (by decide), keepV6 m outs c main_arg2 (by decide) (by decide) (by decide) (by decide) (by decide) (by decide), keepV6 m outs c main_arg4 (by decide) (by decide) (by decide) (by decide) (by decide) (by decide), keepV6 m outs c main_arg6 (by decide) (by decide) (by decide) (by decide) (by decide) (by decide), keepV6 m outs c main_arg7 (by decide) (by decide) (by decide) (by decide) (by decide) (by decide), keepV6 m outs c main_arg8 (by decide) (by decide) (by decide) (by decide) (by decide) (by decide), keepV6 m outs c main_arg9 (by decide) (by decide) (by decide) (by decide) (by decide) (by decide)] at h
  exact h
theorem V7_v81 : (V7 m outs c main_v81 : S100000x64.Idx → EReal) = val_main_v136 (F := Ideal) (V0 m c main_arg0) (V0 m c main_arg1) (V0 m c main_arg2) (V0 m c main_arg3) (V0 m c main_arg5) (V0 m c main_arg10) (V0 m c main_arg11) (V0 m c main_arg12) (V0 m c main_arg13) := by
  have h := t1_v81 (V4 m outs c) (V4_v21 m outs c h2 h4)
  rw [keepV4 m outs c main_arg0 (by decide) (by decide) (by decide) (by decide), keepV4 m outs c main_arg1 (by decide) (by decide) (by decide) (by decide), keepV4 m outs c main_arg2 (by decide) (by decide) (by decide) (by decide), keepV4 m outs c main_arg3 (by decide) (by decide) (by decide) (by decide), keepV4 m outs c main_arg5 (by decide) (by decide) (by decide) (by decide), keepV4 m outs c main_arg10 (by decide) (by decide) (by decide) (by decide), keepV4 m outs c main_arg11 (by decide) (by decide) (by decide) (by decide), keepV4 m outs c main_arg12 (by decide) (by decide) (by decide) (by decide), keepV4 m outs c main_arg13 (by decide) (by decide) (by decide) (by decide)] at h
  exact h

end

theorem V7_v83 : (V7 m outs c main_v83 : S100000x64.Idx → EReal) = val_main_v244 (F := Ideal) (V0 m c main_arg5) := by
  have h := t1_v83 (V4 m outs c); rw [keepV4 m outs c main_arg5 (by decide) (by decide) (by decide) (by decide)] at h; exact h
theorem V7_v85 : (V7 m outs c main_v85 : S64x64.Idx → EReal) = val_main_v226 (F := Ideal) (V0 m c main_arg10) := by
  have h := t1_v85 (V4 m outs c); rw [keepV4 m outs c main_arg10 (by decide) (by decide) (by decide) (by decide)] at h; exact h
theorem V7_v87 : (V7 m outs c main_v87 : S64.Idx → EReal) = val_main_v229 (F := Ideal) (V0 m c main_arg11) := by
  have h := t1_v87 (V4 m outs c); rw [keepV4 m outs c main_arg11 (by decide) (by decide) (by decide) (by decide)] at h; exact h
theorem V7_v89 : (V7 m outs c main_v89 : S64x64.Idx → EReal) = val_main_v236 (F := Ideal) (V0 m c main_arg12) := by
  have h := t1_v89 (V4 m outs c); rw [keepV4 m outs c main_arg12 (by decide) (by decide) (by decide) (by decide)] at h; exact h
theorem V7_v91 : (V7 m outs c main_v91 : S64.Idx → EReal) = val_main_v239 (F := Ideal) (V0 m c main_arg13) := by
  have h := t1_v91 (V4 m outs c); rw [keepV4 m outs c main_arg13 (by decide) (by decide) (by decide) (by decide)] at h; exact h

/-- An argument array is still at its launch contents when layer 2 starts. -/
theorem keepV7 (r : Ref sig .tc) (h0 : r ∉ hostOps0_W) (h10 : r ≠ main_v10) (h1 : r ∉ hostOps1_W) (h42 : r ≠ main_v42)
    (h2w : r ∉ hostOps2_W) (h21 : r ∉ hostOps2_1_W) (h22 : r ∉ hostOps2_2_W) : V7 m outs c r = V0 m c r :=
  (after_of_writes_sub _ _ hostOps2_2_writes h22).trans ((after_of_writes_sub _ _ hostOps2_1_writes h21).trans
    ((after_of_writes_sub _ _ hostOps2_writes h2w).trans (keepV4 m outs c r h0 h10 h1 h42)))

end Chain

end Cert.Bridge1
-- ==== Proof.Bridge2.lean ====
import proofs.«170728_j33028298506953_2_alg».proof.Proof.Gen.KernelIdeal.Regions
import proofs.«170728_j33028298506953_2_alg».proof.Proof.RefRead
import proofs.«170728_j33028298506953_2_alg».proof.Proof.LibFusedGather
import proofs.«170728_j33028298506953_2_alg».proof.Proof.LibFusedScatter
import proofs.«170728_j33028298506953_2_alg».proof.Proof.BridgeNode
import proofs.«170728_j33028298506953_2_alg».proof.Proof.BridgeEdge
import proofs.«170728_j33028298506953_2_alg».proof.Proof.BridgeLayout

/-!
# Layer 2 of the kernel program's host side, buffer by buffer, against the reference's stages

After layer 1 the kernel program holds six arrays (three embeddings and their running sums). Layer 2 gates the third
embedding (a kernel region), gathers rows of the three embeddings laid side by side at the tail indices and rows of
the second at the head indices, computes the edge weights (a kernel region), normalises them per head node, scales the
gathered rows, scatter-adds the three scaled arrays side by side into the head nodes, adds the embeddings and the
running sums, and stacks the three results. Over any contents of the buffers before a stretch of host operations each
buffer the stretch writes is a composed term of those contents; a band cut out of the side-by-side gather (scatter-add)
is the gather (scatter-add) of the one array; with layer 1's arrays and the two regions' outputs equal to the
reference program's stages, each buffer is the reference's stage of the same operation, up to the last one.
-/

/-- The contents of a buffer after a line of host operations, as one rewriting pass; an operation of several operands
    (a concatenation) has its operand list `![a, b, c] k` evaluated so that the operands' contents are rewritten too. -/
macro "after_results_l2" : tactic =>
  `(tactic| repeat (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result', Idealize.ShloMosaic.StableHlo.ternary_result',
      Idealize.ShloMosaic.StableHlo.quaternary_result', Idealize.ShloMosaic.StableHlo.reshape_result', Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne', Idealize.ShloMosaic.StableHlo.ternary_result_ne',
      Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne', Matrix.cons_val]))

namespace Cert.Bridge2

open Cert.KernelIdeal Cert.KernelIdeal.Gen Idealize.ShloMosaic Idealize.ShloMosaic.TcCoe Idealize.ShloMosaic.StableHlo
open Cert.ReferenceIdeal.ReadP

/-! ## The stretch before region 3: the gathered rows and the edge perceptron's operands -/

section Stretch3
variable (W : Valuation τ sig (Elt Ideal))

/-- Band 0 of the fused gather: the rows of the first embedding at the tail indices. -/
theorem s3_v101 : (StableHlo.after hostOps3 W main_v101 : S800000x64.Idx → EReal)
    = Host.gather Cert.ReferenceIdeal.gather_S100000x64_S800000x1_S800000x64_1_0_n_n_0_1_164 (W main_v76) (val_main_v143 (F := Ideal) (W main_arg2)) := by
  after_results_l2
  refine ((Cert.LibFused.band_gather_concat3 (N := 100000) (E := 800000) (by decide) _ _
    gather_S100000x64_S800000x1_S800000x64_1_0_n_n_0_1_164_wf slices_S800000x192_S800000x64_0_0 slices_S800000x192_S800000x64_0_64
    slices_S800000x192_S800000x64_0_128 _ _ _ _).1).trans ?_
  rfl
/-- Band 1: the rows of the second embedding at the tail indices. -/
theorem s3_v102 : (StableHlo.after hostOps3 W main_v102 : S800000x64.Idx → EReal)
    = Host.gather Cert.ReferenceIdeal.gather_S100000x64_S800000x1_S800000x64_1_0_n_n_0_1_164 (W main_v77) (val_main_v162 (F := Ideal) (W main_arg2)) := by
  after_results_l2
  refine ((Cert.LibFused.band_gather_concat3 (N := 100000) (E := 800000) (by decide) _ _
    gather_S100000x64_S800000x1_S800000x64_1_0_n_n_0_1_164_wf slices_S800000x192_S800000x64_0_0 slices_S800000x192_S800000x64_0_64
    slices_S800000x192_S800000x64_0_128 _ _ _ _).2.1).trans ?_
  rfl
/-- Band 2: the rows of region 2's output at the tail indices. -/
theorem s3_v103 : (StableHlo.after hostOps3 W main_v103 : S800000x64.Idx → EReal)
    = Host.gather Cert.ReferenceIdeal.gather_S100000x64_S800000x1_S800000x64_1_0_n_n_0_1_164 (W main_v92) (val_main_v261 (F := Ideal) (W main_arg2)) := by
  after_results_l2
  refine ((Cert.LibFused.band_gather_concat3 (N := 100000) (E := 800000) (by decide) _ _
    gather_S100000x64_S800000x1_S800000x64_1_0_n_n_0_1_164_wf slices_S800000x192_S800000x64_0_0 slices_S800000x192_S800000x64_0_64
    slices_S800000x192_S800000x64_0_128 _ _ _ _).2.2).trans ?_
  rfl
/-- The rows of the second embedding at the head indices. -/
theorem s3_v110 : (StableHlo.after hostOps3 W main_v110 : S800000x64.Idx → EReal)
    = Host.gather Cert.ReferenceIdeal.gather_S100000x64_S800000x1_S800000x64_1_0_n_n_0_1_164 (W main_v77) (val_main_v155 (F := Ideal) (W main_arg1)) := by
  after_results_l2; rfl
theorem s3_v112 : (StableHlo.after hostOps3 W main_v112 : S64x64.Idx → EReal)
    = Cert.BridgeEdge.upper (val_main_v166 (F := Ideal) (W main_arg6)) := by
  after_results_l2
  exact Cert.BridgeLayout.upper_eq 1 (by decide) _ _ _ _ _
theorem s3_v114 : (StableHlo.after hostOps3 W main_v114 : S64x64.Idx → EReal)
    = Cert.BridgeEdge.lower (val_main_v166 (F := Ideal) (W main_arg6)) := by
  after_results_l2
  exact Cert.BridgeLayout.lower_eq 1 (by decide) _ _ _ _ _
theorem s3_v117 : (StableHlo.after hostOps3 W main_v117 : S800000x1.Idx → EReal) = val_main_v185 (F := Ideal) (W main_arg4) := by
  after_results_l2
  exact Cert.BridgeLayout.column_eq _ _ _ (by decide)
theorem s3_v119 : (StableHlo.after hostOps3 W main_v119 : S64.Idx → EReal) = val_main_v169 (F := Ideal) (W main_arg7) := by
  after_results_l2; rfl
theorem s3_v121 : (StableHlo.after hostOps3 W main_v121 : S64x1.Idx → EReal) = val_main_v176 (F := Ideal) (W main_arg8) := by
  after_results_l2; rfl
theorem s3_v123 : (StableHlo.after hostOps3 W main_v123 : S1.Idx → EReal) = val_main_v179 (F := Ideal) (W main_arg9) := by
  after_results_l2; rfl

end Stretch3

/-! ## The stretches after region 3: the normalised weights, the scaled rows, the scatter-add and the sums -/

section Tail
variable (x0 : (⟨Cert.ReferenceIdeal.S100000x64, .f32⟩ : BufTy).Contents (Elt Ideal))
  (x1 x2 : (⟨Cert.ReferenceIdeal.S800000, .i32⟩ : BufTy).Contents (Elt Ideal))
  (x3 : (⟨Cert.ReferenceIdeal.S800000, .f32⟩ : BufTy).Contents (Elt Ideal))
  (x4 : (⟨Cert.ReferenceIdeal.S2x800000, .f32⟩ : BufTy).Contents (Elt Ideal))
  (x5 : (⟨Cert.ReferenceIdeal.S2x100000x64, .f32⟩ : BufTy).Contents (Elt Ideal))
  (x6 : (⟨Cert.ReferenceIdeal.S2x128x64, .f32⟩ : BufTy).Contents (Elt Ideal))
  (x7 : (⟨Cert.ReferenceIdeal.S2x64, .f32⟩ : BufTy).Contents (Elt Ideal))
  (x8 : (⟨Cert.ReferenceIdeal.S2x64x1, .f32⟩ : BufTy).Contents (Elt Ideal))
  (x9 : (⟨Cert.ReferenceIdeal.S2x1, .f32⟩ : BufTy).Contents (Elt Ideal))
  (x10 : (⟨Cert.ReferenceIdeal.S2x64x64, .f32⟩ : BufTy).Contents (Elt Ideal))
  (x11 : (⟨Cert.ReferenceIdeal.S2x64, .f32⟩ : BufTy).Contents (Elt Ideal))
  (x12 : (⟨Cert.ReferenceIdeal.S2x64x64, .f32⟩ : BufTy).Contents (Elt Ideal))
  (x13 : (⟨Cert.ReferenceIdeal.S2x64, .f32⟩ : BufTy).Contents (Elt Ideal))

/-- The three bands of the fused scatter-add into zeros: each is the scatter-add of its own update array into zeros. -/
theorem bands_scatter (idx : (⟨S800000x1, .i32⟩ : BufTy).Contents (Elt Ideal)) (u0 u1 u2 : FVec Ideal S800000x64 .f32) :
    extractStridedSlice S100000x64 ![0, 0]
        (Host.scatterAdd (F := Ideal) scatter_S100000x192_S800000x1_S800000x192_1_0_0_1
          (broadcastInDim S100000x192 ![] bcast_S_S100000x192 (constant (F := Ideal) S_ .f32 0x00000000#32)) idx
          (concatenate S800000x192 1 [⟨S800000x64, u0⟩, ⟨S800000x64, u1⟩, ⟨S800000x64, u2⟩]
            concatenates_S800000x64_S800000x64_S800000x64_S800000x192_d1)) slices_S100000x192_S100000x64_0_0
      = Host.scatterAdd (F := Ideal) Cert.ReferenceIdeal.scatter_S100000x64_S800000x1_S800000x64_1_0_0_1 (val_main_v147 (F := Ideal)) idx u0
    ∧ extractStridedSlice S100000x64 ![0, 64]
        (Host.scatterAdd (F := Ideal) scatter_S100000x192_S800000x1_S800000x192_1_0_0_1
          (broadcastInDim S100000x192 ![] bcast_S_S100000x192 (constant (F := Ideal) S_ .f32 0x00000000#32)) idx
          (concatenate S800000x192 1 [⟨S800000x64, u0⟩, ⟨S800000x64, u1⟩, ⟨S800000x64, u2⟩]
            concatenates_S800000x64_S800000x64_S800000x64_S800000x192_d1)) slices_S100000x192_S100000x64_0_64
      = Host.scatterAdd (F := Ideal) Cert.ReferenceIdeal.scatter_S100000x64_S800000x1_S800000x64_1_0_0_1 (val_main_v222 (F := Ideal)) idx u1
    ∧ extractStridedSlice S100000x64 ![0, 128]
        (Host.scatterAdd (F := Ideal) scatter_S100000x192_S800000x1_S800000x192_1_0_0_1
          (broadcastInDim S100000x192 ![] bcast_S_S100000x192 (constant (F := Ideal) S_ .f32 0x00000000#32)) idx
          (concatenate S800000x192 1 [⟨S800000x64, u0⟩, ⟨S800000x64, u1⟩, ⟨S800000x64, u2⟩]
            concatenates_S800000x64_S800000x64_S800000x64_S800000x192_d1)) slices_S100000x192_S100000x64_0_128
      = Host.scatterAdd (F := Ideal) Cert.ReferenceIdeal.scatter_S100000x64_S800000x1_S800000x64_1_0_0_1 (val_main_v265 (F := Ideal)) idx u2 :=
  Cert.LibFused.band_scatterAdd_concat3 (N := 100000) (E := 800000) _ _
    Cert.ReferenceIdeal.Facts₀.scatter_S100000x64_S800000x1_S800000x64_1_0_0_1_wf _ _ _ _ _ _ _
    (fun _ _ => rfl) (fun _ _ => rfl) (fun _ _ => rfl) u0 u1 u2 idx

variable (W : Valuation τ sig (Elt Ideal))

/-- The edge weights of layer 2 as a vector. -/
theorem t4_v125 (h124 : (W main_v124 : S800000x1.Idx → EReal) = val_main_v194 (F := Ideal) x0 x1 x2 x4 x6 x7 x8 x9) :
    (StableHlo.after hostOps4 W main_v125 : S800000.Idx → EReal) = val_main_v195 (F := Ideal) x0 x1 x2 x4 x6 x7 x8 x9 := by
  after_results_l2
  rw [h124]
  rfl

/-- Where the summed weights of a head node are positive. -/
theorem t4_v130 (h124 : (W main_v124 : S800000x1.Idx → EReal) = val_main_v194 (F := Ideal) x0 x1 x2 x4 x6 x7 x8 x9)
    (h1 : (W main_arg1 : (⟨S800000, .i32⟩ : BufTy).Contents (Elt Ideal)) = x1) :
    (StableHlo.after hostOps4 W main_v130 : (⟨S100000, .i1⟩ : BufTy).Contents (Elt Ideal)) = val_main_v200 (F := Ideal) x0 x1 x2 x4 x6 x7 x8 x9 := by
  after_results_l2
  rw [h124, h1]
  rfl

/-- The reciprocal of the summed weights of a head node. -/
theorem t4_v132 (h124 : (W main_v124 : S800000x1.Idx → EReal) = val_main_v194 (F := Ideal) x0 x1 x2 x4 x6 x7 x8 x9)
    (h1 : (W main_arg1 : (⟨S800000, .i32⟩ : BufTy).Contents (Elt Ideal)) = x1) :
    (StableHlo.after hostOps4 W main_v132 : S100000.Idx → EReal) = val_main_v202 (F := Ideal) x0 x1 x2 x4 x6 x7 x8 x9 := by
  after_results_l2
  rw [h124, h1]
  rfl

/-- The zero the selection falls back to. -/
theorem t4_cst16 : (StableHlo.after hostOps4 W main_cst_16 : S_.Idx → EReal) = val_main_cst_39 (F := Ideal) := by
  after_results_l2
  rfl

/-- The selection: the reciprocal where the sum is positive, zero elsewhere. -/
theorem t41_v133
    (h130 : (W main_v130 : (⟨S100000, .i1⟩ : BufTy).Contents (Elt Ideal)) = val_main_v200 (F := Ideal) x0 x1 x2 x4 x6 x7 x8 x9)
    (h132 : (W main_v132 : S100000.Idx → EReal) = val_main_v202 (F := Ideal) x0 x1 x2 x4 x6 x7 x8 x9)
    (hc : (W main_cst_16 : S_.Idx → EReal) = val_main_cst_39 (F := Ideal)) :
    (StableHlo.after hostOps4_1 W main_v133 : S100000.Idx → EReal) = val_main_v203 (F := Ideal) x0 x1 x2 x4 x6 x7 x8 x9 := by
  have e : (StableHlo.after hostOps4_1 W main_v133 : S100000.Idx → EReal)
      = select (W main_v130 : (⟨S100000, .i1⟩ : BufTy).Contents (Elt Ideal)) (W main_v132 : S100000.Idx → EReal)
          (broadcastInDim S100000 ![] bcast_S_S100000 (W main_cst_16 : S_.Idx → EReal)) := rfl
  rw [e, h130, h132, hc]
  rfl

end Tail

section Tail2
variable (x0 : (⟨Cert.ReferenceIdeal.S100000x64, .f32⟩ : BufTy).Contents (Elt Ideal))
  (x1 x2 : (⟨Cert.ReferenceIdeal.S800000, .i32⟩ : BufTy).Contents (Elt Ideal))
  (x3 : (⟨Cert.ReferenceIdeal.S800000, .f32⟩ : BufTy).Contents (Elt Ideal))
  (x4 : (⟨Cert.ReferenceIdeal.S2x800000, .f32⟩ : BufTy).Contents (Elt Ideal))
  (x5 : (⟨Cert.ReferenceIdeal.S2x100000x64, .f32⟩ : BufTy).Contents (Elt Ideal))
  (x6 : (⟨Cert.ReferenceIdeal.S2x128x64, .f32⟩ : BufTy).Contents (Elt Ideal))
  (x7 : (⟨Cert.ReferenceIdeal.S2x64, .f32⟩ : BufTy).Contents (Elt Ideal))
  (x8 : (⟨Cert.ReferenceIdeal.S2x64x1, .f32⟩ : BufTy).Contents (Elt Ideal))
  (x9 : (⟨Cert.ReferenceIdeal.S2x1, .f32⟩ : BufTy).Contents (Elt Ideal))
  (x10 : (⟨Cert.ReferenceIdeal.S2x64x64, .f32⟩ : BufTy).Contents (Elt Ideal))
  (x11 : (⟨Cert.ReferenceIdeal.S2x64, .f32⟩ : BufTy).Contents (Elt Ideal))
  (x12 : (⟨Cert.ReferenceIdeal.S2x64x64, .f32⟩ : BufTy).Contents (Elt Ideal))
  (x13 : (⟨Cert.ReferenceIdeal.S2x64, .f32⟩ : BufTy).Contents (Elt Ideal))
variable (W : Valuation τ sig (Elt Ideal))

/-- Two concatenations of three pieces of one shape are equal when the pieces are. -/
theorem concat3_congr {α : Type} (t s : Shape) (a : Fin t.rank) (A0 A1 A2 B0 B1 B2 : s.Idx → α)
    (hA : Shape.Concatenates (([⟨s, A0⟩, ⟨s, A1⟩, ⟨s, A2⟩] : List ((s : Shape) × (s.Idx → α))).map (·.1)) t a)
    (hB : Shape.Concatenates (([⟨s, B0⟩, ⟨s, B1⟩, ⟨s, B2⟩] : List ((s : Shape) × (s.Idx → α))).map (·.1)) t a)
    (h0 : A0 = B0) (h1 : A1 = B1) (h2 : A2 = B2) :
    concatenate t a [⟨s, A0⟩, ⟨s, A1⟩, ⟨s, A2⟩] hA = concatenate t a [⟨s, B0⟩, ⟨s, B1⟩, ⟨s, B2⟩] hB := by
  subst h0 h1 h2; rfl

/-- The first result: the first embedding's scaled rows scatter-added, plus the embedding, plus its running sum. -/
theorem u_v164
    (h101 : (W main_v101 : S800000x64.Idx → EReal) = val_main_v144 (F := Ideal) x0 x1 x2 x3)
    (h76 : (W main_v76 : S100000x64.Idx → EReal) = val_main_v131 (F := Ideal) x0 x1 x2 x3)
    (h79 : (W main_v79 : S100000x64.Idx → EReal) = val_main_v134 (F := Ideal) x0 x1 x2 x3)
    (h1 : (W main_arg1 : (⟨S800000, .i32⟩ : BufTy).Contents (Elt Ideal)) = x1)
    (h3 : (W main_arg3 : S800000.Idx → EReal) = x3) :
    (StableHlo.after hostOps4_2 W main_v164 : S1x100000x64.Idx → EReal) = val_main_v274 (F := Ideal) x0 x1 x2 x3 := by
  after_results_l2
  rw [(bands_scatter _ _ _ _).1]
  after_results_l2
  rw [h101, h76, h79, h1, h3]
  rfl

/-- The second result: the second embedding's rows scaled by the normalised edge weights, scatter-added, plus the
    embedding, plus its running sum. -/
theorem u_v165
    (h133 : (W main_v133 : S100000.Idx → EReal) = val_main_v203 (F := Ideal) x0 x1 x2 x4 x6 x7 x8 x9)
    (h125 : (W main_v125 : S800000.Idx → EReal) = val_main_v195 (F := Ideal) x0 x1 x2 x4 x6 x7 x8 x9)
    (h102 : (W main_v102 : S800000x64.Idx → EReal) = val_main_v219 (F := Ideal) x0 x1 x2 x4 x6 x7 x8 x9)
    (h77 : (W main_v77 : S100000x64.Idx → EReal) = val_main_v132 (F := Ideal) x0 x1 x2 x4 x6 x7 x8 x9)
    (h80 : (W main_v80 : S100000x64.Idx → EReal) = val_main_v135 (F := Ideal) x0 x1 x2 x4 x6 x7 x8 x9)
    (h1 : (W main_arg1 : (⟨S800000, .i32⟩ : BufTy).Contents (Elt Ideal)) = x1) :
    (StableHlo.after hostOps4_2 W main_v165 : S1x100000x64.Idx → EReal) = val_main_v275 (F := Ideal) x0 x1 x2 x4 x6 x7 x8 x9 := by
  after_results_l2
  rw [(bands_scatter _ _ _ _).2.1]
  after_results_l2
  rw [h133, h125, h102, h77, h80, h1]
  rfl

/-- The third result: the gated embedding's scaled rows scatter-added, plus the embedding, plus its running sum. -/
theorem u_v166
    (h103 : (W main_v103 : S800000x64.Idx → EReal) = val_main_v262 (F := Ideal) x0 x1 x2 x3 x5 x10 x11 x12 x13)
    (h78 : (W main_v78 : S100000x64.Idx → EReal) = val_main_v133 (F := Ideal) x0 x1 x2 x3 x5 x10 x11 x12 x13)
    (h81 : (W main_v81 : S100000x64.Idx → EReal) = val_main_v136 (F := Ideal) x0 x1 x2 x3 x5 x10 x11 x12 x13)
    (h1 : (W main_arg1 : (⟨S800000, .i32⟩ : BufTy).Contents (Elt Ideal)) = x1)
    (h3 : (W main_arg3 : S800000.Idx → EReal) = x3) :
    (StableHlo.after hostOps4_2 W main_v166 : S1x100000x64.Idx → EReal) = val_main_v276 (F := Ideal) x0 x1 x2 x3 x5 x10 x11 x12 x13 := by
  after_results_l2
  rw [(bands_scatter _ _ _ _).2.2]
  after_results_l2
  rw [h103, h78, h81, h1, h3]
  rfl

/-- The last stretch: the three results stacked, from the contents before the stretch. -/
theorem u_v167
    (h133 : (W main_v133 : S100000.Idx → EReal) = val_main_v203 (F := Ideal) x0 x1 x2 x4 x6 x7 x8 x9)
    (h125 : (W main_v125 : S800000.Idx → EReal) = val_main_v195 (F := Ideal) x0 x1 x2 x4 x6 x7 x8 x9)
    (h101 : (W main_v101 : S800000x64.Idx → EReal) = val_main_v144 (F := Ideal) x0 x1 x2 x3)
    (h102 : (W main_v102 : S800000x64.Idx → EReal) = val_main_v219 (F := Ideal) x0 x1 x2 x4 x6 x7 x8 x9)
    (h103 : (W main_v103 : S800000x64.Idx → EReal) = val_main_v262 (F := Ideal) x0 x1 x2 x3 x5 x10 x11 x12 x13)
    (h76 : (W main_v76 : S100000x64.Idx → EReal) = val_main_v131 (F := Ideal) x0 x1 x2 x3)
    (h77 : (W main_v77 : S100000x64.Idx → EReal) = val_main_v132 (F := Ideal) x0 x1 x2 x4 x6 x7 x8 x9)
    (h78 : (W main_v78 : S100000x64.Idx → EReal) = val_main_v133 (F := Ideal) x0 x1 x2 x3 x5 x10 x11 x12 x13)
    (h79 : (W main_v79 : S100000x64.Idx → EReal) = val_main_v134 (F := Ideal) x0 x1 x2 x3)
    (h80 : (W main_v80 : S100000x64.Idx → EReal) = val_main_v135 (F := Ideal) x0 x1 x2 x4 x6 x7 x8 x9)
    (h81 : (W main_v81 : S100000x64.Idx → EReal) = val_main_v136 (F := Ideal) x0 x1 x2 x3 x5 x10 x11 x12 x13)
    (h1 : (W main_arg1 : (⟨S800000, .i32⟩ : BufTy).Contents (Elt Ideal)) = x1)
    (h3 : (W main_arg3 : S800000.Idx → EReal) = x3) :
    (StableHlo.after hostOps4_2 W main_v167 : S3x100000x64.Idx → EReal) = val_main_v277 (F := Ideal) x0 x1 x2 x3 x4 x5 x6 x7 x8 x9 x10 x11 x12 x13 := by
  after_results_l2
  unfold val_main_v277
  refine concat3_congr _ _ _ _ _ _ _ _ _ _ _ ?_ ?_ ?_
  · exact u_v164 _ _ _ _ W h101 h76 h79 h1 h3
  · exact u_v165 _ _ _ _ _ _ _ _ W h133 h125 h102 h77 h80 h1
  · exact u_v166 _ _ _ _ _ _ _ _ _ W h103 h78 h81 h1 h3

end Tail2

/-! ## Layer 2, assembled over the fold -/

section Assembly
variable (m : (ℓ : Loc nD τ sig) → Buf (Elt Ideal) ℓ) (outs : Outs (F := Ideal)) (c : Dev nD)

/-- A buffer that neither region 2, the stretch before region 3 nor region 3 writes. -/
theorem keep10 (r : Ref sig .tc) (h92 : r ∉ ([main_v92] : List (Ref sig .tc))) (h3 : r ∉ hostOps3_W)
    (h124 : r ∉ ([main_v124] : List (Ref sig .tc))) : V10 m outs c r = V7 m outs c r :=
  (V10_of m outs c r h124).trans ((V9_of m outs c r h3).trans (V8_of m outs c r h92))
/-- A buffer the two stretches after region 3 do not write. -/
theorem keep12 (r : Ref sig .tc) (h4 : r ∉ hostOps4_W) (h41 : r ∉ hostOps4_1_W) : V12 m outs c r = V10 m outs c r :=
  (V12_of m outs c r h41).trans (V11_of m outs c r h4)

theorem layer2
    (h8 : outs 8 main_v92 c = Cert.Spec.gated (n := 100000) (V7 m outs c main_v78) (V7 m outs c main_v83) (V7 m outs c main_v85)
      (V7 m outs c main_v87) (V7 m outs c main_v89) (V7 m outs c main_v91))
    (h10 : outs 10 main_v124 c = Cert.Spec.edgeGate (n := 800000) (V9 m outs c main_v110) (V9 m outs c main_v102) (V9 m outs c main_v117)
      (V9 m outs c main_v112) (V9 m outs c main_v114) (V9 m outs c main_v119) (V9 m outs c main_v121) (V9 m outs c main_v123))
    (e0 : (V7 m outs c main_v76 : S100000x64.Idx → EReal) = val_main_v131 (F := Ideal) (V0 m c main_arg0) (V0 m c main_arg1) (V0 m c main_arg2) (V0 m c main_arg3))
    (e1 : (V7 m outs c main_v77 : S100000x64.Idx → EReal) = val_main_v132 (F := Ideal) (V0 m c main_arg0) (V0 m c main_arg1) (V0 m c main_arg2) (V0 m c main_arg4) (V0 m c main_arg6) (V0 m c main_arg7) (V0 m c main_arg8) (V0 m c main_arg9))
    (e2 : (V7 m outs c main_v78 : S100000x64.Idx → EReal) = val_main_v133 (F := Ideal) (V0 m c main_arg0) (V0 m c main_arg1) (V0 m c main_arg2) (V0 m c main_arg3) (V0 m c main_arg5) (V0 m c main_arg10) (V0 m c main_arg11) (V0 m c main_arg12) (V0 m c main_arg13))
    (s0 : (V7 m outs c main_v79 : S100000x64.Idx → EReal) = val_main_v134 (F := Ideal) (V0 m c main_arg0) (V0 m c main_arg1) (V0 m c main_arg2) (V0 m c main_arg3))
    (s1 : (V7 m outs c main_v80 : S100000x64.Idx → EReal) = val_main_v135 (F := Ideal) (V0 m c main_arg0) (V0 m c main_arg1) (V0 m c main_arg2) (V0 m c main_arg4) (V0 m c main_arg6) (V0 m c main_arg7) (V0 m c main_arg8) (V0 m c main_arg9))
    (s2 : (V7 m outs c main_v81 : S100000x64.Idx → EReal) = val_main_v136 (F := Ideal) (V0 m c main_arg0) (V0 m c main_arg1) (V0 m c main_arg2) (V0 m c main_arg3) (V0 m c main_arg5) (V0 m c main_arg10) (V0 m c main_arg11) (V0 m c main_arg12) (V0 m c main_arg13))
    (hg : (V7 m outs c main_v83 : S100000x64.Idx → EReal) = val_main_v244 (F := Ideal) (V0 m c main_arg5))
    (hw1 : (V7 m outs c main_v85 : S64x64.Idx → EReal) = val_main_v226 (F := Ideal) (V0 m c main_arg10))
    (hb1 : (V7 m outs c main_v87 : S64.Idx → EReal) = val_main_v229 (F := Ideal) (V0 m c main_arg11))
    (hw2 : (V7 m outs c main_v89 : S64x64.Idx → EReal) = val_main_v236 (F := Ideal) (V0 m c main_arg12))
    (hb2 : (V7 m outs c main_v91 : S64.Idx → EReal) = val_main_v239 (F := Ideal) (V0 m c main_arg13))
    (ha1 : V7 m outs c main_arg1 = V0 m c main_arg1) (ha2 : V7 m outs c main_arg2 = V0 m c main_arg2)
    (ha3 : V7 m outs c main_arg3 = V0 m c main_arg3) (ha4 : V7 m outs c main_arg4 = V0 m c main_arg4)
    (ha6 : V7 m outs c main_arg6 = V0 m c main_arg6) (ha7 : V7 m outs c main_arg7 = V0 m c main_arg7)
    (ha8 : V7 m outs c main_arg8 = V0 m c main_arg8) (ha9 : V7 m outs c main_arg9 = V0 m c main_arg9) :
    (V13 m outs c main_v167 : S3x100000x64.Idx → EReal) = val_main_v277 (F := Ideal) (V0 m c main_arg0) (V0 m c main_arg1) (V0 m c main_arg2) (V0 m c main_arg3) (V0 m c main_arg4) (V0 m c main_arg5) (V0 m c main_arg6) (V0 m c main_arg7) (V0 m c main_arg8) (V0 m c main_arg9) (V0 m c main_arg10) (V0 m c main_arg11) (V0 m c main_arg12) (V0 m c main_arg13) := by
  -- region 2's output is the reference's gated features of layer 2
  have g2 : (outs 8 main_v92 c : S100000x64.Idx → EReal) = val_main_v254 (F := Ideal) (V0 m c main_arg0) (V0 m c main_arg1) (V0 m c main_arg2) (V0 m c main_arg3) (V0 m c main_arg5) (V0 m c main_arg10) (V0 m c main_arg11) (V0 m c main_arg12) (V0 m c main_arg13) :=
    h8.trans (by rw [e2, hg, hw1, hb1, hw2, hb2]; exact (Cert.BridgeNode.node2 ..).symm)
  have k92 : (V8 m outs c main_v92 : S100000x64.Idx → EReal) = val_main_v254 (F := Ideal) (V0 m c main_arg0) (V0 m c main_arg1) (V0 m c main_arg2) (V0 m c main_arg3) (V0 m c main_arg5) (V0 m c main_arg10) (V0 m c main_arg11) (V0 m c main_arg12) (V0 m c main_arg13) :=
    (Function.update_self _ _ _).trans g2
  -- the stretch before region 3
  have f101 : (V9 m outs c main_v101 : S800000x64.Idx → EReal) = val_main_v144 (F := Ideal) (V0 m c main_arg0) (V0 m c main_arg1) (V0 m c main_arg2) (V0 m c main_arg3) := by
    refine (s3_v101 (V8 m outs c)).trans ?_
    rw [V8_of m outs c main_v76 (by decide), V8_of m outs c main_arg2 (by decide), e0, ha2]
    rfl
  have f102 : (V9 m outs c main_v102 : S800000x64.Idx → EReal) = val_main_v163 (F := Ideal) (V0 m c main_arg0) (V0 m c main_arg1) (V0 m c main_arg2) (V0 m c main_arg4) (V0 m c main_arg6) (V0 m c main_arg7) (V0 m c main_arg8) (V0 m c main_arg9) := by
    refine (s3_v102 (V8 m outs c)).trans ?_
    rw [V8_of m outs c main_v77 (by decide), V8_of m outs c main_arg2 (by decide), e1, ha2]
    rfl
  have f103 : (V9 m outs c main_v103 : S800000x64.Idx → EReal) = val_main_v262 (F := Ideal) (V0 m c main_arg0) (V0 m c main_arg1) (V0 m c main_arg2) (V0 m c main_arg3) (V0 m c main_arg5) (V0 m c main_arg10) (V0 m c main_arg11) (V0 m c main_arg12) (V0 m c main_arg13) := by
    refine (s3_v103 (V8 m outs c)).trans ?_
    rw [k92, V8_of m outs c main_arg2 (by decide), ha2]
    rfl
  have f110 : (V9 m outs c main_v110 : S800000x64.Idx → EReal) = val_main_v156 (F := Ideal) (V0 m c main_arg0) (V0 m c main_arg1) (V0 m c main_arg2) (V0 m c main_arg4) (V0 m c main_arg6) (V0 m c main_arg7) (V0 m c main_arg8) (V0 m c main_arg9) := by
    refine (s3_v110 (V8 m outs c)).trans ?_
    rw [V8_of m outs c main_v77 (by decide), V8_of m outs c main_arg1 (by decide), e1, ha1]
    rfl
  have f112 : (V9 m outs c main_v112 : S64x64.Idx → EReal) = Cert.BridgeEdge.upper (val_main_v166 (F := Ideal) (V0 m c main_arg6)) := by
    refine (s3_v112 (V8 m outs c)).trans ?_
    rw [V8_of m outs c main_arg6 (by decide), ha6]
  have f114 : (V9 m outs c main_v114 : S64x64.Idx → EReal) = Cert.BridgeEdge.lower (val_main_v166 (F := Ideal) (V0 m c main_arg6)) := by
    refine (s3_v114 (V8 m outs c)).trans ?_
    rw [V8_of m outs c main_arg6 (by decide), ha6]
  have f117 : (V9 m outs c main_v117 : S800000x1.Idx → EReal) = val_main_v185 (F := Ideal) (V0 m c main_arg4) := by
    refine (s3_v117 (V8 m outs c)).trans ?_
    rw [V8_of m outs c main_arg4 (by decide), ha4]
  have f119 : (V9 m outs c main_v119 : S64.Idx → EReal) = val_main_v169 (F := Ideal) (V0 m c main_arg7) := by
    refine (s3_v119 (V8 m outs c)).trans ?_
    rw [V8_of m outs c main_arg7 (by decide), ha7]
  have f121 : (V9 m outs c main_v121 : S64x1.Idx → EReal) = val_main_v176 (F := Ideal) (V0 m c main_arg8) := by
    refine (s3_v121 (V8 m outs c)).trans ?_
    rw [V8_of m outs c main_arg8 (by decide), ha8]
  have f123 : (V9 m outs c main_v123 : S1.Idx → EReal) = val_main_v179 (F := Ideal) (V0 m c main_arg9) := by
    refine (s3_v123 (V8 m outs c)).trans ?_
    rw [V8_of m outs c main_arg9 (by decide), ha9]
  -- region 3's output is the reference's edge weights of layer 2
  have g3 : (outs 10 main_v124 c : S800000x1.Idx → EReal) = val_main_v194 (F := Ideal) (V0 m c main_arg0) (V0 m c main_arg1) (V0 m c main_arg2) (V0 m c main_arg4) (V0 m c main_arg6) (V0 m c main_arg7) (V0 m c main_arg8) (V0 m c main_arg9) :=
    h10.trans (by rw [f110, f102, f117, f112, f114, f119, f121, f123]; exact (Cert.BridgeEdge.edge2 ..).symm)
  have k124 : (V10 m outs c main_v124 : S800000x1.Idx → EReal) = val_main_v194 (F := Ideal) (V0 m c main_arg0) (V0 m c main_arg1) (V0 m c main_arg2) (V0 m c main_arg4) (V0 m c main_arg6) (V0 m c main_arg7) (V0 m c main_arg8) (V0 m c main_arg9) :=
    (Function.update_self _ _ _).trans g3
  have k1 : V10 m outs c main_arg1 = V0 m c main_arg1 :=
    (keep10 m outs c main_arg1 (by decide) (by decide) (by decide)).trans ha1
  -- the stretches after region 3
  have p133 : (V12 m outs c main_v133 : S100000.Idx → EReal) = val_main_v203 (F := Ideal) (V0 m c main_arg0) (V0 m c main_arg1) (V0 m c main_arg2) (V0 m c main_arg4) (V0 m c main_arg6) (V0 m c main_arg7) (V0 m c main_arg8) (V0 m c main_arg9) :=
    t41_v133 _ _ _ _ _ _ _ _ (V11 m outs c) (t4_v130 _ _ _ _ _ _ _ _ (V10 m outs c) k124 k1)
      (t4_v132 _ _ _ _ _ _ _ _ (V10 m outs c) k124 k1) (t4_cst16 (V10 m outs c))
  have p125 : (V12 m outs c main_v125 : S800000.Idx → EReal) = val_main_v195 (F := Ideal) (V0 m c main_arg0) (V0 m c main_arg1) (V0 m c main_arg2) (V0 m c main_arg4) (V0 m c main_arg6) (V0 m c main_arg7) (V0 m c main_arg8) (V0 m c main_arg9) :=
    (V12_of m outs c main_v125 (by decide)).trans (t4_v125 _ _ _ _ _ _ _ _ (V10 m outs c) k124)
  have q9 : ∀ r : Ref sig .tc, r ∉ hostOps4_W → r ∉ hostOps4_1_W → r ∉ ([main_v124] : List (Ref sig .tc)) →
      V12 m outs c r = V9 m outs c r := fun r h4 h41 h124 =>
    (keep12 m outs c r h4 h41).trans (V10_of m outs c r h124)
  have q7 : ∀ r : Ref sig .tc, r ∉ hostOps4_W → r ∉ hostOps4_1_W → r ∉ ([main_v92] : List (Ref sig .tc)) → r ∉ hostOps3_W →
      r ∉ ([main_v124] : List (Ref sig .tc)) → V12 m outs c r = V7 m outs c r := fun r h4 h41 h92 h3 h124 =>
    (keep12 m outs c r h4 h41).trans (keep10 m outs c r h92 h3 h124)
  exact u_v167 _ _ _ _ _ _ _ _ _ _ _ _ _ _ (V12 m outs c) p133 p125
    ((q9 main_v101 (by decide) (by decide) (by decide)).trans f101)
    (((q9 main_v102 (by decide) (by decide) (by decide)).trans f102).trans rfl)
    ((q9 main_v103 (by decide) (by decide) (by decide)).trans f103)
    ((q7 main_v76 (by decide) (by decide) (by decide) (by decide) (by decide)).trans e0)
    ((q7 main_v77 (by decide) (by decide) (by decide) (by decide) (by decide)).trans e1)
    ((q7 main_v78 (by decide) (by decide) (by decide) (by decide) (by decide)).trans e2)
    ((q7 main_v79 (by decide) (by decide) (by decide) (by decide) (by decide)).trans s0)
    ((q7 main_v80 (by decide) (by decide) (by decide) (by decide) (by decide)).trans s1)
    ((q7 main_v81 (by decide) (by decide) (by decide) (by decide) (by decide)).trans s2)
    ((q7 main_arg1 (by decide) (by decide) (by decide) (by decide) (by decide)).trans ha1)
    ((q7 main_arg3 (by decide) (by decide) (by decide) (by decide) (by decide)).trans ha3)

end Assembly

end Cert.Bridge2
-- ==== Proof.Bridge.lean ====
import proofs.«170728_j33028298506953_2_alg».proof.Proof.Bridge1
import proofs.«170728_j33028298506953_2_alg».proof.Proof.Bridge2

/-!
# The kernel program's result is the reference program's last stage

The kernel program's result buffer is the fold of its host operations around the four regions' outputs. With the
regions' outputs equal to the specification's functions of their operand arrays, layer 1 of that fold gives the six
arrays handed to layer 2 as the reference program's stages of the argument arrays, and layer 2 carries them to the
reference's last stage. The two programs are run on argument arrays that agree, so the stage may be read at either
program's arguments.
-/

namespace Cert.Bridge
open Cert.KernelIdeal Cert.KernelIdeal.Gen Idealize.ShloMosaic Idealize.ShloMosaic.TcCoe Idealize.SL.Sem

theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (outs : Cert.KernelIdeal.Gen.Outs (F := Ideal))
    (h2 : outs 2 main_v10 c = Cert.Spec.gated (n := 100000) (V1 m c main_arg0) (V1 m c main_v1) (V1 m c main_v3) (V1 m c main_v5) (V1 m c main_v7) (V1 m c main_v9))
    (h4 : outs 4 main_v42 c = Cert.Spec.edgeGate (n := 800000) (V3 m outs c main_v28) (V3 m outs c main_v20) (V3 m outs c main_v35) (V3 m outs c main_v30) (V3 m outs c main_v32) (V3 m outs c main_v37) (V3 m outs c main_v39) (V3 m outs c main_v41))
    (h8 : outs 8 main_v92 c = Cert.Spec.gated (n := 100000) (V7 m outs c main_v78) (V7 m outs c main_v83) (V7 m outs c main_v85) (V7 m outs c main_v87) (V7 m outs c main_v89) (V7 m outs c main_v91))
    (h10 : outs 10 main_v124 c = Cert.Spec.edgeGate (n := 800000) (V9 m outs c main_v110) (V9 m outs c main_v102) (V9 m outs c main_v117) (V9 m outs c main_v112) (V9 m outs c main_v114) (V9 m outs c main_v119) (V9 m outs c main_v121) (V9 m outs c main_v123))
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    V13 m outs c main_v167 = Cert.ReferenceIdeal.ReadP.val_main_v277 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) := by
  obtain ⟨a0, a1, a2, a3, a4, a5, a6, a7, a8, a9, a10, a11, a12, a13⟩ := hagree
  rw [a0, a1, a2, a3, a4, a5, a6, a7, a8, a9, a10, a11, a12, a13]
  exact Cert.Bridge2.layer2 m outs c h8 h10
    (Cert.Bridge1.V7_v76 m outs c h2 h4) (Cert.Bridge1.V7_v77 m outs c h2 h4) (Cert.Bridge1.V7_v78 m outs c h2 h4)
    (Cert.Bridge1.V7_v79 m outs c h2 h4) (Cert.Bridge1.V7_v80 m outs c h2 h4) (Cert.Bridge1.V7_v81 m outs c h2 h4)
    (Cert.Bridge1.V7_v83 m outs c) (Cert.Bridge1.V7_v85 m outs c) (Cert.Bridge1.V7_v87 m outs c)
    (Cert.Bridge1.V7_v89 m outs c) (Cert.Bridge1.V7_v91 m outs c)
    (Cert.Bridge1.keepV7 m outs c main_arg1 (by decide) (by decide) (by decide) (by decide) (by decide) (by decide) (by decide))
    (Cert.Bridge1.keepV7 m outs c main_arg2 (by decide) (by decide) (by decide) (by decide) (by decide) (by decide) (by decide))
    (Cert.Bridge1.keepV7 m outs c main_arg3 (by decide) (by decide) (by decide) (by decide) (by decide) (by decide) (by decide))
    (Cert.Bridge1.keepV7 m outs c main_arg4 (by decide) (by decide) (by decide) (by decide) (by decide) (by decide) (by decide))
    (Cert.Bridge1.keepV7 m outs c main_arg6 (by decide) (by decide) (by decide) (by decide) (by decide) (by decide) (by decide))
    (Cert.Bridge1.keepV7 m outs c main_arg7 (by decide) (by decide) (by decide) (by decide) (by decide) (by decide) (by decide))
    (Cert.Bridge1.keepV7 m outs c main_arg8 (by decide) (by decide) (by decide) (by decide) (by decide) (by decide) (by decide))
    (Cert.Bridge1.keepV7 m outs c main_arg9 (by decide) (by decide) (by decide) (by decide) (by decide) (by decide) (by decide))

end Cert.Bridge
-- ==== Proof.lean ====
/-
  The proof of `Cert.Claim`: the three frames, that the idealized kernel program is the printed one's sanctioned
  idealization, and that the idealized kernel program and the idealized reference end with equal results.

  The programs. Both compute two layers of a graph network on 100000 nodes with 64 features and 800000 edges. In
  each layer three feature arrays e0, e1, e2 are propagated along the edges: rows of a feature array are gathered at
  the edges' tail nodes, scaled per edge, and summed into the edges' head nodes. Branch 0 scales by the given edge
  values. Branch 1 scales by learned weights: a perceptron of the head and tail rows of e1, passed with the edge's
  noise through the logistic function, normalised by the sum of the weights into each head node. Branch 2 propagates
  e2 gated entrywise by the logistic function of a perceptron of e2's row plus noise. The sums s0, s1, s2 of the
  layers' feature arrays are stacked as the result.

  The kernel program runs the two perceptrons as grid kernels over blocks of rows, gathers the three feature arrays
  in one pass as one array of 192 columns, and scatters the three scaled arrays in one pass likewise; the reference
  writes every step as a whole-array operation. Over the extended reals the two agree exactly: a block of rows of a
  perceptron's output is the perceptron of that block of rows; a column band of the gathered (or scattered) wide
  array is the gather (or scatter) of that band; the product of a concatenated row with a 128-row matrix is the sum
  of the two half products; and the kernel's logistic function is the quotient 1 / (1 + exp (-x)) the reference
  spells out. No finiteness of the inputs is used: only that extended-real addition and multiplication are
  commutative and associative.

  The frames of the two kernel programs come from one run of @main's thirteen items (host stretches and the four
  regions), the reference's from its run as a list of host operations. The idealization rewrote nothing, so its
  sanction has nothing to state.
-/
import proofs.«170728_j33028298506953_2_alg».proof.Defs
import proofs.«170728_j33028298506953_2_alg».proof.Proof.Gen.Kernel
import proofs.«170728_j33028298506953_2_alg».proof.Proof.Gen.KernelIdeal
import proofs.«170728_j33028298506953_2_alg».proof.Proof.Gen.ReferenceIdeal
import proofs.«170728_j33028298506953_2_alg».proof.Proof.Gen.Pre_finite_inputs
import proofs.«170728_j33028298506953_2_alg».proof.Proof.KClaims
import proofs.«170728_j33028298506953_2_alg».proof.Proof.KIClaims
import proofs.«170728_j33028298506953_2_alg».proof.Proof.KIOuts
import proofs.«170728_j33028298506953_2_alg».proof.Proof.RefRunHand
import proofs.«170728_j33028298506953_2_alg».proof.Proof.Bridge
import Idealize.ShloMosaic.Adequacy
import Idealize.ShloMosaic.Init

noncomputable section

namespace Cert.Proof

open Idealize.ShloMosaic Idealize.ShloMosaic.TcCoe Idealize.SL.Sem

/-- The printed kernel program runs to the end, faults nowhere and leaves its arguments unchanged. -/
theorem frame_k : Cert.frame_Kernel := fun m ρ _ => Cert.Kernel.Hand.frame_main (F := Bits) m ρ

/-- So does its idealization. -/
theorem frame_ki : Cert.frame_KernelIdeal := fun m ρ _ => Cert.KernelIdeal.Hand.frame_main (F := Ideal) m ρ

/-- So does the reference: its run with the result dropped. -/
theorem frame_ri : Cert.frame_ReferenceIdeal := fun m ρ _ =>
  (θ_run Cert.ReferenceIdeal.defs _ _).mono (fun _ h c => (h c).2) (Cert.ReferenceIdeal.RunHand.run (F := Ideal) m ρ)

/-- The idealization rewrote no operation. -/
theorem preserves : Cert.preserves_Kernel_KernelIdeal := trivial

/-- From memories agreeing on the arguments both idealized programs run, and the reference's result is the kernel
    program's: the fold's term for the result buffer, with each region's output the specification's function of its
    operands, equals the reference's last stage. -/
theorem algebraic : Cert.algebraic_KernelIdeal_ReferenceIdeal := by
  intro m ρ m' ρ' _ hagree
  refine ⟨fun c => Cert.KernelIdeal.Gen.V13 m (Cert.KernelIdeal.Hand.outs m) c Cert.KernelIdeal.main_v167,
    Cert.KernelIdeal.Hand.run_value m ρ, ?_⟩
  refine (θ_run Cert.ReferenceIdeal.defs _ _).mono (fun _ h c => ⟨(h c).1.trans ?_, (h c).2⟩)
    (Cert.ReferenceIdeal.RunHand.run (F := Ideal) m' ρ')
  exact (Cert.Bridge.result_eq m m' c (Cert.KernelIdeal.Hand.outs m) (Cert.KernelIdeal.Hand.out2 m c)
    (Cert.KernelIdeal.Hand.out4 m c) (Cert.KernelIdeal.Hand.out8 m c) (Cert.KernelIdeal.Hand.out10 m c) (hagree c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
